-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v351)) (v1 : (c : Dev Cert.KernelIdeal.nD) → Buf (Elt Ideal) ((c.tc : Thread Cert.KernelIdeal.nD Cert.KernelIdeal.τ).loc Cert.KernelIdeal.main_v278)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v351) = v0 c
          ∧ r.2.mem ((c.tc : Thread Cert.KernelIdeal.nD Cert.KernelIdeal.τ).loc Cert.KernelIdeal.main_v278) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v326) = v0 c
          ∧ r.2.mem ((c.tc : Thread Cert.ReferenceIdeal.nD Cert.ReferenceIdeal.τ).loc Cert.ReferenceIdeal.main_v256) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x32 : Shape := ⟨2, ![5000, 32]⟩
abbrev S5000x1 : Shape := ⟨2, ![5000, 1]⟩
abbrev S100000x16 : Shape := ⟨2, ![100000, 16]⟩
abbrev S100000x32 : Shape := ⟨2, ![100000, 32]⟩
abbrev S2x80000 : Shape := ⟨2, ![2, 80000]⟩
abbrev S5000 : Shape := ⟨1, ![5000]⟩
abbrev S2x600000 : Shape := ⟨2, ![2, 600000]⟩
abbrev S300000 : Shape := ⟨1, ![300000]⟩
abbrev S64x128 : Shape := ⟨2, ![64, 128]⟩
abbrev S128 : Shape := ⟨1, ![128]⟩
abbrev S3x256x128 : Shape := ⟨3, ![3, 256, 128]⟩
abbrev S3x128 : Shape := ⟨2, ![3, 128]⟩
abbrev S3x384x128 : Shape := ⟨3, ![3, 384, 128]⟩
abbrev S48x128 : Shape := ⟨2, ![48, 128]⟩
abbrev S259x128 : Shape := ⟨2, ![259, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S5000x32 : S_.BroadcastsInDim S5000x32 (![] : Fin 0 → Fin S5000x32.rank)
  reducesTo_S5000x32_S_d0_1 : S5000x32.ReducesTo [0, 1] S_
  h_S_ : 0 < S_.numel
  bcast_S_S5000x1 : S_.BroadcastsInDim S5000x1 (![] : Fin 0 → Fin S5000x1.rank)
  reducesTo_S5000x1_S_d0_1 : S5000x1.ReducesTo [0, 1] S_
  bcast_S_S100000x16 : S_.BroadcastsInDim S100000x16 (![] : Fin 0 → Fin S100000x16.rank)
  reducesTo_S100000x16_S_d0_1 : S100000x16.ReducesTo [0, 1] S_
  bcast_S_S100000x32 : S_.BroadcastsInDim S100000x32 (![] : Fin 0 → Fin S100000x32.rank)
  reducesTo_S100000x32_S_d0_1 : S100000x32.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_
  bcast_S_S3x384x128 : S_.BroadcastsInDim S3x384x128 (![] : Fin 0 → Fin S3x384x128.rank)
  reducesTo_S3x384x128_S_d0_1_2 : S3x384x128.ReducesTo [0, 1, 2] S_
  bcast_S_S48x128 : S_.BroadcastsInDim S48x128 (![] : Fin 0 → Fin S48x128.rank)
  reducesTo_S48x128_S_d0_1 : S48x128.ReducesTo [0, 1] S_
  bcast_S_S259x128 : S_.BroadcastsInDim S259x128 (![] : Fin 0 → Fin S259x128.rank)
  reducesTo_S259x128_S_d0_1 : S259x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg23 : FVec F S128 .f32) (main_arg24 : FVec F S128x1 .f32) (main_arg25 : FVec F S1 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg23
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x1 .f32 := Host.absf main_arg24
  let main_cst_36 : FVec F S_ .f32 := constant S_ .f32 0x7F800000#32
  let main_v95 : FVec F S128x1 .f32 := broadcastInDim S128x1 ![] bcast_S_S128x1 main_cst_36
  let main_v96 : IVec S128x1 1 := cmpf .olt main_v94 main_v95
  let main_c_37 : IVec S_ 1 := constantI S_ 1 1#1
  let main_v97 : IVec S_ 1 := (fun x v => Host.reduce IntOp.andi x v reducesTo_S128x1_S_d0_1 h_S_) main_v96 main_c_37
  let main_v98 : IVec S_ 1 := andi main_v93 main_v97
  let main_v99 : FVec F S1 .f32 := Host.absf main_arg25
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg19 : FVec F S128 .f32) (main_arg20 : FVec F S256x128 .f32) (main_arg21 : FVec F S128 .f32) (main_arg22 : FVec F S256x128 .f32) (main_arg23 : FVec F S128 .f32) (main_arg24 : FVec F S128x1 .f32) (main_arg25 : FVec F S1 .f32) (main_v63 : IVec S_ 1) (main_v67 : IVec S_ 1) : IVec S_ 1 :=
  let main_v68 : IVec S_ 1 := andi main_v63 main_v67
  let main_v69 : FVec F S128 .f32 := Host.absf main_arg19
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S256x128 .f32 := Host.absf main_arg20
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg21
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S256x128 .f32 := Host.absf main_arg22
  let main_cst_32 : FVec F S_ .f32 := constant S_ .f32 0x7F800000#32
  fn_part5 (F := F) main_arg23 main_arg24 main_arg25 main_v83 main_v84 main_cst_32

def fn_part3 {F : FTy → Type} [FloatOps F] (main_arg16 : FVec F S48x128 .f32) (main_arg17 : FVec F S128 .f32) (main_arg18 : FVec F S259x128 .f32) (main_arg19 : FVec F S128 .f32) (main_arg20 : FVec F S256x128 .f32) (main_arg21 : FVec F S128 .f32) (main_arg22 : FVec F S256x128 .f32) (main_arg23 : FVec F S128 .f32) (main_arg24 : FVec F S128x1 .f32) (main_arg25 : FVec F S1 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S48x128 .f32 := Host.absf main_arg16
  let main_cst_20 : FVec F S_ .f32 := constant S_ .f32 0x7F800000#32
  let main_v55 : FVec F S48x128 .f32 := broadcastInDim S48x128 ![] bcast_S_S48x128 main_cst_20
  let main_v56 : IVec S48x128 1 := cmpf .olt main_v54 main_v55
  let main_c_21 : IVec S_ 1 := constantI S_ 1 1#1
  let main_v57 : IVec S_ 1 := (fun x v => Host.reduce IntOp.andi x v reducesTo_S48x128_S_d0_1 h_S_) main_v56 main_c_21
  let main_v58 : IVec S_ 1 := andi main_v53 main_v57
  let main_v59 : FVec F S128 .f32 := Host.absf main_arg17
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S259x128 .f32 := Host.absf main_arg18
  let main_cst_24 : FVec F S_ .f32 := constant S_ .f32 0x7F800000#32
  let main_v65 : FVec F S259x128 .f32 := broadcastInDim S259x128 ![] bcast_S_S259x128 main_cst_24
  let main_v66 : IVec S259x128 1 := cmpf .olt main_v64 main_v65
  let main_c_25 : IVec S_ 1 := constantI S_ 1 1#1
  let main_v67 : IVec S_ 1 := (fun x v => Host.reduce IntOp.andi x v reducesTo_S259x128_S_d0_1 h_S_) main_v66 main_c_25
  fn_part4 (F := F) main_arg19 main_arg20 main_arg21 main_arg22 main_arg23 main_arg24 main_arg25 main_v63 main_v67

def fn_part2 {F : FTy → Type} [FloatOps F] (main_arg12 : FVec F S3x256x128 .f32) (main_arg13 : FVec F S3x128 .f32) (main_arg14 : FVec F S3x384x128 .f32) (main_arg15 : FVec F S3x128 .f32) (main_arg16 : FVec F S48x128 .f32) (main_arg17 : FVec F S128 .f32) (main_arg18 : FVec F S259x128 .f32) (main_arg19 : FVec F S128 .f32) (main_arg20 : FVec F S256x128 .f32) (main_arg21 : FVec F S128 .f32) (main_arg22 : FVec F S256x128 .f32) (main_arg23 : FVec F S128 .f32) (main_arg24 : FVec F S128x1 .f32) (main_arg25 : FVec F S1 .f32) (main_v33 : IVec S_ 1) : IVec S_ 1 :=
  let main_v34 : FVec F S3x256x128 .f32 := Host.absf main_arg12
  let main_cst_12 : FVec F S_ .f32 := constant S_ .f32 0x7F800000#32
  let main_v35 : FVec F S3x256x128 .f32 := broadcastInDim S3x256x128 ![] bcast_S_S3x256x128 main_cst_12
  let main_v36 : IVec S3x256x128 1 := cmpf .olt main_v34 main_v35
  let main_c_13 : IVec S_ 1 := constantI S_ 1 1#1
  let main_v37 : IVec S_ 1 := (fun x v => Host.reduce IntOp.andi x v reducesTo_S3x256x128_S_d0_1_2 h_S_) main_v36 main_c_13
  let main_v38 : IVec S_ 1 := andi main_v33 main_v37
  let main_v39 : FVec F S3x128 .f32 := Host.absf main_arg13
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x384x128 .f32 := Host.absf main_arg14
  let main_cst_16 : FVec F S_ .f32 := constant S_ .f32 0x7F800000#32
  let main_v45 : FVec F S3x384x128 .f32 := broadcastInDim S3x384x128 ![] bcast_S_S3x384x128 main_cst_16
  let main_v46 : IVec S3x384x128 1 := cmpf .olt main_v44 main_v45
  let main_c_17 : IVec S_ 1 := constantI S_ 1 1#1
  let main_v47 : IVec S_ 1 := (fun x v => Host.reduce IntOp.andi x v reducesTo_S3x384x128_S_d0_1_2 h_S_) main_v46 main_c_17
  let main_v48 : IVec S_ 1 := andi main_v43 main_v47
  let main_v49 : FVec F S3x128 .f32 := Host.absf main_arg15
  let main_cst_18 : FVec F S_ .f32 := constant S_ .f32 0x7F800000#32
  let main_v50 : FVec F S3x128 .f32 := broadcastInDim S3x128 ![] bcast_S_S3x128 main_cst_18
  fn_part3 (F := F) main_arg16 main_arg17 main_arg18 main_arg19 main_arg20 main_arg21 main_arg22 main_arg23 main_arg24 main_arg25 main_v48 main_v49 main_v50

def fn_part1 {F : FTy → Type} [FloatOps F] (main_arg4 : FVec F S100000x32 .f32) (main_arg10 : FVec F S64x128 .f32) (main_arg11 : FVec F S128 .f32) (main_arg12 : FVec F S3x256x128 .f32) (main_arg13 : FVec F S3x128 .f32) (main_arg14 : FVec F S3x384x128 .f32) (main_arg15 : FVec F S3x128 .f32) (main_arg16 : FVec F S48x128 .f32) (main_arg17 : FVec F S128 .f32) (main_arg18 : FVec F S259x128 .f32) (main_arg19 : FVec F S128 .f32) (main_arg20 : FVec F S256x128 .f32) (main_arg21 : FVec F S128 .f32) (main_arg22 : FVec F S256x128 .f32) (main_arg23 : FVec F S128 .f32) (main_arg24 : FVec F S128x1 .f32) (main_arg25 : FVec F S1 .f32) (main_v13 : IVec S_ 1) (main_v16 : IVec S100000x16 1) : IVec S_ 1 :=
  let main_c_5 : IVec S_ 1 := constantI S_ 1 1#1
  let main_v17 : IVec S_ 1 := (fun x v => Host.reduce IntOp.andi x v reducesTo_S100000x16_S_d0_1 h_S_) main_v16 main_c_5
  let main_v18 : IVec S_ 1 := andi main_v13 main_v17
  let main_v19 : FVec F S100000x32 .f32 := Host.absf main_arg4
  let main_cst_6 : FVec F S_ .f32 := constant S_ .f32 0x7F800000#32
  let main_v20 : FVec F S100000x32 .f32 := broadcastInDim S100000x32 ![] bcast_S_S100000x32 main_cst_6
  let main_v21 : IVec S100000x32 1 := cmpf .olt main_v19 main_v20
  let main_c_7 : IVec S_ 1 := constantI S_ 1 1#1
  let main_v22 : IVec S_ 1 := (fun x v => Host.reduce IntOp.andi x v reducesTo_S100000x32_S_d0_1 h_S_) main_v21 main_c_7
  let main_v23 : IVec S_ 1 := andi main_v18 main_v22
  let main_v24 : FVec F S64x128 .f32 := Host.absf main_arg10
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg11
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg12 main_arg13 main_arg14 main_arg15 main_arg16 main_arg17 main_arg18 main_arg19 main_arg20 main_arg21 main_arg22 main_arg23 main_arg24 main_arg25 main_v33

def fn {F : FTy → Type} [FloatOps F] (main_arg0 : FVec F S5000x32 .f32) (main_arg1 : FVec F S5000x32 .f32) (main_arg2 : FVec F S5000x1 .f32) (main_arg3 : FVec F S100000x16 .f32) (main_arg4 : FVec F S100000x32 .f32) (main_arg5 : IVec S2x80000 32) (main_arg6 : IVec S5000 32) (main_arg7 : IVec S2x600000 32) (main_arg8 : IVec S300000 32) (main_arg9 : IVec S300000 32) (main_arg10 : FVec F S64x128 .f32) (main_arg11 : FVec F S128 .f32) (main_arg12 : FVec F S3x256x128 .f32) (main_arg13 : FVec F S3x128 .f32) (main_arg14 : FVec F S3x384x128 .f32) (main_arg15 : FVec F S3x128 .f32) (main_arg16 : FVec F S48x128 .f32) (main_arg17 : FVec F S128 .f32) (main_arg18 : FVec F S259x128 .f32) (main_arg19 : FVec F S128 .f32) (main_arg20 : FVec F S256x128 .f32) (main_arg21 : FVec F S128 .f32) (main_arg22 : FVec F S256x128 .f32) (main_arg23 : FVec F S128 .f32) (main_arg24 : FVec F S128x1 .f32) (main_arg25 : FVec F S1 .f32) : IVec S_ 1 :=
  let main_v0 : FVec F S5000x32 .f32 := Host.absf main_arg0
  let main_cst : FVec F S_ .f32 := constant S_ .f32 0x7F800000#32
  let main_v1 : FVec F S5000x32 .f32 := broadcastInDim S5000x32 ![] bcast_S_S5000x32 main_cst
  let main_v2 : IVec S5000x32 1 := cmpf .olt main_v0 main_v1
  let main_c : IVec S_ 1 := constantI S_ 1 1#1
  let main_v3 : IVec S_ 1 := (fun x v => Host.reduce IntOp.andi x v reducesTo_S5000x32_S_d0_1 h_S_) main_v2 main_c
  let main_v4 : FVec F S5000x32 .f32 := Host.absf main_arg1
  let main_cst_0 : FVec F S_ .f32 := constant S_ .f32 0x7F800000#32
  let main_v5 : FVec F S5000x32 .f32 := broadcastInDim S5000x32 ![] bcast_S_S5000x32 main_cst_0
  let main_v6 : IVec S5000x32 1 := cmpf .olt main_v4 main_v5
  let main_c_1 : IVec S_ 1 := constantI S_ 1 1#1
  let main_v7 : IVec S_ 1 := (fun x v => Host.reduce IntOp.andi x v reducesTo_S5000x32_S_d0_1 h_S_) main_v6 main_c_1
  let main_v8 : IVec S_ 1 := andi main_v3 main_v7
  let main_v9 : FVec F S5000x1 .f32 := Host.absf main_arg2
  let main_cst_2 : FVec F S_ .f32 := constant S_ .f32 0x7F800000#32
  let main_v10 : FVec F S5000x1 .f32 := broadcastInDim S5000x1 ![] bcast_S_S5000x1 main_cst_2
  let main_v11 : IVec S5000x1 1 := cmpf .olt main_v9 main_v10
  let main_c_3 : IVec S_ 1 := constantI S_ 1 1#1
  let main_v12 : IVec S_ 1 := (fun x v => Host.reduce IntOp.andi x v reducesTo_S5000x1_S_d0_1 h_S_) main_v11 main_c_3
  let main_v13 : IVec S_ 1 := andi main_v8 main_v12
  let main_v14 : FVec F S100000x16 .f32 := Host.absf main_arg3
  let main_cst_4 : FVec F S_ .f32 := constant S_ .f32 0x7F800000#32
  let main_v15 : FVec F S100000x16 .f32 := broadcastInDim S100000x16 ![] bcast_S_S100000x16 main_cst_4
  let main_v16 : IVec S100000x16 1 := cmpf .olt main_v14 main_v15
  fn_part1 (F := F) main_arg4 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S5000x32 : Shape := ⟨2, ![5000, 32]⟩
abbrev S5000x1 : Shape := ⟨2, ![5000, 1]⟩
abbrev S100000x16 : Shape := ⟨2, ![100000, 16]⟩
abbrev S100000x32 : Shape := ⟨2, ![100000, 32]⟩
abbrev S2x80000 : Shape := ⟨2, ![2, 80000]⟩
abbrev S5000 : Shape := ⟨1, ![5000]⟩
abbrev S2x600000 : Shape := ⟨2, ![2, 600000]⟩
abbrev S300000 : Shape := ⟨1, ![300000]⟩
abbrev S64x128 : Shape := ⟨2, ![64, 128]⟩
abbrev S128 : Shape := ⟨1, ![128]⟩
abbrev S3x256x128 : Shape := ⟨3, ![3, 256, 128]⟩
abbrev S3x128 : Shape := ⟨2, ![3, 128]⟩
abbrev S3x384x128 : Shape := ⟨3, ![3, 384, 128]⟩
abbrev S48x128 : Shape := ⟨2, ![48, 128]⟩
abbrev S259x128 : Shape := ⟨2, ![259, 128]⟩
abbrev S256x128 : Shape := ⟨2, ![256, 128]⟩
abbrev S128x1 : Shape := ⟨2, ![128, 1]⟩
abbrev S1 : Shape := ⟨1, ![1]⟩
abbrev S5000x64 : Shape := ⟨2, ![5000, 64]⟩
abbrev S1x128 : Shape := ⟨2, ![1, 128]⟩
abbrev S5000x128 : Shape := ⟨2, ![5000, 128]⟩
abbrev S1x80000 : Shape := ⟨2, ![1, 80000]⟩
abbrev S80000 : Shape := ⟨1, ![80000]⟩
abbrev S_ : Shape := ⟨0, ![]⟩
abbrev S1x256x128 : Shape := ⟨3, ![1, 256, 128]⟩
abbrev S128x128 : Shape := ⟨2, ![128, 128]⟩
abbrev S128x256 : Shape := ⟨2, ![128, 256]⟩
abbrev S256 : Shape := ⟨1, ![256]⟩
abbrev S1x256 : Shape := ⟨2, ![1, 256]⟩
abbrev S5000x256 : Shape := ⟨2, ![5000, 256]⟩
abbrev S80000x1 : Shape := ⟨2, ![80000, 1]⟩
abbrev S80000x128 : Shape := ⟨2, ![80000, 128]⟩
abbrev S8000x128 : Shape := ⟨2, ![8000, 128]⟩
abbrev S10x128 : Shape := ⟨2, ![10, 128]⟩
abbrev S10x1 : Shape := ⟨2, ![10, 1]⟩
abbrev S5000x384 : Shape := ⟨2, ![5000, 384]⟩
abbrev S1x384x128 : Shape := ⟨3, ![1, 384, 128]⟩
abbrev S384x128 : Shape := ⟨2, ![384, 128]⟩
abbrev S100000x48 : Shape := ⟨2, ![100000, 48]⟩
abbrev S100000x128 : Shape := ⟨2, ![100000, 128]⟩
abbrev S10000x48 : Shape := ⟨2, ![10000, 48]⟩
abbrev S10000x128 : Shape := ⟨2, ![10000, 128]⟩
abbrev S300000x1 : Shape := ⟨2, ![300000, 1]⟩
abbrev S300000x128 : Shape := ⟨2, ![300000, 128]⟩
abbrev S1x1 : Shape := ⟨2, ![1, 1]⟩
abbrev S12000x128 : Shape := ⟨2, ![12000, 128]⟩
abbrev S12000x1 : Shape := ⟨2, ![12000, 1]⟩
abbrev S12000 : Shape := ⟨1, ![12000]⟩
abbrev S100000x3 : Shape := ⟨2, ![100000, 3]⟩
abbrev S1x600000 : Shape := ⟨2, ![1, 600000]⟩
abbrev S600000 : Shape := ⟨1, ![600000]⟩
abbrev S131x128 : Shape := ⟨2, ![131, 128]⟩
abbrev S131x256 : Shape := ⟨2, ![131, 256]⟩
abbrev S100000x131 : Shape := ⟨2, ![100000, 131]⟩
abbrev S100000x256 : Shape := ⟨2, ![100000, 256]⟩
abbrev S10000x131 : Shape := ⟨2, ![10000, 131]⟩
abbrev S10000x256 : Shape := ⟨2, ![10000, 256]⟩
abbrev S600000x1 : Shape := ⟨2, ![600000, 1]⟩
abbrev S600000x128 : Shape := ⟨2, ![600000, 128]⟩
abbrev S100000x1 : Shape := ⟨2, ![100000, 1]⟩

abbrev nBuf : Space → Nat
  | .hbm => 447
  | .vmem => 98
  | .smem => 0
  | _ => 0

abbrev hbmTy0_0 (i : Nat) : BufTy := match i % 128 with
  | 0 => ⟨S5000x32, .f32⟩
  | 1 => ⟨S5000x32, .f32⟩
  | 2 => ⟨S5000x1, .f32⟩
  | 3 => ⟨S100000x16, .f32⟩
  | 4 => ⟨S100000x32, .f32⟩
  | 5 => ⟨S2x80000, .i32⟩
  | 6 => ⟨S5000, .i32⟩
  | 7 => ⟨S2x600000, .i32⟩
  | 8 => ⟨S300000, .i32⟩
  | 9 => ⟨S300000, .i32⟩
  | 10 => ⟨S64x128, .f32⟩
  | 11 => ⟨S128, .f32⟩
  | 12 => ⟨S3x256x128, .f32⟩
  | 13 => ⟨S3x128, .f32⟩
  | 14 => ⟨S3x384x128, .f32⟩
  | 15 => ⟨S3x128, .f32⟩
  | 16 => ⟨S48x128, .f32⟩
  | 17 => ⟨S128, .f32⟩
  | 18 => ⟨S259x128, .f32⟩
  | 19 => ⟨S128, .f32⟩
  | 20 => ⟨S256x128, .f32⟩
  | 21 => ⟨S128, .f32⟩
  | 22 => ⟨S256x128, .f32⟩
  | 23 => ⟨S128, .f32⟩
  | 24 => ⟨S128x1, .f32⟩
  | 25 => ⟨S1, .f32⟩
  | 26 => ⟨S5000x64, .f32⟩
  | 27 => ⟨S5000x64, .bf16⟩
  | 28 => ⟨S64x128, .bf16⟩
  | 29 => ⟨S1x128, .f32⟩
  | 30 => ⟨S5000x128, .f32⟩
  | 31 => ⟨S1x80000, .i32⟩
  | 32 => ⟨S80000, .i32⟩
  | 33 => ⟨S1x80000, .i32⟩
  | 34 => ⟨S80000, .i32⟩
  | 35 => ⟨S_, .f32⟩
  | 36 => ⟨S5000, .f32⟩
  | 37 => ⟨S5000x1, .f32⟩
  | 38 => ⟨S1x256x128, .f32⟩
  | 39 => ⟨S256x128, .f32⟩
  | 40 => ⟨S128x128, .f32⟩
  | 41 => ⟨S1x256x128, .f32⟩
  | 42 => ⟨S256x128, .f32⟩
  | 43 => ⟨S128x128, .f32⟩
  | 44 => ⟨S128x256, .f32⟩
  | 45 => ⟨S_, .f32⟩
  | 46 => ⟨S256, .f32⟩
  | 47 => ⟨S5000x128, .bf16⟩
  | 48 => ⟨S128x256, .bf16⟩
  | 49 => ⟨S1x256, .f32⟩
  | 50 => ⟨S5000x256, .bf16⟩
  | 51 => ⟨S5000x128, .bf16⟩
  | 52 => ⟨S5000x128, .bf16⟩
  | 53 => ⟨S_, .i32⟩
  | 54 => ⟨S80000, .i32⟩
  | 55 => ⟨S80000, .i1⟩
  | 56 => ⟨S_, .i32⟩
  | 57 => ⟨S80000, .i32⟩
  | 58 => ⟨S80000, .i32⟩
  | 59 => ⟨S80000, .i32⟩
  | 60 => ⟨S80000x1, .i32⟩
  | 61 => ⟨S80000x128, .bf16⟩
  | 62 => ⟨S_, .i32⟩
  | 63 => ⟨S80000, .i32⟩
  | 64 => ⟨S80000, .i1⟩
  | 65 => ⟨S_, .i32⟩
  | 66 => ⟨S80000, .i32⟩
  | 67 => ⟨S80000, .i32⟩
  | 68 => ⟨S80000, .i32⟩
  | 69 => ⟨S80000x1, .i32⟩
  | 70 => ⟨S80000x128, .bf16⟩
  | 71 => ⟨S1x128, .f32⟩
  | 72 => ⟨S128, .f32⟩
  | 73 => ⟨S1x128, .f32⟩
  | 74 => ⟨S80000x128, .f32⟩
  | 75 => ⟨S_, .f32⟩
  | 76 => ⟨S5000x128, .f32⟩
  | 77 => ⟨S80000x1, .i32⟩
  | 78 => ⟨S5000x128, .f32⟩
  | 79 => ⟨S80000x1, .f32⟩
  | 80 => ⟨S_, .f32⟩
  | 81 => ⟨S80000x1, .f32⟩
  | 82 => ⟨S_, .f32⟩
  | 83 => ⟨S5000x1, .f32⟩
  | 84 => ⟨S80000x1, .i32⟩
  | 85 => ⟨S5000x1, .f32⟩
  | 86 => ⟨S_, .f32⟩
  | 87 => ⟨S5000x1, .f32⟩
  | 88 => ⟨S5000x1, .f32⟩
  | 89 => ⟨S5000x128, .f32⟩
  | 90 => ⟨S5000x128, .f32⟩
  | 91 => ⟨S_, .f32⟩
  | 92 => ⟨S10x128, .f32⟩
  | 93 => ⟨S5000x1, .i32⟩
  | 94 => ⟨S10x128, .f32⟩
  | 95 => ⟨S5000x1, .f32⟩
  | 96 => ⟨S_, .f32⟩
  | 97 => ⟨S5000x1, .f32⟩
  | 98 => ⟨S_, .f32⟩
  | 99 => ⟨S10x1, .f32⟩
  | 100 => ⟨S5000x1, .i32⟩
  | 101 => ⟨S10x1, .f32⟩
  | 102 => ⟨S_, .f32⟩
  | 103 => ⟨S10x1, .f32⟩
  | 104 => ⟨S10x1, .f32⟩
  | 105 => ⟨S10x128, .f32⟩
  | 106 => ⟨S10x128, .f32⟩
  | 107 => ⟨S_, .i32⟩
  | 108 => ⟨S5000, .i32⟩
  | 109 => ⟨S5000, .i1⟩
  | 110 => ⟨S_, .i32⟩
  | 111 => ⟨S5000, .i32⟩
  | 112 => ⟨S5000, .i32⟩
  | 113 => ⟨S5000, .i32⟩
  | 114 => ⟨S5000x1, .i32⟩
  | 115 => ⟨S5000x128, .f32⟩
  | 116 => ⟨S5000x128, .f32⟩
  | 117 => ⟨S5000x128, .f32⟩
  | 118 => ⟨S5000x384, .f32⟩
  | 119 => ⟨S1x384x128, .f32⟩
  | 120 => ⟨S384x128, .f32⟩
  | 121 => ⟨S1x128, .f32⟩
  | 122 => ⟨S128, .f32⟩
  | 123 => ⟨S5000x384, .bf16⟩
  | 124 => ⟨S384x128, .bf16⟩
  | 125 => ⟨S1x128, .f32⟩
  | 126 => ⟨S5000x128, .f32⟩
  | 127 => ⟨S1x256x128, .f32⟩
  | _ => ⟨S5000x32, .f32⟩

abbrev hbmTy0_1 (i : Nat) : BufTy := match i % 128 with
  | 0 => ⟨S256x128, .f32⟩
  | 1 => ⟨S128x128, .f32⟩
  | 2 => ⟨S1x256x128, .f32⟩
  | 3 => ⟨S256x128, .f32⟩
  | 4 => ⟨S128x128, .f32⟩
  | 5 => ⟨S128x256, .f32⟩
  | 6 => ⟨S_, .f32⟩
  | 7 => ⟨S256, .f32⟩
  | 8 => ⟨S5000x128, .bf16⟩
  | 9 => ⟨S128x256, .bf16⟩
  | 10 => ⟨S1x256, .f32⟩
  | 11 => ⟨S5000x256, .bf16⟩
  | 12 => ⟨S5000x128, .bf16⟩
  | 13 => ⟨S5000x128, .bf16⟩
  | 14 => ⟨S_, .i32⟩
  | 15 => ⟨S80000, .i32⟩
  | 16 => ⟨S80000, .i1⟩
  | 17 => ⟨S_, .i32⟩
  | 18 => ⟨S80000, .i32⟩
  | 19 => ⟨S80000, .i32⟩
  | 20 => ⟨S80000, .i32⟩
  | 21 => ⟨S80000x1, .i32⟩
  | 22 => ⟨S80000x128, .bf16⟩
  | 23 => ⟨S_, .i32⟩
  | 24 => ⟨S80000, .i32⟩
  | 25 => ⟨S80000, .i1⟩
  | 26 => ⟨S_, .i32⟩
  | 27 => ⟨S80000, .i32⟩
  | 28 => ⟨S80000, .i32⟩
  | 29 => ⟨S80000, .i32⟩
  | 30 => ⟨S80000x1, .i32⟩
  | 31 => ⟨S80000x128, .bf16⟩
  | 32 => ⟨S1x128, .f32⟩
  | 33 => ⟨S128, .f32⟩
  | 34 => ⟨S1x128, .f32⟩
  | 35 => ⟨S80000x128, .f32⟩
  | 36 => ⟨S_, .f32⟩
  | 37 => ⟨S5000x128, .f32⟩
  | 38 => ⟨S80000x1, .i32⟩
  | 39 => ⟨S5000x128, .f32⟩
  | 40 => ⟨S80000x1, .f32⟩
  | 41 => ⟨S_, .f32⟩
  | 42 => ⟨S80000x1, .f32⟩
  | 43 => ⟨S_, .f32⟩
  | 44 => ⟨S5000x1, .f32⟩
  | 45 => ⟨S80000x1, .i32⟩
  | 46 => ⟨S5000x1, .f32⟩
  | 47 => ⟨S_, .f32⟩
  | 48 => ⟨S5000x1, .f32⟩
  | 49 => ⟨S5000x1, .f32⟩
  | 50 => ⟨S5000x128, .f32⟩
  | 51 => ⟨S5000x128, .f32⟩
  | 52 => ⟨S_, .f32⟩
  | 53 => ⟨S10x128, .f32⟩
  | 54 => ⟨S5000x1, .i32⟩
  | 55 => ⟨S10x128, .f32⟩
  | 56 => ⟨S5000x1, .f32⟩
  | 57 => ⟨S_, .f32⟩
  | 58 => ⟨S5000x1, .f32⟩
  | 59 => ⟨S_, .f32⟩
  | 60 => ⟨S10x1, .f32⟩
  | 61 => ⟨S5000x1, .i32⟩
  | 62 => ⟨S10x1, .f32⟩
  | 63 => ⟨S_, .f32⟩
  | 64 => ⟨S10x1, .f32⟩
  | 65 => ⟨S10x1, .f32⟩
  | 66 => ⟨S10x128, .f32⟩
  | 67 => ⟨S10x128, .f32⟩
  | 68 => ⟨S_, .i32⟩
  | 69 => ⟨S5000, .i32⟩
  | 70 => ⟨S5000, .i1⟩
  | 71 => ⟨S_, .i32⟩
  | 72 => ⟨S5000, .i32⟩
  | 73 => ⟨S5000, .i32⟩
  | 74 => ⟨S5000, .i32⟩
  | 75 => ⟨S5000x1, .i32⟩
  | 76 => ⟨S5000x128, .f32⟩
  | 77 => ⟨S5000x128, .f32⟩
  | 78 => ⟨S5000x128, .f32⟩
  | 79 => ⟨S5000x384, .f32⟩
  | 80 => ⟨S1x384x128, .f32⟩
  | 81 => ⟨S384x128, .f32⟩
  | 82 => ⟨S1x128, .f32⟩
  | 83 => ⟨S128, .f32⟩
  | 84 => ⟨S5000x384, .bf16⟩
  | 85 => ⟨S384x128, .bf16⟩
  | 86 => ⟨S1x128, .f32⟩
  | 87 => ⟨S5000x128, .f32⟩
  | 88 => ⟨S1x256x128, .f32⟩
  | 89 => ⟨S256x128, .f32⟩
  | 90 => ⟨S128x128, .f32⟩
  | 91 => ⟨S1x256x128, .f32⟩
  | 92 => ⟨S256x128, .f32⟩
  | 93 => ⟨S128x128, .f32⟩
  | 94 => ⟨S128x256, .f32⟩
  | 95 => ⟨S_, .f32⟩
  | 96 => ⟨S256, .f32⟩
  | 97 => ⟨S5000x128, .bf16⟩
  | 98 => ⟨S128x256, .bf16⟩
  | 99 => ⟨S1x256, .f32⟩
  | 100 => ⟨S5000x256, .bf16⟩
  | 101 => ⟨S5000x128, .bf16⟩
  | 102 => ⟨S5000x128, .bf16⟩
  | 103 => ⟨S_, .i32⟩
  | 104 => ⟨S80000, .i32⟩
  | 105 => ⟨S80000, .i1⟩
  | 106 => ⟨S_, .i32⟩
  | 107 => ⟨S80000, .i32⟩
  | 108 => ⟨S80000, .i32⟩
  | 109 => ⟨S80000, .i32⟩
  | 110 => ⟨S80000x1, .i32⟩
  | 111 => ⟨S80000x128, .bf16⟩
  | 112 => ⟨S_, .i32⟩
  | 113 => ⟨S80000, .i32⟩
  | 114 => ⟨S80000, .i1⟩
  | 115 => ⟨S_, .i32⟩
  | 116 => ⟨S80000, .i32⟩
  | 117 => ⟨S80000, .i32⟩
  | 118 => ⟨S80000, .i32⟩
  | 119 => ⟨S80000x1, .i32⟩
  | 120 => ⟨S80000x128, .bf16⟩
  | 121 => ⟨S1x128, .f32⟩
  | 122 => ⟨S128, .f32⟩
  | 123 => ⟨S1x128, .f32⟩
  | 124 => ⟨S80000x128, .f32⟩
  | 125 => ⟨S_, .f32⟩
  | 126 => ⟨S5000x128, .f32⟩
  | 127 => ⟨S80000x1, .i32⟩
  | _ => ⟨S5000x32, .f32⟩

abbrev hbmTy0_2 (i : Nat) : BufTy := match i % 128 with
  | 0 => ⟨S5000x128, .f32⟩
  | 1 => ⟨S80000x1, .f32⟩
  | 2 => ⟨S_, .f32⟩
  | 3 => ⟨S80000x1, .f32⟩
  | 4 => ⟨S_, .f32⟩
  | 5 => ⟨S5000x1, .f32⟩
  | 6 => ⟨S80000x1, .i32⟩
  | 7 => ⟨S5000x1, .f32⟩
  | 8 => ⟨S_, .f32⟩
  | 9 => ⟨S5000x1, .f32⟩
  | 10 => ⟨S5000x1, .f32⟩
  | 11 => ⟨S5000x128, .f32⟩
  | 12 => ⟨S5000x128, .f32⟩
  | 13 => ⟨S_, .f32⟩
  | 14 => ⟨S10x128, .f32⟩
  | 15 => ⟨S5000x1, .i32⟩
  | 16 => ⟨S10x128, .f32⟩
  | 17 => ⟨S5000x1, .f32⟩
  | 18 => ⟨S_, .f32⟩
  | 19 => ⟨S5000x1, .f32⟩
  | 20 => ⟨S_, .f32⟩
  | 21 => ⟨S10x1, .f32⟩
  | 22 => ⟨S5000x1, .i32⟩
  | 23 => ⟨S10x1, .f32⟩
  | 24 => ⟨S_, .f32⟩
  | 25 => ⟨S10x1, .f32⟩
  | 26 => ⟨S10x1, .f32⟩
  | 27 => ⟨S10x128, .f32⟩
  | 28 => ⟨S10x128, .f32⟩
  | 29 => ⟨S_, .i32⟩
  | 30 => ⟨S5000, .i32⟩
  | 31 => ⟨S5000, .i1⟩
  | 32 => ⟨S_, .i32⟩
  | 33 => ⟨S5000, .i32⟩
  | 34 => ⟨S5000, .i32⟩
  | 35 => ⟨S5000, .i32⟩
  | 36 => ⟨S5000x1, .i32⟩
  | 37 => ⟨S5000x128, .f32⟩
  | 38 => ⟨S5000x128, .f32⟩
  | 39 => ⟨S5000x128, .f32⟩
  | 40 => ⟨S5000x384, .f32⟩
  | 41 => ⟨S1x384x128, .f32⟩
  | 42 => ⟨S384x128, .f32⟩
  | 43 => ⟨S1x128, .f32⟩
  | 44 => ⟨S128, .f32⟩
  | 45 => ⟨S5000x384, .bf16⟩
  | 46 => ⟨S384x128, .bf16⟩
  | 47 => ⟨S1x128, .f32⟩
  | 48 => ⟨S5000x128, .f32⟩
  | 49 => ⟨S100000x48, .f32⟩
  | 50 => ⟨S100000x48, .bf16⟩
  | 51 => ⟨S48x128, .bf16⟩
  | 52 => ⟨S1x128, .f32⟩
  | 53 => ⟨S100000x128, .f32⟩
  | 54 => ⟨S128x128, .f32⟩
  | 55 => ⟨S128x128, .f32⟩
  | 56 => ⟨S_, .f32⟩
  | 57 => ⟨S128, .f32⟩
  | 58 => ⟨S5000x128, .bf16⟩
  | 59 => ⟨S128x128, .bf16⟩
  | 60 => ⟨S1x128, .f32⟩
  | 61 => ⟨S5000x128, .bf16⟩
  | 62 => ⟨S_, .f32⟩
  | 63 => ⟨S128, .f32⟩
  | 64 => ⟨S100000x128, .bf16⟩
  | 65 => ⟨S128x128, .bf16⟩
  | 66 => ⟨S1x128, .f32⟩
  | 67 => ⟨S100000x128, .bf16⟩
  | 68 => ⟨S_, .i32⟩
  | 69 => ⟨S300000, .i32⟩
  | 70 => ⟨S300000, .i1⟩
  | 71 => ⟨S_, .i32⟩
  | 72 => ⟨S300000, .i32⟩
  | 73 => ⟨S300000, .i32⟩
  | 74 => ⟨S300000, .i32⟩
  | 75 => ⟨S300000x1, .i32⟩
  | 76 => ⟨S300000x128, .bf16⟩
  | 77 => ⟨S_, .i32⟩
  | 78 => ⟨S300000, .i32⟩
  | 79 => ⟨S300000, .i1⟩
  | 80 => ⟨S_, .i32⟩
  | 81 => ⟨S300000, .i32⟩
  | 82 => ⟨S300000, .i32⟩
  | 83 => ⟨S300000, .i32⟩
  | 84 => ⟨S300000x1, .i32⟩
  | 85 => ⟨S300000x128, .bf16⟩
  | 86 => ⟨S1x128, .f32⟩
  | 87 => ⟨S1x128, .f32⟩
  | 88 => ⟨S1x1, .f32⟩
  | 89 => ⟨S300000x1, .f32⟩
  | 90 => ⟨S_, .f32⟩
  | 91 => ⟨S1, .f32⟩
  | 92 => ⟨S_, .f32⟩
  | 93 => ⟨S1, .f32⟩
  | 94 => ⟨S1, .f32⟩
  | 95 => ⟨S1x1, .f32⟩
  | 96 => ⟨S300000x1, .f32⟩
  | 97 => ⟨S300000x1, .f32⟩
  | 98 => ⟨S300000x1, .f32⟩
  | 99 => ⟨S_, .f32⟩
  | 100 => ⟨S1, .f32⟩
  | 101 => ⟨S1x1, .f32⟩
  | 102 => ⟨S300000x1, .f32⟩
  | 103 => ⟨S300000x1, .f32⟩
  | 104 => ⟨S5000x128, .bf16⟩
  | 105 => ⟨S_, .i32⟩
  | 106 => ⟨S300000, .i32⟩
  | 107 => ⟨S300000, .i1⟩
  | 108 => ⟨S_, .i32⟩
  | 109 => ⟨S300000, .i32⟩
  | 110 => ⟨S300000, .i32⟩
  | 111 => ⟨S300000, .i32⟩
  | 112 => ⟨S300000x1, .i32⟩
  | 113 => ⟨S300000x128, .bf16⟩
  | 114 => ⟨S300000x128, .f32⟩
  | 115 => ⟨S300000x128, .f32⟩
  | 116 => ⟨S300000x128, .f32⟩
  | 117 => ⟨S_, .f32⟩
  | 118 => ⟨S100000x128, .f32⟩
  | 119 => ⟨S_, .i32⟩
  | 120 => ⟨S300000, .i32⟩
  | 121 => ⟨S300000, .i1⟩
  | 122 => ⟨S_, .i32⟩
  | 123 => ⟨S300000, .i32⟩
  | 124 => ⟨S300000, .i32⟩
  | 125 => ⟨S300000, .i32⟩
  | 126 => ⟨S300000x1, .i32⟩
  | 127 => ⟨S100000x128, .f32⟩
  | _ => ⟨S5000x32, .f32⟩

abbrev hbmTy0_3 (i : Nat) : BufTy := match i % 128 with
  | 0 => ⟨S100000x128, .f32⟩
  | 1 => ⟨S100000x3, .f32⟩
  | 2 => ⟨S1x600000, .i32⟩
  | 3 => ⟨S600000, .i32⟩
  | 4 => ⟨S1x600000, .i32⟩
  | 5 => ⟨S600000, .i32⟩
  | 6 => ⟨S128x128, .f32⟩
  | 7 => ⟨S128x128, .f32⟩
  | 8 => ⟨S3x128, .f32⟩
  | 9 => ⟨S131x128, .f32⟩
  | 10 => ⟨S3x128, .f32⟩
  | 11 => ⟨S131x128, .f32⟩
  | 12 => ⟨S131x256, .f32⟩
  | 13 => ⟨S100000x131, .f32⟩
  | 14 => ⟨S_, .f32⟩
  | 15 => ⟨S256, .f32⟩
  | 16 => ⟨S100000x131, .bf16⟩
  | 17 => ⟨S131x256, .bf16⟩
  | 18 => ⟨S1x256, .f32⟩
  | 19 => ⟨S100000x256, .bf16⟩
  | 20 => ⟨S100000x128, .bf16⟩
  | 21 => ⟨S100000x128, .bf16⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .bf16⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .bf16⟩
  | 40 => ⟨S1x128, .f32⟩
  | 41 => ⟨S600000x128, .f32⟩
  | 42 => ⟨S_, .f32⟩
  | 43 => ⟨S100000x128, .f32⟩
  | 44 => ⟨S600000x1, .i32⟩
  | 45 => ⟨S100000x128, .f32⟩
  | 46 => ⟨S600000x1, .f32⟩
  | 47 => ⟨S_, .f32⟩
  | 48 => ⟨S600000x1, .f32⟩
  | 49 => ⟨S_, .f32⟩
  | 50 => ⟨S100000x1, .f32⟩
  | 51 => ⟨S600000x1, .i32⟩
  | 52 => ⟨S100000x1, .f32⟩
  | 53 => ⟨S_, .f32⟩
  | 54 => ⟨S100000x1, .f32⟩
  | 55 => ⟨S100000x1, .f32⟩
  | 56 => ⟨S100000x128, .f32⟩
  | 57 => ⟨S100000x128, .f32⟩
  | 58 => ⟨S100000x256, .f32⟩
  | 59 => ⟨S100000x256, .bf16⟩
  | 60 => ⟨S256x128, .bf16⟩
  | 61 => ⟨S1x128, .f32⟩
  | 62 => ⟨S100000x128, .f32⟩
  | _ => ⟨S5000x32, .f32⟩

abbrev hbmTy (i : Nat) : BufTy := match i / 128 with
  | 0 => hbmTy0_0 i
  | 1 => hbmTy0_1 i
  | 2 => hbmTy0_2 i
  | 3 => hbmTy0_3 i
  | _ => ⟨S5000x32, .f32⟩

abbrev bufTy : (tb : Table) → Fin (tcTables nBuf tb) → BufTy
  | .hbm, ⟨i, _⟩ => hbmTy i
  | .local _ .vmem, ⟨0, _⟩ => ⟨S5000x64, .bf16⟩
  | .local _ .vmem, ⟨1, _⟩ => ⟨S64x128, .bf16⟩
  | .local _ .vmem, ⟨2, _⟩ => ⟨S1x128, .f32⟩
  | .local _ .vmem, ⟨3, _⟩ => ⟨S5000x128, .f32⟩
  | .local _ .vmem, ⟨4, _⟩ => ⟨S5000x128, .bf16⟩
  | .local _ .vmem, ⟨5, _⟩ => ⟨S128x256, .bf16⟩
  | .local _ .vmem, ⟨6, _⟩ => ⟨S1x256, .f32⟩
  | .local _ .vmem, ⟨7, _⟩ => ⟨S5000x256, .bf16⟩
  | .local _ .vmem, ⟨8, _⟩ => ⟨S8000x128, .bf16⟩
  | .local _ .vmem, ⟨9, _⟩ => ⟨S8000x128, .bf16⟩
  | .local _ .vmem, ⟨10, _⟩ => ⟨S8000x128, .bf16⟩
  | .local _ .vmem, ⟨11, _⟩ => ⟨S8000x128, .bf16⟩
  | .local _ .vmem, ⟨12, _⟩ => ⟨S1x128, .f32⟩
  | .local _ .vmem, ⟨13, _⟩ => ⟨S8000x128, .f32⟩
  | .local _ .vmem, ⟨14, _⟩ => ⟨S8000x128, .f32⟩
  | .local _ .vmem, ⟨15, _⟩ => ⟨S5000x384, .bf16⟩
  | .local _ .vmem, ⟨16, _⟩ => ⟨S384x128, .bf16⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .bf16⟩
  | .local _ .vmem, ⟨21, _⟩ => ⟨S128x256, .bf16⟩
  | .local _ .vmem, ⟨22, _⟩ => ⟨S1x256, .f32⟩
  | .local _ .vmem, ⟨23, _⟩ => ⟨S5000x256, .bf16⟩
  | .local _ .vmem, ⟨24, _⟩ => ⟨S8000x128, .bf16⟩
  | .local _ .vmem, ⟨25, _⟩ => ⟨S8000x128, .bf16⟩
  | .local _ .vmem, ⟨26, _⟩ => ⟨S8000x128, .bf16⟩
  | .local _ .vmem, ⟨27, _⟩ => ⟨S8000x128, .bf16⟩
  | .local _ .vmem, ⟨28, _⟩ => ⟨S1x128, .f32⟩
  | .local _ .vmem, ⟨29, _⟩ => ⟨S8000x128, .f32⟩
  | .local _ .vmem, ⟨30, _⟩ => ⟨S8000x128, .f32⟩
  | .local _ .vmem, ⟨31, _⟩ => ⟨S5000x384, .bf16⟩
  | .local _ .vmem, ⟨32, _⟩ => ⟨S384x128, .bf16⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .bf16⟩
  | .local _ .vmem, ⟨37, _⟩ => ⟨S128x256, .bf16⟩
  | .local _ .vmem, ⟨38, _⟩ => ⟨S1x256, .f32⟩
  | .local _ .vmem, ⟨39, _⟩ => ⟨S5000x256, .bf16⟩
  | .local _ .vmem, ⟨40, _⟩ => ⟨S8000x128, .bf16⟩
  | .local _ .vmem, ⟨41, _⟩ => ⟨S8000x128, .bf16⟩
  | .local _ .vmem, ⟨42, _⟩ => ⟨S8000x128, .bf16⟩
  | .local _ .vmem, ⟨43, _⟩ => ⟨S8000x128, .bf16⟩
  | .local _ .vmem, ⟨44, _⟩ => ⟨S1x128, .f32⟩
  | .local _ .vmem, ⟨45, _⟩ => ⟨S8000x128, .f32⟩
  | .local _ .vmem, ⟨46, _⟩ => ⟨S8000x128, .f32⟩
  | .local _ .vmem, ⟨47, _⟩ => ⟨S5000x384, .bf16⟩
  | .local _ .vmem, ⟨48, _⟩ => ⟨S384x128, .bf16⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S10000x48, .bf16⟩
  | .local _ .vmem, ⟨53, _⟩ => ⟨S10000x48, .bf16⟩
  | .local _ .vmem, ⟨54, _⟩ => ⟨S48x128, .bf16⟩
  | .local _ .vmem, ⟨55, _⟩ => ⟨S1x128, .f32⟩
  | .local _ .vmem, ⟨56, _⟩ => ⟨S10000x128, .f32⟩
  | .local _ .vmem, ⟨57, _⟩ => ⟨S10000x128, .f32⟩
  | .local _ .vmem, ⟨58, _⟩ => ⟨S5000x128, .bf16⟩
  | .local _ .vmem, ⟨59, _⟩ => ⟨S128x128, .bf16⟩
  | .local _ .vmem, ⟨60, _⟩ => ⟨S1x128, .f32⟩
  | .local _ .vmem, ⟨61, _⟩ => ⟨S5000x128, .bf16⟩
  | .local _ .vmem, ⟨62, _⟩ => ⟨S10000x128, .bf16⟩
  | .local _ .vmem, ⟨63, _⟩ => ⟨S10000x128, .bf16⟩
  | .local _ .vmem, ⟨64, _⟩ => ⟨S128x128, .bf16⟩
  | .local _ .vmem, ⟨65, _⟩ => ⟨S1x128, .f32⟩
  | .local _ .vmem, ⟨66, _⟩ => ⟨S10000x128, .bf16⟩
  | .local _ .vmem, ⟨67, _⟩ => ⟨S10000x128, .bf16⟩
  | .local _ .vmem, ⟨68, _⟩ => ⟨S12000x128, .bf16⟩
  | .local _ .vmem, ⟨69, _⟩ => ⟨S12000x128, .bf16⟩
  | .local _ .vmem, ⟨70, _⟩ => ⟨S12000x128, .bf16⟩
  | .local _ .vmem, ⟨71, _⟩ => ⟨S12000x128, .bf16⟩
  | .local _ .vmem, ⟨72, _⟩ => ⟨S1x128, .f32⟩
  | .local _ .vmem, ⟨73, _⟩ => ⟨S1x128, .f32⟩
  | .local _ .vmem, ⟨74, _⟩ => ⟨S1x1, .f32⟩
  | .local _ .vmem, ⟨75, _⟩ => ⟨S12000x1, .f32⟩
  | .local _ .vmem, ⟨76, _⟩ => ⟨S12000x1, .f32⟩
  | .local _ .vmem, ⟨77, _⟩ => ⟨S10000x131, .bf16⟩
  | .local _ .vmem, ⟨78, _⟩ => ⟨S10000x131, .bf16⟩
  | .local _ .vmem, ⟨79, _⟩ => ⟨S131x256, .bf16⟩
  | .local _ .vmem, ⟨80, _⟩ => ⟨S1x256, .f32⟩
  | .local _ .vmem, ⟨81, _⟩ => ⟨S10000x256, .bf16⟩
  | .local _ .vmem, ⟨82, _⟩ => ⟨S10000x256, .bf16⟩
  | .local _ .vmem, ⟨83, _⟩ => ⟨S12000x128, .bf16⟩
  | .local _ .vmem, ⟨84, _⟩ => ⟨S12000x128, .bf16⟩
  | .local _ .vmem, ⟨85, _⟩ => ⟨S12000x128, .bf16⟩
  | .local _ .vmem, ⟨86, _⟩ => ⟨S12000x128, .bf16⟩
  | .local _ .vmem, ⟨87, _⟩ => ⟨S1x128, .f32⟩
  | .local _ .vmem, ⟨88, _⟩ => ⟨S12000x128, .f32⟩
  | .local _ .vmem, ⟨89, _⟩ => ⟨S12000x128, .f32⟩
  | .local _ .vmem, ⟨90, _⟩ => ⟨S5000x256, .bf16⟩
  | .local _ .vmem, ⟨91, _⟩ => ⟨S5000x256, .bf16⟩
  | .local _ .vmem, ⟨92, _⟩ => ⟨S256x128, .bf16⟩
  | .local _ .vmem, ⟨93, _⟩ => ⟨S1x128, .f32⟩
  | .local _ .vmem, ⟨94, _⟩ => ⟨S5000x128, .f32⟩
  | .local _ .vmem, ⟨95, _⟩ => ⟨S5000x128, .f32⟩
  | .local _ .vmem, ⟨96, _⟩ => ⟨S5000x128, .f32⟩
  | .local _ .vmem, ⟨97, _⟩ => ⟨S5000x128, .f32⟩
  | _, _ => ⟨S5000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c : Ref sig .tc := ⟨.hbm, 53, rfl⟩
abbrev main_v25 : Ref sig .tc := ⟨.hbm, 54, rfl⟩
abbrev main_v26 : Ref sig .tc := ⟨.hbm, 55, rfl⟩
abbrev main_c_1 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_2 : Ref sig .tc := ⟨.hbm, 62, rfl⟩
abbrev main_v32 : Ref sig .tc := ⟨.hbm, 63, rfl⟩
abbrev main_v33 : Ref sig .tc := ⟨.hbm, 64, rfl⟩
abbrev main_c_3 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_4 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_5 : Ref sig .tc := ⟨.hbm, 80, rfl⟩
abbrev main_v47 : Ref sig .tc := ⟨.hbm, 81, rfl⟩
abbrev main_cst_6 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_7 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_8 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_9 : Ref sig .tc := ⟨.hbm, 96, rfl⟩
abbrev main_v59 : Ref sig .tc := ⟨.hbm, 97, rfl⟩
abbrev main_cst_10 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_11 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_c_12 : Ref sig .tc := ⟨.hbm, 107, rfl⟩
abbrev main_v67 : Ref sig .tc := ⟨.hbm, 108, rfl⟩
abbrev main_v68 : Ref sig .tc := ⟨.hbm, 109, rfl⟩
abbrev main_c_13 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_14 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_15 : Ref sig .tc := ⟨.hbm, 142, rfl⟩
abbrev main_v99 : Ref sig .tc := ⟨.hbm, 143, rfl⟩
abbrev main_v100 : Ref sig .tc := ⟨.hbm, 144, rfl⟩
abbrev main_c_16 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_17 : Ref sig .tc := ⟨.hbm, 151, rfl⟩
abbrev main_v106 : Ref sig .tc := ⟨.hbm, 152, rfl⟩
abbrev main_v107 : Ref sig .tc := ⟨.hbm, 153, rfl⟩
abbrev main_c_18 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_19 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_20 : Ref sig .tc := ⟨.hbm, 169, rfl⟩
abbrev main_v121 : Ref sig .tc := ⟨.hbm, 170, rfl⟩
abbrev main_cst_21 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_22 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_23 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_24 : Ref sig .tc := ⟨.hbm, 185, rfl⟩
abbrev main_v133 : Ref sig .tc := ⟨.hbm, 186, rfl⟩
abbrev main_cst_25 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_26 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_c_27 : Ref sig .tc := ⟨.hbm, 196, rfl⟩
abbrev main_v141 : Ref sig .tc := ⟨.hbm, 197, rfl⟩
abbrev main_v142 : Ref sig .tc := ⟨.hbm, 198, rfl⟩
abbrev main_c_28 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_cst_29 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_c_30 : Ref sig .tc := ⟨.hbm, 231, rfl⟩
abbrev main_v173 : Ref sig .tc := ⟨.hbm, 232, rfl⟩
abbrev main_v174 : Ref sig .tc := ⟨.hbm, 233, rfl⟩
abbrev main_c_31 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_c_32 : Ref sig .tc := ⟨.hbm, 240, rfl⟩
abbrev main_v180 : Ref sig .tc := ⟨.hbm, 241, rfl⟩
abbrev main_v181 : Ref sig .tc := ⟨.hbm, 242, rfl⟩
abbrev main_c_33 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_cst_34 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_cst_35 : Ref sig .tc := ⟨.hbm, 258, rfl⟩
abbrev main_v195 : Ref sig .tc := ⟨.hbm, 259, rfl⟩
abbrev main_cst_36 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_cst_37 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_cst_38 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_cst_39 : Ref sig .tc := ⟨.hbm, 274, rfl⟩
abbrev main_v207 : Ref sig .tc := ⟨.hbm, 275, rfl⟩
abbrev main_cst_40 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_cst_41 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_c_42 : Ref sig .tc := ⟨.hbm, 285, rfl⟩
abbrev main_v215 : Ref sig .tc := ⟨.hbm, 286, rfl⟩
abbrev main_v216 : Ref sig .tc := ⟨.hbm, 287, rfl⟩
abbrev main_c_43 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_cst_44 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_cst_45 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_c_46 : Ref sig .tc := ⟨.hbm, 324, rfl⟩
abbrev main_v250 : Ref sig .tc := ⟨.hbm, 325, rfl⟩
abbrev main_v251 : Ref sig .tc := ⟨.hbm, 326, rfl⟩
abbrev main_c_47 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_c_48 : Ref sig .tc := ⟨.hbm, 333, rfl⟩
abbrev main_v257 : Ref sig .tc := ⟨.hbm, 334, rfl⟩
abbrev main_v258 : Ref sig .tc := ⟨.hbm, 335, rfl⟩
abbrev main_c_49 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_v262 : Ref sig .tc := ⟨.hbm, 340, rfl⟩
abbrev main_v263 : Ref sig .tc := ⟨.hbm, 341, rfl⟩
abbrev main_v264 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_cst_50 : Ref sig .tc := ⟨.hbm, 346, rfl⟩
abbrev main_v268 : Ref sig .tc := ⟨.hbm, 347, rfl⟩
abbrev main_cst_51 : Ref sig .tc := ⟨.hbm, 348, rfl⟩
abbrev main_v269 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_cst_52 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_c_53 : Ref sig .tc := ⟨.hbm, 361, rfl⟩
abbrev main_v280 : Ref sig .tc := ⟨.hbm, 362, rfl⟩
abbrev main_v281 : Ref sig .tc := ⟨.hbm, 363, rfl⟩
abbrev main_c_54 : Ref sig .tc := ⟨.hbm, 364, rfl⟩
abbrev main_v282 : Ref sig .tc := ⟨.hbm, 365, rfl⟩
abbrev main_v283 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_v288 : Ref sig .tc := ⟨.hbm, 371, rfl⟩
abbrev main_v289 : Ref sig .tc := ⟨.hbm, 372, rfl⟩
abbrev main_cst_55 : Ref sig .tc := ⟨.hbm, 373, rfl⟩
abbrev main_v290 : Ref sig .tc := ⟨.hbm, 374, rfl⟩
abbrev main_c_56 : Ref sig .tc := ⟨.hbm, 375, rfl⟩
abbrev main_v291 : Ref sig .tc := ⟨.hbm, 376, rfl⟩
abbrev main_v292 : Ref sig .tc := ⟨.hbm, 377, rfl⟩
abbrev main_c_57 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_v297 : Ref sig .tc := ⟨.hbm, 383, rfl⟩
abbrev main_v298 : Ref sig .tc := ⟨.hbm, 384, rfl⟩
abbrev main_v299 : Ref sig .tc := ⟨.hbm, 385, rfl⟩
abbrev main_v300 : Ref sig .tc := ⟨.hbm, 386, rfl⟩
abbrev main_v301 : Ref sig .tc := ⟨.hbm, 387, rfl⟩
abbrev main_v302 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_v306 : Ref sig .tc := ⟨.hbm, 392, rfl⟩
abbrev main_v307 : Ref sig .tc := ⟨.hbm, 393, rfl⟩
abbrev main_v308 : Ref sig .tc := ⟨.hbm, 394, rfl⟩
abbrev main_v309 : Ref sig .tc := ⟨.hbm, 395, rfl⟩
abbrev main_v310 : Ref sig .tc := ⟨.hbm, 396, rfl⟩
abbrev main_v311 : Ref sig .tc := ⟨.hbm, 397, rfl⟩
abbrev main_cst_58 : Ref sig .tc := ⟨.hbm, 398, rfl⟩
abbrev main_v312 : Ref sig .tc := ⟨.hbm, 399, rfl⟩
abbrev main_v313 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev main_v318 : Ref sig .tc := ⟨.hbm, 405, rfl⟩
abbrev main_c_59 : Ref sig .tc := ⟨.hbm, 406, rfl⟩
abbrev main_v319 : Ref sig .tc := ⟨.hbm, 407, rfl⟩
abbrev main_v320 : Ref sig .tc := ⟨.hbm, 408, rfl⟩
abbrev main_c_60 : Ref sig .tc := ⟨.hbm, 409, rfl⟩
abbrev main_v321 : Ref sig .tc := ⟨.hbm, 410, rfl⟩
abbrev main_v322 : Ref sig .tc := ⟨.hbm, 411, rfl⟩
abbrev main_v323 : Ref sig .tc := ⟨.hbm, 412, rfl⟩
abbrev main_v324 : Ref sig .tc := ⟨.hbm, 413, rfl⟩
abbrev main_v325 : Ref sig .tc := ⟨.hbm, 414, rfl⟩
abbrev main_c_61 : Ref sig .tc := ⟨.hbm, 415, rfl⟩
abbrev main_v326 : Ref sig .tc := ⟨.hbm, 416, rfl⟩
abbrev main_v327 : Ref sig .tc := ⟨.hbm, 417, rfl⟩
abbrev main_c_62 : Ref sig .tc := ⟨.hbm, 418, rfl⟩
abbrev main_v328 : Ref sig .tc := ⟨.hbm, 419, rfl⟩
abbrev main_v329 : Ref sig .tc := ⟨.hbm, 420, rfl⟩
abbrev main_v330 : Ref sig .tc := ⟨.hbm, 421, rfl⟩
abbrev main_v331 : Ref sig .tc := ⟨.hbm, 422, rfl⟩
abbrev main_v332 : Ref sig .tc := ⟨.hbm, 423, rfl⟩
abbrev main_v333 : Ref sig .tc := ⟨.hbm, 424, rfl⟩
abbrev main_v334 : Ref sig .tc := ⟨.hbm, 425, rfl⟩
abbrev main_cst_63 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_cst_64 : Ref sig .tc := ⟨.hbm, 431, rfl⟩
abbrev main_v339 : Ref sig .tc := ⟨.hbm, 432, rfl⟩
abbrev main_cst_65 : Ref sig .tc := ⟨.hbm, 433, rfl⟩
abbrev main_v340 : Ref sig .tc := ⟨.hbm, 434, rfl⟩
abbrev main_v341 : Ref sig .tc := ⟨.hbm, 435, rfl⟩
abbrev main_v342 : Ref sig .tc := ⟨.hbm, 436, rfl⟩
abbrev main_cst_66 : Ref sig .tc := ⟨.hbm, 437, rfl⟩
abbrev main_v343 : Ref sig .tc := ⟨.hbm, 438, rfl⟩
abbrev main_v344 : Ref sig .tc := ⟨.hbm, 439, rfl⟩
abbrev main_v345 : Ref sig .tc := ⟨.hbm, 440, rfl⟩
abbrev main_v346 : Ref sig .tc := ⟨.hbm, 441, rfl⟩
abbrev main_v347 : Ref sig .tc := ⟨.hbm, 442, rfl⟩
abbrev main_v348 : Ref sig .tc := ⟨.hbm, 443, rfl⟩
abbrev main_v349 : Ref sig .tc := ⟨.hbm, 444, rfl⟩
abbrev main_v350 : Ref sig .tc := ⟨.hbm, 445, rfl⟩
abbrev main_v351 : Ref sig .tc := ⟨.hbm, 446, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg1_1 : Ref sig .tc := ⟨.vmem, 27, rfl⟩
abbrev cc5_stg2_0 : Ref sig .tc := ⟨.vmem, 28, rfl⟩
abbrev cc5_stg3_0 : Ref sig .tc := ⟨.vmem, 29, rfl⟩
abbrev cc5_stg3_1 : Ref sig .tc := ⟨.vmem, 30, rfl⟩
abbrev cc6_stg0_0 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg4_0 : Ref sig .tc := ⟨.vmem, 35, rfl⟩
abbrev cc7_stg0_0 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg3_0 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg1_1 : Ref sig .tc := ⟨.vmem, 43, rfl⟩
abbrev cc8_stg2_0 : Ref sig .tc := ⟨.vmem, 44, rfl⟩
abbrev cc8_stg3_0 : Ref sig .tc := ⟨.vmem, 45, rfl⟩
abbrev cc8_stg3_1 : Ref sig .tc := ⟨.vmem, 46, rfl⟩
abbrev cc9_stg0_0 : Ref sig .tc := ⟨.vmem, 47, rfl⟩
abbrev cc9_stg1_0 : Ref sig .tc := ⟨.vmem, 48, rfl⟩
abbrev cc9_stg2_0 : Ref sig .tc := ⟨.vmem, 49, rfl⟩
abbrev cc9_stg3_0 : Ref sig .tc := ⟨.vmem, 50, rfl⟩
abbrev cc9_stg4_0 : Ref sig .tc := ⟨.vmem, 51, rfl⟩
abbrev cc10_stg0_0 : Ref sig .tc := ⟨.vmem, 52, rfl⟩
abbrev cc10_stg0_1 : Ref sig .tc := ⟨.vmem, 53, rfl⟩
abbrev cc10_stg1_0 : Ref sig .tc := ⟨.vmem, 54, rfl⟩
abbrev cc10_stg2_0 : Ref sig .tc := ⟨.vmem, 55, rfl⟩
abbrev cc10_stg3_0 : Ref sig .tc := ⟨.vmem, 56, rfl⟩
abbrev cc10_stg3_1 : Ref sig .tc := ⟨.vmem, 57, rfl⟩
abbrev cc11_stg0_0 : Ref sig .tc := ⟨.vmem, 58, rfl⟩
abbrev cc11_stg1_0 : Ref sig .tc := ⟨.vmem, 59, rfl⟩
abbrev cc11_stg2_0 : Ref sig .tc := ⟨.vmem, 60, rfl⟩
abbrev cc11_stg3_0 : Ref sig .tc := ⟨.vmem, 61, rfl⟩
abbrev cc12_stg0_0 : Ref sig .tc := ⟨.vmem, 62, rfl⟩
abbrev cc12_stg0_1 : Ref sig .tc := ⟨.vmem, 63, rfl⟩
abbrev cc12_stg1_0 : Ref sig .tc := ⟨.vmem, 64, rfl⟩
abbrev cc12_stg2_0 : Ref sig .tc := ⟨.vmem, 65, rfl⟩
abbrev cc12_stg3_0 : Ref sig .tc := ⟨.vmem, 66, rfl⟩
abbrev cc12_stg3_1 : Ref sig .tc := ⟨.vmem, 67, rfl⟩
abbrev cc13_stg0_0 : Ref sig .tc := ⟨.vmem, 68, rfl⟩
abbrev cc13_stg0_1 : Ref sig .tc := ⟨.vmem, 69, rfl⟩
abbrev cc13_stg1_0 : Ref sig .tc := ⟨.vmem, 70, rfl⟩
abbrev cc13_stg1_1 : Ref sig .tc := ⟨.vmem, 71, rfl⟩
abbrev cc13_stg2_0 : Ref sig .tc := ⟨.vmem, 72, rfl⟩
abbrev cc13_stg3_0 : Ref sig .tc := ⟨.vmem, 73, rfl⟩
abbrev cc13_stg4_0 : Ref sig .tc := ⟨.vmem, 74, rfl⟩
abbrev cc13_stg5_0 : Ref sig .tc := ⟨.vmem, 75, rfl⟩
abbrev cc13_stg5_1 : Ref sig .tc := ⟨.vmem, 76, rfl⟩
abbrev cc14_stg0_0 : Ref sig .tc := ⟨.vmem, 77, rfl⟩
abbrev cc14_stg0_1 : Ref sig .tc := ⟨.vmem, 78, rfl⟩
abbrev cc14_stg1_0 : Ref sig .tc := ⟨.vmem, 79, rfl⟩
abbrev cc14_stg2_0 : Ref sig .tc := ⟨.vmem, 80, rfl⟩
abbrev cc14_stg3_0 : Ref sig .tc := ⟨.vmem, 81, rfl⟩
abbrev cc14_stg3_1 : Ref sig .tc := ⟨.vmem, 82, rfl⟩
abbrev cc15_stg0_0 : Ref sig .tc := ⟨.vmem, 83, rfl⟩
abbrev cc15_stg0_1 : Ref sig .tc := ⟨.vmem, 84, rfl⟩
abbrev cc15_stg1_0 : Ref sig .tc := ⟨.vmem, 85, rfl⟩
abbrev cc15_stg1_1 : Ref sig .tc := ⟨.vmem, 86, rfl⟩
abbrev cc15_stg2_0 : Ref sig .tc := ⟨.vmem, 87, rfl⟩
abbrev cc15_stg3_0 : Ref sig .tc := ⟨.vmem, 88, rfl⟩
abbrev cc15_stg3_1 : Ref sig .tc := ⟨.vmem, 89, rfl⟩
abbrev cc16_stg0_0 : Ref sig .tc := ⟨.vmem, 90, rfl⟩
abbrev cc16_stg0_1 : Ref sig .tc := ⟨.vmem, 91, rfl⟩
abbrev cc16_stg1_0 : Ref sig .tc := ⟨.vmem, 92, rfl⟩
abbrev cc16_stg2_0 : Ref sig .tc := ⟨.vmem, 93, rfl⟩
abbrev cc16_stg3_0 : Ref sig .tc := ⟨.vmem, 94, rfl⟩
abbrev cc16_stg3_1 : Ref sig .tc := ⟨.vmem, 95, rfl⟩
abbrev cc16_stg4_0 : Ref sig .tc := ⟨.vmem, 96, rfl⟩
abbrev cc16_stg4_1 : Ref sig .tc := ⟨.vmem, 97, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem3_1 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc4_sem0_0 : DmaSem sig := 20
abbrev cc4_sem1_0 : DmaSem sig := 21
abbrev cc4_sem2_0 : DmaSem sig := 22
abbrev cc4_sem3_0 : DmaSem sig := 23
abbrev cc5_sem0_0 : DmaSem sig := 24
abbrev cc5_sem0_1 : DmaSem sig := 25
abbrev cc5_sem1_0 : DmaSem sig := 26
abbrev cc5_sem1_1 : DmaSem sig := 27
abbrev cc5_sem2_0 : DmaSem sig := 28
abbrev cc5_sem3_0 : DmaSem sig := 29
abbrev cc5_sem3_1 : DmaSem sig := 30
abbrev cc6_sem0_0 : DmaSem sig := 31
abbrev cc6_sem1_0 : DmaSem sig := 32
abbrev cc6_sem2_0 : DmaSem sig := 33
abbrev cc6_sem3_0 : DmaSem sig := 34
abbrev cc6_sem4_0 : DmaSem sig := 35
abbrev cc7_sem0_0 : DmaSem sig := 36
abbrev cc7_sem1_0 : DmaSem sig := 37
abbrev cc7_sem2_0 : DmaSem sig := 38
abbrev cc7_sem3_0 : DmaSem sig := 39
abbrev cc8_sem0_0 : DmaSem sig := 40
abbrev cc8_sem0_1 : DmaSem sig := 41
abbrev cc8_sem1_0 : DmaSem sig := 42
abbrev cc8_sem1_1 : DmaSem sig := 43
abbrev cc8_sem2_0 : DmaSem sig := 44
abbrev cc8_sem3_0 : DmaSem sig := 45
abbrev cc8_sem3_1 : DmaSem sig := 46
abbrev cc9_sem0_0 : DmaSem sig := 47
abbrev cc9_sem1_0 : DmaSem sig := 48
abbrev cc9_sem2_0 : DmaSem sig := 49
abbrev cc9_sem3_0 : DmaSem sig := 50
abbrev cc9_sem4_0 : DmaSem sig := 51
abbrev cc10_sem0_0 : DmaSem sig := 52
abbrev cc10_sem0_1 : DmaSem sig := 53
abbrev cc10_sem1_0 : DmaSem sig := 54
abbrev cc10_sem2_0 : DmaSem sig := 55
abbrev cc10_sem3_0 : DmaSem sig := 56
abbrev cc10_sem3_1 : DmaSem sig := 57
abbrev cc11_sem0_0 : DmaSem sig := 58
abbrev cc11_sem1_0 : DmaSem sig := 59
abbrev cc11_sem2_0 : DmaSem sig := 60
abbrev cc11_sem3_0 : DmaSem sig := 61
abbrev cc12_sem0_0 : DmaSem sig := 62
abbrev cc12_sem0_1 : DmaSem sig := 63
abbrev cc12_sem1_0 : DmaSem sig := 64
abbrev cc12_sem2_0 : DmaSem sig := 65
abbrev cc12_sem3_0 : DmaSem sig := 66
abbrev cc12_sem3_1 : DmaSem sig := 67
abbrev cc13_sem0_0 : DmaSem sig := 68
abbrev cc13_sem0_1 : DmaSem sig := 69
abbrev cc13_sem1_0 : DmaSem sig := 70
abbrev cc13_sem1_1 : DmaSem sig := 71
abbrev cc13_sem2_0 : DmaSem sig := 72
abbrev cc13_sem3_0 : DmaSem sig := 73
abbrev cc13_sem4_0 : DmaSem sig := 74
abbrev cc13_sem5_0 : DmaSem sig := 75
abbrev cc13_sem5_1 : DmaSem sig := 76
abbrev cc14_sem0_0 : DmaSem sig := 77
abbrev cc14_sem0_1 : DmaSem sig := 78
abbrev cc14_sem1_0 : DmaSem sig := 79
abbrev cc14_sem2_0 : DmaSem sig := 80
abbrev cc14_sem3_0 : DmaSem sig := 81
abbrev cc14_sem3_1 : DmaSem sig := 82
abbrev cc15_sem0_0 : DmaSem sig := 83
abbrev cc15_sem0_1 : DmaSem sig := 84
abbrev cc15_sem1_0 : DmaSem sig := 85
abbrev cc15_sem1_1 : DmaSem sig := 86
abbrev cc15_sem2_0 : DmaSem sig := 87
abbrev cc15_sem3_0 : DmaSem sig := 88
abbrev cc15_sem3_1 : DmaSem sig := 89
abbrev cc16_sem0_0 : DmaSem sig := 90
abbrev cc16_sem0_1 : DmaSem sig := 91
abbrev cc16_sem1_0 : DmaSem sig := 92
abbrev cc16_sem2_0 : DmaSem sig := 93
abbrev cc16_sem3_0 : DmaSem sig := 94
abbrev cc16_sem3_1 : DmaSem sig := 95
abbrev cc16_sem4_0 : DmaSem sig := 96
abbrev cc16_sem4_1 : DmaSem sig := 97

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S5000x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S5000x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5000x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S5000x384 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S384x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S5000x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S5000x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S5000x128 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S128x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S5000x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S5000x384 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S384x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S5000x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S5000x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S5000x128 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S128x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S5000x256 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8000x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S8000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S5000x384 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S384x128 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S5000x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

abbrev stage9_4 : Fin 1 → Memref sig .tc .vmem S5000x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x48 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S48x128 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S10000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S5000x128 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S128x128 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S5000x128 .bf16 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x128 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S10000x128 .bf16 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S12000x128 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S12000x128 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x1 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S12000x1 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x131 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S131x256 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S10000x256 .bf16 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![50], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S12000x128 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S12000x128 .bf16 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S12000x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![20], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x256 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S256x128 .bf16 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S5000x128 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 2 → Memref sig .tc .vmem S5000x128 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

class Facts₀ : Prop where
  concatenates_S5000x32_S5000x32_S5000x64_d1 : Shape.Concatenates [S5000x32, S5000x32] S5000x64 1
  bitsLt_bf16_f32 : FTy.bits .bf16 < FTy.bits .f32
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x80000_S1x80000_0_0 : S2x80000.Slices ![0, 0] S1x80000
  shapeCasts_S1x80000_S80000 : S1x80000.ShapeCasts S80000
  slices_S2x80000_S1x80000_1_0 : S2x80000.Slices ![1, 0] S1x80000
  reducesTo_S5000x1_S5000_d1 : S5000x1.ReducesTo [1] S5000
  h_S_ : 0 < S_.numel
  bcast_S5000_S5000x1_0 : S5000.BroadcastsInDim S5000x1 (![0] : Fin 1 → Fin S5000x1.rank)
  slices_S3x256x128_S1x256x128_0_0_0 : S3x256x128.Slices ![0, 0, 0] S1x256x128
  shapeCasts_S1x256x128_S256x128 : S1x256x128.ShapeCasts S256x128
  slices_S256x128_S128x128_0_0 : S256x128.Slices ![0, 0] S128x128
  slices_S256x128_S128x128_128_0 : S256x128.Slices ![128, 0] S128x128
  concatenates_S128x128_S128x128_S128x256_d1 : Shape.Concatenates [S128x128, S128x128] S128x256 1
  bcast_S_S256 : S_.BroadcastsInDim S256 (![] : Fin 0 → Fin S256.rank)
  shapeCasts_S256_S1x256 : S256.ShapeCasts S1x256
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  slices_S5000x256_S5000x128_0_0 : S5000x256.Slices ![0, 0] S5000x128
  slices_S5000x256_S5000x128_0_128 : S5000x256.Slices ![0, 128] S5000x128
  bcast_S_S80000 : S_.BroadcastsInDim S80000 (![] : Fin 0 → Fin S80000.rank)
  bcast_S80000_S80000x1_0 : S80000.BroadcastsInDim S80000x1 (![0] : Fin 1 → Fin S80000x1.rank)
  slices_S3x128_S1x128_0_0 : S3x128.Slices ![0, 0] S1x128
  shapeCasts_S1x128_S128 : S1x128.ShapeCasts S128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S1x128_S8000x128 : S1x128.Broadcasts S8000x128
  bcast_S_S5000x128 : S_.BroadcastsInDim S5000x128 (![] : Fin 0 → Fin S5000x128.rank)
  slices_S80000x128_S80000x1_0_0 : S80000x128.Slices ![0, 0] S80000x1
  bcast_S_S80000x1 : S_.BroadcastsInDim S80000x1 (![] : Fin 0 → Fin S80000x1.rank)
  bcast_S_S5000x1 : S_.BroadcastsInDim S5000x1 (![] : Fin 0 → Fin S5000x1.rank)
  bcast_S5000x1_S5000x128_0_1 : S5000x1.BroadcastsInDim S5000x128 (![0, 1] : Fin 2 → Fin S5000x128.rank)
  bcast_S_S10x128 : S_.BroadcastsInDim S10x128 (![] : Fin 0 → Fin S10x128.rank)
  slices_S5000x128_S5000x1_0_0 : S5000x128.Slices ![0, 0] S5000x1
  bcast_S_S10x1 : S_.BroadcastsInDim S10x1 (![] : Fin 0 → Fin S10x1.rank)
  bcast_S10x1_S10x128_0_1 : S10x1.BroadcastsInDim S10x128 (![0, 1] : Fin 2 → Fin S10x128.rank)
  bcast_S_S5000 : S_.BroadcastsInDim S5000 (![] : Fin 0 → Fin S5000.rank)
  concatenates_S5000x128_S5000x128_S5000x128_S5000x384_d1 : Shape.Concatenates [S5000x128, S5000x128, S5000x128] S5000x384 1
  slices_S3x384x128_S1x384x128_0_0_0 : S3x384x128.Slices ![0, 0, 0] S1x384x128
  shapeCasts_S1x384x128_S384x128 : S1x384x128.ShapeCasts S384x128
  inb_S5000x384_S5000x384_0_0 : ∀ a, (![0, 0] : Fin 2 → Nat) a + S5000x384.size a ≤ S5000x384.size a
  h_S5000x384 : 0 < S5000x384.numel
  shapeCasts_S5000x384_S5000x384 : S5000x384.ShapeCasts S5000x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  slices_S3x256x128_S1x256x128_1_0_0 : S3x256x128.Slices ![1, 0, 0] S1x256x128
  slices_S3x128_S1x128_1_0 : S3x128.Slices ![1, 0] S1x128
  slices_S3x384x128_S1x384x128_1_0_0 : S3x384x128.Slices ![1, 0, 0] S1x384x128
  slices_S3x256x128_S1x256x128_2_0_0 : S3x256x128.Slices ![2, 0, 0] S1x256x128
  slices_S3x128_S1x128_2_0 : S3x128.Slices ![2, 0] S1x128
  slices_S3x384x128_S1x384x128_2_0_0 : S3x384x128.Slices ![2, 0, 0] S1x384x128
  concatenates_S100000x16_S100000x32_S100000x48_d1 : Shape.Concatenates [S100000x16, S100000x32] S100000x48 1
  inb_S10000x48_S10000x48_0_0 : ∀ a, (![0, 0] : Fin 2 → Nat) a + S10000x48.size a ≤ S10000x48.size a
  h_S10000x48 : 0 < S10000x48.numel
  shapeCasts_S10000x48_S10000x48 : S10000x48.ShapeCasts S10000x48
  inb_S48x128_S48x128_0_0 : ∀ a, (![0, 0] : Fin 2 → Nat) a + S48x128.size a ≤ S48x128.size a
  h_S48x128 : 0 < S48x128.numel
  shapeCasts_S48x128_S48x128 : S48x128.ShapeCasts S48x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S128 : S_.BroadcastsInDim S128 (![] : Fin 0 → Fin S128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S5000x128_S5000x128_0_0 : (Rect.unit (s := S5000x128) ![0, 0] S5000x128.size inb_S5000x128_S5000x128_0_0).PackedRows (EltTy.packing .bf16)
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  bcast_S_S300000 : S_.BroadcastsInDim S300000 (![] : Fin 0 → Fin S300000.rank)
  bcast_S300000_S300000x1_0 : S300000.BroadcastsInDim S300000x1 (![0] : Fin 1 → Fin S300000x1.rank)
  shapeCasts_S128x1_S1x128 : S128x1.ShapeCasts S1x128
  shapeCasts_S1_S1x1 : S1.ShapeCasts S1x1
  inb_S12000x128_S12000x128_0_0 : ∀ a, (![0, 0] : Fin 2 → Nat) a + S12000x128.size a ≤ S12000x128.size a
  h_S12000x128 : 0 < S12000x128.numel
  shapeCasts_S12000x128_S12000x128 : S12000x128.ShapeCasts S12000x128
  broadcasts_S1x128_S12000x128 : S1x128.Broadcasts S12000x128
  reduces_S12000x128_S12000 : S12000x128.Reduces [1] S12000
  shapeCasts_S12000_S12000x1 : S12000.ShapeCasts S12000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S12000x1 : S1x1.Broadcasts S12000x1
  inb_S12000x1_S12000x1_0_0 : ∀ a, (![0, 0] : Fin 2 → Nat) a + S12000x1.size a ≤ S12000x1.size a
  h_S12000x1 : 0 < S12000x1.numel
  reducesTo_S300000x1_S1_d0 : S300000x1.ReducesTo [0] S1
  bcast_S_S1 : S_.BroadcastsInDim S1 (![] : Fin 0 → Fin S1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  bcast_S300000x1_S300000x128_0_1 : S300000x1.BroadcastsInDim S300000x128 (![0, 1] : Fin 2 → Fin S300000x128.rank)
  bcast_S_S100000x128 : S_.BroadcastsInDim S100000x128 (![] : Fin 0 → Fin S100000x128.rank)
  slices_S100000x16_S100000x3_0_0 : S100000x16.Slices ![0, 0] S100000x3
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S259x128_S128x128_0_0 : S259x128.Slices ![0, 0] S128x128
  slices_S259x128_S128x128_128_0 : S259x128.Slices ![128, 0] S128x128
  slices_S259x128_S3x128_256_0 : S259x128.Slices ![256, 0] S3x128
  concatenates_S128x128_S3x128_S131x128_d0 : Shape.Concatenates [S128x128, S3x128] S131x128 0
  concatenates_S131x128_S131x128_S131x256_d1 : Shape.Concatenates [S131x128, S131x128] S131x256 1
  concatenates_S100000x128_S100000x3_S100000x131_d1 : Shape.Concatenates [S100000x128, S100000x3] S100000x131 1
  inb_S10000x131_S10000x131_0_0 : ∀ a, (![0, 0] : Fin 2 → Nat) a + S10000x131.size a ≤ S10000x131.size a
  h_S10000x131 : 0 < S10000x131.numel
  shapeCasts_S10000x131_S10000x131 : S10000x131.ShapeCasts S10000x131
  inb_S131x256_S131x256_0_0 : ∀ a, (![0, 0] : Fin 2 → Nat) a + S131x256.size a ≤ S131x256.size a
  h_S131x256 : 0 < S131x256.numel
  shapeCasts_S131x256_S131x256 : S131x256.ShapeCasts S131x256
  broadcasts_S1x256_S10000x256 : S1x256.Broadcasts S10000x256
  inb_S10000x256_S10000x256_0_0 : ∀ a, (![0, 0] : Fin 2 → Nat) a + S10000x256.size a ≤ S10000x256.size a
  h_S10000x256 : 0 < S10000x256.numel
  packedbf16_S10000x256_S10000x256_0_0 : (Rect.unit (s := S10000x256) ![0, 0] S10000x256.size inb_S10000x256_S10000x256_0_0).PackedRows (EltTy.packing .bf16)
  slices_S100000x256_S100000x128_0_0 : S100000x256.Slices ![0, 0] S100000x128
  slices_S100000x256_S100000x128_0_128 : S100000x256.Slices ![0, 128] S100000x128
  bcast_S_S600000 : S_.BroadcastsInDim S600000 (![] : Fin 0 → Fin S600000.rank)
  bcast_S600000_S600000x1_0 : S600000.BroadcastsInDim S600000x1 (![0] : Fin 1 → Fin S600000x1.rank)
  slices_S600000x128_S600000x1_0_0 : S600000x128.Slices ![0, 0] S600000x1
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  dot_S5000x64_S64x128_S5000x128_1_0_0_1_n_n_wf : DotDims.WF S5000x64 S64x128 S5000x128 [1] [0] [0] [1] [] []
  dot_S5000x128_S128x256_S5000x256_1_0_0_1_n_n_wf : DotDims.WF S5000x128 S128x256 S5000x256 [1] [0] [0] [1] [] []
  gather_S5000x128_S80000x1_S80000x128_1_0_n_n_0_1_1128_wf : GatherDims.WF S5000x128 S80000x1 S80000x128 [1] [0] [] [0] [] 1 ![1, 128]
  scatter_S5000x128_S80000x1_S80000x128_1_0_0_1_wf : ScatterDims.WF S5000x128 S80000x1 S80000x128 [1] [0] [0] 1
  scatter_S5000x1_S80000x1_S80000x1_1_0_0_1_wf : ScatterDims.WF S5000x1 S80000x1 S80000x1 [1] [0] [0] 1
  scatter_S10x128_S5000x1_S5000x128_1_0_0_1_wf : ScatterDims.WF S10x128 S5000x1 S5000x128 [1] [0] [0] 1
  scatter_S10x1_S5000x1_S5000x1_1_0_0_1_wf : ScatterDims.WF S10x1 S5000x1 S5000x1 [1] [0] [0] 1
  gather_S10x128_S5000x1_S5000x128_1_0_n_n_0_1_1128_wf : GatherDims.WF S10x128 S5000x1 S5000x128 [1] [0] [] [0] [] 1 ![1, 128]
  dot_S5000x384_S384x128_S5000x128_1_0_0_1_n_n_wf : DotDims.WF S5000x384 S384x128 S5000x128 [1] [0] [0] [1] [] []
  dot_S10000x48_S48x128_S10000x128_1_0_0_1_n_n_wf : DotDims.WF S10000x48 S48x128 S10000x128 [1] [0] [0] [1] [] []
  dot_S5000x128_S128x128_S5000x128_1_0_0_1_n_n_wf : DotDims.WF S5000x128 S128x128 S5000x128 [1] [0] [0] [1] [] []
  dot_S10000x128_S128x128_S10000x128_1_0_0_1_n_n_wf : DotDims.WF S10000x128 S128x128 S10000x128 [1] [0] [0] [1] [] []
  gather_S5000x128_S300000x1_S300000x128_1_0_n_n_0_1_1128_wf : GatherDims.WF S5000x128 S300000x1 S300000x128 [1] [0] [] [0] [] 1 ![1, 128]
  gather_S100000x128_S300000x1_S300000x128_1_0_n_n_0_1_1128_wf : GatherDims.WF S100000x128 S300000x1 S300000x128 [1] [0] [] [0] [] 1 ![1, 128]
  scatter_S100000x128_S300000x1_S300000x128_1_0_0_1_wf : ScatterDims.WF S100000x128 S300000x1 S300000x128 [1] [0] [0] 1
  dot_S10000x131_S131x256_S10000x256_1_0_0_1_n_n_wf : DotDims.WF S10000x131 S131x256 S10000x256 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S5000x64.size a
  hwx0_0 : ∀ i : grid0.Coords, EltTy.bits .bf16 = 32 ∨ (Rect.block (s := S5000x64) S5000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S5000x128.size a
  hwx0_3 : ∀ i : grid0.Coords, EltTy.bits .f32 = 32 ∨ (Rect.block (s := S5000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S5000x128.size a
  hwx1_0 : ∀ i : grid1.Coords, EltTy.bits .bf16 = 32 ∨ (Rect.block (s := S5000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .bf16 = 32 ∨ (Rect.block (s := S128x256) S128x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S5000x256.size a
  hwx1_3 : ∀ i : grid1.Coords, EltTy.bits .bf16 = 32 ∨ (Rect.block (s := S5000x256) S5000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S80000x128.size a
  hwx2_0 : ∀ i : grid2.Coords, EltTy.bits .bf16 = 32 ∨ (Rect.block (s := S80000x128) S8000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S80000x128.size a
  hwx2_1 : ∀ i : grid2.Coords, EltTy.bits .bf16 = 32 ∨ (Rect.block (s := S80000x128) S8000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x128.size a ≤ S80000x128.size a
  hwx2_3 : ∀ i : grid2.Coords, EltTy.bits .f32 = 32 ∨ (Rect.block (s := S80000x128) S8000x128.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S5000x384.size a ≤ S5000x384.size a
  hwx3_0 : ∀ i : grid3.Coords, EltTy.bits .bf16 = 32 ∨ (Rect.block (s := S5000x384) S5000x384.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S384x128.size a ≤ S384x128.size a
  hwx3_1 : ∀ i : grid3.Coords, EltTy.bits .bf16 = 32 ∨ (Rect.block (s := S384x128) S384x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S5000x128.size a
  hwx3_3 : ∀ i : grid3.Coords, EltTy.bits .f32 = 32 ∨ (Rect.block (s := S5000x128) S5000x128.size (cc3_transform_3 i) (hinb3_3 i)).WholeWords (EltTy.packing .f32)
  hstage3_4 : ∀ j, (stage3_4 j).IsWhole
  nbuf3_4 : grid3.bufCount reads3_4 false = 1
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S5000x128.size a
  hwx3_4 : ∀ i : grid3.Coords, EltTy.bits .f32 = 32 ∨ (Rect.block (s := S5000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S5000x128.size a
  hwx4_0 : ∀ i : grid4.Coords, EltTy.bits .bf16 = 32 ∨ (Rect.block (s := S5000x128) S5000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .bf16 = 32 ∨ (Rect.block (s := S128x256) S128x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S5000x256.size a ≤ S5000x256.size a
  hwx4_3 : ∀ i : grid4.Coords, EltTy.bits .bf16 = 32 ∨ (Rect.block (s := S5000x256) S5000x256.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S80000x128.size a
  hwx5_0 : ∀ i : grid5.Coords, EltTy.bits .bf16 = 32 ∨ (Rect.block (s := S80000x128) S8000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x128.size a ≤ S80000x128.size a
  hwx5_1 : ∀ i : grid5.Coords, EltTy.bits .bf16 = 32 ∨ (Rect.block (s := S80000x128) S8000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8000x128.size a ≤ S80000x128.size a
  hwx5_3 : ∀ i : grid5.Coords, EltTy.bits .f32 = 32 ∨ (Rect.block (s := S80000x128) S8000x128.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S5000x384.size a ≤ S5000x384.size a
  hwx6_0 : ∀ i : grid6.Coords, EltTy.bits .bf16 = 32 ∨ (Rect.block (s := S5000x384) S5000x384.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S384x128.size a ≤ S384x128.size a
  hwx6_1 : ∀ i : grid6.Coords, EltTy.bits .bf16 = 32 ∨ (Rect.block (s := S384x128) S384x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S5000x128.size a
  hwx6_3 : ∀ i : grid6.Coords, EltTy.bits .f32 = 32 ∨ (Rect.block (s := S5000x128) S5000x128.size (cc6_transform_3 i) (hinb6_3 i)).WholeWords (EltTy.packing .f32)
  hstage6_4 : ∀ j, (stage6_4 j).IsWhole
  nbuf6_4 : grid6.bufCount reads6_4 false = 1
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S5000x128.size a
  hwx6_4 : ∀ i : grid6.Coords, EltTy.bits .f32 = 32 ∨ (Rect.block (s := S5000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S5000x128.size a
  hwx7_0 : ∀ i : grid7.Coords, EltTy.bits .bf16 = 32 ∨ (Rect.block (s := S5000x128) S5000x128.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x256.size a ≤ S128x256.size a
  hwx7_1 : ∀ i : grid7.Coords, EltTy.bits .bf16 = 32 ∨ (Rect.block (s := S128x256) S128x256.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S5000x256.size a ≤ S5000x256.size a
  hwx7_3 : ∀ i : grid7.Coords, EltTy.bits .bf16 = 32 ∨ (Rect.block (s := S5000x256) S5000x256.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x128.size a ≤ S80000x128.size a
  hwx8_0 : ∀ i : grid8.Coords, EltTy.bits .bf16 = 32 ∨ (Rect.block (s := S80000x128) S8000x128.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8000x128.size a ≤ S80000x128.size a
  hwx8_1 : ∀ i : grid8.Coords, EltTy.bits .bf16 = 32 ∨ (Rect.block (s := S80000x128) S8000x128.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S8000x128.size a ≤ S80000x128.size a
  hwx8_3 : ∀ i : grid8.Coords, EltTy.bits .f32 = 32 ∨ (Rect.block (s := S80000x128) S8000x128.size (cc8_transform_3 i) (hinb8_3 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S5000x384.size a ≤ S5000x384.size a
  hwx9_0 : ∀ i : grid9.Coords, EltTy.bits .bf16 = 32 ∨ (Rect.block (s := S5000x384) S5000x384.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S384x128.size a ≤ S384x128.size a
  hwx9_1 : ∀ i : grid9.Coords, EltTy.bits .bf16 = 32 ∨ (Rect.block (s := S384x128) S384x128.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S5000x128.size a
  hwx9_3 : ∀ i : grid9.Coords, EltTy.bits .f32 = 32 ∨ (Rect.block (s := S5000x128) S5000x128.size (cc9_transform_3 i) (hinb9_3 i)).WholeWords (EltTy.packing .f32)
  hstage9_4 : ∀ j, (stage9_4 j).IsWhole
  nbuf9_4 : grid9.bufCount reads9_4 false = 1
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S5000x128.size a
  hwx9_4 : ∀ i : grid9.Coords, EltTy.bits .f32 = 32 ∨ (Rect.block (s := S5000x128) S5000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x48.size a ≤ S100000x48.size a
  hwx10_0 : ∀ i : grid10.Coords, EltTy.bits .bf16 = 32 ∨ (Rect.block (s := S100000x48) S10000x48.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S48x128.size a ≤ S48x128.size a
  hwx10_1 : ∀ i : grid10.Coords, EltTy.bits .bf16 = 32 ∨ (Rect.block (s := S48x128) S48x128.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S10000x128.size a ≤ S100000x128.size a
  hwx10_3 : ∀ i : grid10.Coords, EltTy.bits .f32 = 32 ∨ (Rect.block (s := S100000x128) S10000x128.size (cc10_transform_3 i) (hinb10_3 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S5000x128.size a
  hwx11_0 : ∀ i : grid11.Coords, EltTy.bits .bf16 = 32 ∨ (Rect.block (s := S5000x128) S5000x128.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .bf16 = 32 ∨ (Rect.block (s := S128x128) S128x128.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 1
  hreads11_3 : ∀ i i' : grid11.Coords, (∀ a, reads11_3 a = true → i a = i' a) → cc11_transform_3 i = cc11_transform_3 i'
  hinb11_3 : ∀ (i : grid11.Coords) a, (cc11_transform_3 i a + 1) * S5000x128.size a ≤ S5000x128.size a
  hwx11_3 : ∀ i : grid11.Coords, EltTy.bits .bf16 = 32 ∨ (Rect.block (s := S5000x128) S5000x128.size (cc11_transform_3 i) (hinb11_3 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x128.size a ≤ S100000x128.size a
  hwx12_0 : ∀ i : grid12.Coords, EltTy.bits .bf16 = 32 ∨ (Rect.block (s := S100000x128) S10000x128.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .bf16 = 32 ∨ (Rect.block (s := S128x128) S128x128.size (cc12_transform_1 i) (hinb12_1 i)).WholeWords (EltTy.packing .bf16)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S10000x128.size a ≤ S100000x128.size a
  hwx12_3 : ∀ i : grid12.Coords, EltTy.bits .bf16 = 32 ∨ (Rect.block (s := S100000x128) S10000x128.size (cc12_transform_3 i) (hinb12_3 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S12000x128.size a ≤ S300000x128.size a
  hwx13_0 : ∀ i : grid13.Coords, EltTy.bits .bf16 = 32 ∨ (Rect.block (s := S300000x128) S12000x128.size (cc13_transform_0 i) (hinb13_0 i)).WholeWords (EltTy.packing .bf16)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S12000x128.size a ≤ S300000x128.size a
  hwx13_1 : ∀ i : grid13.Coords, EltTy.bits .bf16 = 32 ∨ (Rect.block (s := S300000x128) S12000x128.size (cc13_transform_1 i) (hinb13_1 i)).WholeWords (EltTy.packing .bf16)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x1.size a ≤ S1x1.size a
  hwx13_4 : ∀ i : grid13.Coords, EltTy.bits .f32 = 32 ∨ (Rect.block (s := S1x1) S1x1.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S12000x1.size a ≤ S300000x1.size a
  hwx13_5 : ∀ i : grid13.Coords, EltTy.bits .f32 = 32 ∨ (Rect.block (s := S300000x1) S12000x1.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x131.size a ≤ S100000x131.size a
  hwx14_0 : ∀ i : grid14.Coords, EltTy.bits .bf16 = 32 ∨ (Rect.block (s := S100000x131) S10000x131.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S131x256.size a ≤ S131x256.size a
  hwx14_1 : ∀ i : grid14.Coords, EltTy.bits .bf16 = 32 ∨ (Rect.block (s := S131x256) S131x256.size (cc14_transform_1 i) (hinb14_1 i)).WholeWords (EltTy.packing .bf16)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x256.size a ≤ S1x256.size a
  hwx14_2 : ∀ i : grid14.Coords, EltTy.bits .f32 = 32 ∨ (Rect.block (s := S1x256) S1x256.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S10000x256.size a ≤ S100000x256.size a
  hwx14_3 : ∀ i : grid14.Coords, EltTy.bits .bf16 = 32 ∨ (Rect.block (s := S100000x256) S10000x256.size (cc14_transform_3 i) (hinb14_3 i)).WholeWords (EltTy.packing .bf16)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S12000x128.size a ≤ S600000x128.size a
  hwx15_0 : ∀ i : grid15.Coords, EltTy.bits .bf16 = 32 ∨ (Rect.block (s := S600000x128) S12000x128.size (cc15_transform_0 i) (hinb15_0 i)).WholeWords (EltTy.packing .bf16)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S12000x128.size a ≤ S600000x128.size a
  hwx15_1 : ∀ i : grid15.Coords, EltTy.bits .bf16 = 32 ∨ (Rect.block (s := S600000x128) S12000x128.size (cc15_transform_1 i) (hinb15_1 i)).WholeWords (EltTy.packing .bf16)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S12000x128.size a ≤ S600000x128.size a
  hwx15_3 : ∀ i : grid15.Coords, EltTy.bits .f32 = 32 ∨ (Rect.block (s := S600000x128) S12000x128.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x256.size a ≤ S100000x256.size a
  hwx16_0 : ∀ i : grid16.Coords, EltTy.bits .bf16 = 32 ∨ (Rect.block (s := S100000x256) S5000x256.size (cc16_transform_0 i) (hinb16_0 i)).WholeWords (EltTy.packing .bf16)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S256x128.size a ≤ S256x128.size a
  hwx16_1 : ∀ i : grid16.Coords, EltTy.bits .bf16 = 32 ∨ (Rect.block (s := S256x128) S256x128.size (cc16_transform_1 i) (hinb16_1 i)).WholeWords (EltTy.packing .bf16)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S5000x128.size a ≤ S100000x128.size a
  hwx16_3 : ∀ i : grid16.Coords, EltTy.bits .f32 = 32 ∨ (Rect.block (s := S100000x128) S5000x128.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S5000x128.size a ≤ S100000x128.size a
  hwx16_4 : ∀ i : grid16.Coords, EltTy.bits .f32 = 32 ∨ (Rect.block (s := S100000x128) S5000x128.size (cc16_transform_4 i) (hinb16_4 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S5000x128_S80000x1_S80000x128_1_0_n_n_0_1_1128 : GatherDims S5000x128 S80000x1 S80000x128 where
  offsetDims := [1]
  collapsedSliceDims := [0]
  operandBatchingDims := []
  startIndicesBatchingDims := []
  startIndexMap := [0]
  indexVectorDim := 1
  sliceSizes := ![1, 128]
  wf := gather_S5000x128_S80000x1_S80000x128_1_0_n_n_0_1_1128_wf
def scatter_S5000x128_S80000x1_S80000x128_1_0_0_1 : ScatterDims S5000x128 S80000x1 S80000x128 where
  updateWindowDims := [1]
  insertedWindowDims := [0]
  scatterDimsToOperandDims := [0]
  indexVectorDim := 1
  wf := scatter_S5000x128_S80000x1_S80000x128_1_0_0_1_wf
def scatter_S5000x1_S80000x1_S80000x1_1_0_0_1 : ScatterDims S5000x1 S80000x1 S80000x1 where
  updateWindowDims := [1]
  insertedWindowDims := [0]
  scatterDimsToOperandDims := [0]
  indexVectorDim := 1
  wf := scatter_S5000x1_S80000x1_S80000x1_1_0_0_1_wf
def scatter_S10x128_S5000x1_S5000x128_1_0_0_1 : ScatterDims S10x128 S5000x1 S5000x128 where
  updateWindowDims := [1]
  insertedWindowDims := [0]
  scatterDimsToOperandDims := [0]
  indexVectorDim := 1
  wf := scatter_S10x128_S5000x1_S5000x128_1_0_0_1_wf
def scatter_S10x1_S5000x1_S5000x1_1_0_0_1 : ScatterDims S10x1 S5000x1 S5000x1 where
  updateWindowDims := [1]
  insertedWindowDims := [0]
  scatterDimsToOperandDims := [0]
  indexVectorDim := 1
  wf := scatter_S10x1_S5000x1_S5000x1_1_0_0_1_wf
def gather_S10x128_S5000x1_S5000x128_1_0_n_n_0_1_1128 : GatherDims S10x128 S5000x1 S5000x128 where
  offsetDims := [1]
  collapsedSliceDims := [0]
  operandBatchingDims := []
  startIndicesBatchingDims := []
  startIndexMap := [0]
  indexVectorDim := 1
  sliceSizes := ![1, 128]
  wf := gather_S10x128_S5000x1_S5000x128_1_0_n_n_0_1_1128_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def dot_S10000x48_S48x128_S10000x128_1_0_0_1_n_n : DotDims S10000x48 S48x128 S10000x128 where
  lhsContracting := [1]
  rhsContracting := [0]
  lhsNonContracting := [0]
  rhsNonContracting := [1]
  lhsBatch := []
  rhsBatch := []
  wf := dot_S10000x48_S48x128_S10000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S5000x128_S300000x1_S300000x128_1_0_n_n_0_1_1128 : GatherDims S5000x128 S300000x1 S300000x128 where
  offsetDims := [1]
  collapsedSliceDims := [0]
  operandBatchingDims := []
  startIndicesBatchingDims := []
  startIndexMap := [0]
  indexVectorDim := 1
  sliceSizes := ![1, 128]
  wf := gather_S5000x128_S300000x1_S300000x128_1_0_n_n_0_1_1128_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def dot_S10000x131_S131x256_S10000x256_1_0_0_1_n_n : DotDims S10000x131 S131x256 S10000x256 where
  lhsContracting := [1]
  rhsContracting := [0]
  lhsNonContracting := [0]
  rhsNonContracting := [1]
  lhsBatch := []
  rhsBatch := []
  wf := dot_S10000x131_S131x256_S10000x256_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v1) S5000x64.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x128.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v20) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S5000x256.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S8000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v81) S5000x384.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v82) S384x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S5000x128.size cc3_transform_3 reads3_3 false false 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S5000x128.size cc3_transform_4 reads3_4 true false 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v93) S5000x128.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v94) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v95) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v96) S5000x256.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v105) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v112) S8000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v115) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v116) S8000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v155) S5000x384.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v156) S384x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v157) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v84) S5000x128.size cc6_transform_3 reads6_3 false false 1 stage6_3 sem6_3
    hrank6 hreads6_3 hinb6_3 nbuf6_3 (Memref.isWhole_whole _) hwx6_3 hstage6_3

abbrev win6_4 : Pipeline.Window sig grid6 :=
  Pipeline.Window.ofSpec (Memref.whole main_v158) S5000x128.size cc6_transform_4 reads6_4 true false 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v167) S5000x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v168) S128x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v169) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v170) S5000x256.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v179) S8000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v186) S8000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v189) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v190) S8000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v229) S5000x384.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v230) S384x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v231) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v158) S5000x128.size cc9_transform_3 reads9_3 false false 1 stage9_3 sem9_3
    hrank9 hreads9_3 hinb9_3 nbuf9_3 (Memref.isWhole_whole _) hwx9_3 hstage9_3

abbrev win9_4 : Pipeline.Window sig grid9 :=
  Pipeline.Window.ofSpec (Memref.whole main_v232) S5000x128.size cc9_transform_4 reads9_4 true false 1 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v234) S10000x48.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v235) S48x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v236) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v237) S10000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v241) S5000x128.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v242) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v243) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v244) S5000x128.size cc11_transform_3 reads11_3 true false 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v246) S10000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v247) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v248) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v249) S10000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v256) S12000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v263) S12000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v264) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v265) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v266) S1x1.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v267) S12000x1.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v313) S10000x131.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v314) S131x256.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v315) S1x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v316) S10000x256.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v325) S12000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v332) S12000x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v333) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v334) S12000x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v348) S5000x256.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v349) S256x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v350) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v298) S5000x128.size cc16_transform_3 reads16_3 false false 2 stage16_3 sem16_3
    hrank16 hreads16_3 hinb16_3 nbuf16_3 (Memref.isWhole_whole _) hwx16_3 hstage16_3

abbrev win16_4 : Pipeline.Window sig grid16 :=
  Pipeline.Window.ofSpec (Memref.whole main_v351) S5000x128.size cc16_transform_4 reads16_4 true false 2 stage16_4 sem16_4
    hrank16 hreads16_4 hinb16_4 nbuf16_4 (Memref.isWhole_whole _) hwx16_4 hstage16_4

abbrev win16 : Fin 5 → Pipeline.Window sig grid16 := fun | 0 => win16_0 | 1 => win16_1 | 2 => win16_2 | 3 => win16_3 | 4 => win16_4 | ⟨_ + 5, h⟩ => absurd h (Nat.not_lt.2 (Nat.le_add_left _ _))
abbrev spec16 : Fin 5 → Pipeline.WinSpec sig grid16.rank := fun w => (win16 w).toWinSpec

class Facts : Prop extends Facts₀ where

variable [Facts]
-- ==== ReferenceIdeal.lean ====
abbrev S5000x32 : Shape := ⟨2, ![5000, 32]⟩
abbrev S5000x1 : Shape := ⟨2, ![5000, 1]⟩
abbrev S100000x16 : Shape := ⟨2, ![100000, 16]⟩
abbrev S100000x32 : Shape := ⟨2, ![100000, 32]⟩
abbrev S2x80000 : Shape := ⟨2, ![2, 80000]⟩
abbrev S5000 : Shape := ⟨1, ![5000]⟩
abbrev S2x600000 : Shape := ⟨2, ![2, 600000]⟩
abbrev S300000 : Shape := ⟨1, ![300000]⟩
abbrev S64x128 : Shape := ⟨2, ![64, 128]⟩
abbrev S128 : Shape := ⟨1, ![128]⟩
abbrev S3x256x128 : Shape := ⟨3, ![3, 256, 128]⟩
abbrev S3x128 : Shape := ⟨2, ![3, 128]⟩
abbrev S3x384x128 : Shape := ⟨3, ![3, 384, 128]⟩
abbrev S48x128 : Shape := ⟨2, ![48, 128]⟩
abbrev S259x128 : Shape := ⟨2, ![259, 128]⟩
abbrev S256x128 : Shape := ⟨2, ![256, 128]⟩
abbrev S128x1 : Shape := ⟨2, ![128, 1]⟩
abbrev S1 : Shape := ⟨1, ![1]⟩
abbrev S5000x64 : Shape := ⟨2, ![5000, 64]⟩
abbrev S5000x128 : Shape := ⟨2, ![5000, 128]⟩
abbrev S1x128 : Shape := ⟨2, ![1, 128]⟩
abbrev S_ : Shape := ⟨0, ![]⟩
abbrev S1x80000 : Shape := ⟨2, ![1, 80000]⟩
abbrev S80000 : Shape := ⟨1, ![80000]⟩
abbrev S80000x1 : Shape := ⟨2, ![80000, 1]⟩
abbrev S80000x128 : Shape := ⟨2, ![80000, 128]⟩
abbrev S80000x256 : Shape := ⟨2, ![80000, 256]⟩
abbrev S1x256x128 : Shape := ⟨3, ![1, 256, 128]⟩
abbrev S10x128 : Shape := ⟨2, ![10, 128]⟩
abbrev S10x1 : Shape := ⟨2, ![10, 1]⟩
abbrev S5000x384 : Shape := ⟨2, ![5000, 384]⟩
abbrev S1x384x128 : Shape := ⟨3, ![1, 384, 128]⟩
abbrev S384x128 : Shape := ⟨2, ![384, 128]⟩
abbrev S100000x48 : Shape := ⟨2, ![100000, 48]⟩
abbrev S100000x128 : Shape := ⟨2, ![100000, 128]⟩
abbrev S300000x1 : Shape := ⟨2, ![300000, 1]⟩
abbrev S300000x128 : Shape := ⟨2, ![300000, 128]⟩
abbrev S300000x256 : Shape := ⟨2, ![300000, 256]⟩
abbrev S1x1 : Shape := ⟨2, ![1, 1]⟩
abbrev S100000x3 : Shape := ⟨2, ![100000, 3]⟩
abbrev S1x600000 : Shape := ⟨2, ![1, 600000]⟩
abbrev S600000 : Shape := ⟨1, ![600000]⟩
abbrev S600000x1 : Shape := ⟨2, ![600000, 1]⟩
abbrev S600000x3 : Shape := ⟨2, ![600000, 3]⟩
abbrev S600000x128 : Shape := ⟨2, ![600000, 128]⟩
abbrev S600000x259 : Shape := ⟨2, ![600000, 259]⟩
abbrev S100000x1 : Shape := ⟨2, ![100000, 1]⟩
abbrev S100000x256 : Shape := ⟨2, ![100000, 256]⟩

abbrev nBuf : Space → Nat
  | .hbm => 478
  | .vmem => 0
  | .smem => 0
  | _ => 0

abbrev hbmTy0_0 (i : Nat) : BufTy := match i % 128 with
  | 0 => ⟨S5000x32, .f32⟩
  | 1 => ⟨S5000x32, .f32⟩
  | 2 => ⟨S5000x1, .f32⟩
  | 3 => ⟨S100000x16, .f32⟩
  | 4 => ⟨S100000x32, .f32⟩
  | 5 => ⟨S2x80000, .i32⟩
  | 6 => ⟨S5000, .i32⟩
  | 7 => ⟨S2x600000, .i32⟩
  | 8 => ⟨S300000, .i32⟩
  | 9 => ⟨S300000, .i32⟩
  | 10 => ⟨S64x128, .f32⟩
  | 11 => ⟨S128, .f32⟩
  | 12 => ⟨S3x256x128, .f32⟩
  | 13 => ⟨S3x128, .f32⟩
  | 14 => ⟨S3x384x128, .f32⟩
  | 15 => ⟨S3x128, .f32⟩
  | 16 => ⟨S48x128, .f32⟩
  | 17 => ⟨S128, .f32⟩
  | 18 => ⟨S259x128, .f32⟩
  | 19 => ⟨S128, .f32⟩
  | 20 => ⟨S256x128, .f32⟩
  | 21 => ⟨S128, .f32⟩
  | 22 => ⟨S256x128, .f32⟩
  | 23 => ⟨S128, .f32⟩
  | 24 => ⟨S128x1, .f32⟩
  | 25 => ⟨S1, .f32⟩
  | 26 => ⟨S5000x64, .f32⟩
  | 27 => ⟨S5000x128, .f32⟩
  | 28 => ⟨S1x128, .f32⟩
  | 29 => ⟨S5000x128, .f32⟩
  | 30 => ⟨S5000x128, .f32⟩
  | 31 => ⟨S_, .f32⟩
  | 32 => ⟨S5000x128, .f32⟩
  | 33 => ⟨S5000x128, .i1⟩
  | 34 => ⟨S_, .f32⟩
  | 35 => ⟨S5000x128, .f32⟩
  | 36 => ⟨S5000x128, .f32⟩
  | 37 => ⟨S5000x128, .f32⟩
  | 38 => ⟨S1x80000, .i32⟩
  | 39 => ⟨S80000, .i32⟩
  | 40 => ⟨S1x80000, .i32⟩
  | 41 => ⟨S80000, .i32⟩
  | 42 => ⟨S_, .f32⟩
  | 43 => ⟨S5000, .f32⟩
  | 44 => ⟨S5000x1, .f32⟩
  | 45 => ⟨S_, .i32⟩
  | 46 => ⟨S80000, .i32⟩
  | 47 => ⟨S80000, .i1⟩
  | 48 => ⟨S_, .i32⟩
  | 49 => ⟨S80000, .i32⟩
  | 50 => ⟨S80000, .i32⟩
  | 51 => ⟨S80000, .i32⟩
  | 52 => ⟨S80000x1, .i32⟩
  | 53 => ⟨S80000x128, .f32⟩
  | 54 => ⟨S_, .i32⟩
  | 55 => ⟨S80000, .i32⟩
  | 56 => ⟨S80000, .i1⟩
  | 57 => ⟨S_, .i32⟩
  | 58 => ⟨S80000, .i32⟩
  | 59 => ⟨S80000, .i32⟩
  | 60 => ⟨S80000, .i32⟩
  | 61 => ⟨S80000x1, .i32⟩
  | 62 => ⟨S80000x128, .f32⟩
  | 63 => ⟨S80000x256, .f32⟩
  | 64 => ⟨S1x256x128, .f32⟩
  | 65 => ⟨S256x128, .f32⟩
  | 66 => ⟨S80000x128, .f32⟩
  | 67 => ⟨S1x128, .f32⟩
  | 68 => ⟨S128, .f32⟩
  | 69 => ⟨S1x128, .f32⟩
  | 70 => ⟨S80000x128, .f32⟩
  | 71 => ⟨S80000x128, .f32⟩
  | 72 => ⟨S_, .f32⟩
  | 73 => ⟨S80000x128, .f32⟩
  | 74 => ⟨S80000x128, .i1⟩
  | 75 => ⟨S_, .f32⟩
  | 76 => ⟨S80000x128, .f32⟩
  | 77 => ⟨S80000x128, .f32⟩
  | 78 => ⟨S80000x128, .f32⟩
  | 79 => ⟨S_, .f32⟩
  | 80 => ⟨S5000x128, .f32⟩
  | 81 => ⟨S80000x1, .i32⟩
  | 82 => ⟨S5000x128, .f32⟩
  | 83 => ⟨S80000x1, .f32⟩
  | 84 => ⟨S_, .f32⟩
  | 85 => ⟨S80000x1, .f32⟩
  | 86 => ⟨S_, .f32⟩
  | 87 => ⟨S5000x1, .f32⟩
  | 88 => ⟨S80000x1, .i32⟩
  | 89 => ⟨S5000x1, .f32⟩
  | 90 => ⟨S_, .f32⟩
  | 91 => ⟨S5000x1, .f32⟩
  | 92 => ⟨S5000x1, .f32⟩
  | 93 => ⟨S5000x128, .f32⟩
  | 94 => ⟨S5000x128, .f32⟩
  | 95 => ⟨S_, .f32⟩
  | 96 => ⟨S10x128, .f32⟩
  | 97 => ⟨S5000x1, .i32⟩
  | 98 => ⟨S10x128, .f32⟩
  | 99 => ⟨S5000x1, .f32⟩
  | 100 => ⟨S_, .f32⟩
  | 101 => ⟨S5000x1, .f32⟩
  | 102 => ⟨S_, .f32⟩
  | 103 => ⟨S10x1, .f32⟩
  | 104 => ⟨S5000x1, .i32⟩
  | 105 => ⟨S10x1, .f32⟩
  | 106 => ⟨S_, .f32⟩
  | 107 => ⟨S10x1, .f32⟩
  | 108 => ⟨S10x1, .f32⟩
  | 109 => ⟨S10x128, .f32⟩
  | 110 => ⟨S10x128, .f32⟩
  | 111 => ⟨S_, .i32⟩
  | 112 => ⟨S5000, .i32⟩
  | 113 => ⟨S5000, .i1⟩
  | 114 => ⟨S_, .i32⟩
  | 115 => ⟨S5000, .i32⟩
  | 116 => ⟨S5000, .i32⟩
  | 117 => ⟨S5000, .i32⟩
  | 118 => ⟨S5000x1, .i32⟩
  | 119 => ⟨S5000x128, .f32⟩
  | 120 => ⟨S5000x128, .f32⟩
  | 121 => ⟨S5000x128, .f32⟩
  | 122 => ⟨S5000x384, .f32⟩
  | 123 => ⟨S1x384x128, .f32⟩
  | 124 => ⟨S384x128, .f32⟩
  | 125 => ⟨S5000x128, .f32⟩
  | 126 => ⟨S1x128, .f32⟩
  | 127 => ⟨S128, .f32⟩
  | _ => ⟨S5000x32, .f32⟩

abbrev hbmTy0_1 (i : Nat) : BufTy := match i % 128 with
  | 0 => ⟨S1x128, .f32⟩
  | 1 => ⟨S5000x128, .f32⟩
  | 2 => ⟨S5000x128, .f32⟩
  | 3 => ⟨S_, .f32⟩
  | 4 => ⟨S5000x128, .f32⟩
  | 5 => ⟨S5000x128, .i1⟩
  | 6 => ⟨S_, .f32⟩
  | 7 => ⟨S5000x128, .f32⟩
  | 8 => ⟨S5000x128, .f32⟩
  | 9 => ⟨S5000x128, .f32⟩
  | 10 => ⟨S5000x128, .f32⟩
  | 11 => ⟨S_, .i32⟩
  | 12 => ⟨S80000, .i32⟩
  | 13 => ⟨S80000, .i1⟩
  | 14 => ⟨S_, .i32⟩
  | 15 => ⟨S80000, .i32⟩
  | 16 => ⟨S80000, .i32⟩
  | 17 => ⟨S80000, .i32⟩
  | 18 => ⟨S80000x1, .i32⟩
  | 19 => ⟨S80000x128, .f32⟩
  | 20 => ⟨S_, .i32⟩
  | 21 => ⟨S80000, .i32⟩
  | 22 => ⟨S80000, .i1⟩
  | 23 => ⟨S_, .i32⟩
  | 24 => ⟨S80000, .i32⟩
  | 25 => ⟨S80000, .i32⟩
  | 26 => ⟨S80000, .i32⟩
  | 27 => ⟨S80000x1, .i32⟩
  | 28 => ⟨S80000x128, .f32⟩
  | 29 => ⟨S80000x256, .f32⟩
  | 30 => ⟨S1x256x128, .f32⟩
  | 31 => ⟨S256x128, .f32⟩
  | 32 => ⟨S80000x128, .f32⟩
  | 33 => ⟨S1x128, .f32⟩
  | 34 => ⟨S128, .f32⟩
  | 35 => ⟨S1x128, .f32⟩
  | 36 => ⟨S80000x128, .f32⟩
  | 37 => ⟨S80000x128, .f32⟩
  | 38 => ⟨S_, .f32⟩
  | 39 => ⟨S80000x128, .f32⟩
  | 40 => ⟨S80000x128, .i1⟩
  | 41 => ⟨S_, .f32⟩
  | 42 => ⟨S80000x128, .f32⟩
  | 43 => ⟨S80000x128, .f32⟩
  | 44 => ⟨S80000x128, .f32⟩
  | 45 => ⟨S_, .f32⟩
  | 46 => ⟨S5000x128, .f32⟩
  | 47 => ⟨S80000x1, .i32⟩
  | 48 => ⟨S5000x128, .f32⟩
  | 49 => ⟨S80000x1, .f32⟩
  | 50 => ⟨S_, .f32⟩
  | 51 => ⟨S80000x1, .f32⟩
  | 52 => ⟨S_, .f32⟩
  | 53 => ⟨S5000x1, .f32⟩
  | 54 => ⟨S80000x1, .i32⟩
  | 55 => ⟨S5000x1, .f32⟩
  | 56 => ⟨S_, .f32⟩
  | 57 => ⟨S5000x1, .f32⟩
  | 58 => ⟨S5000x1, .f32⟩
  | 59 => ⟨S5000x128, .f32⟩
  | 60 => ⟨S5000x128, .f32⟩
  | 61 => ⟨S_, .f32⟩
  | 62 => ⟨S10x128, .f32⟩
  | 63 => ⟨S5000x1, .i32⟩
  | 64 => ⟨S10x128, .f32⟩
  | 65 => ⟨S5000x1, .f32⟩
  | 66 => ⟨S_, .f32⟩
  | 67 => ⟨S5000x1, .f32⟩
  | 68 => ⟨S_, .f32⟩
  | 69 => ⟨S10x1, .f32⟩
  | 70 => ⟨S5000x1, .i32⟩
  | 71 => ⟨S10x1, .f32⟩
  | 72 => ⟨S_, .f32⟩
  | 73 => ⟨S10x1, .f32⟩
  | 74 => ⟨S10x1, .f32⟩
  | 75 => ⟨S10x128, .f32⟩
  | 76 => ⟨S10x128, .f32⟩
  | 77 => ⟨S_, .i32⟩
  | 78 => ⟨S5000, .i32⟩
  | 79 => ⟨S5000, .i1⟩
  | 80 => ⟨S_, .i32⟩
  | 81 => ⟨S5000, .i32⟩
  | 82 => ⟨S5000, .i32⟩
  | 83 => ⟨S5000, .i32⟩
  | 84 => ⟨S5000x1, .i32⟩
  | 85 => ⟨S5000x128, .f32⟩
  | 86 => ⟨S5000x128, .f32⟩
  | 87 => ⟨S5000x128, .f32⟩
  | 88 => ⟨S5000x384, .f32⟩
  | 89 => ⟨S1x384x128, .f32⟩
  | 90 => ⟨S384x128, .f32⟩
  | 91 => ⟨S5000x128, .f32⟩
  | 92 => ⟨S1x128, .f32⟩
  | 93 => ⟨S128, .f32⟩
  | 94 => ⟨S1x128, .f32⟩
  | 95 => ⟨S5000x128, .f32⟩
  | 96 => ⟨S5000x128, .f32⟩
  | 97 => ⟨S_, .f32⟩
  | 98 => ⟨S5000x128, .f32⟩
  | 99 => ⟨S5000x128, .i1⟩
  | 100 => ⟨S_, .f32⟩
  | 101 => ⟨S5000x128, .f32⟩
  | 102 => ⟨S5000x128, .f32⟩
  | 103 => ⟨S5000x128, .f32⟩
  | 104 => ⟨S5000x128, .f32⟩
  | 105 => ⟨S_, .i32⟩
  | 106 => ⟨S80000, .i32⟩
  | 107 => ⟨S80000, .i1⟩
  | 108 => ⟨S_, .i32⟩
  | 109 => ⟨S80000, .i32⟩
  | 110 => ⟨S80000, .i32⟩
  | 111 => ⟨S80000, .i32⟩
  | 112 => ⟨S80000x1, .i32⟩
  | 113 => ⟨S80000x128, .f32⟩
  | 114 => ⟨S_, .i32⟩
  | 115 => ⟨S80000, .i32⟩
  | 116 => ⟨S80000, .i1⟩
  | 117 => ⟨S_, .i32⟩
  | 118 => ⟨S80000, .i32⟩
  | 119 => ⟨S80000, .i32⟩
  | 120 => ⟨S80000, .i32⟩
  | 121 => ⟨S80000x1, .i32⟩
  | 122 => ⟨S80000x128, .f32⟩
  | 123 => ⟨S80000x256, .f32⟩
  | 124 => ⟨S1x256x128, .f32⟩
  | 125 => ⟨S256x128, .f32⟩
  | 126 => ⟨S80000x128, .f32⟩
  | 127 => ⟨S1x128, .f32⟩
  | _ => ⟨S5000x32, .f32⟩

abbrev hbmTy0_2 (i : Nat) : BufTy := match i % 128 with
  | 0 => ⟨S128, .f32⟩
  | 1 => ⟨S1x128, .f32⟩
  | 2 => ⟨S80000x128, .f32⟩
  | 3 => ⟨S80000x128, .f32⟩
  | 4 => ⟨S_, .f32⟩
  | 5 => ⟨S80000x128, .f32⟩
  | 6 => ⟨S80000x128, .i1⟩
  | 7 => ⟨S_, .f32⟩
  | 8 => ⟨S80000x128, .f32⟩
  | 9 => ⟨S80000x128, .f32⟩
  | 10 => ⟨S80000x128, .f32⟩
  | 11 => ⟨S_, .f32⟩
  | 12 => ⟨S5000x128, .f32⟩
  | 13 => ⟨S80000x1, .i32⟩
  | 14 => ⟨S5000x128, .f32⟩
  | 15 => ⟨S80000x1, .f32⟩
  | 16 => ⟨S_, .f32⟩
  | 17 => ⟨S80000x1, .f32⟩
  | 18 => ⟨S_, .f32⟩
  | 19 => ⟨S5000x1, .f32⟩
  | 20 => ⟨S80000x1, .i32⟩
  | 21 => ⟨S5000x1, .f32⟩
  | 22 => ⟨S_, .f32⟩
  | 23 => ⟨S5000x1, .f32⟩
  | 24 => ⟨S5000x1, .f32⟩
  | 25 => ⟨S5000x128, .f32⟩
  | 26 => ⟨S5000x128, .f32⟩
  | 27 => ⟨S_, .f32⟩
  | 28 => ⟨S10x128, .f32⟩
  | 29 => ⟨S5000x1, .i32⟩
  | 30 => ⟨S10x128, .f32⟩
  | 31 => ⟨S5000x1, .f32⟩
  | 32 => ⟨S_, .f32⟩
  | 33 => ⟨S5000x1, .f32⟩
  | 34 => ⟨S_, .f32⟩
  | 35 => ⟨S10x1, .f32⟩
  | 36 => ⟨S5000x1, .i32⟩
  | 37 => ⟨S10x1, .f32⟩
  | 38 => ⟨S_, .f32⟩
  | 39 => ⟨S10x1, .f32⟩
  | 40 => ⟨S10x1, .f32⟩
  | 41 => ⟨S10x128, .f32⟩
  | 42 => ⟨S10x128, .f32⟩
  | 43 => ⟨S_, .i32⟩
  | 44 => ⟨S5000, .i32⟩
  | 45 => ⟨S5000, .i1⟩
  | 46 => ⟨S_, .i32⟩
  | 47 => ⟨S5000, .i32⟩
  | 48 => ⟨S5000, .i32⟩
  | 49 => ⟨S5000, .i32⟩
  | 50 => ⟨S5000x1, .i32⟩
  | 51 => ⟨S5000x128, .f32⟩
  | 52 => ⟨S5000x128, .f32⟩
  | 53 => ⟨S5000x128, .f32⟩
  | 54 => ⟨S5000x384, .f32⟩
  | 55 => ⟨S1x384x128, .f32⟩
  | 56 => ⟨S384x128, .f32⟩
  | 57 => ⟨S5000x128, .f32⟩
  | 58 => ⟨S1x128, .f32⟩
  | 59 => ⟨S128, .f32⟩
  | 60 => ⟨S1x128, .f32⟩
  | 61 => ⟨S5000x128, .f32⟩
  | 62 => ⟨S5000x128, .f32⟩
  | 63 => ⟨S_, .f32⟩
  | 64 => ⟨S5000x128, .f32⟩
  | 65 => ⟨S5000x128, .i1⟩
  | 66 => ⟨S_, .f32⟩
  | 67 => ⟨S5000x128, .f32⟩
  | 68 => ⟨S5000x128, .f32⟩
  | 69 => ⟨S5000x128, .f32⟩
  | 70 => ⟨S5000x128, .f32⟩
  | 71 => ⟨S100000x48, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .i1⟩
  | 79 => ⟨S_, .f32⟩
  | 80 => ⟨S100000x128, .f32⟩
  | 81 => ⟨S100000x128, .f32⟩
  | 82 => ⟨S100000x128, .f32⟩
  | 83 => ⟨S_, .i32⟩
  | 84 => ⟨S300000, .i32⟩
  | 85 => ⟨S300000, .i1⟩
  | 86 => ⟨S_, .i32⟩
  | 87 => ⟨S300000, .i32⟩
  | 88 => ⟨S300000, .i32⟩
  | 89 => ⟨S300000, .i32⟩
  | 90 => ⟨S300000x1, .i32⟩
  | 91 => ⟨S300000x128, .f32⟩
  | 92 => ⟨S_, .i32⟩
  | 93 => ⟨S300000, .i32⟩
  | 94 => ⟨S300000, .i1⟩
  | 95 => ⟨S_, .i32⟩
  | 96 => ⟨S300000, .i32⟩
  | 97 => ⟨S300000, .i32⟩
  | 98 => ⟨S300000, .i32⟩
  | 99 => ⟨S300000x1, .i32⟩
  | 100 => ⟨S300000x128, .f32⟩
  | 101 => ⟨S300000x256, .f32⟩
  | 102 => ⟨S300000x128, .f32⟩
  | 103 => ⟨S1x128, .f32⟩
  | 104 => ⟨S300000x128, .f32⟩
  | 105 => ⟨S300000x128, .f32⟩
  | 106 => ⟨S300000x128, .f32⟩
  | 107 => ⟨S300000x1, .f32⟩
  | 108 => ⟨S1x1, .f32⟩
  | 109 => ⟨S300000x1, .f32⟩
  | 110 => ⟨S300000x1, .f32⟩
  | 111 => ⟨S_, .f32⟩
  | 112 => ⟨S1, .f32⟩
  | 113 => ⟨S_, .f32⟩
  | 114 => ⟨S1, .f32⟩
  | 115 => ⟨S1, .f32⟩
  | 116 => ⟨S1x1, .f32⟩
  | 117 => ⟨S300000x1, .f32⟩
  | 118 => ⟨S300000x1, .f32⟩
  | 119 => ⟨S300000x1, .f32⟩
  | 120 => ⟨S_, .f32⟩
  | 121 => ⟨S1, .f32⟩
  | 122 => ⟨S1x1, .f32⟩
  | 123 => ⟨S300000x1, .f32⟩
  | 124 => ⟨S300000x1, .f32⟩
  | 125 => ⟨S_, .f32⟩
  | 126 => ⟨S100000x128, .f32⟩
  | 127 => ⟨S300000x128, .f32⟩
  | _ => ⟨S5000x32, .f32⟩

abbrev hbmTy0_3 (i : Nat) : BufTy := match i % 128 with
  | 0 => ⟨S300000x128, .f32⟩
  | 1 => ⟨S_, .i32⟩
  | 2 => ⟨S300000, .i32⟩
  | 3 => ⟨S300000, .i1⟩
  | 4 => ⟨S_, .i32⟩
  | 5 => ⟨S300000, .i32⟩
  | 6 => ⟨S300000, .i32⟩
  | 7 => ⟨S300000, .i32⟩
  | 8 => ⟨S300000x1, .i32⟩
  | 9 => ⟨S100000x128, .f32⟩
  | 10 => ⟨S100000x128, .f32⟩
  | 11 => ⟨S100000x3, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x3, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x3, .f32⟩
  | 34 => ⟨S600000x3, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x128, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000x128, .f32⟩
  | 53 => ⟨S600000x259, .f32⟩
  | 54 => ⟨S600000x128, .f32⟩
  | 55 => ⟨S1x128, .f32⟩
  | 56 => ⟨S600000x128, .f32⟩
  | 57 => ⟨S600000x128, .f32⟩
  | 58 => ⟨S_, .f32⟩
  | 59 => ⟨S600000x128, .f32⟩
  | 60 => ⟨S600000x128, .i1⟩
  | 61 => ⟨S_, .f32⟩
  | 62 => ⟨S600000x128, .f32⟩
  | 63 => ⟨S600000x128, .f32⟩
  | 64 => ⟨S600000x128, .f32⟩
  | 65 => ⟨S_, .f32⟩
  | 66 => ⟨S100000x128, .f32⟩
  | 67 => ⟨S600000x1, .i32⟩
  | 68 => ⟨S100000x128, .f32⟩
  | 69 => ⟨S600000x1, .f32⟩
  | 70 => ⟨S_, .f32⟩
  | 71 => ⟨S600000x1, .f32⟩
  | 72 => ⟨S_, .f32⟩
  | 73 => ⟨S100000x1, .f32⟩
  | 74 => ⟨S600000x1, .i32⟩
  | 75 => ⟨S100000x1, .f32⟩
  | 76 => ⟨S_, .f32⟩
  | 77 => ⟨S100000x1, .f32⟩
  | 78 => ⟨S100000x1, .f32⟩
  | 79 => ⟨S100000x128, .f32⟩
  | 80 => ⟨S100000x128, .f32⟩
  | 81 => ⟨S100000x256, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .i1⟩
  | 89 => ⟨S_, .f32⟩
  | 90 => ⟨S100000x128, .f32⟩
  | 91 => ⟨S100000x128, .f32⟩
  | 92 => ⟨S100000x128, .f32⟩
  | 93 => ⟨S100000x128, .f32⟩
  | _ => ⟨S5000x32, .f32⟩

abbrev hbmTy (i : Nat) : BufTy := match i / 128 with
  | 0 => hbmTy0_0 i
  | 1 => hbmTy0_1 i
  | 2 => hbmTy0_2 i
  | 3 => hbmTy0_3 i
  | _ => ⟨S5000x32, .f32⟩

abbrev bufTy : (tb : Table) → Fin (tcTables nBuf tb) → BufTy
  | .hbm, ⟨i, _⟩ => hbmTy i
  | _, _ => ⟨S5000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst : Ref sig .tc := ⟨.hbm, 42, rfl⟩
abbrev main_v10 : Ref sig .tc := ⟨.hbm, 43, rfl⟩
abbrev main_v11 : Ref sig .tc := ⟨.hbm, 44, rfl⟩
abbrev main_c : Ref sig .tc := ⟨.hbm, 45, rfl⟩
abbrev main_v12 : Ref sig .tc := ⟨.hbm, 46, rfl⟩
abbrev main_v13 : Ref sig .tc := ⟨.hbm, 47, rfl⟩
abbrev main_c_0 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_c_1 : Ref sig .tc := ⟨.hbm, 54, rfl⟩
abbrev main_v19 : Ref sig .tc := ⟨.hbm, 55, rfl⟩
abbrev main_v20 : Ref sig .tc := ⟨.hbm, 56, rfl⟩
abbrev main_c_2 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_cst_0 : Ref sig .tc := ⟨.hbm, 75, rfl⟩
abbrev main_call1_v2 : Ref sig .tc := ⟨.hbm, 76, rfl⟩
abbrev main_call1_v3 : Ref sig .tc := ⟨.hbm, 77, rfl⟩
abbrev main_v35 : Ref sig .tc := ⟨.hbm, 78, rfl⟩
abbrev main_cst_3 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_4 : Ref sig .tc := ⟨.hbm, 84, rfl⟩
abbrev main_v40 : Ref sig .tc := ⟨.hbm, 85, rfl⟩
abbrev main_cst_5 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_6 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_7 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_8 : Ref sig .tc := ⟨.hbm, 100, rfl⟩
abbrev main_v52 : Ref sig .tc := ⟨.hbm, 101, rfl⟩
abbrev main_cst_9 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_10 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_c_11 : Ref sig .tc := ⟨.hbm, 111, rfl⟩
abbrev main_v60 : Ref sig .tc := ⟨.hbm, 112, rfl⟩
abbrev main_v61 : Ref sig .tc := ⟨.hbm, 113, rfl⟩
abbrev main_c_12 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_call2_cst : Ref sig .tc := ⟨.hbm, 131, rfl⟩
abbrev main_call2_v0 : Ref sig .tc := ⟨.hbm, 132, rfl⟩
abbrev main_call2_v1 : Ref sig .tc := ⟨.hbm, 133, rfl⟩
abbrev main_call2_cst_0 : Ref sig .tc := ⟨.hbm, 134, rfl⟩
abbrev main_call2_v2 : Ref sig .tc := ⟨.hbm, 135, rfl⟩
abbrev main_call2_v3 : Ref sig .tc := ⟨.hbm, 136, rfl⟩
abbrev main_v78 : Ref sig .tc := ⟨.hbm, 137, rfl⟩
abbrev main_v79 : Ref sig .tc := ⟨.hbm, 138, rfl⟩
abbrev main_c_13 : Ref sig .tc := ⟨.hbm, 139, rfl⟩
abbrev main_v80 : Ref sig .tc := ⟨.hbm, 140, rfl⟩
abbrev main_v81 : Ref sig .tc := ⟨.hbm, 141, rfl⟩
abbrev main_c_14 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_c_15 : Ref sig .tc := ⟨.hbm, 148, rfl⟩
abbrev main_v87 : Ref sig .tc := ⟨.hbm, 149, rfl⟩
abbrev main_v88 : Ref sig .tc := ⟨.hbm, 150, rfl⟩
abbrev main_c_16 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_call3_cst : Ref sig .tc := ⟨.hbm, 166, rfl⟩
abbrev main_call3_v0 : Ref sig .tc := ⟨.hbm, 167, rfl⟩
abbrev main_call3_v1 : Ref sig .tc := ⟨.hbm, 168, rfl⟩
abbrev main_call3_cst_0 : Ref sig .tc := ⟨.hbm, 169, rfl⟩
abbrev main_call3_v2 : Ref sig .tc := ⟨.hbm, 170, rfl⟩
abbrev main_call3_v3 : Ref sig .tc := ⟨.hbm, 171, rfl⟩
abbrev main_v103 : Ref sig .tc := ⟨.hbm, 172, rfl⟩
abbrev main_cst_17 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_cst_18 : Ref sig .tc := ⟨.hbm, 178, rfl⟩
abbrev main_v108 : Ref sig .tc := ⟨.hbm, 179, rfl⟩
abbrev main_cst_19 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_cst_20 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_cst_21 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_cst_22 : Ref sig .tc := ⟨.hbm, 194, rfl⟩
abbrev main_v120 : Ref sig .tc := ⟨.hbm, 195, rfl⟩
abbrev main_cst_23 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_cst_24 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_c_25 : Ref sig .tc := ⟨.hbm, 205, rfl⟩
abbrev main_v128 : Ref sig .tc := ⟨.hbm, 206, rfl⟩
abbrev main_v129 : Ref sig .tc := ⟨.hbm, 207, rfl⟩
abbrev main_c_26 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_call4_cst : Ref sig .tc := ⟨.hbm, 225, rfl⟩
abbrev main_call4_v0 : Ref sig .tc := ⟨.hbm, 226, rfl⟩
abbrev main_call4_v1 : Ref sig .tc := ⟨.hbm, 227, rfl⟩
abbrev main_call4_cst_0 : Ref sig .tc := ⟨.hbm, 228, rfl⟩
abbrev main_call4_v2 : Ref sig .tc := ⟨.hbm, 229, rfl⟩
abbrev main_call4_v3 : Ref sig .tc := ⟨.hbm, 230, rfl⟩
abbrev main_v146 : Ref sig .tc := ⟨.hbm, 231, rfl⟩
abbrev main_v147 : Ref sig .tc := ⟨.hbm, 232, rfl⟩
abbrev main_c_27 : Ref sig .tc := ⟨.hbm, 233, rfl⟩
abbrev main_v148 : Ref sig .tc := ⟨.hbm, 234, rfl⟩
abbrev main_v149 : Ref sig .tc := ⟨.hbm, 235, rfl⟩
abbrev main_c_28 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_c_29 : Ref sig .tc := ⟨.hbm, 242, rfl⟩
abbrev main_v155 : Ref sig .tc := ⟨.hbm, 243, rfl⟩
abbrev main_v156 : Ref sig .tc := ⟨.hbm, 244, rfl⟩
abbrev main_c_30 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_call5_cst : Ref sig .tc := ⟨.hbm, 260, rfl⟩
abbrev main_call5_v0 : Ref sig .tc := ⟨.hbm, 261, rfl⟩
abbrev main_call5_v1 : Ref sig .tc := ⟨.hbm, 262, rfl⟩
abbrev main_call5_cst_0 : Ref sig .tc := ⟨.hbm, 263, rfl⟩
abbrev main_call5_v2 : Ref sig .tc := ⟨.hbm, 264, rfl⟩
abbrev main_call5_v3 : Ref sig .tc := ⟨.hbm, 265, rfl⟩
abbrev main_v171 : Ref sig .tc := ⟨.hbm, 266, rfl⟩
abbrev main_cst_31 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_cst_32 : Ref sig .tc := ⟨.hbm, 272, rfl⟩
abbrev main_v176 : Ref sig .tc := ⟨.hbm, 273, rfl⟩
abbrev main_cst_33 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_cst_34 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_cst_35 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_cst_36 : Ref sig .tc := ⟨.hbm, 288, rfl⟩
abbrev main_v188 : Ref sig .tc := ⟨.hbm, 289, rfl⟩
abbrev main_cst_37 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_cst_38 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_c_39 : Ref sig .tc := ⟨.hbm, 299, rfl⟩
abbrev main_v196 : Ref sig .tc := ⟨.hbm, 300, rfl⟩
abbrev main_v197 : Ref sig .tc := ⟨.hbm, 301, rfl⟩
abbrev main_c_40 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_v213 : Ref sig .tc := ⟨.hbm, 318, rfl⟩
abbrev main_call6_cst : Ref sig .tc := ⟨.hbm, 319, rfl⟩
abbrev main_call6_v0 : Ref sig .tc := ⟨.hbm, 320, rfl⟩
abbrev main_call6_v1 : Ref sig .tc := ⟨.hbm, 321, rfl⟩
abbrev main_call6_cst_0 : Ref sig .tc := ⟨.hbm, 322, rfl⟩
abbrev main_call6_v2 : Ref sig .tc := ⟨.hbm, 323, rfl⟩
abbrev main_call6_v3 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_v217 : Ref sig .tc := ⟨.hbm, 328, rfl⟩
abbrev main_v218 : Ref sig .tc := ⟨.hbm, 329, rfl⟩
abbrev main_v219 : Ref sig .tc := ⟨.hbm, 330, rfl⟩
abbrev main_v220 : Ref sig .tc := ⟨.hbm, 331, rfl⟩
abbrev main_call7_cst : Ref sig .tc := ⟨.hbm, 332, rfl⟩
abbrev main_call7_v0 : Ref sig .tc := ⟨.hbm, 333, rfl⟩
abbrev main_call7_v1 : Ref sig .tc := ⟨.hbm, 334, rfl⟩
abbrev main_call7_cst_0 : Ref sig .tc := ⟨.hbm, 335, rfl⟩
abbrev main_call7_v2 : Ref sig .tc := ⟨.hbm, 336, rfl⟩
abbrev main_call7_v3 : Ref sig .tc := ⟨.hbm, 337, rfl⟩
abbrev main_v221 : Ref sig .tc := ⟨.hbm, 338, rfl⟩
abbrev main_c_41 : Ref sig .tc := ⟨.hbm, 339, rfl⟩
abbrev main_v222 : Ref sig .tc := ⟨.hbm, 340, rfl⟩
abbrev main_v223 : Ref sig .tc := ⟨.hbm, 341, rfl⟩
abbrev main_c_42 : Ref sig .tc := ⟨.hbm, 342, rfl⟩
abbrev main_v224 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_c_43 : Ref sig .tc := ⟨.hbm, 348, rfl⟩
abbrev main_v229 : Ref sig .tc := ⟨.hbm, 349, rfl⟩
abbrev main_v230 : Ref sig .tc := ⟨.hbm, 350, rfl⟩
abbrev main_c_44 : Ref sig .tc := ⟨.hbm, 351, rfl⟩
abbrev main_v231 : Ref sig .tc := ⟨.hbm, 352, rfl⟩
abbrev main_v232 : Ref sig .tc := ⟨.hbm, 353, rfl⟩
abbrev main_v233 : Ref sig .tc := ⟨.hbm, 354, rfl⟩
abbrev main_v234 : Ref sig .tc := ⟨.hbm, 355, rfl⟩
abbrev main_v235 : Ref sig .tc := ⟨.hbm, 356, rfl⟩
abbrev main_v236 : Ref sig .tc := ⟨.hbm, 357, rfl⟩
abbrev main_v237 : Ref sig .tc := ⟨.hbm, 358, rfl⟩
abbrev main_v238 : Ref sig .tc := ⟨.hbm, 359, rfl⟩
abbrev main_v239 : Ref sig .tc := ⟨.hbm, 360, rfl⟩
abbrev main_v240 : Ref sig .tc := ⟨.hbm, 361, rfl⟩
abbrev main_v241 : Ref sig .tc := ⟨.hbm, 362, rfl⟩
abbrev main_v242 : Ref sig .tc := ⟨.hbm, 363, rfl⟩
abbrev main_v243 : Ref sig .tc := ⟨.hbm, 364, rfl⟩
abbrev main_v244 : Ref sig .tc := ⟨.hbm, 365, rfl⟩
abbrev main_v245 : Ref sig .tc := ⟨.hbm, 366, rfl⟩
abbrev main_cst_45 : Ref sig .tc := ⟨.hbm, 367, rfl⟩
abbrev main_v246 : Ref sig .tc := ⟨.hbm, 368, rfl⟩
abbrev main_cst_46 : Ref sig .tc := ⟨.hbm, 369, rfl⟩
abbrev main_v247 : Ref sig .tc := ⟨.hbm, 370, rfl⟩
abbrev main_v248 : Ref sig .tc := ⟨.hbm, 371, rfl⟩
abbrev main_v249 : Ref sig .tc := ⟨.hbm, 372, rfl⟩
abbrev main_v250 : Ref sig .tc := ⟨.hbm, 373, rfl⟩
abbrev main_v251 : Ref sig .tc := ⟨.hbm, 374, rfl⟩
abbrev main_v252 : Ref sig .tc := ⟨.hbm, 375, rfl⟩
abbrev main_cst_47 : Ref sig .tc := ⟨.hbm, 376, rfl⟩
abbrev main_v253 : Ref sig .tc := ⟨.hbm, 377, rfl⟩
abbrev main_v254 : Ref sig .tc := ⟨.hbm, 378, rfl⟩
abbrev main_v255 : Ref sig .tc := ⟨.hbm, 379, rfl⟩
abbrev main_v256 : Ref sig .tc := ⟨.hbm, 380, rfl⟩
abbrev main_cst_48 : Ref sig .tc := ⟨.hbm, 381, rfl⟩
abbrev main_v257 : Ref sig .tc := ⟨.hbm, 382, rfl⟩
abbrev main_v258 : Ref sig .tc := ⟨.hbm, 383, rfl⟩
abbrev main_v259 : Ref sig .tc := ⟨.hbm, 384, rfl⟩
abbrev main_c_49 : Ref sig .tc := ⟨.hbm, 385, rfl⟩
abbrev main_v260 : Ref sig .tc := ⟨.hbm, 386, rfl⟩
abbrev main_v261 : Ref sig .tc := ⟨.hbm, 387, rfl⟩
abbrev main_c_50 : Ref sig .tc := ⟨.hbm, 388, rfl⟩
abbrev main_v262 : Ref sig .tc := ⟨.hbm, 389, rfl⟩
abbrev main_v263 : Ref sig .tc := ⟨.hbm, 390, rfl⟩
abbrev main_v264 : Ref sig .tc := ⟨.hbm, 391, rfl⟩
abbrev main_v265 : Ref sig .tc := ⟨.hbm, 392, rfl⟩
abbrev main_v266 : Ref sig .tc := ⟨.hbm, 393, rfl⟩
abbrev main_v267 : Ref sig .tc := ⟨.hbm, 394, rfl⟩
abbrev main_v268 : Ref sig .tc := ⟨.hbm, 395, rfl⟩
abbrev main_v269 : Ref sig .tc := ⟨.hbm, 396, rfl⟩
abbrev main_v270 : Ref sig .tc := ⟨.hbm, 397, rfl⟩
abbrev main_v271 : Ref sig .tc := ⟨.hbm, 398, rfl⟩
abbrev main_v272 : Ref sig .tc := ⟨.hbm, 399, rfl⟩
abbrev main_c_51 : Ref sig .tc := ⟨.hbm, 400, rfl⟩
abbrev main_v273 : Ref sig .tc := ⟨.hbm, 401, rfl⟩
abbrev main_v274 : Ref sig .tc := ⟨.hbm, 402, rfl⟩
abbrev main_c_52 : Ref sig .tc := ⟨.hbm, 403, rfl⟩
abbrev main_v275 : Ref sig .tc := ⟨.hbm, 404, rfl⟩
abbrev main_v276 : Ref sig .tc := ⟨.hbm, 405, rfl⟩
abbrev main_v277 : Ref sig .tc := ⟨.hbm, 406, rfl⟩
abbrev main_v278 : Ref sig .tc := ⟨.hbm, 407, rfl⟩
abbrev main_v279 : Ref sig .tc := ⟨.hbm, 408, rfl⟩
abbrev main_c_53 : Ref sig .tc := ⟨.hbm, 409, rfl⟩
abbrev main_v280 : Ref sig .tc := ⟨.hbm, 410, rfl⟩
abbrev main_v281 : Ref sig .tc := ⟨.hbm, 411, rfl⟩
abbrev main_c_54 : Ref sig .tc := ⟨.hbm, 412, rfl⟩
abbrev main_v282 : Ref sig .tc := ⟨.hbm, 413, rfl⟩
abbrev main_v283 : Ref sig .tc := ⟨.hbm, 414, rfl⟩
abbrev main_v284 : Ref sig .tc := ⟨.hbm, 415, rfl⟩
abbrev main_v285 : Ref sig .tc := ⟨.hbm, 416, rfl⟩
abbrev main_v286 : Ref sig .tc := ⟨.hbm, 417, rfl⟩
abbrev main_v287 : Ref sig .tc := ⟨.hbm, 418, rfl⟩
abbrev main_c_55 : Ref sig .tc := ⟨.hbm, 419, rfl⟩
abbrev main_v288 : Ref sig .tc := ⟨.hbm, 420, rfl⟩
abbrev main_v289 : Ref sig .tc := ⟨.hbm, 421, rfl⟩
abbrev main_c_56 : Ref sig .tc := ⟨.hbm, 422, rfl⟩
abbrev main_v290 : Ref sig .tc := ⟨.hbm, 423, rfl⟩
abbrev main_v291 : Ref sig .tc := ⟨.hbm, 424, rfl⟩
abbrev main_v292 : Ref sig .tc := ⟨.hbm, 425, rfl⟩
abbrev main_v293 : Ref sig .tc := ⟨.hbm, 426, rfl⟩
abbrev main_v294 : Ref sig .tc := ⟨.hbm, 427, rfl⟩
abbrev main_c_57 : Ref sig .tc := ⟨.hbm, 428, rfl⟩
abbrev main_v295 : Ref sig .tc := ⟨.hbm, 429, rfl⟩
abbrev main_v296 : Ref sig .tc := ⟨.hbm, 430, rfl⟩
abbrev main_c_58 : Ref sig .tc := ⟨.hbm, 431, rfl⟩
abbrev main_v297 : Ref sig .tc := ⟨.hbm, 432, rfl⟩
abbrev main_v298 : Ref sig .tc := ⟨.hbm, 433, rfl⟩
abbrev main_v299 : Ref sig .tc := ⟨.hbm, 434, rfl⟩
abbrev main_v300 : Ref sig .tc := ⟨.hbm, 435, rfl⟩
abbrev main_v301 : Ref sig .tc := ⟨.hbm, 436, rfl⟩
abbrev main_v302 : Ref sig .tc := ⟨.hbm, 437, rfl⟩
abbrev main_v303 : Ref sig .tc := ⟨.hbm, 438, rfl⟩
abbrev main_v304 : Ref sig .tc := ⟨.hbm, 439, rfl⟩
abbrev main_v305 : Ref sig .tc := ⟨.hbm, 440, rfl⟩
abbrev main_v306 : Ref sig .tc := ⟨.hbm, 441, rfl⟩
abbrev main_call8_cst : Ref sig .tc := ⟨.hbm, 442, rfl⟩
abbrev main_call8_v0 : Ref sig .tc := ⟨.hbm, 443, rfl⟩
abbrev main_call8_v1 : Ref sig .tc := ⟨.hbm, 444, rfl⟩
abbrev main_call8_cst_0 : Ref sig .tc := ⟨.hbm, 445, rfl⟩
abbrev main_call8_v2 : Ref sig .tc := ⟨.hbm, 446, rfl⟩
abbrev main_call8_v3 : Ref sig .tc := ⟨.hbm, 447, rfl⟩
abbrev main_v307 : Ref sig .tc := ⟨.hbm, 448, rfl⟩
abbrev main_cst_59 : Ref sig .tc := ⟨.hbm, 449, rfl⟩
abbrev main_v308 : Ref sig .tc := ⟨.hbm, 450, rfl⟩
abbrev main_v309 : Ref sig .tc := ⟨.hbm, 451, rfl⟩
abbrev main_v310 : Ref sig .tc := ⟨.hbm, 452, rfl⟩
abbrev main_v311 : Ref sig .tc := ⟨.hbm, 453, rfl⟩
abbrev main_cst_60 : Ref sig .tc := ⟨.hbm, 454, rfl⟩
abbrev main_v312 : Ref sig .tc := ⟨.hbm, 455, rfl⟩
abbrev main_cst_61 : Ref sig .tc := ⟨.hbm, 456, rfl⟩
abbrev main_v313 : Ref sig .tc := ⟨.hbm, 457, rfl⟩
abbrev main_v314 : Ref sig .tc := ⟨.hbm, 458, rfl⟩
abbrev main_v315 : Ref sig .tc := ⟨.hbm, 459, rfl⟩
abbrev main_cst_62 : Ref sig .tc := ⟨.hbm, 460, rfl⟩
abbrev main_v316 : Ref sig .tc := ⟨.hbm, 461, rfl⟩
abbrev main_v317 : Ref sig .tc := ⟨.hbm, 462, rfl⟩
abbrev main_v318 : Ref sig .tc := ⟨.hbm, 463, rfl⟩
abbrev main_v319 : Ref sig .tc := ⟨.hbm, 464, rfl⟩
abbrev main_v320 : Ref sig .tc := ⟨.hbm, 465, rfl⟩
abbrev main_v321 : Ref sig .tc := ⟨.hbm, 466, rfl⟩
abbrev main_v322 : Ref sig .tc := ⟨.hbm, 467, rfl⟩
abbrev main_v323 : Ref sig .tc := ⟨.hbm, 468, rfl⟩
abbrev main_v324 : Ref sig .tc := ⟨.hbm, 469, rfl⟩
abbrev main_call9_cst : Ref sig .tc := ⟨.hbm, 470, rfl⟩
abbrev main_call9_v0 : Ref sig .tc := ⟨.hbm, 471, rfl⟩
abbrev main_call9_v1 : Ref sig .tc := ⟨.hbm, 472, rfl⟩
abbrev main_call9_cst_0 : Ref sig .tc := ⟨.hbm, 473, rfl⟩
abbrev main_call9_v2 : Ref sig .tc := ⟨.hbm, 474, rfl⟩
abbrev main_call9_v3 : Ref sig .tc := ⟨.hbm, 475, rfl⟩
abbrev main_v325 : Ref sig .tc := ⟨.hbm, 476, rfl⟩
abbrev main_v326 : Ref sig .tc := ⟨.hbm, 477, rfl⟩

abbrev nD : Nat := 1
abbrev τ : Topo := Topo.v7x

variable {F : FTy → Type} [FloatOps F]

class Facts₀ : Prop where
  concatenates_S5000x32_S5000x32_S5000x64_d1 : Shape.Concatenates [S5000x32, S5000x32] S5000x64 1
  bcast_S128_S1x128_1 : S128.BroadcastsInDim S1x128 (![1] : Fin 1 → Fin S1x128.rank)
  bcast_S1x128_S5000x128_0_1 : S1x128.BroadcastsInDim S5000x128 (![0, 1] : Fin 2 → Fin S5000x128.rank)
  bcast_S_S5000x128 : S_.BroadcastsInDim S5000x128 (![] : Fin 0 → Fin S5000x128.rank)
  slices_S2x80000_S1x80000_0_0 : S2x80000.Slices ![0, 0] S1x80000
  shapeCasts_S1x80000_S80000 : S1x80000.ShapeCasts S80000
  slices_S2x80000_S1x80000_1_0 : S2x80000.Slices ![1, 0] S1x80000
  reducesTo_S5000x1_S5000_d1 : S5000x1.ReducesTo [1] S5000
  h_S_ : 0 < S_.numel
  bcast_S5000_S5000x1_0 : S5000.BroadcastsInDim S5000x1 (![0] : Fin 1 → Fin S5000x1.rank)
  bcast_S_S80000 : S_.BroadcastsInDim S80000 (![] : Fin 0 → Fin S80000.rank)
  bcast_S80000_S80000x1_0 : S80000.BroadcastsInDim S80000x1 (![0] : Fin 1 → Fin S80000x1.rank)
  concatenates_S80000x128_S80000x128_S80000x256_d1 : Shape.Concatenates [S80000x128, S80000x128] S80000x256 1
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  bcast_S1x128_S80000x128_0_1 : S1x128.BroadcastsInDim S80000x128 (![0, 1] : Fin 2 → Fin S80000x128.rank)
  bcast_S_S80000x128 : S_.BroadcastsInDim S80000x128 (![] : Fin 0 → Fin S80000x128.rank)
  slices_S80000x128_S80000x1_0_0 : S80000x128.Slices ![0, 0] S80000x1
  bcast_S_S80000x1 : S_.BroadcastsInDim S80000x1 (![] : Fin 0 → Fin S80000x1.rank)
  bcast_S_S5000x1 : S_.BroadcastsInDim S5000x1 (![] : Fin 0 → Fin S5000x1.rank)
  bcast_S5000x1_S5000x128_0_1 : S5000x1.BroadcastsInDim S5000x128 (![0, 1] : Fin 2 → Fin S5000x128.rank)
  bcast_S_S10x128 : S_.BroadcastsInDim S10x128 (![] : Fin 0 → Fin S10x128.rank)
  slices_S5000x128_S5000x1_0_0 : S5000x128.Slices ![0, 0] S5000x1
  bcast_S_S10x1 : S_.BroadcastsInDim S10x1 (![] : Fin 0 → Fin S10x1.rank)
  bcast_S10x1_S10x128_0_1 : S10x1.BroadcastsInDim S10x128 (![0, 1] : Fin 2 → Fin S10x128.rank)
  bcast_S_S5000 : S_.BroadcastsInDim S5000 (![] : Fin 0 → Fin S5000.rank)
  concatenates_S5000x128_S5000x128_S5000x128_S5000x384_d1 : Shape.Concatenates [S5000x128, S5000x128, S5000x128] S5000x384 1
  slices_S3x384x128_S1x384x128_0_0_0 : S3x384x128.Slices ![0, 0, 0] S1x384x128
  shapeCasts_S1x384x128_S384x128 : S1x384x128.ShapeCasts S384x128
  slices_S3x256x128_S1x256x128_1_0_0 : S3x256x128.Slices ![1, 0, 0] S1x256x128
  slices_S3x128_S1x128_1_0 : S3x128.Slices ![1, 0] S1x128
  slices_S3x384x128_S1x384x128_1_0_0 : S3x384x128.Slices ![1, 0, 0] S1x384x128
  slices_S3x256x128_S1x256x128_2_0_0 : S3x256x128.Slices ![2, 0, 0] S1x256x128
  slices_S3x128_S1x128_2_0 : S3x128.Slices ![2, 0] S1x128
  slices_S3x384x128_S1x384x128_2_0_0 : S3x384x128.Slices ![2, 0, 0] S1x384x128
  concatenates_S100000x16_S100000x32_S100000x48_d1 : Shape.Concatenates [S100000x16, S100000x32] S100000x48 1
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S300000 : S_.BroadcastsInDim S300000 (![] : Fin 0 → Fin S300000.rank)
  bcast_S300000_S300000x1_0 : S300000.BroadcastsInDim S300000x1 (![0] : Fin 1 → Fin S300000x1.rank)
  concatenates_S300000x128_S300000x128_S300000x256_d1 : Shape.Concatenates [S300000x128, S300000x128] S300000x256 1
  bcast_S1x128_S300000x128_0_1 : S1x128.BroadcastsInDim S300000x128 (![0, 1] : Fin 2 → Fin S300000x128.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S1_d0 : S300000x1.ReducesTo [0] S1
  bcast_S_S1 : S_.BroadcastsInDim S1 (![] : Fin 0 → Fin S1.rank)
  bcast_S300000x1_S300000x128_0_1 : S300000x1.BroadcastsInDim S300000x128 (![0, 1] : Fin 2 → Fin S300000x128.rank)
  slices_S100000x16_S100000x3_0_0 : S100000x16.Slices ![0, 0] S100000x3
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x3_S600000x259_d1 : Shape.Concatenates [S600000x128, S600000x128, S600000x3] S600000x259 1
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  slices_S600000x128_S600000x1_0_0 : S600000x128.Slices ![0, 0] S600000x1
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  dot_S5000x64_S64x128_S5000x128_1_0_0_1_n_n_wf : DotDims.WF S5000x64 S64x128 S5000x128 [1] [0] [0] [1] [] []
  gather_S5000x128_S80000x1_S80000x128_1_0_n_n_0_1_1128_wf : GatherDims.WF S5000x128 S80000x1 S80000x128 [1] [0] [] [0] [] 1 ![1, 128]
  dot_S80000x256_S256x128_S80000x128_1_0_0_1_n_n_wf : DotDims.WF S80000x256 S256x128 S80000x128 [1] [0] [0] [1] [] []
  scatter_S5000x128_S80000x1_S80000x128_1_0_0_1_wf : ScatterDims.WF S5000x128 S80000x1 S80000x128 [1] [0] [0] 1
  scatter_S5000x1_S80000x1_S80000x1_1_0_0_1_wf : ScatterDims.WF S5000x1 S80000x1 S80000x1 [1] [0] [0] 1
  scatter_S10x128_S5000x1_S5000x128_1_0_0_1_wf : ScatterDims.WF S10x128 S5000x1 S5000x128 [1] [0] [0] 1
  scatter_S10x1_S5000x1_S5000x1_1_0_0_1_wf : ScatterDims.WF S10x1 S5000x1 S5000x1 [1] [0] [0] 1
  gather_S10x128_S5000x1_S5000x128_1_0_n_n_0_1_1128_wf : GatherDims.WF S10x128 S5000x1 S5000x128 [1] [0] [] [0] [] 1 ![1, 128]
  dot_S5000x384_S384x128_S5000x128_1_0_0_1_n_n_wf : DotDims.WF S5000x384 S384x128 S5000x128 [1] [0] [0] [1] [] []
  dot_S100000x48_S48x128_S100000x128_1_0_0_1_n_n_wf : DotDims.WF S100000x48 S48x128 S100000x128 [1] [0] [0] [1] [] []
  gather_S5000x128_S300000x1_S300000x128_1_0_n_n_0_1_1128_wf : GatherDims.WF S5000x128 S300000x1 S300000x128 [1] [0] [] [0] [] 1 ![1, 128]
  gather_S100000x128_S300000x1_S300000x128_1_0_n_n_0_1_1128_wf : GatherDims.WF S100000x128 S300000x1 S300000x128 [1] [0] [] [0] [] 1 ![1, 128]
  dot_S300000x256_S256x128_S300000x128_1_0_0_1_n_n_wf : DotDims.WF S300000x256 S256x128 S300000x128 [1] [0] [0] [1] [] []
  dot_S300000x128_S128x1_S300000x1_1_0_0_1_n_n_wf : DotDims.WF S300000x128 S128x1 S300000x1 [1] [0] [0] [1] [] []
  scatter_S100000x128_S300000x1_S300000x128_1_0_0_1_wf : ScatterDims.WF S100000x128 S300000x1 S300000x128 [1] [0] [0] 1
  gather_S100000x3_S600000x1_S600000x3_1_0_n_n_0_1_13_wf : GatherDims.WF S100000x3 S600000x1 S600000x3 [1] [0] [] [0] [] 1 ![1, 3]
  gather_S100000x128_S600000x1_S600000x128_1_0_n_n_0_1_1128_wf : GatherDims.WF S100000x128 S600000x1 S600000x128 [1] [0] [] [0] [] 1 ![1, 128]
  dot_S600000x259_S259x128_S600000x128_1_0_0_1_n_n_wf : DotDims.WF S600000x259 S259x128 S600000x128 [1] [0] [0] [1] [] []
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x256_S256x128_S100000x128_1_0_0_1_n_n_wf : DotDims.WF S100000x256 S256x128 S100000x128 [1] [0] [0] [1] [] []

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S5000x128_S80000x1_S80000x128_1_0_n_n_0_1_1128 : GatherDims S5000x128 S80000x1 S80000x128 where
  offsetDims := [1]
  collapsedSliceDims := [0]
  operandBatchingDims := []
  startIndicesBatchingDims := []
  startIndexMap := [0]
  indexVectorDim := 1
  sliceSizes := ![1, 128]
  wf := gather_S5000x128_S80000x1_S80000x128_1_0_n_n_0_1_1128_wf
def dot_S80000x256_S256x128_S80000x128_1_0_0_1_n_n : DotDims S80000x256 S256x128 S80000x128 where
  lhsContracting := [1]
  rhsContracting := [0]
  lhsNonContracting := [0]
  rhsNonContracting := [1]
  lhsBatch := []
  rhsBatch := []
  wf := dot_S80000x256_S256x128_S80000x128_1_0_0_1_n_n_wf
def scatter_S5000x128_S80000x1_S80000x128_1_0_0_1 : ScatterDims S5000x128 S80000x1 S80000x128 where
  updateWindowDims := [1]
  insertedWindowDims := [0]
  scatterDimsToOperandDims := [0]
  indexVectorDim := 1
  wf := scatter_S5000x128_S80000x1_S80000x128_1_0_0_1_wf
def scatter_S5000x1_S80000x1_S80000x1_1_0_0_1 : ScatterDims S5000x1 S80000x1 S80000x1 where
  updateWindowDims := [1]
  insertedWindowDims := [0]
  scatterDimsToOperandDims := [0]
  indexVectorDim := 1
  wf := scatter_S5000x1_S80000x1_S80000x1_1_0_0_1_wf
def scatter_S10x128_S5000x1_S5000x128_1_0_0_1 : ScatterDims S10x128 S5000x1 S5000x128 where
  updateWindowDims := [1]
  insertedWindowDims := [0]
  scatterDimsToOperandDims := [0]
  indexVectorDim := 1
  wf := scatter_S10x128_S5000x1_S5000x128_1_0_0_1_wf
def scatter_S10x1_S5000x1_S5000x1_1_0_0_1 : ScatterDims S10x1 S5000x1 S5000x1 where
  updateWindowDims := [1]
  insertedWindowDims := [0]
  scatterDimsToOperandDims := [0]
  indexVectorDim := 1
  wf := scatter_S10x1_S5000x1_S5000x1_1_0_0_1_wf
def gather_S10x128_S5000x1_S5000x128_1_0_n_n_0_1_1128 : GatherDims S10x128 S5000x1 S5000x128 where
  offsetDims := [1]
  collapsedSliceDims := [0]
  operandBatchingDims := []
  startIndicesBatchingDims := []
  startIndexMap := [0]
  indexVectorDim := 1
  sliceSizes := ![1, 128]
  wf := gather_S10x128_S5000x1_S5000x128_1_0_n_n_0_1_1128_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def dot_S100000x48_S48x128_S100000x128_1_0_0_1_n_n : DotDims S100000x48 S48x128 S100000x128 where
  lhsContracting := [1]
  rhsContracting := [0]
  lhsNonContracting := [0]
  rhsNonContracting := [1]
  lhsBatch := []
  rhsBatch := []
  wf := dot_S100000x48_S48x128_S100000x128_1_0_0_1_n_n_wf
def gather_S5000x128_S300000x1_S300000x128_1_0_n_n_0_1_1128 : GatherDims S5000x128 S300000x1 S300000x128 where
  offsetDims := [1]
  collapsedSliceDims := [0]
  operandBatchingDims := []
  startIndicesBatchingDims := []
  startIndexMap := [0]
  indexVectorDim := 1
  sliceSizes := ![1, 128]
  wf := gather_S5000x128_S300000x1_S300000x128_1_0_n_n_0_1_1128_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def dot_S300000x256_S256x128_S300000x128_1_0_0_1_n_n : DotDims S300000x256 S256x128 S300000x128 where
  lhsContracting := [1]
  rhsContracting := [0]
  lhsNonContracting := [0]
  rhsNonContracting := [1]
  lhsBatch := []
  rhsBatch := []
  wf := dot_S300000x256_S256x128_S300000x128_1_0_0_1_n_n_wf
def dot_S300000x128_S128x1_S300000x1_1_0_0_1_n_n : DotDims S300000x128 S128x1 S300000x1 where
  lhsContracting := [1]
  rhsContracting := [0]
  lhsNonContracting := [0]
  rhsNonContracting := [1]
  lhsBatch := []
  rhsBatch := []
  wf := dot_S300000x128_S128x1_S300000x1_1_0_0_1_n_n_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def gather_S100000x3_S600000x1_S600000x3_1_0_n_n_0_1_13 : GatherDims S100000x3 S600000x1 S600000x3 where
  offsetDims := [1]
  collapsedSliceDims := [0]
  operandBatchingDims := []
  startIndicesBatchingDims := []
  startIndexMap := [0]
  indexVectorDim := 1
  sliceSizes := ![1, 3]
  wf := gather_S100000x3_S600000x1_S600000x3_1_0_n_n_0_1_13_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x259_S259x128_S600000x128_1_0_0_1_n_n : DotDims S600000x259 S259x128 S600000x128 where
  lhsContracting := [1]
  rhsContracting := [0]
  lhsNonContracting := [0]
  rhsNonContracting := [1]
  lhsBatch := []
  rhsBatch := []
  wf := dot_S600000x259_S259x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KB.R0.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 0 of the program (kernel function `cc0_kernel`), at any contents `V` of the core's buffers on entry.
A grid point loads each input window's block whole, loads and then overwrites the output window's block whole with one
value, a pure function of the input blocks. So after the body the output's staging buffer holds that function of the input
blocks (`out0`), each input's buffer is unchanged, and the pipeline's invariant is untouched: this is the body obligation
of the pipeline at every grid point, for the proof data `dat0`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

/-- The output window's staging buffer after the body, from the input windows' blocks: its one whole store. -/
def out0 (x0 : Vec F S5000x64 .bf16) (x1 : Vec F S64x128 .bf16) (x2 : Vec F S1x128 .f32) : Vec F S5000x128 .f32 :=
  View.canon [⟨r0_3, k0_pay1 (View.ld x0 r0_0) (View.ld x1 r0_1) (View.ld x2 r0_2)⟩]

/-- The one store covers the buffer. -/
theorem cover0 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in
/-- The kernel body on whole staging memrefs, the inputs' at contents `xW` and the output's at anything, runs to the
    continuation holding the inputs' as they were and the output's at `out0` of the inputs'. -/
theorem sound_kernel0 (c : Dev nD) (E : Set ℕ) (i : grid0.Coords) (arg1 : Memref sig .tc .vmem S5000x64 .bf16) (harg1 : arg1.IsWhole) (arg2 : Memref sig .tc .vmem S64x128 .bf16) (harg2 : arg2.IsWhole) (arg3 : Memref sig .tc .vmem S1x128 .f32) (harg3 : arg3.IsWhole) (arg4 : Memref sig .tc .vmem S5000x128 .f32) (harg4 : arg4.IsWhole)
    (x0 : Vec F S5000x64 .bf16) (x1 : Vec F S64x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover0 _)

/-- The proof data of pipeline 0 on core `c`: the arrays as the region finds them; after the body at point `t` each
    input's buffer at its block and the output's at `out0` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.R1.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 1 of the program (kernel function `cc1_kernel`), at any contents `V` of the core's buffers on entry.
A grid point loads each input window's block whole, loads and then overwrites the output window's block whole with one
value, a pure function of the input blocks. So after the body the output's staging buffer holds that function of the input
blocks (`out1`), each input's buffer is unchanged, and the pipeline's invariant is untouched: this is the body obligation
of the pipeline at every grid point, for the proof data `dat1`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0
abbrev r1_1 : Rect S128x256 := Rect.unit (s := S128x256) ![0, 0] S128x256.size inb_S128x256_S128x256_0_0
abbrev r1_2 : Rect S1x256 := Rect.unit (s := S1x256) ![0, 0] S1x256.size inb_S1x256_S1x256_0_0
abbrev r1_3 : Rect S5000x256 := Rect.unit (s := S5000x256) ![0, 0] S5000x256.size inb_S5000x256_S5000x256_0_0

/-- The output window's staging buffer after the body, from the input windows' blocks: its one whole store. -/
def out1 (x0 : Vec F S5000x128 .bf16) (x1 : Vec F S128x256 .bf16) (x2 : Vec F S1x256 .f32) : Vec F S5000x256 .bf16 :=
  View.canon [⟨r1_3, k1_pay1 (View.ld x0 r1_0) (View.ld x1 r1_1) (View.ld x2 r1_2)⟩]

/-- The one store covers the buffer. -/
theorem cover1 (p0 : Vec F S5000x256 .bf16) (y : S5000x256.Idx) :
    ∃ pc ∈ ([⟨r1_3, p0⟩] : List (View.Piece (Elt F) S5000x256 .bf16)), y ∈ pc.1.set :=
  View.cover_of_tiled [⟨r1_3, p0⟩] S5000x256.size (by rfl) y

set_option maxHeartbeats 1000000 in
/-- The kernel body on whole staging memrefs, the inputs' at contents `xW` and the output's at anything, runs to the
    continuation holding the inputs' as they were and the output's at `out1` of the inputs'. -/
theorem sound_kernel1 (c : Dev nD) (E : Set ℕ) (i : grid1.Coords) (arg1 : Memref sig .tc .vmem S5000x128 .bf16) (harg1 : arg1.IsWhole) (arg2 : Memref sig .tc .vmem S128x256 .bf16) (harg2 : arg2.IsWhole) (arg3 : Memref sig .tc .vmem S1x256 .f32) (harg3 : arg3.IsWhole) (arg4 : Memref sig .tc .vmem S5000x256 .bf16) (harg4 : arg4.IsWhole)
    (x0 : Vec F S5000x128 .bf16) (x1 : Vec F S128x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover1 _)

/-- The proof data of pipeline 1 on core `c`: the arrays as the region finds them; after the body at point `t` each
    input's buffer at its block and the output's at `out1` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.R2.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 2 of the program (kernel function `cc2_kernel`), at any contents `V` of the core's buffers on entry.
A grid point loads each input window's block whole, loads and then overwrites the output window's block whole with one
value, a pure function of the input blocks. So after the body the output's staging buffer holds that function of the input
blocks (`out2`), each input's buffer is unchanged, and the pipeline's invariant is untouched: this is the body obligation
of the pipeline at every grid point, for the proof data `dat2`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S8000x128 := Rect.unit (s := S8000x128) ![0, 0] S8000x128.size inb_S8000x128_S8000x128_0_0
abbrev r2_1 : Rect S8000x128 := Rect.unit (s := S8000x128) ![0, 0] S8000x128.size inb_S8000x128_S8000x128_0_0
abbrev r2_2 : Rect S1x128 := Rect.unit (s := S1x128) ![0, 0] S1x128.size inb_S1x128_S1x128_0_0
abbrev r2_3 : Rect S8000x128 := Rect.unit (s := S8000x128) ![0, 0] S8000x128.size inb_S8000x128_S8000x128_0_0

/-- The output window's staging buffer after the body, from the input windows' blocks: its one whole store. -/
def out2 (x0 : Vec F S8000x128 .bf16) (x1 : Vec F S8000x128 .bf16) (x2 : Vec F S1x128 .f32) : Vec F S8000x128 .f32 :=
  View.canon [⟨r2_3, k2_pay1 (View.ld x0 r2_0) (View.ld x1 r2_1) (View.ld x2 r2_2)⟩]

/-- The one store covers the buffer. -/
theorem cover2 (p0 : Vec F S8000x128 .f32) (y : S8000x128.Idx) :
    ∃ pc ∈ ([⟨r2_3, p0⟩] : List (View.Piece (Elt F) S8000x128 .f32)), y ∈ pc.1.set :=
  View.cover_of_tiled [⟨r2_3, p0⟩] S8000x128.size (by rfl) y

set_option maxHeartbeats 1000000 in
/-- The kernel body on whole staging memrefs, the inputs' at contents `xW` and the output's at anything, runs to the
    continuation holding the inputs' as they were and the output's at `out2` of the inputs'. -/
theorem sound_kernel2 (c : Dev nD) (E : Set ℕ) (i : grid2.Coords) (arg1 : Memref sig .tc .vmem S8000x128 .bf16) (harg1 : arg1.IsWhole) (arg2 : Memref sig .tc .vmem S8000x128 .bf16) (harg2 : arg2.IsWhole) (arg3 : Memref sig .tc .vmem S1x128 .f32) (harg3 : arg3.IsWhole) (arg4 : Memref sig .tc .vmem S8000x128 .f32) (harg4 : arg4.IsWhole)
    (x0 : Vec F S8000x128 .bf16) (x1 : Vec F S8000x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover2 _)

/-- The proof data of pipeline 2 on core `c`: the arrays as the region finds them; after the body at point `t` each
    input's buffer at its block and the output's at `out2` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.R3.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 3 of the program (kernel function `cc3_kernel`), at any contents `V` of the core's buffers on entry.
A grid point loads each input window's block whole, loads and then overwrites the output window's block whole with one
value, a pure function of the input blocks. So after the body the output's staging buffer holds that function of the input
blocks (`out3`), each input's buffer is unchanged, and the pipeline's invariant is untouched: this is the body obligation
of the pipeline at every grid point, for the proof data `dat3`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x384 := Rect.unit (s := S5000x384) ![0, 0] S5000x384.size inb_S5000x384_S5000x384_0_0
abbrev r3_1 : Rect S384x128 := Rect.unit (s := S384x128) ![0, 0] S384x128.size inb_S384x128_S384x128_0_0
abbrev r3_2 : Rect S1x128 := Rect.unit (s := S1x128) ![0, 0] S1x128.size inb_S1x128_S1x128_0_0
abbrev r3_3 : Rect S5000x128 := Rect.unit (s := S5000x128) ![0, 0] S5000x128.size inb_S5000x128_S5000x128_0_0
abbrev r3_4 : Rect S5000x128 := Rect.unit (s := S5000x128) ![0, 0] S5000x128.size inb_S5000x128_S5000x128_0_0

/-- The output window's staging buffer after the body, from the input windows' blocks: its one whole store. -/
def out3 (x0 : Vec F S5000x384 .bf16) (x1 : Vec F S384x128 .bf16) (x2 : Vec F S1x128 .f32) (x3 : Vec F S5000x128 .f32) : Vec F S5000x128 .f32 :=
  View.canon [⟨r3_4, k3_pay1 (View.ld x0 r3_0) (View.ld x1 r3_1) (View.ld x2 r3_2) (View.ld x3 r3_3)⟩]

/-- The one store covers the buffer. -/
theorem cover3 (p0 : Vec F S5000x128 .f32) (y : S5000x128.Idx) :
    ∃ pc ∈ ([⟨r3_4, p0⟩] : List (View.Piece (Elt F) S5000x128 .f32)), y ∈ pc.1.set :=
  View.cover_of_tiled [⟨r3_4, p0⟩] S5000x128.size (by rfl) y

set_option maxHeartbeats 1000000 in
/-- The kernel body on whole staging memrefs, the inputs' at contents `xW` and the output's at anything, runs to the
    continuation holding the inputs' as they were and the output's at `out3` of the inputs'. -/
theorem sound_kernel3 (c : Dev nD) (E : Set ℕ) (i : grid3.Coords) (arg1 : Memref sig .tc .vmem S5000x384 .bf16) (harg1 : arg1.IsWhole) (arg2 : Memref sig .tc .vmem S384x128 .bf16) (harg2 : arg2.IsWhole) (arg3 : Memref sig .tc .vmem S1x128 .f32) (harg3 : arg3.IsWhole) (arg4 : Memref sig .tc .vmem S5000x128 .f32) (harg4 : arg4.IsWhole) (arg5 : Memref sig .tc .vmem S5000x128 .f32) (harg5 : arg5.IsWhole)
    (x0 : Vec F S5000x384 .bf16) (x1 : Vec F S384x128 .bf16) (x2 : Vec F S1x128 .f32) (x3 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3 x0 x1 x2 x3)) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover3 _)

/-- The proof data of pipeline 3 on core `c`: the arrays as the region finds them; after the body at point `t` each
    input's buffer at its block and the output's at `out3` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.R4.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 4 of the program (kernel function `cc4_kernel`), at any contents `V` of the core's buffers on entry.
A grid point loads each input window's block whole, loads and then overwrites the output window's block whole with one
value, a pure function of the input blocks. So after the body the output's staging buffer holds that function of the input
blocks (`out4`), each input's buffer is unchanged, and the pipeline's invariant is untouched: this is the body obligation
of the pipeline at every grid point, for the proof data `dat4`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is the entry contents and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is the entry contents and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S5000x128 := Rect.unit (s := S5000x128) ![0, 0] S5000x128.size inb_S5000x128_S5000x128_0_0
abbrev r4_1 : Rect S128x256 := Rect.unit (s := S128x256) ![0, 0] S128x256.size inb_S128x256_S128x256_0_0
abbrev r4_2 : Rect S1x256 := Rect.unit (s := S1x256) ![0, 0] S1x256.size inb_S1x256_S1x256_0_0
abbrev r4_3 : Rect S5000x256 := Rect.unit (s := S5000x256) ![0, 0] S5000x256.size inb_S5000x256_S5000x256_0_0

/-- The output window's staging buffer after the body, from the input windows' blocks: its one whole store. -/
def out4 (x0 : Vec F S5000x128 .bf16) (x1 : Vec F S128x256 .bf16) (x2 : Vec F S1x256 .f32) : Vec F S5000x256 .bf16 :=
  View.canon [⟨r4_3, k4_pay1 (View.ld x0 r4_0) (View.ld x1 r4_1) (View.ld x2 r4_2)⟩]

/-- The one store covers the buffer. -/
theorem cover4 (p0 : Vec F S5000x256 .bf16) (y : S5000x256.Idx) :
    ∃ pc ∈ ([⟨r4_3, p0⟩] : List (View.Piece (Elt F) S5000x256 .bf16)), y ∈ pc.1.set :=
  View.cover_of_tiled [⟨r4_3, p0⟩] S5000x256.size (by rfl) y

set_option maxHeartbeats 1000000 in
/-- The kernel body on whole staging memrefs, the inputs' at contents `xW` and the output's at anything, runs to the
    continuation holding the inputs' as they were and the output's at `out4` of the inputs'. -/
theorem sound_kernel4 (c : Dev nD) (E : Set ℕ) (i : grid4.Coords) (arg1 : Memref sig .tc .vmem S5000x128 .bf16) (harg1 : arg1.IsWhole) (arg2 : Memref sig .tc .vmem S128x256 .bf16) (harg2 : arg2.IsWhole) (arg3 : Memref sig .tc .vmem S1x256 .f32) (harg3 : arg3.IsWhole) (arg4 : Memref sig .tc .vmem S5000x256 .bf16) (harg4 : arg4.IsWhole)
    (x0 : Vec F S5000x128 .bf16) (x1 : Vec F S128x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4 x0 x1 x2)) -∗ K ⟨⟩))
      ⊢ wp frame (wpE (defs₀ (F := F)) Variants.none c none) E (cc4_kernel i arg1 harg1 arg2 harg2 arg3 harg3 arg4 harg4) K := by
  simp only [cc4_kernel_eq_skeleton]; unfold cc4_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover4 _)

/-- The proof data of pipeline 4 on core `c`: the arrays as the region finds them; after the body at point `t` each
    input's buffer at its block and the output's at `out4` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KB.R5.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 5 of the program (kernel function `cc5_kernel`), at any contents `V` of the core's buffers on entry.
A grid point loads each input window's block whole, loads and then overwrites the output window's block whole with one
value, a pure function of the input blocks. So after the body the output's staging buffer holds that function of the input
blocks (`out5`), each input's buffer is unchanged, and the pipeline's invariant is untouched: this is the body obligation
of the pipeline at every grid point, for the proof data `dat5`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data
    whose array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data
    whose array is the entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data
    whose array is the entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S8000x128 := Rect.unit (s := S8000x128) ![0, 0] S8000x128.size inb_S8000x128_S8000x128_0_0
abbrev r5_1 : Rect S8000x128 := Rect.unit (s := S8000x128) ![0, 0] S8000x128.size inb_S8000x128_S8000x128_0_0
abbrev r5_2 : Rect S1x128 := Rect.unit (s := S1x128) ![0, 0] S1x128.size inb_S1x128_S1x128_0_0
abbrev r5_3 : Rect S8000x128 := Rect.unit (s := S8000x128) ![0, 0] S8000x128.size inb_S8000x128_S8000x128_0_0

/-- The output window's staging buffer after the body, from the input windows' blocks: its one whole store. -/
def out5 (x0 : Vec F S8000x128 .bf16) (x1 : Vec F S8000x128 .bf16) (x2 : Vec F S1x128 .f32) : Vec F S8000x128 .f32 :=
  View.canon [⟨r5_3, k5_pay1 (View.ld x0 r5_0) (View.ld x1 r5_1) (View.ld x2 r5_2)⟩]

/-- The one store covers the buffer. -/
theorem cover5 (p0 : Vec F S8000x128 .f32) (y : S8000x128.Idx) :
    ∃ pc ∈ ([⟨r5_3, p0⟩] : List (View.Piece (Elt F) S8000x128 .f32)), y ∈ pc.1.set :=
  View.cover_of_tiled [⟨r5_3, p0⟩] S8000x128.size (by rfl) y

set_option maxHeartbeats 1000000 in
/-- The kernel body on whole staging memrefs, the inputs' at contents `xW` and the output's at anything, runs to the
    continuation holding the inputs' as they were and the output's at `out5` of the inputs'. -/
theorem sound_kernel5 (c : Dev nD) (E : Set ℕ) (i : grid5.Coords) (arg1 : Memref sig .tc .vmem S8000x128 .bf16) (harg1 : arg1.IsWhole) (arg2 : Memref sig .tc .vmem S8000x128 .bf16) (harg2 : arg2.IsWhole) (arg3 : Memref sig .tc .vmem S1x128 .f32) (harg3 : arg3.IsWhole) (arg4 : Memref sig .tc .vmem S8000x128 .f32) (harg4 : arg4.IsWhole)
    (x0 : Vec F S8000x128 .bf16) (x1 : Vec F S8000x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover5 _)

/-- The proof data of pipeline 5 on core `c`: the arrays as the region finds them; after the body at point `t` each
    input's buffer at its block and the output's at `out5` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KB.R6.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 6 of the program (kernel function `cc6_kernel`), at any contents `V` of the core's buffers on entry.
A grid point loads each input window's block whole, loads and then overwrites the output window's block whole with one
value, a pure function of the input blocks. So after the body the output's staging buffer holds that function of the input
blocks (`out6`), each input's buffer is unchanged, and the pipeline's invariant is untouched: this is the body obligation
of the pipeline at every grid point, for the proof data `dat6`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof data
    whose array is the entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof data
    whose array is the entry contents and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof data
    whose array is the entry contents and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof data
    whose array is the entry contents and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S5000x384 := Rect.unit (s := S5000x384) ![0, 0] S5000x384.size inb_S5000x384_S5000x384_0_0
abbrev r6_1 : Rect S384x128 := Rect.unit (s := S384x128) ![0, 0] S384x128.size inb_S384x128_S384x128_0_0
abbrev r6_2 : Rect S1x128 := Rect.unit (s := S1x128) ![0, 0] S1x128.size inb_S1x128_S1x128_0_0
abbrev r6_3 : Rect S5000x128 := Rect.unit (s := S5000x128) ![0, 0] S5000x128.size inb_S5000x128_S5000x128_0_0
abbrev r6_4 : Rect S5000x128 := Rect.unit (s := S5000x128) ![0, 0] S5000x128.size inb_S5000x128_S5000x128_0_0

/-- The output window's staging buffer after the body, from the input windows' blocks: its one whole store. -/
def out6 (x0 : Vec F S5000x384 .bf16) (x1 : Vec F S384x128 .bf16) (x2 : Vec F S1x128 .f32) (x3 : Vec F S5000x128 .f32) : Vec F S5000x128 .f32 :=
  View.canon [⟨r6_4, k6_pay1 (View.ld x0 r6_0) (View.ld x1 r6_1) (View.ld x2 r6_2) (View.ld x3 r6_3)⟩]

/-- The one store covers the buffer. -/
theorem cover6 (p0 : Vec F S5000x128 .f32) (y : S5000x128.Idx) :
    ∃ pc ∈ ([⟨r6_4, p0⟩] : List (View.Piece (Elt F) S5000x128 .f32)), y ∈ pc.1.set :=
  View.cover_of_tiled [⟨r6_4, p0⟩] S5000x128.size (by rfl) y

set_option maxHeartbeats 1000000 in
/-- The kernel body on whole staging memrefs, the inputs' at contents `xW` and the output's at anything, runs to the
    continuation holding the inputs' as they were and the output's at `out6` of the inputs'. -/
theorem sound_kernel6 (c : Dev nD) (E : Set ℕ) (i : grid6.Coords) (arg1 : Memref sig .tc .vmem S5000x384 .bf16) (harg1 : arg1.IsWhole) (arg2 : Memref sig .tc .vmem S384x128 .bf16) (harg2 : arg2.IsWhole) (arg3 : Memref sig .tc .vmem S1x128 .f32) (harg3 : arg3.IsWhole) (arg4 : Memref sig .tc .vmem S5000x128 .f32) (harg4 : arg4.IsWhole) (arg5 : Memref sig .tc .vmem S5000x128 .f32) (harg5 : arg5.IsWhole)
    (x0 : Vec F S5000x384 .bf16) (x1 : Vec F S384x128 .bf16) (x2 : Vec F S1x128 .f32) (x3 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6 x0 x1 x2 x3)) -∗ K ⟨⟩))
      ⊢ wp frame (wpE (defs₀ (F := F)) Variants.none c none) E (cc6_kernel i arg1 harg1 arg2 harg2 arg3 harg3 arg4 harg4 arg5 harg5) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover6 _)

/-- The proof data of pipeline 6 on core `c`: the arrays as the region finds them; after the body at point `t` each
    input's buffer at its block and the output's at `out6` of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.KB.R7.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 7 of the program (kernel function `cc7_kernel`), at any contents `V` of the core's buffers on entry.
A grid point loads each input window's block whole, loads and then overwrites the output window's block whole with one
value, a pure function of the input blocks. So after the body the output's staging buffer holds that function of the input
blocks (`out7`), each input's buffer is unchanged, and the pipeline's invariant is untouched: this is the body obligation
of the pipeline at every grid point, for the proof data `dat7`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data
    whose array is the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof data
    whose array is the entry contents and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof data
    whose array is the entry contents and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S5000x128 := Rect.unit (s := S5000x128) ![0, 0] S5000x128.size inb_S5000x128_S5000x128_0_0
abbrev r7_1 : Rect S128x256 := Rect.unit (s := S128x256) ![0, 0] S128x256.size inb_S128x256_S128x256_0_0
abbrev r7_2 : Rect S1x256 := Rect.unit (s := S1x256) ![0, 0] S1x256.size inb_S1x256_S1x256_0_0
abbrev r7_3 : Rect S5000x256 := Rect.unit (s := S5000x256) ![0, 0] S5000x256.size inb_S5000x256_S5000x256_0_0

/-- The output window's staging buffer after the body, from the input windows' blocks: its one whole store. -/
def out7 (x0 : Vec F S5000x128 .bf16) (x1 : Vec F S128x256 .bf16) (x2 : Vec F S1x256 .f32) : Vec F S5000x256 .bf16 :=
  View.canon [⟨r7_3, k7_pay1 (View.ld x0 r7_0) (View.ld x1 r7_1) (View.ld x2 r7_2)⟩]

/-- The one store covers the buffer. -/
theorem cover7 (p0 : Vec F S5000x256 .bf16) (y : S5000x256.Idx) :
    ∃ pc ∈ ([⟨r7_3, p0⟩] : List (View.Piece (Elt F) S5000x256 .bf16)), y ∈ pc.1.set :=
  View.cover_of_tiled [⟨r7_3, p0⟩] S5000x256.size (by rfl) y

set_option maxHeartbeats 1000000 in
/-- The kernel body on whole staging memrefs, the inputs' at contents `xW` and the output's at anything, runs to the
    continuation holding the inputs' as they were and the output's at `out7` of the inputs'. -/
theorem sound_kernel7 (c : Dev nD) (E : Set ℕ) (i : grid7.Coords) (arg1 : Memref sig .tc .vmem S5000x128 .bf16) (harg1 : arg1.IsWhole) (arg2 : Memref sig .tc .vmem S128x256 .bf16) (harg2 : arg2.IsWhole) (arg3 : Memref sig .tc .vmem S1x256 .f32) (harg3 : arg3.IsWhole) (arg4 : Memref sig .tc .vmem S5000x256 .bf16) (harg4 : arg4.IsWhole)
    (x0 : Vec F S5000x128 .bf16) (x1 : Vec F S128x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7 x0 x1 x2)) -∗ K ⟨⟩))
      ⊢ wp frame (wpE (defs₀ (F := F)) Variants.none c none) E (cc7_kernel i arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover7 _)

/-- The proof data of pipeline 7 on core `c`: the arrays as the region finds them; after the body at point `t` each
    input's buffer at its block and the output's at `out7` of the input blocks; the invariant the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.KB.R8.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 8 of the program (kernel function `cc8_kernel`), at any contents `V` of the core's buffers on entry.
A grid point loads each input window's block whole, loads and then overwrites the output window's block whole with one
value, a pure function of the input blocks. So after the body the output's staging buffer holds that function of the input
blocks (`out8`), each input's buffer is unchanged, and the pipeline's invariant is untouched: this is the body obligation
of the pipeline at every grid point, for the proof data `dat8`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof data
    whose array is the entry contents and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof data
    whose array is the entry contents and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof data
    whose array is the entry contents and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S8000x128 := Rect.unit (s := S8000x128) ![0, 0] S8000x128.size inb_S8000x128_S8000x128_0_0
abbrev r8_1 : Rect S8000x128 := Rect.unit (s := S8000x128) ![0, 0] S8000x128.size inb_S8000x128_S8000x128_0_0
abbrev r8_2 : Rect S1x128 := Rect.unit (s := S1x128) ![0, 0] S1x128.size inb_S1x128_S1x128_0_0
abbrev r8_3 : Rect S8000x128 := Rect.unit (s := S8000x128) ![0, 0] S8000x128.size inb_S8000x128_S8000x128_0_0

/-- The output window's staging buffer after the body, from the input windows' blocks: its one whole store. -/
def out8 (x0 : Vec F S8000x128 .bf16) (x1 : Vec F S8000x128 .bf16) (x2 : Vec F S1x128 .f32) : Vec F S8000x128 .f32 :=
  View.canon [⟨r8_3, k8_pay1 (View.ld x0 r8_0) (View.ld x1 r8_1) (View.ld x2 r8_2)⟩]

/-- The one store covers the buffer. -/
theorem cover8 (p0 : Vec F S8000x128 .f32) (y : S8000x128.Idx) :
    ∃ pc ∈ ([⟨r8_3, p0⟩] : List (View.Piece (Elt F) S8000x128 .f32)), y ∈ pc.1.set :=
  View.cover_of_tiled [⟨r8_3, p0⟩] S8000x128.size (by rfl) y

set_option maxHeartbeats 1000000 in
/-- The kernel body on whole staging memrefs, the inputs' at contents `xW` and the output's at anything, runs to the
    continuation holding the inputs' as they were and the output's at `out8` of the inputs'. -/
theorem sound_kernel8 (c : Dev nD) (E : Set ℕ) (i : grid8.Coords) (arg1 : Memref sig .tc .vmem S8000x128 .bf16) (harg1 : arg1.IsWhole) (arg2 : Memref sig .tc .vmem S8000x128 .bf16) (harg2 : arg2.IsWhole) (arg3 : Memref sig .tc .vmem S1x128 .f32) (harg3 : arg3.IsWhole) (arg4 : Memref sig .tc .vmem S8000x128 .f32) (harg4 : arg4.IsWhole)
    (x0 : Vec F S8000x128 .bf16) (x1 : Vec F S8000x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8 x0 x1 x2)) -∗ K ⟨⟩))
      ⊢ wp frame (wpE (defs₀ (F := F)) Variants.none c none) E (cc8_kernel i arg1 harg1 arg2 harg2 arg3 harg3 arg4 harg4) K := by
  simp only [cc8_kernel_eq_skeleton]; unfold cc8_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover8 _)

/-- The proof data of pipeline 8 on core `c`: the arrays as the region finds them; after the body at point `t` each
    input's buffer at its block and the output's at `out8` of the input blocks; the invariant the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so `sound_kernel8` applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Fr

end
-- ==== Proof.KB.R9.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 9 of the program (kernel function `cc9_kernel`), at any contents `V` of the core's buffers on entry.
A grid point loads each input window's block whole, loads and then overwrites the output window's block whole with one
value, a pure function of the input blocks. So after the body the output's staging buffer holds that function of the input
blocks (`out9`), each input's buffer is unchanged, and the pipeline's invariant is untouched: this is the body obligation
of the pipeline at every grid point, for the proof data `dat9`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof data
    whose array is the entry contents and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof data
    whose array is the entry contents and whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof data
    whose array is the entry contents and whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof data
    whose array is the entry contents and whose body leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S5000x384 := Rect.unit (s := S5000x384) ![0, 0] S5000x384.size inb_S5000x384_S5000x384_0_0
abbrev r9_1 : Rect S384x128 := Rect.unit (s := S384x128) ![0, 0] S384x128.size inb_S384x128_S384x128_0_0
abbrev r9_2 : Rect S1x128 := Rect.unit (s := S1x128) ![0, 0] S1x128.size inb_S1x128_S1x128_0_0
abbrev r9_3 : Rect S5000x128 := Rect.unit (s := S5000x128) ![0, 0] S5000x128.size inb_S5000x128_S5000x128_0_0
abbrev r9_4 : Rect S5000x128 := Rect.unit (s := S5000x128) ![0, 0] S5000x128.size inb_S5000x128_S5000x128_0_0

/-- The output window's staging buffer after the body, from the input windows' blocks: its one whole store. -/
def out9 (x0 : Vec F S5000x384 .bf16) (x1 : Vec F S384x128 .bf16) (x2 : Vec F S1x128 .f32) (x3 : Vec F S5000x128 .f32) : Vec F S5000x128 .f32 :=
  View.canon [⟨r9_4, k9_pay1 (View.ld x0 r9_0) (View.ld x1 r9_1) (View.ld x2 r9_2) (View.ld x3 r9_3)⟩]

/-- The one store covers the buffer. -/
theorem cover9 (p0 : Vec F S5000x128 .f32) (y : S5000x128.Idx) :
    ∃ pc ∈ ([⟨r9_4, p0⟩] : List (View.Piece (Elt F) S5000x128 .f32)), y ∈ pc.1.set :=
  View.cover_of_tiled [⟨r9_4, p0⟩] S5000x128.size (by rfl) y

set_option maxHeartbeats 1000000 in
/-- The kernel body on whole staging memrefs, the inputs' at contents `xW` and the output's at anything, runs to the
    continuation holding the inputs' as they were and the output's at `out9` of the inputs'. -/
theorem sound_kernel9 (c : Dev nD) (E : Set ℕ) (i : grid9.Coords) (arg1 : Memref sig .tc .vmem S5000x384 .bf16) (harg1 : arg1.IsWhole) (arg2 : Memref sig .tc .vmem S384x128 .bf16) (harg2 : arg2.IsWhole) (arg3 : Memref sig .tc .vmem S1x128 .f32) (harg3 : arg3.IsWhole) (arg4 : Memref sig .tc .vmem S5000x128 .f32) (harg4 : arg4.IsWhole) (arg5 : Memref sig .tc .vmem S5000x128 .f32) (harg5 : arg5.IsWhole)
    (x0 : Vec F S5000x384 .bf16) (x1 : Vec F S384x128 .bf16) (x2 : Vec F S1x128 .f32) (x3 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out9 x0 x1 x2 x3)) -∗ K ⟨⟩))
      ⊢ wp frame (wpE (defs₀ (F := F)) Variants.none c none) E (cc9_kernel i arg1 harg1 arg2 harg2 arg3 harg3 arg4 harg4 arg5 harg5) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover9 _)

/-- The proof data of pipeline 9 on core `c`: the arrays as the region finds them; after the body at point `t` each
    input's buffer at its block and the output's at `out9` of the input blocks; the invariant the scoped rest and the
    generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' memrefs hold their blocks, so `sound_kernel9` applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Fr

end
-- ==== Proof.KB.R10.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 10 of the program (kernel function `cc10_kernel`), at any contents `V` of the core's buffers on entry.
A grid point loads each input window's block whole, loads and then overwrites the output window's block whole with one
value, a pure function of the input blocks. So after the body the output's staging buffer holds that function of the input
blocks (`out10`), each input's buffer is unchanged, and the pipeline's invariant is untouched: this is the body obligation
of the pipeline at every grid point, for the proof data `dat10`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof data
    whose array is the entry contents and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof data
    whose array is the entry contents and whose body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof data
    whose array is the entry contents and whose body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S10000x48 := Rect.unit (s := S10000x48) ![0, 0] S10000x48.size inb_S10000x48_S10000x48_0_0
abbrev r10_1 : Rect S48x128 := Rect.unit (s := S48x128) ![0, 0] S48x128.size inb_S48x128_S48x128_0_0
abbrev r10_2 : Rect S1x128 := Rect.unit (s := S1x128) ![0, 0] S1x128.size inb_S1x128_S1x128_0_0
abbrev r10_3 : Rect S10000x128 := Rect.unit (s := S10000x128) ![0, 0] S10000x128.size inb_S10000x128_S10000x128_0_0

/-- The output window's staging buffer after the body, from the input windows' blocks: its one whole store. -/
def out10 (x0 : Vec F S10000x48 .bf16) (x1 : Vec F S48x128 .bf16) (x2 : Vec F S1x128 .f32) : Vec F S10000x128 .f32 :=
  View.canon [⟨r10_3, k10_pay1 (View.ld x0 r10_0) (View.ld x1 r10_1) (View.ld x2 r10_2)⟩]

/-- The one store covers the buffer. -/
theorem cover10 (p0 : Vec F S10000x128 .f32) (y : S10000x128.Idx) :
    ∃ pc ∈ ([⟨r10_3, p0⟩] : List (View.Piece (Elt F) S10000x128 .f32)), y ∈ pc.1.set :=
  View.cover_of_tiled [⟨r10_3, p0⟩] S10000x128.size (by rfl) y

set_option maxHeartbeats 1000000 in
/-- The kernel body on whole staging memrefs, the inputs' at contents `xW` and the output's at anything, runs to the
    continuation holding the inputs' as they were and the output's at `out10` of the inputs'. -/
theorem sound_kernel10 (c : Dev nD) (E : Set ℕ) (i : grid10.Coords) (arg1 : Memref sig .tc .vmem S10000x48 .bf16) (harg1 : arg1.IsWhole) (arg2 : Memref sig .tc .vmem S48x128 .bf16) (harg2 : arg2.IsWhole) (arg3 : Memref sig .tc .vmem S1x128 .f32) (harg3 : arg3.IsWhole) (arg4 : Memref sig .tc .vmem S10000x128 .f32) (harg4 : arg4.IsWhole)
    (x0 : Vec F S10000x48 .bf16) (x1 : Vec F S48x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out10 x0 x1 x2)) -∗ K ⟨⟩))
      ⊢ wp frame (wpE (defs₀ (F := F)) Variants.none c none) E (cc10_kernel i arg1 harg1 arg2 harg2 arg3 harg3 arg4 harg4) K := by
  simp only [cc10_kernel_eq_skeleton]; unfold cc10_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover10 _)

/-- The proof data of pipeline 10 on core `c`: the arrays as the region finds them; after the body at point `t` each
    input's buffer at its block and the output's at `out10` of the input blocks; the invariant the scoped rest and the
    generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = out10 (iblk10 V c 0 t) (iblk10 V c 1 t) (iblk10 V c 2 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the inputs' memrefs hold their blocks, so `sound_kernel10` applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Fr

end
-- ==== Proof.KB.R11.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 11 of the program (kernel function `cc11_kernel`), at any contents `V` of the core's buffers on entry.
A grid point loads each input window's block whole, loads and then overwrites the output window's block whole with one
value, a pure function of the input blocks. So after the body the output's staging buffer holds that function of the input
blocks (`out11`), each input's buffer is unchanged, and the pipeline's invariant is untouched: this is the body obligation
of the pipeline at every grid point, for the proof data `dat11`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof data
    whose array is the entry contents and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof data
    whose array is the entry contents and whose body leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof data
    whose array is the entry contents and whose body leaves the block in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

abbrev r11_0 : Rect S5000x128 := Rect.unit (s := S5000x128) ![0, 0] S5000x128.size inb_S5000x128_S5000x128_0_0
abbrev r11_1 : Rect S128x128 := Rect.unit (s := S128x128) ![0, 0] S128x128.size inb_S128x128_S128x128_0_0
abbrev r11_2 : Rect S1x128 := Rect.unit (s := S1x128) ![0, 0] S1x128.size inb_S1x128_S1x128_0_0
abbrev r11_3 : Rect S5000x128 := Rect.unit (s := S5000x128) ![0, 0] S5000x128.size inb_S5000x128_S5000x128_0_0

/-- The output window's staging buffer after the body, from the input windows' blocks: its one whole store. -/
def out11 (x0 : Vec F S5000x128 .bf16) (x1 : Vec F S128x128 .bf16) (x2 : Vec F S1x128 .f32) : Vec F S5000x128 .bf16 :=
  View.canon [⟨r11_3, k11_pay1 (View.ld x0 r11_0) (View.ld x1 r11_1) (View.ld x2 r11_2)⟩]

/-- The one store covers the buffer. -/
theorem cover11 (p0 : Vec F S5000x128 .bf16) (y : S5000x128.Idx) :
    ∃ pc ∈ ([⟨r11_3, p0⟩] : List (View.Piece (Elt F) S5000x128 .bf16)), y ∈ pc.1.set :=
  View.cover_of_tiled [⟨r11_3, p0⟩] S5000x128.size (by rfl) y

set_option maxHeartbeats 1000000 in
/-- The kernel body on whole staging memrefs, the inputs' at contents `xW` and the output's at anything, runs to the
    continuation holding the inputs' as they were and the output's at `out11` of the inputs'. -/
theorem sound_kernel11 (c : Dev nD) (E : Set ℕ) (i : grid11.Coords) (arg1 : Memref sig .tc .vmem S5000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S5000x128 .bf16) (harg4 : arg4.IsWhole)
    (x0 : Vec F S5000x128 .bf16) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out11 x0 x1 x2)) -∗ K ⟨⟩))
      ⊢ wp frame (wpE (defs₀ (F := F)) Variants.none c none) E (cc11_kernel i arg1 harg1 arg2 harg2 arg3 harg3 arg4 harg4) K := by
  simp only [cc11_kernel_eq_skeleton]; unfold cc11_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover11 _)

/-- The proof data of pipeline 11 on core `c`: the arrays as the region finds them; after the body at point `t` each
    input's buffer at its block and the output's at `out11` of the input blocks; the invariant the scoped rest and the
    generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks, so `sound_kernel11` applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Fr

end
-- ==== Proof.KB.R12.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 12 of the program (kernel function `cc12_kernel`), at any contents `V` of the core's buffers on entry.
A grid point loads each input window's block whole, loads and then overwrites the output window's block whole with one
value, a pure function of the input blocks. So after the body the output's staging buffer holds that function of the input
blocks (`out12`), each input's buffer is unchanged, and the pipeline's invariant is untouched: this is the body obligation
of the pipeline at every grid point, for the proof data `dat12`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof data
    whose array is the entry contents and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not, for any proof data
    whose array is the entry contents and whose body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not, for any proof data
    whose array is the entry contents and whose body leaves the block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

abbrev r12_0 : Rect S10000x128 := Rect.unit (s := S10000x128) ![0, 0] S10000x128.size inb_S10000x128_S10000x128_0_0
abbrev r12_1 : Rect S128x128 := Rect.unit (s := S128x128) ![0, 0] S128x128.size inb_S128x128_S128x128_0_0
abbrev r12_2 : Rect S1x128 := Rect.unit (s := S1x128) ![0, 0] S1x128.size inb_S1x128_S1x128_0_0
abbrev r12_3 : Rect S10000x128 := Rect.unit (s := S10000x128) ![0, 0] S10000x128.size inb_S10000x128_S10000x128_0_0

/-- The output window's staging buffer after the body, from the input windows' blocks: its one whole store. -/
def out12 (x0 : Vec F S10000x128 .bf16) (x1 : Vec F S128x128 .bf16) (x2 : Vec F S1x128 .f32) : Vec F S10000x128 .bf16 :=
  View.canon [⟨r12_3, k12_pay1 (View.ld x0 r12_0) (View.ld x1 r12_1) (View.ld x2 r12_2)⟩]

/-- The one store covers the buffer. -/
theorem cover12 (p0 : Vec F S10000x128 .bf16) (y : S10000x128.Idx) :
    ∃ pc ∈ ([⟨r12_3, p0⟩] : List (View.Piece (Elt F) S10000x128 .bf16)), y ∈ pc.1.set :=
  View.cover_of_tiled [⟨r12_3, p0⟩] S10000x128.size (by rfl) y

set_option maxHeartbeats 1000000 in
/-- The kernel body on whole staging memrefs, the inputs' at contents `xW` and the output's at anything, runs to the
    continuation holding the inputs' as they were and the output's at `out12` of the inputs'. -/
theorem sound_kernel12 (c : Dev nD) (E : Set ℕ) (i : grid12.Coords) (arg1 : Memref sig .tc .vmem S10000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S10000x128 .bf16) (harg4 : arg4.IsWhole)
    (x0 : Vec F S10000x128 .bf16) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12 x0 x1 x2)) -∗ K ⟨⟩))
      ⊢ wp frame (wpE (defs₀ (F := F)) Variants.none c none) E (cc12_kernel i arg1 harg1 arg2 harg2 arg3 harg3 arg4 harg4) K := by
  simp only [cc12_kernel_eq_skeleton]; unfold cc12_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover12 _)

/-- The proof data of pipeline 12 on core `c`: the arrays as the region finds them; after the body at point `t` each
    input's buffer at its block and the output's at `out12` of the input blocks; the invariant the scoped rest and the
    generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' memrefs hold their blocks, so `sound_kernel12` applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Fr

end
-- ==== Proof.KB.R13.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 13 of the program (kernel function `cc13__attn_fuse_kernel`), at any contents `V` of the core's buffers on entry.
A grid point loads each input window's block whole, loads and then overwrites the output window's block whole with one
value, a pure function of the input blocks. So after the body the output's staging buffer holds that function of the input
blocks (`out13`), each input's buffer is unchanged, and the pipeline's invariant is untouched: this is the body obligation
of the pipeline at every grid point, for the proof data `dat13`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof data
    whose array is the entry contents and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not, for any proof data
    whose array is the entry contents and whose body leaves the block in place. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not, for any proof data
    whose array is the entry contents and whose body leaves the block in place. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not, for any proof data
    whose array is the entry contents and whose body leaves the block in place. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, fetched there or not, for any proof data
    whose array is the entry contents and whose body leaves the block in place. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

abbrev r13_0 : Rect S12000x128 := Rect.unit (s := S12000x128) ![0, 0] S12000x128.size inb_S12000x128_S12000x128_0_0
abbrev r13_1 : Rect S12000x128 := Rect.unit (s := S12000x128) ![0, 0] S12000x128.size inb_S12000x128_S12000x128_0_0
abbrev r13_2 : Rect S1x128 := Rect.unit (s := S1x128) ![0, 0] S1x128.size inb_S1x128_S1x128_0_0
abbrev r13_3 : Rect S1x128 := Rect.unit (s := S1x128) ![0, 0] S1x128.size inb_S1x128_S1x128_0_0
abbrev r13_4 : Rect S1x1 := Rect.unit (s := S1x1) ![0, 0] S1x1.size inb_S1x1_S1x1_0_0
abbrev r13_5 : Rect S12000x1 := Rect.unit (s := S12000x1) ![0, 0] S12000x1.size inb_S12000x1_S12000x1_0_0

/-- The output window's staging buffer after the body, from the input windows' blocks: its one whole store. -/
def out13 (x0 : Vec F S12000x128 .bf16) (x1 : Vec F S12000x128 .bf16) (x2 : Vec F S1x128 .f32) (x3 : Vec F S1x128 .f32) (x4 : Vec F S1x1 .f32) : Vec F S12000x1 .f32 :=
  View.canon [⟨r13_5, k13_pay1 (View.ld x0 r13_0) (View.ld x1 r13_1) (View.ld x2 r13_2) (View.ld x3 r13_3) (View.ld x4 r13_4)⟩]

/-- The one store covers the buffer. -/
theorem cover13 (p0 : Vec F S12000x1 .f32) (y : S12000x1.Idx) :
    ∃ pc ∈ ([⟨r13_5, p0⟩] : List (View.Piece (Elt F) S12000x1 .f32)), y ∈ pc.1.set :=
  View.cover_of_tiled [⟨r13_5, p0⟩] S12000x1.size (by rfl) y

set_option maxHeartbeats 1000000 in
/-- The kernel body on whole staging memrefs, the inputs' at contents `xW` and the output's at anything, runs to the
    continuation holding the inputs' as they were and the output's at `out13` of the inputs'. -/
theorem sound_kernel13 (c : Dev nD) (E : Set ℕ) (i : grid13.Coords) (arg1 : Memref sig .tc .vmem S12000x128 .bf16) (harg1 : arg1.IsWhole) (arg2 : Memref sig .tc .vmem S12000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S12000x1 .f32) (harg6 : arg6.IsWhole)
    (x0 : Vec F S12000x128 .bf16) (x1 : Vec F S12000x128 .bf16) (x2 : Vec F S1x128 .f32) (x3 : Vec F S1x128 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out13 x0 x1 x2 x3 x4)) -∗ K ⟨⟩))
      ⊢ wp frame (wpE (defs₀ (F := F)) Variants.none c none) E (cc13__attn_fuse_kernel i arg1 harg1 arg2 harg2 arg3 harg3 arg4 harg4 arg5 harg5 arg6 harg6) K := by
  simp only [cc13__attn_fuse_kernel_eq_skeleton]; unfold cc13__attn_fuse_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover13 _)

/-- The proof data of pipeline 13 on core `c`: the arrays as the region finds them; after the body at point `t` each
    input's buffer at its block and the output's at `out13` of the input blocks; the invariant the scoped rest and the
    generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => out13 (iblk13 V c 0 t) (iblk13 V c 1 t) (iblk13 V c 2 t) (iblk13 V c 3 t) (iblk13 V c 4 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = out13 (iblk13 V c 0 t) (iblk13 V c 1 t) (iblk13 V c 2 t) (iblk13 V c 3 t) (iblk13 V c 4 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d

/-- What the body is called with at point `t`, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t))

/-- The body at any point: the inputs' memrefs hold their blocks, so `sound_kernel13` applies; the invariant and the
    core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4]
  rw [show (dat13 V c).Φ t.succ = (dat13 V c).Φ t.castSucc from rfl,
    show (dat13 V c).owesAt () t.succ = (dat13 V c).owesAt () t.castSucc from rfl,
    after13_0, after13_1, after13_2, after13_3, after13_4, after13_5]
  iintro ⟨HΦ, Ho, ⟨%d0, H0⟩, ⟨%d1, H1⟩, ⟨%d2, H2⟩, ⟨%d3, H3⟩, ⟨%d4, H4⟩, ⟨%d5, H5⟩⟩
  iapply (sound_kernel13 c Set.univ _ _ _ _ _ _ _ _ _ _ _ _ _ (iblk13 V c 0 t) (iblk13 V c 1 t) (iblk13 V c 2 t) (iblk13 V c 3 t) (iblk13 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Fr

end
-- ==== Proof.KB.R14.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 14 of the program (kernel function `cc14_kernel`), at any contents `V` of the core's buffers on entry.
A grid point loads each input window's block whole, loads and then overwrites the output window's block whole with one
value, a pure function of the input blocks. So after the body the output's staging buffer holds that function of the input
blocks (`out14`), each input's buffer is unchanged, and the pipeline's invariant is untouched: this is the body obligation
of the pipeline at every grid point, for the proof data `dat14`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof data
    whose array is the entry contents and whose body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, fetched there or not, for any proof data
    whose array is the entry contents and whose body leaves the block in place. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, fetched there or not, for any proof data
    whose array is the entry contents and whose body leaves the block in place. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

abbrev r14_0 : Rect S10000x131 := Rect.unit (s := S10000x131) ![0, 0] S10000x131.size inb_S10000x131_S10000x131_0_0
abbrev r14_1 : Rect S131x256 := Rect.unit (s := S131x256) ![0, 0] S131x256.size inb_S131x256_S131x256_0_0
abbrev r14_2 : Rect S1x256 := Rect.unit (s := S1x256) ![0, 0] S1x256.size inb_S1x256_S1x256_0_0
abbrev r14_3 : Rect S10000x256 := Rect.unit (s := S10000x256) ![0, 0] S10000x256.size inb_S10000x256_S10000x256_0_0

/-- The output window's staging buffer after the body, from the input windows' blocks: its one whole store. -/
def out14 (x0 : Vec F S10000x131 .bf16) (x1 : Vec F S131x256 .bf16) (x2 : Vec F S1x256 .f32) : Vec F S10000x256 .bf16 :=
  View.canon [⟨r14_3, k14_pay1 (View.ld x0 r14_0) (View.ld x1 r14_1) (View.ld x2 r14_2)⟩]

/-- The one store covers the buffer. -/
theorem cover14 (p0 : Vec F S10000x256 .bf16) (y : S10000x256.Idx) :
    ∃ pc ∈ ([⟨r14_3, p0⟩] : List (View.Piece (Elt F) S10000x256 .bf16)), y ∈ pc.1.set :=
  View.cover_of_tiled [⟨r14_3, p0⟩] S10000x256.size (by rfl) y

set_option maxHeartbeats 1000000 in
/-- The kernel body on whole staging memrefs, the inputs' at contents `xW` and the output's at anything, runs to the
    continuation holding the inputs' as they were and the output's at `out14` of the inputs'. -/
theorem sound_kernel14 (c : Dev nD) (E : Set ℕ) (i : grid14.Coords) (arg1 : Memref sig .tc .vmem S10000x131 .bf16) (harg1 : arg1.IsWhole) (arg2 : Memref sig .tc .vmem S131x256 .bf16) (harg2 : arg2.IsWhole) (arg3 : Memref sig .tc .vmem S1x256 .f32) (harg3 : arg3.IsWhole) (arg4 : Memref sig .tc .vmem S10000x256 .bf16) (harg4 : arg4.IsWhole)
    (x0 : Vec F S10000x131 .bf16) (x1 : Vec F S131x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out14 x0 x1 x2)) -∗ K ⟨⟩))
      ⊢ wp frame (wpE (defs₀ (F := F)) Variants.none c none) E (cc14_kernel i arg1 harg1 arg2 harg2 arg3 harg3 arg4 harg4) K := by
  simp only [cc14_kernel_eq_skeleton]; unfold cc14_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover14 _)

/-- The proof data of pipeline 14 on core `c`: the arrays as the region finds them; after the body at point `t` each
    input's buffer at its block and the output's at `out14` of the input blocks; the invariant the scoped rest and the
    generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14 (iblk14 V c 0 t) (iblk14 V c 1 t) (iblk14 V c 2 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = out14 (iblk14 V c 0 t) (iblk14 V c 1 t) (iblk14 V c 2 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-- What the body is called with at point `t`, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

/-- The body at any point: the inputs' memrefs hold their blocks, so `sound_kernel14` applies; the invariant and the
    core's dues pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ _ _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Fr

end
-- ==== Proof.KB.R15.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 15 of the program (kernel function `cc15_kernel`), at any contents `V` of the core's buffers on entry.
A grid point loads each input window's block whole, loads and then overwrites the output window's block whole with one
value, a pure function of the input blocks. So after the body the output's staging buffer holds that function of the input
blocks (`out15`), each input's buffer is unchanged, and the pipeline's invariant is untouched: this is the body obligation
of the pipeline at every grid point, for the proof data `dat15`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's current staging buffer holds its block at every point, fetched there or not, for any proof data
    whose array is the entry contents and whose body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- Input window 1's current staging buffer holds its block at every point, fetched there or not, for any proof data
    whose array is the entry contents and whose body leaves the block in place. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- Input window 2's current staging buffer holds its block at every point, fetched there or not, for any proof data
    whose array is the entry contents and whose body leaves the block in place. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

abbrev r15_0 : Rect S12000x128 := Rect.unit (s := S12000x128) ![0, 0] S12000x128.size inb_S12000x128_S12000x128_0_0
abbrev r15_1 : Rect S12000x128 := Rect.unit (s := S12000x128) ![0, 0] S12000x128.size inb_S12000x128_S12000x128_0_0
abbrev r15_2 : Rect S1x128 := Rect.unit (s := S1x128) ![0, 0] S1x128.size inb_S1x128_S1x128_0_0
abbrev r15_3 : Rect S12000x128 := Rect.unit (s := S12000x128) ![0, 0] S12000x128.size inb_S12000x128_S12000x128_0_0

/-- The output window's staging buffer after the body, from the input windows' blocks: its one whole store. -/
def out15 (x0 : Vec F S12000x128 .bf16) (x1 : Vec F S12000x128 .bf16) (x2 : Vec F S1x128 .f32) : Vec F S12000x128 .f32 :=
  View.canon [⟨r15_3, k15_pay1 (View.ld x0 r15_0) (View.ld x1 r15_1) (View.ld x2 r15_2)⟩]

/-- The one store covers the buffer. -/
theorem cover15 (p0 : Vec F S12000x128 .f32) (y : S12000x128.Idx) :
    ∃ pc ∈ ([⟨r15_3, p0⟩] : List (View.Piece (Elt F) S12000x128 .f32)), y ∈ pc.1.set :=
  View.cover_of_tiled [⟨r15_3, p0⟩] S12000x128.size (by rfl) y

set_option maxHeartbeats 1000000 in
/-- The kernel body on whole staging memrefs, the inputs' at contents `xW` and the output's at anything, runs to the
    continuation holding the inputs' as they were and the output's at `out15` of the inputs'. -/
theorem sound_kernel15 (c : Dev nD) (E : Set ℕ) (i : grid15.Coords) (arg1 : Memref sig .tc .vmem S12000x128 .bf16) (harg1 : arg1.IsWhole) (arg2 : Memref sig .tc .vmem S12000x128 .bf16) (harg2 : arg2.IsWhole) (arg3 : Memref sig .tc .vmem S1x128 .f32) (harg3 : arg3.IsWhole) (arg4 : Memref sig .tc .vmem S12000x128 .f32) (harg4 : arg4.IsWhole)
    (x0 : Vec F S12000x128 .bf16) (x1 : Vec F S12000x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out15 x0 x1 x2)) -∗ K ⟨⟩))
      ⊢ wp frame (wpE (defs₀ (F := F)) Variants.none c none) E (cc15_kernel i arg1 harg1 arg2 harg2 arg3 harg3 arg4 harg4) K := by
  simp only [cc15_kernel_eq_skeleton]; unfold cc15_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover15 _)

/-- The proof data of pipeline 15 on core `c`: the arrays as the region finds them; after the body at point `t` each
    input's buffer at its block and the output's at `out15` of the input blocks; the invariant the scoped rest and the
    generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15 (iblk15 V c 0 t) (iblk15 V c 1 t) (iblk15 V c 2 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = out15 (iblk15 V c 0 t) (iblk15 V c 1 t) (iblk15 V c 2 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-- What the body is called with at point `t`, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

/-- The body at any point: the inputs' memrefs hold their blocks, so `sound_kernel15` applies; the invariant and the
    core's dues pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ _ _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation15 (c : Dev nD) : BodyObligation (dat15 (F := F) V c) (defs₀ (F := F)) Variants.none () Set.univ := fun t => by
  rw [bigSep_W15, bigSep_W15]
  exact sound_body15 V c t

end Cert.Kernel.Fr

end
-- ==== Proof.KB.R16.lean ====
import proofs.«173394_j29068338659455_2_alg».proof.Proof.Gen.Kernel.Launch
import proofs.«173394_j29068338659455_2_alg».proof.Proof.Gen.Kernel.Skeleton
import proofs.«173394_j29068338659455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 16 of the program (kernel function `cc16_kernel`), at any contents `V` of the core's buffers on entry.
A grid point loads each input window's block whole, loads and then overwrites the output window's block whole with one
value, a pure function of the input blocks. So after the body the output's staging buffer holds that function of the input
blocks (`out16`), each input's buffer is unchanged, and the pipeline's invariant is untouched: this is the body obligation
of the pipeline at every grid point, for the proof data `dat16`. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's current staging buffer holds its block at every point, fetched there or not, for any proof data
    whose array is the entry contents and whose body leaves the block in place. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- Input window 1's current staging buffer holds its block at every point, fetched there or not, for any proof data
    whose array is the entry contents and whose body leaves the block in place. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- Input window 2's current staging buffer holds its block at every point, fetched there or not, for any proof data
    whose array is the entry contents and whose body leaves the block in place. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-- Input window 3's current staging buffer holds its block at every point, fetched there or not, for any proof data
    whose array is the entry contents and whose body leaves the block in place. -/
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)

abbrev r16_0 : Rect S5000x256 := Rect.unit (s := S5000x256) ![0, 0] S5000x256.size inb_S5000x256_S5000x256_0_0
abbrev r16_1 : Rect S256x128 := Rect.unit (s := S256x128) ![0, 0] S256x128.size inb_S256x128_S256x128_0_0
abbrev r16_2 : Rect S1x128 := Rect.unit (s := S1x128) ![0, 0] S1x128.size inb_S1x128_S1x128_0_0
abbrev r16_3 : Rect S5000x128 := Rect.unit (s := S5000x128) ![0, 0] S5000x128.size inb_S5000x128_S5000x128_0_0
abbrev r16_4 : Rect S5000x128 := Rect.unit (s := S5000x128) ![0, 0] S5000x128.size inb_S5000x128_S5000x128_0_0

/-- The output window's staging buffer after the body, from the input windows' blocks: its one whole store. -/
def out16 (x0 : Vec F S5000x256 .bf16) (x1 : Vec F S256x128 .bf16) (x2 : Vec F S1x128 .f32) (x3 : Vec F S5000x128 .f32) : Vec F S5000x128 .f32 :=
  View.canon [⟨r16_4, k16_pay1 (View.ld x0 r16_0) (View.ld x1 r16_1) (View.ld x2 r16_2) (View.ld x3 r16_3)⟩]

/-- The one store covers the buffer. -/
theorem cover16 (p0 : Vec F S5000x128 .f32) (y : S5000x128.Idx) :
    ∃ pc ∈ ([⟨r16_4, p0⟩] : List (View.Piece (Elt F) S5000x128 .f32)), y ∈ pc.1.set :=
  View.cover_of_tiled [⟨r16_4, p0⟩] S5000x128.size (by rfl) y

set_option maxHeartbeats 1000000 in
/-- The kernel body on whole staging memrefs, the inputs' at contents `xW` and the output's at anything, runs to the
    continuation holding the inputs' as they were and the output's at `out16` of the inputs'. -/
theorem sound_kernel16 (c : Dev nD) (E : Set ℕ) (i : grid16.Coords) (arg1 : Memref sig .tc .vmem S5000x256 .bf16) (harg1 : arg1.IsWhole) (arg2 : Memref sig .tc .vmem S256x128 .bf16) (harg2 : arg2.IsWhole) (arg3 : Memref sig .tc .vmem S1x128 .f32) (harg3 : arg3.IsWhole) (arg4 : Memref sig .tc .vmem S5000x128 .f32) (harg4 : arg4.IsWhole) (arg5 : Memref sig .tc .vmem S5000x128 .f32) (harg5 : arg5.IsWhole)
    (x0 : Vec F S5000x256 .bf16) (x1 : Vec F S256x128 .bf16) (x2 : Vec F S1x128 .f32) (x3 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out16 x0 x1 x2 x3)) -∗ K ⟨⟩))
      ⊢ wp frame (wpE (defs₀ (F := F)) Variants.none c none) E (cc16_kernel i arg1 harg1 arg2 harg2 arg3 harg3 arg4 harg4 arg5 harg5) K := by
  simp only [cc16_kernel_eq_skeleton]; unfold cc16_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover16 _)

/-- The proof data of pipeline 16 on core `c`: the arrays as the region finds them; after the body at point `t` each
    input's buffer at its block and the output's at `out16` of the input blocks; the invariant the scoped rest and the
    generator register, untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => out16 (iblk16 V c 0 t) (iblk16 V c 1 t) (iblk16 V c 2 t) (iblk16 V c 3 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = out16 (iblk16 V c 0 t) (iblk16 V c 1 t) (iblk16 V c 2 t) (iblk16 V c 3 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d

/-- What the body is called with at point `t`, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t))

/-- The body at any point: the inputs' memrefs hold their blocks, so `sound_kernel16` applies; the invariant and the
    core's dues pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3]
  rw [show (dat16 V c).Φ t.succ = (dat16 V c).Φ t.castSucc from rfl,
    show (dat16 V c).owesAt () t.succ = (dat16 V c).owesAt () t.castSucc from rfl,
    after16_0, after16_1, after16_2, after16_3, after16_4]
  iintro ⟨HΦ, Ho, ⟨%d0, H0⟩, ⟨%d1, H1⟩, ⟨%d2, H2⟩, ⟨%d3, H3⟩, ⟨%d4, H4⟩⟩
  iapply (sound_kernel16 c Set.univ _ _ _ _ _ _ _ _ _ _ _ (iblk16 V c 0 t) (iblk16 V c 1 t) (iblk16 V c 2 t) (iblk16 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation16 (c : Dev nD) : BodyObligation (dat16 (F := F) V c) (defs₀ (F := F)) Variants.none () Set.univ := fun t => by
  rw [bigSep_W16, bigSep_W16]
  exact sound_body16 V c t

end Cert.Kernel.Fr

end
-- ==== Proof.KB.Fold.lean ====
import proofs.«173394_j29068338659455_2_alg».proof.Proof.KB.R0
import proofs.«173394_j29068338659455_2_alg».proof.Proof.KB.R1
import proofs.«173394_j29068338659455_2_alg».proof.Proof.KB.R2
import proofs.«173394_j29068338659455_2_alg».proof.Proof.KB.R3
import proofs.«173394_j29068338659455_2_alg».proof.Proof.KB.R4
import proofs.«173394_j29068338659455_2_alg».proof.Proof.KB.R5
import proofs.«173394_j29068338659455_2_alg».proof.Proof.KB.R6
import proofs.«173394_j29068338659455_2_alg».proof.Proof.KB.R7
import proofs.«173394_j29068338659455_2_alg».proof.Proof.KB.R8
import proofs.«173394_j29068338659455_2_alg».proof.Proof.KB.R9
import proofs.«173394_j29068338659455_2_alg».proof.Proof.KB.R10
import proofs.«173394_j29068338659455_2_alg».proof.Proof.KB.R11
import proofs.«173394_j29068338659455_2_alg».proof.Proof.KB.R12
import proofs.«173394_j29068338659455_2_alg».proof.Proof.KB.R13
import proofs.«173394_j29068338659455_2_alg».proof.Proof.KB.R14
import proofs.«173394_j29068338659455_2_alg».proof.Proof.KB.R15
import proofs.«173394_j29068338659455_2_alg».proof.Proof.KB.R16

/-! The contents of the core's buffers at every boundary of the program's 34 segments (a stretch of host operations, then a
pallas region, seventeen times), as a fold from the launch memory: a host stretch applies its operations; a region leaves its
output array at what its grid points' write-backs fold to and every other buffer as entered. Then every pipeline's proof data at
its region's entry contents, and what rides beside the buffers through every segment. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After host stretch 5 (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After host stretch 6 (region 6's entry). -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After host stretch 7 (region 7's entry). -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After host stretch 8 (region 8's entry). -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- At region 8's exit: its arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After host stretch 9 (region 9's entry). -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- At region 9's exit: its arrays at what the pipeline leaves, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After host stretch 10 (region 10's entry). -/
abbrev W21 : Dev nD → Valuation τ sig (Elt F) := fun c => StableHlo.after hostOps10 (W20 m ρ c)
abbrev V21 : (c : Dev nD) → (b : Ref sig .tc) → Buf (Elt F) ((c : Thread nD τ).loc b) := fun c b => W21 m ρ c b
/-- At region 10's exit: its arrays at what the pipeline leaves, every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After host stretch 11 (region 11's entry). -/
abbrev W23 : Dev nD → Valuation τ sig (Elt F) := fun c => StableHlo.after hostOps11 (W22 m ρ c)
abbrev V23 : (c : Dev nD) → (b : Ref sig .tc) → Buf (Elt F) ((c : Thread nD τ).loc b) := fun c b => W23 m ρ c b
/-- At region 11's exit: its arrays at what the pipeline leaves, every other buffer as entered. -/
def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
abbrev V24 : (c : Dev nD) → (b : Ref sig .tc) → Buf (Elt F) ((c : Thread nD τ).loc b) := fun c b => W24 m ρ c b
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)

/-- After host stretch 12 (region 12's entry). -/
abbrev W25 : Dev nD → Valuation τ sig (Elt F) := fun c => StableHlo.after hostOps12 (W24 m ρ c)
abbrev V25 : (c : Dev nD) → (b : Ref sig .tc) → Buf (Elt F) ((c : Thread nD τ).loc b) := fun c b => W25 m ρ c b
/-- At region 12's exit: its arrays at what the pipeline leaves, every other buffer as entered. -/
def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m ρ c (Proc.devRef .tc b) = W25 m ρ c (Proc.devRef .tc b) := by
  unfold W26; exact Pipeline.withArrays_of_ne spec12 c _ _ b hb
abbrev V26 : (c : Dev nD) → (b : Ref sig .tc) → Buf (Elt F) ((c : Thread nD τ).loc b) := fun c b => W26 m ρ c b
theorem hF12 (c : Dev nD) (w : Fin cfg12.W) : (dat12 (V25 m ρ) c).arrAt w cfg12.N = V26 m ρ c (Pipeline.arrRef spec12 w) :=
  (W26_arr m ρ c w).symm
theorem hrest12 (c : Dev nD) : ∀ b, b ∉ Finset.univ.image (Pipeline.arrRef spec12) → V26 m ρ c b = V25 m ρ c b :=
  fun b hb => W26_of_ne m ρ c b fun w e => hb (Finset.mem_image.mpr ⟨w, Finset.mem_univ _, e⟩)

/-- After host stretch 13 (region 13's entry). -/
abbrev W27 : Dev nD → Valuation τ sig (Elt F) := fun c => StableHlo.after hostOps13 (W26 m ρ c)
abbrev V27 : (c : Dev nD) → (b : Ref sig .tc) → Buf (Elt F) ((c : Thread nD τ).loc b) := fun c b => W27 m ρ c b
/-- At region 13's exit: its arrays at what the pipeline leaves, every other buffer as entered. -/
def W28 (c : Dev nD) : Valuation τ sig (Elt F) :=
  Pipeline.withArrays spec13 c (W27 m ρ c) fun w => (dat13 (V27 m ρ) c).arrAt w cfg13.N
theorem W28_arr (c : Dev nD) (w : Fin cfg13.W) :
    W28 m ρ c (Proc.devRef .tc (Pipeline.arrRef spec13 w)) = (dat13 (V27 m ρ) c).arrAt w cfg13.N := by
  unfold W28; exact Pipeline.withArrays_arr spec13 launch13.win.arr_inj c _ _ w
theorem W28_of_ne (c : Dev nD) (b : Ref sig .tc) (hb : ∀ w, Pipeline.arrRef spec13 w ≠ b) :
    W28 m ρ c (Proc.devRef .tc b) = W27 m ρ c (Proc.devRef .tc b) := by
  unfold W28; exact Pipeline.withArrays_of_ne spec13 c _ _ b hb
abbrev V28 : (c : Dev nD) → (b : Ref sig .tc) → Buf (Elt F) ((c : Thread nD τ).loc b) := fun c b => W28 m ρ c b
theorem hF13 (c : Dev nD) (w : Fin cfg13.W) : (dat13 (V27 m ρ) c).arrAt w cfg13.N = V28 m ρ c (Pipeline.arrRef spec13 w) :=
  (W28_arr m ρ c w).symm
theorem hrest13 (c : Dev nD) : ∀ b, b ∉ Finset.univ.image (Pipeline.arrRef spec13) → V28 m ρ c b = V27 m ρ c b :=
  fun b hb => W28_of_ne m ρ c b fun w e => hb (Finset.mem_image.mpr ⟨w, Finset.mem_univ _, e⟩)

/-- After host stretch 14 (region 14's entry). -/
abbrev W29 : Dev nD → Valuation τ sig (Elt F) := fun c => StableHlo.after hostOps14 (W28 m ρ c)
abbrev V29 : (c : Dev nD) → (b : Ref sig .tc) → Buf (Elt F) ((c : Thread nD τ).loc b) := fun c b => W29 m ρ c b
/-- At region 14's exit: its arrays at what the pipeline leaves, every other buffer as entered. -/
def W30 (c : Dev nD) : Valuation τ sig (Elt F) :=
  Pipeline.withArrays spec14 c (W29 m ρ c) fun w => (dat14 (V29 m ρ) c).arrAt w cfg14.N
theorem W30_arr (c : Dev nD) (w : Fin cfg14.W) :
    W30 m ρ c (Proc.devRef .tc (Pipeline.arrRef spec14 w)) = (dat14 (V29 m ρ) c).arrAt w cfg14.N := by
  unfold W30; exact Pipeline.withArrays_arr spec14 launch14.win.arr_inj c _ _ w
theorem W30_of_ne (c : Dev nD) (b : Ref sig .tc) (hb : ∀ w, Pipeline.arrRef spec14 w ≠ b) :
    W30 m ρ c (Proc.devRef .tc b) = W29 m ρ c (Proc.devRef .tc b) := by
  unfold W30; exact Pipeline.withArrays_of_ne spec14 c _ _ b hb
abbrev V30 : (c : Dev nD) → (b : Ref sig .tc) → Buf (Elt F) ((c : Thread nD τ).loc b) := fun c b => W30 m ρ c b
theorem hF14 (c : Dev nD) (w : Fin cfg14.W) : (dat14 (V29 m ρ) c).arrAt w cfg14.N = V30 m ρ c (Pipeline.arrRef spec14 w) :=
  (W30_arr m ρ c w).symm
theorem hrest14 (c : Dev nD) : ∀ b, b ∉ Finset.univ.image (Pipeline.arrRef spec14) → V30 m ρ c b = V29 m ρ c b :=
  fun b hb => W30_of_ne m ρ c b fun w e => hb (Finset.mem_image.mpr ⟨w, Finset.mem_univ _, e⟩)

/-- After host stretch 15 (region 15's entry). -/
abbrev W31 : Dev nD → Valuation τ sig (Elt F) := fun c => StableHlo.after hostOps15 (W30 m ρ c)
abbrev V31 : (c : Dev nD) → (b : Ref sig .tc) → Buf (Elt F) ((c : Thread nD τ).loc b) := fun c b => W31 m ρ c b
/-- At region 15's exit: its arrays at what the pipeline leaves, every other buffer as entered. -/
def W32 (c : Dev nD) : Valuation τ sig (Elt F) :=
  Pipeline.withArrays spec15 c (W31 m ρ c) fun w => (dat15 (V31 m ρ) c).arrAt w cfg15.N
theorem W32_arr (c : Dev nD) (w : Fin cfg15.W) :
    W32 m ρ c (Proc.devRef .tc (Pipeline.arrRef spec15 w)) = (dat15 (V31 m ρ) c).arrAt w cfg15.N := by
  unfold W32; exact Pipeline.withArrays_arr spec15 launch15.win.arr_inj c _ _ w
theorem W32_of_ne (c : Dev nD) (b : Ref sig .tc) (hb : ∀ w, Pipeline.arrRef spec15 w ≠ b) :
    W32 m ρ c (Proc.devRef .tc b) = W31 m ρ c (Proc.devRef .tc b) := by
  unfold W32; exact Pipeline.withArrays_of_ne spec15 c _ _ b hb
abbrev V32 : (c : Dev nD) → (b : Ref sig .tc) → Buf (Elt F) ((c : Thread nD τ).loc b) := fun c b => W32 m ρ c b
theorem hF15 (c : Dev nD) (w : Fin cfg15.W) : (dat15 (V31 m ρ) c).arrAt w cfg15.N = V32 m ρ c (Pipeline.arrRef spec15 w) :=
  (W32_arr m ρ c w).symm
theorem hrest15 (c : Dev nD) : ∀ b, b ∉ Finset.univ.image (Pipeline.arrRef spec15) → V32 m ρ c b = V31 m ρ c b :=
  fun b hb => W32_of_ne m ρ c b fun w e => hb (Finset.mem_image.mpr ⟨w, Finset.mem_univ _, e⟩)

/-- After host stretch 16 (region 16's entry). -/
abbrev W33 : Dev nD → Valuation τ sig (Elt F) := fun c => StableHlo.after hostOps16 (W32 m ρ c)
abbrev V33 : (c : Dev nD) → (b : Ref sig .tc) → Buf (Elt F) ((c : Thread nD τ).loc b) := fun c b => W33 m ρ c b
/-- At region 16's exit: its arrays at what the pipeline leaves, every other buffer as entered. -/
def W34 (c : Dev nD) : Valuation τ sig (Elt F) :=
  Pipeline.withArrays spec16 c (W33 m ρ c) fun w => (dat16 (V33 m ρ) c).arrAt w cfg16.N
theorem W34_arr (c : Dev nD) (w : Fin cfg16.W) :
    W34 m ρ c (Proc.devRef .tc (Pipeline.arrRef spec16 w)) = (dat16 (V33 m ρ) c).arrAt w cfg16.N := by
  unfold W34; exact Pipeline.withArrays_arr spec16 launch16.win.arr_inj c _ _ w
theorem W34_of_ne (c : Dev nD) (b : Ref sig .tc) (hb : ∀ w, Pipeline.arrRef spec16 w ≠ b) :
    W34 m ρ c (Proc.devRef .tc b) = W33 m ρ c (Proc.devRef .tc b) := by
  unfold W34; exact Pipeline.withArrays_of_ne spec16 c _ _ b hb
abbrev V34 : (c : Dev nD) → (b : Ref sig .tc) → Buf (Elt F) ((c : Thread nD τ).loc b) := fun c b => W34 m ρ c b
theorem hF16 (c : Dev nD) (w : Fin cfg16.W) : (dat16 (V33 m ρ) c).arrAt w cfg16.N = V34 m ρ c (Pipeline.arrRef spec16 w) :=
  (W34_arr m ρ c w).symm
theorem hrest16 (c : Dev nD) : ∀ b, b ∉ Finset.univ.image (Pipeline.arrRef spec16) → V34 m ρ c b = V33 m ρ c b :=
  fun b hb => W34_of_ne m ρ c b fun w e => hb (Finset.mem_image.mpr ⟨w, Finset.mem_univ _, e⟩)

/-- No pipeline has a prefetched table. -/
abbrev adm : (p : Fin 17) → (pcfgs (F := F) p).Adm := fun p => (cfgs p).toPCfg_adm
/-- Every pipeline's proof data, each at its region's entry contents. -/
def pdats : (p : Fin 17) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
  | ⟨13, _⟩ => fun c => dat13 (V27 m ρ) c
  | ⟨14, _⟩ => fun c => dat14 (V29 m ρ) c
  | ⟨15, _⟩ => fun c => dat15 (V31 m ρ) c
  | ⟨16, _⟩ => fun c => dat16 (V33 m ρ) c
  | ⟨_ + 17, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W34 m ρ c) ∗ ∃ r, prngReg c r)

/-! ## What the host stretches write: no stretch allocates, and each writes only its own results -/
theorem hostOps0_fresh : (hostOps0 : List (HloOp τ sig (Elt F))).Forall fun op => op.fresh = ∅ := by
  simp only [List.Forall]; repeat' constructor
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after0_of (W : Valuation τ sig (Elt F)) (r : Ref sig .tc) (h : r ∉ hostOps0_W) : StableHlo.after hostOps0 W (Proc.devRef .tc r) = W (Proc.devRef .tc r) :=
  StableHlo.after_of_writes_sub hostOps0 _ hostOps0_writes h
theorem hostOps1_fresh : (hostOps1 : List (HloOp τ sig (Elt F))).Forall fun op => op.fresh = ∅ := by
  simp only [List.Forall]; repeat' constructor
abbrev hostOps1_W : List (Ref sig .tc) := [main_v5, main_v6, main_v7, main_v8, main_cst, main_v9, main_v10, main_v11, main_v12, main_v13, main_v14, main_v15, main_v16, main_v17, main_cst_0, main_v18, main_v19, main_v20, main_v21]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after1_of (W : Valuation τ sig (Elt F)) (r : Ref sig .tc) (h : r ∉ hostOps1_W) : StableHlo.after hostOps1 W (Proc.devRef .tc r) = W (Proc.devRef .tc r) :=
  StableHlo.after_of_writes_sub hostOps1 _ hostOps1_writes h
theorem hostOps2_fresh : (hostOps2 : List (HloOp τ sig (Elt F))).Forall fun op => op.fresh = ∅ := by
  simp only [List.Forall]; repeat' constructor
abbrev hostOps2_W : List (Ref sig .tc) := [main_v23, main_v24, main_c, main_v25, main_v26, main_c_1, main_v27, main_v28, main_v29, main_v30, main_v31, main_c_2, main_v32, main_v33, main_c_3, main_v34, main_v35, main_v36, main_v37, main_v38, main_v39, main_v40, main_v41]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after2_of (W : Valuation τ sig (Elt F)) (r : Ref sig .tc) (h : r ∉ hostOps2_W) : StableHlo.after hostOps2 W (Proc.devRef .tc r) = W (Proc.devRef .tc r) :=
  StableHlo.after_of_writes_sub hostOps2 _ hostOps2_writes h
theorem hostOps3_fresh : (hostOps3 : List (HloOp τ sig (Elt F))).Forall fun op => op.fresh = ∅ := by
  simp only [List.Forall]; repeat' constructor
abbrev hostOps3_W : List (Ref sig .tc) := [main_cst_4, main_v43, main_v44, main_v45, main_v46, main_cst_5, main_v47, main_cst_6, main_v48, main_v49, main_v50, main_cst_7, main_v51, main_v52, main_v53, main_v54, main_cst_8, main_v55, main_v56, main_v57, main_v58, main_cst_9, main_v59, main_cst_10, main_v60, main_v61, main_v62, main_cst_11, main_v63, main_v64, main_v65, main_v66, main_c_12, main_v67, main_v68, main_c_13, main_v69, main_v70, main_v71, main_v72, main_v73, main_v74, main_v75, main_v76, main_v77, main_v78, main_v79, main_v80, main_v81, main_v82, main_v83]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after3_of (W : Valuation τ sig (Elt F)) (r : Ref sig .tc) (h : r ∉ hostOps3_W) : StableHlo.after hostOps3 W (Proc.devRef .tc r) = W (Proc.devRef .tc r) :=
  StableHlo.after_of_writes_sub hostOps3 _ hostOps3_writes h
theorem hostOps4_fresh : (hostOps4 : List (HloOp τ sig (Elt F))).Forall fun op => op.fresh = ∅ := by
  simp only [List.Forall]; repeat' constructor
abbrev hostOps4_W : List (Ref sig .tc) := [main_v85, main_v86, main_v87, main_v88, main_v89, main_v90, main_v91, main_cst_14, main_v92, main_v93, main_v94, main_v95]
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after4_of (W : Valuation τ sig (Elt F)) (r : Ref sig .tc) (h : r ∉ hostOps4_W) : StableHlo.after hostOps4 W (Proc.devRef .tc r) = W (Proc.devRef .tc r) :=
  StableHlo.after_of_writes_sub hostOps4 _ hostOps4_writes h
theorem hostOps5_fresh : (hostOps5 : List (HloOp τ sig (Elt F))).Forall fun op => op.fresh = ∅ := by
  simp only [List.Forall]; repeat' constructor
abbrev hostOps5_W : List (Ref sig .tc) := [main_v97, main_v98, main_c_15, main_v99, main_v100, main_c_16, main_v101, main_v102, main_v103, main_v104, main_v105, main_c_17, main_v106, main_v107, main_c_18, main_v108, main_v109, main_v110, main_v111, main_v112, main_v113, main_v114, main_v115]
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after5_of (W : Valuation τ sig (Elt F)) (r : Ref sig .tc) (h : r ∉ hostOps5_W) : StableHlo.after hostOps5 W (Proc.devRef .tc r) = W (Proc.devRef .tc r) :=
  StableHlo.after_of_writes_sub hostOps5 _ hostOps5_writes h
theorem hostOps6_fresh : (hostOps6 : List (HloOp τ sig (Elt F))).Forall fun op => op.fresh = ∅ := by
  simp only [List.Forall]; repeat' constructor
abbrev hostOps6_W : List (Ref sig .tc) := [main_cst_19, main_v117, main_v118, main_v119, main_v120, main_cst_20, main_v121, main_cst_21, main_v122, main_v123, main_v124, main_cst_22, main_v125, main_v126, main_v127, main_v128, main_cst_23, main_v129, main_v130, main_v131, main_v132, main_cst_24, main_v133, main_cst_25, main_v134, main_v135, main_v136, main_cst_26, main_v137, main_v138, main_v139, main_v140, main_c_27, main_v141, main_v142, main_c_28, main_v143, main_v144, main_v145, main_v146, main_v147, main_v148, main_v149, main_v150, main_v151, main_v152, main_v153, main_v154, main_v155, main_v156, main_v157]
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after6_of (W : Valuation τ sig (Elt F)) (r : Ref sig .tc) (h : r ∉ hostOps6_W) : StableHlo.after hostOps6 W (Proc.devRef .tc r) = W (Proc.devRef .tc r) :=
  StableHlo.after_of_writes_sub hostOps6 _ hostOps6_writes h
theorem hostOps7_fresh : (hostOps7 : List (HloOp τ sig (Elt F))).Forall fun op => op.fresh = ∅ := by
  simp only [List.Forall]; repeat' constructor
abbrev hostOps7_W : List (Ref sig .tc) := [main_v159, main_v160, main_v161, main_v162, main_v163, main_v164, main_v165, main_cst_29, main_v166, main_v167, main_v168, main_v169]
theorem hostOps7_writes : (hostOps7 : List (HloOp τ sig (Elt F))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after7_of (W : Valuation τ sig (Elt F)) (r : Ref sig .tc) (h : r ∉ hostOps7_W) : StableHlo.after hostOps7 W (Proc.devRef .tc r) = W (Proc.devRef .tc r) :=
  StableHlo.after_of_writes_sub hostOps7 _ hostOps7_writes h
theorem hostOps8_fresh : (hostOps8 : List (HloOp τ sig (Elt F))).Forall fun op => op.fresh = ∅ := by
  simp only [List.Forall]; repeat' constructor
abbrev hostOps8_W : List (Ref sig .tc) := [main_v171, main_v172, main_c_30, main_v173, main_v174, main_c_31, main_v175, main_v176, main_v177, main_v178, main_v179, main_c_32, main_v180, main_v181, main_c_33, main_v182, main_v183, main_v184, main_v185, main_v186, main_v187, main_v188, main_v189]
theorem hostOps8_writes : (hostOps8 : List (HloOp τ sig (Elt F))).Forall fun op => op.writes ⊆ (hostOps8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after8_of (W : Valuation τ sig (Elt F)) (r : Ref sig .tc) (h : r ∉ hostOps8_W) : StableHlo.after hostOps8 W (Proc.devRef .tc r) = W (Proc.devRef .tc r) :=
  StableHlo.after_of_writes_sub hostOps8 _ hostOps8_writes h
theorem hostOps9_fresh : (hostOps9 : List (HloOp τ sig (Elt F))).Forall fun op => op.fresh = ∅ := by
  simp only [List.Forall]; repeat' constructor
abbrev hostOps9_W : List (Ref sig .tc) := [main_cst_34, main_v191, main_v192, main_v193, main_v194, main_cst_35, main_v195, main_cst_36, main_v196, main_v197, main_v198, main_cst_37, main_v199, main_v200, main_v201, main_v202, main_cst_38, main_v203, main_v204, main_v205, main_v206, main_cst_39, main_v207, main_cst_40, main_v208, main_v209, main_v210, main_cst_41, main_v211, main_v212, main_v213, main_v214, main_c_42, main_v215, main_v216, main_c_43, main_v217, main_v218, main_v219, main_v220, main_v221, main_v222, main_v223, main_v224, main_v225, main_v226, main_v227, main_v228, main_v229, main_v230, main_v231]
theorem hostOps9_writes : (hostOps9 : List (HloOp τ sig (Elt F))).Forall fun op => op.writes ⊆ (hostOps9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after9_of (W : Valuation τ sig (Elt F)) (r : Ref sig .tc) (h : r ∉ hostOps9_W) : StableHlo.after hostOps9 W (Proc.devRef .tc r) = W (Proc.devRef .tc r) :=
  StableHlo.after_of_writes_sub hostOps9 _ hostOps9_writes h
theorem hostOps10_fresh : (hostOps10 : List (HloOp τ sig (Elt F))).Forall fun op => op.fresh = ∅ := by
  simp only [List.Forall]; repeat' constructor
abbrev hostOps10_W : List (Ref sig .tc) := [main_v233, main_v234, main_v235, main_v236]
theorem hostOps10_writes : (hostOps10 : List (HloOp τ sig (Elt F))).Forall fun op => op.writes ⊆ (hostOps10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after10_of (W : Valuation τ sig (Elt F)) (r : Ref sig .tc) (h : r ∉ hostOps10_W) : StableHlo.after hostOps10 W (Proc.devRef .tc r) = W (Proc.devRef .tc r) :=
  StableHlo.after_of_writes_sub hostOps10 _ hostOps10_writes h
theorem hostOps11_fresh : (hostOps11 : List (HloOp τ sig (Elt F))).Forall fun op => op.fresh = ∅ := by
  simp only [List.Forall]; repeat' constructor
abbrev hostOps11_W : List (Ref sig .tc) := [main_v238, main_v239, main_cst_44, main_v240, main_v241, main_v242, main_v243]
theorem hostOps11_writes : (hostOps11 : List (HloOp τ sig (Elt F))).Forall fun op => op.writes ⊆ (hostOps11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after11_of (W : Valuation τ sig (Elt F)) (r : Ref sig .tc) (h : r ∉ hostOps11_W) : StableHlo.after hostOps11 W (Proc.devRef .tc r) = W (Proc.devRef .tc r) :=
  StableHlo.after_of_writes_sub hostOps11 _ hostOps11_writes h
theorem hostOps12_fresh : (hostOps12 : List (HloOp τ sig (Elt F))).Forall fun op => op.fresh = ∅ := by
  simp only [List.Forall]; repeat' constructor
abbrev hostOps12_W : List (Ref sig .tc) := [main_cst_45, main_v245, main_v246, main_v247, main_v248]
theorem hostOps12_writes : (hostOps12 : List (HloOp τ sig (Elt F))).Forall fun op => op.writes ⊆ (hostOps12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after12_of (W : Valuation τ sig (Elt F)) (r : Ref sig .tc) (h : r ∉ hostOps12_W) : StableHlo.after hostOps12 W (Proc.devRef .tc r) = W (Proc.devRef .tc r) :=
  StableHlo.after_of_writes_sub hostOps12 _ hostOps12_writes h
theorem hostOps13_fresh : (hostOps13 : List (HloOp τ sig (Elt F))).Forall fun op => op.fresh = ∅ := by
  simp only [List.Forall]; repeat' constructor
abbrev hostOps13_W : List (Ref sig .tc) := [main_c_46, main_v250, main_v251, main_c_47, main_v252, main_v253, main_v254, main_v255, main_v256, main_c_48, main_v257, main_v258, main_c_49, main_v259, main_v260, main_v261, main_v262, main_v263, main_v264, main_v265, main_v266]
theorem hostOps13_writes : (hostOps13 : List (HloOp τ sig (Elt F))).Forall fun op => op.writes ⊆ (hostOps13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after13_of (W : Valuation τ sig (Elt F)) (r : Ref sig .tc) (h : r ∉ hostOps13_W) : StableHlo.after hostOps13 W (Proc.devRef .tc r) = W (Proc.devRef .tc r) :=
  StableHlo.after_of_writes_sub hostOps13 _ hostOps13_writes h
theorem hostOps14_fresh : (hostOps14 : List (HloOp τ sig (Elt F))).Forall fun op => op.fresh = ∅ := by
  simp only [List.Forall]; repeat' constructor
abbrev hostOps14_W : List (Ref sig .tc) := [main_cst_50, main_v268, main_cst_51, main_v269, main_v270, main_v271, main_v272, main_v273, main_v274, main_cst_52, main_v275, main_v276, main_v277, main_v278, main_v279, main_c_53, main_v280, main_v281, main_c_54, main_v282, main_v283, main_v284, main_v285, main_v286, main_v287, main_v288, main_v289, main_cst_55, main_v290, main_c_56, main_v291, main_v292, main_c_57, main_v293, main_v294, main_v295, main_v296, main_v297, main_v298, main_v299, main_v300, main_v301, main_v302, main_v303, main_v304, main_v305, main_v306, main_v307, main_v308, main_v309, main_v310, main_v311, main_cst_58, main_v312, main_v313, main_v314, main_v315]
theorem hostOps14_writes : (hostOps14 : List (HloOp τ sig (Elt F))).Forall fun op => op.writes ⊆ (hostOps14_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after14_of (W : Valuation τ sig (Elt F)) (r : Ref sig .tc) (h : r ∉ hostOps14_W) : StableHlo.after hostOps14 W (Proc.devRef .tc r) = W (Proc.devRef .tc r) :=
  StableHlo.after_of_writes_sub hostOps14 _ hostOps14_writes h
theorem hostOps15_fresh : (hostOps15 : List (HloOp τ sig (Elt F))).Forall fun op => op.fresh = ∅ := by
  simp only [List.Forall]; repeat' constructor
abbrev hostOps15_W : List (Ref sig .tc) := [main_v317, main_v318, main_c_59, main_v319, main_v320, main_c_60, main_v321, main_v322, main_v323, main_v324, main_v325, main_c_61, main_v326, main_v327, main_c_62, main_v328, main_v329, main_v330, main_v331, main_v332, main_v333]
theorem hostOps15_writes : (hostOps15 : List (HloOp τ sig (Elt F))).Forall fun op => op.writes ⊆ (hostOps15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after15_of (W : Valuation τ sig (Elt F)) (r : Ref sig .tc) (h : r ∉ hostOps15_W) : StableHlo.after hostOps15 W (Proc.devRef .tc r) = W (Proc.devRef .tc r) :=
  StableHlo.after_of_writes_sub hostOps15 _ hostOps15_writes h
theorem hostOps16_fresh : (hostOps16 : List (HloOp τ sig (Elt F))).Forall fun op => op.fresh = ∅ := by
  simp only [List.Forall]; repeat' constructor
abbrev hostOps16_W : List (Ref sig .tc) := [main_cst_63, main_v335, main_v336, main_v337, main_v338, main_cst_64, main_v339, main_cst_65, main_v340, main_v341, main_v342, main_cst_66, main_v343, main_v344, main_v345, main_v346, main_v347, main_v348, main_v349, main_v350]
theorem hostOps16_writes : (hostOps16 : List (HloOp τ sig (Elt F))).Forall fun op => op.writes ⊆ (hostOps16_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after16_of (W : Valuation τ sig (Elt F)) (r : Ref sig .tc) (h : r ∉ hostOps16_W) : StableHlo.after hostOps16 W (Proc.devRef .tc r) = W (Proc.devRef .tc r) :=
  StableHlo.after_of_writes_sub hostOps16 _ hostOps16_writes h

end Cert.Kernel.Fr

end
-- ==== Proof.KB.Reg0.lean ====
import proofs.«173394_j29068338659455_2_alg».proof.Proof.KB.Fold

/-! Pallas region 0 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg1.lean ====
import proofs.«173394_j29068338659455_2_alg».proof.Proof.KB.Fold

/-! Pallas region 1 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg2.lean ====
import proofs.«173394_j29068338659455_2_alg».proof.Proof.KB.Fold

/-! Pallas region 2 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg3.lean ====
import proofs.«173394_j29068338659455_2_alg».proof.Proof.KB.Fold

/-! Pallas region 3 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg4.lean ====
import proofs.«173394_j29068338659455_2_alg».proof.Proof.KB.Fold

/-! Pallas region 4 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg5.lean ====
import proofs.«173394_j29068338659455_2_alg».proof.Proof.KB.Fold

/-! Pallas region 5 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg6.lean ====
import proofs.«173394_j29068338659455_2_alg».proof.Proof.KB.Fold

/-! Pallas region 6 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg7.lean ====
import proofs.«173394_j29068338659455_2_alg».proof.Proof.KB.Fold

/-! Pallas region 7 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg8.lean ====
import proofs.«173394_j29068338659455_2_alg».proof.Proof.KB.Fold

/-! Pallas region 8 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg9.lean ====
import proofs.«173394_j29068338659455_2_alg».proof.Proof.KB.Fold

/-! Pallas region 9 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg10.lean ====
import proofs.«173394_j29068338659455_2_alg».proof.Proof.KB.Fold

/-! Pallas region 10 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg11.lean ====
import proofs.«173394_j29068338659455_2_alg».proof.Proof.KB.Fold

/-! Pallas region 11 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg12.lean ====
import proofs.«173394_j29068338659455_2_alg».proof.Proof.KB.Fold

/-! Pallas region 12 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m ρ) c).loose
  hwaits := Pipeline.hwaits_of_owed_zero _ _ _ _ L lv 12 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec12 c (V25 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V25 m ρ c) (V26 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg13.lean ====
import proofs.«173394_j29068338659455_2_alg».proof.Proof.KB.Fold

/-! Pallas region 13 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V27 m ρ) c).loose
  hwaits := Pipeline.hwaits_of_owed_zero _ _ _ _ L lv 13 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec13 c (V27 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V27 m ρ c) (V28 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg14.lean ====
import proofs.«173394_j29068338659455_2_alg».proof.Proof.KB.Fold

/-! Pallas region 14 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V29 m ρ) c).loose
  hwaits := Pipeline.hwaits_of_owed_zero _ _ _ _ L lv 14 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec14 c (V29 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V29 m ρ c) (V30 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg15.lean ====
import proofs.«173394_j29068338659455_2_alg».proof.Proof.KB.Fold

/-! Pallas region 15 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V31 m ρ) c).loose
  hwaits := Pipeline.hwaits_of_owed_zero _ _ _ _ L lv 15 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec15 c (V31 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V31 m ρ c) (V32 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg16.lean ====
import proofs.«173394_j29068338659455_2_alg».proof.Proof.KB.Fold

/-! Pallas region 16 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V33 m ρ) c).loose
  hwaits := Pipeline.hwaits_of_owed_zero _ _ _ _ L lv 16 fun _ _ => rfl
  pre c := iprop(StableHlo.held (c : Thread nD τ) (Pipeline.ucRefs τ sig) (W33 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec16 c (V33 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V33 m ρ c) (V34 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Fr

end
-- ==== Proof.KB.Main.lean ====
import proofs.«173394_j29068338659455_2_alg».proof.Proof.KB.Reg0
import proofs.«173394_j29068338659455_2_alg».proof.Proof.KB.Reg1
import proofs.«173394_j29068338659455_2_alg».proof.Proof.KB.Reg2
import proofs.«173394_j29068338659455_2_alg».proof.Proof.KB.Reg3
import proofs.«173394_j29068338659455_2_alg».proof.Proof.KB.Reg4
import proofs.«173394_j29068338659455_2_alg».proof.Proof.KB.Reg5
import proofs.«173394_j29068338659455_2_alg».proof.Proof.KB.Reg6
import proofs.«173394_j29068338659455_2_alg».proof.Proof.KB.Reg7
import proofs.«173394_j29068338659455_2_alg».proof.Proof.KB.Reg8
import proofs.«173394_j29068338659455_2_alg».proof.Proof.KB.Reg9
import proofs.«173394_j29068338659455_2_alg».proof.Proof.KB.Reg10
import proofs.«173394_j29068338659455_2_alg».proof.Proof.KB.Reg11
import proofs.«173394_j29068338659455_2_alg».proof.Proof.KB.Reg12
import proofs.«173394_j29068338659455_2_alg».proof.Proof.KB.Reg13
import proofs.«173394_j29068338659455_2_alg».proof.Proof.KB.Reg14
import proofs.«173394_j29068338659455_2_alg».proof.Proof.KB.Reg15
import proofs.«173394_j29068338659455_2_alg».proof.Proof.KB.Reg16

/-! The whole run: the program is the run of its 34 segments, so from any memory with zero counters every weakly fair execution
terminates, nothing faulting, and every final memory holds each unscoped buffer at the last boundary's contents. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxRecDepth 65536

/-- The program's 34 segments in order. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)),
    .region (reg12 m ρ),
    .host (hseg hostOps13 hostOps13_sub hostOps13_fresh (W26 m ρ)),
    .region (reg13 m ρ),
    .host (hseg hostOps14 hostOps14_sub hostOps14_fresh (W28 m ρ)),
    .region (reg14 m ρ),
    .host (hseg hostOps15 hostOps15_sub hostOps15_fresh (W30 m ρ)),
    .region (reg15 m ρ),
    .host (hseg hostOps16 hostOps16_sub hostOps16_fresh (W32 m ρ)),
    .region (reg16 m ρ) ]

/-- The program is the run of the segments. -/
theorem main_run (c : Dev nD) : main (F := F) c = Pipeline.Seg.run (segs m ρ) := by
  first
    | exact (main_chain c).trans (by chain_rfl)
    | (rw [main_chain c, Pipeline.Seg.run_eq_chain]; rfl)

set_option backward.isDefEq.respectTransparency.types false in
/-- Every weakly fair execution terminates without a fault, and in every final memory each unscoped buffer of every core holds
    the last boundary's contents. -/
theorem run_all : θ_run defs (onTc (τ := τ) (main (F := F))) ⟨m, fun _ => 0, ρ⟩ (fun r => ∀ (c : Dev nD) (b : DevRef τ sig),
      b ∈ Pipeline.ucRefs τ sig → r.2.mem (((c : Thread nD τ)).1, b) = W34 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h c b hb => h c b hb)

end Cert.Kernel.Fr

end
-- ==== Proof.KB.Kept.lean ====
import proofs.«173394_j29068338659455_2_alg».proof.Proof.KB.Fold

/-! No host stretch and no region writes an argument array, so the fold of the boundaries' contents, read at an argument, walks back
to the launch memory. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W34_main_arg0 (c : Dev nD) : W34 m ρ c (Proc.devRef .tc main_arg0) = m ((c : Thread nD τ).loc main_arg0) :=
  (W34_of_ne m ρ c main_arg0 (by decide)).trans <| (after16_of _ main_arg0 (by decide)).trans <| (W32_of_ne m ρ c main_arg0 (by decide)).trans <| (after15_of _ main_arg0 (by decide)).trans <| (W30_of_ne m ρ c main_arg0 (by decide)).trans <| (after14_of _ main_arg0 (by decide)).trans <| (W28_of_ne m ρ c main_arg0 (by decide)).trans <| (after13_of _ main_arg0 (by decide)).trans <| (W26_of_ne m ρ c main_arg0 (by decide)).trans <| (after12_of _ main_arg0 (by decide)).trans <| (W24_of_ne m ρ c main_arg0 (by decide)).trans <| (after11_of _ main_arg0 (by decide)).trans <| (W22_of_ne m ρ c main_arg0 (by decide)).trans <| (after10_of _ main_arg0 (by decide)).trans <| (W20_of_ne m ρ c main_arg0 (by decide)).trans <| (after9_of _ main_arg0 (by decide)).trans <| (W18_of_ne m ρ c main_arg0 (by decide)).trans <| (after8_of _ main_arg0 (by decide)).trans <| (W16_of_ne m ρ c main_arg0 (by decide)).trans <| (after7_of _ main_arg0 (by decide)).trans <| (W14_of_ne m ρ c main_arg0 (by decide)).trans <| (after6_of _ main_arg0 (by decide)).trans <| (W12_of_ne m ρ c main_arg0 (by decide)).trans <| (after5_of _ main_arg0 (by decide)).trans <| (W10_of_ne m ρ c main_arg0 (by decide)).trans <| (after4_of _ main_arg0 (by decide)).trans <| (W8_of_ne m ρ c main_arg0 (by decide)).trans <| (after3_of _ main_arg0 (by decide)).trans <| (W6_of_ne m ρ c main_arg0 (by decide)).trans <| (after2_of _ main_arg0 (by decide)).trans <| (W4_of_ne m ρ c main_arg0 (by decide)).trans <| (after1_of _ main_arg0 (by decide)).trans <| (W2_of_ne m ρ c main_arg0 (by decide)).trans <| (after0_of _ main_arg0 (by decide)).trans <| rfl
theorem W34_main_arg1 (c : Dev nD) : W34 m ρ c (Proc.devRef .tc main_arg1) = m ((c : Thread nD τ).loc main_arg1) :=
  (W34_of_ne m ρ c main_arg1 (by decide)).trans <| (after16_of _ main_arg1 (by decide)).trans <| (W32_of_ne m ρ c main_arg1 (by decide)).trans <| (after15_of _ main_arg1 (by decide)).trans <| (W30_of_ne m ρ c main_arg1 (by decide)).trans <| (after14_of _ main_arg1 (by decide)).trans <| (W28_of_ne m ρ c main_arg1 (by decide)).trans <| (after13_of _ main_arg1 (by decide)).trans <| (W26_of_ne m ρ c main_arg1 (by decide)).trans <| (after12_of _ main_arg1 (by decide)).trans <| (W24_of_ne m ρ c main_arg1 (by decide)).trans <| (after11_of _ main_arg1 (by decide)).trans <| (W22_of_ne m ρ c main_arg1 (by decide)).trans <| (after10_of _ main_arg1 (by decide)).trans <| (W20_of_ne m ρ c main_arg1 (by decide)).trans <| (after9_of _ main_arg1 (by decide)).trans <| (W18_of_ne m ρ c main_arg1 (by decide)).trans <| (after8_of _ main_arg1 (by decide)).trans <| (W16_of_ne m ρ c main_arg1 (by decide)).trans <| (after7_of _ main_arg1 (by decide)).trans <| (W14_of_ne m ρ c main_arg1 (by decide)).trans <| (after6_of _ main_arg1 (by decide)).trans <| (W12_of_ne m ρ c main_arg1 (by decide)).trans <| (after5_of _ main_arg1 (by decide)).trans <| (W10_of_ne m ρ c main_arg1 (by decide)).trans <| (after4_of _ main_arg1 (by decide)).trans <| (W8_of_ne m ρ c main_arg1 (by decide)).trans <| (after3_of _ main_arg1 (by decide)).trans <| (W6_of_ne m ρ c main_arg1 (by decide)).trans <| (after2_of _ main_arg1 (by decide)).trans <| (W4_of_ne m ρ c main_arg1 (by decide)).trans <| (after1_of _ main_arg1 (by decide)).trans <| (W2_of_ne m ρ c main_arg1 (by decide)).trans <| (after0_of _ main_arg1 (by decide)).trans <| rfl
theorem W34_main_arg2 (c : Dev nD) : W34 m ρ c (Proc.devRef .tc main_arg2) = m ((c : Thread nD τ).loc main_arg2) :=
  (W34_of_ne m ρ c main_arg2 (by decide)).trans <| (after16_of _ main_arg2 (by decide)).trans <| (W32_of_ne m ρ c main_arg2 (by decide)).trans <| (after15_of _ main_arg2 (by decide)).trans <| (W30_of_ne m ρ c main_arg2 (by decide)).trans <| (after14_of _ main_arg2 (by decide)).trans <| (W28_of_ne m ρ c main_arg2 (by decide)).trans <| (after13_of _ main_arg2 (by decide)).trans <| (W26_of_ne m ρ c main_arg2 (by decide)).trans <| (after12_of _ main_arg2 (by decide)).trans <| (W24_of_ne m ρ c main_arg2 (by decide)).trans <| (after11_of _ main_arg2 (by decide)).trans <| (W22_of_ne m ρ c main_arg2 (by decide)).trans <| (after10_of _ main_arg2 (by decide)).trans <| (W20_of_ne m ρ c main_arg2 (by decide)).trans <| (after9_of _ main_arg2 (by decide)).trans <| (W18_of_ne m ρ c main_arg2 (by decide)).trans <| (after8_of _ main_arg2 (by decide)).trans <| (W16_of_ne m ρ c main_arg2 (by decide)).trans <| (after7_of _ main_arg2 (by decide)).trans <| (W14_of_ne m ρ c main_arg2 (by decide)).trans <| (after6_of _ main_arg2 (by decide)).trans <| (W12_of_ne m ρ c main_arg2 (by decide)).trans <| (after5_of _ main_arg2 (by decide)).trans <| (W10_of_ne m ρ c main_arg2 (by decide)).trans <| (after4_of _ main_arg2 (by decide)).trans <| (W8_of_ne m ρ c main_arg2 (by decide)).trans <| (after3_of _ main_arg2 (by decide)).trans <| (W6_of_ne m ρ c main_arg2 (by decide)).trans <| (after2_of _ main_arg2 (by decide)).trans <| (W4_of_ne m ρ c main_arg2 (by decide)).trans <| (after1_of _ main_arg2 (by decide)).trans <| (W2_of_ne m ρ c main_arg2 (by decide)).trans <| (after0_of _ main_arg2 (by decide)).trans <| rfl
theorem W34_main_arg3 (c : Dev nD) : W34 m ρ c (Proc.devRef .tc main_arg3) = m ((c : Thread nD τ).loc main_arg3) :=
  (W34_of_ne m ρ c main_arg3 (by decide)).trans <| (after16_of _ main_arg3 (by decide)).trans <| (W32_of_ne m ρ c main_arg3 (by decide)).trans <| (after15_of _ main_arg3 (by decide)).trans <| (W30_of_ne m ρ c main_arg3 (by decide)).trans <| (after14_of _ main_arg3 (by decide)).trans <| (W28_of_ne m ρ c main_arg3 (by decide)).trans <| (after13_of _ main_arg3 (by decide)).trans <| (W26_of_ne m ρ c main_arg3 (by decide)).trans <| (after12_of _ main_arg3 (by decide)).trans <| (W24_of_ne m ρ c main_arg3 (by decide)).trans <| (after11_of _ main_arg3 (by decide)).trans <| (W22_of_ne m ρ c main_arg3 (by decide)).trans <| (after10_of _ main_arg3 (by decide)).trans <| (W20_of_ne m ρ c main_arg3 (by decide)).trans <| (after9_of _ main_arg3 (by decide)).trans <| (W18_of_ne m ρ c main_arg3 (by decide)).trans <| (after8_of _ main_arg3 (by decide)).trans <| (W16_of_ne m ρ c main_arg3 (by decide)).trans <| (after7_of _ main_arg3 (by decide)).trans <| (W14_of_ne m ρ c main_arg3 (by decide)).trans <| (after6_of _ main_arg3 (by decide)).trans <| (W12_of_ne m ρ c main_arg3 (by decide)).trans <| (after5_of _ main_arg3 (by decide)).trans <| (W10_of_ne m ρ c main_arg3 (by decide)).trans <| (after4_of _ main_arg3 (by decide)).trans <| (W8_of_ne m ρ c main_arg3 (by decide)).trans <| (after3_of _ main_arg3 (by decide)).trans <| (W6_of_ne m ρ c main_arg3 (by decide)).trans <| (after2_of _ main_arg3 (by decide)).trans <| (W4_of_ne m ρ c main_arg3 (by decide)).trans <| (after1_of _ main_arg3 (by decide)).trans <| (W2_of_ne m ρ c main_arg3 (by decide)).trans <| (after0_of _ main_arg3 (by decide)).trans <| rfl
theorem W34_main_arg4 (c : Dev nD) : W34 m ρ c (Proc.devRef .tc main_arg4) = m ((c : Thread nD τ).loc main_arg4) :=
  (W34_of_ne m ρ c main_arg4 (by decide)).trans <| (after16_of _ main_arg4 (by decide)).trans <| (W32_of_ne m ρ c main_arg4 (by decide)).trans <| (after15_of _ main_arg4 (by decide)).trans <| (W30_of_ne m ρ c main_arg4 (by decide)).trans <| (after14_of _ main_arg4 (by decide)).trans <| (W28_of_ne m ρ c main_arg4 (by decide)).trans <| (after13_of _ main_arg4 (by decide)).trans <| (W26_of_ne m ρ c main_arg4 (by decide)).trans <| (after12_of _ main_arg4 (by decide)).trans <| (W24_of_ne m ρ c main_arg4 (by decide)).trans <| (after11_of _ main_arg4 (by decide)).trans <| (W22_of_ne m ρ c main_arg4 (by decide)).trans <| (after10_of _ main_arg4 (by decide)).trans <| (W20_of_ne m ρ c main_arg4 (by decide)).trans <| (after9_of _ main_arg4 (by decide)).trans <| (W18_of_ne m ρ c main_arg4 (by decide)).trans <| (after8_of _ main_arg4 (by decide)).trans <| (W16_of_ne m ρ c main_arg4 (by decide)).trans <| (after7_of _ main_arg4 (by decide)).trans <| (W14_of_ne m ρ c main_arg4 (by decide)).trans <| (after6_of _ main_arg4 (by decide)).trans <| (W12_of_ne m ρ c main_arg4 (by decide)).trans <| (after5_of _ main_arg4 (by decide)).trans <| (W10_of_ne m ρ c main_arg4 (by decide)).trans <| (after4_of _ main_arg4 (by decide)).trans <| (W8_of_ne m ρ c main_arg4 (by decide)).trans <| (after3_of _ main_arg4 (by decide)).trans <| (W6_of_ne m ρ c main_arg4 (by decide)).trans <| (after2_of _ main_arg4 (by decide)).trans <| (W4_of_ne m ρ c main_arg4 (by decide)).trans <| (after1_of _ main_arg4 (by decide)).trans <| (W2_of_ne m ρ c main_arg4 (by decide)).trans <| (after0_of _ main_arg4 (by decide)).trans <| rfl
theorem W34_main_arg5 (c : Dev nD) : W34 m ρ c (Proc.devRef .tc main_arg5) = m ((c : Thread nD τ).loc main_arg5) :=
  (W34_of_ne m ρ c main_arg5 (by decide)).trans <| (after16_of _ main_arg5 (by decide)).trans <| (W32_of_ne m ρ c main_arg5 (by decide)).trans <| (after15_of _ main_arg5 (by decide)).trans <| (W30_of_ne m ρ c main_arg5 (by decide)).trans <| (after14_of _ main_arg5 (by decide)).trans <| (W28_of_ne m ρ c main_arg5 (by decide)).trans <| (after13_of _ main_arg5 (by decide)).trans <| (W26_of_ne m ρ c main_arg5 (by decide)).trans <| (after12_of _ main_arg5 (by decide)).trans <| (W24_of_ne m ρ c main_arg5 (by decide)).trans <| (after11_of _ main_arg5 (by decide)).trans <| (W22_of_ne m ρ c main_arg5 (by decide)).trans <| (after10_of _ main_arg5 (by decide)).trans <| (W20_of_ne m ρ c main_arg5 (by decide)).trans <| (after9_of _ main_arg5 (by decide)).trans <| (W18_of_ne m ρ c main_arg5 (by decide)).trans <| (after8_of _ main_arg5 (by decide)).trans <| (W16_of_ne m ρ c main_arg5 (by decide)).trans <| (after7_of _ main_arg5 (by decide)).trans <| (W14_of_ne m ρ c main_arg5 (by decide)).trans <| (after6_of _ main_arg5 (by decide)).trans <| (W12_of_ne m ρ c main_arg5 (by decide)).trans <| (after5_of _ main_arg5 (by decide)).trans <| (W10_of_ne m ρ c main_arg5 (by decide)).trans <| (after4_of _ main_arg5 (by decide)).trans <| (W8_of_ne m ρ c main_arg5 (by decide)).trans <| (after3_of _ main_arg5 (by decide)).trans <| (W6_of_ne m ρ c main_arg5 (by decide)).trans <| (after2_of _ main_arg5 (by decide)).trans <| (W4_of_ne m ρ c main_arg5 (by decide)).trans <| (after1_of _ main_arg5 (by decide)).trans <| (W2_of_ne m ρ c main_arg5 (by decide)).trans <| (after0_of _ main_arg5 (by decide)).trans <| rfl
theorem W34_main_arg6 (c : Dev nD) : W34 m ρ c (Proc.devRef .tc main_arg6) = m ((c : Thread nD τ).loc main_arg6) :=
  (W34_of_ne m ρ c main_arg6 (by decide)).trans <| (after16_of _ main_arg6 (by decide)).trans <| (W32_of_ne m ρ c main_arg6 (by decide)).trans <| (after15_of _ main_arg6 (by decide)).trans <| (W30_of_ne m ρ c main_arg6 (by decide)).trans <| (after14_of _ main_arg6 (by decide)).trans <| (W28_of_ne m ρ c main_arg6 (by decide)).trans <| (after13_of _ main_arg6 (by decide)).trans <| (W26_of_ne m ρ c main_arg6 (by decide)).trans <| (after12_of _ main_arg6 (by decide)).trans <| (W24_of_ne m ρ c main_arg6 (by decide)).trans <| (after11_of _ main_arg6 (by decide)).trans <| (W22_of_ne m ρ c main_arg6 (by decide)).trans <| (after10_of _ main_arg6 (by decide)).trans <| (W20_of_ne m ρ c main_arg6 (by decide)).trans <| (after9_of _ main_arg6 (by decide)).trans <| (W18_of_ne m ρ c main_arg6 (by decide)).trans <| (after8_of _ main_arg6 (by decide)).trans <| (W16_of_ne m ρ c main_arg6 (by decide)).trans <| (after7_of _ main_arg6 (by decide)).trans <| (W14_of_ne m ρ c main_arg6 (by decide)).trans <| (after6_of _ main_arg6 (by decide)).trans <| (W12_of_ne m ρ c main_arg6 (by decide)).trans <| (after5_of _ main_arg6 (by decide)).trans <| (W10_of_ne m ρ c main_arg6 (by decide)).trans <| (after4_of _ main_arg6 (by decide)).trans <| (W8_of_ne m ρ c main_arg6 (by decide)).trans <| (after3_of _ main_arg6 (by decide)).trans <| (W6_of_ne m ρ c main_arg6 (by decide)).trans <| (after2_of _ main_arg6 (by decide)).trans <| (W4_of_ne m ρ c main_arg6 (by decide)).trans <| (after1_of _ main_arg6 (by decide)).trans <| (W2_of_ne m ρ c main_arg6 (by decide)).trans <| (after0_of _ main_arg6 (by decide)).trans <| rfl
theorem W34_main_arg7 (c : Dev nD) : W34 m ρ c (Proc.devRef .tc main_arg7) = m ((c : Thread nD τ).loc main_arg7) :=
  (W34_of_ne m ρ c main_arg7 (by decide)).trans <| (after16_of _ main_arg7 (by decide)).trans <| (W32_of_ne m ρ c main_arg7 (by decide)).trans <| (after15_of _ main_arg7 (by decide)).trans <| (W30_of_ne m ρ c main_arg7 (by decide)).trans <| (after14_of _ main_arg7 (by decide)).trans <| (W28_of_ne m ρ c main_arg7 (by decide)).trans <| (after13_of _ main_arg7 (by decide)).trans <| (W26_of_ne m ρ c main_arg7 (by decide)).trans <| (after12_of _ main_arg7 (by decide)).trans <| (W24_of_ne m ρ c main_arg7 (by decide)).trans <| (after11_of _ main_arg7 (by decide)).trans <| (W22_of_ne m ρ c main_arg7 (by decide)).trans <| (after10_of _ main_arg7 (by decide)).trans <| (W20_of_ne m ρ c main_arg7 (by decide)).trans <| (after9_of _ main_arg7 (by decide)).trans <| (W18_of_ne m ρ c main_arg7 (by decide)).trans <| (after8_of _ main_arg7 (by decide)).trans <| (W16_of_ne m ρ c main_arg7 (by decide)).trans <| (after7_of _ main_arg7 (by decide)).trans <| (W14_of_ne m ρ c main_arg7 (by decide)).trans <| (after6_of _ main_arg7 (by decide)).trans <| (W12_of_ne m ρ c main_arg7 (by decide)).trans <| (after5_of _ main_arg7 (by decide)).trans <| (W10_of_ne m ρ c main_arg7 (by decide)).trans <| (after4_of _ main_arg7 (by decide)).trans <| (W8_of_ne m ρ c main_arg7 (by decide)).trans <| (after3_of _ main_arg7 (by decide)).trans <| (W6_of_ne m ρ c main_arg7 (by decide)).trans <| (after2_of _ main_arg7 (by decide)).trans <| (W4_of_ne m ρ c main_arg7 (by decide)).trans <| (after1_of _ main_arg7 (by decide)).trans <| (W2_of_ne m ρ c main_arg7 (by decide)).trans <| (after0_of _ main_arg7 (by decide)).trans <| rfl
theorem W34_main_arg8 (c : Dev nD) : W34 m ρ c (Proc.devRef .tc main_arg8) = m ((c : Thread nD τ).loc main_arg8) :=
  (W34_of_ne m ρ c main_arg8 (by decide)).trans <| (after16_of _ main_arg8 (by decide)).trans <| (W32_of_ne m ρ c main_arg8 (by decide)).trans <| (after15_of _ main_arg8 (by decide)).trans <| (W30_of_ne m ρ c main_arg8 (by decide)).trans <| (after14_of _ main_arg8 (by decide)).trans <| (W28_of_ne m ρ c main_arg8 (by decide)).trans <| (after13_of _ main_arg8 (by decide)).trans <| (W26_of_ne m ρ c main_arg8 (by decide)).trans <| (after12_of _ main_arg8 (by decide)).trans <| (W24_of_ne m ρ c main_arg8 (by decide)).trans <| (after11_of _ main_arg8 (by decide)).trans <| (W22_of_ne m ρ c main_arg8 (by decide)).trans <| (after10_of _ main_arg8 (by decide)).trans <| (W20_of_ne m ρ c main_arg8 (by decide)).trans <| (after9_of _ main_arg8 (by decide)).trans <| (W18_of_ne m ρ c main_arg8 (by decide)).trans <| (after8_of _ main_arg8 (by decide)).trans <| (W16_of_ne m ρ c main_arg8 (by decide)).trans <| (after7_of _ main_arg8 (by decide)).trans <| (W14_of_ne m ρ c main_arg8 (by decide)).trans <| (after6_of _ main_arg8 (by decide)).trans <| (W12_of_ne m ρ c main_arg8 (by decide)).trans <| (after5_of _ main_arg8 (by decide)).trans <| (W10_of_ne m ρ c main_arg8 (by decide)).trans <| (after4_of _ main_arg8 (by decide)).trans <| (W8_of_ne m ρ c main_arg8 (by decide)).trans <| (after3_of _ main_arg8 (by decide)).trans <| (W6_of_ne m ρ c main_arg8 (by decide)).trans <| (after2_of _ main_arg8 (by decide)).trans <| (W4_of_ne m ρ c main_arg8 (by decide)).trans <| (after1_of _ main_arg8 (by decide)).trans <| (W2_of_ne m ρ c main_arg8 (by decide)).trans <| (after0_of _ main_arg8 (by decide)).trans <| rfl
theorem W34_main_arg9 (c : Dev nD) : W34 m ρ c (Proc.devRef .tc main_arg9) = m ((c : Thread nD τ).loc main_arg9) :=
  (W34_of_ne m ρ c main_arg9 (by decide)).trans <| (after16_of _ main_arg9 (by decide)).trans <| (W32_of_ne m ρ c main_arg9 (by decide)).trans <| (after15_of _ main_arg9 (by decide)).trans <| (W30_of_ne m ρ c main_arg9 (by decide)).trans <| (after14_of _ main_arg9 (by decide)).trans <| (W28_of_ne m ρ c main_arg9 (by decide)).trans <| (after13_of _ main_arg9 (by decide)).trans <| (W26_of_ne m ρ c main_arg9 (by decide)).trans <| (after12_of _ main_arg9 (by decide)).trans <| (W24_of_ne m ρ c main_arg9 (by decide)).trans <| (after11_of _ main_arg9 (by decide)).trans <| (W22_of_ne m ρ c main_arg9 (by decide)).trans <| (after10_of _ main_arg9 (by decide)).trans <| (W20_of_ne m ρ c main_arg9 (by decide)).trans <| (after9_of _ main_arg9 (by decide)).trans <| (W18_of_ne m ρ c main_arg9 (by decide)).trans <| (after8_of _ main_arg9 (by decide)).trans <| (W16_of_ne m ρ c main_arg9 (by decide)).trans <| (after7_of _ main_arg9 (by decide)).trans <| (W14_of_ne m ρ c main_arg9 (by decide)).trans <| (after6_of _ main_arg9 (by decide)).trans <| (W12_of_ne m ρ c main_arg9 (by decide)).trans <| (after5_of _ main_arg9 (by decide)).trans <| (W10_of_ne m ρ c main_arg9 (by decide)).trans <| (after4_of _ main_arg9 (by decide)).trans <| (W8_of_ne m ρ c main_arg9 (by decide)).trans <| (after3_of _ main_arg9 (by decide)).trans <| (W6_of_ne m ρ c main_arg9 (by decide)).trans <| (after2_of _ main_arg9 (by decide)).trans <| (W4_of_ne m ρ c main_arg9 (by decide)).trans <| (after1_of _ main_arg9 (by decide)).trans <| (W2_of_ne m ρ c main_arg9 (by decide)).trans <| (after0_of _ main_arg9 (by decide)).trans <| rfl
theorem W34_main_arg10 (c : Dev nD) : W34 m ρ c (Proc.devRef .tc main_arg10) = m ((c : Thread nD τ).loc main_arg10) :=
  (W34_of_ne m ρ c main_arg10 (by decide)).trans <| (after16_of _ main_arg10 (by decide)).trans <| (W32_of_ne m ρ c main_arg10 (by decide)).trans <| (after15_of _ main_arg10 (by decide)).trans <| (W30_of_ne m ρ c main_arg10 (by decide)).trans <| (after14_of _ main_arg10 (by decide)).trans <| (W28_of_ne m ρ c main_arg10 (by decide)).trans <| (after13_of _ main_arg10 (by decide)).trans <| (W26_of_ne m ρ c main_arg10 (by decide)).trans <| (after12_of _ main_arg10 (by decide)).trans <| (W24_of_ne m ρ c main_arg10 (by decide)).trans <| (after11_of _ main_arg10 (by decide)).trans <| (W22_of_ne m ρ c main_arg10 (by decide)).trans <| (after10_of _ main_arg10 (by decide)).trans <| (W20_of_ne m ρ c main_arg10 (by decide)).trans <| (after9_of _ main_arg10 (by decide)).trans <| (W18_of_ne m ρ c main_arg10 (by decide)).trans <| (after8_of _ main_arg10 (by decide)).trans <| (W16_of_ne m ρ c main_arg10 (by decide)).trans <| (after7_of _ main_arg10 (by decide)).trans <| (W14_of_ne m ρ c main_arg10 (by decide)).trans <| (after6_of _ main_arg10 (by decide)).trans <| (W12_of_ne m ρ c main_arg10 (by decide)).trans <| (after5_of _ main_arg10 (by decide)).trans <| (W10_of_ne m ρ c main_arg10 (by decide)).trans <| (after4_of _ main_arg10 (by decide)).trans <| (W8_of_ne m ρ c main_arg10 (by decide)).trans <| (after3_of _ main_arg10 (by decide)).trans <| (W6_of_ne m ρ c main_arg10 (by decide)).trans <| (after2_of _ main_arg10 (by decide)).trans <| (W4_of_ne m ρ c main_arg10 (by decide)).trans <| (after1_of _ main_arg10 (by decide)).trans <| (W2_of_ne m ρ c main_arg10 (by decide)).trans <| (after0_of _ main_arg10 (by decide)).trans <| rfl
theorem W34_main_arg11 (c : Dev nD) : W34 m ρ c (Proc.devRef .tc main_arg11) = m ((c : Thread nD τ).loc main_arg11) :=
  (W34_of_ne m ρ c main_arg11 (by decide)).trans <| (after16_of _ main_arg11 (by decide)).trans <| (W32_of_ne m ρ c main_arg11 (by decide)).trans <| (after15_of _ main_arg11 (by decide)).trans <| (W30_of_ne m ρ c main_arg11 (by decide)).trans <| (after14_of _ main_arg11 (by decide)).trans <| (W28_of_ne m ρ c main_arg11 (by decide)).trans <| (after13_of _ main_arg11 (by decide)).trans <| (W26_of_ne m ρ c main_arg11 (by decide)).trans <| (after12_of _ main_arg11 (by decide)).trans <| (W24_of_ne m ρ c main_arg11 (by decide)).trans <| (after11_of _ main_arg11 (by decide)).trans <| (W22_of_ne m ρ c main_arg11 (by decide)).trans <| (after10_of _ main_arg11 (by decide)).trans <| (W20_of_ne m ρ c main_arg11 (by decide)).trans <| (after9_of _ main_arg11 (by decide)).trans <| (W18_of_ne m ρ c main_arg11 (by decide)).trans <| (after8_of _ main_arg11 (by decide)).trans <| (W16_of_ne m ρ c main_arg11 (by decide)).trans <| (after7_of _ main_arg11 (by decide)).trans <| (W14_of_ne m ρ c main_arg11 (by decide)).trans <| (after6_of _ main_arg11 (by decide)).trans <| (W12_of_ne m ρ c main_arg11 (by decide)).trans <| (after5_of _ main_arg11 (by decide)).trans <| (W10_of_ne m ρ c main_arg11 (by decide)).trans <| (after4_of _ main_arg11 (by decide)).trans <| (W8_of_ne m ρ c main_arg11 (by decide)).trans <| (after3_of _ main_arg11 (by decide)).trans <| (W6_of_ne m ρ c main_arg11 (by decide)).trans <| (after2_of _ main_arg11 (by decide)).trans <| (W4_of_ne m ρ c main_arg11 (by decide)).trans <| (after1_of _ main_arg11 (by decide)).trans <| (W2_of_ne m ρ c main_arg11 (by decide)).trans <| (after0_of _ main_arg11 (by decide)).trans <| rfl
theorem W34_main_arg12 (c : Dev nD) : W34 m ρ c (Proc.devRef .tc main_arg12) = m ((c : Thread nD τ).loc main_arg12) :=
  (W34_of_ne m ρ c main_arg12 (by decide)).trans <| (after16_of _ main_arg12 (by decide)).trans <| (W32_of_ne m ρ c main_arg12 (by decide)).trans <| (after15_of _ main_arg12 (by decide)).trans <| (W30_of_ne m ρ c main_arg12 (by decide)).trans <| (after14_of _ main_arg12 (by decide)).trans <| (W28_of_ne m ρ c main_arg12 (by decide)).trans <| (after13_of _ main_arg12 (by decide)).trans <| (W26_of_ne m ρ c main_arg12 (by decide)).trans <| (after12_of _ main_arg12 (by decide)).trans <| (W24_of_ne m ρ c main_arg12 (by decide)).trans <| (after11_of _ main_arg12 (by decide)).trans <| (W22_of_ne m ρ c main_arg12 (by decide)).trans <| (after10_of _ main_arg12 (by decide)).trans <| (W20_of_ne m ρ c main_arg12 (by decide)).trans <| (after9_of _ main_arg12 (by decide)).trans <| (W18_of_ne m ρ c main_arg12 (by decide)).trans <| (after8_of _ main_arg12 (by decide)).trans <| (W16_of_ne m ρ c main_arg12 (by decide)).trans <| (after7_of _ main_arg12 (by decide)).trans <| (W14_of_ne m ρ c main_arg12 (by decide)).trans <| (after6_of _ main_arg12 (by decide)).trans <| (W12_of_ne m ρ c main_arg12 (by decide)).trans <| (after5_of _ main_arg12 (by decide)).trans <| (W10_of_ne m ρ c main_arg12 (by decide)).trans <| (after4_of _ main_arg12 (by decide)).trans <| (W8_of_ne m ρ c main_arg12 (by decide)).trans <| (after3_of _ main_arg12 (by decide)).trans <| (W6_of_ne m ρ c main_arg12 (by decide)).trans <| (after2_of _ main_arg12 (by decide)).trans <| (W4_of_ne m ρ c main_arg12 (by decide)).trans <| (after1_of _ main_arg12 (by decide)).trans <| (W2_of_ne m ρ c main_arg12 (by decide)).trans <| (after0_of _ main_arg12 (by decide)).trans <| rfl
theorem W34_main_arg13 (c : Dev nD) : W34 m ρ c (Proc.devRef .tc main_arg13) = m ((c : Thread nD τ).loc main_arg13) :=
  (W34_of_ne m ρ c main_arg13 (by decide)).trans <| (after16_of _ main_arg13 (by decide)).trans <| (W32_of_ne m ρ c main_arg13 (by decide)).trans <| (after15_of _ main_arg13 (by decide)).trans <| (W30_of_ne m ρ c main_arg13 (by decide)).trans <| (after14_of _ main_arg13 (by decide)).trans <| (W28_of_ne m ρ c main_arg13 (by decide)).trans <| (after13_of _ main_arg13 (by decide)).trans <| (W26_of_ne m ρ c main_arg13 (by decide)).trans <| (after12_of _ main_arg13 (by decide)).trans <| (W24_of_ne m ρ c main_arg13 (by decide)).trans <| (after11_of _ main_arg13 (by decide)).trans <| (W22_of_ne m ρ c main_arg13 (by decide)).trans <| (after10_of _ main_arg13 (by decide)).trans <| (W20_of_ne m ρ c main_arg13 (by decide)).trans <| (after9_of _ main_arg13 (by decide)).trans <| (W18_of_ne m ρ c main_arg13 (by decide)).trans <| (after8_of _ main_arg13 (by decide)).trans <| (W16_of_ne m ρ c main_arg13 (by decide)).trans <| (after7_of _ main_arg13 (by decide)).trans <| (W14_of_ne m ρ c main_arg13 (by decide)).trans <| (after6_of _ main_arg13 (by decide)).trans <| (W12_of_ne m ρ c main_arg13 (by decide)).trans <| (after5_of _ main_arg13 (by decide)).trans <| (W10_of_ne m ρ c main_arg13 (by decide)).trans <| (after4_of _ main_arg13 (by decide)).trans <| (W8_of_ne m ρ c main_arg13 (by decide)).trans <| (after3_of _ main_arg13 (by decide)).trans <| (W6_of_ne m ρ c main_arg13 (by decide)).trans <| (after2_of _ main_arg13 (by decide)).trans <| (W4_of_ne m ρ c main_arg13 (by decide)).trans <| (after1_of _ main_arg13 (by decide)).trans <| (W2_of_ne m ρ c main_arg13 (by decide)).trans <| (after0_of _ main_arg13 (by decide)).trans <| rfl
theorem W34_main_arg14 (c : Dev nD) : W34 m ρ c (Proc.devRef .tc main_arg14) = m ((c : Thread nD τ).loc main_arg14) :=
  (W34_of_ne m ρ c main_arg14 (by decide)).trans <| (after16_of _ main_arg14 (by decide)).trans <| (W32_of_ne m ρ c main_arg14 (by decide)).trans <| (after15_of _ main_arg14 (by decide)).trans <| (W30_of_ne m ρ c main_arg14 (by decide)).trans <| (after14_of _ main_arg14 (by decide)).trans <| (W28_of_ne m ρ c main_arg14 (by decide)).trans <| (after13_of _ main_arg14 (by decide)).trans <| (W26_of_ne m ρ c main_arg14 (by decide)).trans <| (after12_of _ main_arg14 (by decide)).trans <| (W24_of_ne m ρ c main_arg14 (by decide)).trans <| (after11_of _ main_arg14 (by decide)).trans <| (W22_of_ne m ρ c main_arg14 (by decide)).trans <| (after10_of _ main_arg14 (by decide)).trans <| (W20_of_ne m ρ c main_arg14 (by decide)).trans <| (after9_of _ main_arg14 (by decide)).trans <| (W18_of_ne m ρ c main_arg14 (by decide)).trans <| (after8_of _ main_arg14 (by decide)).trans <| (W16_of_ne m ρ c main_arg14 (by decide)).trans <| (after7_of _ main_arg14 (by decide)).trans <| (W14_of_ne m ρ c main_arg14 (by decide)).trans <| (after6_of _ main_arg14 (by decide)).trans <| (W12_of_ne m ρ c main_arg14 (by decide)).trans <| (after5_of _ main_arg14 (by decide)).trans <| (W10_of_ne m ρ c main_arg14 (by decide)).trans <| (after4_of _ main_arg14 (by decide)).trans <| (W8_of_ne m ρ c main_arg14 (by decide)).trans <| (after3_of _ main_arg14 (by decide)).trans <| (W6_of_ne m ρ c main_arg14 (by decide)).trans <| (after2_of _ main_arg14 (by decide)).trans <| (W4_of_ne m ρ c main_arg14 (by decide)).trans <| (after1_of _ main_arg14 (by decide)).trans <| (W2_of_ne m ρ c main_arg14 (by decide)).trans <| (after0_of _ main_arg14 (by decide)).trans <| rfl
theorem W34_main_arg15 (c : Dev nD) : W34 m ρ c (Proc.devRef .tc main_arg15) = m ((c : Thread nD τ).loc main_arg15) :=
  (W34_of_ne m ρ c main_arg15 (by decide)).trans <| (after16_of _ main_arg15 (by decide)).trans <| (W32_of_ne m ρ c main_arg15 (by decide)).trans <| (after15_of _ main_arg15 (by decide)).trans <| (W30_of_ne m ρ c main_arg15 (by decide)).trans <| (after14_of _ main_arg15 (by decide)).trans <| (W28_of_ne m ρ c main_arg15 (by decide)).trans <| (after13_of _ main_arg15 (by decide)).trans <| (W26_of_ne m ρ c main_arg15 (by decide)).trans <| (after12_of _ main_arg15 (by decide)).trans <| (W24_of_ne m ρ c main_arg15 (by decide)).trans <| (after11_of _ main_arg15 (by decide)).trans <| (W22_of_ne m ρ c main_arg15 (by decide)).trans <| (after10_of _ main_arg15 (by decide)).trans <| (W20_of_ne m ρ c main_arg15 (by decide)).trans <| (after9_of _ main_arg15 (by decide)).trans <| (W18_of_ne m ρ c main_arg15 (by decide)).trans <| (after8_of _ main_arg15 (by decide)).trans <| (W16_of_ne m ρ c main_arg15 (by decide)).trans <| (after7_of _ main_arg15 (by decide)).trans <| (W14_of_ne m ρ c main_arg15 (by decide)).trans <| (after6_of _ main_arg15 (by decide)).trans <| (W12_of_ne m ρ c main_arg15 (by decide)).trans <| (after5_of _ main_arg15 (by decide)).trans <| (W10_of_ne m ρ c main_arg15 (by decide)).trans <| (after4_of _ main_arg15 (by decide)).trans <| (W8_of_ne m ρ c main_arg15 (by decide)).trans <| (after3_of _ main_arg15 (by decide)).trans <| (W6_of_ne m ρ c main_arg15 (by decide)).trans <| (after2_of _ main_arg15 (by decide)).trans <| (W4_of_ne m ρ c main_arg15 (by decide)).trans <| (after1_of _ main_arg15 (by decide)).trans <| (W2_of_ne m ρ c main_arg15 (by decide)).trans <| (after0_of _ main_arg15 (by decide)).trans <| rfl
theorem W34_main_arg16 (c : Dev nD) : W34 m ρ c (Proc.devRef .tc main_arg16) = m ((c : Thread nD τ).loc main_arg16) :=
  (W34_of_ne m ρ c main_arg16 (by decide)).trans <| (after16_of _ main_arg16 (by decide)).trans <| (W32_of_ne m ρ c main_arg16 (by decide)).trans <| (after15_of _ main_arg16 (by decide)).trans <| (W30_of_ne m ρ c main_arg16 (by decide)).trans <| (after14_of _ main_arg16 (by decide)).trans <| (W28_of_ne m ρ c main_arg16 (by decide)).trans <| (after13_of _ main_arg16 (by decide)).trans <| (W26_of_ne m ρ c main_arg16 (by decide)).trans <| (after12_of _ main_arg16 (by decide)).trans <| (W24_of_ne m ρ c main_arg16 (by decide)).trans <| (after11_of _ main_arg16 (by decide)).trans <| (W22_of_ne m ρ c main_arg16 (by decide)).trans <| (after10_of _ main_arg16 (by decide)).trans <| (W20_of_ne m ρ c main_arg16 (by decide)).trans <| (after9_of _ main_arg16 (by decide)).trans <| (W18_of_ne m ρ c main_arg16 (by decide)).trans <| (after8_of _ main_arg16 (by decide)).trans <| (W16_of_ne m ρ c main_arg16 (by decide)).trans <| (after7_of _ main_arg16 (by decide)).trans <| (W14_of_ne m ρ c main_arg16 (by decide)).trans <| (after6_of _ main_arg16 (by decide)).trans <| (W12_of_ne m ρ c main_arg16 (by decide)).trans <| (after5_of _ main_arg16 (by decide)).trans <| (W10_of_ne m ρ c main_arg16 (by decide)).trans <| (after4_of _ main_arg16 (by decide)).trans <| (W8_of_ne m ρ c main_arg16 (by decide)).trans <| (after3_of _ main_arg16 (by decide)).trans <| (W6_of_ne m ρ c main_arg16 (by decide)).trans <| (after2_of _ main_arg16 (by decide)).trans <| (W4_of_ne m ρ c main_arg16 (by decide)).trans <| (after1_of _ main_arg16 (by decide)).trans <| (W2_of_ne m ρ c main_arg16 (by decide)).trans <| (after0_of _ main_arg16 (by decide)).trans <| rfl
theorem W34_main_arg17 (c : Dev nD) : W34 m ρ c (Proc.devRef .tc main_arg17) = m ((c : Thread nD τ).loc main_arg17) :=
  (W34_of_ne m ρ c main_arg17 (by decide)).trans <| (after16_of _ main_arg17 (by decide)).trans <| (W32_of_ne m ρ c main_arg17 (by decide)).trans <| (after15_of _ main_arg17 (by decide)).trans <| (W30_of_ne m ρ c main_arg17 (by decide)).trans <| (after14_of _ main_arg17 (by decide)).trans <| (W28_of_ne m ρ c main_arg17 (by decide)).trans <| (after13_of _ main_arg17 (by decide)).trans <| (W26_of_ne m ρ c main_arg17 (by decide)).trans <| (after12_of _ main_arg17 (by decide)).trans <| (W24_of_ne m ρ c main_arg17 (by decide)).trans <| (after11_of _ main_arg17 (by decide)).trans <| (W22_of_ne m ρ c main_arg17 (by decide)).trans <| (after10_of _ main_arg17 (by decide)).trans <| (W20_of_ne m ρ c main_arg17 (by decide)).trans <| (after9_of _ main_arg17 (by decide)).trans <| (W18_of_ne m ρ c main_arg17 (by decide)).trans <| (after8_of _ main_arg17 (by decide)).trans <| (W16_of_ne m ρ c main_arg17 (by decide)).trans <| (after7_of _ main_arg17 (by decide)).trans <| (W14_of_ne m ρ c main_arg17 (by decide)).trans <| (after6_of _ main_arg17 (by decide)).trans <| (W12_of_ne m ρ c main_arg17 (by decide)).trans <| (after5_of _ main_arg17 (by decide)).trans <| (W10_of_ne m ρ c main_arg17 (by decide)).trans <| (after4_of _ main_arg17 (by decide)).trans <| (W8_of_ne m ρ c main_arg17 (by decide)).trans <| (after3_of _ main_arg17 (by decide)).trans <| (W6_of_ne m ρ c main_arg17 (by decide)).trans <| (after2_of _ main_arg17 (by decide)).trans <| (W4_of_ne m ρ c main_arg17 (by decide)).trans <| (after1_of _ main_arg17 (by decide)).trans <| (W2_of_ne m ρ c main_arg17 (by decide)).trans <| (after0_of _ main_arg17 (by decide)).trans <| rfl
theorem W34_main_arg18 (c : Dev nD) : W34 m ρ c (Proc.devRef .tc main_arg18) = m ((c : Thread nD τ).loc main_arg18) :=
  (W34_of_ne m ρ c main_arg18 (by decide)).trans <| (after16_of _ main_arg18 (by decide)).trans <| (W32_of_ne m ρ c main_arg18 (by decide)).trans <| (after15_of _ main_arg18 (by decide)).trans <| (W30_of_ne m ρ c main_arg18 (by decide)).trans <| (after14_of _ main_arg18 (by decide)).trans <| (W28_of_ne m ρ c main_arg18 (by decide)).trans <| (after13_of _ main_arg18 (by decide)).trans <| (W26_of_ne m ρ c main_arg18 (by decide)).trans <| (after12_of _ main_arg18 (by decide)).trans <| (W24_of_ne m ρ c main_arg18 (by decide)).trans <| (after11_of _ main_arg18 (by decide)).trans <| (W22_of_ne m ρ c main_arg18 (by decide)).trans <| (after10_of _ main_arg18 (by decide)).trans <| (W20_of_ne m ρ c main_arg18 (by decide)).trans <| (after9_of _ main_arg18 (by decide)).trans <| (W18_of_ne m ρ c main_arg18 (by decide)).trans <| (after8_of _ main_arg18 (by decide)).trans <| (W16_of_ne m ρ c main_arg18 (by decide)).trans <| (after7_of _ main_arg18 (by decide)).trans <| (W14_of_ne m ρ c main_arg18 (by decide)).trans <| (after6_of _ main_arg18 (by decide)).trans <| (W12_of_ne m ρ c main_arg18 (by decide)).trans <| (after5_of _ main_arg18 (by decide)).trans <| (W10_of_ne m ρ c main_arg18 (by decide)).trans <| (after4_of _ main_arg18 (by decide)).trans <| (W8_of_ne m ρ c main_arg18 (by decide)).trans <| (after3_of _ main_arg18 (by decide)).trans <| (W6_of_ne m ρ c main_arg18 (by decide)).trans <| (after2_of _ main_arg18 (by decide)).trans <| (W4_of_ne m ρ c main_arg18 (by decide)).trans <| (after1_of _ main_arg18 (by decide)).trans <| (W2_of_ne m ρ c main_arg18 (by decide)).trans <| (after0_of _ main_arg18 (by decide)).trans <| rfl
theorem W34_main_arg19 (c : Dev nD) : W34 m ρ c (Proc.devRef .tc main_arg19) = m ((c : Thread nD τ).loc main_arg19) :=
  (W34_of_ne m ρ c main_arg19 (by decide)).trans <| (after16_of _ main_arg19 (by decide)).trans <| (W32_of_ne m ρ c main_arg19 (by decide)).trans <| (after15_of _ main_arg19 (by decide)).trans <| (W30_of_ne m ρ c main_arg19 (by decide)).trans <| (after14_of _ main_arg19 (by decide)).trans <| (W28_of_ne m ρ c main_arg19 (by decide)).trans <| (after13_of _ main_arg19 (by decide)).trans <| (W26_of_ne m ρ c main_arg19 (by decide)).trans <| (after12_of _ main_arg19 (by decide)).trans <| (W24_of_ne m ρ c main_arg19 (by decide)).trans <| (after11_of _ main_arg19 (by decide)).trans <| (W22_of_ne m ρ c main_arg19 (by decide)).trans <| (after10_of _ main_arg19 (by decide)).trans <| (W20_of_ne m ρ c main_arg19 (by decide)).trans <| (after9_of _ main_arg19 (by decide)).trans <| (W18_of_ne m ρ c main_arg19 (by decide)).trans <| (after8_of _ main_arg19 (by decide)).trans <| (W16_of_ne m ρ c main_arg19 (by decide)).trans <| (after7_of _ main_arg19 (by decide)).trans <| (W14_of_ne m ρ c main_arg19 (by decide)).trans <| (after6_of _ main_arg19 (by decide)).trans <| (W12_of_ne m ρ c main_arg19 (by decide)).trans <| (after5_of _ main_arg19 (by decide)).trans <| (W10_of_ne m ρ c main_arg19 (by decide)).trans <| (after4_of _ main_arg19 (by decide)).trans <| (W8_of_ne m ρ c main_arg19 (by decide)).trans <| (after3_of _ main_arg19 (by decide)).trans <| (W6_of_ne m ρ c main_arg19 (by decide)).trans <| (after2_of _ main_arg19 (by decide)).trans <| (W4_of_ne m ρ c main_arg19 (by decide)).trans <| (after1_of _ main_arg19 (by decide)).trans <| (W2_of_ne m ρ c main_arg19 (by decide)).trans <| (after0_of _ main_arg19 (by decide)).trans <| rfl
theorem W34_main_arg20 (c : Dev nD) : W34 m ρ c (Proc.devRef .tc main_arg20) = m ((c : Thread nD τ).loc main_arg20) :=
  (W34_of_ne m ρ c main_arg20 (by decide)).trans <| (after16_of _ main_arg20 (by decide)).trans <| (W32_of_ne m ρ c main_arg20 (by decide)).trans <| (after15_of _ main_arg20 (by decide)).trans <| (W30_of_ne m ρ c main_arg20 (by decide)).trans <| (after14_of _ main_arg20 (by decide)).trans <| (W28_of_ne m ρ c main_arg20 (by decide)).trans <| (after13_of _ main_arg20 (by decide)).trans <| (W26_of_ne m ρ c main_arg20 (by decide)).trans <| (after12_of _ main_arg20 (by decide)).trans <| (W24_of_ne m ρ c main_arg20 (by decide)).trans <| (after11_of _ main_arg20 (by decide)).trans <| (W22_of_ne m ρ c main_arg20 (by decide)).trans <| (after10_of _ main_arg20 (by decide)).trans <| (W20_of_ne m ρ c main_arg20 (by decide)).trans <| (after9_of _ main_arg20 (by decide)).trans <| (W18_of_ne m ρ c main_arg20 (by decide)).trans <| (after8_of _ main_arg20 (by decide)).trans <| (W16_of_ne m ρ c main_arg20 (by decide)).trans <| (after7_of _ main_arg20 (by decide)).trans <| (W14_of_ne m ρ c main_arg20 (by decide)).trans <| (after6_of _ main_arg20 (by decide)).trans <| (W12_of_ne m ρ c main_arg20 (by decide)).trans <| (after5_of _ main_arg20 (by decide)).trans <| (W10_of_ne m ρ c main_arg20 (by decide)).trans <| (after4_of _ main_arg20 (by decide)).trans <| (W8_of_ne m ρ c main_arg20 (by decide)).trans <| (after3_of _ main_arg20 (by decide)).trans <| (W6_of_ne m ρ c main_arg20 (by decide)).trans <| (after2_of _ main_arg20 (by decide)).trans <| (W4_of_ne m ρ c main_arg20 (by decide)).trans <| (after1_of _ main_arg20 (by decide)).trans <| (W2_of_ne m ρ c main_arg20 (by decide)).trans <| (after0_of _ main_arg20 (by decide)).trans <| rfl
theorem W34_main_arg21 (c : Dev nD) : W34 m ρ c (Proc.devRef .tc main_arg21) = m ((c : Thread nD τ).loc main_arg21) :=
  (W34_of_ne m ρ c main_arg21 (by decide)).trans <| (after16_of _ main_arg21 (by decide)).trans <| (W32_of_ne m ρ c main_arg21 (by decide)).trans <| (after15_of _ main_arg21 (by decide)).trans <| (W30_of_ne m ρ c main_arg21 (by decide)).trans <| (after14_of _ main_arg21 (by decide)).trans <| (W28_of_ne m ρ c main_arg21 (by decide)).trans <| (after13_of _ main_arg21 (by decide)).trans <| (W26_of_ne m ρ c main_arg21 (by decide)).trans <| (after12_of _ main_arg21 (by decide)).trans <| (W24_of_ne m ρ c main_arg21 (by decide)).trans <| (after11_of _ main_arg21 (by decide)).trans <| (W22_of_ne m ρ c main_arg21 (by decide)).trans <| (after10_of _ main_arg21 (by decide)).trans <| (W20_of_ne m ρ c main_arg21 (by decide)).trans <| (after9_of _ main_arg21 (by decide)).trans <| (W18_of_ne m ρ c main_arg21 (by decide)).trans <| (after8_of _ main_arg21 (by decide)).trans <| (W16_of_ne m ρ c main_arg21 (by decide)).trans <| (after7_of _ main_arg21 (by decide)).trans <| (W14_of_ne m ρ c main_arg21 (by decide)).trans <| (after6_of _ main_arg21 (by decide)).trans <| (W12_of_ne m ρ c main_arg21 (by decide)).trans <| (after5_of _ main_arg21 (by decide)).trans <| (W10_of_ne m ρ c main_arg21 (by decide)).trans <| (after4_of _ main_arg21 (by decide)).trans <| (W8_of_ne m ρ c main_arg21 (by decide)).trans <| (after3_of _ main_arg21 (by decide)).trans <| (W6_of_ne m ρ c main_arg21 (by decide)).trans <| (after2_of _ main_arg21 (by decide)).trans <| (W4_of_ne m ρ c main_arg21 (by decide)).trans <| (after1_of _ main_arg21 (by decide)).trans <| (W2_of_ne m ρ c main_arg21 (by decide)).trans <| (after0_of _ main_arg21 (by decide)).trans <| rfl
theorem W34_main_arg22 (c : Dev nD) : W34 m ρ c (Proc.devRef .tc main_arg22) = m ((c : Thread nD τ).loc main_arg22) :=
  (W34_of_ne m ρ c main_arg22 (by decide)).trans <| (after16_of _ main_arg22 (by decide)).trans <| (W32_of_ne m ρ c main_arg22 (by decide)).trans <| (after15_of _ main_arg22 (by decide)).trans <| (W30_of_ne m ρ c main_arg22 (by decide)).trans <| (after14_of _ main_arg22 (by decide)).trans <| (W28_of_ne m ρ c main_arg22 (by decide)).trans <| (after13_of _ main_arg22 (by decide)).trans <| (W26_of_ne m ρ c main_arg22 (by decide)).trans <| (after12_of _ main_arg22 (by decide)).trans <| (W24_of_ne m ρ c main_arg22 (by decide)).trans <| (after11_of _ main_arg22 (by decide)).trans <| (W22_of_ne m ρ c main_arg22 (by decide)).trans <| (after10_of _ main_arg22 (by decide)).trans <| (W20_of_ne m ρ c main_arg22 (by decide)).trans <| (after9_of _ main_arg22 (by decide)).trans <| (W18_of_ne m ρ c main_arg22 (by decide)).trans <| (after8_of _ main_arg22 (by decide)).trans <| (W16_of_ne m ρ c main_arg22 (by decide)).trans <| (after7_of _ main_arg22 (by decide)).trans <| (W14_of_ne m ρ c main_arg22 (by decide)).trans <| (after6_of _ main_arg22 (by decide)).trans <| (W12_of_ne m ρ c main_arg22 (by decide)).trans <| (after5_of _ main_arg22 (by decide)).trans <| (W10_of_ne m ρ c main_arg22 (by decide)).trans <| (after4_of _ main_arg22 (by decide)).trans <| (W8_of_ne m ρ c main_arg22 (by decide)).trans <| (after3_of _ main_arg22 (by decide)).trans <| (W6_of_ne m ρ c main_arg22 (by decide)).trans <| (after2_of _ main_arg22 (by decide)).trans <| (W4_of_ne m ρ c main_arg22 (by decide)).trans <| (after1_of _ main_arg22 (by decide)).trans <| (W2_of_ne m ρ c main_arg22 (by decide)).trans <| (after0_of _ main_arg22 (by decide)).trans <| rfl
theorem W34_main_arg23 (c : Dev nD) : W34 m ρ c (Proc.devRef .tc main_arg23) = m ((c : Thread nD τ).loc main_arg23) :=
  (W34_of_ne m ρ c main_arg23 (by decide)).trans <| (after16_of _ main_arg23 (by decide)).trans <| (W32_of_ne m ρ c main_arg23 (by decide)).trans <| (after15_of _ main_arg23 (by decide)).trans <| (W30_of_ne m ρ c main_arg23 (by decide)).trans <| (after14_of _ main_arg23 (by decide)).trans <| (W28_of_ne m ρ c main_arg23 (by decide)).trans <| (after13_of _ main_arg23 (by decide)).trans <| (W26_of_ne m ρ c main_arg23 (by decide)).trans <| (after12_of _ main_arg23 (by decide)).trans <| (W24_of_ne m ρ c main_arg23 (by decide)).trans <| (after11_of _ main_arg23 (by decide)).trans <| (W22_of_ne m ρ c main_arg23 (by decide)).trans <| (after10_of _ main_arg23 (by decide)).trans <| (W20_of_ne m ρ c main_arg23 (by decide)).trans <| (after9_of _ main_arg23 (by decide)).trans <| (W18_of_ne m ρ c main_arg23 (by decide)).trans <| (after8_of _ main_arg23 (by decide)).trans <| (W16_of_ne m ρ c main_arg23 (by decide)).trans <| (after7_of _ main_arg23 (by decide)).trans <| (W14_of_ne m ρ c main_arg23 (by decide)).trans <| (after6_of _ main_arg23 (by decide)).trans <| (W12_of_ne m ρ c main_arg23 (by decide)).trans <| (after5_of _ main_arg23 (by decide)).trans <| (W10_of_ne m ρ c main_arg23 (by decide)).trans <| (after4_of _ main_arg23 (by decide)).trans <| (W8_of_ne m ρ c main_arg23 (by decide)).trans <| (after3_of _ main_arg23 (by decide)).trans <| (W6_of_ne m ρ c main_arg23 (by decide)).trans <| (after2_of _ main_arg23 (by decide)).trans <| (W4_of_ne m ρ c main_arg23 (by decide)).trans <| (after1_of _ main_arg23 (by decide)).trans <| (W2_of_ne m ρ c main_arg23 (by decide)).trans <| (after0_of _ main_arg23 (by decide)).trans <| rfl
theorem W34_main_arg24 (c : Dev nD) : W34 m ρ c (Proc.devRef .tc main_arg24) = m ((c : Thread nD τ).loc main_arg24) :=
  (W34_of_ne m ρ c main_arg24 (by decide)).trans <| (after16_of _ main_arg24 (by decide)).trans <| (W32_of_ne m ρ c main_arg24 (by decide)).trans <| (after15_of _ main_arg24 (by decide)).trans <| (W30_of_ne m ρ c main_arg24 (by decide)).trans <| (after14_of _ main_arg24 (by decide)).trans <| (W28_of_ne m ρ c main_arg24 (by decide)).trans <| (after13_of _ main_arg24 (by decide)).trans <| (W26_of_ne m ρ c main_arg24 (by decide)).trans <| (after12_of _ main_arg24 (by decide)).trans <| (W24_of_ne m ρ c main_arg24 (by decide)).trans <| (after11_of _ main_arg24 (by decide)).trans <| (W22_of_ne m ρ c main_arg24 (by decide)).trans <| (after10_of _ main_arg24 (by decide)).trans <| (W20_of_ne m ρ c main_arg24 (by decide)).trans <| (after9_of _ main_arg24 (by decide)).trans <| (W18_of_ne m ρ c main_arg24 (by decide)).trans <| (after8_of _ main_arg24 (by decide)).trans <| (W16_of_ne m ρ c main_arg24 (by decide)).trans <| (after7_of _ main_arg24 (by decide)).trans <| (W14_of_ne m ρ c main_arg24 (by decide)).trans <| (after6_of _ main_arg24 (by decide)).trans <| (W12_of_ne m ρ c main_arg24 (by decide)).trans <| (after5_of _ main_arg24 (by decide)).trans <| (W10_of_ne m ρ c main_arg24 (by decide)).trans <| (after4_of _ main_arg24 (by decide)).trans <| (W8_of_ne m ρ c main_arg24 (by decide)).trans <| (after3_of _ main_arg24 (by decide)).trans <| (W6_of_ne m ρ c main_arg24 (by decide)).trans <| (after2_of _ main_arg24 (by decide)).trans <| (W4_of_ne m ρ c main_arg24 (by decide)).trans <| (after1_of _ main_arg24 (by decide)).trans <| (W2_of_ne m ρ c main_arg24 (by decide)).trans <| (after0_of _ main_arg24 (by decide)).trans <| rfl
theorem W34_main_arg25 (c : Dev nD) : W34 m ρ c (Proc.devRef .tc main_arg25) = m ((c : Thread nD τ).loc main_arg25) :=
  (W34_of_ne m ρ c main_arg25 (by decide)).trans <| (after16_of _ main_arg25 (by decide)).trans <| (W32_of_ne m ρ c main_arg25 (by decide)).trans <| (after15_of _ main_arg25 (by decide)).trans <| (W30_of_ne m ρ c main_arg25 (by decide)).trans <| (after14_of _ main_arg25 (by decide)).trans <| (W28_of_ne m ρ c main_arg25 (by decide)).trans <| (after13_of _ main_arg25 (by decide)).trans <| (W26_of_ne m ρ c main_arg25 (by decide)).trans <| (after12_of _ main_arg25 (by decide)).trans <| (W24_of_ne m ρ c main_arg25 (by decide)).trans <| (after11_of _ main_arg25 (by decide)).trans <| (W22_of_ne m ρ c main_arg25 (by decide)).trans <| (after10_of _ main_arg25 (by decide)).trans <| (W20_of_ne m ρ c main_arg25 (by decide)).trans <| (after9_of _ main_arg25 (by decide)).trans <| (W18_of_ne m ρ c main_arg25 (by decide)).trans <| (after8_of _ main_arg25 (by decide)).trans <| (W16_of_ne m ρ c main_arg25 (by decide)).trans <| (after7_of _ main_arg25 (by decide)).trans <| (W14_of_ne m ρ c main_arg25 (by decide)).trans <| (after6_of _ main_arg25 (by decide)).trans <| (W12_of_ne m ρ c main_arg25 (by decide)).trans <| (after5_of _ main_arg25 (by decide)).trans <| (W10_of_ne m ρ c main_arg25 (by decide)).trans <| (after4_of _ main_arg25 (by decide)).trans <| (W8_of_ne m ρ c main_arg25 (by decide)).trans <| (after3_of _ main_arg25 (by decide)).trans <| (W6_of_ne m ρ c main_arg25 (by decide)).trans <| (after2_of _ main_arg25 (by decide)).trans <| (W4_of_ne m ρ c main_arg25 (by decide)).trans <| (after1_of _ main_arg25 (by decide)).trans <| (W2_of_ne m ρ c main_arg25 (by decide)).trans <| (after0_of _ main_arg25 (by decide)).trans <| rfl

end Cert.Kernel.Fr

end
-- ==== Proof.KB.Frame.lean ====
import proofs.«173394_j29068338659455_2_alg».proof.Proof.KB.Main
import proofs.«173394_j29068338659455_2_alg».proof.Proof.KB.Kept

/-! The frame: every weakly fair execution terminates without a fault and every argument array ends as launched; and the two result
arrays end at the last boundary's contents. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c _ (mem_uc main_arg0 (by decide))).trans (W34_main_arg0 m ρ c),
      (h c _ (mem_uc main_arg1 (by decide))).trans (W34_main_arg1 m ρ c),
      (h c _ (mem_uc main_arg2 (by decide))).trans (W34_main_arg2 m ρ c),
      (h c _ (mem_uc main_arg3 (by decide))).trans (W34_main_arg3 m ρ c),
      (h c _ (mem_uc main_arg4 (by decide))).trans (W34_main_arg4 m ρ c),
      (h c _ (mem_uc main_arg5 (by decide))).trans (W34_main_arg5 m ρ c),
      (h c _ (mem_uc main_arg6 (by decide))).trans (W34_main_arg6 m ρ c),
      (h c _ (mem_uc main_arg7 (by decide))).trans (W34_main_arg7 m ρ c),
      (h c _ (mem_uc main_arg8 (by decide))).trans (W34_main_arg8 m ρ c),
      (h c _ (mem_uc main_arg9 (by decide))).trans (W34_main_arg9 m ρ c),
      (h c _ (mem_uc main_arg10 (by decide))).trans (W34_main_arg10 m ρ c),
      (h c _ (mem_uc main_arg11 (by decide))).trans (W34_main_arg11 m ρ c),
      (h c _ (mem_uc main_arg12 (by decide))).trans (W34_main_arg12 m ρ c),
      (h c _ (mem_uc main_arg13 (by decide))).trans (W34_main_arg13 m ρ c),
      (h c _ (mem_uc main_arg14 (by decide))).trans (W34_main_arg14 m ρ c),
      (h c _ (mem_uc main_arg15 (by decide))).trans (W34_main_arg15 m ρ c),
      (h c _ (mem_uc main_arg16 (by decide))).trans (W34_main_arg16 m ρ c),
      (h c _ (mem_uc main_arg17 (by decide))).trans (W34_main_arg17 m ρ c),
      (h c _ (mem_uc main_arg18 (by decide))).trans (W34_main_arg18 m ρ c),
      (h c _ (mem_uc main_arg19 (by decide))).trans (W34_main_arg19 m ρ c),
      (h c _ (mem_uc main_arg20 (by decide))).trans (W34_main_arg20 m ρ c),
      (h c _ (mem_uc main_arg21 (by decide))).trans (W34_main_arg21 m ρ c),
      (h c _ (mem_uc main_arg22 (by decide))).trans (W34_main_arg22 m ρ c),
      (h c _ (mem_uc main_arg23 (by decide))).trans (W34_main_arg23 m ρ c),
      (h c _ (mem_uc main_arg24 (by decide))).trans (W34_main_arg24 m ρ c),
      (h c _ (mem_uc main_arg25 (by decide))).trans (W34_main_arg25 m ρ c)⟩) (run_all m ρ)

/-- The run with the two results named: the final voxel features and the attention weights at the last boundary's contents,
    every argument as launched. -/
theorem run_results : θ_run defs (onTc (τ := τ) (main (F := F))) ⟨m, fun _ => 0, ρ⟩ (fun r => ∀ c : Dev nD,
      r.2.mem ((c.tc : Thread nD τ).loc main_v351) = W34 m ρ c (Proc.devRef .tc main_v351)
      ∧ r.2.mem ((c.tc : Thread nD τ).loc main_v278) = W34 m ρ c (Proc.devRef .tc main_v278)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨h c _ (mem_uc main_v351 (by decide)), h c _ (mem_uc main_v278 (by decide)), (h c _ (mem_uc main_arg0 (by decide))).trans (W34_main_arg0 m ρ c),
      (h c _ (mem_uc main_arg1 (by decide))).trans (W34_main_arg1 m ρ c),
      (h c _ (mem_uc main_arg2 (by decide))).trans (W34_main_arg2 m ρ c),
      (h c _ (mem_uc main_arg3 (by decide))).trans (W34_main_arg3 m ρ c),
      (h c _ (mem_uc main_arg4 (by decide))).trans (W34_main_arg4 m ρ c),
      (h c _ (mem_uc main_arg5 (by decide))).trans (W34_main_arg5 m ρ c),
      (h c _ (mem_uc main_arg6 (by decide))).trans (W34_main_arg6 m ρ c),
      (h c _ (mem_uc main_arg7 (by decide))).trans (W34_main_arg7 m ρ c),
      (h c _ (mem_uc main_arg8 (by decide))).trans (W34_main_arg8 m ρ c),
      (h c _ (mem_uc main_arg9 (by decide))).trans (W34_main_arg9 m ρ c),
      (h c _ (mem_uc main_arg10 (by decide))).trans (W34_main_arg10 m ρ c),
      (h c _ (mem_uc main_arg11 (by decide))).trans (W34_main_arg11 m ρ c),
      (h c _ (mem_uc main_arg12 (by decide))).trans (W34_main_arg12 m ρ c),
      (h c _ (mem_uc main_arg13 (by decide))).trans (W34_main_arg13 m ρ c),
      (h c _ (mem_uc main_arg14 (by decide))).trans (W34_main_arg14 m ρ c),
      (h c _ (mem_uc main_arg15 (by decide))).trans (W34_main_arg15 m ρ c),
      (h c _ (mem_uc main_arg16 (by decide))).trans (W34_main_arg16 m ρ c),
      (h c _ (mem_uc main_arg17 (by decide))).trans (W34_main_arg17 m ρ c),
      (h c _ (mem_uc main_arg18 (by decide))).trans (W34_main_arg18 m ρ c),
      (h c _ (mem_uc main_arg19 (by decide))).trans (W34_main_arg19 m ρ c),
      (h c _ (mem_uc main_arg20 (by decide))).trans (W34_main_arg20 m ρ c),
      (h c _ (mem_uc main_arg21 (by decide))).trans (W34_main_arg21 m ρ c),
      (h c _ (mem_uc main_arg22 (by decide))).trans (W34_main_arg22 m ρ c),
      (h c _ (mem_uc main_arg23 (by decide))).trans (W34_main_arg23 m ρ c),
      (h c _ (mem_uc main_arg24 (by decide))).trans (W34_main_arg24 m ρ c),
      (h c _ (mem_uc main_arg25 (by decide))).trans (W34_main_arg25 m ρ c)⟩) (run_all m ρ)

end Cert.Kernel.Fr

end
-- ==== Proof.KI.R0.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 0 of the program (kernel function `cc0_kernel`), at any contents `V` of the core's buffers on entry.
A grid point loads each input window's block whole, loads and then overwrites the output window's block whole with one
value, a pure function of the input blocks. So after the body the output's staging buffer holds that function of the input
blocks (`out0`), each input's buffer is unchanged, and the pipeline's invariant is untouched: this is the body obligation
of the pipeline at every grid point, for the proof data `dat0`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

/-- The output window's staging buffer after the body, from the input windows' blocks: its one whole store. -/
def out0 (x0 : Vec F S5000x64 .bf16) (x1 : Vec F S64x128 .bf16) (x2 : Vec F S1x128 .f32) : Vec F S5000x128 .f32 :=
  View.canon [⟨r0_3, k0_pay1 (View.ld x0 r0_0) (View.ld x1 r0_1) (View.ld x2 r0_2)⟩]

/-- The one store covers the buffer. -/
theorem cover0 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in
/-- The kernel body on whole staging memrefs, the inputs' at contents `xW` and the output's at anything, runs to the
    continuation holding the inputs' as they were and the output's at `out0` of the inputs'. -/
theorem sound_kernel0 (c : Dev nD) (E : Set ℕ) (i : grid0.Coords) (arg1 : Memref sig .tc .vmem S5000x64 .bf16) (harg1 : arg1.IsWhole) (arg2 : Memref sig .tc .vmem S64x128 .bf16) (harg2 : arg2.IsWhole) (arg3 : Memref sig .tc .vmem S1x128 .f32) (harg3 : arg3.IsWhole) (arg4 : Memref sig .tc .vmem S5000x128 .f32) (harg4 : arg4.IsWhole)
    (x0 : Vec F S5000x64 .bf16) (x1 : Vec F S64x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover0 _)

/-- The proof data of pipeline 0 on core `c`: the arrays as the region finds them; after the body at point `t` each
    input's buffer at its block and the output's at `out0` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 1 of the program (kernel function `cc1_kernel`), at any contents `V` of the core's buffers on entry.
A grid point loads each input window's block whole, loads and then overwrites the output window's block whole with one
value, a pure function of the input blocks. So after the body the output's staging buffer holds that function of the input
blocks (`out1`), each input's buffer is unchanged, and the pipeline's invariant is untouched: this is the body obligation
of the pipeline at every grid point, for the proof data `dat1`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0
abbrev r1_1 : Rect S128x256 := Rect.unit (s := S128x256) ![0, 0] S128x256.size inb_S128x256_S128x256_0_0
abbrev r1_2 : Rect S1x256 := Rect.unit (s := S1x256) ![0, 0] S1x256.size inb_S1x256_S1x256_0_0
abbrev r1_3 : Rect S5000x256 := Rect.unit (s := S5000x256) ![0, 0] S5000x256.size inb_S5000x256_S5000x256_0_0

/-- The output window's staging buffer after the body, from the input windows' blocks: its one whole store. -/
def out1 (x0 : Vec F S5000x128 .bf16) (x1 : Vec F S128x256 .bf16) (x2 : Vec F S1x256 .f32) : Vec F S5000x256 .bf16 :=
  View.canon [⟨r1_3, k1_pay1 (View.ld x0 r1_0) (View.ld x1 r1_1) (View.ld x2 r1_2)⟩]

/-- The one store covers the buffer. -/
theorem cover1 (p0 : Vec F S5000x256 .bf16) (y : S5000x256.Idx) :
    ∃ pc ∈ ([⟨r1_3, p0⟩] : List (View.Piece (Elt F) S5000x256 .bf16)), y ∈ pc.1.set :=
  View.cover_of_tiled [⟨r1_3, p0⟩] S5000x256.size (by rfl) y

set_option maxHeartbeats 1000000 in
/-- The kernel body on whole staging memrefs, the inputs' at contents `xW` and the output's at anything, runs to the
    continuation holding the inputs' as they were and the output's at `out1` of the inputs'. -/
theorem sound_kernel1 (c : Dev nD) (E : Set ℕ) (i : grid1.Coords) (arg1 : Memref sig .tc .vmem S5000x128 .bf16) (harg1 : arg1.IsWhole) (arg2 : Memref sig .tc .vmem S128x256 .bf16) (harg2 : arg2.IsWhole) (arg3 : Memref sig .tc .vmem S1x256 .f32) (harg3 : arg3.IsWhole) (arg4 : Memref sig .tc .vmem S5000x256 .bf16) (harg4 : arg4.IsWhole)
    (x0 : Vec F S5000x128 .bf16) (x1 : Vec F S128x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover1 _)

/-- The proof data of pipeline 1 on core `c`: the arrays as the region finds them; after the body at point `t` each
    input's buffer at its block and the output's at `out1` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.R2.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 2 of the program (kernel function `cc2_kernel`), at any contents `V` of the core's buffers on entry.
A grid point loads each input window's block whole, loads and then overwrites the output window's block whole with one
value, a pure function of the input blocks. So after the body the output's staging buffer holds that function of the input
blocks (`out2`), each input's buffer is unchanged, and the pipeline's invariant is untouched: this is the body obligation
of the pipeline at every grid point, for the proof data `dat2`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S8000x128 := Rect.unit (s := S8000x128) ![0, 0] S8000x128.size inb_S8000x128_S8000x128_0_0
abbrev r2_1 : Rect S8000x128 := Rect.unit (s := S8000x128) ![0, 0] S8000x128.size inb_S8000x128_S8000x128_0_0
abbrev r2_2 : Rect S1x128 := Rect.unit (s := S1x128) ![0, 0] S1x128.size inb_S1x128_S1x128_0_0
abbrev r2_3 : Rect S8000x128 := Rect.unit (s := S8000x128) ![0, 0] S8000x128.size inb_S8000x128_S8000x128_0_0

/-- The output window's staging buffer after the body, from the input windows' blocks: its one whole store. -/
def out2 (x0 : Vec F S8000x128 .bf16) (x1 : Vec F S8000x128 .bf16) (x2 : Vec F S1x128 .f32) : Vec F S8000x128 .f32 :=
  View.canon [⟨r2_3, k2_pay1 (View.ld x0 r2_0) (View.ld x1 r2_1) (View.ld x2 r2_2)⟩]

/-- The one store covers the buffer. -/
theorem cover2 (p0 : Vec F S8000x128 .f32) (y : S8000x128.Idx) :
    ∃ pc ∈ ([⟨r2_3, p0⟩] : List (View.Piece (Elt F) S8000x128 .f32)), y ∈ pc.1.set :=
  View.cover_of_tiled [⟨r2_3, p0⟩] S8000x128.size (by rfl) y

set_option maxHeartbeats 1000000 in
/-- The kernel body on whole staging memrefs, the inputs' at contents `xW` and the output's at anything, runs to the
    continuation holding the inputs' as they were and the output's at `out2` of the inputs'. -/
theorem sound_kernel2 (c : Dev nD) (E : Set ℕ) (i : grid2.Coords) (arg1 : Memref sig .tc .vmem S8000x128 .bf16) (harg1 : arg1.IsWhole) (arg2 : Memref sig .tc .vmem S8000x128 .bf16) (harg2 : arg2.IsWhole) (arg3 : Memref sig .tc .vmem S1x128 .f32) (harg3 : arg3.IsWhole) (arg4 : Memref sig .tc .vmem S8000x128 .f32) (harg4 : arg4.IsWhole)
    (x0 : Vec F S8000x128 .bf16) (x1 : Vec F S8000x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover2 _)

/-- The proof data of pipeline 2 on core `c`: the arrays as the region finds them; after the body at point `t` each
    input's buffer at its block and the output's at `out2` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.R3.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 3 of the program (kernel function `cc3_kernel`), at any contents `V` of the core's buffers on entry.
A grid point loads each input window's block whole, loads and then overwrites the output window's block whole with one
value, a pure function of the input blocks. So after the body the output's staging buffer holds that function of the input
blocks (`out3`), each input's buffer is unchanged, and the pipeline's invariant is untouched: this is the body obligation
of the pipeline at every grid point, for the proof data `dat3`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x384 := Rect.unit (s := S5000x384) ![0, 0] S5000x384.size inb_S5000x384_S5000x384_0_0
abbrev r3_1 : Rect S384x128 := Rect.unit (s := S384x128) ![0, 0] S384x128.size inb_S384x128_S384x128_0_0
abbrev r3_2 : Rect S1x128 := Rect.unit (s := S1x128) ![0, 0] S1x128.size inb_S1x128_S1x128_0_0
abbrev r3_3 : Rect S5000x128 := Rect.unit (s := S5000x128) ![0, 0] S5000x128.size inb_S5000x128_S5000x128_0_0
abbrev r3_4 : Rect S5000x128 := Rect.unit (s := S5000x128) ![0, 0] S5000x128.size inb_S5000x128_S5000x128_0_0

/-- The output window's staging buffer after the body, from the input windows' blocks: its one whole store. -/
def out3 (x0 : Vec F S5000x384 .bf16) (x1 : Vec F S384x128 .bf16) (x2 : Vec F S1x128 .f32) (x3 : Vec F S5000x128 .f32) : Vec F S5000x128 .f32 :=
  View.canon [⟨r3_4, k3_pay1 (View.ld x0 r3_0) (View.ld x1 r3_1) (View.ld x2 r3_2) (View.ld x3 r3_3)⟩]

/-- The one store covers the buffer. -/
theorem cover3 (p0 : Vec F S5000x128 .f32) (y : S5000x128.Idx) :
    ∃ pc ∈ ([⟨r3_4, p0⟩] : List (View.Piece (Elt F) S5000x128 .f32)), y ∈ pc.1.set :=
  View.cover_of_tiled [⟨r3_4, p0⟩] S5000x128.size (by rfl) y

set_option maxHeartbeats 1000000 in
/-- The kernel body on whole staging memrefs, the inputs' at contents `xW` and the output's at anything, runs to the
    continuation holding the inputs' as they were and the output's at `out3` of the inputs'. -/
theorem sound_kernel3 (c : Dev nD) (E : Set ℕ) (i : grid3.Coords) (arg1 : Memref sig .tc .vmem S5000x384 .bf16) (harg1 : arg1.IsWhole) (arg2 : Memref sig .tc .vmem S384x128 .bf16) (harg2 : arg2.IsWhole) (arg3 : Memref sig .tc .vmem S1x128 .f32) (harg3 : arg3.IsWhole) (arg4 : Memref sig .tc .vmem S5000x128 .f32) (harg4 : arg4.IsWhole) (arg5 : Memref sig .tc .vmem S5000x128 .f32) (harg5 : arg5.IsWhole)
    (x0 : Vec F S5000x384 .bf16) (x1 : Vec F S384x128 .bf16) (x2 : Vec F S1x128 .f32) (x3 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3 x0 x1 x2 x3)) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover3 _)

/-- The proof data of pipeline 3 on core `c`: the arrays as the region finds them; after the body at point `t` each
    input's buffer at its block and the output's at `out3` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.R4.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 4 of the program (kernel function `cc4_kernel`), at any contents `V` of the core's buffers on entry.
A grid point loads each input window's block whole, loads and then overwrites the output window's block whole with one
value, a pure function of the input blocks. So after the body the output's staging buffer holds that function of the input
blocks (`out4`), each input's buffer is unchanged, and the pipeline's invariant is untouched: this is the body obligation
of the pipeline at every grid point, for the proof data `dat4`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is the entry contents and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is the entry contents and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S5000x128 := Rect.unit (s := S5000x128) ![0, 0] S5000x128.size inb_S5000x128_S5000x128_0_0
abbrev r4_1 : Rect S128x256 := Rect.unit (s := S128x256) ![0, 0] S128x256.size inb_S128x256_S128x256_0_0
abbrev r4_2 : Rect S1x256 := Rect.unit (s := S1x256) ![0, 0] S1x256.size inb_S1x256_S1x256_0_0
abbrev r4_3 : Rect S5000x256 := Rect.unit (s := S5000x256) ![0, 0] S5000x256.size inb_S5000x256_S5000x256_0_0

/-- The output window's staging buffer after the body, from the input windows' blocks: its one whole store. -/
def out4 (x0 : Vec F S5000x128 .bf16) (x1 : Vec F S128x256 .bf16) (x2 : Vec F S1x256 .f32) : Vec F S5000x256 .bf16 :=
  View.canon [⟨r4_3, k4_pay1 (View.ld x0 r4_0) (View.ld x1 r4_1) (View.ld x2 r4_2)⟩]

/-- The one store covers the buffer. -/
theorem cover4 (p0 : Vec F S5000x256 .bf16) (y : S5000x256.Idx) :
    ∃ pc ∈ ([⟨r4_3, p0⟩] : List (View.Piece (Elt F) S5000x256 .bf16)), y ∈ pc.1.set :=
  View.cover_of_tiled [⟨r4_3, p0⟩] S5000x256.size (by rfl) y

set_option maxHeartbeats 1000000 in
/-- The kernel body on whole staging memrefs, the inputs' at contents `xW` and the output's at anything, runs to the
    continuation holding the inputs' as they were and the output's at `out4` of the inputs'. -/
theorem sound_kernel4 (c : Dev nD) (E : Set ℕ) (i : grid4.Coords) (arg1 : Memref sig .tc .vmem S5000x128 .bf16) (harg1 : arg1.IsWhole) (arg2 : Memref sig .tc .vmem S128x256 .bf16) (harg2 : arg2.IsWhole) (arg3 : Memref sig .tc .vmem S1x256 .f32) (harg3 : arg3.IsWhole) (arg4 : Memref sig .tc .vmem S5000x256 .bf16) (harg4 : arg4.IsWhole)
    (x0 : Vec F S5000x128 .bf16) (x1 : Vec F S128x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4 x0 x1 x2)) -∗ K ⟨⟩))
      ⊢ wp frame (wpE (defs₀ (F := F)) Variants.none c none) E (cc4_kernel i arg1 harg1 arg2 harg2 arg3 harg3 arg4 harg4) K := by
  simp only [cc4_kernel_eq_skeleton]; unfold cc4_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover4 _)

/-- The proof data of pipeline 4 on core `c`: the arrays as the region finds them; after the body at point `t` each
    input's buffer at its block and the output's at `out4` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.R5.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 5 of the program (kernel function `cc5_kernel`), at any contents `V` of the core's buffers on entry.
A grid point loads each input window's block whole, loads and then overwrites the output window's block whole with one
value, a pure function of the input blocks. So after the body the output's staging buffer holds that function of the input
blocks (`out5`), each input's buffer is unchanged, and the pipeline's invariant is untouched: this is the body obligation
of the pipeline at every grid point, for the proof data `dat5`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data
    whose array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data
    whose array is the entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data
    whose array is the entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S8000x128 := Rect.unit (s := S8000x128) ![0, 0] S8000x128.size inb_S8000x128_S8000x128_0_0
abbrev r5_1 : Rect S8000x128 := Rect.unit (s := S8000x128) ![0, 0] S8000x128.size inb_S8000x128_S8000x128_0_0
abbrev r5_2 : Rect S1x128 := Rect.unit (s := S1x128) ![0, 0] S1x128.size inb_S1x128_S1x128_0_0
abbrev r5_3 : Rect S8000x128 := Rect.unit (s := S8000x128) ![0, 0] S8000x128.size inb_S8000x128_S8000x128_0_0

/-- The output window's staging buffer after the body, from the input windows' blocks: its one whole store. -/
def out5 (x0 : Vec F S8000x128 .bf16) (x1 : Vec F S8000x128 .bf16) (x2 : Vec F S1x128 .f32) : Vec F S8000x128 .f32 :=
  View.canon [⟨r5_3, k5_pay1 (View.ld x0 r5_0) (View.ld x1 r5_1) (View.ld x2 r5_2)⟩]

/-- The one store covers the buffer. -/
theorem cover5 (p0 : Vec F S8000x128 .f32) (y : S8000x128.Idx) :
    ∃ pc ∈ ([⟨r5_3, p0⟩] : List (View.Piece (Elt F) S8000x128 .f32)), y ∈ pc.1.set :=
  View.cover_of_tiled [⟨r5_3, p0⟩] S8000x128.size (by rfl) y

set_option maxHeartbeats 1000000 in
/-- The kernel body on whole staging memrefs, the inputs' at contents `xW` and the output's at anything, runs to the
    continuation holding the inputs' as they were and the output's at `out5` of the inputs'. -/
theorem sound_kernel5 (c : Dev nD) (E : Set ℕ) (i : grid5.Coords) (arg1 : Memref sig .tc .vmem S8000x128 .bf16) (harg1 : arg1.IsWhole) (arg2 : Memref sig .tc .vmem S8000x128 .bf16) (harg2 : arg2.IsWhole) (arg3 : Memref sig .tc .vmem S1x128 .f32) (harg3 : arg3.IsWhole) (arg4 : Memref sig .tc .vmem S8000x128 .f32) (harg4 : arg4.IsWhole)
    (x0 : Vec F S8000x128 .bf16) (x1 : Vec F S8000x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover5 _)

/-- The proof data of pipeline 5 on core `c`: the arrays as the region finds them; after the body at point `t` each
    input's buffer at its block and the output's at `out5` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.R6.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 6 of the program (kernel function `cc6_kernel`), at any contents `V` of the core's buffers on entry.
A grid point loads each input window's block whole, loads and then overwrites the output window's block whole with one
value, a pure function of the input blocks. So after the body the output's staging buffer holds that function of the input
blocks (`out6`), each input's buffer is unchanged, and the pipeline's invariant is untouched: this is the body obligation
of the pipeline at every grid point, for the proof data `dat6`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof data
    whose array is the entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof data
    whose array is the entry contents and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof data
    whose array is the entry contents and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof data
    whose array is the entry contents and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S5000x384 := Rect.unit (s := S5000x384) ![0, 0] S5000x384.size inb_S5000x384_S5000x384_0_0
abbrev r6_1 : Rect S384x128 := Rect.unit (s := S384x128) ![0, 0] S384x128.size inb_S384x128_S384x128_0_0
abbrev r6_2 : Rect S1x128 := Rect.unit (s := S1x128) ![0, 0] S1x128.size inb_S1x128_S1x128_0_0
abbrev r6_3 : Rect S5000x128 := Rect.unit (s := S5000x128) ![0, 0] S5000x128.size inb_S5000x128_S5000x128_0_0
abbrev r6_4 : Rect S5000x128 := Rect.unit (s := S5000x128) ![0, 0] S5000x128.size inb_S5000x128_S5000x128_0_0

/-- The output window's staging buffer after the body, from the input windows' blocks: its one whole store. -/
def out6 (x0 : Vec F S5000x384 .bf16) (x1 : Vec F S384x128 .bf16) (x2 : Vec F S1x128 .f32) (x3 : Vec F S5000x128 .f32) : Vec F S5000x128 .f32 :=
  View.canon [⟨r6_4, k6_pay1 (View.ld x0 r6_0) (View.ld x1 r6_1) (View.ld x2 r6_2) (View.ld x3 r6_3)⟩]

/-- The one store covers the buffer. -/
theorem cover6 (p0 : Vec F S5000x128 .f32) (y : S5000x128.Idx) :
    ∃ pc ∈ ([⟨r6_4, p0⟩] : List (View.Piece (Elt F) S5000x128 .f32)), y ∈ pc.1.set :=
  View.cover_of_tiled [⟨r6_4, p0⟩] S5000x128.size (by rfl) y

set_option maxHeartbeats 1000000 in
/-- The kernel body on whole staging memrefs, the inputs' at contents `xW` and the output's at anything, runs to the
    continuation holding the inputs' as they were and the output's at `out6` of the inputs'. -/
theorem sound_kernel6 (c : Dev nD) (E : Set ℕ) (i : grid6.Coords) (arg1 : Memref sig .tc .vmem S5000x384 .bf16) (harg1 : arg1.IsWhole) (arg2 : Memref sig .tc .vmem S384x128 .bf16) (harg2 : arg2.IsWhole) (arg3 : Memref sig .tc .vmem S1x128 .f32) (harg3 : arg3.IsWhole) (arg4 : Memref sig .tc .vmem S5000x128 .f32) (harg4 : arg4.IsWhole) (arg5 : Memref sig .tc .vmem S5000x128 .f32) (harg5 : arg5.IsWhole)
    (x0 : Vec F S5000x384 .bf16) (x1 : Vec F S384x128 .bf16) (x2 : Vec F S1x128 .f32) (x3 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6 x0 x1 x2 x3)) -∗ K ⟨⟩))
      ⊢ wp frame (wpE (defs₀ (F := F)) Variants.none c none) E (cc6_kernel i arg1 harg1 arg2 harg2 arg3 harg3 arg4 harg4 arg5 harg5) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover6 _)

/-- The proof data of pipeline 6 on core `c`: the arrays as the region finds them; after the body at point `t` each
    input's buffer at its block and the output's at `out6` of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.R7.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 7 of the program (kernel function `cc7_kernel`), at any contents `V` of the core's buffers on entry.
A grid point loads each input window's block whole, loads and then overwrites the output window's block whole with one
value, a pure function of the input blocks. So after the body the output's staging buffer holds that function of the input
blocks (`out7`), each input's buffer is unchanged, and the pipeline's invariant is untouched: this is the body obligation
of the pipeline at every grid point, for the proof data `dat7`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data
    whose array is the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof data
    whose array is the entry contents and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof data
    whose array is the entry contents and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S5000x128 := Rect.unit (s := S5000x128) ![0, 0] S5000x128.size inb_S5000x128_S5000x128_0_0
abbrev r7_1 : Rect S128x256 := Rect.unit (s := S128x256) ![0, 0] S128x256.size inb_S128x256_S128x256_0_0
abbrev r7_2 : Rect S1x256 := Rect.unit (s := S1x256) ![0, 0] S1x256.size inb_S1x256_S1x256_0_0
abbrev r7_3 : Rect S5000x256 := Rect.unit (s := S5000x256) ![0, 0] S5000x256.size inb_S5000x256_S5000x256_0_0

/-- The output window's staging buffer after the body, from the input windows' blocks: its one whole store. -/
def out7 (x0 : Vec F S5000x128 .bf16) (x1 : Vec F S128x256 .bf16) (x2 : Vec F S1x256 .f32) : Vec F S5000x256 .bf16 :=
  View.canon [⟨r7_3, k7_pay1 (View.ld x0 r7_0) (View.ld x1 r7_1) (View.ld x2 r7_2)⟩]

/-- The one store covers the buffer. -/
theorem cover7 (p0 : Vec F S5000x256 .bf16) (y : S5000x256.Idx) :
    ∃ pc ∈ ([⟨r7_3, p0⟩] : List (View.Piece (Elt F) S5000x256 .bf16)), y ∈ pc.1.set :=
  View.cover_of_tiled [⟨r7_3, p0⟩] S5000x256.size (by rfl) y

set_option maxHeartbeats 1000000 in
/-- The kernel body on whole staging memrefs, the inputs' at contents `xW` and the output's at anything, runs to the
    continuation holding the inputs' as they were and the output's at `out7` of the inputs'. -/
theorem sound_kernel7 (c : Dev nD) (E : Set ℕ) (i : grid7.Coords) (arg1 : Memref sig .tc .vmem S5000x128 .bf16) (harg1 : arg1.IsWhole) (arg2 : Memref sig .tc .vmem S128x256 .bf16) (harg2 : arg2.IsWhole) (arg3 : Memref sig .tc .vmem S1x256 .f32) (harg3 : arg3.IsWhole) (arg4 : Memref sig .tc .vmem S5000x256 .bf16) (harg4 : arg4.IsWhole)
    (x0 : Vec F S5000x128 .bf16) (x1 : Vec F S128x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7 x0 x1 x2)) -∗ K ⟨⟩))
      ⊢ wp frame (wpE (defs₀ (F := F)) Variants.none c none) E (cc7_kernel i arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover7 _)

/-- The proof data of pipeline 7 on core `c`: the arrays as the region finds them; after the body at point `t` each
    input's buffer at its block and the output's at `out7` of the input blocks; the invariant the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KI.R8.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 8 of the program (kernel function `cc8_kernel`), at any contents `V` of the core's buffers on entry.
A grid point loads each input window's block whole, loads and then overwrites the output window's block whole with one
value, a pure function of the input blocks. So after the body the output's staging buffer holds that function of the input
blocks (`out8`), each input's buffer is unchanged, and the pipeline's invariant is untouched: this is the body obligation
of the pipeline at every grid point, for the proof data `dat8`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof data
    whose array is the entry contents and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof data
    whose array is the entry contents and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof data
    whose array is the entry contents and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S8000x128 := Rect.unit (s := S8000x128) ![0, 0] S8000x128.size inb_S8000x128_S8000x128_0_0
abbrev r8_1 : Rect S8000x128 := Rect.unit (s := S8000x128) ![0, 0] S8000x128.size inb_S8000x128_S8000x128_0_0
abbrev r8_2 : Rect S1x128 := Rect.unit (s := S1x128) ![0, 0] S1x128.size inb_S1x128_S1x128_0_0
abbrev r8_3 : Rect S8000x128 := Rect.unit (s := S8000x128) ![0, 0] S8000x128.size inb_S8000x128_S8000x128_0_0

/-- The output window's staging buffer after the body, from the input windows' blocks: its one whole store. -/
def out8 (x0 : Vec F S8000x128 .bf16) (x1 : Vec F S8000x128 .bf16) (x2 : Vec F S1x128 .f32) : Vec F S8000x128 .f32 :=
  View.canon [⟨r8_3, k8_pay1 (View.ld x0 r8_0) (View.ld x1 r8_1) (View.ld x2 r8_2)⟩]

/-- The one store covers the buffer. -/
theorem cover8 (p0 : Vec F S8000x128 .f32) (y : S8000x128.Idx) :
    ∃ pc ∈ ([⟨r8_3, p0⟩] : List (View.Piece (Elt F) S8000x128 .f32)), y ∈ pc.1.set :=
  View.cover_of_tiled [⟨r8_3, p0⟩] S8000x128.size (by rfl) y

set_option maxHeartbeats 1000000 in
/-- The kernel body on whole staging memrefs, the inputs' at contents `xW` and the output's at anything, runs to the
    continuation holding the inputs' as they were and the output's at `out8` of the inputs'. -/
theorem sound_kernel8 (c : Dev nD) (E : Set ℕ) (i : grid8.Coords) (arg1 : Memref sig .tc .vmem S8000x128 .bf16) (harg1 : arg1.IsWhole) (arg2 : Memref sig .tc .vmem S8000x128 .bf16) (harg2 : arg2.IsWhole) (arg3 : Memref sig .tc .vmem S1x128 .f32) (harg3 : arg3.IsWhole) (arg4 : Memref sig .tc .vmem S8000x128 .f32) (harg4 : arg4.IsWhole)
    (x0 : Vec F S8000x128 .bf16) (x1 : Vec F S8000x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8 x0 x1 x2)) -∗ K ⟨⟩))
      ⊢ wp frame (wpE (defs₀ (F := F)) Variants.none c none) E (cc8_kernel i arg1 harg1 arg2 harg2 arg3 harg3 arg4 harg4) K := by
  simp only [cc8_kernel_eq_skeleton]; unfold cc8_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover8 _)

/-- The proof data of pipeline 8 on core `c`: the arrays as the region finds them; after the body at point `t` each
    input's buffer at its block and the output's at `out8` of the input blocks; the invariant the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so `sound_kernel8` applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Fr

end
-- ==== Proof.KI.R9.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 9 of the program (kernel function `cc9_kernel`), at any contents `V` of the core's buffers on entry.
A grid point loads each input window's block whole, loads and then overwrites the output window's block whole with one
value, a pure function of the input blocks. So after the body the output's staging buffer holds that function of the input
blocks (`out9`), each input's buffer is unchanged, and the pipeline's invariant is untouched: this is the body obligation
of the pipeline at every grid point, for the proof data `dat9`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof data
    whose array is the entry contents and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof data
    whose array is the entry contents and whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof data
    whose array is the entry contents and whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof data
    whose array is the entry contents and whose body leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S5000x384 := Rect.unit (s := S5000x384) ![0, 0] S5000x384.size inb_S5000x384_S5000x384_0_0
abbrev r9_1 : Rect S384x128 := Rect.unit (s := S384x128) ![0, 0] S384x128.size inb_S384x128_S384x128_0_0
abbrev r9_2 : Rect S1x128 := Rect.unit (s := S1x128) ![0, 0] S1x128.size inb_S1x128_S1x128_0_0
abbrev r9_3 : Rect S5000x128 := Rect.unit (s := S5000x128) ![0, 0] S5000x128.size inb_S5000x128_S5000x128_0_0
abbrev r9_4 : Rect S5000x128 := Rect.unit (s := S5000x128) ![0, 0] S5000x128.size inb_S5000x128_S5000x128_0_0

/-- The output window's staging buffer after the body, from the input windows' blocks: its one whole store. -/
def out9 (x0 : Vec F S5000x384 .bf16) (x1 : Vec F S384x128 .bf16) (x2 : Vec F S1x128 .f32) (x3 : Vec F S5000x128 .f32) : Vec F S5000x128 .f32 :=
  View.canon [⟨r9_4, k9_pay1 (View.ld x0 r9_0) (View.ld x1 r9_1) (View.ld x2 r9_2) (View.ld x3 r9_3)⟩]

/-- The one store covers the buffer. -/
theorem cover9 (p0 : Vec F S5000x128 .f32) (y : S5000x128.Idx) :
    ∃ pc ∈ ([⟨r9_4, p0⟩] : List (View.Piece (Elt F) S5000x128 .f32)), y ∈ pc.1.set :=
  View.cover_of_tiled [⟨r9_4, p0⟩] S5000x128.size (by rfl) y

set_option maxHeartbeats 1000000 in
/-- The kernel body on whole staging memrefs, the inputs' at contents `xW` and the output's at anything, runs to the
    continuation holding the inputs' as they were and the output's at `out9` of the inputs'. -/
theorem sound_kernel9 (c : Dev nD) (E : Set ℕ) (i : grid9.Coords) (arg1 : Memref sig .tc .vmem S5000x384 .bf16) (harg1 : arg1.IsWhole) (arg2 : Memref sig .tc .vmem S384x128 .bf16) (harg2 : arg2.IsWhole) (arg3 : Memref sig .tc .vmem S1x128 .f32) (harg3 : arg3.IsWhole) (arg4 : Memref sig .tc .vmem S5000x128 .f32) (harg4 : arg4.IsWhole) (arg5 : Memref sig .tc .vmem S5000x128 .f32) (harg5 : arg5.IsWhole)
    (x0 : Vec F S5000x384 .bf16) (x1 : Vec F S384x128 .bf16) (x2 : Vec F S1x128 .f32) (x3 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out9 x0 x1 x2 x3)) -∗ K ⟨⟩))
      ⊢ wp frame (wpE (defs₀ (F := F)) Variants.none c none) E (cc9_kernel i arg1 harg1 arg2 harg2 arg3 harg3 arg4 harg4 arg5 harg5) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover9 _)

/-- The proof data of pipeline 9 on core `c`: the arrays as the region finds them; after the body at point `t` each
    input's buffer at its block and the output's at `out9` of the input blocks; the invariant the scoped rest and the
    generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' memrefs hold their blocks, so `sound_kernel9` applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Fr

end
-- ==== Proof.KI.R10.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 10 of the program (kernel function `cc10_kernel`), at any contents `V` of the core's buffers on entry.
A grid point loads each input window's block whole, loads and then overwrites the output window's block whole with one
value, a pure function of the input blocks. So after the body the output's staging buffer holds that function of the input
blocks (`out10`), each input's buffer is unchanged, and the pipeline's invariant is untouched: this is the body obligation
of the pipeline at every grid point, for the proof data `dat10`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof data
    whose array is the entry contents and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof data
    whose array is the entry contents and whose body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof data
    whose array is the entry contents and whose body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S10000x48 := Rect.unit (s := S10000x48) ![0, 0] S10000x48.size inb_S10000x48_S10000x48_0_0
abbrev r10_1 : Rect S48x128 := Rect.unit (s := S48x128) ![0, 0] S48x128.size inb_S48x128_S48x128_0_0
abbrev r10_2 : Rect S1x128 := Rect.unit (s := S1x128) ![0, 0] S1x128.size inb_S1x128_S1x128_0_0
abbrev r10_3 : Rect S10000x128 := Rect.unit (s := S10000x128) ![0, 0] S10000x128.size inb_S10000x128_S10000x128_0_0

/-- The output window's staging buffer after the body, from the input windows' blocks: its one whole store. -/
def out10 (x0 : Vec F S10000x48 .bf16) (x1 : Vec F S48x128 .bf16) (x2 : Vec F S1x128 .f32) : Vec F S10000x128 .f32 :=
  View.canon [⟨r10_3, k10_pay1 (View.ld x0 r10_0) (View.ld x1 r10_1) (View.ld x2 r10_2)⟩]

/-- The one store covers the buffer. -/
theorem cover10 (p0 : Vec F S10000x128 .f32) (y : S10000x128.Idx) :
    ∃ pc ∈ ([⟨r10_3, p0⟩] : List (View.Piece (Elt F) S10000x128 .f32)), y ∈ pc.1.set :=
  View.cover_of_tiled [⟨r10_3, p0⟩] S10000x128.size (by rfl) y

set_option maxHeartbeats 1000000 in
/-- The kernel body on whole staging memrefs, the inputs' at contents `xW` and the output's at anything, runs to the
    continuation holding the inputs' as they were and the output's at `out10` of the inputs'. -/
theorem sound_kernel10 (c : Dev nD) (E : Set ℕ) (i : grid10.Coords) (arg1 : Memref sig .tc .vmem S10000x48 .bf16) (harg1 : arg1.IsWhole) (arg2 : Memref sig .tc .vmem S48x128 .bf16) (harg2 : arg2.IsWhole) (arg3 : Memref sig .tc .vmem S1x128 .f32) (harg3 : arg3.IsWhole) (arg4 : Memref sig .tc .vmem S10000x128 .f32) (harg4 : arg4.IsWhole)
    (x0 : Vec F S10000x48 .bf16) (x1 : Vec F S48x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out10 x0 x1 x2)) -∗ K ⟨⟩))
      ⊢ wp frame (wpE (defs₀ (F := F)) Variants.none c none) E (cc10_kernel i arg1 harg1 arg2 harg2 arg3 harg3 arg4 harg4) K := by
  simp only [cc10_kernel_eq_skeleton]; unfold cc10_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover10 _)

/-- The proof data of pipeline 10 on core `c`: the arrays as the region finds them; after the body at point `t` each
    input's buffer at its block and the output's at `out10` of the input blocks; the invariant the scoped rest and the
    generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = out10 (iblk10 V c 0 t) (iblk10 V c 1 t) (iblk10 V c 2 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the inputs' memrefs hold their blocks, so `sound_kernel10` applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Fr

end
-- ==== Proof.KI.R11.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 11 of the program (kernel function `cc11_kernel`), at any contents `V` of the core's buffers on entry.
A grid point loads each input window's block whole, loads and then overwrites the output window's block whole with one
value, a pure function of the input blocks. So after the body the output's staging buffer holds that function of the input
blocks (`out11`), each input's buffer is unchanged, and the pipeline's invariant is untouched: this is the body obligation
of the pipeline at every grid point, for the proof data `dat11`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof data
    whose array is the entry contents and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof data
    whose array is the entry contents and whose body leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof data
    whose array is the entry contents and whose body leaves the block in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

abbrev r11_0 : Rect S5000x128 := Rect.unit (s := S5000x128) ![0, 0] S5000x128.size inb_S5000x128_S5000x128_0_0
abbrev r11_1 : Rect S128x128 := Rect.unit (s := S128x128) ![0, 0] S128x128.size inb_S128x128_S128x128_0_0
abbrev r11_2 : Rect S1x128 := Rect.unit (s := S1x128) ![0, 0] S1x128.size inb_S1x128_S1x128_0_0
abbrev r11_3 : Rect S5000x128 := Rect.unit (s := S5000x128) ![0, 0] S5000x128.size inb_S5000x128_S5000x128_0_0

/-- The output window's staging buffer after the body, from the input windows' blocks: its one whole store. -/
def out11 (x0 : Vec F S5000x128 .bf16) (x1 : Vec F S128x128 .bf16) (x2 : Vec F S1x128 .f32) : Vec F S5000x128 .bf16 :=
  View.canon [⟨r11_3, k11_pay1 (View.ld x0 r11_0) (View.ld x1 r11_1) (View.ld x2 r11_2)⟩]

/-- The one store covers the buffer. -/
theorem cover11 (p0 : Vec F S5000x128 .bf16) (y : S5000x128.Idx) :
    ∃ pc ∈ ([⟨r11_3, p0⟩] : List (View.Piece (Elt F) S5000x128 .bf16)), y ∈ pc.1.set :=
  View.cover_of_tiled [⟨r11_3, p0⟩] S5000x128.size (by rfl) y

set_option maxHeartbeats 1000000 in
/-- The kernel body on whole staging memrefs, the inputs' at contents `xW` and the output's at anything, runs to the
    continuation holding the inputs' as they were and the output's at `out11` of the inputs'. -/
theorem sound_kernel11 (c : Dev nD) (E : Set ℕ) (i : grid11.Coords) (arg1 : Memref sig .tc .vmem S5000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S5000x128 .bf16) (harg4 : arg4.IsWhole)
    (x0 : Vec F S5000x128 .bf16) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out11 x0 x1 x2)) -∗ K ⟨⟩))
      ⊢ wp frame (wpE (defs₀ (F := F)) Variants.none c none) E (cc11_kernel i arg1 harg1 arg2 harg2 arg3 harg3 arg4 harg4) K := by
  simp only [cc11_kernel_eq_skeleton]; unfold cc11_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover11 _)

/-- The proof data of pipeline 11 on core `c`: the arrays as the region finds them; after the body at point `t` each
    input's buffer at its block and the output's at `out11` of the input blocks; the invariant the scoped rest and the
    generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks, so `sound_kernel11` applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Fr

end
-- ==== Proof.KI.R12.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 12 of the program (kernel function `cc12_kernel`), at any contents `V` of the core's buffers on entry.
A grid point loads each input window's block whole, loads and then overwrites the output window's block whole with one
value, a pure function of the input blocks. So after the body the output's staging buffer holds that function of the input
blocks (`out12`), each input's buffer is unchanged, and the pipeline's invariant is untouched: this is the body obligation
of the pipeline at every grid point, for the proof data `dat12`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof data
    whose array is the entry contents and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not, for any proof data
    whose array is the entry contents and whose body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not, for any proof data
    whose array is the entry contents and whose body leaves the block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

abbrev r12_0 : Rect S10000x128 := Rect.unit (s := S10000x128) ![0, 0] S10000x128.size inb_S10000x128_S10000x128_0_0
abbrev r12_1 : Rect S128x128 := Rect.unit (s := S128x128) ![0, 0] S128x128.size inb_S128x128_S128x128_0_0
abbrev r12_2 : Rect S1x128 := Rect.unit (s := S1x128) ![0, 0] S1x128.size inb_S1x128_S1x128_0_0
abbrev r12_3 : Rect S10000x128 := Rect.unit (s := S10000x128) ![0, 0] S10000x128.size inb_S10000x128_S10000x128_0_0

/-- The output window's staging buffer after the body, from the input windows' blocks: its one whole store. -/
def out12 (x0 : Vec F S10000x128 .bf16) (x1 : Vec F S128x128 .bf16) (x2 : Vec F S1x128 .f32) : Vec F S10000x128 .bf16 :=
  View.canon [⟨r12_3, k12_pay1 (View.ld x0 r12_0) (View.ld x1 r12_1) (View.ld x2 r12_2)⟩]

/-- The one store covers the buffer. -/
theorem cover12 (p0 : Vec F S10000x128 .bf16) (y : S10000x128.Idx) :
    ∃ pc ∈ ([⟨r12_3, p0⟩] : List (View.Piece (Elt F) S10000x128 .bf16)), y ∈ pc.1.set :=
  View.cover_of_tiled [⟨r12_3, p0⟩] S10000x128.size (by rfl) y

set_option maxHeartbeats 1000000 in
/-- The kernel body on whole staging memrefs, the inputs' at contents `xW` and the output's at anything, runs to the
    continuation holding the inputs' as they were and the output's at `out12` of the inputs'. -/
theorem sound_kernel12 (c : Dev nD) (E : Set ℕ) (i : grid12.Coords) (arg1 : Memref sig .tc .vmem S10000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S10000x128 .bf16) (harg4 : arg4.IsWhole)
    (x0 : Vec F S10000x128 .bf16) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12 x0 x1 x2)) -∗ K ⟨⟩))
      ⊢ wp frame (wpE (defs₀ (F := F)) Variants.none c none) E (cc12_kernel i arg1 harg1 arg2 harg2 arg3 harg3 arg4 harg4) K := by
  simp only [cc12_kernel_eq_skeleton]; unfold cc12_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover12 _)

/-- The proof data of pipeline 12 on core `c`: the arrays as the region finds them; after the body at point `t` each
    input's buffer at its block and the output's at `out12` of the input blocks; the invariant the scoped rest and the
    generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' memrefs hold their blocks, so `sound_kernel12` applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Fr

end
-- ==== Proof.KI.R13.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 13 of the program (kernel function `cc13__attn_fuse_kernel`), at any contents `V` of the core's buffers on entry.
A grid point loads each input window's block whole, loads and then overwrites the output window's block whole with one
value, a pure function of the input blocks. So after the body the output's staging buffer holds that function of the input
blocks (`out13`), each input's buffer is unchanged, and the pipeline's invariant is untouched: this is the body obligation
of the pipeline at every grid point, for the proof data `dat13`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof data
    whose array is the entry contents and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not, for any proof data
    whose array is the entry contents and whose body leaves the block in place. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not, for any proof data
    whose array is the entry contents and whose body leaves the block in place. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not, for any proof data
    whose array is the entry contents and whose body leaves the block in place. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, fetched there or not, for any proof data
    whose array is the entry contents and whose body leaves the block in place. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

abbrev r13_0 : Rect S12000x128 := Rect.unit (s := S12000x128) ![0, 0] S12000x128.size inb_S12000x128_S12000x128_0_0
abbrev r13_1 : Rect S12000x128 := Rect.unit (s := S12000x128) ![0, 0] S12000x128.size inb_S12000x128_S12000x128_0_0
abbrev r13_2 : Rect S1x128 := Rect.unit (s := S1x128) ![0, 0] S1x128.size inb_S1x128_S1x128_0_0
abbrev r13_3 : Rect S1x128 := Rect.unit (s := S1x128) ![0, 0] S1x128.size inb_S1x128_S1x128_0_0
abbrev r13_4 : Rect S1x1 := Rect.unit (s := S1x1) ![0, 0] S1x1.size inb_S1x1_S1x1_0_0
abbrev r13_5 : Rect S12000x1 := Rect.unit (s := S12000x1) ![0, 0] S12000x1.size inb_S12000x1_S12000x1_0_0

/-- The output window's staging buffer after the body, from the input windows' blocks: its one whole store. -/
def out13 (x0 : Vec F S12000x128 .bf16) (x1 : Vec F S12000x128 .bf16) (x2 : Vec F S1x128 .f32) (x3 : Vec F S1x128 .f32) (x4 : Vec F S1x1 .f32) : Vec F S12000x1 .f32 :=
  View.canon [⟨r13_5, k13_pay1 (View.ld x0 r13_0) (View.ld x1 r13_1) (View.ld x2 r13_2) (View.ld x3 r13_3) (View.ld x4 r13_4)⟩]

/-- The one store covers the buffer. -/
theorem cover13 (p0 : Vec F S12000x1 .f32) (y : S12000x1.Idx) :
    ∃ pc ∈ ([⟨r13_5, p0⟩] : List (View.Piece (Elt F) S12000x1 .f32)), y ∈ pc.1.set :=
  View.cover_of_tiled [⟨r13_5, p0⟩] S12000x1.size (by rfl) y

set_option maxHeartbeats 1000000 in
/-- The kernel body on whole staging memrefs, the inputs' at contents `xW` and the output's at anything, runs to the
    continuation holding the inputs' as they were and the output's at `out13` of the inputs'. -/
theorem sound_kernel13 (c : Dev nD) (E : Set ℕ) (i : grid13.Coords) (arg1 : Memref sig .tc .vmem S12000x128 .bf16) (harg1 : arg1.IsWhole) (arg2 : Memref sig .tc .vmem S12000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S12000x1 .f32) (harg6 : arg6.IsWhole)
    (x0 : Vec F S12000x128 .bf16) (x1 : Vec F S12000x128 .bf16) (x2 : Vec F S1x128 .f32) (x3 : Vec F S1x128 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out13 x0 x1 x2 x3 x4)) -∗ K ⟨⟩))
      ⊢ wp frame (wpE (defs₀ (F := F)) Variants.none c none) E (cc13__attn_fuse_kernel i arg1 harg1 arg2 harg2 arg3 harg3 arg4 harg4 arg5 harg5 arg6 harg6) K := by
  simp only [cc13__attn_fuse_kernel_eq_skeleton]; unfold cc13__attn_fuse_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover13 _)

/-- The proof data of pipeline 13 on core `c`: the arrays as the region finds them; after the body at point `t` each
    input's buffer at its block and the output's at `out13` of the input blocks; the invariant the scoped rest and the
    generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => out13 (iblk13 V c 0 t) (iblk13 V c 1 t) (iblk13 V c 2 t) (iblk13 V c 3 t) (iblk13 V c 4 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = out13 (iblk13 V c 0 t) (iblk13 V c 1 t) (iblk13 V c 2 t) (iblk13 V c 3 t) (iblk13 V c 4 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d

/-- What the body is called with at point `t`, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t))

/-- The body at any point: the inputs' memrefs hold their blocks, so `sound_kernel13` applies; the invariant and the
    core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4]
  rw [show (dat13 V c).Φ t.succ = (dat13 V c).Φ t.castSucc from rfl,
    show (dat13 V c).owesAt () t.succ = (dat13 V c).owesAt () t.castSucc from rfl,
    after13_0, after13_1, after13_2, after13_3, after13_4, after13_5]
  iintro ⟨HΦ, Ho, ⟨%d0, H0⟩, ⟨%d1, H1⟩, ⟨%d2, H2⟩, ⟨%d3, H3⟩, ⟨%d4, H4⟩, ⟨%d5, H5⟩⟩
  iapply (sound_kernel13 c Set.univ _ _ _ _ _ _ _ _ _ _ _ _ _ (iblk13 V c 0 t) (iblk13 V c 1 t) (iblk13 V c 2 t) (iblk13 V c 3 t) (iblk13 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Fr

end
-- ==== Proof.KI.R14.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 14 of the program (kernel function `cc14_kernel`), at any contents `V` of the core's buffers on entry.
A grid point loads each input window's block whole, loads and then overwrites the output window's block whole with one
value, a pure function of the input blocks. So after the body the output's staging buffer holds that function of the input
blocks (`out14`), each input's buffer is unchanged, and the pipeline's invariant is untouched: this is the body obligation
of the pipeline at every grid point, for the proof data `dat14`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof data
    whose array is the entry contents and whose body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, fetched there or not, for any proof data
    whose array is the entry contents and whose body leaves the block in place. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, fetched there or not, for any proof data
    whose array is the entry contents and whose body leaves the block in place. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

abbrev r14_0 : Rect S10000x131 := Rect.unit (s := S10000x131) ![0, 0] S10000x131.size inb_S10000x131_S10000x131_0_0
abbrev r14_1 : Rect S131x256 := Rect.unit (s := S131x256) ![0, 0] S131x256.size inb_S131x256_S131x256_0_0
abbrev r14_2 : Rect S1x256 := Rect.unit (s := S1x256) ![0, 0] S1x256.size inb_S1x256_S1x256_0_0
abbrev r14_3 : Rect S10000x256 := Rect.unit (s := S10000x256) ![0, 0] S10000x256.size inb_S10000x256_S10000x256_0_0

/-- The output window's staging buffer after the body, from the input windows' blocks: its one whole store. -/
def out14 (x0 : Vec F S10000x131 .bf16) (x1 : Vec F S131x256 .bf16) (x2 : Vec F S1x256 .f32) : Vec F S10000x256 .bf16 :=
  View.canon [⟨r14_3, k14_pay1 (View.ld x0 r14_0) (View.ld x1 r14_1) (View.ld x2 r14_2)⟩]

/-- The one store covers the buffer. -/
theorem cover14 (p0 : Vec F S10000x256 .bf16) (y : S10000x256.Idx) :
    ∃ pc ∈ ([⟨r14_3, p0⟩] : List (View.Piece (Elt F) S10000x256 .bf16)), y ∈ pc.1.set :=
  View.cover_of_tiled [⟨r14_3, p0⟩] S10000x256.size (by rfl) y

set_option maxHeartbeats 1000000 in
/-- The kernel body on whole staging memrefs, the inputs' at contents `xW` and the output's at anything, runs to the
    continuation holding the inputs' as they were and the output's at `out14` of the inputs'. -/
theorem sound_kernel14 (c : Dev nD) (E : Set ℕ) (i : grid14.Coords) (arg1 : Memref sig .tc .vmem S10000x131 .bf16) (harg1 : arg1.IsWhole) (arg2 : Memref sig .tc .vmem S131x256 .bf16) (harg2 : arg2.IsWhole) (arg3 : Memref sig .tc .vmem S1x256 .f32) (harg3 : arg3.IsWhole) (arg4 : Memref sig .tc .vmem S10000x256 .bf16) (harg4 : arg4.IsWhole)
    (x0 : Vec F S10000x131 .bf16) (x1 : Vec F S131x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out14 x0 x1 x2)) -∗ K ⟨⟩))
      ⊢ wp frame (wpE (defs₀ (F := F)) Variants.none c none) E (cc14_kernel i arg1 harg1 arg2 harg2 arg3 harg3 arg4 harg4) K := by
  simp only [cc14_kernel_eq_skeleton]; unfold cc14_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover14 _)

/-- The proof data of pipeline 14 on core `c`: the arrays as the region finds them; after the body at point `t` each
    input's buffer at its block and the output's at `out14` of the input blocks; the invariant the scoped rest and the
    generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14 (iblk14 V c 0 t) (iblk14 V c 1 t) (iblk14 V c 2 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = out14 (iblk14 V c 0 t) (iblk14 V c 1 t) (iblk14 V c 2 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-- What the body is called with at point `t`, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

/-- The body at any point: the inputs' memrefs hold their blocks, so `sound_kernel14` applies; the invariant and the
    core's dues pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ _ _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Fr

end
-- ==== Proof.KI.R15.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 15 of the program (kernel function `cc15_kernel`), at any contents `V` of the core's buffers on entry.
A grid point loads each input window's block whole, loads and then overwrites the output window's block whole with one
value, a pure function of the input blocks. So after the body the output's staging buffer holds that function of the input
blocks (`out15`), each input's buffer is unchanged, and the pipeline's invariant is untouched: this is the body obligation
of the pipeline at every grid point, for the proof data `dat15`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's current staging buffer holds its block at every point, fetched there or not, for any proof data
    whose array is the entry contents and whose body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- Input window 1's current staging buffer holds its block at every point, fetched there or not, for any proof data
    whose array is the entry contents and whose body leaves the block in place. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- Input window 2's current staging buffer holds its block at every point, fetched there or not, for any proof data
    whose array is the entry contents and whose body leaves the block in place. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

abbrev r15_0 : Rect S12000x128 := Rect.unit (s := S12000x128) ![0, 0] S12000x128.size inb_S12000x128_S12000x128_0_0
abbrev r15_1 : Rect S12000x128 := Rect.unit (s := S12000x128) ![0, 0] S12000x128.size inb_S12000x128_S12000x128_0_0
abbrev r15_2 : Rect S1x128 := Rect.unit (s := S1x128) ![0, 0] S1x128.size inb_S1x128_S1x128_0_0
abbrev r15_3 : Rect S12000x128 := Rect.unit (s := S12000x128) ![0, 0] S12000x128.size inb_S12000x128_S12000x128_0_0

/-- The output window's staging buffer after the body, from the input windows' blocks: its one whole store. -/
def out15 (x0 : Vec F S12000x128 .bf16) (x1 : Vec F S12000x128 .bf16) (x2 : Vec F S1x128 .f32) : Vec F S12000x128 .f32 :=
  View.canon [⟨r15_3, k15_pay1 (View.ld x0 r15_0) (View.ld x1 r15_1) (View.ld x2 r15_2)⟩]

/-- The one store covers the buffer. -/
theorem cover15 (p0 : Vec F S12000x128 .f32) (y : S12000x128.Idx) :
    ∃ pc ∈ ([⟨r15_3, p0⟩] : List (View.Piece (Elt F) S12000x128 .f32)), y ∈ pc.1.set :=
  View.cover_of_tiled [⟨r15_3, p0⟩] S12000x128.size (by rfl) y

set_option maxHeartbeats 1000000 in
/-- The kernel body on whole staging memrefs, the inputs' at contents `xW` and the output's at anything, runs to the
    continuation holding the inputs' as they were and the output's at `out15` of the inputs'. -/
theorem sound_kernel15 (c : Dev nD) (E : Set ℕ) (i : grid15.Coords) (arg1 : Memref sig .tc .vmem S12000x128 .bf16) (harg1 : arg1.IsWhole) (arg2 : Memref sig .tc .vmem S12000x128 .bf16) (harg2 : arg2.IsWhole) (arg3 : Memref sig .tc .vmem S1x128 .f32) (harg3 : arg3.IsWhole) (arg4 : Memref sig .tc .vmem S12000x128 .f32) (harg4 : arg4.IsWhole)
    (x0 : Vec F S12000x128 .bf16) (x1 : Vec F S12000x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out15 x0 x1 x2)) -∗ K ⟨⟩))
      ⊢ wp frame (wpE (defs₀ (F := F)) Variants.none c none) E (cc15_kernel i arg1 harg1 arg2 harg2 arg3 harg3 arg4 harg4) K := by
  simp only [cc15_kernel_eq_skeleton]; unfold cc15_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover15 _)

/-- The proof data of pipeline 15 on core `c`: the arrays as the region finds them; after the body at point `t` each
    input's buffer at its block and the output's at `out15` of the input blocks; the invariant the scoped rest and the
    generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15 (iblk15 V c 0 t) (iblk15 V c 1 t) (iblk15 V c 2 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = out15 (iblk15 V c 0 t) (iblk15 V c 1 t) (iblk15 V c 2 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-- What the body is called with at point `t`, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

/-- The body at any point: the inputs' memrefs hold their blocks, so `sound_kernel15` applies; the invariant and the
    core's dues pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ _ _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Fr

end
-- ==== Proof.KI.R16.lean ====
import proofs.«173394_j29068338659455_2_alg».proof.Proof.Gen.KernelIdeal.Launch
import proofs.«173394_j29068338659455_2_alg».proof.Proof.Gen.KernelIdeal.Skeleton
import proofs.«173394_j29068338659455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Pallas region 16 of the program (kernel function `cc16_kernel`), at any contents `V` of the core's buffers on entry.
A grid point loads each input window's block whole, loads and then overwrites the output window's block whole with one
value, a pure function of the input blocks. So after the body the output's staging buffer holds that function of the input
blocks (`out16`), each input's buffer is unchanged, and the pipeline's invariant is untouched: this is the body obligation
of the pipeline at every grid point, for the proof data `dat16`. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's current staging buffer holds its block at every point, fetched there or not, for any proof data
    whose array is the entry contents and whose body leaves the block in place. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- Input window 1's current staging buffer holds its block at every point, fetched there or not, for any proof data
    whose array is the entry contents and whose body leaves the block in place. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- Input window 2's current staging buffer holds its block at every point, fetched there or not, for any proof data
    whose array is the entry contents and whose body leaves the block in place. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-- Input window 3's current staging buffer holds its block at every point, fetched there or not, for any proof data
    whose array is the entry contents and whose body leaves the block in place. -/
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)

abbrev r16_0 : Rect S5000x256 := Rect.unit (s := S5000x256) ![0, 0] S5000x256.size inb_S5000x256_S5000x256_0_0
abbrev r16_1 : Rect S256x128 := Rect.unit (s := S256x128) ![0, 0] S256x128.size inb_S256x128_S256x128_0_0
abbrev r16_2 : Rect S1x128 := Rect.unit (s := S1x128) ![0, 0] S1x128.size inb_S1x128_S1x128_0_0
abbrev r16_3 : Rect S5000x128 := Rect.unit (s := S5000x128) ![0, 0] S5000x128.size inb_S5000x128_S5000x128_0_0
abbrev r16_4 : Rect S5000x128 := Rect.unit (s := S5000x128) ![0, 0] S5000x128.size inb_S5000x128_S5000x128_0_0

/-- The output window's staging buffer after the body, from the input windows' blocks: its one whole store. -/
def out16 (x0 : Vec F S5000x256 .bf16) (x1 : Vec F S256x128 .bf16) (x2 : Vec F S1x128 .f32) (x3 : Vec F S5000x128 .f32) : Vec F S5000x128 .f32 :=
  View.canon [⟨r16_4, k16_pay1 (View.ld x0 r16_0) (View.ld x1 r16_1) (View.ld x2 r16_2) (View.ld x3 r16_3)⟩]

/-- The one store covers the buffer. -/
theorem cover16 (p0 : Vec F S5000x128 .f32) (y : S5000x128.Idx) :
    ∃ pc ∈ ([⟨r16_4, p0⟩] : List (View.Piece (Elt F) S5000x128 .f32)), y ∈ pc.1.set :=
  View.cover_of_tiled [⟨r16_4, p0⟩] S5000x128.size (by rfl) y

set_option maxHeartbeats 1000000 in
/-- The kernel body on whole staging memrefs, the inputs' at contents `xW` and the output's at anything, runs to the
    continuation holding the inputs' as they were and the output's at `out16` of the inputs'. -/
theorem sound_kernel16 (c : Dev nD) (E : Set ℕ) (i : grid16.Coords) (arg1 : Memref sig .tc .vmem S5000x256 .bf16) (harg1 : arg1.IsWhole) (arg2 : Memref sig .tc .vmem S256x128 .bf16) (harg2 : arg2.IsWhole) (arg3 : Memref sig .tc .vmem S1x128 .f32) (harg3 : arg3.IsWhole) (arg4 : Memref sig .tc .vmem S5000x128 .f32) (harg4 : arg4.IsWhole) (arg5 : Memref sig .tc .vmem S5000x128 .f32) (harg5 : arg5.IsWhole)
    (x0 : Vec F S5000x256 .bf16) (x1 : Vec F S256x128 .bf16) (x2 : Vec F S1x128 .f32) (x3 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out16 x0 x1 x2 x3)) -∗ K ⟨⟩))
      ⊢ wp frame (wpE (defs₀ (F := F)) Variants.none c none) E (cc16_kernel i arg1 harg1 arg2 harg2 arg3 harg3 arg4 harg4 arg5 harg5) K := by
  simp only [cc16_kernel_eq_skeleton]; unfold cc16_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover16 _)

/-- The proof data of pipeline 16 on core `c`: the arrays as the region finds them; after the body at point `t` each
    input's buffer at its block and the output's at `out16` of the input blocks; the invariant the scoped rest and the
    generator register, untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => out16 (iblk16 V c 0 t) (iblk16 V c 1 t) (iblk16 V c 2 t) (iblk16 V c 3 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = out16 (iblk16 V c 0 t) (iblk16 V c 1 t) (iblk16 V c 2 t) (iblk16 V c 3 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d

/-- What the body is called with at point `t`, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t))

/-- The body at any point: the inputs' memrefs hold their blocks, so `sound_kernel16` applies; the invariant and the
    core's dues pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3]
  rw [show (dat16 V c).Φ t.succ = (dat16 V c).Φ t.castSucc from rfl,
    show (dat16 V c).owesAt () t.succ = (dat16 V c).owesAt () t.castSucc from rfl,
    after16_0, after16_1, after16_2, after16_3, after16_4]
  iintro ⟨HΦ, Ho, ⟨%d0, H0⟩, ⟨%d1, H1⟩, ⟨%d2, H2⟩, ⟨%d3, H3⟩, ⟨%d4, H4⟩⟩
  iapply (sound_kernel16 c Set.univ _ _ _ _ _ _ _ _ _ _ _ (iblk16 V c 0 t) (iblk16 V c 1 t) (iblk16 V c 2 t) (iblk16 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation16 (c : Dev nD) : BodyObligation (dat16 (F := F) V c) (defs₀ (F := F)) Variants.none () Set.univ := fun t => by
  rw [bigSep_W16, bigSep_W16]
  exact sound_body16 V c t

end Cert.KernelIdeal.Fr

end
-- ==== Proof.KI.Fold.lean ====
import proofs.«173394_j29068338659455_2_alg».proof.Proof.KI.R0
import proofs.«173394_j29068338659455_2_alg».proof.Proof.KI.R1
import proofs.«173394_j29068338659455_2_alg».proof.Proof.KI.R2
import proofs.«173394_j29068338659455_2_alg».proof.Proof.KI.R3
import proofs.«173394_j29068338659455_2_alg».proof.Proof.KI.R4
import proofs.«173394_j29068338659455_2_alg».proof.Proof.KI.R5
import proofs.«173394_j29068338659455_2_alg».proof.Proof.KI.R6
import proofs.«173394_j29068338659455_2_alg».proof.Proof.KI.R7
import proofs.«173394_j29068338659455_2_alg».proof.Proof.KI.R8
import proofs.«173394_j29068338659455_2_alg».proof.Proof.KI.R9
import proofs.«173394_j29068338659455_2_alg».proof.Proof.KI.R10
import proofs.«173394_j29068338659455_2_alg».proof.Proof.KI.R11
import proofs.«173394_j29068338659455_2_alg».proof.Proof.KI.R12
import proofs.«173394_j29068338659455_2_alg».proof.Proof.KI.R13
import proofs.«173394_j29068338659455_2_alg».proof.Proof.KI.R14
import proofs.«173394_j29068338659455_2_alg».proof.Proof.KI.R15
import proofs.«173394_j29068338659455_2_alg».proof.Proof.KI.R16

/-! The contents of the core's buffers at every boundary of the program's 34 segments (a stretch of host operations, then a
pallas region, seventeen times), as a fold from the launch memory: a host stretch applies its operations; a region leaves its
output array at what its grid points' write-backs fold to and every other buffer as entered. Then every pipeline's proof data at
its region's entry contents, and what rides beside the buffers through every segment. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After host stretch 5 (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After host stretch 6 (region 6's entry). -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After host stretch 7 (region 7's entry). -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After host stretch 8 (region 8's entry). -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- At region 8's exit: its arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After host stretch 9 (region 9's entry). -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- At region 9's exit: its arrays at what the pipeline leaves, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After host stretch 10 (region 10's entry). -/
abbrev W21 : Dev nD → Valuation τ sig (Elt F) := fun c => StableHlo.after hostOps10 (W20 m ρ c)
abbrev V21 : (c : Dev nD) → (b : Ref sig .tc) → Buf (Elt F) ((c : Thread nD τ).loc b) := fun c b => W21 m ρ c b
/-- At region 10's exit: its arrays at what the pipeline leaves, every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After host stretch 11 (region 11's entry). -/
abbrev W23 : Dev nD → Valuation τ sig (Elt F) := fun c => StableHlo.after hostOps11 (W22 m ρ c)
abbrev V23 : (c : Dev nD) → (b : Ref sig .tc) → Buf (Elt F) ((c : Thread nD τ).loc b) := fun c b => W23 m ρ c b
/-- At region 11's exit: its arrays at what the pipeline leaves, every other buffer as entered. -/
def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
abbrev V24 : (c : Dev nD) → (b : Ref sig .tc) → Buf (Elt F) ((c : Thread nD τ).loc b) := fun c b => W24 m ρ c b
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)

/-- After host stretch 12 (region 12's entry). -/
abbrev W25 : Dev nD → Valuation τ sig (Elt F) := fun c => StableHlo.after hostOps12 (W24 m ρ c)
abbrev V25 : (c : Dev nD) → (b : Ref sig .tc) → Buf (Elt F) ((c : Thread nD τ).loc b) := fun c b => W25 m ρ c b
/-- At region 12's exit: its arrays at what the pipeline leaves, every other buffer as entered. -/
def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m ρ c (Proc.devRef .tc b) = W25 m ρ c (Proc.devRef .tc b) := by
  unfold W26; exact Pipeline.withArrays_of_ne spec12 c _ _ b hb
abbrev V26 : (c : Dev nD) → (b : Ref sig .tc) → Buf (Elt F) ((c : Thread nD τ).loc b) := fun c b => W26 m ρ c b
theorem hF12 (c : Dev nD) (w : Fin cfg12.W) : (dat12 (V25 m ρ) c).arrAt w cfg12.N = V26 m ρ c (Pipeline.arrRef spec12 w) :=
  (W26_arr m ρ c w).symm
theorem hrest12 (c : Dev nD) : ∀ b, b ∉ Finset.univ.image (Pipeline.arrRef spec12) → V26 m ρ c b = V25 m ρ c b :=
  fun b hb => W26_of_ne m ρ c b fun w e => hb (Finset.mem_image.mpr ⟨w, Finset.mem_univ _, e⟩)

/-- After host stretch 13 (region 13's entry). -/
abbrev W27 : Dev nD → Valuation τ sig (Elt F) := fun c => StableHlo.after hostOps13 (W26 m ρ c)
abbrev V27 : (c : Dev nD) → (b : Ref sig .tc) → Buf (Elt F) ((c : Thread nD τ).loc b) := fun c b => W27 m ρ c b
/-- At region 13's exit: its arrays at what the pipeline leaves, every other buffer as entered. -/
def W28 (c : Dev nD) : Valuation τ sig (Elt F) :=
  Pipeline.withArrays spec13 c (W27 m ρ c) fun w => (dat13 (V27 m ρ) c).arrAt w cfg13.N
theorem W28_arr (c : Dev nD) (w : Fin cfg13.W) :
    W28 m ρ c (Proc.devRef .tc (Pipeline.arrRef spec13 w)) = (dat13 (V27 m ρ) c).arrAt w cfg13.N := by
  unfold W28; exact Pipeline.withArrays_arr spec13 launch13.win.arr_inj c _ _ w
theorem W28_of_ne (c : Dev nD) (b : Ref sig .tc) (hb : ∀ w, Pipeline.arrRef spec13 w ≠ b) :
    W28 m ρ c (Proc.devRef .tc b) = W27 m ρ c (Proc.devRef .tc b) := by
  unfold W28; exact Pipeline.withArrays_of_ne spec13 c _ _ b hb
abbrev V28 : (c : Dev nD) → (b : Ref sig .tc) → Buf (Elt F) ((c : Thread nD τ).loc b) := fun c b => W28 m ρ c b
theorem hF13 (c : Dev nD) (w : Fin cfg13.W) : (dat13 (V27 m ρ) c).arrAt w cfg13.N = V28 m ρ c (Pipeline.arrRef spec13 w) :=
  (W28_arr m ρ c w).symm
theorem hrest13 (c : Dev nD) : ∀ b, b ∉ Finset.univ.image (Pipeline.arrRef spec13) → V28 m ρ c b = V27 m ρ c b :=
  fun b hb => W28_of_ne m ρ c b fun w e => hb (Finset.mem_image.mpr ⟨w, Finset.mem_univ _, e⟩)

/-- After host stretch 14 (region 14's entry). -/
abbrev W29 : Dev nD → Valuation τ sig (Elt F) := fun c => StableHlo.after hostOps14 (W28 m ρ c)
abbrev V29 : (c : Dev nD) → (b : Ref sig .tc) → Buf (Elt F) ((c : Thread nD τ).loc b) := fun c b => W29 m ρ c b
/-- At region 14's exit: its arrays at what the pipeline leaves, every other buffer as entered. -/
def W30 (c : Dev nD) : Valuation τ sig (Elt F) :=
  Pipeline.withArrays spec14 c (W29 m ρ c) fun w => (dat14 (V29 m ρ) c).arrAt w cfg14.N
theorem W30_arr (c : Dev nD) (w : Fin cfg14.W) :
    W30 m ρ c (Proc.devRef .tc (Pipeline.arrRef spec14 w)) = (dat14 (V29 m ρ) c).arrAt w cfg14.N := by
  unfold W30; exact Pipeline.withArrays_arr spec14 launch14.win.arr_inj c _ _ w
theorem W30_of_ne (c : Dev nD) (b : Ref sig .tc) (hb : ∀ w, Pipeline.arrRef spec14 w ≠ b) :
    W30 m ρ c (Proc.devRef .tc b) = W29 m ρ c (Proc.devRef .tc b) := by
  unfold W30; exact Pipeline.withArrays_of_ne spec14 c _ _ b hb
abbrev V30 : (c : Dev nD) → (b : Ref sig .tc) → Buf (Elt F) ((c : Thread nD τ).loc b) := fun c b => W30 m ρ c b
theorem hF14 (c : Dev nD) (w : Fin cfg14.W) : (dat14 (V29 m ρ) c).arrAt w cfg14.N = V30 m ρ c (Pipeline.arrRef spec14 w) :=
  (W30_arr m ρ c w).symm
theorem hrest14 (c : Dev nD) : ∀ b, b ∉ Finset.univ.image (Pipeline.arrRef spec14) → V30 m ρ c b = V29 m ρ c b :=
  fun b hb => W30_of_ne m ρ c b fun w e => hb (Finset.mem_image.mpr ⟨w, Finset.mem_univ _, e⟩)

/-- After host stretch 15 (region 15's entry). -/
abbrev W31 : Dev nD → Valuation τ sig (Elt F) := fun c => StableHlo.after hostOps15 (W30 m ρ c)
abbrev V31 : (c : Dev nD) → (b : Ref sig .tc) → Buf (Elt F) ((c : Thread nD τ).loc b) := fun c b => W31 m ρ c b
/-- At region 15's exit: its arrays at what the pipeline leaves, every other buffer as entered. -/
def W32 (c : Dev nD) : Valuation τ sig (Elt F) :=
  Pipeline.withArrays spec15 c (W31 m ρ c) fun w => (dat15 (V31 m ρ) c).arrAt w cfg15.N
theorem W32_arr (c : Dev nD) (w : Fin cfg15.W) :
    W32 m ρ c (Proc.devRef .tc (Pipeline.arrRef spec15 w)) = (dat15 (V31 m ρ) c).arrAt w cfg15.N := by
  unfold W32; exact Pipeline.withArrays_arr spec15 launch15.win.arr_inj c _ _ w
theorem W32_of_ne (c : Dev nD) (b : Ref sig .tc) (hb : ∀ w, Pipeline.arrRef spec15 w ≠ b) :
    W32 m ρ c (Proc.devRef .tc b) = W31 m ρ c (Proc.devRef .tc b) := by
  unfold W32; exact Pipeline.withArrays_of_ne spec15 c _ _ b hb
abbrev V32 : (c : Dev nD) → (b : Ref sig .tc) → Buf (Elt F) ((c : Thread nD τ).loc b) := fun c b => W32 m ρ c b
theorem hF15 (c : Dev nD) (w : Fin cfg15.W) : (dat15 (V31 m ρ) c).arrAt w cfg15.N = V32 m ρ c (Pipeline.arrRef spec15 w) :=
  (W32_arr m ρ c w).symm
theorem hrest15 (c : Dev nD) : ∀ b, b ∉ Finset.univ.image (Pipeline.arrRef spec15) → V32 m ρ c b = V31 m ρ c b :=
  fun b hb => W32_of_ne m ρ c b fun w e => hb (Finset.mem_image.mpr ⟨w, Finset.mem_univ _, e⟩)

/-- After host stretch 16 (region 16's entry). -/
abbrev W33 : Dev nD → Valuation τ sig (Elt F) := fun c => StableHlo.after hostOps16 (W32 m ρ c)
abbrev V33 : (c : Dev nD) → (b : Ref sig .tc) → Buf (Elt F) ((c : Thread nD τ).loc b) := fun c b => W33 m ρ c b
/-- At region 16's exit: its arrays at what the pipeline leaves, every other buffer as entered. -/
def W34 (c : Dev nD) : Valuation τ sig (Elt F) :=
  Pipeline.withArrays spec16 c (W33 m ρ c) fun w => (dat16 (V33 m ρ) c).arrAt w cfg16.N
theorem W34_arr (c : Dev nD) (w : Fin cfg16.W) :
    W34 m ρ c (Proc.devRef .tc (Pipeline.arrRef spec16 w)) = (dat16 (V33 m ρ) c).arrAt w cfg16.N := by
  unfold W34; exact Pipeline.withArrays_arr spec16 launch16.win.arr_inj c _ _ w
theorem W34_of_ne (c : Dev nD) (b : Ref sig .tc) (hb : ∀ w, Pipeline.arrRef spec16 w ≠ b) :
    W34 m ρ c (Proc.devRef .tc b) = W33 m ρ c (Proc.devRef .tc b) := by
  unfold W34; exact Pipeline.withArrays_of_ne spec16 c _ _ b hb
abbrev V34 : (c : Dev nD) → (b : Ref sig .tc) → Buf (Elt F) ((c : Thread nD τ).loc b) := fun c b => W34 m ρ c b
theorem hF16 (c : Dev nD) (w : Fin cfg16.W) : (dat16 (V33 m ρ) c).arrAt w cfg16.N = V34 m ρ c (Pipeline.arrRef spec16 w) :=
  (W34_arr m ρ c w).symm
theorem hrest16 (c : Dev nD) : ∀ b, b ∉ Finset.univ.image (Pipeline.arrRef spec16) → V34 m ρ c b = V33 m ρ c b :=
  fun b hb => W34_of_ne m ρ c b fun w e => hb (Finset.mem_image.mpr ⟨w, Finset.mem_univ _, e⟩)

/-- No pipeline has a prefetched table. -/
abbrev adm : (p : Fin 17) → (pcfgs (F := F) p).Adm := fun p => (cfgs p).toPCfg_adm
/-- Every pipeline's proof data, each at its region's entry contents. -/
def pdats : (p : Fin 17) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
  | ⟨13, _⟩ => fun c => dat13 (V27 m ρ) c
  | ⟨14, _⟩ => fun c => dat14 (V29 m ρ) c
  | ⟨15, _⟩ => fun c => dat15 (V31 m ρ) c
  | ⟨16, _⟩ => fun c => dat16 (V33 m ρ) c
  | ⟨_ + 17, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W34 m ρ c) ∗ ∃ r, prngReg c r)

/-! ## What the host stretches write: no stretch allocates, and each writes only its own results -/
theorem hostOps0_fresh : (hostOps0 : List (HloOp τ sig (Elt F))).Forall fun op => op.fresh = ∅ := by
  simp only [List.Forall]; repeat' constructor
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after0_of (W : Valuation τ sig (Elt F)) (r : Ref sig .tc) (h : r ∉ hostOps0_W) : StableHlo.after hostOps0 W (Proc.devRef .tc r) = W (Proc.devRef .tc r) :=
  StableHlo.after_of_writes_sub hostOps0 _ hostOps0_writes h
theorem hostOps1_fresh : (hostOps1 : List (HloOp τ sig (Elt F))).Forall fun op => op.fresh = ∅ := by
  simp only [List.Forall]; repeat' constructor
abbrev hostOps1_W : List (Ref sig .tc) := [main_v5, main_v6, main_v7, main_v8, main_cst, main_v9, main_v10, main_v11, main_v12, main_v13, main_v14, main_v15, main_v16, main_v17, main_cst_0, main_v18, main_v19, main_v20, main_v21]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after1_of (W : Valuation τ sig (Elt F)) (r : Ref sig .tc) (h : r ∉ hostOps1_W) : StableHlo.after hostOps1 W (Proc.devRef .tc r) = W (Proc.devRef .tc r) :=
  StableHlo.after_of_writes_sub hostOps1 _ hostOps1_writes h
theorem hostOps2_fresh : (hostOps2 : List (HloOp τ sig (Elt F))).Forall fun op => op.fresh = ∅ := by
  simp only [List.Forall]; repeat' constructor
abbrev hostOps2_W : List (Ref sig .tc) := [main_v23, main_v24, main_c, main_v25, main_v26, main_c_1, main_v27, main_v28, main_v29, main_v30, main_v31, main_c_2, main_v32, main_v33, main_c_3, main_v34, main_v35, main_v36, main_v37, main_v38, main_v39, main_v40, main_v41]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after2_of (W : Valuation τ sig (Elt F)) (r : Ref sig .tc) (h : r ∉ hostOps2_W) : StableHlo.after hostOps2 W (Proc.devRef .tc r) = W (Proc.devRef .tc r) :=
  StableHlo.after_of_writes_sub hostOps2 _ hostOps2_writes h
theorem hostOps3_fresh : (hostOps3 : List (HloOp τ sig (Elt F))).Forall fun op => op.fresh = ∅ := by
  simp only [List.Forall]; repeat' constructor
abbrev hostOps3_W : List (Ref sig .tc) := [main_cst_4, main_v43, main_v44, main_v45, main_v46, main_cst_5, main_v47, main_cst_6, main_v48, main_v49, main_v50, main_cst_7, main_v51, main_v52, main_v53, main_v54, main_cst_8, main_v55, main_v56, main_v57, main_v58, main_cst_9, main_v59, main_cst_10, main_v60, main_v61, main_v62, main_cst_11, main_v63, main_v64, main_v65, main_v66, main_c_12, main_v67, main_v68, main_c_13, main_v69, main_v70, main_v71, main_v72, main_v73, main_v74, main_v75, main_v76, main_v77, main_v78, main_v79, main_v80, main_v81, main_v82, main_v83]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after3_of (W : Valuation τ sig (Elt F)) (r : Ref sig .tc) (h : r ∉ hostOps3_W) : StableHlo.after hostOps3 W (Proc.devRef .tc r) = W (Proc.devRef .tc r) :=
  StableHlo.after_of_writes_sub hostOps3 _ hostOps3_writes h
theorem hostOps4_fresh : (hostOps4 : List (HloOp τ sig (Elt F))).Forall fun op => op.fresh = ∅ := by
  simp only [List.Forall]; repeat' constructor
abbrev hostOps4_W : List (Ref sig .tc) := [main_v85, main_v86, main_v87, main_v88, main_v89, main_v90, main_v91, main_cst_14, main_v92, main_v93, main_v94, main_v95]
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after4_of (W : Valuation τ sig (Elt F)) (r : Ref sig .tc) (h : r ∉ hostOps4_W) : StableHlo.after hostOps4 W (Proc.devRef .tc r) = W (Proc.devRef .tc r) :=
  StableHlo.after_of_writes_sub hostOps4 _ hostOps4_writes h
theorem hostOps5_fresh : (hostOps5 : List (HloOp τ sig (Elt F))).Forall fun op => op.fresh = ∅ := by
  simp only [List.Forall]; repeat' constructor
abbrev hostOps5_W : List (Ref sig .tc) := [main_v97, main_v98, main_c_15, main_v99, main_v100, main_c_16, main_v101, main_v102, main_v103, main_v104, main_v105, main_c_17, main_v106, main_v107, main_c_18, main_v108, main_v109, main_v110, main_v111, main_v112, main_v113, main_v114, main_v115]
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after5_of (W : Valuation τ sig (Elt F)) (r : Ref sig .tc) (h : r ∉ hostOps5_W) : StableHlo.after hostOps5 W (Proc.devRef .tc r) = W (Proc.devRef .tc r) :=
  StableHlo.after_of_writes_sub hostOps5 _ hostOps5_writes h
theorem hostOps6_fresh : (hostOps6 : List (HloOp τ sig (Elt F))).Forall fun op => op.fresh = ∅ := by
  simp only [List.Forall]; repeat' constructor
abbrev hostOps6_W : List (Ref sig .tc) := [main_cst_19, main_v117, main_v118, main_v119, main_v120, main_cst_20, main_v121, main_cst_21, main_v122, main_v123, main_v124, main_cst_22, main_v125, main_v126, main_v127, main_v128, main_cst_23, main_v129, main_v130, main_v131, main_v132, main_cst_24, main_v133, main_cst_25, main_v134, main_v135, main_v136, main_cst_26, main_v137, main_v138, main_v139, main_v140, main_c_27, main_v141, main_v142, main_c_28, main_v143, main_v144, main_v145, main_v146, main_v147, main_v148, main_v149, main_v150, main_v151, main_v152, main_v153, main_v154, main_v155, main_v156, main_v157]
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after6_of (W : Valuation τ sig (Elt F)) (r : Ref sig .tc) (h : r ∉ hostOps6_W) : StableHlo.after hostOps6 W (Proc.devRef .tc r) = W (Proc.devRef .tc r) :=
  StableHlo.after_of_writes_sub hostOps6 _ hostOps6_writes h
theorem hostOps7_fresh : (hostOps7 : List (HloOp τ sig (Elt F))).Forall fun op => op.fresh = ∅ := by
  simp only [List.Forall]; repeat' constructor
abbrev hostOps7_W : List (Ref sig .tc) := [main_v159, main_v160, main_v161, main_v162, main_v163, main_v164, main_v165, main_cst_29, main_v166, main_v167, main_v168, main_v169]
theorem hostOps7_writes : (hostOps7 : List (HloOp τ sig (Elt F))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after7_of (W : Valuation τ sig (Elt F)) (r : Ref sig .tc) (h : r ∉ hostOps7_W) : StableHlo.after hostOps7 W (Proc.devRef .tc r) = W (Proc.devRef .tc r) :=
  StableHlo.after_of_writes_sub hostOps7 _ hostOps7_writes h
theorem hostOps8_fresh : (hostOps8 : List (HloOp τ sig (Elt F))).Forall fun op => op.fresh = ∅ := by
  simp only [List.Forall]; repeat' constructor
abbrev hostOps8_W : List (Ref sig .tc) := [main_v171, main_v172, main_c_30, main_v173, main_v174, main_c_31, main_v175, main_v176, main_v177, main_v178, main_v179, main_c_32, main_v180, main_v181, main_c_33, main_v182, main_v183, main_v184, main_v185, main_v186, main_v187, main_v188, main_v189]
theorem hostOps8_writes : (hostOps8 : List (HloOp τ sig (Elt F))).Forall fun op => op.writes ⊆ (hostOps8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after8_of (W : Valuation τ sig (Elt F)) (r : Ref sig .tc) (h : r ∉ hostOps8_W) : StableHlo.after hostOps8 W (Proc.devRef .tc r) = W (Proc.devRef .tc r) :=
  StableHlo.after_of_writes_sub hostOps8 _ hostOps8_writes h
theorem hostOps9_fresh : (hostOps9 : List (HloOp τ sig (Elt F))).Forall fun op => op.fresh = ∅ := by
  simp only [List.Forall]; repeat' constructor
abbrev hostOps9_W : List (Ref sig .tc) := [main_cst_34, main_v191, main_v192, main_v193, main_v194, main_cst_35, main_v195, main_cst_36, main_v196, main_v197, main_v198, main_cst_37, main_v199, main_v200, main_v201, main_v202, main_cst_38, main_v203, main_v204, main_v205, main_v206, main_cst_39, main_v207, main_cst_40, main_v208, main_v209, main_v210, main_cst_41, main_v211, main_v212, main_v213, main_v214, main_c_42, main_v215, main_v216, main_c_43, main_v217, main_v218, main_v219, main_v220, main_v221, main_v222, main_v223, main_v224, main_v225, main_v226, main_v227, main_v228, main_v229, main_v230, main_v231]
theorem hostOps9_writes : (hostOps9 : List (HloOp τ sig (Elt F))).Forall fun op => op.writes ⊆ (hostOps9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after9_of (W : Valuation τ sig (Elt F)) (r : Ref sig .tc) (h : r ∉ hostOps9_W) : StableHlo.after hostOps9 W (Proc.devRef .tc r) = W (Proc.devRef .tc r) :=
  StableHlo.after_of_writes_sub hostOps9 _ hostOps9_writes h
theorem hostOps10_fresh : (hostOps10 : List (HloOp τ sig (Elt F))).Forall fun op => op.fresh = ∅ := by
  simp only [List.Forall]; repeat' constructor
abbrev hostOps10_W : List (Ref sig .tc) := [main_v233, main_v234, main_v235, main_v236]
theorem hostOps10_writes : (hostOps10 : List (HloOp τ sig (Elt F))).Forall fun op => op.writes ⊆ (hostOps10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after10_of (W : Valuation τ sig (Elt F)) (r : Ref sig .tc) (h : r ∉ hostOps10_W) : StableHlo.after hostOps10 W (Proc.devRef .tc r) = W (Proc.devRef .tc r) :=
  StableHlo.after_of_writes_sub hostOps10 _ hostOps10_writes h
theorem hostOps11_fresh : (hostOps11 : List (HloOp τ sig (Elt F))).Forall fun op => op.fresh = ∅ := by
  simp only [List.Forall]; repeat' constructor
abbrev hostOps11_W : List (Ref sig .tc) := [main_v238, main_v239, main_cst_44, main_v240, main_v241, main_v242, main_v243]
theorem hostOps11_writes : (hostOps11 : List (HloOp τ sig (Elt F))).Forall fun op => op.writes ⊆ (hostOps11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after11_of (W : Valuation τ sig (Elt F)) (r : Ref sig .tc) (h : r ∉ hostOps11_W) : StableHlo.after hostOps11 W (Proc.devRef .tc r) = W (Proc.devRef .tc r) :=
  StableHlo.after_of_writes_sub hostOps11 _ hostOps11_writes h
theorem hostOps12_fresh : (hostOps12 : List (HloOp τ sig (Elt F))).Forall fun op => op.fresh = ∅ := by
  simp only [List.Forall]; repeat' constructor
abbrev hostOps12_W : List (Ref sig .tc) := [main_cst_45, main_v245, main_v246, main_v247, main_v248]
theorem hostOps12_writes : (hostOps12 : List (HloOp τ sig (Elt F))).Forall fun op => op.writes ⊆ (hostOps12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after12_of (W : Valuation τ sig (Elt F)) (r : Ref sig .tc) (h : r ∉ hostOps12_W) : StableHlo.after hostOps12 W (Proc.devRef .tc r) = W (Proc.devRef .tc r) :=
  StableHlo.after_of_writes_sub hostOps12 _ hostOps12_writes h
theorem hostOps13_fresh : (hostOps13 : List (HloOp τ sig (Elt F))).Forall fun op => op.fresh = ∅ := by
  simp only [List.Forall]; repeat' constructor
abbrev hostOps13_W : List (Ref sig .tc) := [main_c_46, main_v250, main_v251, main_c_47, main_v252, main_v253, main_v254, main_v255, main_v256, main_c_48, main_v257, main_v258, main_c_49, main_v259, main_v260, main_v261, main_v262, main_v263, main_v264, main_v265, main_v266]
theorem hostOps13_writes : (hostOps13 : List (HloOp τ sig (Elt F))).Forall fun op => op.writes ⊆ (hostOps13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after13_of (W : Valuation τ sig (Elt F)) (r : Ref sig .tc) (h : r ∉ hostOps13_W) : StableHlo.after hostOps13 W (Proc.devRef .tc r) = W (Proc.devRef .tc r) :=
  StableHlo.after_of_writes_sub hostOps13 _ hostOps13_writes h
theorem hostOps14_fresh : (hostOps14 : List (HloOp τ sig (Elt F))).Forall fun op => op.fresh = ∅ := by
  simp only [List.Forall]; repeat' constructor
abbrev hostOps14_W : List (Ref sig .tc) := [main_cst_50, main_v268, main_cst_51, main_v269, main_v270, main_v271, main_v272, main_v273, main_v274, main_cst_52, main_v275, main_v276, main_v277, main_v278, main_v279, main_c_53, main_v280, main_v281, main_c_54, main_v282, main_v283, main_v284, main_v285, main_v286, main_v287, main_v288, main_v289, main_cst_55, main_v290, main_c_56, main_v291, main_v292, main_c_57, main_v293, main_v294, main_v295, main_v296, main_v297, main_v298, main_v299, main_v300, main_v301, main_v302, main_v303, main_v304, main_v305, main_v306, main_v307, main_v308, main_v309, main_v310, main_v311, main_cst_58, main_v312, main_v313, main_v314, main_v315]
theorem hostOps14_writes : (hostOps14 : List (HloOp τ sig (Elt F))).Forall fun op => op.writes ⊆ (hostOps14_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after14_of (W : Valuation τ sig (Elt F)) (r : Ref sig .tc) (h : r ∉ hostOps14_W) : StableHlo.after hostOps14 W (Proc.devRef .tc r) = W (Proc.devRef .tc r) :=
  StableHlo.after_of_writes_sub hostOps14 _ hostOps14_writes h
theorem hostOps15_fresh : (hostOps15 : List (HloOp τ sig (Elt F))).Forall fun op => op.fresh = ∅ := by
  simp only [List.Forall]; repeat' constructor
abbrev hostOps15_W : List (Ref sig .tc) := [main_v317, main_v318, main_c_59, main_v319, main_v320, main_c_60, main_v321, main_v322, main_v323, main_v324, main_v325, main_c_61, main_v326, main_v327, main_c_62, main_v328, main_v329, main_v330, main_v331, main_v332, main_v333]
theorem hostOps15_writes : (hostOps15 : List (HloOp τ sig (Elt F))).Forall fun op => op.writes ⊆ (hostOps15_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after15_of (W : Valuation τ sig (Elt F)) (r : Ref sig .tc) (h : r ∉ hostOps15_W) : StableHlo.after hostOps15 W (Proc.devRef .tc r) = W (Proc.devRef .tc r) :=
  StableHlo.after_of_writes_sub hostOps15 _ hostOps15_writes h
theorem hostOps16_fresh : (hostOps16 : List (HloOp τ sig (Elt F))).Forall fun op => op.fresh = ∅ := by
  simp only [List.Forall]; repeat' constructor
abbrev hostOps16_W : List (Ref sig .tc) := [main_cst_63, main_v335, main_v336, main_v337, main_v338, main_cst_64, main_v339, main_cst_65, main_v340, main_v341, main_v342, main_cst_66, main_v343, main_v344, main_v345, main_v346, main_v347, main_v348, main_v349, main_v350]
theorem hostOps16_writes : (hostOps16 : List (HloOp τ sig (Elt F))).Forall fun op => op.writes ⊆ (hostOps16_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem after16_of (W : Valuation τ sig (Elt F)) (r : Ref sig .tc) (h : r ∉ hostOps16_W) : StableHlo.after hostOps16 W (Proc.devRef .tc r) = W (Proc.devRef .tc r) :=
  StableHlo.after_of_writes_sub hostOps16 _ hostOps16_writes h

end Cert.KernelIdeal.Fr

end
-- ==== Proof.KI.Reg0.lean ====
import proofs.«173394_j29068338659455_2_alg».proof.Proof.KI.Fold

/-! Pallas region 0 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg1.lean ====
import proofs.«173394_j29068338659455_2_alg».proof.Proof.KI.Fold

/-! Pallas region 1 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg2.lean ====
import proofs.«173394_j29068338659455_2_alg».proof.Proof.KI.Fold

/-! Pallas region 2 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg3.lean ====
import proofs.«173394_j29068338659455_2_alg».proof.Proof.KI.Fold

/-! Pallas region 3 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg4.lean ====
import proofs.«173394_j29068338659455_2_alg».proof.Proof.KI.Fold

/-! Pallas region 4 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg5.lean ====
import proofs.«173394_j29068338659455_2_alg».proof.Proof.KI.Fold

/-! Pallas region 5 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg6.lean ====
import proofs.«173394_j29068338659455_2_alg».proof.Proof.KI.Fold

/-! Pallas region 6 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg7.lean ====
import proofs.«173394_j29068338659455_2_alg».proof.Proof.KI.Fold

/-! Pallas region 7 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg8.lean ====
import proofs.«173394_j29068338659455_2_alg».proof.Proof.KI.Fold

/-! Pallas region 8 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg9.lean ====
import proofs.«173394_j29068338659455_2_alg».proof.Proof.KI.Fold

/-! Pallas region 9 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg10.lean ====
import proofs.«173394_j29068338659455_2_alg».proof.Proof.KI.Fold

/-! Pallas region 10 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg11.lean ====
import proofs.«173394_j29068338659455_2_alg».proof.Proof.KI.Fold

/-! Pallas region 11 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg12.lean ====
import proofs.«173394_j29068338659455_2_alg».proof.Proof.KI.Fold

/-! Pallas region 12 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m ρ) c).loose
  hwaits := Pipeline.hwaits_of_owed_zero _ _ _ _ L lv 12 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec12 c (V25 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V25 m ρ c) (V26 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg13.lean ====
import proofs.«173394_j29068338659455_2_alg».proof.Proof.KI.Fold

/-! Pallas region 13 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V27 m ρ) c).loose
  hwaits := Pipeline.hwaits_of_owed_zero _ _ _ _ L lv 13 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec13 c (V27 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V27 m ρ c) (V28 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg14.lean ====
import proofs.«173394_j29068338659455_2_alg».proof.Proof.KI.Fold

/-! Pallas region 14 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V29 m ρ) c).loose
  hwaits := Pipeline.hwaits_of_owed_zero _ _ _ _ L lv 14 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec14 c (V29 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V29 m ρ c) (V30 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg15.lean ====
import proofs.«173394_j29068338659455_2_alg».proof.Proof.KI.Fold

/-! Pallas region 15 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V31 m ρ) c).loose
  hwaits := Pipeline.hwaits_of_owed_zero _ _ _ _ L lv 15 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec15 c (V31 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V31 m ρ c) (V32 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg16.lean ====
import proofs.«173394_j29068338659455_2_alg».proof.Proof.KI.Fold

/-! Pallas region 16 as a segment of the program's run: entered from every unscoped buffer at the contents before it, left at the
contents after it. Its arrays are split out of the unscoped buffers and put back at the exit contents; the generator register goes
into the pipeline's invariant and comes out; nothing is owed; the kernel has no semaphore of its own. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V33 m ρ) c).loose
  hwaits := Pipeline.hwaits_of_owed_zero _ _ _ _ L lv 16 fun _ _ => rfl
  pre c := iprop(StableHlo.held (c : Thread nD τ) (Pipeline.ucRefs τ sig) (W33 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec16 c (V33 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V33 m ρ c) (V34 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Fr

end
-- ==== Proof.KI.Main.lean ====
import proofs.«173394_j29068338659455_2_alg».proof.Proof.KI.Reg0
import proofs.«173394_j29068338659455_2_alg».proof.Proof.KI.Reg1
import proofs.«173394_j29068338659455_2_alg».proof.Proof.KI.Reg2
import proofs.«173394_j29068338659455_2_alg».proof.Proof.KI.Reg3
import proofs.«173394_j29068338659455_2_alg».proof.Proof.KI.Reg4
import proofs.«173394_j29068338659455_2_alg».proof.Proof.KI.Reg5
import proofs.«173394_j29068338659455_2_alg».proof.Proof.KI.Reg6
import proofs.«173394_j29068338659455_2_alg».proof.Proof.KI.Reg7
import proofs.«173394_j29068338659455_2_alg».proof.Proof.KI.Reg8
import proofs.«173394_j29068338659455_2_alg».proof.Proof.KI.Reg9
import proofs.«173394_j29068338659455_2_alg».proof.Proof.KI.Reg10
import proofs.«173394_j29068338659455_2_alg».proof.Proof.KI.Reg11
import proofs.«173394_j29068338659455_2_alg».proof.Proof.KI.Reg12
import proofs.«173394_j29068338659455_2_alg».proof.Proof.KI.Reg13
import proofs.«173394_j29068338659455_2_alg».proof.Proof.KI.Reg14
import proofs.«173394_j29068338659455_2_alg».proof.Proof.KI.Reg15
import proofs.«173394_j29068338659455_2_alg».proof.Proof.KI.Reg16

/-! The whole run: the program is the run of its 34 segments, so from any memory with zero counters every weakly fair execution
terminates, nothing faulting, and every final memory holds each unscoped buffer at the last boundary's contents. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxRecDepth 65536

/-- The program's 34 segments in order. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)),
    .region (reg12 m ρ),
    .host (hseg hostOps13 hostOps13_sub hostOps13_fresh (W26 m ρ)),
    .region (reg13 m ρ),
    .host (hseg hostOps14 hostOps14_sub hostOps14_fresh (W28 m ρ)),
    .region (reg14 m ρ),
    .host (hseg hostOps15 hostOps15_sub hostOps15_fresh (W30 m ρ)),
    .region (reg15 m ρ),
    .host (hseg hostOps16 hostOps16_sub hostOps16_fresh (W32 m ρ)),
    .region (reg16 m ρ) ]

/-- The program is the run of the segments. -/
theorem main_run (c : Dev nD) : main (F := F) c = Pipeline.Seg.run (segs m ρ) := by
  first
    | exact (main_chain c).trans (by chain_rfl)
    | (rw [main_chain c, Pipeline.Seg.run_eq_chain]; rfl)

set_option backward.isDefEq.respectTransparency.types false in
/-- Every weakly fair execution terminates without a fault, and in every final memory each unscoped buffer of every core holds
    the last boundary's contents. -/
theorem run_all : θ_run defs (onTc (τ := τ) (main (F := F))) ⟨m, fun _ => 0, ρ⟩ (fun r => ∀ (c : Dev nD) (b : DevRef τ sig),
      b ∈ Pipeline.ucRefs τ sig → r.2.mem (((c : Thread nD τ)).1, b) = W34 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h c b hb => h c b hb)

end Cert.KernelIdeal.Fr

end
-- ==== Proof.KI.Kept.lean ====
import proofs.«173394_j29068338659455_2_alg».proof.Proof.KI.Fold

/-! No host stretch and no region writes an argument array, so the fold of the boundaries' contents, read at an argument, walks back
to the launch memory. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W34_main_arg0 (c : Dev nD) : W34 m ρ c (Proc.devRef .tc main_arg0) = m ((c : Thread nD τ).loc main_arg0) :=
  (W34_of_ne m ρ c main_arg0 (by decide)).trans <| (after16_of _ main_arg0 (by decide)).trans <| (W32_of_ne m ρ c main_arg0 (by decide)).trans <| (after15_of _ main_arg0 (by decide)).trans <| (W30_of_ne m ρ c main_arg0 (by decide)).trans <| (after14_of _ main_arg0 (by decide)).trans <| (W28_of_ne m ρ c main_arg0 (by decide)).trans <| (after13_of _ main_arg0 (by decide)).trans <| (W26_of_ne m ρ c main_arg0 (by decide)).trans <| (after12_of _ main_arg0 (by decide)).trans <| (W24_of_ne m ρ c main_arg0 (by decide)).trans <| (after11_of _ main_arg0 (by decide)).trans <| (W22_of_ne m ρ c main_arg0 (by decide)).trans <| (after10_of _ main_arg0 (by decide)).trans <| (W20_of_ne m ρ c main_arg0 (by decide)).trans <| (after9_of _ main_arg0 (by decide)).trans <| (W18_of_ne m ρ c main_arg0 (by decide)).trans <| (after8_of _ main_arg0 (by decide)).trans <| (W16_of_ne m ρ c main_arg0 (by decide)).trans <| (after7_of _ main_arg0 (by decide)).trans <| (W14_of_ne m ρ c main_arg0 (by decide)).trans <| (after6_of _ main_arg0 (by decide)).trans <| (W12_of_ne m ρ c main_arg0 (by decide)).trans <| (after5_of _ main_arg0 (by decide)).trans <| (W10_of_ne m ρ c main_arg0 (by decide)).trans <| (after4_of _ main_arg0 (by decide)).trans <| (W8_of_ne m ρ c main_arg0 (by decide)).trans <| (after3_of _ main_arg0 (by decide)).trans <| (W6_of_ne m ρ c main_arg0 (by decide)).trans <| (after2_of _ main_arg0 (by decide)).trans <| (W4_of_ne m ρ c main_arg0 (by decide)).trans <| (after1_of _ main_arg0 (by decide)).trans <| (W2_of_ne m ρ c main_arg0 (by decide)).trans <| (after0_of _ main_arg0 (by decide)).trans <| rfl
theorem W34_main_arg1 (c : Dev nD) : W34 m ρ c (Proc.devRef .tc main_arg1) = m ((c : Thread nD τ).loc main_arg1) :=
  (W34_of_ne m ρ c main_arg1 (by decide)).trans <| (after16_of _ main_arg1 (by decide)).trans <| (W32_of_ne m ρ c main_arg1 (by decide)).trans <| (after15_of _ main_arg1 (by decide)).trans <| (W30_of_ne m ρ c main_arg1 (by decide)).trans <| (after14_of _ main_arg1 (by decide)).trans <| (W28_of_ne m ρ c main_arg1 (by decide)).trans <| (after13_of _ main_arg1 (by decide)).trans <| (W26_of_ne m ρ c main_arg1 (by decide)).trans <| (after12_of _ main_arg1 (by decide)).trans <| (W24_of_ne m ρ c main_arg1 (by decide)).trans <| (after11_of _ main_arg1 (by decide)).trans <| (W22_of_ne m ρ c main_arg1 (by decide)).trans <| (after10_of _ main_arg1 (by decide)).trans <| (W20_of_ne m ρ c main_arg1 (by decide)).trans <| (after9_of _ main_arg1 (by decide)).trans <| (W18_of_ne m ρ c main_arg1 (by decide)).trans <| (after8_of _ main_arg1 (by decide)).trans <| (W16_of_ne m ρ c main_arg1 (by decide)).trans <| (after7_of _ main_arg1 (by decide)).trans <| (W14_of_ne m ρ c main_arg1 (by decide)).trans <| (after6_of _ main_arg1 (by decide)).trans <| (W12_of_ne m ρ c main_arg1 (by decide)).trans <| (after5_of _ main_arg1 (by decide)).trans <| (W10_of_ne m ρ c main_arg1 (by decide)).trans <| (after4_of _ main_arg1 (by decide)).trans <| (W8_of_ne m ρ c main_arg1 (by decide)).trans <| (after3_of _ main_arg1 (by decide)).trans <| (W6_of_ne m ρ c main_arg1 (by decide)).trans <| (after2_of _ main_arg1 (by decide)).trans <| (W4_of_ne m ρ c main_arg1 (by decide)).trans <| (after1_of _ main_arg1 (by decide)).trans <| (W2_of_ne m ρ c main_arg1 (by decide)).trans <| (after0_of _ main_arg1 (by decide)).trans <| rfl
theorem W34_main_arg2 (c : Dev nD) : W34 m ρ c (Proc.devRef .tc main_arg2) = m ((c : Thread nD τ).loc main_arg2) :=
  (W34_of_ne m ρ c main_arg2 (by decide)).trans <| (after16_of _ main_arg2 (by decide)).trans <| (W32_of_ne m ρ c main_arg2 (by decide)).trans <| (after15_of _ main_arg2 (by decide)).trans <| (W30_of_ne m ρ c main_arg2 (by decide)).trans <| (after14_of _ main_arg2 (by decide)).trans <| (W28_of_ne m ρ c main_arg2 (by decide)).trans <| (after13_of _ main_arg2 (by decide)).trans <| (W26_of_ne m ρ c main_arg2 (by decide)).trans <| (after12_of _ main_arg2 (by decide)).trans <| (W24_of_ne m ρ c main_arg2 (by decide)).trans <| (after11_of _ main_arg2 (by decide)).trans <| (W22_of_ne m ρ c main_arg2 (by decide)).trans <| (after10_of _ main_arg2 (by decide)).trans <| (W20_of_ne m ρ c main_arg2 (by decide)).trans <| (after9_of _ main_arg2 (by decide)).trans <| (W18_of_ne m ρ c main_arg2 (by decide)).trans <| (after8_of _ main_arg2 (by decide)).trans <| (W16_of_ne m ρ c main_arg2 (by decide)).trans <| (after7_of _ main_arg2 (by decide)).trans <| (W14_of_ne m ρ c main_arg2 (by decide)).trans <| (after6_of _ main_arg2 (by decide)).trans <| (W12_of_ne m ρ c main_arg2 (by decide)).trans <| (after5_of _ main_arg2 (by decide)).trans <| (W10_of_ne m ρ c main_arg2 (by decide)).trans <| (after4_of _ main_arg2 (by decide)).trans <| (W8_of_ne m ρ c main_arg2 (by decide)).trans <| (after3_of _ main_arg2 (by decide)).trans <| (W6_of_ne m ρ c main_arg2 (by decide)).trans <| (after2_of _ main_arg2 (by decide)).trans <| (W4_of_ne m ρ c main_arg2 (by decide)).trans <| (after1_of _ main_arg2 (by decide)).trans <| (W2_of_ne m ρ c main_arg2 (by decide)).trans <| (after0_of _ main_arg2 (by decide)).trans <| rfl
theorem W34_main_arg3 (c : Dev nD) : W34 m ρ c (Proc.devRef .tc main_arg3) = m ((c : Thread nD τ).loc main_arg3) :=
  (W34_of_ne m ρ c main_arg3 (by decide)).trans <| (after16_of _ main_arg3 (by decide)).trans <| (W32_of_ne m ρ c main_arg3 (by decide)).trans <| (after15_of _ main_arg3 (by decide)).trans <| (W30_of_ne m ρ c main_arg3 (by decide)).trans <| (after14_of _ main_arg3 (by decide)).trans <| (W28_of_ne m ρ c main_arg3 (by decide)).trans <| (after13_of _ main_arg3 (by decide)).trans <| (W26_of_ne m ρ c main_arg3 (by decide)).trans <| (after12_of _ main_arg3 (by decide)).trans <| (W24_of_ne m ρ c main_arg3 (by decide)).trans <| (after11_of _ main_arg3 (by decide)).trans <| (W22_of_ne m ρ c main_arg3 (by decide)).trans <| (after10_of _ main_arg3 (by decide)).trans <| (W20_of_ne m ρ c main_arg3 (by decide)).trans <| (after9_of _ main_arg3 (by decide)).trans <| (W18_of_ne m ρ c main_arg3 (by decide)).trans <| (after8_of _ main_arg3 (by decide)).trans <| (W16_of_ne m ρ c main_arg3 (by decide)).trans <| (after7_of _ main_arg3 (by decide)).trans <| (W14_of_ne m ρ c main_arg3 (by decide)).trans <| (after6_of _ main_arg3 (by decide)).trans <| (W12_of_ne m ρ c main_arg3 (by decide)).trans <| (after5_of _ main_arg3 (by decide)).trans <| (W10_of_ne m ρ c main_arg3 (by decide)).trans <| (after4_of _ main_arg3 (by decide)).trans <| (W8_of_ne m ρ c main_arg3 (by decide)).trans <| (after3_of _ main_arg3 (by decide)).trans <| (W6_of_ne m ρ c main_arg3 (by decide)).trans <| (after2_of _ main_arg3 (by decide)).trans <| (W4_of_ne m ρ c main_arg3 (by decide)).trans <| (after1_of _ main_arg3 (by decide)).trans <| (W2_of_ne m ρ c main_arg3 (by decide)).trans <| (after0_of _ main_arg3 (by decide)).trans <| rfl
theorem W34_main_arg4 (c : Dev nD) : W34 m ρ c (Proc.devRef .tc main_arg4) = m ((c : Thread nD τ).loc main_arg4) :=
  (W34_of_ne m ρ c main_arg4 (by decide)).trans <| (after16_of _ main_arg4 (by decide)).trans <| (W32_of_ne m ρ c main_arg4 (by decide)).trans <| (after15_of _ main_arg4 (by decide)).trans <| (W30_of_ne m ρ c main_arg4 (by decide)).trans <| (after14_of _ main_arg4 (by decide)).trans <| (W28_of_ne m ρ c main_arg4 (by decide)).trans <| (after13_of _ main_arg4 (by decide)).trans <| (W26_of_ne m ρ c main_arg4 (by decide)).trans <| (after12_of _ main_arg4 (by decide)).trans <| (W24_of_ne m ρ c main_arg4 (by decide)).trans <| (after11_of _ main_arg4 (by decide)).trans <| (W22_of_ne m ρ c main_arg4 (by decide)).trans <| (after10_of _ main_arg4 (by decide)).trans <| (W20_of_ne m ρ c main_arg4 (by decide)).trans <| (after9_of _ main_arg4 (by decide)).trans <| (W18_of_ne m ρ c main_arg4 (by decide)).trans <| (after8_of _ main_arg4 (by decide)).trans <| (W16_of_ne m ρ c main_arg4 (by decide)).trans <| (after7_of _ main_arg4 (by decide)).trans <| (W14_of_ne m ρ c main_arg4 (by decide)).trans <| (after6_of _ main_arg4 (by decide)).trans <| (W12_of_ne m ρ c main_arg4 (by decide)).trans <| (after5_of _ main_arg4 (by decide)).trans <| (W10_of_ne m ρ c main_arg4 (by decide)).trans <| (after4_of _ main_arg4 (by decide)).trans <| (W8_of_ne m ρ c main_arg4 (by decide)).trans <| (after3_of _ main_arg4 (by decide)).trans <| (W6_of_ne m ρ c main_arg4 (by decide)).trans <| (after2_of _ main_arg4 (by decide)).trans <| (W4_of_ne m ρ c main_arg4 (by decide)).trans <| (after1_of _ main_arg4 (by decide)).trans <| (W2_of_ne m ρ c main_arg4 (by decide)).trans <| (after0_of _ main_arg4 (by decide)).trans <| rfl
theorem W34_main_arg5 (c : Dev nD) : W34 m ρ c (Proc.devRef .tc main_arg5) = m ((c : Thread nD τ).loc main_arg5) :=
  (W34_of_ne m ρ c main_arg5 (by decide)).trans <| (after16_of _ main_arg5 (by decide)).trans <| (W32_of_ne m ρ c main_arg5 (by decide)).trans <| (after15_of _ main_arg5 (by decide)).trans <| (W30_of_ne m ρ c main_arg5 (by decide)).trans <| (after14_of _ main_arg5 (by decide)).trans <| (W28_of_ne m ρ c main_arg5 (by decide)).trans <| (after13_of _ main_arg5 (by decide)).trans <| (W26_of_ne m ρ c main_arg5 (by decide)).trans <| (after12_of _ main_arg5 (by decide)).trans <| (W24_of_ne m ρ c main_arg5 (by decide)).trans <| (after11_of _ main_arg5 (by decide)).trans <| (W22_of_ne m ρ c main_arg5 (by decide)).trans <| (after10_of _ main_arg5 (by decide)).trans <| (W20_of_ne m ρ c main_arg5 (by decide)).trans <| (after9_of _ main_arg5 (by decide)).trans <| (W18_of_ne m ρ c main_arg5 (by decide)).trans <| (after8_of _ main_arg5 (by decide)).trans <| (W16_of_ne m ρ c main_arg5 (by decide)).trans <| (after7_of _ main_arg5 (by decide)).trans <| (W14_of_ne m ρ c main_arg5 (by decide)).trans <| (after6_of _ main_arg5 (by decide)).trans <| (W12_of_ne m ρ c main_arg5 (by decide)).trans <| (after5_of _ main_arg5 (by decide)).trans <| (W10_of_ne m ρ c main_arg5 (by decide)).trans <| (after4_of _ main_arg5 (by decide)).trans <| (W8_of_ne m ρ c main_arg5 (by decide)).trans <| (after3_of _ main_arg5 (by decide)).trans <| (W6_of_ne m ρ c main_arg5 (by decide)).trans <| (after2_of _ main_arg5 (by decide)).trans <| (W4_of_ne m ρ c main_arg5 (by decide)).trans <| (after1_of _ main_arg5 (by decide)).trans <| (W2_of_ne m ρ c main_arg5 (by decide)).trans <| (after0_of _ main_arg5 (by decide)).trans <| rfl
theorem W34_main_arg6 (c : Dev nD) : W34 m ρ c (Proc.devRef .tc main_arg6) = m ((c : Thread nD τ).loc main_arg6) :=
  (W34_of_ne m ρ c main_arg6 (by decide)).trans <| (after16_of _ main_arg6 (by decide)).trans <| (W32_of_ne m ρ c main_arg6 (by decide)).trans <| (after15_of _ main_arg6 (by decide)).trans <| (W30_of_ne m ρ c main_arg6 (by decide)).trans <| (after14_of _ main_arg6 (by decide)).trans <| (W28_of_ne m ρ c main_arg6 (by decide)).trans <| (after13_of _ main_arg6 (by decide)).trans <| (W26_of_ne m ρ c main_arg6 (by decide)).trans <| (after12_of _ main_arg6 (by decide)).trans <| (W24_of_ne m ρ c main_arg6 (by decide)).trans <| (after11_of _ main_arg6 (by decide)).trans <| (W22_of_ne m ρ c main_arg6 (by decide)).trans <| (after10_of _ main_arg6 (by decide)).trans <| (W20_of_ne m ρ c main_arg6 (by decide)).trans <| (after9_of _ main_arg6 (by decide)).trans <| (W18_of_ne m ρ c main_arg6 (by decide)).trans <| (after8_of _ main_arg6 (by decide)).trans <| (W16_of_ne m ρ c main_arg6 (by decide)).trans <| (after7_of _ main_arg6 (by decide)).trans <| (W14_of_ne m ρ c main_arg6 (by decide)).trans <| (after6_of _ main_arg6 (by decide)).trans <| (W12_of_ne m ρ c main_arg6 (by decide)).trans <| (after5_of _ main_arg6 (by decide)).trans <| (W10_of_ne m ρ c main_arg6 (by decide)).trans <| (after4_of _ main_arg6 (by decide)).trans <| (W8_of_ne m ρ c main_arg6 (by decide)).trans <| (after3_of _ main_arg6 (by decide)).trans <| (W6_of_ne m ρ c main_arg6 (by decide)).trans <| (after2_of _ main_arg6 (by decide)).trans <| (W4_of_ne m ρ c main_arg6 (by decide)).trans <| (after1_of _ main_arg6 (by decide)).trans <| (W2_of_ne m ρ c main_arg6 (by decide)).trans <| (after0_of _ main_arg6 (by decide)).trans <| rfl
theorem W34_main_arg7 (c : Dev nD) : W34 m ρ c (Proc.devRef .tc main_arg7) = m ((c : Thread nD τ).loc main_arg7) :=
  (W34_of_ne m ρ c main_arg7 (by decide)).trans <| (after16_of _ main_arg7 (by decide)).trans <| (W32_of_ne m ρ c main_arg7 (by decide)).trans <| (after15_of _ main_arg7 (by decide)).trans <| (W30_of_ne m ρ c main_arg7 (by decide)).trans <| (after14_of _ main_arg7 (by decide)).trans <| (W28_of_ne m ρ c main_arg7 (by decide)).trans <| (after13_of _ main_arg7 (by decide)).trans <| (W26_of_ne m ρ c main_arg7 (by decide)).trans <| (after12_of _ main_arg7 (by decide)).trans <| (W24_of_ne m ρ c main_arg7 (by decide)).trans <| (after11_of _ main_arg7 (by decide)).trans <| (W22_of_ne m ρ c main_arg7 (by decide)).trans <| (after10_of _ main_arg7 (by decide)).trans <| (W20_of_ne m ρ c main_arg7 (by decide)).trans <| (after9_of _ main_arg7 (by decide)).trans <| (W18_of_ne m ρ c main_arg7 (by decide)).trans <| (after8_of _ main_arg7 (by decide)).trans <| (W16_of_ne m ρ c main_arg7 (by decide)).trans <| (after7_of _ main_arg7 (by decide)).trans <| (W14_of_ne m ρ c main_arg7 (by decide)).trans <| (after6_of _ main_arg7 (by decide)).trans <| (W12_of_ne m ρ c main_arg7 (by decide)).trans <| (after5_of _ main_arg7 (by decide)).trans <| (W10_of_ne m ρ c main_arg7 (by decide)).trans <| (after4_of _ main_arg7 (by decide)).trans <| (W8_of_ne m ρ c main_arg7 (by decide)).trans <| (after3_of _ main_arg7 (by decide)).trans <| (W6_of_ne m ρ c main_arg7 (by decide)).trans <| (after2_of _ main_arg7 (by decide)).trans <| (W4_of_ne m ρ c main_arg7 (by decide)).trans <| (after1_of _ main_arg7 (by decide)).trans <| (W2_of_ne m ρ c main_arg7 (by decide)).trans <| (after0_of _ main_arg7 (by decide)).trans <| rfl
theorem W34_main_arg8 (c : Dev nD) : W34 m ρ c (Proc.devRef .tc main_arg8) = m ((c : Thread nD τ).loc main_arg8) :=
  (W34_of_ne m ρ c main_arg8 (by decide)).trans <| (after16_of _ main_arg8 (by decide)).trans <| (W32_of_ne m ρ c main_arg8 (by decide)).trans <| (after15_of _ main_arg8 (by decide)).trans <| (W30_of_ne m ρ c main_arg8 (by decide)).trans <| (after14_of _ main_arg8 (by decide)).trans <| (W28_of_ne m ρ c main_arg8 (by decide)).trans <| (after13_of _ main_arg8 (by decide)).trans <| (W26_of_ne m ρ c main_arg8 (by decide)).trans <| (after12_of _ main_arg8 (by decide)).trans <| (W24_of_ne m ρ c main_arg8 (by decide)).trans <| (after11_of _ main_arg8 (by decide)).trans <| (W22_of_ne m ρ c main_arg8 (by decide)).trans <| (after10_of _ main_arg8 (by decide)).trans <| (W20_of_ne m ρ c main_arg8 (by decide)).trans <| (after9_of _ main_arg8 (by decide)).trans <| (W18_of_ne m ρ c main_arg8 (by decide)).trans <| (after8_of _ main_arg8 (by decide)).trans <| (W16_of_ne m ρ c main_arg8 (by decide)).trans <| (after7_of _ main_arg8 (by decide)).trans <| (W14_of_ne m ρ c main_arg8 (by decide)).trans <| (after6_of _ main_arg8 (by decide)).trans <| (W12_of_ne m ρ c main_arg8 (by decide)).trans <| (after5_of _ main_arg8 (by decide)).trans <| (W10_of_ne m ρ c main_arg8 (by decide)).trans <| (after4_of _ main_arg8 (by decide)).trans <| (W8_of_ne m ρ c main_arg8 (by decide)).trans <| (after3_of _ main_arg8 (by decide)).trans <| (W6_of_ne m ρ c main_arg8 (by decide)).trans <| (after2_of _ main_arg8 (by decide)).trans <| (W4_of_ne m ρ c main_arg8 (by decide)).trans <| (after1_of _ main_arg8 (by decide)).trans <| (W2_of_ne m ρ c main_arg8 (by decide)).trans <| (after0_of _ main_arg8 (by decide)).trans <| rfl
theorem W34_main_arg9 (c : Dev nD) : W34 m ρ c (Proc.devRef .tc main_arg9) = m ((c : Thread nD τ).loc main_arg9) :=
  (W34_of_ne m ρ c main_arg9 (by decide)).trans <| (after16_of _ main_arg9 (by decide)).trans <| (W32_of_ne m ρ c main_arg9 (by decide)).trans <| (after15_of _ main_arg9 (by decide)).trans <| (W30_of_ne m ρ c main_arg9 (by decide)).trans <| (after14_of _ main_arg9 (by decide)).trans <| (W28_of_ne m ρ c main_arg9 (by decide)).trans <| (after13_of _ main_arg9 (by decide)).trans <| (W26_of_ne m ρ c main_arg9 (by decide)).trans <| (after12_of _ main_arg9 (by decide)).trans <| (W24_of_ne m ρ c main_arg9 (by decide)).trans <| (after11_of _ main_arg9 (by decide)).trans <| (W22_of_ne m ρ c main_arg9 (by decide)).trans <| (after10_of _ main_arg9 (by decide)).trans <| (W20_of_ne m ρ c main_arg9 (by decide)).trans <| (after9_of _ main_arg9 (by decide)).trans <| (W18_of_ne m ρ c main_arg9 (by decide)).trans <| (after8_of _ main_arg9 (by decide)).trans <| (W16_of_ne m ρ c main_arg9 (by decide)).trans <| (after7_of _ main_arg9 (by decide)).trans <| (W14_of_ne m ρ c main_arg9 (by decide)).trans <| (after6_of _ main_arg9 (by decide)).trans <| (W12_of_ne m ρ c main_arg9 (by decide)).trans <| (after5_of _ main_arg9 (by decide)).trans <| (W10_of_ne m ρ c main_arg9 (by decide)).trans <| (after4_of _ main_arg9 (by decide)).trans <| (W8_of_ne m ρ c main_arg9 (by decide)).trans <| (after3_of _ main_arg9 (by decide)).trans <| (W6_of_ne m ρ c main_arg9 (by decide)).trans <| (after2_of _ main_arg9 (by decide)).trans <| (W4_of_ne m ρ c main_arg9 (by decide)).trans <| (after1_of _ main_arg9 (by decide)).trans <| (W2_of_ne m ρ c main_arg9 (by decide)).trans <| (after0_of _ main_arg9 (by decide)).trans <| rfl
theorem W34_main_arg10 (c : Dev nD) : W34 m ρ c (Proc.devRef .tc main_arg10) = m ((c : Thread nD τ).loc main_arg10) :=
  (W34_of_ne m ρ c main_arg10 (by decide)).trans <| (after16_of _ main_arg10 (by decide)).trans <| (W32_of_ne m ρ c main_arg10 (by decide)).trans <| (after15_of _ main_arg10 (by decide)).trans <| (W30_of_ne m ρ c main_arg10 (by decide)).trans <| (after14_of _ main_arg10 (by decide)).trans <| (W28_of_ne m ρ c main_arg10 (by decide)).trans <| (after13_of _ main_arg10 (by decide)).trans <| (W26_of_ne m ρ c main_arg10 (by decide)).trans <| (after12_of _ main_arg10 (by decide)).trans <| (W24_of_ne m ρ c main_arg10 (by decide)).trans <| (after11_of _ main_arg10 (by decide)).trans <| (W22_of_ne m ρ c main_arg10 (by decide)).trans <| (after10_of _ main_arg10 (by decide)).trans <| (W20_of_ne m ρ c main_arg10 (by decide)).trans <| (after9_of _ main_arg10 (by decide)).trans <| (W18_of_ne m ρ c main_arg10 (by decide)).trans <| (after8_of _ main_arg10 (by decide)).trans <| (W16_of_ne m ρ c main_arg10 (by decide)).trans <| (after7_of _ main_arg10 (by decide)).trans <| (W14_of_ne m ρ c main_arg10 (by decide)).trans <| (after6_of _ main_arg10 (by decide)).trans <| (W12_of_ne m ρ c main_arg10 (by decide)).trans <| (after5_of _ main_arg10 (by decide)).trans <| (W10_of_ne m ρ c main_arg10 (by decide)).trans <| (after4_of _ main_arg10 (by decide)).trans <| (W8_of_ne m ρ c main_arg10 (by decide)).trans <| (after3_of _ main_arg10 (by decide)).trans <| (W6_of_ne m ρ c main_arg10 (by decide)).trans <| (after2_of _ main_arg10 (by decide)).trans <| (W4_of_ne m ρ c main_arg10 (by decide)).trans <| (after1_of _ main_arg10 (by decide)).trans <| (W2_of_ne m ρ c main_arg10 (by decide)).trans <| (after0_of _ main_arg10 (by decide)).trans <| rfl
theorem W34_main_arg11 (c : Dev nD) : W34 m ρ c (Proc.devRef .tc main_arg11) = m ((c : Thread nD τ).loc main_arg11) :=
  (W34_of_ne m ρ c main_arg11 (by decide)).trans <| (after16_of _ main_arg11 (by decide)).trans <| (W32_of_ne m ρ c main_arg11 (by decide)).trans <| (after15_of _ main_arg11 (by decide)).trans <| (W30_of_ne m ρ c main_arg11 (by decide)).trans <| (after14_of _ main_arg11 (by decide)).trans <| (W28_of_ne m ρ c main_arg11 (by decide)).trans <| (after13_of _ main_arg11 (by decide)).trans <| (W26_of_ne m ρ c main_arg11 (by decide)).trans <| (after12_of _ main_arg11 (by decide)).trans <| (W24_of_ne m ρ c main_arg11 (by decide)).trans <| (after11_of _ main_arg11 (by decide)).trans <| (W22_of_ne m ρ c main_arg11 (by decide)).trans <| (after10_of _ main_arg11 (by decide)).trans <| (W20_of_ne m ρ c main_arg11 (by decide)).trans <| (after9_of _ main_arg11 (by decide)).trans <| (W18_of_ne m ρ c main_arg11 (by decide)).trans <| (after8_of _ main_arg11 (by decide)).trans <| (W16_of_ne m ρ c main_arg11 (by decide)).trans <| (after7_of _ main_arg11 (by decide)).trans <| (W14_of_ne m ρ c main_arg11 (by decide)).trans <| (after6_of _ main_arg11 (by decide)).trans <| (W12_of_ne m ρ c main_arg11 (by decide)).trans <| (after5_of _ main_arg11 (by decide)).trans <| (W10_of_ne m ρ c main_arg11 (by decide)).trans <| (after4_of _ main_arg11 (by decide)).trans <| (W8_of_ne m ρ c main_arg11 (by decide)).trans <| (after3_of _ main_arg11 (by decide)).trans <| (W6_of_ne m ρ c main_arg11 (by decide)).trans <| (after2_of _ main_arg11 (by decide)).trans <| (W4_of_ne m ρ c main_arg11 (by decide)).trans <| (after1_of _ main_arg11 (by decide)).trans <| (W2_of_ne m ρ c main_arg11 (by decide)).trans <| (after0_of _ main_arg11 (by decide)).trans <| rfl
theorem W34_main_arg12 (c : Dev nD) : W34 m ρ c (Proc.devRef .tc main_arg12) = m ((c : Thread nD τ).loc main_arg12) :=
  (W34_of_ne m ρ c main_arg12 (by decide)).trans <| (after16_of _ main_arg12 (by decide)).trans <| (W32_of_ne m ρ c main_arg12 (by decide)).trans <| (after15_of _ main_arg12 (by decide)).trans <| (W30_of_ne m ρ c main_arg12 (by decide)).trans <| (after14_of _ main_arg12 (by decide)).trans <| (W28_of_ne m ρ c main_arg12 (by decide)).trans <| (after13_of _ main_arg12 (by decide)).trans <| (W26_of_ne m ρ c main_arg12 (by decide)).trans <| (after12_of _ main_arg12 (by decide)).trans <| (W24_of_ne m ρ c main_arg12 (by decide)).trans <| (after11_of _ main_arg12 (by decide)).trans <| (W22_of_ne m ρ c main_arg12 (by decide)).trans <| (after10_of _ main_arg12 (by decide)).trans <| (W20_of_ne m ρ c main_arg12 (by decide)).trans <| (after9_of _ main_arg12 (by decide)).trans <| (W18_of_ne m ρ c main_arg12 (by decide)).trans <| (after8_of _ main_arg12 (by decide)).trans <| (W16_of_ne m ρ c main_arg12 (by decide)).trans <| (after7_of _ main_arg12 (by decide)).trans <| (W14_of_ne m ρ c main_arg12 (by decide)).trans <| (after6_of _ main_arg12 (by decide)).trans <| (W12_of_ne m ρ c main_arg12 (by decide)).trans <| (after5_of _ main_arg12 (by decide)).trans <| (W10_of_ne m ρ c main_arg12 (by decide)).trans <| (after4_of _ main_arg12 (by decide)).trans <| (W8_of_ne m ρ c main_arg12 (by decide)).trans <| (after3_of _ main_arg12 (by decide)).trans <| (W6_of_ne m ρ c main_arg12 (by decide)).trans <| (after2_of _ main_arg12 (by decide)).trans <| (W4_of_ne m ρ c main_arg12 (by decide)).trans <| (after1_of _ main_arg12 (by decide)).trans <| (W2_of_ne m ρ c main_arg12 (by decide)).trans <| (after0_of _ main_arg12 (by decide)).trans <| rfl
theorem W34_main_arg13 (c : Dev nD) : W34 m ρ c (Proc.devRef .tc main_arg13) = m ((c : Thread nD τ).loc main_arg13) :=
  (W34_of_ne m ρ c main_arg13 (by decide)).trans <| (after16_of _ main_arg13 (by decide)).trans <| (W32_of_ne m ρ c main_arg13 (by decide)).trans <| (after15_of _ main_arg13 (by decide)).trans <| (W30_of_ne m ρ c main_arg13 (by decide)).trans <| (after14_of _ main_arg13 (by decide)).trans <| (W28_of_ne m ρ c main_arg13 (by decide)).trans <| (after13_of _ main_arg13 (by decide)).trans <| (W26_of_ne m ρ c main_arg13 (by decide)).trans <| (after12_of _ main_arg13 (by decide)).trans <| (W24_of_ne m ρ c main_arg13 (by decide)).trans <| (after11_of _ main_arg13 (by decide)).trans <| (W22_of_ne m ρ c main_arg13 (by decide)).trans <| (after10_of _ main_arg13 (by decide)).trans <| (W20_of_ne m ρ c main_arg13 (by decide)).trans <| (after9_of _ main_arg13 (by decide)).trans <| (W18_of_ne m ρ c main_arg13 (by decide)).trans <| (after8_of _ main_arg13 (by decide)).trans <| (W16_of_ne m ρ c main_arg13 (by decide)).trans <| (after7_of _ main_arg13 (by decide)).trans <| (W14_of_ne m ρ c main_arg13 (by decide)).trans <| (after6_of _ main_arg13 (by decide)).trans <| (W12_of_ne m ρ c main_arg13 (by decide)).trans <| (after5_of _ main_arg13 (by decide)).trans <| (W10_of_ne m ρ c main_arg13 (by decide)).trans <| (after4_of _ main_arg13 (by decide)).trans <| (W8_of_ne m ρ c main_arg13 (by decide)).trans <| (after3_of _ main_arg13 (by decide)).trans <| (W6_of_ne m ρ c main_arg13 (by decide)).trans <| (after2_of _ main_arg13 (by decide)).trans <| (W4_of_ne m ρ c main_arg13 (by decide)).trans <| (after1_of _ main_arg13 (by decide)).trans <| (W2_of_ne m ρ c main_arg13 (by decide)).trans <| (after0_of _ main_arg13 (by decide)).trans <| rfl
theorem W34_main_arg14 (c : Dev nD) : W34 m ρ c (Proc.devRef .tc main_arg14) = m ((c : Thread nD τ).loc main_arg14) :=
  (W34_of_ne m ρ c main_arg14 (by decide)).trans <| (after16_of _ main_arg14 (by decide)).trans <| (W32_of_ne m ρ c main_arg14 (by decide)).trans <| (after15_of _ main_arg14 (by decide)).trans <| (W30_of_ne m ρ c main_arg14 (by decide)).trans <| (after14_of _ main_arg14 (by decide)).trans <| (W28_of_ne m ρ c main_arg14 (by decide)).trans <| (after13_of _ main_arg14 (by decide)).trans <| (W26_of_ne m ρ c main_arg14 (by decide)).trans <| (after12_of _ main_arg14 (by decide)).trans <| (W24_of_ne m ρ c main_arg14 (by decide)).trans <| (after11_of _ main_arg14 (by decide)).trans <| (W22_of_ne m ρ c main_arg14 (by decide)).trans <| (after10_of _ main_arg14 (by decide)).trans <| (W20_of_ne m ρ c main_arg14 (by decide)).trans <| (after9_of _ main_arg14 (by decide)).trans <| (W18_of_ne m ρ c main_arg14 (by decide)).trans <| (after8_of _ main_arg14 (by decide)).trans <| (W16_of_ne m ρ c main_arg14 (by decide)).trans <| (after7_of _ main_arg14 (by decide)).trans <| (W14_of_ne m ρ c main_arg14 (by decide)).trans <| (after6_of _ main_arg14 (by decide)).trans <| (W12_of_ne m ρ c main_arg14 (by decide)).trans <| (after5_of _ main_arg14 (by decide)).trans <| (W10_of_ne m ρ c main_arg14 (by decide)).trans <| (after4_of _ main_arg14 (by decide)).trans <| (W8_of_ne m ρ c main_arg14 (by decide)).trans <| (after3_of _ main_arg14 (by decide)).trans <| (W6_of_ne m ρ c main_arg14 (by decide)).trans <| (after2_of _ main_arg14 (by decide)).trans <| (W4_of_ne m ρ c main_arg14 (by decide)).trans <| (after1_of _ main_arg14 (by decide)).trans <| (W2_of_ne m ρ c main_arg14 (by decide)).trans <| (after0_of _ main_arg14 (by decide)).trans <| rfl
theorem W34_main_arg15 (c : Dev nD) : W34 m ρ c (Proc.devRef .tc main_arg15) = m ((c : Thread nD τ).loc main_arg15) :=
  (W34_of_ne m ρ c main_arg15 (by decide)).trans <| (after16_of _ main_arg15 (by decide)).trans <| (W32_of_ne m ρ c main_arg15 (by decide)).trans <| (after15_of _ main_arg15 (by decide)).trans <| (W30_of_ne m ρ c main_arg15 (by decide)).trans <| (after14_of _ main_arg15 (by decide)).trans <| (W28_of_ne m ρ c main_arg15 (by decide)).trans <| (after13_of _ main_arg15 (by decide)).trans <| (W26_of_ne m ρ c main_arg15 (by decide)).trans <| (after12_of _ main_arg15 (by decide)).trans <| (W24_of_ne m ρ c main_arg15 (by decide)).trans <| (after11_of _ main_arg15 (by decide)).trans <| (W22_of_ne m ρ c main_arg15 (by decide)).trans <| (after10_of _ main_arg15 (by decide)).trans <| (W20_of_ne m ρ c main_arg15 (by decide)).trans <| (after9_of _ main_arg15 (by decide)).trans <| (W18_of_ne m ρ c main_arg15 (by decide)).trans <| (after8_of _ main_arg15 (by decide)).trans <| (W16_of_ne m ρ c main_arg15 (by decide)).trans <| (after7_of _ main_arg15 (by decide)).trans <| (W14_of_ne m ρ c main_arg15 (by decide)).trans <| (after6_of _ main_arg15 (by decide)).trans <| (W12_of_ne m ρ c main_arg15 (by decide)).trans <| (after5_of _ main_arg15 (by decide)).trans <| (W10_of_ne m ρ c main_arg15 (by decide)).trans <| (after4_of _ main_arg15 (by decide)).trans <| (W8_of_ne m ρ c main_arg15 (by decide)).trans <| (after3_of _ main_arg15 (by decide)).trans <| (W6_of_ne m ρ c main_arg15 (by decide)).trans <| (after2_of _ main_arg15 (by decide)).trans <| (W4_of_ne m ρ c main_arg15 (by decide)).trans <| (after1_of _ main_arg15 (by decide)).trans <| (W2_of_ne m ρ c main_arg15 (by decide)).trans <| (after0_of _ main_arg15 (by decide)).trans <| rfl
theorem W34_main_arg16 (c : Dev nD) : W34 m ρ c (Proc.devRef .tc main_arg16) = m ((c : Thread nD τ).loc main_arg16) :=
  (W34_of_ne m ρ c main_arg16 (by decide)).trans <| (after16_of _ main_arg16 (by decide)).trans <| (W32_of_ne m ρ c main_arg16 (by decide)).trans <| (after15_of _ main_arg16 (by decide)).trans <| (W30_of_ne m ρ c main_arg16 (by decide)).trans <| (after14_of _ main_arg16 (by decide)).trans <| (W28_of_ne m ρ c main_arg16 (by decide)).trans <| (after13_of _ main_arg16 (by decide)).trans <| (W26_of_ne m ρ c main_arg16 (by decide)).trans <| (after12_of _ main_arg16 (by decide)).trans <| (W24_of_ne m ρ c main_arg16 (by decide)).trans <| (after11_of _ main_arg16 (by decide)).trans <| (W22_of_ne m ρ c main_arg16 (by decide)).trans <| (after10_of _ main_arg16 (by decide)).trans <| (W20_of_ne m ρ c main_arg16 (by decide)).trans <| (after9_of _ main_arg16 (by decide)).trans <| (W18_of_ne m ρ c main_arg16 (by decide)).trans <| (after8_of _ main_arg16 (by decide)).trans <| (W16_of_ne m ρ c main_arg16 (by decide)).trans <| (after7_of _ main_arg16 (by decide)).trans <| (W14_of_ne m ρ c main_arg16 (by decide)).trans <| (after6_of _ main_arg16 (by decide)).trans <| (W12_of_ne m ρ c main_arg16 (by decide)).trans <| (after5_of _ main_arg16 (by decide)).trans <| (W10_of_ne m ρ c main_arg16 (by decide)).trans <| (after4_of _ main_arg16 (by decide)).trans <| (W8_of_ne m ρ c main_arg16 (by decide)).trans <| (after3_of _ main_arg16 (by decide)).trans <| (W6_of_ne m ρ c main_arg16 (by decide)).trans <| (after2_of _ main_arg16 (by decide)).trans <| (W4_of_ne m ρ c main_arg16 (by decide)).trans <| (after1_of _ main_arg16 (by decide)).trans <| (W2_of_ne m ρ c main_arg16 (by decide)).trans <| (after0_of _ main_arg16 (by decide)).trans <| rfl
theorem W34_main_arg17 (c : Dev nD) : W34 m ρ c (Proc.devRef .tc main_arg17) = m ((c : Thread nD τ).loc main_arg17) :=
  (W34_of_ne m ρ c main_arg17 (by decide)).trans <| (after16_of _ main_arg17 (by decide)).trans <| (W32_of_ne m ρ c main_arg17 (by decide)).trans <| (after15_of _ main_arg17 (by decide)).trans <| (W30_of_ne m ρ c main_arg17 (by decide)).trans <| (after14_of _ main_arg17 (by decide)).trans <| (W28_of_ne m ρ c main_arg17 (by decide)).trans <| (after13_of _ main_arg17 (by decide)).trans <| (W26_of_ne m ρ c main_arg17 (by decide)).trans <| (after12_of _ main_arg17 (by decide)).trans <| (W24_of_ne m ρ c main_arg17 (by decide)).trans <| (after11_of _ main_arg17 (by decide)).trans <| (W22_of_ne m ρ c main_arg17 (by decide)).trans <| (after10_of _ main_arg17 (by decide)).trans <| (W20_of_ne m ρ c main_arg17 (by decide)).trans <| (after9_of _ main_arg17 (by decide)).trans <| (W18_of_ne m ρ c main_arg17 (by decide)).trans <| (after8_of _ main_arg17 (by decide)).trans <| (W16_of_ne m ρ c main_arg17 (by decide)).trans <| (after7_of _ main_arg17 (by decide)).trans <| (W14_of_ne m ρ c main_arg17 (by decide)).trans <| (after6_of _ main_arg17 (by decide)).trans <| (W12_of_ne m ρ c main_arg17 (by decide)).trans <| (after5_of _ main_arg17 (by decide)).trans <| (W10_of_ne m ρ c main_arg17 (by decide)).trans <| (after4_of _ main_arg17 (by decide)).trans <| (W8_of_ne m ρ c main_arg17 (by decide)).trans <| (after3_of _ main_arg17 (by decide)).trans <| (W6_of_ne m ρ c main_arg17 (by decide)).trans <| (after2_of _ main_arg17 (by decide)).trans <| (W4_of_ne m ρ c main_arg17 (by decide)).trans <| (after1_of _ main_arg17 (by decide)).trans <| (W2_of_ne m ρ c main_arg17 (by decide)).trans <| (after0_of _ main_arg17 (by decide)).trans <| rfl
theorem W34_main_arg18 (c : Dev nD) : W34 m ρ c (Proc.devRef .tc main_arg18) = m ((c : Thread nD τ).loc main_arg18) :=
  (W34_of_ne m ρ c main_arg18 (by decide)).trans <| (after16_of _ main_arg18 (by decide)).trans <| (W32_of_ne m ρ c main_arg18 (by decide)).trans <| (after15_of _ main_arg18 (by decide)).trans <| (W30_of_ne m ρ c main_arg18 (by decide)).trans <| (after14_of _ main_arg18 (by decide)).trans <| (W28_of_ne m ρ c main_arg18 (by decide)).trans <| (after13_of _ main_arg18 (by decide)).trans <| (W26_of_ne m ρ c main_arg18 (by decide)).trans <| (after12_of _ main_arg18 (by decide)).trans <| (W24_of_ne m ρ c main_arg18 (by decide)).trans <| (after11_of _ main_arg18 (by decide)).trans <| (W22_of_ne m ρ c main_arg18 (by decide)).trans <| (after10_of _ main_arg18 (by decide)).trans <| (W20_of_ne m ρ c main_arg18 (by decide)).trans <| (after9_of _ main_arg18 (by decide)).trans <| (W18_of_ne m ρ c main_arg18 (by decide)).trans <| (after8_of _ main_arg18 (by decide)).trans <| (W16_of_ne m ρ c main_arg18 (by decide)).trans <| (after7_of _ main_arg18 (by decide)).trans <| (W14_of_ne m ρ c main_arg18 (by decide)).trans <| (after6_of _ main_arg18 (by decide)).trans <| (W12_of_ne m ρ c main_arg18 (by decide)).trans <| (after5_of _ main_arg18 (by decide)).trans <| (W10_of_ne m ρ c main_arg18 (by decide)).trans <| (after4_of _ main_arg18 (by decide)).trans <| (W8_of_ne m ρ c main_arg18 (by decide)).trans <| (after3_of _ main_arg18 (by decide)).trans <| (W6_of_ne m ρ c main_arg18 (by decide)).trans <| (after2_of _ main_arg18 (by decide)).trans <| (W4_of_ne m ρ c main_arg18 (by decide)).trans <| (after1_of _ main_arg18 (by decide)).trans <| (W2_of_ne m ρ c main_arg18 (by decide)).trans <| (after0_of _ main_arg18 (by decide)).trans <| rfl
theorem W34_main_arg19 (c : Dev nD) : W34 m ρ c (Proc.devRef .tc main_arg19) = m ((c : Thread nD τ).loc main_arg19) :=
  (W34_of_ne m ρ c main_arg19 (by decide)).trans <| (after16_of _ main_arg19 (by decide)).trans <| (W32_of_ne m ρ c main_arg19 (by decide)).trans <| (after15_of _ main_arg19 (by decide)).trans <| (W30_of_ne m ρ c main_arg19 (by decide)).trans <| (after14_of _ main_arg19 (by decide)).trans <| (W28_of_ne m ρ c main_arg19 (by decide)).trans <| (after13_of _ main_arg19 (by decide)).trans <| (W26_of_ne m ρ c main_arg19 (by decide)).trans <| (after12_of _ main_arg19 (by decide)).trans <| (W24_of_ne m ρ c main_arg19 (by decide)).trans <| (after11_of _ main_arg19 (by decide)).trans <| (W22_of_ne m ρ c main_arg19 (by decide)).trans <| (after10_of _ main_arg19 (by decide)).trans <| (W20_of_ne m ρ c main_arg19 (by decide)).trans <| (after9_of _ main_arg19 (by decide)).trans <| (W18_of_ne m ρ c main_arg19 (by decide)).trans <| (after8_of _ main_arg19 (by decide)).trans <| (W16_of_ne m ρ c main_arg19 (by decide)).trans <| (after7_of _ main_arg19 (by decide)).trans <| (W14_of_ne m ρ c main_arg19 (by decide)).trans <| (after6_of _ main_arg19 (by decide)).trans <| (W12_of_ne m ρ c main_arg19 (by decide)).trans <| (after5_of _ main_arg19 (by decide)).trans <| (W10_of_ne m ρ c main_arg19 (by decide)).trans <| (after4_of _ main_arg19 (by decide)).trans <| (W8_of_ne m ρ c main_arg19 (by decide)).trans <| (after3_of _ main_arg19 (by decide)).trans <| (W6_of_ne m ρ c main_arg19 (by decide)).trans <| (after2_of _ main_arg19 (by decide)).trans <| (W4_of_ne m ρ c main_arg19 (by decide)).trans <| (after1_of _ main_arg19 (by decide)).trans <| (W2_of_ne m ρ c main_arg19 (by decide)).trans <| (after0_of _ main_arg19 (by decide)).trans <| rfl
theorem W34_main_arg20 (c : Dev nD) : W34 m ρ c (Proc.devRef .tc main_arg20) = m ((c : Thread nD τ).loc main_arg20) :=
  (W34_of_ne m ρ c main_arg20 (by decide)).trans <| (after16_of _ main_arg20 (by decide)).trans <| (W32_of_ne m ρ c main_arg20 (by decide)).trans <| (after15_of _ main_arg20 (by decide)).trans <| (W30_of_ne m ρ c main_arg20 (by decide)).trans <| (after14_of _ main_arg20 (by decide)).trans <| (W28_of_ne m ρ c main_arg20 (by decide)).trans <| (after13_of _ main_arg20 (by decide)).trans <| (W26_of_ne m ρ c main_arg20 (by decide)).trans <| (after12_of _ main_arg20 (by decide)).trans <| (W24_of_ne m ρ c main_arg20 (by decide)).trans <| (after11_of _ main_arg20 (by decide)).trans <| (W22_of_ne m ρ c main_arg20 (by decide)).trans <| (after10_of _ main_arg20 (by decide)).trans <| (W20_of_ne m ρ c main_arg20 (by decide)).trans <| (after9_of _ main_arg20 (by decide)).trans <| (W18_of_ne m ρ c main_arg20 (by decide)).trans <| (after8_of _ main_arg20 (by decide)).trans <| (W16_of_ne m ρ c main_arg20 (by decide)).trans <| (after7_of _ main_arg20 (by decide)).trans <| (W14_of_ne m ρ c main_arg20 (by decide)).trans <| (after6_of _ main_arg20 (by decide)).trans <| (W12_of_ne m ρ c main_arg20 (by decide)).trans <| (after5_of _ main_arg20 (by decide)).trans <| (W10_of_ne m ρ c main_arg20 (by decide)).trans <| (after4_of _ main_arg20 (by decide)).trans <| (W8_of_ne m ρ c main_arg20 (by decide)).trans <| (after3_of _ main_arg20 (by decide)).trans <| (W6_of_ne m ρ c main_arg20 (by decide)).trans <| (after2_of _ main_arg20 (by decide)).trans <| (W4_of_ne m ρ c main_arg20 (by decide)).trans <| (after1_of _ main_arg20 (by decide)).trans <| (W2_of_ne m ρ c main_arg20 (by decide)).trans <| (after0_of _ main_arg20 (by decide)).trans <| rfl
theorem W34_main_arg21 (c : Dev nD) : W34 m ρ c (Proc.devRef .tc main_arg21) = m ((c : Thread nD τ).loc main_arg21) :=
  (W34_of_ne m ρ c main_arg21 (by decide)).trans <| (after16_of _ main_arg21 (by decide)).trans <| (W32_of_ne m ρ c main_arg21 (by decide)).trans <| (after15_of _ main_arg21 (by decide)).trans <| (W30_of_ne m ρ c main_arg21 (by decide)).trans <| (after14_of _ main_arg21 (by decide)).trans <| (W28_of_ne m ρ c main_arg21 (by decide)).trans <| (after13_of _ main_arg21 (by decide)).trans <| (W26_of_ne m ρ c main_arg21 (by decide)).trans <| (after12_of _ main_arg21 (by decide)).trans <| (W24_of_ne m ρ c main_arg21 (by decide)).trans <| (after11_of _ main_arg21 (by decide)).trans <| (W22_of_ne m ρ c main_arg21 (by decide)).trans <| (after10_of _ main_arg21 (by decide)).trans <| (W20_of_ne m ρ c main_arg21 (by decide)).trans <| (after9_of _ main_arg21 (by decide)).trans <| (W18_of_ne m ρ c main_arg21 (by decide)).trans <| (after8_of _ main_arg21 (by decide)).trans <| (W16_of_ne m ρ c main_arg21 (by decide)).trans <| (after7_of _ main_arg21 (by decide)).trans <| (W14_of_ne m ρ c main_arg21 (by decide)).trans <| (after6_of _ main_arg21 (by decide)).trans <| (W12_of_ne m ρ c main_arg21 (by decide)).trans <| (after5_of _ main_arg21 (by decide)).trans <| (W10_of_ne m ρ c main_arg21 (by decide)).trans <| (after4_of _ main_arg21 (by decide)).trans <| (W8_of_ne m ρ c main_arg21 (by decide)).trans <| (after3_of _ main_arg21 (by decide)).trans <| (W6_of_ne m ρ c main_arg21 (by decide)).trans <| (after2_of _ main_arg21 (by decide)).trans <| (W4_of_ne m ρ c main_arg21 (by decide)).trans <| (after1_of _ main_arg21 (by decide)).trans <| (W2_of_ne m ρ c main_arg21 (by decide)).trans <| (after0_of _ main_arg21 (by decide)).trans <| rfl
theorem W34_main_arg22 (c : Dev nD) : W34 m ρ c (Proc.devRef .tc main_arg22) = m ((c : Thread nD τ).loc main_arg22) :=
  (W34_of_ne m ρ c main_arg22 (by decide)).trans <| (after16_of _ main_arg22 (by decide)).trans <| (W32_of_ne m ρ c main_arg22 (by decide)).trans <| (after15_of _ main_arg22 (by decide)).trans <| (W30_of_ne m ρ c main_arg22 (by decide)).trans <| (after14_of _ main_arg22 (by decide)).trans <| (W28_of_ne m ρ c main_arg22 (by decide)).trans <| (after13_of _ main_arg22 (by decide)).trans <| (W26_of_ne m ρ c main_arg22 (by decide)).trans <| (after12_of _ main_arg22 (by decide)).trans <| (W24_of_ne m ρ c main_arg22 (by decide)).trans <| (after11_of _ main_arg22 (by decide)).trans <| (W22_of_ne m ρ c main_arg22 (by decide)).trans <| (after10_of _ main_arg22 (by decide)).trans <| (W20_of_ne m ρ c main_arg22 (by decide)).trans <| (after9_of _ main_arg22 (by decide)).trans <| (W18_of_ne m ρ c main_arg22 (by decide)).trans <| (after8_of _ main_arg22 (by decide)).trans <| (W16_of_ne m ρ c main_arg22 (by decide)).trans <| (after7_of _ main_arg22 (by decide)).trans <| (W14_of_ne m ρ c main_arg22 (by decide)).trans <| (after6_of _ main_arg22 (by decide)).trans <| (W12_of_ne m ρ c main_arg22 (by decide)).trans <| (after5_of _ main_arg22 (by decide)).trans <| (W10_of_ne m ρ c main_arg22 (by decide)).trans <| (after4_of _ main_arg22 (by decide)).trans <| (W8_of_ne m ρ c main_arg22 (by decide)).trans <| (after3_of _ main_arg22 (by decide)).trans <| (W6_of_ne m ρ c main_arg22 (by decide)).trans <| (after2_of _ main_arg22 (by decide)).trans <| (W4_of_ne m ρ c main_arg22 (by decide)).trans <| (after1_of _ main_arg22 (by decide)).trans <| (W2_of_ne m ρ c main_arg22 (by decide)).trans <| (after0_of _ main_arg22 (by decide)).trans <| rfl
theorem W34_main_arg23 (c : Dev nD) : W34 m ρ c (Proc.devRef .tc main_arg23) = m ((c : Thread nD τ).loc main_arg23) :=
  (W34_of_ne m ρ c main_arg23 (by decide)).trans <| (after16_of _ main_arg23 (by decide)).trans <| (W32_of_ne m ρ c main_arg23 (by decide)).trans <| (after15_of _ main_arg23 (by decide)).trans <| (W30_of_ne m ρ c main_arg23 (by decide)).trans <| (after14_of _ main_arg23 (by decide)).trans <| (W28_of_ne m ρ c main_arg23 (by decide)).trans <| (after13_of _ main_arg23 (by decide)).trans <| (W26_of_ne m ρ c main_arg23 (by decide)).trans <| (after12_of _ main_arg23 (by decide)).trans <| (W24_of_ne m ρ c main_arg23 (by decide)).trans <| (after11_of _ main_arg23 (by decide)).trans <| (W22_of_ne m ρ c main_arg23 (by decide)).trans <| (after10_of _ main_arg23 (by decide)).trans <| (W20_of_ne m ρ c main_arg23 (by decide)).trans <| (after9_of _ main_arg23 (by decide)).trans <| (W18_of_ne m ρ c main_arg23 (by decide)).trans <| (after8_of _ main_arg23 (by decide)).trans <| (W16_of_ne m ρ c main_arg23 (by decide)).trans <| (after7_of _ main_arg23 (by decide)).trans <| (W14_of_ne m ρ c main_arg23 (by decide)).trans <| (after6_of _ main_arg23 (by decide)).trans <| (W12_of_ne m ρ c main_arg23 (by decide)).trans <| (after5_of _ main_arg23 (by decide)).trans <| (W10_of_ne m ρ c main_arg23 (by decide)).trans <| (after4_of _ main_arg23 (by decide)).trans <| (W8_of_ne m ρ c main_arg23 (by decide)).trans <| (after3_of _ main_arg23 (by decide)).trans <| (W6_of_ne m ρ c main_arg23 (by decide)).trans <| (after2_of _ main_arg23 (by decide)).trans <| (W4_of_ne m ρ c main_arg23 (by decide)).trans <| (after1_of _ main_arg23 (by decide)).trans <| (W2_of_ne m ρ c main_arg23 (by decide)).trans <| (after0_of _ main_arg23 (by decide)).trans <| rfl
theorem W34_main_arg24 (c : Dev nD) : W34 m ρ c (Proc.devRef .tc main_arg24) = m ((c : Thread nD τ).loc main_arg24) :=
  (W34_of_ne m ρ c main_arg24 (by decide)).trans <| (after16_of _ main_arg24 (by decide)).trans <| (W32_of_ne m ρ c main_arg24 (by decide)).trans <| (after15_of _ main_arg24 (by decide)).trans <| (W30_of_ne m ρ c main_arg24 (by decide)).trans <| (after14_of _ main_arg24 (by decide)).trans <| (W28_of_ne m ρ c main_arg24 (by decide)).trans <| (after13_of _ main_arg24 (by decide)).trans <| (W26_of_ne m ρ c main_arg24 (by decide)).trans <| (after12_of _ main_arg24 (by decide)).trans <| (W24_of_ne m ρ c main_arg24 (by decide)).trans <| (after11_of _ main_arg24 (by decide)).trans <| (W22_of_ne m ρ c main_arg24 (by decide)).trans <| (after10_of _ main_arg24 (by decide)).trans <| (W20_of_ne m ρ c main_arg24 (by decide)).trans <| (after9_of _ main_arg24 (by decide)).trans <| (W18_of_ne m ρ c main_arg24 (by decide)).trans <| (after8_of _ main_arg24 (by decide)).trans <| (W16_of_ne m ρ c main_arg24 (by decide)).trans <| (after7_of _ main_arg24 (by decide)).trans <| (W14_of_ne m ρ c main_arg24 (by decide)).trans <| (after6_of _ main_arg24 (by decide)).trans <| (W12_of_ne m ρ c main_arg24 (by decide)).trans <| (after5_of _ main_arg24 (by decide)).trans <| (W10_of_ne m ρ c main_arg24 (by decide)).trans <| (after4_of _ main_arg24 (by decide)).trans <| (W8_of_ne m ρ c main_arg24 (by decide)).trans <| (after3_of _ main_arg24 (by decide)).trans <| (W6_of_ne m ρ c main_arg24 (by decide)).trans <| (after2_of _ main_arg24 (by decide)).trans <| (W4_of_ne m ρ c main_arg24 (by decide)).trans <| (after1_of _ main_arg24 (by decide)).trans <| (W2_of_ne m ρ c main_arg24 (by decide)).trans <| (after0_of _ main_arg24 (by decide)).trans <| rfl
theorem W34_main_arg25 (c : Dev nD) : W34 m ρ c (Proc.devRef .tc main_arg25) = m ((c : Thread nD τ).loc main_arg25) :=
  (W34_of_ne m ρ c main_arg25 (by decide)).trans <| (after16_of _ main_arg25 (by decide)).trans <| (W32_of_ne m ρ c main_arg25 (by decide)).trans <| (after15_of _ main_arg25 (by decide)).trans <| (W30_of_ne m ρ c main_arg25 (by decide)).trans <| (after14_of _ main_arg25 (by decide)).trans <| (W28_of_ne m ρ c main_arg25 (by decide)).trans <| (after13_of _ main_arg25 (by decide)).trans <| (W26_of_ne m ρ c main_arg25 (by decide)).trans <| (after12_of _ main_arg25 (by decide)).trans <| (W24_of_ne m ρ c main_arg25 (by decide)).trans <| (after11_of _ main_arg25 (by decide)).trans <| (W22_of_ne m ρ c main_arg25 (by decide)).trans <| (after10_of _ main_arg25 (by decide)).trans <| (W20_of_ne m ρ c main_arg25 (by decide)).trans <| (after9_of _ main_arg25 (by decide)).trans <| (W18_of_ne m ρ c main_arg25 (by decide)).trans <| (after8_of _ main_arg25 (by decide)).trans <| (W16_of_ne m ρ c main_arg25 (by decide)).trans <| (after7_of _ main_arg25 (by decide)).trans <| (W14_of_ne m ρ c main_arg25 (by decide)).trans <| (after6_of _ main_arg25 (by decide)).trans <| (W12_of_ne m ρ c main_arg25 (by decide)).trans <| (after5_of _ main_arg25 (by decide)).trans <| (W10_of_ne m ρ c main_arg25 (by decide)).trans <| (after4_of _ main_arg25 (by decide)).trans <| (W8_of_ne m ρ c main_arg25 (by decide)).trans <| (after3_of _ main_arg25 (by decide)).trans <| (W6_of_ne m ρ c main_arg25 (by decide)).trans <| (after2_of _ main_arg25 (by decide)).trans <| (W4_of_ne m ρ c main_arg25 (by decide)).trans <| (after1_of _ main_arg25 (by decide)).trans <| (W2_of_ne m ρ c main_arg25 (by decide)).trans <| (after0_of _ main_arg25 (by decide)).trans <| rfl

end Cert.KernelIdeal.Fr

end
-- ==== Proof.KI.Frame.lean ====
import proofs.«173394_j29068338659455_2_alg».proof.Proof.KI.Main
import proofs.«173394_j29068338659455_2_alg».proof.Proof.KI.Kept

/-! The frame: every weakly fair execution terminates without a fault and every argument array ends as launched; and the two result
arrays end at the last boundary's contents. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c _ (mem_uc main_arg0 (by decide))).trans (W34_main_arg0 m ρ c),
      (h c _ (mem_uc main_arg1 (by decide))).trans (W34_main_arg1 m ρ c),
      (h c _ (mem_uc main_arg2 (by decide))).trans (W34_main_arg2 m ρ c),
      (h c _ (mem_uc main_arg3 (by decide))).trans (W34_main_arg3 m ρ c),
      (h c _ (mem_uc main_arg4 (by decide))).trans (W34_main_arg4 m ρ c),
      (h c _ (mem_uc main_arg5 (by decide))).trans (W34_main_arg5 m ρ c),
      (h c _ (mem_uc main_arg6 (by decide))).trans (W34_main_arg6 m ρ c),
      (h c _ (mem_uc main_arg7 (by decide))).trans (W34_main_arg7 m ρ c),
      (h c _ (mem_uc main_arg8 (by decide))).trans (W34_main_arg8 m ρ c),
      (h c _ (mem_uc main_arg9 (by decide))).trans (W34_main_arg9 m ρ c),
      (h c _ (mem_uc main_arg10 (by decide))).trans (W34_main_arg10 m ρ c),
      (h c _ (mem_uc main_arg11 (by decide))).trans (W34_main_arg11 m ρ c),
      (h c _ (mem_uc main_arg12 (by decide))).trans (W34_main_arg12 m ρ c),
      (h c _ (mem_uc main_arg13 (by decide))).trans (W34_main_arg13 m ρ c),
      (h c _ (mem_uc main_arg14 (by decide))).trans (W34_main_arg14 m ρ c),
      (h c _ (mem_uc main_arg15 (by decide))).trans (W34_main_arg15 m ρ c),
      (h c _ (mem_uc main_arg16 (by decide))).trans (W34_main_arg16 m ρ c),
      (h c _ (mem_uc main_arg17 (by decide))).trans (W34_main_arg17 m ρ c),
      (h c _ (mem_uc main_arg18 (by decide))).trans (W34_main_arg18 m ρ c),
      (h c _ (mem_uc main_arg19 (by decide))).trans (W34_main_arg19 m ρ c),
      (h c _ (mem_uc main_arg20 (by decide))).trans (W34_main_arg20 m ρ c),
      (h c _ (mem_uc main_arg21 (by decide))).trans (W34_main_arg21 m ρ c),
      (h c _ (mem_uc main_arg22 (by decide))).trans (W34_main_arg22 m ρ c),
      (h c _ (mem_uc main_arg23 (by decide))).trans (W34_main_arg23 m ρ c),
      (h c _ (mem_uc main_arg24 (by decide))).trans (W34_main_arg24 m ρ c),
      (h c _ (mem_uc main_arg25 (by decide))).trans (W34_main_arg25 m ρ c)⟩) (run_all m ρ)

/-- The run with the two results named: the final voxel features and the attention weights at the last boundary's contents,
    every argument as launched. -/
theorem run_results : θ_run defs (onTc (τ := τ) (main (F := F))) ⟨m, fun _ => 0, ρ⟩ (fun r => ∀ c : Dev nD,
      r.2.mem ((c.tc : Thread nD τ).loc main_v351) = W34 m ρ c (Proc.devRef .tc main_v351)
      ∧ r.2.mem ((c.tc : Thread nD τ).loc main_v278) = W34 m ρ c (Proc.devRef .tc main_v278)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨h c _ (mem_uc main_v351 (by decide)), h c _ (mem_uc main_v278 (by decide)), (h c _ (mem_uc main_arg0 (by decide))).trans (W34_main_arg0 m ρ c),
      (h c _ (mem_uc main_arg1 (by decide))).trans (W34_main_arg1 m ρ c),
      (h c _ (mem_uc main_arg2 (by decide))).trans (W34_main_arg2 m ρ c),
      (h c _ (mem_uc main_arg3 (by decide))).trans (W34_main_arg3 m ρ c),
      (h c _ (mem_uc main_arg4 (by decide))).trans (W34_main_arg4 m ρ c),
      (h c _ (mem_uc main_arg5 (by decide))).trans (W34_main_arg5 m ρ c),
      (h c _ (mem_uc main_arg6 (by decide))).trans (W34_main_arg6 m ρ c),
      (h c _ (mem_uc main_arg7 (by decide))).trans (W34_main_arg7 m ρ c),
      (h c _ (mem_uc main_arg8 (by decide))).trans (W34_main_arg8 m ρ c),
      (h c _ (mem_uc main_arg9 (by decide))).trans (W34_main_arg9 m ρ c),
      (h c _ (mem_uc main_arg10 (by decide))).trans (W34_main_arg10 m ρ c),
      (h c _ (mem_uc main_arg11 (by decide))).trans (W34_main_arg11 m ρ c),
      (h c _ (mem_uc main_arg12 (by decide))).trans (W34_main_arg12 m ρ c),
      (h c _ (mem_uc main_arg13 (by decide))).trans (W34_main_arg13 m ρ c),
      (h c _ (mem_uc main_arg14 (by decide))).trans (W34_main_arg14 m ρ c),
      (h c _ (mem_uc main_arg15 (by decide))).trans (W34_main_arg15 m ρ c),
      (h c _ (mem_uc main_arg16 (by decide))).trans (W34_main_arg16 m ρ c),
      (h c _ (mem_uc main_arg17 (by decide))).trans (W34_main_arg17 m ρ c),
      (h c _ (mem_uc main_arg18 (by decide))).trans (W34_main_arg18 m ρ c),
      (h c _ (mem_uc main_arg19 (by decide))).trans (W34_main_arg19 m ρ c),
      (h c _ (mem_uc main_arg20 (by decide))).trans (W34_main_arg20 m ρ c),
      (h c _ (mem_uc main_arg21 (by decide))).trans (W34_main_arg21 m ρ c),
      (h c _ (mem_uc main_arg22 (by decide))).trans (W34_main_arg22 m ρ c),
      (h c _ (mem_uc main_arg23 (by decide))).trans (W34_main_arg23 m ρ c),
      (h c _ (mem_uc main_arg24 (by decide))).trans (W34_main_arg24 m ρ c),
      (h c _ (mem_uc main_arg25 (by decide))).trans (W34_main_arg25 m ρ c)⟩) (run_all m ρ)

end Cert.KernelIdeal.Fr

end
-- ==== Proof.Ref.Base.lean ====
/- List facts used to assemble a long straight line from shorter ones: a predicate holds on a concatenation when it holds on
   both parts, and the fold of the operations' results over a concatenation is the fold over the second after the first. -/
import Idealize.ShloMosaic.Lib.StableHlo.Run

noncomputable section

namespace Cert.ReferenceIdeal.RefRun

open Idealize.ShloMosaic Idealize.ShloMosaic.TcCoe Idealize.SL.Sem Idealize.ShloMosaic.StableHlo

theorem forall_append' {α : Type*} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem mem_append' {α : Type*} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

variable {τ : Topo} {sig : RefSig} {Val : EltTy → Type}

/-- The contents after two lines run one after the other: the second's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.ReferenceIdeal.RefRun

end
-- ==== Proof.Ref.W0.lean ====
/- The reference program's @main, statements of window 0, as literal lists of its host operations (the called
   functions' operations written out at the call site over the call's own buffers), cut where a later stage
   of the computation starts; each list's written buffers, and that the window's program text is the lists run in order. -/
import proofs.«173394_j29068338659455_2_alg».proof.Proof.Gen.ReferenceIdeal
import Idealize.ShloMosaic.Lib.StableHlo.Run
import proofs.«173394_j29068338659455_2_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 … 11 of @main (calls written out), ending at `main_v5`. -/
abbrev ch00 : List (HloOp τ sig (Elt F)) :=
  [ StableHlo.binary main_arg0 main_arg1 main_v0 ((fun a b => concatenate S5000x64 1 [⟨S5000x32, a⟩, ⟨S5000x32, b⟩] concatenates_S5000x32_S5000x32_S5000x64_d1) : (⟨S5000x32, .f32⟩ : BufTy).Contents (Elt F) → (⟨S5000x32, .f32⟩ : BufTy).Contents (Elt F) → (⟨S5000x64, .f32⟩ : BufTy).Contents (Elt F)),
    StableHlo.binary main_v0 main_arg10 main_v1 ((fun l r => Host.dotGeneral dot_S5000x64_S64x128_S5000x128_1_0_0_1_n_n none l r) : (⟨S5000x64, .f32⟩ : BufTy).Contents (Elt F) → (⟨S64x128, .f32⟩ : BufTy).Contents (Elt F) → (⟨S5000x128, .f32⟩ : BufTy).Contents (Elt F)),
    StableHlo.unary main_arg11 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S5000x128 ![0, 1] bcast_S1x128_S5000x128_0_1 : (⟨S1x128, .f32⟩ : BufTy).Contents (Elt F) → (⟨S5000x128, .f32⟩ : BufTy).Contents (Elt F)),
    StableHlo.binary main_v1 main_v3 main_v4 (addf : (⟨S5000x128, .f32⟩ : BufTy).Contents (Elt F) → (⟨S5000x128, .f32⟩ : BufTy).Contents (Elt F) → (⟨S5000x128, .f32⟩ : BufTy).Contents (Elt F)),
    StableHlo.TRef.nullary main_call0.cst (constant S_ .f32 0x00000000#32),
    StableHlo.TRef.unary main_call0.cst main_call0.v0 (broadcastInDim S5000x128 ![] bcast_S_S5000x128),
    StableHlo.TRef.binary (.of main_v4) main_call0.v0 main_call0.v1 (cmpf .oge),
    StableHlo.TRef.nullary main_call0.cst_0 (constant S_ .f32 0x3C23D70A#32),
    StableHlo.TRef.unary main_call0.cst_0 main_call0.v2 (broadcastInDim S5000x128 ![] bcast_S_S5000x128),
    StableHlo.TRef.binary main_call0.v2 (.of main_v4) main_call0.v3 mulf,
    StableHlo.TRef.ternary main_call0.v1 (.of main_v4) main_call0.v3 main_call0.call0.v0 select ]

/-- The buffers `ch00` writes, in order. -/
abbrev ch00_W : List (Ref sig .tc) := [main_v0, main_v1, main_v2, main_v3, main_v4, main_call0_cst, main_call0_v0, main_call0_v1, main_call0_cst_0, main_call0_v2, main_call0_v3, main_v5]

theorem ch00_writes : (ch00 : List (HloOp τ sig (Elt F))).Forall fun op => op.writes ⊆ (ch00_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch00_sub : (ch00 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem ch00_fresh : ∀ op ∈ (ch00 : List (HloOp τ sig (Elt F))), op.fresh = ∅ := by
  intro _ h; (repeat (cases h with | head => rfl | tail _ h => ?_)); exact nomatch h

/-- Operations 12 … 15 of @main (calls written out), ending at `main_v9`. -/
abbrev ch01 : List (HloOp τ sig (Elt F)) :=
  [ StableHlo.unary main_arg5 main_v6 ((extractStridedSlice S1x80000 ![0, 0] · slices_S2x80000_S1x80000_0_0) : (⟨S2x80000, .i32⟩ : BufTy).Contents (Elt F) → (⟨S1x80000, .i32⟩ : BufTy).Contents (Elt F)),
    StableHlo.reshape main_v6 main_v7 rfl shapeCasts_S1x80000_S80000,
    StableHlo.unary main_arg5 main_v8 ((extractStridedSlice S1x80000 ![1, 0] · slices_S2x80000_S1x80000_1_0) : (⟨S2x80000, .i32⟩ : BufTy).Contents (Elt F) → (⟨S1x80000, .i32⟩ : BufTy).Contents (Elt F)),
    StableHlo.reshape main_v8 main_v9 rfl shapeCasts_S1x80000_S80000 ]

/-- The buffers `ch01` writes, in order. -/
abbrev ch01_W : List (Ref sig .tc) := [main_v6, main_v7, main_v8, main_v9]

theorem ch01_writes : (ch01 : List (HloOp τ sig (Elt F))).Forall fun op => op.writes ⊆ (ch01_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch01_sub : (ch01 : List (HloOp τ sig (Elt F))).Forall fun op => op.bufs ⊆ tcRefs τ sig :=
  ⟨unary_bufs_sub .., reshape_bufs_sub .., unary_bufs_sub .., reshape_bufs_sub ..⟩

theorem ch01_fresh : ∀ op ∈ (ch01 : List (HloOp τ sig (Elt F))), op.fresh = ∅ := by
  intro _ h; (repeat (cases h with | head => rfl | tail _ h => ?_)); exact nomatch h

/-- Operations 16 … 18 of @main (calls written out), ending at `main_v11`. -/
abbrev ch02 : List (HloOp τ sig (Elt F)) :=
  [ StableHlo.nullary main_cst (constant S_ .f32 0x00000000#32),
    StableHlo.binary main_arg2 main_cst main_v10 ((fun x v => Host.reduceAdd x v reducesTo_S5000x1_S5000_d1 h_S_) : (⟨S5000x1, .f32⟩ : BufTy).Contents (Elt F) → (⟨S_, .f32⟩ : BufTy).Contents (Elt F) → (⟨S5000, .f32⟩ : BufTy).Contents (Elt F)),
    StableHlo.unary main_v10 main_v11 (broadcastInDim S5000x1 ![0] bcast_S5000_S5000x1_0 : (⟨S5000, .f32⟩ : BufTy).Contents (Elt F) → (⟨S5000x1, .f32⟩ : BufTy).Contents (Elt F)) ]

/-- The buffers `ch02` writes, in order. -/
abbrev ch02_W : List (Ref sig .tc) := [main_cst, main_v10, main_v11]

theorem ch02_writes : (ch02 : List (HloOp τ sig (Elt F))).Forall fun op => op.writes ⊆ (ch02_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch02_sub : (ch02 : List (HloOp τ sig (Elt F))).Forall fun op => op.bufs ⊆ tcRefs τ sig :=
  ⟨nullary_bufs_sub .., binary_bufs_sub .., unary_bufs_sub ..⟩

theorem ch02_fresh : ∀ op ∈ (ch02 : List (HloOp τ sig (Elt F))), op.fresh = ∅ := by
  intro _ h; (repeat (cases h with | head => rfl | tail _ h => ?_)); exact nomatch h

/-- Operations 19 … 52 of @main (calls written out), ending at `main_v35`. -/
abbrev ch03 : List (HloOp τ sig (Elt F)) :=
  [ StableHlo.nullary main_c (constantI S_ 32 0#32),
    StableHlo.unary main_c main_v12 (broadcastInDim S80000 ![] bcast_S_S80000 : (⟨S_, .i32⟩ : BufTy).Contents (Elt F) → (⟨S80000, .i32⟩ : BufTy).Contents (Elt F)),
    StableHlo.binary main_v9 main_v12 main_v13 (cmpi .slt : (⟨S80000, .i32⟩ : BufTy).Contents (Elt F) → (⟨S80000, .i32⟩ : BufTy).Contents (Elt F) → (⟨S80000, .i1⟩ : BufTy).Contents (Elt F)),
    StableHlo.nullary main_c_0 (constantI S_ 32 5000#32),
    StableHlo.unary main_c_0 main_v14 (broadcastInDim S80000 ![] bcast_S_S80000 : (⟨S_, .i32⟩ : BufTy).Contents (Elt F) → (⟨S80000, .i32⟩ : BufTy).Contents (Elt F)),
    StableHlo.binary main_v9 main_v14 main_v15 (addi : (⟨S80000, .i32⟩ : BufTy).Contents (Elt F) → (⟨S80000, .i32⟩ : BufTy).Contents (Elt F) → (⟨S80000, .i32⟩ : BufTy).Contents (Elt F)),
    StableHlo.ternary main_v13 main_v15 main_v9 main_v16 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),
    StableHlo.unary main_v16 main_v17 (broadcastInDim S80000x1 ![0] bcast_S80000_S80000x1_0 : (⟨S80000, .i32⟩ : BufTy).Contents (Elt F) → (⟨S80000x1, .i32⟩ : BufTy).Contents (Elt F)),
    StableHlo.binary main_v5 main_v17 main_v18 ((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)),
    StableHlo.nullary main_c_1 (constantI S_ 32 0#32),
    StableHlo.unary main_c_1 main_v19 (broadcastInDim S80000 ![] bcast_S_S80000 : (⟨S_, .i32⟩ : BufTy).Contents (Elt F) → (⟨S80000, .i32⟩ : BufTy).Contents (Elt F)),
    StableHlo.binary main_v7 main_v19 main_v20 (cmpi .slt : (⟨S80000, .i32⟩ : BufTy).Contents (Elt F) → (⟨S80000, .i32⟩ : BufTy).Contents (Elt F) → (⟨S80000, .i1⟩ : BufTy).Contents (Elt F)),
    StableHlo.nullary main_c_2 (constantI S_ 32 5000#32),
    StableHlo.unary main_c_2 main_v21 (broadcastInDim S80000 ![] bcast_S_S80000 : (⟨S_, .i32⟩ : BufTy).Contents (Elt F) → (⟨S80000, .i32⟩ : BufTy).Contents (Elt F)),
    StableHlo.binary main_v7 main_v21 main_v22 (addi : (⟨S80000, .i32⟩ : BufTy).Contents (Elt F) → (⟨S80000, .i32⟩ : BufTy).Contents (Elt F) → (⟨S80000, .i32⟩ : BufTy).Contents (Elt F)),
    StableHlo.ternary main_v20 main_v22 main_v7 main_v23 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),
    StableHlo.unary main_v23 main_v24 (broadcastInDim S80000x1 ![0] bcast_S80000_S80000x1_0 : (⟨S80000, .i32⟩ : BufTy).Contents (Elt F) → (⟨S80000x1, .i32⟩ : BufTy).Contents (Elt F)),
    StableHlo.binary main_v5 main_v24 main_v25 ((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)),
    StableHlo.binary main_v18 main_v25 main_v26 ((fun a b => concatenate S80000x256 1 [⟨S80000x128, a⟩, ⟨S80000x128, b⟩] concatenates_S80000x128_S80000x128_S80000x256_d1) : (⟨S80000x128, .f32⟩ : BufTy).Contents (Elt F) → (⟨S80000x128, .f32⟩ : BufTy).Contents (Elt F) → (⟨S80000x256, .f32⟩ : BufTy).Contents (Elt F)),
    StableHlo.unary main_arg12 main_v27 ((extractStridedSlice S1x256x128 ![0, 0, 0] · slices_S3x256x128_S1x256x128_0_0_0) : (⟨S3x256x128, .f32⟩ : BufTy).Contents (Elt F) → (⟨S1x256x128, .f32⟩ : BufTy).Contents (Elt F)),
    StableHlo.reshape main_v27 main_v28 rfl shapeCasts_S1x256x128_S256x128,
    StableHlo.binary main_v26 main_v28 main_v29 ((fun l r => Host.dotGeneral dot_S80000x256_S256x128_S80000x128_1_0_0_1_n_n none l r) : (⟨S80000x256, .f32⟩ : BufTy).Contents (Elt F) → (⟨S256x128, .f32⟩ : BufTy).Contents (Elt F) → (⟨S80000x128, .f32⟩ : BufTy).Contents (Elt F)),
    StableHlo.unary main_arg13 main_v30 ((extractStridedSlice S1x128 ![0, 0] · slices_S3x128_S1x128_0_0) : (⟨S3x128, .f32⟩ : BufTy).Contents (Elt F) → (⟨S1x128, .f32⟩ : BufTy).Contents (Elt F)),
    StableHlo.reshape main_v30 main_v31 rfl shapeCasts_S1x128_S128,
    StableHlo.unary main_v31 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S80000x128 ![0, 1] bcast_S1x128_S80000x128_0_1 : (⟨S1x128, .f32⟩ : BufTy).Contents (Elt F) → (⟨S80000x128, .f32⟩ : BufTy).Contents (Elt F)),
    StableHlo.binary main_v29 main_v33 main_v34 (addf : (⟨S80000x128, .f32⟩ : BufTy).Contents (Elt F) → (⟨S80000x128, .f32⟩ : BufTy).Contents (Elt F) → (⟨S80000x128, .f32⟩ : BufTy).Contents (Elt F)),
    StableHlo.TRef.nullary main_call1.cst (constant S_ .f32 0x00000000#32),
    StableHlo.TRef.unary main_call1.cst main_call1.v0 (broadcastInDim S80000x128 ![] bcast_S_S80000x128),
    StableHlo.TRef.binary (.of main_v34) main_call1.v0 main_call1.v1 (cmpf .oge),
    StableHlo.TRef.nullary main_call1.cst_0 (constant S_ .f32 0x3C23D70A#32),
    StableHlo.TRef.unary main_call1.cst_0 main_call1.v2 (broadcastInDim S80000x128 ![] bcast_S_S80000x128),
    StableHlo.TRef.binary main_call1.v2 (.of main_v34) main_call1.v3 mulf,
    StableHlo.TRef.ternary main_call1.v1 (.of main_v34) main_call1.v3 main_call1.call0.v0 select ]

/-- The buffers `ch03` writes, in order. -/
abbrev ch03_W : List (Ref sig .tc) := [main_c, main_v12, main_v13, main_c_0, main_v14, main_v15, main_v16, main_v17, main_v18, main_c_1, main_v19, main_v20, main_c_2, main_v21, main_v22, main_v23, main_v24, main_v25, main_v26, main_v27, main_v28, main_v29, main_v30, main_v31, main_v32, main_v33, main_v34, main_call1_cst, main_call1_v0, main_call1_v1, main_call1_cst_0, main_call1_v2, main_call1_v3, main_v35]

theorem ch03_writes : (ch03 : List (HloOp τ sig (Elt F))).Forall fun op => op.writes ⊆ (ch03_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch03_sub : (ch03 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem ch03_fresh : ∀ op ∈ (ch03 : List (HloOp τ sig (Elt F))), op.fresh = ∅ := by
  intro _ h; (repeat (cases h with | head => rfl | tail _ h => ?_)); exact nomatch h

/-- Operations 53 … 68 of @main (calls written out), ending at `main_v47`. -/
abbrev ch04 : List (HloOp τ sig (Elt F)) :=
  [ StableHlo.nullary main_cst_3 (constant S_ .f32 0x00000000#32),
    StableHlo.unary main_cst_3 main_v36 (broadcastInDim S5000x128 ![] bcast_S_S5000x128 : (⟨S_, .f32⟩ : BufTy).Contents (Elt F) → (⟨S5000x128, .f32⟩ : BufTy).Contents (Elt F)),
    StableHlo.unary main_v9 main_v37 (broadcastInDim S80000x1 ![0] bcast_S80000_S80000x1_0 : (⟨S80000, .i32⟩ : BufTy).Contents (Elt F) → (⟨S80000x1, .i32⟩ : BufTy).Contents (Elt F)),
    StableHlo.ternary main_v36 main_v37 main_v35 main_v38 ((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)),
    StableHlo.unary main_v35 main_v39 ((extractStridedSlice S80000x1 ![0, 0] · slices_S80000x128_S80000x1_0_0) : (⟨S80000x128, .f32⟩ : BufTy).Contents (Elt F) → (⟨S80000x1, .f32⟩ : BufTy).Contents (Elt F)),
    StableHlo.nullary main_cst_4 (constant S_ .f32 0x3F800000#32),
    StableHlo.unary main_cst_4 main_v40 (broadcastInDim S80000x1 ![] bcast_S_S80000x1 : (⟨S_, .f32⟩ : BufTy).Contents (Elt F) → (⟨S80000x1, .f32⟩ : BufTy).Contents (Elt F)),
    StableHlo.nullary main_cst_5 (constant S_ .f32 0x00000000#32),
    StableHlo.unary main_cst_5 main_v41 (broadcastInDim S5000x1 ![] bcast_S_S5000x1 : (⟨S_, .f32⟩ : BufTy).Contents (Elt F) → (⟨S5000x1, .f32⟩ : BufTy).Contents (Elt F)),
    StableHlo.unary main_v9 main_v42 (broadcastInDim S80000x1 ![0] bcast_S80000_S80000x1_0 : (⟨S80000, .i32⟩ : BufTy).Contents (Elt F) → (⟨S80000x1, .i32⟩ : BufTy).Contents (Elt F)),
    StableHlo.ternary main_v41 main_v42 main_v40 main_v43 ((fun x i u => Host.scatterAdd scatter_S5000x1_S80000x1_S80000x1_1_0_0_1 x i u) : (⟨S5000x1, .f32⟩ : BufTy).Contents (Elt F) → (⟨S80000x1, .i32⟩ : BufTy).Contents (Elt F) → (⟨S80000x1, .f32⟩ : BufTy).Contents (Elt F) → (⟨S5000x1, .f32⟩ : BufTy).Contents (Elt F)),
    StableHlo.nullary main_cst_6 (constant S_ .f32 0x3F800000#32),
    StableHlo.unary main_cst_6 main_v44 (broadcastInDim S5000x1 ![] bcast_S_S5000x1 : (⟨S_, .f32⟩ : BufTy).Contents (Elt F) → (⟨S5000x1, .f32⟩ : BufTy).Contents (Elt F)),
    StableHlo.binary main_v43 main_v44 main_v45 (maximumf : (⟨S5000x1, .f32⟩ : BufTy).Contents (Elt F) → (⟨S5000x1, .f32⟩ : BufTy).Contents (Elt F) → (⟨S5000x1, .f32⟩ : BufTy).Contents (Elt F)),
    StableHlo.unary main_v45 main_v46 (broadcastInDim S5000x128 ![0, 1] bcast_S5000x1_S5000x128_0_1 : (⟨S5000x1, .f32⟩ : BufTy).Contents (Elt F) → (⟨S5000x128, .f32⟩ : BufTy).Contents (Elt F)),
    StableHlo.binary main_v38 main_v46 main_v47 (Host.divf : (⟨S5000x128, .f32⟩ : BufTy).Contents (Elt F) → (⟨S5000x128, .f32⟩ : BufTy).Contents (Elt F) → (⟨S5000x128, .f32⟩ : BufTy).Contents (Elt F)) ]

/-- The buffers `ch04` writes, in order. -/
abbrev ch04_W : List (Ref sig .tc) := [main_cst_3, main_v36, main_v37, main_v38, main_v39, main_cst_4, main_v40, main_cst_5, main_v41, main_v42, main_v43, main_cst_6, main_v44, main_v45, main_v46, main_v47]

theorem ch04_writes : (ch04 : List (HloOp τ sig (Elt F))).Forall fun op => op.writes ⊆ (ch04_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch04_sub : (ch04 : List (HloOp τ sig (Elt F))).Forall fun op => op.bufs ⊆ tcRefs τ sig :=
  ⟨nullary_bufs_sub .., unary_bufs_sub .., unary_bufs_sub .., ternary_bufs_sub .., unary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩

theorem ch04_fresh : ∀ op ∈ (ch04 : List (HloOp τ sig (Elt F))), op.fresh = ∅ := by
  intro _ h; (repeat (cases h with | head => rfl | tail _ h => ?_)); exact nomatch h

/-- Operations 69 … 71 of @main (calls written out), ending at `main_v49`. -/
abbrev ch05 : List (HloOp τ sig (Elt F)) :=
  [ StableHlo.nullary main_cst_7 (constant S_ .f32 0x00000000#32),
    StableHlo.unary main_cst_7 main_v48 (broadcastInDim S10x128 ![] bcast_S_S10x128 : (⟨S_, .f32⟩ : BufTy).Contents (Elt F) → (⟨S10x128, .f32⟩ : BufTy).Contents (Elt F)),
    StableHlo.unary main_arg6 main_v49 (broadcastInDim S5000x1 ![0] bcast_S5000_S5000x1_0 : (⟨S5000, .i32⟩ : BufTy).Contents (Elt F) → (⟨S5000x1, .i32⟩ : BufTy).Contents (Elt F)) ]

/-- The buffers `ch05` writes, in order. -/
abbrev ch05_W : List (Ref sig .tc) := [main_cst_7, main_v48, main_v49]

theorem ch05_writes : (ch05 : List (HloOp τ sig (Elt F))).Forall fun op => op.writes ⊆ (ch05_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch05_sub : (ch05 : List (HloOp τ sig (Elt F))).Forall fun op => op.bufs ⊆ tcRefs τ sig :=
  ⟨nullary_bufs_sub .., unary_bufs_sub .., unary_bufs_sub ..⟩

theorem ch05_fresh : ∀ op ∈ (ch05 : List (HloOp τ sig (Elt F))), op.fresh = ∅ := by
  intro _ h; (repeat (cases h with | head => rfl | tail _ h => ?_)); exact nomatch h

/-- Window 0's operations: its lists in order. -/
abbrev opsW0 : List (HloOp τ sig (Elt F)) := ch00 ++ (ch01 ++ (ch02 ++ (ch03 ++ (ch04 ++ (ch05)))))

set_option maxRecDepth 4096 in
set_option maxHeartbeats 4000000 in
/-- Window 0 of @main is that straight line: the called functions unfolded at their calls and sequencing reassociated. -/
theorem part0_eq (c : Dev nD) : main_part0 (F := F) c = seq opsW0 := by
  simp only [main_part0, fn_leaky_relu.body, fn_where.body, fn_leaky_relu_0.body, fn_where_1.body, ch00, ch01, ch02, ch03, ch04, ch05, List.cons_append, List.nil_append, seq, bind_assoc, pure_bind]
  all_goals rfl

theorem opsW0_sub : (opsW0 : List (HloOp τ sig (Elt F))).Forall fun op => op.bufs ⊆ tcRefs τ sig :=
  forall_append' ch00_sub (forall_append' ch01_sub (forall_append' ch02_sub (forall_append' ch03_sub (forall_append' ch04_sub (ch05_sub)))))

theorem opsW0_fresh : ∀ op ∈ (opsW0 : List (HloOp τ sig (Elt F))), op.fresh = ∅ :=
  mem_append' ch00_fresh (mem_append' ch01_fresh (mem_append' ch02_fresh (mem_append' ch03_fresh (mem_append' ch04_fresh (ch05_fresh)))))

end Cert.ReferenceIdeal.RefRun

end
-- ==== Proof.Ref.W1.lean ====
/- The reference program's @main, statements of window 1, as literal lists of its host operations (the called
   functions' operations written out at the call site over the call's own buffers), cut where a later stage
   of the computation starts; each list's written buffers, and that the window's program text is the lists run in order. -/
import proofs.«173394_j29068338659455_2_alg».proof.Proof.Gen.ReferenceIdeal
import Idealize.ShloMosaic.Lib.StableHlo.Run
import proofs.«173394_j29068338659455_2_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 72 … 95 of @main (calls written out), ending at `main_v68`. -/
abbrev ch06 : List (HloOp τ sig (Elt F)) :=
  [ StableHlo.ternary main_v48 main_v49 main_v5 main_v50 ((fun x i u => Host.scatterAdd scatter_S10x128_S5000x1_S5000x128_1_0_0_1 x i u) : (⟨S10x128, .f32⟩ : BufTy).Contents (Elt F) → (⟨S5000x1, .i32⟩ : BufTy).Contents (Elt F) → (⟨S5000x128, .f32⟩ : BufTy).Contents (Elt F) → (⟨S10x128, .f32⟩ : BufTy).Contents (Elt F)),
    StableHlo.unary main_v5 main_v51 ((extractStridedSlice S5000x1 ![0, 0] · slices_S5000x128_S5000x1_0_0) : (⟨S5000x128, .f32⟩ : BufTy).Contents (Elt F) → (⟨S5000x1, .f32⟩ : BufTy).Contents (Elt F)),
    StableHlo.nullary main_cst_8 (constant S_ .f32 0x3F800000#32),
    StableHlo.unary main_cst_8 main_v52 (broadcastInDim S5000x1 ![] bcast_S_S5000x1 : (⟨S_, .f32⟩ : BufTy).Contents (Elt F) → (⟨S5000x1, .f32⟩ : BufTy).Contents (Elt F)),
    StableHlo.nullary main_cst_9 (constant S_ .f32 0x00000000#32),
    StableHlo.unary main_cst_9 main_v53 (broadcastInDim S10x1 ![] bcast_S_S10x1 : (⟨S_, .f32⟩ : BufTy).Contents (Elt F) → (⟨S10x1, .f32⟩ : BufTy).Contents (Elt F)),
    StableHlo.unary main_arg6 main_v54 (broadcastInDim S5000x1 ![0] bcast_S5000_S5000x1_0 : (⟨S5000, .i32⟩ : BufTy).Contents (Elt F) → (⟨S5000x1, .i32⟩ : BufTy).Contents (Elt F)),
    StableHlo.ternary main_v53 main_v54 main_v52 main_v55 ((fun x i u => Host.scatterAdd scatter_S10x1_S5000x1_S5000x1_1_0_0_1 x i u) : (⟨S10x1, .f32⟩ : BufTy).Contents (Elt F) → (⟨S5000x1, .i32⟩ : BufTy).Contents (Elt F) → (⟨S5000x1, .f32⟩ : BufTy).Contents (Elt F) → (⟨S10x1, .f32⟩ : BufTy).Contents (Elt F)),
    StableHlo.nullary main_cst_10 (constant S_ .f32 0x3F800000#32),
    StableHlo.unary main_cst_10 main_v56 (broadcastInDim S10x1 ![] bcast_S_S10x1 : (⟨S_, .f32⟩ : BufTy).Contents (Elt F) → (⟨S10x1, .f32⟩ : BufTy).Contents (Elt F)),
    StableHlo.binary main_v55 main_v56 main_v57 (maximumf : (⟨S10x1, .f32⟩ : BufTy).Contents (Elt F) → (⟨S10x1, .f32⟩ : BufTy).Contents (Elt F) → (⟨S10x1, .f32⟩ : BufTy).Contents (Elt F)),
    StableHlo.unary main_v57 main_v58 (broadcastInDim S10x128 ![0, 1] bcast_S10x1_S10x128_0_1 : (⟨S10x1, .f32⟩ : BufTy).Contents (Elt F) → (⟨S10x128, .f32⟩ : BufTy).Contents (Elt F)),
    StableHlo.binary main_v50 main_v58 main_v59 (Host.divf : (⟨S10x128, .f32⟩ : BufTy).Contents (Elt F) → (⟨S10x128, .f32⟩ : BufTy).Contents (Elt F) → (⟨S10x128, .f32⟩ : BufTy).Contents (Elt F)),
    StableHlo.nullary main_c_11 (constantI S_ 32 0#32),
    StableHlo.unary main_c_11 main_v60 (broadcastInDim S5000 ![] bcast_S_S5000 : (⟨S_, .i32⟩ : BufTy).Contents (Elt F) → (⟨S5000, .i32⟩ : BufTy).Contents (Elt F)),
    StableHlo.binary main_arg6 main_v60 main_v61 (cmpi .slt : (⟨S5000, .i32⟩ : BufTy).Contents (Elt F) → (⟨S5000, .i32⟩ : BufTy).Contents (Elt F) → (⟨S5000, .i1⟩ : BufTy).Contents (Elt F)),
    StableHlo.nullary main_c_12 (constantI S_ 32 10#32),
    StableHlo.unary main_c_12 main_v62 (broadcastInDim S5000 ![] bcast_S_S5000 : (⟨S_, .i32⟩ : BufTy).Contents (Elt F) → (⟨S5000, .i32⟩ : BufTy).Contents (Elt F)),
    StableHlo.binary main_arg6 main_v62 main_v63 (addi : (⟨S5000, .i32⟩ : BufTy).Contents (Elt F) → (⟨S5000, .i32⟩ : BufTy).Contents (Elt F) → (⟨S5000, .i32⟩ : BufTy).Contents (Elt F)),
    StableHlo.ternary main_v61 main_v63 main_arg6 main_v64 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v64 main_v65 (broadcastInDim S5000x1 ![0] bcast_S5000_S5000x1_0 : (⟨S5000, .i32⟩ : BufTy).Contents (Elt F) → (⟨S5000x1, .i32⟩ : BufTy).Contents (Elt F)),
    StableHlo.binary main_v59 main_v65 main_v66 ((fun x i => Host.gather gather_S10x128_S5000x1_S5000x128_1_0_n_n_0_1_1128 x i) : (⟨S10x128, .f32⟩ : BufTy).Contents (Elt F) → (⟨S5000x1, .i32⟩ : BufTy).Contents (Elt F) → (⟨S5000x128, .f32⟩ : BufTy).Contents (Elt F)),
    StableHlo.unary main_v11 main_v67 (broadcastInDim S5000x128 ![0, 1] bcast_S5000x1_S5000x128_0_1 : (⟨S5000x1, .f32⟩ : BufTy).Contents (Elt F) → (⟨S5000x128, .f32⟩ : BufTy).Contents (Elt F)),
    StableHlo.binary main_v66 main_v67 main_v68 (mulf : (⟨S5000x128, .f32⟩ : BufTy).Contents (Elt F) → (⟨S5000x128, .f32⟩ : BufTy).Contents (Elt F) → (⟨S5000x128, .f32⟩ : BufTy).Contents (Elt F)) ]

/-- The buffers `ch06` writes, in order. -/
abbrev ch06_W : List (Ref sig .tc) := [main_v50, main_v51, main_cst_8, main_v52, main_cst_9, main_v53, main_v54, main_v55, main_cst_10, main_v56, main_v57, main_v58, main_v59, main_c_11, main_v60, main_v61, main_c_12, main_v62, main_v63, main_v64, main_v65, main_v66, main_v67, main_v68]

theorem ch06_writes : (ch06 : List (HloOp τ sig (Elt F))).Forall fun op => op.writes ⊆ (ch06_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch06_sub : (ch06 : List (HloOp τ sig (Elt F))).Forall fun op => op.bufs ⊆ tcRefs τ sig :=
  ⟨ternary_bufs_sub .., unary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩

theorem ch06_fresh : ∀ op ∈ (ch06 : List (HloOp τ sig (Elt F))), op.fresh = ∅ := by
  intro _ h; (repeat (cases h with | head => rfl | tail _ h => ?_)); exact nomatch h

/-- Operations 96 … 112 of @main (calls written out), ending at `main_v79`. -/
abbrev ch07 : List (HloOp τ sig (Elt F)) :=
  [ StableHlo.nary ![main_v5, main_v47, main_v68] main_v69 (fun u => concatenate S5000x384 1 [⟨S5000x128, u 0⟩, ⟨S5000x128, u 1⟩, ⟨S5000x128, u 2⟩] concatenates_S5000x128_S5000x128_S5000x128_S5000x384_d1),
    StableHlo.unary main_arg14 main_v70 ((extractStridedSlice S1x384x128 ![0, 0, 0] · slices_S3x384x128_S1x384x128_0_0_0) : (⟨S3x384x128, .f32⟩ : BufTy).Contents (Elt F) → (⟨S1x384x128, .f32⟩ : BufTy).Contents (Elt F)),
    StableHlo.reshape main_v70 main_v71 rfl shapeCasts_S1x384x128_S384x128,
    StableHlo.binary main_v69 main_v71 main_v72 ((fun l r => Host.dotGeneral dot_S5000x384_S384x128_S5000x128_1_0_0_1_n_n none l r) : (⟨S5000x384, .f32⟩ : BufTy).Contents (Elt F) → (⟨S384x128, .f32⟩ : BufTy).Contents (Elt F) → (⟨S5000x128, .f32⟩ : BufTy).Contents (Elt F)),
    StableHlo.unary main_arg15 main_v73 ((extractStridedSlice S1x128 ![0, 0] · slices_S3x128_S1x128_0_0) : (⟨S3x128, .f32⟩ : BufTy).Contents (Elt F) → (⟨S1x128, .f32⟩ : BufTy).Contents (Elt F)),
    StableHlo.reshape main_v73 main_v74 rfl shapeCasts_S1x128_S128,
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S5000x128 ![0, 1] bcast_S1x128_S5000x128_0_1 : (⟨S1x128, .f32⟩ : BufTy).Contents (Elt F) → (⟨S5000x128, .f32⟩ : BufTy).Contents (Elt F)),
    StableHlo.binary main_v72 main_v76 main_v77 (addf : (⟨S5000x128, .f32⟩ : BufTy).Contents (Elt F) → (⟨S5000x128, .f32⟩ : BufTy).Contents (Elt F) → (⟨S5000x128, .f32⟩ : BufTy).Contents (Elt F)),
    StableHlo.TRef.nullary main_call2.cst (constant S_ .f32 0x00000000#32),
    StableHlo.TRef.unary main_call2.cst main_call2.v0 (broadcastInDim S5000x128 ![] bcast_S_S5000x128),
    StableHlo.TRef.binary (.of main_v77) main_call2.v0 main_call2.v1 (cmpf .oge),
    StableHlo.TRef.nullary main_call2.cst_0 (constant S_ .f32 0x3C23D70A#32),
    StableHlo.TRef.unary main_call2.cst_0 main_call2.v2 (broadcastInDim S5000x128 ![] bcast_S_S5000x128),
    StableHlo.TRef.binary main_call2.v2 (.of main_v77) main_call2.v3 mulf,
    StableHlo.TRef.ternary main_call2.v1 (.of main_v77) main_call2.v3 main_call2.call0.v0 select,
    StableHlo.binary main_v5 main_v78 main_v79 (addf : (⟨S5000x128, .f32⟩ : BufTy).Contents (Elt F) → (⟨S5000x128, .f32⟩ : BufTy).Contents (Elt F) → (⟨S5000x128, .f32⟩ : BufTy).Contents (Elt F)) ]

/-- The buffers `ch07` writes, in order. -/
abbrev ch07_W : List (Ref sig .tc) := [main_v69, main_v70, main_v71, main_v72, main_v73, main_v74, main_v75, main_v76, main_v77, main_call2_cst, main_call2_v0, main_call2_v1, main_call2_cst_0, main_call2_v2, main_call2_v3, main_v78, main_v79]

theorem ch07_writes : (ch07 : List (HloOp τ sig (Elt F))).Forall fun op => op.writes ⊆ (ch07_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch07_sub : (ch07 : List (HloOp τ sig (Elt F))).Forall fun op => op.bufs ⊆ tcRefs τ sig :=
  ⟨nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩

theorem ch07_fresh : ∀ op ∈ (ch07 : List (HloOp τ sig (Elt F))), op.fresh = ∅ := by
  intro _ h; (repeat (cases h with | head => rfl | tail _ h => ?_)); exact nomatch h

/-- Operations 113 … 137 of @main (calls written out), ending at `main_v100`. -/
abbrev ch08 : List (HloOp τ sig (Elt F)) :=
  [ StableHlo.nullary main_c_13 (constantI S_ 32 0#32),
    StableHlo.unary main_c_13 main_v80 (broadcastInDim S80000 ![] bcast_S_S80000 : (⟨S_, .i32⟩ : BufTy).Contents (Elt F) → (⟨S80000, .i32⟩ : BufTy).Contents (Elt F)),
    StableHlo.binary main_v9 main_v80 main_v81 (cmpi .slt : (⟨S80000, .i32⟩ : BufTy).Contents (Elt F) → (⟨S80000, .i32⟩ : BufTy).Contents (Elt F) → (⟨S80000, .i1⟩ : BufTy).Contents (Elt F)),
    StableHlo.nullary main_c_14 (constantI S_ 32 5000#32),
    StableHlo.unary main_c_14 main_v82 (broadcastInDim S80000 ![] bcast_S_S80000 : (⟨S_, .i32⟩ : BufTy).Contents (Elt F) → (⟨S80000, .i32⟩ : BufTy).Contents (Elt F)),
    StableHlo.binary main_v9 main_v82 main_v83 (addi : (⟨S80000, .i32⟩ : BufTy).Contents (Elt F) → (⟨S80000, .i32⟩ : BufTy).Contents (Elt F) → (⟨S80000, .i32⟩ : BufTy).Contents (Elt F)),
    StableHlo.ternary main_v81 main_v83 main_v9 main_v84 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),
    StableHlo.unary main_v84 main_v85 (broadcastInDim S80000x1 ![0] bcast_S80000_S80000x1_0 : (⟨S80000, .i32⟩ : BufTy).Contents (Elt F) → (⟨S80000x1, .i32⟩ : BufTy).Contents (Elt F)),
    StableHlo.binary main_v79 main_v85 main_v86 ((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)),
    StableHlo.nullary main_c_15 (constantI S_ 32 0#32),
    StableHlo.unary main_c_15 main_v87 (broadcastInDim S80000 ![] bcast_S_S80000 : (⟨S_, .i32⟩ : BufTy).Contents (Elt F) → (⟨S80000, .i32⟩ : BufTy).Contents (Elt F)),
    StableHlo.binary main_v7 main_v87 main_v88 (cmpi .slt : (⟨S80000, .i32⟩ : BufTy).Contents (Elt F) → (⟨S80000, .i32⟩ : BufTy).Contents (Elt F) → (⟨S80000, .i1⟩ : BufTy).Contents (Elt F)),
    StableHlo.nullary main_c_16 (constantI S_ 32 5000#32),
    StableHlo.unary main_c_16 main_v89 (broadcastInDim S80000 ![] bcast_S_S80000 : (⟨S_, .i32⟩ : BufTy).Contents (Elt F) → (⟨S80000, .i32⟩ : BufTy).Contents (Elt F)),
    StableHlo.binary main_v7 main_v89 main_v90 (addi : (⟨S80000, .i32⟩ : BufTy).Contents (Elt F) → (⟨S80000, .i32⟩ : BufTy).Contents (Elt F) → (⟨S80000, .i32⟩ : BufTy).Contents (Elt F)),
    StableHlo.ternary main_v88 main_v90 main_v7 main_v91 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),
    StableHlo.unary main_v91 main_v92 (broadcastInDim S80000x1 ![0] bcast_S80000_S80000x1_0 : (⟨S80000, .i32⟩ : BufTy).Contents (Elt F) → (⟨S80000x1, .i32⟩ : BufTy).Contents (Elt F)),
    StableHlo.binary main_v79 main_v92 main_v93 ((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)),
    StableHlo.binary main_v86 main_v93 main_v94 ((fun a b => concatenate S80000x256 1 [⟨S80000x128, a⟩, ⟨S80000x128, b⟩] concatenates_S80000x128_S80000x128_S80000x256_d1) : (⟨S80000x128, .f32⟩ : BufTy).Contents (Elt F) → (⟨S80000x128, .f32⟩ : BufTy).Contents (Elt F) → (⟨S80000x256, .f32⟩ : BufTy).Contents (Elt F)),
    StableHlo.unary main_arg12 main_v95 ((extractStridedSlice S1x256x128 ![1, 0, 0] · slices_S3x256x128_S1x256x128_1_0_0) : (⟨S3x256x128, .f32⟩ : BufTy).Contents (Elt F) → (⟨S1x256x128, .f32⟩ : BufTy).Contents (Elt F)),
    StableHlo.reshape main_v95 main_v96 rfl shapeCasts_S1x256x128_S256x128,
    StableHlo.binary main_v94 main_v96 main_v97 ((fun l r => Host.dotGeneral dot_S80000x256_S256x128_S80000x128_1_0_0_1_n_n none l r) : (⟨S80000x256, .f32⟩ : BufTy).Contents (Elt F) → (⟨S256x128, .f32⟩ : BufTy).Contents (Elt F) → (⟨S80000x128, .f32⟩ : BufTy).Contents (Elt F)),
    StableHlo.unary main_arg13 main_v98 ((extractStridedSlice S1x128 ![1, 0] · slices_S3x128_S1x128_1_0) : (⟨S3x128, .f32⟩ : BufTy).Contents (Elt F) → (⟨S1x128, .f32⟩ : BufTy).Contents (Elt F)),
    StableHlo.reshape main_v98 main_v99 rfl shapeCasts_S1x128_S128,
    StableHlo.unary main_v99 main_v100 (broadcastInDim S1x128 ![1] bcast_S128_S1x128_1 : (⟨S128, .f32⟩ : BufTy).Contents (Elt F) → (⟨S1x128, .f32⟩ : BufTy).Contents (Elt F)) ]

/-- The buffers `ch08` writes, in order. -/
abbrev ch08_W : List (Ref sig .tc) := [main_c_13, main_v80, main_v81, main_c_14, main_v82, main_v83, main_v84, main_v85, main_v86, main_c_15, main_v87, main_v88, main_c_16, main_v89, main_v90, main_v91, main_v92, main_v93, main_v94, main_v95, main_v96, main_v97, main_v98, main_v99, main_v100]

theorem ch08_writes : (ch08 : List (HloOp τ sig (Elt F))).Forall fun op => op.writes ⊆ (ch08_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch08_sub : (ch08 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub ..⟩

theorem ch08_fresh : ∀ op ∈ (ch08 : List (HloOp τ sig (Elt F))), op.fresh = ∅ := by
  intro _ h; (repeat (cases h with | head => rfl | tail _ h => ?_)); exact nomatch h

/-- Window 1's operations: its lists in order. -/
abbrev opsW1 : List (HloOp τ sig (Elt F)) := ch06 ++ (ch07 ++ (ch08))

set_option maxRecDepth 4096 in
set_option maxHeartbeats 4000000 in
/-- Window 1 of @main is that straight line: the called functions unfolded at their calls and sequencing reassociated. -/
theorem part1_eq (c : Dev nD) : main_part1 (F := F) c = seq opsW1 := by
  simp only [main_part1, fn_leaky_relu.body, fn_where.body, ch06, ch07, ch08, List.cons_append, List.nil_append, seq, bind_assoc, pure_bind]
  all_goals rfl

theorem opsW1_sub : (opsW1 : List (HloOp τ sig (Elt F))).Forall fun op => op.bufs ⊆ tcRefs τ sig :=
  forall_append' ch06_sub (forall_append' ch07_sub (ch08_sub))

theorem opsW1_fresh : ∀ op ∈ (opsW1 : List (HloOp τ sig (Elt F))), op.fresh = ∅ :=
  mem_append' ch06_fresh (mem_append' ch07_fresh (ch08_fresh))

end Cert.ReferenceIdeal.RefRun

end
-- ==== Proof.Ref.W2.lean ====
/- The reference program's @main, statements of window 2, as literal lists of its host operations (the called
   functions' operations written out at the call site over the call's own buffers), cut where a later stage
   of the computation starts; each list's written buffers, and that the window's program text is the lists run in order. -/
import proofs.«173394_j29068338659455_2_alg».proof.Proof.Gen.ReferenceIdeal
import Idealize.ShloMosaic.Lib.StableHlo.Run
import proofs.«173394_j29068338659455_2_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 138 … 146 of @main (calls written out), ending at `main_v103`. -/
abbrev ch09 : List (HloOp τ sig (Elt F)) :=
  [ StableHlo.unary main_v100 main_v101 (broadcastInDim S80000x128 ![0, 1] bcast_S1x128_S80000x128_0_1 : (⟨S1x128, .f32⟩ : BufTy).Contents (Elt F) → (⟨S80000x128, .f32⟩ : BufTy).Contents (Elt F)),
    StableHlo.binary main_v97 main_v101 main_v102 (addf : (⟨S80000x128, .f32⟩ : BufTy).Contents (Elt F) → (⟨S80000x128, .f32⟩ : BufTy).Contents (Elt F) → (⟨S80000x128, .f32⟩ : BufTy).Contents (Elt F)),
    StableHlo.TRef.nullary main_call3.cst (constant S_ .f32 0x00000000#32),
    StableHlo.TRef.unary main_call3.cst main_call3.v0 (broadcastInDim S80000x128 ![] bcast_S_S80000x128),
    StableHlo.TRef.binary (.of main_v102) main_call3.v0 main_call3.v1 (cmpf .oge),
    StableHlo.TRef.nullary main_call3.cst_0 (constant S_ .f32 0x3C23D70A#32),
    StableHlo.TRef.unary main_call3.cst_0 main_call3.v2 (broadcastInDim S80000x128 ![] bcast_S_S80000x128),
    StableHlo.TRef.binary main_call3.v2 (.of main_v102) main_call3.v3 mulf,
    StableHlo.TRef.ternary main_call3.v1 (.of main_v102) main_call3.v3 main_call3.call0.v0 select ]

/-- The buffers `ch09` writes, in order. -/
abbrev ch09_W : List (Ref sig .tc) := [main_v101, main_v102, main_call3_cst, main_call3_v0, main_call3_v1, main_call3_cst_0, main_call3_v2, main_call3_v3, main_v103]

theorem ch09_writes : (ch09 : List (HloOp τ sig (Elt F))).Forall fun op => op.writes ⊆ (ch09_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch09_sub : (ch09 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub ..⟩

theorem ch09_fresh : ∀ op ∈ (ch09 : List (HloOp τ sig (Elt F))), op.fresh = ∅ := by
  intro _ h; (repeat (cases h with | head => rfl | tail _ h => ?_)); exact nomatch h

/-- Operations 147 … 162 of @main (calls written out), ending at `main_v115`. -/
abbrev ch10 : List (HloOp τ sig (Elt F)) :=
  [ StableHlo.nullary main_cst_17 (constant S_ .f32 0x00000000#32),
    StableHlo.unary main_cst_17 main_v104 (broadcastInDim S5000x128 ![] bcast_S_S5000x128 : (⟨S_, .f32⟩ : BufTy).Contents (Elt F) → (⟨S5000x128, .f32⟩ : BufTy).Contents (Elt F)),
    StableHlo.unary main_v9 main_v105 (broadcastInDim S80000x1 ![0] bcast_S80000_S80000x1_0 : (⟨S80000, .i32⟩ : BufTy).Contents (Elt F) → (⟨S80000x1, .i32⟩ : BufTy).Contents (Elt F)),
    StableHlo.ternary main_v104 main_v105 main_v103 main_v106 ((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)),
    StableHlo.unary main_v103 main_v107 ((extractStridedSlice S80000x1 ![0, 0] · slices_S80000x128_S80000x1_0_0) : (⟨S80000x128, .f32⟩ : BufTy).Contents (Elt F) → (⟨S80000x1, .f32⟩ : BufTy).Contents (Elt F)),
    StableHlo.nullary main_cst_18 (constant S_ .f32 0x3F800000#32),
    StableHlo.unary main_cst_18 main_v108 (broadcastInDim S80000x1 ![] bcast_S_S80000x1 : (⟨S_, .f32⟩ : BufTy).Contents (Elt F) → (⟨S80000x1, .f32⟩ : BufTy).Contents (Elt F)),
    StableHlo.nullary main_cst_19 (constant S_ .f32 0x00000000#32),
    StableHlo.unary main_cst_19 main_v109 (broadcastInDim S5000x1 ![] bcast_S_S5000x1 : (⟨S_, .f32⟩ : BufTy).Contents (Elt F) → (⟨S5000x1, .f32⟩ : BufTy).Contents (Elt F)),
    StableHlo.unary main_v9 main_v110 (broadcastInDim S80000x1 ![0] bcast_S80000_S80000x1_0 : (⟨S80000, .i32⟩ : BufTy).Contents (Elt F) → (⟨S80000x1, .i32⟩ : BufTy).Contents (Elt F)),
    StableHlo.ternary main_v109 main_v110 main_v108 main_v111 ((fun x i u => Host.scatterAdd scatter_S5000x1_S80000x1_S80000x1_1_0_0_1 x i u) : (⟨S5000x1, .f32⟩ : BufTy).Contents (Elt F) → (⟨S80000x1, .i32⟩ : BufTy).Contents (Elt F) → (⟨S80000x1, .f32⟩ : BufTy).Contents (Elt F) → (⟨S5000x1, .f32⟩ : BufTy).Contents (Elt F)),
    StableHlo.nullary main_cst_20 (constant S_ .f32 0x3F800000#32),
    StableHlo.unary main_cst_20 main_v112 (broadcastInDim S5000x1 ![] bcast_S_S5000x1 : (⟨S_, .f32⟩ : BufTy).Contents (Elt F) → (⟨S5000x1, .f32⟩ : BufTy).Contents (Elt F)),
    StableHlo.binary main_v111 main_v112 main_v113 (maximumf : (⟨S5000x1, .f32⟩ : BufTy).Contents (Elt F) → (⟨S5000x1, .f32⟩ : BufTy).Contents (Elt F) → (⟨S5000x1, .f32⟩ : BufTy).Contents (Elt F)),
    StableHlo.unary main_v113 main_v114 (broadcastInDim S5000x128 ![0, 1] bcast_S5000x1_S5000x128_0_1 : (⟨S5000x1, .f32⟩ : BufTy).Contents (Elt F) → (⟨S5000x128, .f32⟩ : BufTy).Contents (Elt F)),
    StableHlo.binary main_v106 main_v114 main_v115 (Host.divf : (⟨S5000x128, .f32⟩ : BufTy).Contents (Elt F) → (⟨S5000x128, .f32⟩ : BufTy).Contents (Elt F) → (⟨S5000x128, .f32⟩ : BufTy).Contents (Elt F)) ]

/-- The buffers `ch10` writes, in order. -/
abbrev ch10_W : List (Ref sig .tc) := [main_cst_17, main_v104, main_v105, main_v106, main_v107, main_cst_18, main_v108, main_cst_19, main_v109, main_v110, main_v111, main_cst_20, main_v112, main_v113, main_v114, main_v115]

theorem ch10_writes : (ch10 : List (HloOp τ sig (Elt F))).Forall fun op => op.writes ⊆ (ch10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch10_sub : (ch10 : List (HloOp τ sig (Elt F))).Forall fun op => op.bufs ⊆ tcRefs τ sig :=
  ⟨nullary_bufs_sub .., unary_bufs_sub .., unary_bufs_sub .., ternary_bufs_sub .., unary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩

theorem ch10_fresh : ∀ op ∈ (ch10 : List (HloOp τ sig (Elt F))), op.fresh = ∅ := by
  intro _ h; (repeat (cases h with | head => rfl | tail _ h => ?_)); exact nomatch h

/-- Operations 163 … 189 of @main (calls written out), ending at `main_v136`. -/
abbrev ch11 : List (HloOp τ sig (Elt F)) :=
  [ StableHlo.nullary main_cst_21 (constant S_ .f32 0x00000000#32),
    StableHlo.unary main_cst_21 main_v116 (broadcastInDim S10x128 ![] bcast_S_S10x128 : (⟨S_, .f32⟩ : BufTy).Contents (Elt F) → (⟨S10x128, .f32⟩ : BufTy).Contents (Elt F)),
    StableHlo.unary main_arg6 main_v117 (broadcastInDim S5000x1 ![0] bcast_S5000_S5000x1_0 : (⟨S5000, .i32⟩ : BufTy).Contents (Elt F) → (⟨S5000x1, .i32⟩ : BufTy).Contents (Elt F)),
    StableHlo.ternary main_v116 main_v117 main_v79 main_v118 ((fun x i u => Host.scatterAdd scatter_S10x128_S5000x1_S5000x128_1_0_0_1 x i u) : (⟨S10x128, .f32⟩ : BufTy).Contents (Elt F) → (⟨S5000x1, .i32⟩ : BufTy).Contents (Elt F) → (⟨S5000x128, .f32⟩ : BufTy).Contents (Elt F) → (⟨S10x128, .f32⟩ : BufTy).Contents (Elt F)),
    StableHlo.unary main_v79 main_v119 ((extractStridedSlice S5000x1 ![0, 0] · slices_S5000x128_S5000x1_0_0) : (⟨S5000x128, .f32⟩ : BufTy).Contents (Elt F) → (⟨S5000x1, .f32⟩ : BufTy).Contents (Elt F)),
    StableHlo.nullary main_cst_22 (constant S_ .f32 0x3F800000#32),
    StableHlo.unary main_cst_22 main_v120 (broadcastInDim S5000x1 ![] bcast_S_S5000x1 : (⟨S_, .f32⟩ : BufTy).Contents (Elt F) → (⟨S5000x1, .f32⟩ : BufTy).Contents (Elt F)),
    StableHlo.nullary main_cst_23 (constant S_ .f32 0x00000000#32),
    StableHlo.unary main_cst_23 main_v121 (broadcastInDim S10x1 ![] bcast_S_S10x1 : (⟨S_, .f32⟩ : BufTy).Contents (Elt F) → (⟨S10x1, .f32⟩ : BufTy).Contents (Elt F)),
    StableHlo.unary main_arg6 main_v122 (broadcastInDim S5000x1 ![0] bcast_S5000_S5000x1_0 : (⟨S5000, .i32⟩ : BufTy).Contents (Elt F) → (⟨S5000x1, .i32⟩ : BufTy).Contents (Elt F)),
    StableHlo.ternary main_v121 main_v122 main_v120 main_v123 ((fun x i u => Host.scatterAdd scatter_S10x1_S5000x1_S5000x1_1_0_0_1 x i u) : (⟨S10x1, .f32⟩ : BufTy).Contents (Elt F) → (⟨S5000x1, .i32⟩ : BufTy).Contents (Elt F) → (⟨S5000x1, .f32⟩ : BufTy).Contents (Elt F) → (⟨S10x1, .f32⟩ : BufTy).Contents (Elt F)),
    StableHlo.nullary main_cst_24 (constant S_ .f32 0x3F800000#32),
    StableHlo.unary main_cst_24 main_v124 (broadcastInDim S10x1 ![] bcast_S_S10x1 : (⟨S_, .f32⟩ : BufTy).Contents (Elt F) → (⟨S10x1, .f32⟩ : BufTy).Contents (Elt F)),
    StableHlo.binary main_v123 main_v124 main_v125 (maximumf : (⟨S10x1, .f32⟩ : BufTy).Contents (Elt F) → (⟨S10x1, .f32⟩ : BufTy).Contents (Elt F) → (⟨S10x1, .f32⟩ : BufTy).Contents (Elt F)),
    StableHlo.unary main_v125 main_v126 (broadcastInDim S10x128 ![0, 1] bcast_S10x1_S10x128_0_1 : (⟨S10x1, .f32⟩ : BufTy).Contents (Elt F) → (⟨S10x128, .f32⟩ : BufTy).Contents (Elt F)),
    StableHlo.binary main_v118 main_v126 main_v127 (Host.divf : (⟨S10x128, .f32⟩ : BufTy).Contents (Elt F) → (⟨S10x128, .f32⟩ : BufTy).Contents (Elt F) → (⟨S10x128, .f32⟩ : BufTy).Contents (Elt F)),
    StableHlo.nullary main_c_25 (constantI S_ 32 0#32),
    StableHlo.unary main_c_25 main_v128 (broadcastInDim S5000 ![] bcast_S_S5000 : (⟨S_, .i32⟩ : BufTy).Contents (Elt F) → (⟨S5000, .i32⟩ : BufTy).Contents (Elt F)),
    StableHlo.binary main_arg6 main_v128 main_v129 (cmpi .slt : (⟨S5000, .i32⟩ : BufTy).Contents (Elt F) → (⟨S5000, .i32⟩ : BufTy).Contents (Elt F) → (⟨S5000, .i1⟩ : BufTy).Contents (Elt F)),
    StableHlo.nullary main_c_26 (constantI S_ 32 10#32),
    StableHlo.unary main_c_26 main_v130 (broadcastInDim S5000 ![] bcast_S_S5000 : (⟨S_, .i32⟩ : BufTy).Contents (Elt F) → (⟨S5000, .i32⟩ : BufTy).Contents (Elt F)),
    StableHlo.binary main_arg6 main_v130 main_v131 (addi : (⟨S5000, .i32⟩ : BufTy).Contents (Elt F) → (⟨S5000, .i32⟩ : BufTy).Contents (Elt F) → (⟨S5000, .i32⟩ : BufTy).Contents (Elt F)),
    StableHlo.ternary main_v129 main_v131 main_arg6 main_v132 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v132 main_v133 (broadcastInDim S5000x1 ![0] bcast_S5000_S5000x1_0 : (⟨S5000, .i32⟩ : BufTy).Contents (Elt F) → (⟨S5000x1, .i32⟩ : BufTy).Contents (Elt F)),
    StableHlo.binary main_v127 main_v133 main_v134 ((fun x i => Host.gather gather_S10x128_S5000x1_S5000x128_1_0_n_n_0_1_1128 x i) : (⟨S10x128, .f32⟩ : BufTy).Contents (Elt F) → (⟨S5000x1, .i32⟩ : BufTy).Contents (Elt F) → (⟨S5000x128, .f32⟩ : BufTy).Contents (Elt F)),
    StableHlo.unary main_v11 main_v135 (broadcastInDim S5000x128 ![0, 1] bcast_S5000x1_S5000x128_0_1 : (⟨S5000x1, .f32⟩ : BufTy).Contents (Elt F) → (⟨S5000x128, .f32⟩ : BufTy).Contents (Elt F)),
    StableHlo.binary main_v134 main_v135 main_v136 (mulf : (⟨S5000x128, .f32⟩ : BufTy).Contents (Elt F) → (⟨S5000x128, .f32⟩ : BufTy).Contents (Elt F) → (⟨S5000x128, .f32⟩ : BufTy).Contents (Elt F)) ]

/-- The buffers `ch11` writes, in order. -/
abbrev ch11_W : List (Ref sig .tc) := [main_cst_21, main_v116, main_v117, main_v118, main_v119, main_cst_22, main_v120, main_cst_23, main_v121, main_v122, main_v123, main_cst_24, main_v124, main_v125, main_v126, main_v127, main_c_25, main_v128, main_v129, main_c_26, main_v130, main_v131, main_v132, main_v133, main_v134, main_v135, main_v136]

theorem ch11_writes : (ch11 : List (HloOp τ sig (Elt F))).Forall fun op => op.writes ⊆ (ch11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch11_sub : (ch11 : List (HloOp τ sig (Elt F))).Forall fun op => op.bufs ⊆ tcRefs τ sig :=
  ⟨nullary_bufs_sub .., unary_bufs_sub .., unary_bufs_sub .., ternary_bufs_sub .., unary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩

theorem ch11_fresh : ∀ op ∈ (ch11 : List (HloOp τ sig (Elt F))), op.fresh = ∅ := by
  intro _ h; (repeat (cases h with | head => rfl | tail _ h => ?_)); exact nomatch h

/-- Operations 190 … 206 of @main (calls written out), ending at `main_v147`. -/
abbrev ch12 : List (HloOp τ sig (Elt F)) :=
  [ StableHlo.nary ![main_v79, main_v115, main_v136] main_v137 (fun u => concatenate S5000x384 1 [⟨S5000x128, u 0⟩, ⟨S5000x128, u 1⟩, ⟨S5000x128, u 2⟩] concatenates_S5000x128_S5000x128_S5000x128_S5000x384_d1),
    StableHlo.unary main_arg14 main_v138 ((extractStridedSlice S1x384x128 ![1, 0, 0] · slices_S3x384x128_S1x384x128_1_0_0) : (⟨S3x384x128, .f32⟩ : BufTy).Contents (Elt F) → (⟨S1x384x128, .f32⟩ : BufTy).Contents (Elt F)),
    StableHlo.reshape main_v138 main_v139 rfl shapeCasts_S1x384x128_S384x128,
    StableHlo.binary main_v137 main_v139 main_v140 ((fun l r => Host.dotGeneral dot_S5000x384_S384x128_S5000x128_1_0_0_1_n_n none l r) : (⟨S5000x384, .f32⟩ : BufTy).Contents (Elt F) → (⟨S384x128, .f32⟩ : BufTy).Contents (Elt F) → (⟨S5000x128, .f32⟩ : BufTy).Contents (Elt F)),
    StableHlo.unary main_arg15 main_v141 ((extractStridedSlice S1x128 ![1, 0] · slices_S3x128_S1x128_1_0) : (⟨S3x128, .f32⟩ : BufTy).Contents (Elt F) → (⟨S1x128, .f32⟩ : BufTy).Contents (Elt F)),
    StableHlo.reshape main_v141 main_v142 rfl shapeCasts_S1x128_S128,
    StableHlo.unary main_v142 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S5000x128 ![0, 1] bcast_S1x128_S5000x128_0_1 : (⟨S1x128, .f32⟩ : BufTy).Contents (Elt F) → (⟨S5000x128, .f32⟩ : BufTy).Contents (Elt F)),
    StableHlo.binary main_v140 main_v144 main_v145 (addf : (⟨S5000x128, .f32⟩ : BufTy).Contents (Elt F) → (⟨S5000x128, .f32⟩ : BufTy).Contents (Elt F) → (⟨S5000x128, .f32⟩ : BufTy).Contents (Elt F)),
    StableHlo.TRef.nullary main_call4.cst (constant S_ .f32 0x00000000#32),
    StableHlo.TRef.unary main_call4.cst main_call4.v0 (broadcastInDim S5000x128 ![] bcast_S_S5000x128),
    StableHlo.TRef.binary (.of main_v145) main_call4.v0 main_call4.v1 (cmpf .oge),
    StableHlo.TRef.nullary main_call4.cst_0 (constant S_ .f32 0x3C23D70A#32),
    StableHlo.TRef.unary main_call4.cst_0 main_call4.v2 (broadcastInDim S5000x128 ![] bcast_S_S5000x128),
    StableHlo.TRef.binary main_call4.v2 (.of main_v145) main_call4.v3 mulf,
    StableHlo.TRef.ternary main_call4.v1 (.of main_v145) main_call4.v3 main_call4.call0.v0 select,
    StableHlo.binary main_v79 main_v146 main_v147 (addf : (⟨S5000x128, .f32⟩ : BufTy).Contents (Elt F) → (⟨S5000x128, .f32⟩ : BufTy).Contents (Elt F) → (⟨S5000x128, .f32⟩ : BufTy).Contents (Elt F)) ]

/-- The buffers `ch12` writes, in order. -/
abbrev ch12_W : List (Ref sig .tc) := [main_v137, main_v138, main_v139, main_v140, main_v141, main_v142, main_v143, main_v144, main_v145, main_call4_cst, main_call4_v0, main_call4_v1, main_call4_cst_0, main_call4_v2, main_call4_v3, main_v146, main_v147]

theorem ch12_writes : (ch12 : List (HloOp τ sig (Elt F))).Forall fun op => op.writes ⊆ (ch12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch12_sub : (ch12 : List (HloOp τ sig (Elt F))).Forall fun op => op.bufs ⊆ tcRefs τ sig :=
  ⟨nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩

theorem ch12_fresh : ∀ op ∈ (ch12 : List (HloOp τ sig (Elt F))), op.fresh = ∅ := by
  intro _ h; (repeat (cases h with | head => rfl | tail _ h => ?_)); exact nomatch h

/-- Operations 207 … 209 of @main (calls written out), ending at `main_v149`. -/
abbrev ch13 : List (HloOp τ sig (Elt F)) :=
  [ StableHlo.nullary main_c_27 (constantI S_ 32 0#32),
    StableHlo.unary main_c_27 main_v148 (broadcastInDim S80000 ![] bcast_S_S80000 : (⟨S_, .i32⟩ : BufTy).Contents (Elt F) → (⟨S80000, .i32⟩ : BufTy).Contents (Elt F)),
    StableHlo.binary main_v9 main_v148 main_v149 (cmpi .slt : (⟨S80000, .i32⟩ : BufTy).Contents (Elt F) → (⟨S80000, .i32⟩ : BufTy).Contents (Elt F) → (⟨S80000, .i1⟩ : BufTy).Contents (Elt F)) ]

/-- The buffers `ch13` writes, in order. -/
abbrev ch13_W : List (Ref sig .tc) := [main_c_27, main_v148, main_v149]

theorem ch13_writes : (ch13 : List (HloOp τ sig (Elt F))).Forall fun op => op.writes ⊆ (ch13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch13_sub : (ch13 : List (HloOp τ sig (Elt F))).Forall fun op => op.bufs ⊆ tcRefs τ sig :=
  ⟨nullary_bufs_sub .., unary_bufs_sub .., binary_bufs_sub ..⟩

theorem ch13_fresh : ∀ op ∈ (ch13 : List (HloOp τ sig (Elt F))), op.fresh = ∅ := by
  intro _ h; (repeat (cases h with | head => rfl | tail _ h => ?_)); exact nomatch h

/-- Window 2's operations: its lists in order. -/
abbrev opsW2 : List (HloOp τ sig (Elt F)) := ch09 ++ (ch10 ++ (ch11 ++ (ch12 ++ (ch13))))

set_option maxRecDepth 4096 in
set_option maxHeartbeats 4000000 in
/-- Window 2 of @main is that straight line: the called functions unfolded at their calls and sequencing reassociated. -/
theorem part2_eq (c : Dev nD) : main_part2 (F := F) c = seq opsW2 := by
  simp only [main_part2, fn_leaky_relu_0.body, fn_where_1.body, fn_leaky_relu.body, fn_where.body, ch09, ch10, ch11, ch12, ch13, List.cons_append, List.nil_append, seq, bind_assoc, pure_bind]
  all_goals rfl

theorem opsW2_sub : (opsW2 : List (HloOp τ sig (Elt F))).Forall fun op => op.bufs ⊆ tcRefs τ sig :=
  forall_append' ch09_sub (forall_append' ch10_sub (forall_append' ch11_sub (forall_append' ch12_sub (ch13_sub))))

theorem opsW2_fresh : ∀ op ∈ (opsW2 : List (HloOp τ sig (Elt F))), op.fresh = ∅ :=
  mem_append' ch09_fresh (mem_append' ch10_fresh (mem_append' ch11_fresh (mem_append' ch12_fresh (ch13_fresh))))

end Cert.ReferenceIdeal.RefRun

end
-- ==== Proof.Ref.W3.lean ====
/- The reference program's @main, statements of window 3, as literal lists of its host operations (the called
   functions' operations written out at the call site over the call's own buffers), cut where a later stage
   of the computation starts; each list's written buffers, and that the window's program text is the lists run in order. -/
import proofs.«173394_j29068338659455_2_alg».proof.Proof.Gen.ReferenceIdeal
import Idealize.ShloMosaic.Lib.StableHlo.Run
import proofs.«173394_j29068338659455_2_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 210 … 240 of @main (calls written out), ending at `main_v171`. -/
abbrev ch14 : List (HloOp τ sig (Elt F)) :=
  [ StableHlo.nullary main_c_28 (constantI S_ 32 5000#32),
    StableHlo.unary main_c_28 main_v150 (broadcastInDim S80000 ![] bcast_S_S80000 : (⟨S_, .i32⟩ : BufTy).Contents (Elt F) → (⟨S80000, .i32⟩ : BufTy).Contents (Elt F)),
    StableHlo.binary main_v9 main_v150 main_v151 (addi : (⟨S80000, .i32⟩ : BufTy).Contents (Elt F) → (⟨S80000, .i32⟩ : BufTy).Contents (Elt F) → (⟨S80000, .i32⟩ : BufTy).Contents (Elt F)),
    StableHlo.ternary main_v149 main_v151 main_v9 main_v152 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),
    StableHlo.unary main_v152 main_v153 (broadcastInDim S80000x1 ![0] bcast_S80000_S80000x1_0 : (⟨S80000, .i32⟩ : BufTy).Contents (Elt F) → (⟨S80000x1, .i32⟩ : BufTy).Contents (Elt F)),
    StableHlo.binary main_v147 main_v153 main_v154 ((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)),
    StableHlo.nullary main_c_29 (constantI S_ 32 0#32),
    StableHlo.unary main_c_29 main_v155 (broadcastInDim S80000 ![] bcast_S_S80000 : (⟨S_, .i32⟩ : BufTy).Contents (Elt F) → (⟨S80000, .i32⟩ : BufTy).Contents (Elt F)),
    StableHlo.binary main_v7 main_v155 main_v156 (cmpi .slt : (⟨S80000, .i32⟩ : BufTy).Contents (Elt F) → (⟨S80000, .i32⟩ : BufTy).Contents (Elt F) → (⟨S80000, .i1⟩ : BufTy).Contents (Elt F)),
    StableHlo.nullary main_c_30 (constantI S_ 32 5000#32),
    StableHlo.unary main_c_30 main_v157 (broadcastInDim S80000 ![] bcast_S_S80000 : (⟨S_, .i32⟩ : BufTy).Contents (Elt F) → (⟨S80000, .i32⟩ : BufTy).Contents (Elt F)),
    StableHlo.binary main_v7 main_v157 main_v158 (addi : (⟨S80000, .i32⟩ : BufTy).Contents (Elt F) → (⟨S80000, .i32⟩ : BufTy).Contents (Elt F) → (⟨S80000, .i32⟩ : BufTy).Contents (Elt F)),
    StableHlo.ternary main_v156 main_v158 main_v7 main_v159 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),
    StableHlo.unary main_v159 main_v160 (broadcastInDim S80000x1 ![0] bcast_S80000_S80000x1_0 : (⟨S80000, .i32⟩ : BufTy).Contents (Elt F) → (⟨S80000x1, .i32⟩ : BufTy).Contents (Elt F)),
    StableHlo.binary main_v147 main_v160 main_v161 ((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)),
    StableHlo.binary main_v154 main_v161 main_v162 ((fun a b => concatenate S80000x256 1 [⟨S80000x128, a⟩, ⟨S80000x128, b⟩] concatenates_S80000x128_S80000x128_S80000x256_d1) : (⟨S80000x128, .f32⟩ : BufTy).Contents (Elt F) → (⟨S80000x128, .f32⟩ : BufTy).Contents (Elt F) → (⟨S80000x256, .f32⟩ : BufTy).Contents (Elt F)),
    StableHlo.unary main_arg12 main_v163 ((extractStridedSlice S1x256x128 ![2, 0, 0] · slices_S3x256x128_S1x256x128_2_0_0) : (⟨S3x256x128, .f32⟩ : BufTy).Contents (Elt F) → (⟨S1x256x128, .f32⟩ : BufTy).Contents (Elt F)),
    StableHlo.reshape main_v163 main_v164 rfl shapeCasts_S1x256x128_S256x128,
    StableHlo.binary main_v162 main_v164 main_v165 ((fun l r => Host.dotGeneral dot_S80000x256_S256x128_S80000x128_1_0_0_1_n_n none l r) : (⟨S80000x256, .f32⟩ : BufTy).Contents (Elt F) → (⟨S256x128, .f32⟩ : BufTy).Contents (Elt F) → (⟨S80000x128, .f32⟩ : BufTy).Contents (Elt F)),
    StableHlo.unary main_arg13 main_v166 ((extractStridedSlice S1x128 ![2, 0] · slices_S3x128_S1x128_2_0) : (⟨S3x128, .f32⟩ : BufTy).Contents (Elt F) → (⟨S1x128, .f32⟩ : BufTy).Contents (Elt F)),
    StableHlo.reshape main_v166 main_v167 rfl shapeCasts_S1x128_S128,
    StableHlo.unary main_v167 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S80000x128 ![0, 1] bcast_S1x128_S80000x128_0_1 : (⟨S1x128, .f32⟩ : BufTy).Contents (Elt F) → (⟨S80000x128, .f32⟩ : BufTy).Contents (Elt F)),
    StableHlo.binary main_v165 main_v169 main_v170 (addf : (⟨S80000x128, .f32⟩ : BufTy).Contents (Elt F) → (⟨S80000x128, .f32⟩ : BufTy).Contents (Elt F) → (⟨S80000x128, .f32⟩ : BufTy).Contents (Elt F)),
    StableHlo.TRef.nullary main_call5.cst (constant S_ .f32 0x00000000#32),
    StableHlo.TRef.unary main_call5.cst main_call5.v0 (broadcastInDim S80000x128 ![] bcast_S_S80000x128),
    StableHlo.TRef.binary (.of main_v170) main_call5.v0 main_call5.v1 (cmpf .oge),
    StableHlo.TRef.nullary main_call5.cst_0 (constant S_ .f32 0x3C23D70A#32),
    StableHlo.TRef.unary main_call5.cst_0 main_call5.v2 (broadcastInDim S80000x128 ![] bcast_S_S80000x128),
    StableHlo.TRef.binary main_call5.v2 (.of main_v170) main_call5.v3 mulf,
    StableHlo.TRef.ternary main_call5.v1 (.of main_v170) main_call5.v3 main_call5.call0.v0 select ]

/-- The buffers `ch14` writes, in order. -/
abbrev ch14_W : List (Ref sig .tc) := [main_c_28, main_v150, main_v151, main_v152, main_v153, main_v154, main_c_29, main_v155, main_v156, main_c_30, main_v157, main_v158, main_v159, main_v160, main_v161, main_v162, main_v163, main_v164, main_v165, main_v166, main_v167, main_v168, main_v169, main_v170, main_call5_cst, main_call5_v0, main_call5_v1, main_call5_cst_0, main_call5_v2, main_call5_v3, main_v171]

theorem ch14_writes : (ch14 : List (HloOp τ sig (Elt F))).Forall fun op => op.writes ⊆ (ch14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch14_sub : (ch14 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem ch14_fresh : ∀ op ∈ (ch14 : List (HloOp τ sig (Elt F))), op.fresh = ∅ := by
  intro _ h; (repeat (cases h with | head => rfl | tail _ h => ?_)); exact nomatch h

/-- Operations 241 … 256 of @main (calls written out), ending at `main_v183`. -/
abbrev ch15 : List (HloOp τ sig (Elt F)) :=
  [ StableHlo.nullary main_cst_31 (constant S_ .f32 0x00000000#32),
    StableHlo.unary main_cst_31 main_v172 (broadcastInDim S5000x128 ![] bcast_S_S5000x128 : (⟨S_, .f32⟩ : BufTy).Contents (Elt F) → (⟨S5000x128, .f32⟩ : BufTy).Contents (Elt F)),
    StableHlo.unary main_v9 main_v173 (broadcastInDim S80000x1 ![0] bcast_S80000_S80000x1_0 : (⟨S80000, .i32⟩ : BufTy).Contents (Elt F) → (⟨S80000x1, .i32⟩ : BufTy).Contents (Elt F)),
    StableHlo.ternary main_v172 main_v173 main_v171 main_v174 ((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)),
    StableHlo.unary main_v171 main_v175 ((extractStridedSlice S80000x1 ![0, 0] · slices_S80000x128_S80000x1_0_0) : (⟨S80000x128, .f32⟩ : BufTy).Contents (Elt F) → (⟨S80000x1, .f32⟩ : BufTy).Contents (Elt F)),
    StableHlo.nullary main_cst_32 (constant S_ .f32 0x3F800000#32),
    StableHlo.unary main_cst_32 main_v176 (broadcastInDim S80000x1 ![] bcast_S_S80000x1 : (⟨S_, .f32⟩ : BufTy).Contents (Elt F) → (⟨S80000x1, .f32⟩ : BufTy).Contents (Elt F)),
    StableHlo.nullary main_cst_33 (constant S_ .f32 0x00000000#32),
    StableHlo.unary main_cst_33 main_v177 (broadcastInDim S5000x1 ![] bcast_S_S5000x1 : (⟨S_, .f32⟩ : BufTy).Contents (Elt F) → (⟨S5000x1, .f32⟩ : BufTy).Contents (Elt F)),
    StableHlo.unary main_v9 main_v178 (broadcastInDim S80000x1 ![0] bcast_S80000_S80000x1_0 : (⟨S80000, .i32⟩ : BufTy).Contents (Elt F) → (⟨S80000x1, .i32⟩ : BufTy).Contents (Elt F)),
    StableHlo.ternary main_v177 main_v178 main_v176 main_v179 ((fun x i u => Host.scatterAdd scatter_S5000x1_S80000x1_S80000x1_1_0_0_1 x i u) : (⟨S5000x1, .f32⟩ : BufTy).Contents (Elt F) → (⟨S80000x1, .i32⟩ : BufTy).Contents (Elt F) → (⟨S80000x1, .f32⟩ : BufTy).Contents (Elt F) → (⟨S5000x1, .f32⟩ : BufTy).Contents (Elt F)),
    StableHlo.nullary main_cst_34 (constant S_ .f32 0x3F800000#32),
    StableHlo.unary main_cst_34 main_v180 (broadcastInDim S5000x1 ![] bcast_S_S5000x1 : (⟨S_, .f32⟩ : BufTy).Contents (Elt F) → (⟨S5000x1, .f32⟩ : BufTy).Contents (Elt F)),
    StableHlo.binary main_v179 main_v180 main_v181 (maximumf : (⟨S5000x1, .f32⟩ : BufTy).Contents (Elt F) → (⟨S5000x1, .f32⟩ : BufTy).Contents (Elt F) → (⟨S5000x1, .f32⟩ : BufTy).Contents (Elt F)),
    StableHlo.unary main_v181 main_v182 (broadcastInDim S5000x128 ![0, 1] bcast_S5000x1_S5000x128_0_1 : (⟨S5000x1, .f32⟩ : BufTy).Contents (Elt F) → (⟨S5000x128, .f32⟩ : BufTy).Contents (Elt F)),
    StableHlo.binary main_v174 main_v182 main_v183 (Host.divf : (⟨S5000x128, .f32⟩ : BufTy).Contents (Elt F) → (⟨S5000x128, .f32⟩ : BufTy).Contents (Elt F) → (⟨S5000x128, .f32⟩ : BufTy).Contents (Elt F)) ]

/-- The buffers `ch15` writes, in order. -/
abbrev ch15_W : List (Ref sig .tc) := [main_cst_31, main_v172, main_v173, main_v174, main_v175, main_cst_32, main_v176, main_cst_33, main_v177, main_v178, main_v179, main_cst_34, main_v180, main_v181, main_v182, main_v183]

theorem ch15_writes : (ch15 : List (HloOp τ sig (Elt F))).Forall fun op => op.writes ⊆ (ch15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch15_sub : (ch15 : List (HloOp τ sig (Elt F))).Forall fun op => op.bufs ⊆ tcRefs τ sig :=
  ⟨nullary_bufs_sub .., unary_bufs_sub .., unary_bufs_sub .., ternary_bufs_sub .., unary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩

theorem ch15_fresh : ∀ op ∈ (ch15 : List (HloOp τ sig (Elt F))), op.fresh = ∅ := by
  intro _ h; (repeat (cases h with | head => rfl | tail _ h => ?_)); exact nomatch h

/-- Operations 257 … 275 of @main (calls written out), ending at `main_v197`. -/
abbrev ch16 : List (HloOp τ sig (Elt F)) :=
  [ StableHlo.nullary main_cst_35 (constant S_ .f32 0x00000000#32),
    StableHlo.unary main_cst_35 main_v184 (broadcastInDim S10x128 ![] bcast_S_S10x128 : (⟨S_, .f32⟩ : BufTy).Contents (Elt F) → (⟨S10x128, .f32⟩ : BufTy).Contents (Elt F)),
    StableHlo.unary main_arg6 main_v185 (broadcastInDim S5000x1 ![0] bcast_S5000_S5000x1_0 : (⟨S5000, .i32⟩ : BufTy).Contents (Elt F) → (⟨S5000x1, .i32⟩ : BufTy).Contents (Elt F)),
    StableHlo.ternary main_v184 main_v185 main_v147 main_v186 ((fun x i u => Host.scatterAdd scatter_S10x128_S5000x1_S5000x128_1_0_0_1 x i u) : (⟨S10x128, .f32⟩ : BufTy).Contents (Elt F) → (⟨S5000x1, .i32⟩ : BufTy).Contents (Elt F) → (⟨S5000x128, .f32⟩ : BufTy).Contents (Elt F) → (⟨S10x128, .f32⟩ : BufTy).Contents (Elt F)),
    StableHlo.unary main_v147 main_v187 ((extractStridedSlice S5000x1 ![0, 0] · slices_S5000x128_S5000x1_0_0) : (⟨S5000x128, .f32⟩ : BufTy).Contents (Elt F) → (⟨S5000x1, .f32⟩ : BufTy).Contents (Elt F)),
    StableHlo.nullary main_cst_36 (constant S_ .f32 0x3F800000#32),
    StableHlo.unary main_cst_36 main_v188 (broadcastInDim S5000x1 ![] bcast_S_S5000x1 : (⟨S_, .f32⟩ : BufTy).Contents (Elt F) → (⟨S5000x1, .f32⟩ : BufTy).Contents (Elt F)),
    StableHlo.nullary main_cst_37 (constant S_ .f32 0x00000000#32),
    StableHlo.unary main_cst_37 main_v189 (broadcastInDim S10x1 ![] bcast_S_S10x1 : (⟨S_, .f32⟩ : BufTy).Contents (Elt F) → (⟨S10x1, .f32⟩ : BufTy).Contents (Elt F)),
    StableHlo.unary main_arg6 main_v190 (broadcastInDim S5000x1 ![0] bcast_S5000_S5000x1_0 : (⟨S5000, .i32⟩ : BufTy).Contents (Elt F) → (⟨S5000x1, .i32⟩ : BufTy).Contents (Elt F)),
    StableHlo.ternary main_v189 main_v190 main_v188 main_v191 ((fun x i u => Host.scatterAdd scatter_S10x1_S5000x1_S5000x1_1_0_0_1 x i u) : (⟨S10x1, .f32⟩ : BufTy).Contents (Elt F) → (⟨S5000x1, .i32⟩ : BufTy).Contents (Elt F) → (⟨S5000x1, .f32⟩ : BufTy).Contents (Elt F) → (⟨S10x1, .f32⟩ : BufTy).Contents (Elt F)),
    StableHlo.nullary main_cst_38 (constant S_ .f32 0x3F800000#32),
    StableHlo.unary main_cst_38 main_v192 (broadcastInDim S10x1 ![] bcast_S_S10x1 : (⟨S_, .f32⟩ : BufTy).Contents (Elt F) → (⟨S10x1, .f32⟩ : BufTy).Contents (Elt F)),
    StableHlo.binary main_v191 main_v192 main_v193 (maximumf : (⟨S10x1, .f32⟩ : BufTy).Contents (Elt F) → (⟨S10x1, .f32⟩ : BufTy).Contents (Elt F) → (⟨S10x1, .f32⟩ : BufTy).Contents (Elt F)),
    StableHlo.unary main_v193 main_v194 (broadcastInDim S10x128 ![0, 1] bcast_S10x1_S10x128_0_1 : (⟨S10x1, .f32⟩ : BufTy).Contents (Elt F) → (⟨S10x128, .f32⟩ : BufTy).Contents (Elt F)),
    StableHlo.binary main_v186 main_v194 main_v195 (Host.divf : (⟨S10x128, .f32⟩ : BufTy).Contents (Elt F) → (⟨S10x128, .f32⟩ : BufTy).Contents (Elt F) → (⟨S10x128, .f32⟩ : BufTy).Contents (Elt F)),
    StableHlo.nullary main_c_39 (constantI S_ 32 0#32),
    StableHlo.unary main_c_39 main_v196 (broadcastInDim S5000 ![] bcast_S_S5000 : (⟨S_, .i32⟩ : BufTy).Contents (Elt F) → (⟨S5000, .i32⟩ : BufTy).Contents (Elt F)),
    StableHlo.binary main_arg6 main_v196 main_v197 (cmpi .slt : (⟨S5000, .i32⟩ : BufTy).Contents (Elt F) → (⟨S5000, .i32⟩ : BufTy).Contents (Elt F) → (⟨S5000, .i1⟩ : BufTy).Contents (Elt F)) ]

/-- The buffers `ch16` writes, in order. -/
abbrev ch16_W : List (Ref sig .tc) := [main_cst_35, main_v184, main_v185, main_v186, main_v187, main_cst_36, main_v188, main_cst_37, main_v189, main_v190, main_v191, main_cst_38, main_v192, main_v193, main_v194, main_v195, main_c_39, main_v196, main_v197]

theorem ch16_writes : (ch16 : List (HloOp τ sig (Elt F))).Forall fun op => op.writes ⊆ (ch16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch16_sub : (ch16 : List (HloOp τ sig (Elt F))).Forall fun op => op.bufs ⊆ tcRefs τ sig :=
  ⟨nullary_bufs_sub .., unary_bufs_sub .., unary_bufs_sub .., ternary_bufs_sub .., unary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub ..⟩

theorem ch16_fresh : ∀ op ∈ (ch16 : List (HloOp τ sig (Elt F))), op.fresh = ∅ := by
  intro _ h; (repeat (cases h with | head => rfl | tail _ h => ?_)); exact nomatch h

/-- Window 3's operations: its lists in order. -/
abbrev opsW3 : List (HloOp τ sig (Elt F)) := ch14 ++ (ch15 ++ (ch16))

set_option maxRecDepth 4096 in
set_option maxHeartbeats 4000000 in
/-- Window 3 of @main is that straight line: the called functions unfolded at their calls and sequencing reassociated. -/
theorem part3_eq (c : Dev nD) : main_part3 (F := F) c = seq opsW3 := by
  simp only [main_part3, fn_leaky_relu_0.body, fn_where_1.body, ch14, ch15, ch16, List.cons_append, List.nil_append, seq, bind_assoc, pure_bind]
  all_goals rfl

theorem opsW3_sub : (opsW3 : List (HloOp τ sig (Elt F))).Forall fun op => op.bufs ⊆ tcRefs τ sig :=
  forall_append' ch14_sub (forall_append' ch15_sub (ch16_sub))

theorem opsW3_fresh : ∀ op ∈ (opsW3 : List (HloOp τ sig (Elt F))), op.fresh = ∅ :=
  mem_append' ch14_fresh (mem_append' ch15_fresh (ch16_fresh))

end Cert.ReferenceIdeal.RefRun

end
-- ==== Proof.Ref.W4.lean ====
/- The reference program's @main, statements of window 4, as literal lists of its host operations (the called
   functions' operations written out at the call site over the call's own buffers), cut where a later stage
   of the computation starts; each list's written buffers, and that the window's program text is the lists run in order. -/
import proofs.«173394_j29068338659455_2_alg».proof.Proof.Gen.ReferenceIdeal
import Idealize.ShloMosaic.Lib.StableHlo.Run
import proofs.«173394_j29068338659455_2_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 276 … 283 of @main (calls written out), ending at `main_v204`. -/
abbrev ch17 : List (HloOp τ sig (Elt F)) :=
  [ StableHlo.nullary main_c_40 (constantI S_ 32 10#32),
    StableHlo.unary main_c_40 main_v198 (broadcastInDim S5000 ![] bcast_S_S5000 : (⟨S_, .i32⟩ : BufTy).Contents (Elt F) → (⟨S5000, .i32⟩ : BufTy).Contents (Elt F)),
    StableHlo.binary main_arg6 main_v198 main_v199 (addi : (⟨S5000, .i32⟩ : BufTy).Contents (Elt F) → (⟨S5000, .i32⟩ : BufTy).Contents (Elt F) → (⟨S5000, .i32⟩ : BufTy).Contents (Elt F)),
    StableHlo.ternary main_v197 main_v199 main_arg6 main_v200 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v200 main_v201 (broadcastInDim S5000x1 ![0] bcast_S5000_S5000x1_0 : (⟨S5000, .i32⟩ : BufTy).Contents (Elt F) → (⟨S5000x1, .i32⟩ : BufTy).Contents (Elt F)),
    StableHlo.binary main_v195 main_v201 main_v202 ((fun x i => Host.gather gather_S10x128_S5000x1_S5000x128_1_0_n_n_0_1_1128 x i) : (⟨S10x128, .f32⟩ : BufTy).Contents (Elt F) → (⟨S5000x1, .i32⟩ : BufTy).Contents (Elt F) → (⟨S5000x128, .f32⟩ : BufTy).Contents (Elt F)),
    StableHlo.unary main_v11 main_v203 (broadcastInDim S5000x128 ![0, 1] bcast_S5000x1_S5000x128_0_1 : (⟨S5000x1, .f32⟩ : BufTy).Contents (Elt F) → (⟨S5000x128, .f32⟩ : BufTy).Contents (Elt F)),
    StableHlo.binary main_v202 main_v203 main_v204 (mulf : (⟨S5000x128, .f32⟩ : BufTy).Contents (Elt F) → (⟨S5000x128, .f32⟩ : BufTy).Contents (Elt F) → (⟨S5000x128, .f32⟩ : BufTy).Contents (Elt F)) ]

/-- The buffers `ch17` writes, in order. -/
abbrev ch17_W : List (Ref sig .tc) := [main_c_40, main_v198, main_v199, main_v200, main_v201, main_v202, main_v203, main_v204]

theorem ch17_writes : (ch17 : List (HloOp τ sig (Elt F))).Forall fun op => op.writes ⊆ (ch17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch17_sub : (ch17 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., binary_bufs_sub ..⟩

theorem ch17_fresh : ∀ op ∈ (ch17 : List (HloOp τ sig (Elt F))), op.fresh = ∅ := by
  intro _ h; (repeat (cases h with | head => rfl | tail _ h => ?_)); exact nomatch h

/-- Operations 284 … 300 of @main (calls written out), ending at `main_v215`. -/
abbrev ch18 : List (HloOp τ sig (Elt F)) :=
  [ StableHlo.nary ![main_v147, main_v183, main_v204] main_v205 (fun u => concatenate S5000x384 1 [⟨S5000x128, u 0⟩, ⟨S5000x128, u 1⟩, ⟨S5000x128, u 2⟩] concatenates_S5000x128_S5000x128_S5000x128_S5000x384_d1),
    StableHlo.unary main_arg14 main_v206 ((extractStridedSlice S1x384x128 ![2, 0, 0] · slices_S3x384x128_S1x384x128_2_0_0) : (⟨S3x384x128, .f32⟩ : BufTy).Contents (Elt F) → (⟨S1x384x128, .f32⟩ : BufTy).Contents (Elt F)),
    StableHlo.reshape main_v206 main_v207 rfl shapeCasts_S1x384x128_S384x128,
    StableHlo.binary main_v205 main_v207 main_v208 ((fun l r => Host.dotGeneral dot_S5000x384_S384x128_S5000x128_1_0_0_1_n_n none l r) : (⟨S5000x384, .f32⟩ : BufTy).Contents (Elt F) → (⟨S384x128, .f32⟩ : BufTy).Contents (Elt F) → (⟨S5000x128, .f32⟩ : BufTy).Contents (Elt F)),
    StableHlo.unary main_arg15 main_v209 ((extractStridedSlice S1x128 ![2, 0] · slices_S3x128_S1x128_2_0) : (⟨S3x128, .f32⟩ : BufTy).Contents (Elt F) → (⟨S1x128, .f32⟩ : BufTy).Contents (Elt F)),
    StableHlo.reshape main_v209 main_v210 rfl shapeCasts_S1x128_S128,
    StableHlo.unary main_v210 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S5000x128 ![0, 1] bcast_S1x128_S5000x128_0_1 : (⟨S1x128, .f32⟩ : BufTy).Contents (Elt F) → (⟨S5000x128, .f32⟩ : BufTy).Contents (Elt F)),
    StableHlo.binary main_v208 main_v212 main_v213 (addf : (⟨S5000x128, .f32⟩ : BufTy).Contents (Elt F) → (⟨S5000x128, .f32⟩ : BufTy).Contents (Elt F) → (⟨S5000x128, .f32⟩ : BufTy).Contents (Elt F)),
    StableHlo.TRef.nullary main_call6.cst (constant S_ .f32 0x00000000#32),
    StableHlo.TRef.unary main_call6.cst main_call6.v0 (broadcastInDim S5000x128 ![] bcast_S_S5000x128),
    StableHlo.TRef.binary (.of main_v213) main_call6.v0 main_call6.v1 (cmpf .oge),
    StableHlo.TRef.nullary main_call6.cst_0 (constant S_ .f32 0x3C23D70A#32),
    StableHlo.TRef.unary main_call6.cst_0 main_call6.v2 (broadcastInDim S5000x128 ![] bcast_S_S5000x128),
    StableHlo.TRef.binary main_call6.v2 (.of main_v213) main_call6.v3 mulf,
    StableHlo.TRef.ternary main_call6.v1 (.of main_v213) main_call6.v3 main_call6.call0.v0 select,
    StableHlo.binary main_v147 main_v214 main_v215 (addf : (⟨S5000x128, .f32⟩ : BufTy).Contents (Elt F) → (⟨S5000x128, .f32⟩ : BufTy).Contents (Elt F) → (⟨S5000x128, .f32⟩ : BufTy).Contents (Elt F)) ]

/-- The buffers `ch18` writes, in order. -/
abbrev ch18_W : List (Ref sig .tc) := [main_v205, main_v206, main_v207, main_v208, main_v209, main_v210, main_v211, main_v212, main_v213, main_call6_cst, main_call6_v0, main_call6_v1, main_call6_cst_0, main_call6_v2, main_call6_v3, main_v214, main_v215]

theorem ch18_writes : (ch18 : List (HloOp τ sig (Elt F))).Forall fun op => op.writes ⊆ (ch18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch18_sub : (ch18 : List (HloOp τ sig (Elt F))).Forall fun op => op.bufs ⊆ tcRefs τ sig :=
  ⟨nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩

theorem ch18_fresh : ∀ op ∈ (ch18 : List (HloOp τ sig (Elt F))), op.fresh = ∅ := by
  intro _ h; (repeat (cases h with | head => rfl | tail _ h => ?_)); exact nomatch h

/-- Operations 301 … 312 of @main (calls written out), ending at `main_v221`. -/
abbrev ch19 : List (HloOp τ sig (Elt F)) :=
  [ StableHlo.binary main_arg3 main_arg4 main_v216 ((fun a b => concatenate S100000x48 1 [⟨S100000x16, a⟩, ⟨S100000x32, b⟩] concatenates_S100000x16_S100000x32_S100000x48_d1) : (⟨S100000x16, .f32⟩ : BufTy).Contents (Elt F) → (⟨S100000x32, .f32⟩ : BufTy).Contents (Elt F) → (⟨S100000x48, .f32⟩ : BufTy).Contents (Elt F)),
    StableHlo.binary main_v216 main_arg16 main_v217 ((fun l r => Host.dotGeneral dot_S100000x48_S48x128_S100000x128_1_0_0_1_n_n none l r) : (⟨S100000x48, .f32⟩ : BufTy).Contents (Elt F) → (⟨S48x128, .f32⟩ : BufTy).Contents (Elt F) → (⟨S100000x128, .f32⟩ : BufTy).Contents (Elt F)),
    StableHlo.unary main_arg17 main_v218 (broadcastInDim S1x128 ![1] bcast_S128_S1x128_1 : (⟨S128, .f32⟩ : BufTy).Contents (Elt F) → (⟨S1x128, .f32⟩ : BufTy).Contents (Elt F)),
    StableHlo.unary main_v218 main_v219 (broadcastInDim S100000x128 ![0, 1] bcast_S1x128_S100000x128_0_1 : (⟨S1x128, .f32⟩ : BufTy).Contents (Elt F) → (⟨S100000x128, .f32⟩ : BufTy).Contents (Elt F)),
    StableHlo.binary main_v217 main_v219 main_v220 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v220) main_call7.v0 main_call7.v1 (cmpf .oge),
    StableHlo.TRef.nullary main_call7.cst_0 (constant S_ .f32 0x3C23D70A#32),
    StableHlo.TRef.unary main_call7.cst_0 main_call7.v2 (broadcastInDim S100000x128 ![] bcast_S_S100000x128),
    StableHlo.TRef.binary main_call7.v2 (.of main_v220) main_call7.v3 mulf,
    StableHlo.TRef.ternary main_call7.v1 (.of main_v220) main_call7.v3 main_call7.call0.v0 select ]

/-- The buffers `ch19` writes, in order. -/
abbrev ch19_W : List (Ref sig .tc) := [main_v216, main_v217, main_v218, main_v219, main_v220, main_call7_cst, main_call7_v0, main_call7_v1, main_call7_cst_0, main_call7_v2, main_call7_v3, main_v221]

theorem ch19_writes : (ch19 : List (HloOp τ sig (Elt F))).Forall fun op => op.writes ⊆ (ch19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch19_sub : (ch19 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem ch19_fresh : ∀ op ∈ (ch19 : List (HloOp τ sig (Elt F))), op.fresh = ∅ := by
  intro _ h; (repeat (cases h with | head => rfl | tail _ h => ?_)); exact nomatch h

/-- Operations 313 … 321 of @main (calls written out), ending at `main_v228`. -/
abbrev ch20 : List (HloOp τ sig (Elt F)) :=
  [ StableHlo.nullary main_c_41 (constantI S_ 32 0#32),
    StableHlo.unary main_c_41 main_v222 (broadcastInDim S300000 ![] bcast_S_S300000 : (⟨S_, .i32⟩ : BufTy).Contents (Elt F) → (⟨S300000, .i32⟩ : BufTy).Contents (Elt F)),
    StableHlo.binary main_arg8 main_v222 main_v223 (cmpi .slt : (⟨S300000, .i32⟩ : BufTy).Contents (Elt F) → (⟨S300000, .i32⟩ : BufTy).Contents (Elt F) → (⟨S300000, .i1⟩ : BufTy).Contents (Elt F)),
    StableHlo.nullary main_c_42 (constantI S_ 32 5000#32),
    StableHlo.unary main_c_42 main_v224 (broadcastInDim S300000 ![] bcast_S_S300000 : (⟨S_, .i32⟩ : BufTy).Contents (Elt F) → (⟨S300000, .i32⟩ : BufTy).Contents (Elt F)),
    StableHlo.binary main_arg8 main_v224 main_v225 (addi : (⟨S300000, .i32⟩ : BufTy).Contents (Elt F) → (⟨S300000, .i32⟩ : BufTy).Contents (Elt F) → (⟨S300000, .i32⟩ : BufTy).Contents (Elt F)),
    StableHlo.ternary main_v223 main_v225 main_arg8 main_v226 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v226 main_v227 (broadcastInDim S300000x1 ![0] bcast_S300000_S300000x1_0 : (⟨S300000, .i32⟩ : BufTy).Contents (Elt F) → (⟨S300000x1, .i32⟩ : BufTy).Contents (Elt F)),
    StableHlo.binary main_v215 main_v227 main_v228 ((fun x i => Host.gather gather_S5000x128_S300000x1_S300000x128_1_0_n_n_0_1_1128 x i) : (⟨S5000x128, .f32⟩ : BufTy).Contents (Elt F) → (⟨S300000x1, .i32⟩ : BufTy).Contents (Elt F) → (⟨S300000x128, .f32⟩ : BufTy).Contents (Elt F)) ]

/-- The buffers `ch20` writes, in order. -/
abbrev ch20_W : List (Ref sig .tc) := [main_c_41, main_v222, main_v223, main_c_42, main_v224, main_v225, main_v226, main_v227, main_v228]

theorem ch20_writes : (ch20 : List (HloOp τ sig (Elt F))).Forall fun op => op.writes ⊆ (ch20_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch20_sub : (ch20 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem ch20_fresh : ∀ op ∈ (ch20 : List (HloOp τ sig (Elt F))), op.fresh = ∅ := by
  intro _ h; (repeat (cases h with | head => rfl | tail _ h => ?_)); exact nomatch h

/-- Operations 322 … 340 of @main (calls written out), ending at `main_v245`. -/
abbrev ch21 : List (HloOp τ sig (Elt F)) :=
  [ StableHlo.nullary main_c_43 (constantI S_ 32 0#32),
    StableHlo.unary main_c_43 main_v229 (broadcastInDim S300000 ![] bcast_S_S300000 : (⟨S_, .i32⟩ : BufTy).Contents (Elt F) → (⟨S300000, .i32⟩ : BufTy).Contents (Elt F)),
    StableHlo.binary main_arg9 main_v229 main_v230 (cmpi .slt : (⟨S300000, .i32⟩ : BufTy).Contents (Elt F) → (⟨S300000, .i32⟩ : BufTy).Contents (Elt F) → (⟨S300000, .i1⟩ : BufTy).Contents (Elt F)),
    StableHlo.nullary main_c_44 (constantI S_ 32 100000#32),
    StableHlo.unary main_c_44 main_v231 (broadcastInDim S300000 ![] bcast_S_S300000 : (⟨S_, .i32⟩ : BufTy).Contents (Elt F) → (⟨S300000, .i32⟩ : BufTy).Contents (Elt F)),
    StableHlo.binary main_arg9 main_v231 main_v232 (addi : (⟨S300000, .i32⟩ : BufTy).Contents (Elt F) → (⟨S300000, .i32⟩ : BufTy).Contents (Elt F) → (⟨S300000, .i32⟩ : BufTy).Contents (Elt F)),
    StableHlo.ternary main_v230 main_v232 main_arg9 main_v233 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v233 main_v234 (broadcastInDim S300000x1 ![0] bcast_S300000_S300000x1_0 : (⟨S300000, .i32⟩ : BufTy).Contents (Elt F) → (⟨S300000x1, .i32⟩ : BufTy).Contents (Elt F)),
    StableHlo.binary main_v221 main_v234 main_v235 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    StableHlo.binary main_v228 main_v235 main_v236 ((fun a b => concatenate S300000x256 1 [⟨S300000x128, a⟩, ⟨S300000x128, b⟩] concatenates_S300000x128_S300000x128_S300000x256_d1) : (⟨S300000x128, .f32⟩ : BufTy).Contents (Elt F) → (⟨S300000x128, .f32⟩ : BufTy).Contents (Elt F) → (⟨S300000x256, .f32⟩ : BufTy).Contents (Elt F)),
    StableHlo.binary main_v236 main_arg22 main_v237 ((fun l r => Host.dotGeneral dot_S300000x256_S256x128_S300000x128_1_0_0_1_n_n none l r) : (⟨S300000x256, .f32⟩ : BufTy).Contents (Elt F) → (⟨S256x128, .f32⟩ : BufTy).Contents (Elt F) → (⟨S300000x128, .f32⟩ : BufTy).Contents (Elt F)),
    StableHlo.unary main_arg23 main_v238 (broadcastInDim S1x128 ![1] bcast_S128_S1x128_1 : (⟨S128, .f32⟩ : BufTy).Contents (Elt F) → (⟨S1x128, .f32⟩ : BufTy).Contents (Elt F)),
    StableHlo.unary main_v238 main_v239 (broadcastInDim S300000x128 ![0, 1] bcast_S1x128_S300000x128_0_1 : (⟨S1x128, .f32⟩ : BufTy).Contents (Elt F) → (⟨S300000x128, .f32⟩ : BufTy).Contents (Elt F)),
    StableHlo.binary main_v237 main_v239 main_v240 (addf : (⟨S300000x128, .f32⟩ : BufTy).Contents (Elt F) → (⟨S300000x128, .f32⟩ : BufTy).Contents (Elt F) → (⟨S300000x128, .f32⟩ : BufTy).Contents (Elt F)),
    StableHlo.unary main_v240 main_v241 (Host.tanh : (⟨S300000x128, .f32⟩ : BufTy).Contents (Elt F) → (⟨S300000x128, .f32⟩ : BufTy).Contents (Elt F)),
    StableHlo.binary main_v241 main_arg24 main_v242 ((fun l r => Host.dotGeneral dot_S300000x128_S128x1_S300000x1_1_0_0_1_n_n none l r) : (⟨S300000x128, .f32⟩ : BufTy).Contents (Elt F) → (⟨S128x1, .f32⟩ : BufTy).Contents (Elt F) → (⟨S300000x1, .f32⟩ : BufTy).Contents (Elt F)),
    StableHlo.unary main_arg25 main_v243 (broadcastInDim S1x1 ![1] bcast_S1_S1x1_1 : (⟨S1, .f32⟩ : BufTy).Contents (Elt F) → (⟨S1x1, .f32⟩ : BufTy).Contents (Elt F)),
    StableHlo.unary main_v243 main_v244 (broadcastInDim S300000x1 ![0, 1] bcast_S1x1_S300000x1_0_1 : (⟨S1x1, .f32⟩ : BufTy).Contents (Elt F) → (⟨S300000x1, .f32⟩ : BufTy).Contents (Elt F)),
    StableHlo.binary main_v242 main_v244 main_v245 (addf : (⟨S300000x1, .f32⟩ : BufTy).Contents (Elt F) → (⟨S300000x1, .f32⟩ : BufTy).Contents (Elt F) → (⟨S300000x1, .f32⟩ : BufTy).Contents (Elt F)) ]

/-- The buffers `ch21` writes, in order. -/
abbrev ch21_W : List (Ref sig .tc) := [main_c_43, main_v229, main_v230, main_c_44, main_v231, main_v232, main_v233, main_v234, main_v235, main_v236, main_v237, main_v238, main_v239, main_v240, main_v241, main_v242, main_v243, main_v244, main_v245]

theorem ch21_writes : (ch21 : List (HloOp τ sig (Elt F))).Forall fun op => op.writes ⊆ (ch21_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch21_sub : (ch21 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., unary_bufs_sub .., binary_bufs_sub .., unary_bufs_sub .., unary_bufs_sub .., binary_bufs_sub ..⟩

theorem ch21_fresh : ∀ op ∈ (ch21 : List (HloOp τ sig (Elt F))), op.fresh = ∅ := by
  intro _ h; (repeat (cases h with | head => rfl | tail _ h => ?_)); exact nomatch h

/-- Operations 341 … 347 of @main (calls written out), ending at `main_v250`. -/
abbrev ch22 : List (HloOp τ sig (Elt F)) :=
  [ StableHlo.nullary main_cst_45 (constant S_ .f32 0xFF800000#32),
    StableHlo.binary main_v245 main_cst_45 main_v246 ((fun x v => Host.reduce FloatOps.maximumf x v reducesTo_S300000x1_S1_d0 h_S_) : (⟨S300000x1, .f32⟩ : BufTy).Contents (Elt F) → (⟨S_, .f32⟩ : BufTy).Contents (Elt F) → (⟨S1, .f32⟩ : BufTy).Contents (Elt F)),
    StableHlo.nullary main_cst_46 (constant S_ .f32 0xFF800000#32),
    StableHlo.unary main_cst_46 main_v247 (broadcastInDim S1 ![] bcast_S_S1 : (⟨S_, .f32⟩ : BufTy).Contents (Elt F) → (⟨S1, .f32⟩ : BufTy).Contents (Elt F)),
    StableHlo.binary main_v247 main_v246 main_v248 (maximumf : (⟨S1, .f32⟩ : BufTy).Contents (Elt F) → (⟨S1, .f32⟩ : BufTy).Contents (Elt F) → (⟨S1, .f32⟩ : BufTy).Contents (Elt F)),
    StableHlo.unary main_v248 main_v249 (broadcastInDim S1x1 ![1] bcast_S1_S1x1_1 : (⟨S1, .f32⟩ : BufTy).Contents (Elt F) → (⟨S1x1, .f32⟩ : BufTy).Contents (Elt F)),
    StableHlo.unary main_v249 main_v250 (broadcastInDim S300000x1 ![0, 1] bcast_S1x1_S300000x1_0_1 : (⟨S1x1, .f32⟩ : BufTy).Contents (Elt F) → (⟨S300000x1, .f32⟩ : BufTy).Contents (Elt F)) ]

/-- The buffers `ch22` writes, in order. -/
abbrev ch22_W : List (Ref sig .tc) := [main_cst_45, main_v246, main_cst_46, main_v247, main_v248, main_v249, main_v250]

theorem ch22_writes : (ch22 : List (HloOp τ sig (Elt F))).Forall fun op => op.writes ⊆ (ch22_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch22_sub : (ch22 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub ..⟩

theorem ch22_fresh : ∀ op ∈ (ch22 : List (HloOp τ sig (Elt F))), op.fresh = ∅ := by
  intro _ h; (repeat (cases h with | head => rfl | tail _ h => ?_)); exact nomatch h

/-- Window 4's operations: its lists in order. -/
abbrev opsW4 : List (HloOp τ sig (Elt F)) := ch17 ++ (ch18 ++ (ch19 ++ (ch20 ++ (ch21 ++ (ch22)))))

set_option maxRecDepth 4096 in
set_option maxHeartbeats 4000000 in
/-- Window 4 of @main is that straight line: the called functions unfolded at their calls and sequencing reassociated. -/
theorem part4_eq (c : Dev nD) : main_part4 (F := F) c = seq opsW4 := by
  simp only [main_part4, fn_leaky_relu.body, fn_where.body, fn_leaky_relu_2.body, fn_where_3.body, ch17, ch18, ch19, ch20, ch21, ch22, List.cons_append, List.nil_append, seq, bind_assoc, pure_bind]
  all_goals rfl

theorem opsW4_sub : (opsW4 : List (HloOp τ sig (Elt F))).Forall fun op => op.bufs ⊆ tcRefs τ sig :=
  forall_append' ch17_sub (forall_append' ch18_sub (forall_append' ch19_sub (forall_append' ch20_sub (forall_append' ch21_sub (ch22_sub)))))

theorem opsW4_fresh : ∀ op ∈ (opsW4 : List (HloOp τ sig (Elt F))), op.fresh = ∅ :=
  mem_append' ch17_fresh (mem_append' ch18_fresh (mem_append' ch19_fresh (mem_append' ch20_fresh (mem_append' ch21_fresh (ch22_fresh)))))

end Cert.ReferenceIdeal.RefRun

end
-- ==== Proof.Ref.W5.lean ====
/- The reference program's @main, statements of window 5, as literal lists of its host operations (the called
   functions' operations written out at the call site over the call's own buffers), cut where a later stage
   of the computation starts; each list's written buffers, and that the window's program text is the lists run in order. -/
import proofs.«173394_j29068338659455_2_alg».proof.Proof.Gen.ReferenceIdeal
import Idealize.ShloMosaic.Lib.StableHlo.Run
import proofs.«173394_j29068338659455_2_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 348 … 354 of @main (calls written out), ending at `main_v256`. -/
abbrev ch23 : List (HloOp τ sig (Elt F)) :=
  [ StableHlo.binary main_v245 main_v250 main_v251 (subf : (⟨S300000x1, .f32⟩ : BufTy).Contents (Elt F) → (⟨S300000x1, .f32⟩ : BufTy).Contents (Elt F) → (⟨S300000x1, .f32⟩ : BufTy).Contents (Elt F)),
    StableHlo.unary main_v251 main_v252 (Host.exp : (⟨S300000x1, .f32⟩ : BufTy).Contents (Elt F) → (⟨S300000x1, .f32⟩ : BufTy).Contents (Elt F)),
    StableHlo.nullary main_cst_47 (constant S_ .f32 0x00000000#32),
    StableHlo.binary main_v252 main_cst_47 main_v253 ((fun x v => Host.reduceAdd x v reducesTo_S300000x1_S1_d0 h_S_) : (⟨S300000x1, .f32⟩ : BufTy).Contents (Elt F) → (⟨S_, .f32⟩ : BufTy).Contents (Elt F) → (⟨S1, .f32⟩ : BufTy).Contents (Elt F)),
    StableHlo.unary main_v253 main_v254 (broadcastInDim S1x1 ![1] bcast_S1_S1x1_1 : (⟨S1, .f32⟩ : BufTy).Contents (Elt F) → (⟨S1x1, .f32⟩ : BufTy).Contents (Elt F)),
    StableHlo.unary main_v254 main_v255 (broadcastInDim S300000x1 ![0, 1] bcast_S1x1_S300000x1_0_1 : (⟨S1x1, .f32⟩ : BufTy).Contents (Elt F) → (⟨S300000x1, .f32⟩ : BufTy).Contents (Elt F)),
    StableHlo.binary main_v252 main_v255 main_v256 (Host.divf : (⟨S300000x1, .f32⟩ : BufTy).Contents (Elt F) → (⟨S300000x1, .f32⟩ : BufTy).Contents (Elt F) → (⟨S300000x1, .f32⟩ : BufTy).Contents (Elt F)) ]

/-- The buffers `ch23` writes, in order. -/
abbrev ch23_W : List (Ref sig .tc) := [main_v251, main_v252, main_cst_47, main_v253, main_v254, main_v255, main_v256]

theorem ch23_writes : (ch23 : List (HloOp τ sig (Elt F))).Forall fun op => op.writes ⊆ (ch23_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch23_sub : (ch23 : List (HloOp τ sig (Elt F))).Forall fun op => op.bufs ⊆ tcRefs τ sig :=
  ⟨binary_bufs_sub .., unary_bufs_sub .., nullary_bufs_sub .., binary_bufs_sub .., unary_bufs_sub .., unary_bufs_sub .., binary_bufs_sub ..⟩

theorem ch23_fresh : ∀ op ∈ (ch23 : List (HloOp τ sig (Elt F))), op.fresh = ∅ := by
  intro _ h; (repeat (cases h with | head => rfl | tail _ h => ?_)); exact nomatch h

/-- Operations 355 … 367 of @main (calls written out), ending at `main_v266`. -/
abbrev ch24 : List (HloOp τ sig (Elt F)) :=
  [ StableHlo.nullary main_cst_48 (constant S_ .f32 0x00000000#32),
    StableHlo.unary main_cst_48 main_v257 (broadcastInDim S100000x128 ![] bcast_S_S100000x128 : (⟨S_, .f32⟩ : BufTy).Contents (Elt F) → (⟨S100000x128, .f32⟩ : BufTy).Contents (Elt F)),
    StableHlo.unary main_v256 main_v258 (broadcastInDim S300000x128 ![0, 1] bcast_S300000x1_S300000x128_0_1 : (⟨S300000x1, .f32⟩ : BufTy).Contents (Elt F) → (⟨S300000x128, .f32⟩ : BufTy).Contents (Elt F)),
    StableHlo.binary main_v258 main_v228 main_v259 (mulf : (⟨S300000x128, .f32⟩ : BufTy).Contents (Elt F) → (⟨S300000x128, .f32⟩ : BufTy).Contents (Elt F) → (⟨S300000x128, .f32⟩ : BufTy).Contents (Elt F)),
    StableHlo.nullary main_c_49 (constantI S_ 32 0#32),
    StableHlo.unary main_c_49 main_v260 (broadcastInDim S300000 ![] bcast_S_S300000 : (⟨S_, .i32⟩ : BufTy).Contents (Elt F) → (⟨S300000, .i32⟩ : BufTy).Contents (Elt F)),
    StableHlo.binary main_arg9 main_v260 main_v261 (cmpi .slt : (⟨S300000, .i32⟩ : BufTy).Contents (Elt F) → (⟨S300000, .i32⟩ : BufTy).Contents (Elt F) → (⟨S300000, .i1⟩ : BufTy).Contents (Elt F)),
    StableHlo.nullary main_c_50 (constantI S_ 32 100000#32),
    StableHlo.unary main_c_50 main_v262 (broadcastInDim S300000 ![] bcast_S_S300000 : (⟨S_, .i32⟩ : BufTy).Contents (Elt F) → (⟨S300000, .i32⟩ : BufTy).Contents (Elt F)),
    StableHlo.binary main_arg9 main_v262 main_v263 (addi : (⟨S300000, .i32⟩ : BufTy).Contents (Elt F) → (⟨S300000, .i32⟩ : BufTy).Contents (Elt F) → (⟨S300000, .i32⟩ : BufTy).Contents (Elt F)),
    StableHlo.ternary main_v261 main_v263 main_arg9 main_v264 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v264 main_v265 (broadcastInDim S300000x1 ![0] bcast_S300000_S300000x1_0 : (⟨S300000, .i32⟩ : BufTy).Contents (Elt F) → (⟨S300000x1, .i32⟩ : BufTy).Contents (Elt F)),
    StableHlo.ternary main_v257 main_v265 main_v259 main_v266 ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)) ]

/-- The buffers `ch24` writes, in order. -/
abbrev ch24_W : List (Ref sig .tc) := [main_cst_48, main_v257, main_v258, main_v259, main_c_49, main_v260, main_v261, main_c_50, main_v262, main_v263, main_v264, main_v265, main_v266]

theorem ch24_writes : (ch24 : List (HloOp τ sig (Elt F))).Forall fun op => op.writes ⊆ (ch24_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch24_sub : (ch24 : List (HloOp τ sig (Elt F))).Forall fun op => op.bufs ⊆ tcRefs τ sig :=
  ⟨nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩

theorem ch24_fresh : ∀ op ∈ (ch24 : List (HloOp τ sig (Elt F))), op.fresh = ∅ := by
  intro _ h; (repeat (cases h with | head => rfl | tail _ h => ?_)); exact nomatch h

/-- Operations 368 … 368 of @main (calls written out), ending at `main_v267`. -/
abbrev ch25 : List (HloOp τ sig (Elt F)) :=
  [ StableHlo.binary main_v221 main_v266 main_v267 (addf : (⟨S100000x128, .f32⟩ : BufTy).Contents (Elt F) → (⟨S100000x128, .f32⟩ : BufTy).Contents (Elt F) → (⟨S100000x128, .f32⟩ : BufTy).Contents (Elt F)) ]

/-- The buffers `ch25` writes, in order. -/
abbrev ch25_W : List (Ref sig .tc) := [main_v267]

theorem ch25_writes : (ch25 : List (HloOp τ sig (Elt F))).Forall fun op => op.writes ⊆ (ch25_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

theorem ch25_sub : (ch25 : List (HloOp τ sig (Elt F))).Forall fun op => op.bufs ⊆ tcRefs τ sig :=
  (binary_bufs_sub ..)

theorem ch25_fresh : ∀ op ∈ (ch25 : List (HloOp τ sig (Elt F))), op.fresh = ∅ := by
  intro _ h; (repeat (cases h with | head => rfl | tail _ h => ?_)); exact nomatch h

/-- Operations 369 … 373 of @main (calls written out), ending at `main_v272`. -/
abbrev ch26 : List (HloOp τ sig (Elt F)) :=
  [ StableHlo.unary main_arg3 main_v268 ((extractStridedSlice S100000x3 ![0, 0] · slices_S100000x16_S100000x3_0_0) : (⟨S100000x16, .f32⟩ : BufTy).Contents (Elt F) → (⟨S100000x3, .f32⟩ : BufTy).Contents (Elt F)),
    StableHlo.unary main_arg7 main_v269 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v269 main_v270 rfl shapeCasts_S1x600000_S600000,
    StableHlo.unary main_arg7 main_v271 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v271 main_v272 rfl shapeCasts_S1x600000_S600000 ]

/-- The buffers `ch26` writes, in order. -/
abbrev ch26_W : List (Ref sig .tc) := [main_v268, main_v269, main_v270, main_v271, main_v272]

theorem ch26_writes : (ch26 : List (HloOp τ sig (Elt F))).Forall fun op => op.writes ⊆ (ch26_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch26_sub : (ch26 : List (HloOp τ sig (Elt F))).Forall fun op => op.bufs ⊆ tcRefs τ sig :=
  ⟨unary_bufs_sub .., unary_bufs_sub .., reshape_bufs_sub .., unary_bufs_sub .., reshape_bufs_sub ..⟩

theorem ch26_fresh : ∀ op ∈ (ch26 : List (HloOp τ sig (Elt F))), op.fresh = ∅ := by
  intro _ h; (repeat (cases h with | head => rfl | tail _ h => ?_)); exact nomatch h

/-- Operations 374 … 407 of @main (calls written out), ending at `main_v298`. -/
abbrev ch27 : List (HloOp τ sig (Elt F)) :=
  [ StableHlo.nullary main_c_51 (constantI S_ 32 0#32),
    StableHlo.unary main_c_51 main_v273 (broadcastInDim S600000 ![] bcast_S_S600000 : (⟨S_, .i32⟩ : BufTy).Contents (Elt F) → (⟨S600000, .i32⟩ : BufTy).Contents (Elt F)),
    StableHlo.binary main_v272 main_v273 main_v274 (cmpi .slt : (⟨S600000, .i32⟩ : BufTy).Contents (Elt F) → (⟨S600000, .i32⟩ : BufTy).Contents (Elt F) → (⟨S600000, .i1⟩ : BufTy).Contents (Elt F)),
    StableHlo.nullary main_c_52 (constantI S_ 32 100000#32),
    StableHlo.unary main_c_52 main_v275 (broadcastInDim S600000 ![] bcast_S_S600000 : (⟨S_, .i32⟩ : BufTy).Contents (Elt F) → (⟨S600000, .i32⟩ : BufTy).Contents (Elt F)),
    StableHlo.binary main_v272 main_v275 main_v276 (addi : (⟨S600000, .i32⟩ : BufTy).Contents (Elt F) → (⟨S600000, .i32⟩ : BufTy).Contents (Elt F) → (⟨S600000, .i32⟩ : BufTy).Contents (Elt F)),
    StableHlo.ternary main_v274 main_v276 main_v272 main_v277 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v277 main_v278 (broadcastInDim S600000x1 ![0] bcast_S600000_S600000x1_0 : (⟨S600000, .i32⟩ : BufTy).Contents (Elt F) → (⟨S600000x1, .i32⟩ : BufTy).Contents (Elt F)),
    StableHlo.binary main_v268 main_v278 main_v279 ((fun x i => Host.gather gather_S100000x3_S600000x1_S600000x3_1_0_n_n_0_1_13 x i) : (⟨S100000x3, .f32⟩ : BufTy).Contents (Elt F) → (⟨S600000x1, .i32⟩ : BufTy).Contents (Elt F) → (⟨S600000x3, .f32⟩ : BufTy).Contents (Elt F)),
    StableHlo.nullary main_c_53 (constantI S_ 32 0#32),
    StableHlo.unary main_c_53 main_v280 (broadcastInDim S600000 ![] bcast_S_S600000 : (⟨S_, .i32⟩ : BufTy).Contents (Elt F) → (⟨S600000, .i32⟩ : BufTy).Contents (Elt F)),
    StableHlo.binary main_v270 main_v280 main_v281 (cmpi .slt : (⟨S600000, .i32⟩ : BufTy).Contents (Elt F) → (⟨S600000, .i32⟩ : BufTy).Contents (Elt F) → (⟨S600000, .i1⟩ : BufTy).Contents (Elt F)),
    StableHlo.nullary main_c_54 (constantI S_ 32 100000#32),
    StableHlo.unary main_c_54 main_v282 (broadcastInDim S600000 ![] bcast_S_S600000 : (⟨S_, .i32⟩ : BufTy).Contents (Elt F) → (⟨S600000, .i32⟩ : BufTy).Contents (Elt F)),
    StableHlo.binary main_v270 main_v282 main_v283 (addi : (⟨S600000, .i32⟩ : BufTy).Contents (Elt F) → (⟨S600000, .i32⟩ : BufTy).Contents (Elt F) → (⟨S600000, .i32⟩ : BufTy).Contents (Elt F)),
    StableHlo.ternary main_v281 main_v283 main_v270 main_v284 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v284 main_v285 (broadcastInDim S600000x1 ![0] bcast_S600000_S600000x1_0 : (⟨S600000, .i32⟩ : BufTy).Contents (Elt F) → (⟨S600000x1, .i32⟩ : BufTy).Contents (Elt F)),
    StableHlo.binary main_v268 main_v285 main_v286 ((fun x i => Host.gather gather_S100000x3_S600000x1_S600000x3_1_0_n_n_0_1_13 x i) : (⟨S100000x3, .f32⟩ : BufTy).Contents (Elt F) → (⟨S600000x1, .i32⟩ : BufTy).Contents (Elt F) → (⟨S600000x3, .f32⟩ : BufTy).Contents (Elt F)),
    StableHlo.binary main_v279 main_v286 main_v287 (subf : (⟨S600000x3, .f32⟩ : BufTy).Contents (Elt F) → (⟨S600000x3, .f32⟩ : BufTy).Contents (Elt F) → (⟨S600000x3, .f32⟩ : BufTy).Contents (Elt F)),
    StableHlo.nullary main_c_55 (constantI S_ 32 0#32),
    StableHlo.unary main_c_55 main_v288 (broadcastInDim S600000 ![] bcast_S_S600000 : (⟨S_, .i32⟩ : BufTy).Contents (Elt F) → (⟨S600000, .i32⟩ : BufTy).Contents (Elt F)),
    StableHlo.binary main_v272 main_v288 main_v289 (cmpi .slt : (⟨S600000, .i32⟩ : BufTy).Contents (Elt F) → (⟨S600000, .i32⟩ : BufTy).Contents (Elt F) → (⟨S600000, .i1⟩ : BufTy).Contents (Elt F)),
    StableHlo.nullary main_c_56 (constantI S_ 32 100000#32),
    StableHlo.unary main_c_56 main_v290 (broadcastInDim S600000 ![] bcast_S_S600000 : (⟨S_, .i32⟩ : BufTy).Contents (Elt F) → (⟨S600000, .i32⟩ : BufTy).Contents (Elt F)),
    StableHlo.binary main_v272 main_v290 main_v291 (addi : (⟨S600000, .i32⟩ : BufTy).Contents (Elt F) → (⟨S600000, .i32⟩ : BufTy).Contents (Elt F) → (⟨S600000, .i32⟩ : BufTy).Contents (Elt F)),
    StableHlo.ternary main_v289 main_v291 main_v272 main_v292 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v292 main_v293 (broadcastInDim S600000x1 ![0] bcast_S600000_S600000x1_0 : (⟨S600000, .i32⟩ : BufTy).Contents (Elt F) → (⟨S600000x1, .i32⟩ : BufTy).Contents (Elt F)),
    StableHlo.binary main_v267 main_v293 main_v294 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_c_57 (constantI S_ 32 0#32),
    StableHlo.unary main_c_57 main_v295 (broadcastInDim S600000 ![] bcast_S_S600000 : (⟨S_, .i32⟩ : BufTy).Contents (Elt F) → (⟨S600000, .i32⟩ : BufTy).Contents (Elt F)),
    StableHlo.binary main_v270 main_v295 main_v296 (cmpi .slt : (⟨S600000, .i32⟩ : BufTy).Contents (Elt F) → (⟨S600000, .i32⟩ : BufTy).Contents (Elt F) → (⟨S600000, .i1⟩ : BufTy).Contents (Elt F)),
    StableHlo.nullary main_c_58 (constantI S_ 32 100000#32),
    StableHlo.unary main_c_58 main_v297 (broadcastInDim S600000 ![] bcast_S_S600000 : (⟨S_, .i32⟩ : BufTy).Contents (Elt F) → (⟨S600000, .i32⟩ : BufTy).Contents (Elt F)),
    StableHlo.binary main_v270 main_v297 main_v298 (addi : (⟨S600000, .i32⟩ : BufTy).Contents (Elt F) → (⟨S600000, .i32⟩ : BufTy).Contents (Elt F) → (⟨S600000, .i32⟩ : BufTy).Contents (Elt F)) ]

/-- The buffers `ch27` writes, in order. -/
abbrev ch27_W : List (Ref sig .tc) := [main_c_51, main_v273, main_v274, main_c_52, main_v275, main_v276, main_v277, main_v278, main_v279, main_c_53, main_v280, main_v281, main_c_54, main_v282, main_v283, main_v284, main_v285, main_v286, main_v287, main_c_55, main_v288, main_v289, main_c_56, main_v290, main_v291, main_v292, main_v293, main_v294, main_c_57, main_v295, main_v296, main_c_58, main_v297, main_v298]

theorem ch27_writes : (ch27 : List (HloOp τ sig (Elt F))).Forall fun op => op.writes ⊆ (ch27_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch27_sub : (ch27 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub ..⟩

theorem ch27_fresh : ∀ op ∈ (ch27 : List (HloOp τ sig (Elt F))), op.fresh = ∅ := by
  intro _ h; (repeat (cases h with | head => rfl | tail _ h => ?_)); exact nomatch h

/-- Window 5's operations: its lists in order. -/
abbrev opsW5 : List (HloOp τ sig (Elt F)) := ch23 ++ (ch24 ++ (ch25 ++ (ch26 ++ (ch27))))

set_option maxRecDepth 4096 in
set_option maxHeartbeats 4000000 in
/-- Window 5 of @main is that straight line: the called functions unfolded at their calls and sequencing reassociated. -/
theorem part5_eq (c : Dev nD) : main_part5 (F := F) c = seq opsW5 := by
  simp only [main_part5, ch23, ch24, ch25, ch26, ch27, List.cons_append, List.nil_append, seq, bind_assoc, pure_bind]
  all_goals rfl

theorem opsW5_sub : (opsW5 : List (HloOp τ sig (Elt F))).Forall fun op => op.bufs ⊆ tcRefs τ sig :=
  forall_append' ch23_sub (forall_append' ch24_sub (forall_append' ch25_sub (forall_append' ch26_sub (ch27_sub))))

theorem opsW5_fresh : ∀ op ∈ (opsW5 : List (HloOp τ sig (Elt F))), op.fresh = ∅ :=
  mem_append' ch23_fresh (mem_append' ch24_fresh (mem_append' ch25_fresh (mem_append' ch26_fresh (ch27_fresh))))

end Cert.ReferenceIdeal.RefRun

end
-- ==== Proof.Ref.W6.lean ====
/- The reference program's @main, statements of window 6, as literal lists of its host operations (the called
   functions' operations written out at the call site over the call's own buffers), cut where a later stage
   of the computation starts; each list's written buffers, and that the window's program text is the lists run in order. -/
import proofs.«173394_j29068338659455_2_alg».proof.Proof.Gen.ReferenceIdeal
import Idealize.ShloMosaic.Lib.StableHlo.Run
import proofs.«173394_j29068338659455_2_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 408 … 422 of @main (calls written out), ending at `main_v307`. -/
abbrev ch28 : List (HloOp τ sig (Elt F)) :=
  [ StableHlo.ternary main_v296 main_v298 main_v270 main_v299 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v299 main_v300 (broadcastInDim S600000x1 ![0] bcast_S600000_S600000x1_0 : (⟨S600000, .i32⟩ : BufTy).Contents (Elt F) → (⟨S600000x1, .i32⟩ : BufTy).Contents (Elt F)),
    StableHlo.binary main_v267 main_v300 main_v301 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nary ![main_v294, main_v301, main_v287] main_v302 (fun u => concatenate S600000x259 1 [⟨S600000x128, u 0⟩, ⟨S600000x128, u 1⟩, ⟨S600000x3, u 2⟩] concatenates_S600000x128_S600000x128_S600000x3_S600000x259_d1),
    StableHlo.binary main_v302 main_arg18 main_v303 ((fun l r => Host.dotGeneral dot_S600000x259_S259x128_S600000x128_1_0_0_1_n_n none l r) : (⟨S600000x259, .f32⟩ : BufTy).Contents (Elt F) → (⟨S259x128, .f32⟩ : BufTy).Contents (Elt F) → (⟨S600000x128, .f32⟩ : BufTy).Contents (Elt F)),
    StableHlo.unary main_arg19 main_v304 (broadcastInDim S1x128 ![1] bcast_S128_S1x128_1 : (⟨S128, .f32⟩ : BufTy).Contents (Elt F) → (⟨S1x128, .f32⟩ : BufTy).Contents (Elt F)),
    StableHlo.unary main_v304 main_v305 (broadcastInDim S600000x128 ![0, 1] bcast_S1x128_S600000x128_0_1 : (⟨S1x128, .f32⟩ : BufTy).Contents (Elt F) → (⟨S600000x128, .f32⟩ : BufTy).Contents (Elt F)),
    StableHlo.binary main_v303 main_v305 main_v306 (addf : (⟨S600000x128, .f32⟩ : BufTy).Contents (Elt F) → (⟨S600000x128, .f32⟩ : BufTy).Contents (Elt F) → (⟨S600000x128, .f32⟩ : BufTy).Contents (Elt F)),
    StableHlo.TRef.nullary main_call8.cst (constant S_ .f32 0x00000000#32),
    StableHlo.TRef.unary main_call8.cst main_call8.v0 (broadcastInDim S600000x128 ![] bcast_S_S600000x128),
    StableHlo.TRef.binary (.of main_v306) main_call8.v0 main_call8.v1 (cmpf .oge),
    StableHlo.TRef.nullary main_call8.cst_0 (constant S_ .f32 0x3C23D70A#32),
    StableHlo.TRef.unary main_call8.cst_0 main_call8.v2 (broadcastInDim S600000x128 ![] bcast_S_S600000x128),
    StableHlo.TRef.binary main_call8.v2 (.of main_v306) main_call8.v3 mulf,
    StableHlo.TRef.ternary main_call8.v1 (.of main_v306) main_call8.v3 main_call8.call0.v0 select ]

/-- The buffers `ch28` writes, in order. -/
abbrev ch28_W : List (Ref sig .tc) := [main_v299, main_v300, main_v301, main_v302, main_v303, main_v304, main_v305, main_v306, main_call8_cst, main_call8_v0, main_call8_v1, main_call8_cst_0, main_call8_v2, main_call8_v3, main_v307]

theorem ch28_writes : (ch28 : List (HloOp τ sig (Elt F))).Forall fun op => op.writes ⊆ (ch28_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch28_sub : (ch28 : List (HloOp τ sig (Elt F))).Forall fun op => op.bufs ⊆ tcRefs τ sig :=
  ⟨ternary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem ch28_fresh : ∀ op ∈ (ch28 : List (HloOp τ sig (Elt F))), op.fresh = ∅ := by
  intro _ h; (repeat (cases h with | head => rfl | tail _ h => ?_)); exact nomatch h

/-- Operations 423 … 438 of @main (calls written out), ending at `main_v319`. -/
abbrev ch29 : List (HloOp τ sig (Elt F)) :=
  [ StableHlo.nullary main_cst_59 (constant S_ .f32 0x00000000#32),
    StableHlo.unary main_cst_59 main_v308 (broadcastInDim S100000x128 ![] bcast_S_S100000x128 : (⟨S_, .f32⟩ : BufTy).Contents (Elt F) → (⟨S100000x128, .f32⟩ : BufTy).Contents (Elt F)),
    StableHlo.unary main_v272 main_v309 (broadcastInDim S600000x1 ![0] bcast_S600000_S600000x1_0 : (⟨S600000, .i32⟩ : BufTy).Contents (Elt F) → (⟨S600000x1, .i32⟩ : BufTy).Contents (Elt F)),
    StableHlo.ternary main_v308 main_v309 main_v307 main_v310 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_v307 main_v311 ((extractStridedSlice S600000x1 ![0, 0] · slices_S600000x128_S600000x1_0_0) : (⟨S600000x128, .f32⟩ : BufTy).Contents (Elt F) → (⟨S600000x1, .f32⟩ : BufTy).Contents (Elt F)),
    StableHlo.nullary main_cst_60 (constant S_ .f32 0x3F800000#32),
    StableHlo.unary main_cst_60 main_v312 (broadcastInDim S600000x1 ![] bcast_S_S600000x1 : (⟨S_, .f32⟩ : BufTy).Contents (Elt F) → (⟨S600000x1, .f32⟩ : BufTy).Contents (Elt F)),
    StableHlo.nullary main_cst_61 (constant S_ .f32 0x00000000#32),
    StableHlo.unary main_cst_61 main_v313 (broadcastInDim S100000x1 ![] bcast_S_S100000x1 : (⟨S_, .f32⟩ : BufTy).Contents (Elt F) → (⟨S100000x1, .f32⟩ : BufTy).Contents (Elt F)),
    StableHlo.unary main_v272 main_v314 (broadcastInDim S600000x1 ![0] bcast_S600000_S600000x1_0 : (⟨S600000, .i32⟩ : BufTy).Contents (Elt F) → (⟨S600000x1, .i32⟩ : BufTy).Contents (Elt F)),
    StableHlo.ternary main_v313 main_v314 main_v312 main_v315 ((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)),
    StableHlo.nullary main_cst_62 (constant S_ .f32 0x3F800000#32),
    StableHlo.unary main_cst_62 main_v316 (broadcastInDim S100000x1 ![] bcast_S_S100000x1 : (⟨S_, .f32⟩ : BufTy).Contents (Elt F) → (⟨S100000x1, .f32⟩ : BufTy).Contents (Elt F)),
    StableHlo.binary main_v315 main_v316 main_v317 (maximumf : (⟨S100000x1, .f32⟩ : BufTy).Contents (Elt F) → (⟨S100000x1, .f32⟩ : BufTy).Contents (Elt F) → (⟨S100000x1, .f32⟩ : BufTy).Contents (Elt F)),
    StableHlo.unary main_v317 main_v318 (broadcastInDim S100000x128 ![0, 1] bcast_S100000x1_S100000x128_0_1 : (⟨S100000x1, .f32⟩ : BufTy).Contents (Elt F) → (⟨S100000x128, .f32⟩ : BufTy).Contents (Elt F)),
    StableHlo.binary main_v310 main_v318 main_v319 (Host.divf : (⟨S100000x128, .f32⟩ : BufTy).Contents (Elt F) → (⟨S100000x128, .f32⟩ : BufTy).Contents (Elt F) → (⟨S100000x128, .f32⟩ : BufTy).Contents (Elt F)) ]

/-- The buffers `ch29` writes, in order. -/
abbrev ch29_W : List (Ref sig .tc) := [main_cst_59, main_v308, main_v309, main_v310, main_v311, main_cst_60, main_v312, main_cst_61, main_v313, main_v314, main_v315, main_cst_62, main_v316, main_v317, main_v318, main_v319]

theorem ch29_writes : (ch29 : List (HloOp τ sig (Elt F))).Forall fun op => op.writes ⊆ (ch29_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch29_sub : (ch29 : List (HloOp τ sig (Elt F))).Forall fun op => op.bufs ⊆ tcRefs τ sig :=
  ⟨nullary_bufs_sub .., unary_bufs_sub .., unary_bufs_sub .., ternary_bufs_sub .., unary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩

theorem ch29_fresh : ∀ op ∈ (ch29 : List (HloOp τ sig (Elt F))), op.fresh = ∅ := by
  intro _ h; (repeat (cases h with | head => rfl | tail _ h => ?_)); exact nomatch h

/-- Operations 439 … 451 of @main (calls written out), ending at `main_v326`. -/
abbrev ch30 : List (HloOp τ sig (Elt F)) :=
  [ StableHlo.binary main_v267 main_v319 main_v320 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v320 main_arg20 main_v321 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg21 main_v322 (broadcastInDim S1x128 ![1] bcast_S128_S1x128_1 : (⟨S128, .f32⟩ : BufTy).Contents (Elt F) → (⟨S1x128, .f32⟩ : BufTy).Contents (Elt F)),
    StableHlo.unary main_v322 main_v323 (broadcastInDim S100000x128 ![0, 1] bcast_S1x128_S100000x128_0_1 : (⟨S1x128, .f32⟩ : BufTy).Contents (Elt F) → (⟨S100000x128, .f32⟩ : BufTy).Contents (Elt F)),
    StableHlo.binary main_v321 main_v323 main_v324 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v324) main_call9.v0 main_call9.v1 (cmpf .oge),
    StableHlo.TRef.nullary main_call9.cst_0 (constant S_ .f32 0x3C23D70A#32),
    StableHlo.TRef.unary main_call9.cst_0 main_call9.v2 (broadcastInDim S100000x128 ![] bcast_S_S100000x128),
    StableHlo.TRef.binary main_call9.v2 (.of main_v324) main_call9.v3 mulf,
    StableHlo.TRef.ternary main_call9.v1 (.of main_v324) main_call9.v3 main_call9.call0.v0 select,
    StableHlo.binary main_v267 main_v325 main_v326 (addf : (⟨S100000x128, .f32⟩ : BufTy).Contents (Elt F) → (⟨S100000x128, .f32⟩ : BufTy).Contents (Elt F) → (⟨S100000x128, .f32⟩ : BufTy).Contents (Elt F)) ]

/-- The buffers `ch30` writes, in order. -/
abbrev ch30_W : List (Ref sig .tc) := [main_v320, main_v321, main_v322, main_v323, main_v324, main_call9_cst, main_call9_v0, main_call9_v1, main_call9_cst_0, main_call9_v2, main_call9_v3, main_v325, main_v326]

theorem ch30_writes : (ch30 : List (HloOp τ sig (Elt F))).Forall fun op => op.writes ⊆ (ch30_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ch30_sub : (ch30 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩

theorem ch30_fresh : ∀ op ∈ (ch30 : List (HloOp τ sig (Elt F))), op.fresh = ∅ := by
  intro _ h; (repeat (cases h with | head => rfl | tail _ h => ?_)); exact nomatch h

/-- Window 6's operations: its lists in order. -/
abbrev opsW6 : List (HloOp τ sig (Elt F)) := ch28 ++ (ch29 ++ (ch30))

set_option maxRecDepth 4096 in
set_option maxHeartbeats 4000000 in
/-- Window 6 of @main is that straight line: the called functions unfolded at their calls and sequencing reassociated. -/
theorem part6_eq (c : Dev nD) : main_part6 (F := F) c = seq opsW6 := by
  simp only [main_part6, fn_leaky_relu_4.body, fn_where_5.body, fn_leaky_relu_2.body, fn_where_3.body, ch28, ch29, ch30, List.cons_append, List.nil_append, seq, bind_assoc, pure_bind]
  all_goals rfl

theorem opsW6_sub : (opsW6 : List (HloOp τ sig (Elt F))).Forall fun op => op.bufs ⊆ tcRefs τ sig :=
  forall_append' ch28_sub (forall_append' ch29_sub (ch30_sub))

theorem opsW6_fresh : ∀ op ∈ (opsW6 : List (HloOp τ sig (Elt F))), op.fresh = ∅ :=
  mem_append' ch28_fresh (mem_append' ch29_fresh (ch30_fresh))

end Cert.ReferenceIdeal.RefRun

end
-- ==== Proof.Ref.Run.lean ====
/- The reference program's run, assembled: @main is the windows' operation lists run in order; every weakly fair execution
   ends with each buffer at the fold of the operations' results over the launch contents; the contents after each list,
   and that a buffer no later list writes keeps what it had (each buffer is written once), so the arguments are unchanged. -/
import proofs.«173394_j29068338659455_2_alg».proof.Proof.Ref.W0
import proofs.«173394_j29068338659455_2_alg».proof.Proof.Ref.W1
import proofs.«173394_j29068338659455_2_alg».proof.Proof.Ref.W2
import proofs.«173394_j29068338659455_2_alg».proof.Proof.Ref.W3
import proofs.«173394_j29068338659455_2_alg».proof.Proof.Ref.W4
import proofs.«173394_j29068338659455_2_alg».proof.Proof.Ref.W5
import proofs.«173394_j29068338659455_2_alg».proof.Proof.Ref.W6

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 452 operations, in order (the called functions' written out at their calls). -/
abbrev ops : List (HloOp τ sig (Elt F)) := opsW0 ++ (opsW1 ++ (opsW2 ++ (opsW3 ++ (opsW4 ++ (opsW5 ++ (opsW6))))))

theorem main_eq (c : Dev nD) : main (F := F) c = seq ops := by
  show (main_part0 c >>= fun _ => main_part1 c >>= fun _ => main_part2 c >>= fun _ => main_part3 c >>= fun _ =>
    main_part4 c >>= fun _ => main_part5 c >>= fun _ => main_part6 c) = _
  rw [part0_eq, part1_eq, part2_eq, part3_eq, part4_eq, part5_eq, part6_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append' opsW0_sub (forall_append' opsW1_sub (forall_append' opsW2_sub (forall_append' opsW3_sub (forall_append' opsW4_sub (forall_append' opsW5_sub (opsW6_sub))))))

theorem ops_fresh : ∀ op ∈ (ops : List (HloOp τ sig (Elt F))), op.fresh = ∅ :=
  mem_append' opsW0_fresh (mem_append' opsW1_fresh (mem_append' opsW2_fresh (mem_append' opsW3_fresh (mem_append' opsW4_fresh (mem_append' opsW5_fresh (opsW6_fresh))))))

/-- On every device, for any float values, from any memory with zero counters: every weakly fair execution of @main
    terminates, and every final state has each buffer at the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The contents after each list -/

/-- The contents after the lists up to `ch00`. -/
def val_ch00 (V : Valuation τ sig (Elt F)) : Valuation τ sig (Elt F) := after ch00 V
theorem val_ch00_keep (V : Valuation τ sig (Elt F)) (r : Ref sig .tc) (h : r ∉ ch00_W) :
    val_ch00 V (Proc.devRef .tc r) = V (Proc.devRef .tc r) :=
  after_of_writes_sub ch00 _ ch00_writes h

/-- The contents after the lists up to `ch01`. -/
def val_ch01 (V : Valuation τ sig (Elt F)) : Valuation τ sig (Elt F) := after ch01 (val_ch00 V)
theorem val_ch01_keep (V : Valuation τ sig (Elt F)) (r : Ref sig .tc) (h : r ∉ ch01_W) :
    val_ch01 V (Proc.devRef .tc r) = val_ch00 V (Proc.devRef .tc r) :=
  after_of_writes_sub ch01 _ ch01_writes h

/-- The contents after the lists up to `ch02`. -/
def val_ch02 (V : Valuation τ sig (Elt F)) : Valuation τ sig (Elt F) := after ch02 (val_ch01 V)
theorem val_ch02_keep (V : Valuation τ sig (Elt F)) (r : Ref sig .tc) (h : r ∉ ch02_W) :
    val_ch02 V (Proc.devRef .tc r) = val_ch01 V (Proc.devRef .tc r) :=
  after_of_writes_sub ch02 _ ch02_writes h

/-- The contents after the lists up to `ch03`. -/
def val_ch03 (V : Valuation τ sig (Elt F)) : Valuation τ sig (Elt F) := after ch03 (val_ch02 V)
theorem val_ch03_keep (V : Valuation τ sig (Elt F)) (r : Ref sig .tc) (h : r ∉ ch03_W) :
    val_ch03 V (Proc.devRef .tc r) = val_ch02 V (Proc.devRef .tc r) :=
  after_of_writes_sub ch03 _ ch03_writes h

/-- The contents after the lists up to `ch04`. -/
def val_ch04 (V : Valuation τ sig (Elt F)) : Valuation τ sig (Elt F) := after ch04 (val_ch03 V)
theorem val_ch04_keep (V : Valuation τ sig (Elt F)) (r : Ref sig .tc) (h : r ∉ ch04_W) :
    val_ch04 V (Proc.devRef .tc r) = val_ch03 V (Proc.devRef .tc r) :=
  after_of_writes_sub ch04 _ ch04_writes h

/-- The contents after the lists up to `ch05`. -/
def val_ch05 (V : Valuation τ sig (Elt F)) : Valuation τ sig (Elt F) := after ch05 (val_ch04 V)
theorem val_ch05_keep (V : Valuation τ sig (Elt F)) (r : Ref sig .tc) (h : r ∉ ch05_W) :
    val_ch05 V (Proc.devRef .tc r) = val_ch04 V (Proc.devRef .tc r) :=
  after_of_writes_sub ch05 _ ch05_writes h

/-- The contents after the lists up to `ch06`. -/
def val_ch06 (V : Valuation τ sig (Elt F)) : Valuation τ sig (Elt F) := after ch06 (val_ch05 V)
theorem val_ch06_keep (V : Valuation τ sig (Elt F)) (r : Ref sig .tc) (h : r ∉ ch06_W) :
    val_ch06 V (Proc.devRef .tc r) = val_ch05 V (Proc.devRef .tc r) :=
  after_of_writes_sub ch06 _ ch06_writes h

/-- The contents after the lists up to `ch07`. -/
def val_ch07 (V : Valuation τ sig (Elt F)) : Valuation τ sig (Elt F) := after ch07 (val_ch06 V)
theorem val_ch07_keep (V : Valuation τ sig (Elt F)) (r : Ref sig .tc) (h : r ∉ ch07_W) :
    val_ch07 V (Proc.devRef .tc r) = val_ch06 V (Proc.devRef .tc r) :=
  after_of_writes_sub ch07 _ ch07_writes h

/-- The contents after the lists up to `ch08`. -/
def val_ch08 (V : Valuation τ sig (Elt F)) : Valuation τ sig (Elt F) := after ch08 (val_ch07 V)
theorem val_ch08_keep (V : Valuation τ sig (Elt F)) (r : Ref sig .tc) (h : r ∉ ch08_W) :
    val_ch08 V (Proc.devRef .tc r) = val_ch07 V (Proc.devRef .tc r) :=
  after_of_writes_sub ch08 _ ch08_writes h

/-- The contents after the lists up to `ch09`. -/
def val_ch09 (V : Valuation τ sig (Elt F)) : Valuation τ sig (Elt F) := after ch09 (val_ch08 V)
theorem val_ch09_keep (V : Valuation τ sig (Elt F)) (r : Ref sig .tc) (h : r ∉ ch09_W) :
    val_ch09 V (Proc.devRef .tc r) = val_ch08 V (Proc.devRef .tc r) :=
  after_of_writes_sub ch09 _ ch09_writes h

/-- The contents after the lists up to `ch10`. -/
def val_ch10 (V : Valuation τ sig (Elt F)) : Valuation τ sig (Elt F) := after ch10 (val_ch09 V)
theorem val_ch10_keep (V : Valuation τ sig (Elt F)) (r : Ref sig .tc) (h : r ∉ ch10_W) :
    val_ch10 V (Proc.devRef .tc r) = val_ch09 V (Proc.devRef .tc r) :=
  after_of_writes_sub ch10 _ ch10_writes h

/-- The contents after the lists up to `ch11`. -/
def val_ch11 (V : Valuation τ sig (Elt F)) : Valuation τ sig (Elt F) := after ch11 (val_ch10 V)
theorem val_ch11_keep (V : Valuation τ sig (Elt F)) (r : Ref sig .tc) (h : r ∉ ch11_W) :
    val_ch11 V (Proc.devRef .tc r) = val_ch10 V (Proc.devRef .tc r) :=
  after_of_writes_sub ch11 _ ch11_writes h

/-- The contents after the lists up to `ch12`. -/
def val_ch12 (V : Valuation τ sig (Elt F)) : Valuation τ sig (Elt F) := after ch12 (val_ch11 V)
theorem val_ch12_keep (V : Valuation τ sig (Elt F)) (r : Ref sig .tc) (h : r ∉ ch12_W) :
    val_ch12 V (Proc.devRef .tc r) = val_ch11 V (Proc.devRef .tc r) :=
  after_of_writes_sub ch12 _ ch12_writes h

/-- The contents after the lists up to `ch13`. -/
def val_ch13 (V : Valuation τ sig (Elt F)) : Valuation τ sig (Elt F) := after ch13 (val_ch12 V)
theorem val_ch13_keep (V : Valuation τ sig (Elt F)) (r : Ref sig .tc) (h : r ∉ ch13_W) :
    val_ch13 V (Proc.devRef .tc r) = val_ch12 V (Proc.devRef .tc r) :=
  after_of_writes_sub ch13 _ ch13_writes h

/-- The contents after the lists up to `ch14`. -/
def val_ch14 (V : Valuation τ sig (Elt F)) : Valuation τ sig (Elt F) := after ch14 (val_ch13 V)
theorem val_ch14_keep (V : Valuation τ sig (Elt F)) (r : Ref sig .tc) (h : r ∉ ch14_W) :
    val_ch14 V (Proc.devRef .tc r) = val_ch13 V (Proc.devRef .tc r) :=
  after_of_writes_sub ch14 _ ch14_writes h

/-- The contents after the lists up to `ch15`. -/
def val_ch15 (V : Valuation τ sig (Elt F)) : Valuation τ sig (Elt F) := after ch15 (val_ch14 V)
theorem val_ch15_keep (V : Valuation τ sig (Elt F)) (r : Ref sig .tc) (h : r ∉ ch15_W) :
    val_ch15 V (Proc.devRef .tc r) = val_ch14 V (Proc.devRef .tc r) :=
  after_of_writes_sub ch15 _ ch15_writes h

/-- The contents after the lists up to `ch16`. -/
def val_ch16 (V : Valuation τ sig (Elt F)) : Valuation τ sig (Elt F) := after ch16 (val_ch15 V)
theorem val_ch16_keep (V : Valuation τ sig (Elt F)) (r : Ref sig .tc) (h : r ∉ ch16_W) :
    val_ch16 V (Proc.devRef .tc r) = val_ch15 V (Proc.devRef .tc r) :=
  after_of_writes_sub ch16 _ ch16_writes h

/-- The contents after the lists up to `ch17`. -/
def val_ch17 (V : Valuation τ sig (Elt F)) : Valuation τ sig (Elt F) := after ch17 (val_ch16 V)
theorem val_ch17_keep (V : Valuation τ sig (Elt F)) (r : Ref sig .tc) (h : r ∉ ch17_W) :
    val_ch17 V (Proc.devRef .tc r) = val_ch16 V (Proc.devRef .tc r) :=
  after_of_writes_sub ch17 _ ch17_writes h

/-- The contents after the lists up to `ch18`. -/
def val_ch18 (V : Valuation τ sig (Elt F)) : Valuation τ sig (Elt F) := after ch18 (val_ch17 V)
theorem val_ch18_keep (V : Valuation τ sig (Elt F)) (r : Ref sig .tc) (h : r ∉ ch18_W) :
    val_ch18 V (Proc.devRef .tc r) = val_ch17 V (Proc.devRef .tc r) :=
  after_of_writes_sub ch18 _ ch18_writes h

/-- The contents after the lists up to `ch19`. -/
def val_ch19 (V : Valuation τ sig (Elt F)) : Valuation τ sig (Elt F) := after ch19 (val_ch18 V)
theorem val_ch19_keep (V : Valuation τ sig (Elt F)) (r : Ref sig .tc) (h : r ∉ ch19_W) :
    val_ch19 V (Proc.devRef .tc r) = val_ch18 V (Proc.devRef .tc r) :=
  after_of_writes_sub ch19 _ ch19_writes h

/-- The contents after the lists up to `ch20`. -/
def val_ch20 (V : Valuation τ sig (Elt F)) : Valuation τ sig (Elt F) := after ch20 (val_ch19 V)
theorem val_ch20_keep (V : Valuation τ sig (Elt F)) (r : Ref sig .tc) (h : r ∉ ch20_W) :
    val_ch20 V (Proc.devRef .tc r) = val_ch19 V (Proc.devRef .tc r) :=
  after_of_writes_sub ch20 _ ch20_writes h

/-- The contents after the lists up to `ch21`. -/
def val_ch21 (V : Valuation τ sig (Elt F)) : Valuation τ sig (Elt F) := after ch21 (val_ch20 V)
theorem val_ch21_keep (V : Valuation τ sig (Elt F)) (r : Ref sig .tc) (h : r ∉ ch21_W) :
    val_ch21 V (Proc.devRef .tc r) = val_ch20 V (Proc.devRef .tc r) :=
  after_of_writes_sub ch21 _ ch21_writes h

/-- The contents after the lists up to `ch22`. -/
def val_ch22 (V : Valuation τ sig (Elt F)) : Valuation τ sig (Elt F) := after ch22 (val_ch21 V)
theorem val_ch22_keep (V : Valuation τ sig (Elt F)) (r : Ref sig .tc) (h : r ∉ ch22_W) :
    val_ch22 V (Proc.devRef .tc r) = val_ch21 V (Proc.devRef .tc r) :=
  after_of_writes_sub ch22 _ ch22_writes h

/-- The contents after the lists up to `ch23`. -/
def val_ch23 (V : Valuation τ sig (Elt F)) : Valuation τ sig (Elt F) := after ch23 (val_ch22 V)
theorem val_ch23_keep (V : Valuation τ sig (Elt F)) (r : Ref sig .tc) (h : r ∉ ch23_W) :
    val_ch23 V (Proc.devRef .tc r) = val_ch22 V (Proc.devRef .tc r) :=
  after_of_writes_sub ch23 _ ch23_writes h

/-- The contents after the lists up to `ch24`. -/
def val_ch24 (V : Valuation τ sig (Elt F)) : Valuation τ sig (Elt F) := after ch24 (val_ch23 V)
theorem val_ch24_keep (V : Valuation τ sig (Elt F)) (r : Ref sig .tc) (h : r ∉ ch24_W) :
    val_ch24 V (Proc.devRef .tc r) = val_ch23 V (Proc.devRef .tc r) :=
  after_of_writes_sub ch24 _ ch24_writes h

/-- The contents after the lists up to `ch25`. -/
def val_ch25 (V : Valuation τ sig (Elt F)) : Valuation τ sig (Elt F) := after ch25 (val_ch24 V)
theorem val_ch25_keep (V : Valuation τ sig (Elt F)) (r : Ref sig .tc) (h : r ∉ ch25_W) :
    val_ch25 V (Proc.devRef .tc r) = val_ch24 V (Proc.devRef .tc r) :=
  after_of_writes_sub ch25 _ ch25_writes h

/-- The contents after the lists up to `ch26`. -/
def val_ch26 (V : Valuation τ sig (Elt F)) : Valuation τ sig (Elt F) := after ch26 (val_ch25 V)
theorem val_ch26_keep (V : Valuation τ sig (Elt F)) (r : Ref sig .tc) (h : r ∉ ch26_W) :
    val_ch26 V (Proc.devRef .tc r) = val_ch25 V (Proc.devRef .tc r) :=
  after_of_writes_sub ch26 _ ch26_writes h

/-- The contents after the lists up to `ch27`. -/
def val_ch27 (V : Valuation τ sig (Elt F)) : Valuation τ sig (Elt F) := after ch27 (val_ch26 V)
theorem val_ch27_keep (V : Valuation τ sig (Elt F)) (r : Ref sig .tc) (h : r ∉ ch27_W) :
    val_ch27 V (Proc.devRef .tc r) = val_ch26 V (Proc.devRef .tc r) :=
  after_of_writes_sub ch27 _ ch27_writes h

/-- The contents after the lists up to `ch28`. -/
def val_ch28 (V : Valuation τ sig (Elt F)) : Valuation τ sig (Elt F) := after ch28 (val_ch27 V)
theorem val_ch28_keep (V : Valuation τ sig (Elt F)) (r : Ref sig .tc) (h : r ∉ ch28_W) :
    val_ch28 V (Proc.devRef .tc r) = val_ch27 V (Proc.devRef .tc r) :=
  after_of_writes_sub ch28 _ ch28_writes h

/-- The contents after the lists up to `ch29`. -/
def val_ch29 (V : Valuation τ sig (Elt F)) : Valuation τ sig (Elt F) := after ch29 (val_ch28 V)
theorem val_ch29_keep (V : Valuation τ sig (Elt F)) (r : Ref sig .tc) (h : r ∉ ch29_W) :
    val_ch29 V (Proc.devRef .tc r) = val_ch28 V (Proc.devRef .tc r) :=
  after_of_writes_sub ch29 _ ch29_writes h

/-- The contents after the lists up to `ch30`. -/
def val_ch30 (V : Valuation τ sig (Elt F)) : Valuation τ sig (Elt F) := after ch30 (val_ch29 V)
theorem val_ch30_keep (V : Valuation τ sig (Elt F)) (r : Ref sig .tc) (h : r ∉ ch30_W) :
    val_ch30 V (Proc.devRef .tc r) = val_ch29 V (Proc.devRef .tc r) :=
  after_of_writes_sub ch30 _ ch30_writes h

/-- The fold over all of @main's operations is the last of these. -/
theorem after_ops (V : Valuation τ sig (Elt F)) : after ops V = val_ch30 V := by
  simp only [ops, opsW0, opsW1, opsW2, opsW3, opsW4, opsW5, opsW6, after_append]
  rfl

/-! ## What the later lists write, and that a buffer none of them writes has its final contents already -/

abbrev T_ch30 : List (Ref sig .tc) := []
theorem tail_ch30 (V : Valuation τ sig (Elt F)) (r : Ref sig .tc) (h : r ∉ T_ch30) :
    val_ch30 V (Proc.devRef .tc r) = val_ch30 V (Proc.devRef .tc r) := rfl

/-- The buffers the lists after `ch29` write. -/
abbrev T_ch29 : List (Ref sig .tc) := ch30_W ++ T_ch30
theorem tail_ch29 (V : Valuation τ sig (Elt F)) (r : Ref sig .tc) (h : r ∉ T_ch29) :
    val_ch30 V (Proc.devRef .tc r) = val_ch29 V (Proc.devRef .tc r) :=
  (tail_ch30 V r fun hm => h (List.mem_append_right _ hm)).trans (val_ch30_keep V r fun hm => h (List.mem_append_left _ hm))

/-- The buffers the lists after `ch28` write. -/
abbrev T_ch28 : List (Ref sig .tc) := ch29_W ++ T_ch29
theorem tail_ch28 (V : Valuation τ sig (Elt F)) (r : Ref sig .tc) (h : r ∉ T_ch28) :
    val_ch30 V (Proc.devRef .tc r) = val_ch28 V (Proc.devRef .tc r) :=
  (tail_ch29 V r fun hm => h (List.mem_append_right _ hm)).trans (val_ch29_keep V r fun hm => h (List.mem_append_left _ hm))

/-- The buffers the lists after `ch27` write. -/
abbrev T_ch27 : List (Ref sig .tc) := ch28_W ++ T_ch28
theorem tail_ch27 (V : Valuation τ sig (Elt F)) (r : Ref sig .tc) (h : r ∉ T_ch27) :
    val_ch30 V (Proc.devRef .tc r) = val_ch27 V (Proc.devRef .tc r) :=
  (tail_ch28 V r fun hm => h (List.mem_append_right _ hm)).trans (val_ch28_keep V r fun hm => h (List.mem_append_left _ hm))

/-- The buffers the lists after `ch26` write. -/
abbrev T_ch26 : List (Ref sig .tc) := ch27_W ++ T_ch27
theorem tail_ch26 (V : Valuation τ sig (Elt F)) (r : Ref sig .tc) (h : r ∉ T_ch26) :
    val_ch30 V (Proc.devRef .tc r) = val_ch26 V (Proc.devRef .tc r) :=
  (tail_ch27 V r fun hm => h (List.mem_append_right _ hm)).trans (val_ch27_keep V r fun hm => h (List.mem_append_left _ hm))

/-- The buffers the lists after `ch25` write. -/
abbrev T_ch25 : List (Ref sig .tc) := ch26_W ++ T_ch26
theorem tail_ch25 (V : Valuation τ sig (Elt F)) (r : Ref sig .tc) (h : r ∉ T_ch25) :
    val_ch30 V (Proc.devRef .tc r) = val_ch25 V (Proc.devRef .tc r) :=
  (tail_ch26 V r fun hm => h (List.mem_append_right _ hm)).trans (val_ch26_keep V r fun hm => h (List.mem_append_left _ hm))

/-- The buffers the lists after `ch24` write. -/
abbrev T_ch24 : List (Ref sig .tc) := ch25_W ++ T_ch25
theorem tail_ch24 (V : Valuation τ sig (Elt F)) (r : Ref sig .tc) (h : r ∉ T_ch24) :
    val_ch30 V (Proc.devRef .tc r) = val_ch24 V (Proc.devRef .tc r) :=
  (tail_ch25 V r fun hm => h (List.mem_append_right _ hm)).trans (val_ch25_keep V r fun hm => h (List.mem_append_left _ hm))

/-- The buffers the lists after `ch23` write. -/
abbrev T_ch23 : List (Ref sig .tc) := ch24_W ++ T_ch24
theorem tail_ch23 (V : Valuation τ sig (Elt F)) (r : Ref sig .tc) (h : r ∉ T_ch23) :
    val_ch30 V (Proc.devRef .tc r) = val_ch23 V (Proc.devRef .tc r) :=
  (tail_ch24 V r fun hm => h (List.mem_append_right _ hm)).trans (val_ch24_keep V r fun hm => h (List.mem_append_left _ hm))

/-- The buffers the lists after `ch22` write. -/
abbrev T_ch22 : List (Ref sig .tc) := ch23_W ++ T_ch23
theorem tail_ch22 (V : Valuation τ sig (Elt F)) (r : Ref sig .tc) (h : r ∉ T_ch22) :
    val_ch30 V (Proc.devRef .tc r) = val_ch22 V (Proc.devRef .tc r) :=
  (tail_ch23 V r fun hm => h (List.mem_append_right _ hm)).trans (val_ch23_keep V r fun hm => h (List.mem_append_left _ hm))

/-- The buffers the lists after `ch21` write. -/
abbrev T_ch21 : List (Ref sig .tc) := ch22_W ++ T_ch22
theorem tail_ch21 (V : Valuation τ sig (Elt F)) (r : Ref sig .tc) (h : r ∉ T_ch21) :
    val_ch30 V (Proc.devRef .tc r) = val_ch21 V (Proc.devRef .tc r) :=
  (tail_ch22 V r fun hm => h (List.mem_append_right _ hm)).trans (val_ch22_keep V r fun hm => h (List.mem_append_left _ hm))

/-- The buffers the lists after `ch20` write. -/
abbrev T_ch20 : List (Ref sig .tc) := ch21_W ++ T_ch21
theorem tail_ch20 (V : Valuation τ sig (Elt F)) (r : Ref sig .tc) (h : r ∉ T_ch20) :
    val_ch30 V (Proc.devRef .tc r) = val_ch20 V (Proc.devRef .tc r) :=
  (tail_ch21 V r fun hm => h (List.mem_append_right _ hm)).trans (val_ch21_keep V r fun hm => h (List.mem_append_left _ hm))

/-- The buffers the lists after `ch19` write. -/
abbrev T_ch19 : List (Ref sig .tc) := ch20_W ++ T_ch20
theorem tail_ch19 (V : Valuation τ sig (Elt F)) (r : Ref sig .tc) (h : r ∉ T_ch19) :
    val_ch30 V (Proc.devRef .tc r) = val_ch19 V (Proc.devRef .tc r) :=
  (tail_ch20 V r fun hm => h (List.mem_append_right _ hm)).trans (val_ch20_keep V r fun hm => h (List.mem_append_left _ hm))

/-- The buffers the lists after `ch18` write. -/
abbrev T_ch18 : List (Ref sig .tc) := ch19_W ++ T_ch19
theorem tail_ch18 (V : Valuation τ sig (Elt F)) (r : Ref sig .tc) (h : r ∉ T_ch18) :
    val_ch30 V (Proc.devRef .tc r) = val_ch18 V (Proc.devRef .tc r) :=
  (tail_ch19 V r fun hm => h (List.mem_append_right _ hm)).trans (val_ch19_keep V r fun hm => h (List.mem_append_left _ hm))

/-- The buffers the lists after `ch17` write. -/
abbrev T_ch17 : List (Ref sig .tc) := ch18_W ++ T_ch18
theorem tail_ch17 (V : Valuation τ sig (Elt F)) (r : Ref sig .tc) (h : r ∉ T_ch17) :
    val_ch30 V (Proc.devRef .tc r) = val_ch17 V (Proc.devRef .tc r) :=
  (tail_ch18 V r fun hm => h (List.mem_append_right _ hm)).trans (val_ch18_keep V r fun hm => h (List.mem_append_left _ hm))

/-- The buffers the lists after `ch16` write. -/
abbrev T_ch16 : List (Ref sig .tc) := ch17_W ++ T_ch17
theorem tail_ch16 (V : Valuation τ sig (Elt F)) (r : Ref sig .tc) (h : r ∉ T_ch16) :
    val_ch30 V (Proc.devRef .tc r) = val_ch16 V (Proc.devRef .tc r) :=
  (tail_ch17 V r fun hm => h (List.mem_append_right _ hm)).trans (val_ch17_keep V r fun hm => h (List.mem_append_left _ hm))

/-- The buffers the lists after `ch15` write. -/
abbrev T_ch15 : List (Ref sig .tc) := ch16_W ++ T_ch16
theorem tail_ch15 (V : Valuation τ sig (Elt F)) (r : Ref sig .tc) (h : r ∉ T_ch15) :
    val_ch30 V (Proc.devRef .tc r) = val_ch15 V (Proc.devRef .tc r) :=
  (tail_ch16 V r fun hm => h (List.mem_append_right _ hm)).trans (val_ch16_keep V r fun hm => h (List.mem_append_left _ hm))

/-- The buffers the lists after `ch14` write. -/
abbrev T_ch14 : List (Ref sig .tc) := ch15_W ++ T_ch15
theorem tail_ch14 (V : Valuation τ sig (Elt F)) (r : Ref sig .tc) (h : r ∉ T_ch14) :
    val_ch30 V (Proc.devRef .tc r) = val_ch14 V (Proc.devRef .tc r) :=
  (tail_ch15 V r fun hm => h (List.mem_append_right _ hm)).trans (val_ch15_keep V r fun hm => h (List.mem_append_left _ hm))

/-- The buffers the lists after `ch13` write. -/
abbrev T_ch13 : List (Ref sig .tc) := ch14_W ++ T_ch14
theorem tail_ch13 (V : Valuation τ sig (Elt F)) (r : Ref sig .tc) (h : r ∉ T_ch13) :
    val_ch30 V (Proc.devRef .tc r) = val_ch13 V (Proc.devRef .tc r) :=
  (tail_ch14 V r fun hm => h (List.mem_append_right _ hm)).trans (val_ch14_keep V r fun hm => h (List.mem_append_left _ hm))

/-- The buffers the lists after `ch12` write. -/
abbrev T_ch12 : List (Ref sig .tc) := ch13_W ++ T_ch13
theorem tail_ch12 (V : Valuation τ sig (Elt F)) (r : Ref sig .tc) (h : r ∉ T_ch12) :
    val_ch30 V (Proc.devRef .tc r) = val_ch12 V (Proc.devRef .tc r) :=
  (tail_ch13 V r fun hm => h (List.mem_append_right _ hm)).trans (val_ch13_keep V r fun hm => h (List.mem_append_left _ hm))

/-- The buffers the lists after `ch11` write. -/
abbrev T_ch11 : List (Ref sig .tc) := ch12_W ++ T_ch12
theorem tail_ch11 (V : Valuation τ sig (Elt F)) (r : Ref sig .tc) (h : r ∉ T_ch11) :
    val_ch30 V (Proc.devRef .tc r) = val_ch11 V (Proc.devRef .tc r) :=
  (tail_ch12 V r fun hm => h (List.mem_append_right _ hm)).trans (val_ch12_keep V r fun hm => h (List.mem_append_left _ hm))

/-- The buffers the lists after `ch10` write. -/
abbrev T_ch10 : List (Ref sig .tc) := ch11_W ++ T_ch11
theorem tail_ch10 (V : Valuation τ sig (Elt F)) (r : Ref sig .tc) (h : r ∉ T_ch10) :
    val_ch30 V (Proc.devRef .tc r) = val_ch10 V (Proc.devRef .tc r) :=
  (tail_ch11 V r fun hm => h (List.mem_append_right _ hm)).trans (val_ch11_keep V r fun hm => h (List.mem_append_left _ hm))

/-- The buffers the lists after `ch09` write. -/
abbrev T_ch09 : List (Ref sig .tc) := ch10_W ++ T_ch10
theorem tail_ch09 (V : Valuation τ sig (Elt F)) (r : Ref sig .tc) (h : r ∉ T_ch09) :
    val_ch30 V (Proc.devRef .tc r) = val_ch09 V (Proc.devRef .tc r) :=
  (tail_ch10 V r fun hm => h (List.mem_append_right _ hm)).trans (val_ch10_keep V r fun hm => h (List.mem_append_left _ hm))

/-- The buffers the lists after `ch08` write. -/
abbrev T_ch08 : List (Ref sig .tc) := ch09_W ++ T_ch09
theorem tail_ch08 (V : Valuation τ sig (Elt F)) (r : Ref sig .tc) (h : r ∉ T_ch08) :
    val_ch30 V (Proc.devRef .tc r) = val_ch08 V (Proc.devRef .tc r) :=
  (tail_ch09 V r fun hm => h (List.mem_append_right _ hm)).trans (val_ch09_keep V r fun hm => h (List.mem_append_left _ hm))

/-- The buffers the lists after `ch07` write. -/
abbrev T_ch07 : List (Ref sig .tc) := ch08_W ++ T_ch08
theorem tail_ch07 (V : Valuation τ sig (Elt F)) (r : Ref sig .tc) (h : r ∉ T_ch07) :
    val_ch30 V (Proc.devRef .tc r) = val_ch07 V (Proc.devRef .tc r) :=
  (tail_ch08 V r fun hm => h (List.mem_append_right _ hm)).trans (val_ch08_keep V r fun hm => h (List.mem_append_left _ hm))

/-- The buffers the lists after `ch06` write. -/
abbrev T_ch06 : List (Ref sig .tc) := ch07_W ++ T_ch07
theorem tail_ch06 (V : Valuation τ sig (Elt F)) (r : Ref sig .tc) (h : r ∉ T_ch06) :
    val_ch30 V (Proc.devRef .tc r) = val_ch06 V (Proc.devRef .tc r) :=
  (tail_ch07 V r fun hm => h (List.mem_append_right _ hm)).trans (val_ch07_keep V r fun hm => h (List.mem_append_left _ hm))

/-- The buffers the lists after `ch05` write. -/
abbrev T_ch05 : List (Ref sig .tc) := ch06_W ++ T_ch06
theorem tail_ch05 (V : Valuation τ sig (Elt F)) (r : Ref sig .tc) (h : r ∉ T_ch05) :
    val_ch30 V (Proc.devRef .tc r) = val_ch05 V (Proc.devRef .tc r) :=
  (tail_ch06 V r fun hm => h (List.mem_append_right _ hm)).trans (val_ch06_keep V r fun hm => h (List.mem_append_left _ hm))

/-- The buffers the lists after `ch04` write. -/
abbrev T_ch04 : List (Ref sig .tc) := ch05_W ++ T_ch05
theorem tail_ch04 (V : Valuation τ sig (Elt F)) (r : Ref sig .tc) (h : r ∉ T_ch04) :
    val_ch30 V (Proc.devRef .tc r) = val_ch04 V (Proc.devRef .tc r) :=
  (tail_ch05 V r fun hm => h (List.mem_append_right _ hm)).trans (val_ch05_keep V r fun hm => h (List.mem_append_left _ hm))

/-- The buffers the lists after `ch03` write. -/
abbrev T_ch03 : List (Ref sig .tc) := ch04_W ++ T_ch04
theorem tail_ch03 (V : Valuation τ sig (Elt F)) (r : Ref sig .tc) (h : r ∉ T_ch03) :
    val_ch30 V (Proc.devRef .tc r) = val_ch03 V (Proc.devRef .tc r) :=
  (tail_ch04 V r fun hm => h (List.mem_append_right _ hm)).trans (val_ch04_keep V r fun hm => h (List.mem_append_left _ hm))

/-- The buffers the lists after `ch02` write. -/
abbrev T_ch02 : List (Ref sig .tc) := ch03_W ++ T_ch03
theorem tail_ch02 (V : Valuation τ sig (Elt F)) (r : Ref sig .tc) (h : r ∉ T_ch02) :
    val_ch30 V (Proc.devRef .tc r) = val_ch02 V (Proc.devRef .tc r) :=
  (tail_ch03 V r fun hm => h (List.mem_append_right _ hm)).trans (val_ch03_keep V r fun hm => h (List.mem_append_left _ hm))

/-- The buffers the lists after `ch01` write. -/
abbrev T_ch01 : List (Ref sig .tc) := ch02_W ++ T_ch02
theorem tail_ch01 (V : Valuation τ sig (Elt F)) (r : Ref sig .tc) (h : r ∉ T_ch01) :
    val_ch30 V (Proc.devRef .tc r) = val_ch01 V (Proc.devRef .tc r) :=
  (tail_ch02 V r fun hm => h (List.mem_append_right _ hm)).trans (val_ch02_keep V r fun hm => h (List.mem_append_left _ hm))

/-- The buffers the lists after `ch00` write. -/
abbrev T_ch00 : List (Ref sig .tc) := ch01_W ++ T_ch01
theorem tail_ch00 (V : Valuation τ sig (Elt F)) (r : Ref sig .tc) (h : r ∉ T_ch00) :
    val_ch30 V (Proc.devRef .tc r) = val_ch00 V (Proc.devRef .tc r) :=
  (tail_ch01 V r fun hm => h (List.mem_append_right _ hm)).trans (val_ch01_keep V r fun hm => h (List.mem_append_left _ hm))

/-- Every buffer @main writes. -/
abbrev allW : List (Ref sig .tc) := ch00_W ++ T_ch00
/-- A buffer no operation writes keeps its launch contents. -/
theorem kept (V : Valuation τ sig (Elt F)) (r : Ref sig .tc) (h : r ∉ allW) :
    after ops V (Proc.devRef .tc r) = V (Proc.devRef .tc r) := by
  rw [after_ops]
  exact (tail_ch00 V r fun hm => h (List.mem_append_right _ hm)).trans (val_ch00_keep V r fun hm => h (List.mem_append_left _ hm))

/-! ## The arguments are unchanged -/
theorem arg_kept0 (V : Valuation τ sig (Elt F)) : after ops V (Proc.devRef .tc main_arg0) = V (Proc.devRef .tc main_arg0) := kept V main_arg0 (by decide)
theorem arg_kept1 (V : Valuation τ sig (Elt F)) : after ops V (Proc.devRef .tc main_arg1) = V (Proc.devRef .tc main_arg1) := kept V main_arg1 (by decide)
theorem arg_kept2 (V : Valuation τ sig (Elt F)) : after ops V (Proc.devRef .tc main_arg2) = V (Proc.devRef .tc main_arg2) := kept V main_arg2 (by decide)
theorem arg_kept3 (V : Valuation τ sig (Elt F)) : after ops V (Proc.devRef .tc main_arg3) = V (Proc.devRef .tc main_arg3) := kept V main_arg3 (by decide)
theorem arg_kept4 (V : Valuation τ sig (Elt F)) : after ops V (Proc.devRef .tc main_arg4) = V (Proc.devRef .tc main_arg4) := kept V main_arg4 (by decide)
theorem arg_kept5 (V : Valuation τ sig (Elt F)) : after ops V (Proc.devRef .tc main_arg5) = V (Proc.devRef .tc main_arg5) := kept V main_arg5 (by decide)
theorem arg_kept6 (V : Valuation τ sig (Elt F)) : after ops V (Proc.devRef .tc main_arg6) = V (Proc.devRef .tc main_arg6) := kept V main_arg6 (by decide)
theorem arg_kept7 (V : Valuation τ sig (Elt F)) : after ops V (Proc.devRef .tc main_arg7) = V (Proc.devRef .tc main_arg7) := kept V main_arg7 (by decide)
theorem arg_kept8 (V : Valuation τ sig (Elt F)) : after ops V (Proc.devRef .tc main_arg8) = V (Proc.devRef .tc main_arg8) := kept V main_arg8 (by decide)
theorem arg_kept9 (V : Valuation τ sig (Elt F)) : after ops V (Proc.devRef .tc main_arg9) = V (Proc.devRef .tc main_arg9) := kept V main_arg9 (by decide)
theorem arg_kept10 (V : Valuation τ sig (Elt F)) : after ops V (Proc.devRef .tc main_arg10) = V (Proc.devRef .tc main_arg10) := kept V main_arg10 (by decide)
theorem arg_kept11 (V : Valuation τ sig (Elt F)) : after ops V (Proc.devRef .tc main_arg11) = V (Proc.devRef .tc main_arg11) := kept V main_arg11 (by decide)
theorem arg_kept12 (V : Valuation τ sig (Elt F)) : after ops V (Proc.devRef .tc main_arg12) = V (Proc.devRef .tc main_arg12) := kept V main_arg12 (by decide)
theorem arg_kept13 (V : Valuation τ sig (Elt F)) : after ops V (Proc.devRef .tc main_arg13) = V (Proc.devRef .tc main_arg13) := kept V main_arg13 (by decide)
theorem arg_kept14 (V : Valuation τ sig (Elt F)) : after ops V (Proc.devRef .tc main_arg14) = V (Proc.devRef .tc main_arg14) := kept V main_arg14 (by decide)
theorem arg_kept15 (V : Valuation τ sig (Elt F)) : after ops V (Proc.devRef .tc main_arg15) = V (Proc.devRef .tc main_arg15) := kept V main_arg15 (by decide)
theorem arg_kept16 (V : Valuation τ sig (Elt F)) : after ops V (Proc.devRef .tc main_arg16) = V (Proc.devRef .tc main_arg16) := kept V main_arg16 (by decide)
theorem arg_kept17 (V : Valuation τ sig (Elt F)) : after ops V (Proc.devRef .tc main_arg17) = V (Proc.devRef .tc main_arg17) := kept V main_arg17 (by decide)
theorem arg_kept18 (V : Valuation τ sig (Elt F)) : after ops V (Proc.devRef .tc main_arg18) = V (Proc.devRef .tc main_arg18) := kept V main_arg18 (by decide)
theorem arg_kept19 (V : Valuation τ sig (Elt F)) : after ops V (Proc.devRef .tc main_arg19) = V (Proc.devRef .tc main_arg19) := kept V main_arg19 (by decide)
theorem arg_kept20 (V : Valuation τ sig (Elt F)) : after ops V (Proc.devRef .tc main_arg20) = V (Proc.devRef .tc main_arg20) := kept V main_arg20 (by decide)
theorem arg_kept21 (V : Valuation τ sig (Elt F)) : after ops V (Proc.devRef .tc main_arg21) = V (Proc.devRef .tc main_arg21) := kept V main_arg21 (by decide)
theorem arg_kept22 (V : Valuation τ sig (Elt F)) : after ops V (Proc.devRef .tc main_arg22) = V (Proc.devRef .tc main_arg22) := kept V main_arg22 (by decide)
theorem arg_kept23 (V : Valuation τ sig (Elt F)) : after ops V (Proc.devRef .tc main_arg23) = V (Proc.devRef .tc main_arg23) := kept V main_arg23 (by decide)
theorem arg_kept24 (V : Valuation τ sig (Elt F)) : after ops V (Proc.devRef .tc main_arg24) = V (Proc.devRef .tc main_arg24) := kept V main_arg24 (by decide)
theorem arg_kept25 (V : Valuation τ sig (Elt F)) : after ops V (Proc.devRef .tc main_arg25) = V (Proc.devRef .tc main_arg25) := kept V main_arg25 (by decide)

end Cert.ReferenceIdeal.RefRun

end
-- ==== Proof.Ref.Frame.lean ====
/- The reference program runs to the end and leaves its arguments unchanged: the run's final contents at an argument
   are the fold of the operations' results there, and no operation writes an argument. -/
import proofs.«173394_j29068338659455_2_alg».proof.Proof.Ref.Run
import proofs.«173394_j29068338659455_2_alg».proof.Defs
import proofs.«173394_j29068338659455_2_alg».proof.Proof.Gen.Pre_finite_inputs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem frame_ri : Cert.frame_ReferenceIdeal := by
  intro m g _
  exact (θ_run (defs (F := Ideal)) _ _).mono (fun _ h c => ⟨(h c main_arg0).trans (arg_kept0 _),
    (h c main_arg1).trans (arg_kept1 _),
    (h c main_arg2).trans (arg_kept2 _),
    (h c main_arg3).trans (arg_kept3 _),
    (h c main_arg4).trans (arg_kept4 _),
    (h c main_arg5).trans (arg_kept5 _),
    (h c main_arg6).trans (arg_kept6 _),
    (h c main_arg7).trans (arg_kept7 _),
    (h c main_arg8).trans (arg_kept8 _),
    (h c main_arg9).trans (arg_kept9 _),
    (h c main_arg10).trans (arg_kept10 _),
    (h c main_arg11).trans (arg_kept11 _),
    (h c main_arg12).trans (arg_kept12 _),
    (h c main_arg13).trans (arg_kept13 _),
    (h c main_arg14).trans (arg_kept14 _),
    (h c main_arg15).trans (arg_kept15 _),
    (h c main_arg16).trans (arg_kept16 _),
    (h c main_arg17).trans (arg_kept17 _),
    (h c main_arg18).trans (arg_kept18 _),
    (h c main_arg19).trans (arg_kept19 _),
    (h c main_arg20).trans (arg_kept20 _),
    (h c main_arg21).trans (arg_kept21 _),
    (h c main_arg22).trans (arg_kept22 _),
    (h c main_arg23).trans (arg_kept23 _),
    (h c main_arg24).trans (arg_kept24 _),
    (h c main_arg25).trans (arg_kept25 _)⟩)
    (run_all (F := Ideal) m g)

end Cert.ReferenceIdeal.RefRun

end
-- ==== Proof.Spec.lean ====
/-
  The scalar functions the layers apply entry by entry, as functions on the extended reals.

  * The leaky rectifier: `y` itself where `0 ≤ y`, and `c · y` below zero, where the slope `c` is the extended real
    that the f32 word `0x3C23D70A` denotes (the float nearest 0.01); the word is kept as written and never evaluated.
    A block-wise body writes it as a select on the comparison of `y` with a splat zero, the array-wise program as a
    select on the comparison with a rank-zero zero spread over the array; read at one entry both are this function.
  * The hyperbolic tangent: the block-wise body's and the array-wise program's, read at one entry, are the one
    function `Ideal.tanh` (the real hyperbolic tangent, with limits -1 and 1 at the two infinities).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The leaky rectifier on the extended reals, its slope the f32 word `0x3C23D70A`. -/
def leaky (y : EReal) : EReal := if 0 ≤ y then y else Ideal.ofBits .f32 0x3C23D70A#32 * y

/-- A select between `a` and `b` on the one-bit answer to "is `y` at least the value of the zero word" is the
    `if` on `0 ≤ y`. -/
theorem select_oge_zero (y a b : EReal) :
    Scalar.select (Ideal.cmp .oge y (Ideal.ofBits .f32 0x00000000#32)) a b = if 0 ≤ y then a else b := by
  rw [Ideal.ofBits_zero_f32]
  by_cases h : (0 : EReal) ≤ y
  · rw [if_pos h]
    show (if BitVec.ofBool (decide ((0 : EReal) ≤ y)) = 1 then a else b) = a
    rw [decide_eq_true h]; rfl
  · rw [if_neg h]
    show (if BitVec.ofBool (decide ((0 : EReal) ≤ y)) = 1 then a else b) = b
    rw [decide_eq_false h]; rfl

/-- The rectifier as both programs spell it at one entry: select `y` or `c · y` on the comparison with the zero word. -/
theorem select_eq_leaky (y : EReal) :
    Scalar.select (Ideal.cmp .oge y (Ideal.ofBits .f32 0x00000000#32)) y (Ideal.ofBits .f32 0x3C23D70A#32 * y) = leaky y :=
  select_oge_zero y _ _

/-- The block-wise spelling, over any shape: compare with a splat zero, multiply by a splat slope, select. Read at an
    entry it is the rectifier of that entry. -/
theorem kernelLeaky_apply {S : Shape} (y : FVec Ideal S .f32) (j : S.Idx) :
    select (cmpf .oge y (broadcast S (Scalar.ofBits (F := Ideal) .f32 0x00000000#32))) y
        (mulf (broadcast S (Scalar.ofBits (F := Ideal) .f32 0x3C23D70A#32)) y) j
      = leaky (y j) :=
  select_eq_leaky (y j)

/-- The array-wise spelling, over any shape: compare with a rank-zero zero spread over the array, multiply by a
    rank-zero slope spread over the array, select. Read at an entry it is the rectifier of that entry. -/
theorem hostLeaky_apply {S : Shape} (dims : Fin 0 → Fin S.rank) (h : (⟨0, ![]⟩ : Shape).BroadcastsInDim S dims)
    (x : FVec Ideal S .f32) (j : S.Idx) :
    select (cmpf .oge x (broadcastInDim S dims h (constant (F := Ideal) ⟨0, ![]⟩ .f32 0x00000000#32))) x
        (mulf (broadcastInDim S dims h (constant (F := Ideal) ⟨0, ![]⟩ .f32 0x3C23D70A#32)) x) j
      = leaky (x j) :=
  select_eq_leaky (x j)

/-- The same as an equation of arrays. -/
theorem hostLeaky_eq {S : Shape} (dims : Fin 0 → Fin S.rank) (h : (⟨0, ![]⟩ : Shape).BroadcastsInDim S dims)
    (x : FVec Ideal S .f32) :
    select (cmpf .oge x (broadcastInDim S dims h (constant (F := Ideal) ⟨0, ![]⟩ .f32 0x00000000#32))) x
        (mulf (broadcastInDim S dims h (constant (F := Ideal) ⟨0, ![]⟩ .f32 0x3C23D70A#32)) x)
      = fun j => leaky (x j) :=
  funext fun j => hostLeaky_apply dims h x j

/-- The block-wise hyperbolic tangent read at an entry. -/
theorem kernelTanh_apply {S : Shape} {φ : FTy} (x : FVec Ideal S φ) (j : S.Idx) : tanh x j = Ideal.tanh (x j) := rfl

/-- The array-wise hyperbolic tangent read at an entry: the same function. -/
theorem hostTanh_apply {S : Shape} {φ : FTy} (x : FVec Ideal S φ) (j : S.Idx) :
    Host.tanh (F := Ideal) x j = Ideal.tanh (x j) := rfl

/-- So the two programs' hyperbolic tangents of one array are one array. -/
theorem hostTanh_eq_tanh {S : Shape} {φ : FTy} (x : FVec Ideal S φ) : Host.tanh (F := Ideal) x = tanh x := rfl

end Cert.Spec

end
-- ==== Proof.KI.G.lean ====
/-
  Each region's whole output array as a function of its whole operand arrays, entry by entry.

  A region's body is applied block by block down the rows, and a stored entry depends only on its own row of the
  row-blocked operands (and on the whole weight and bias arrays), so the whole output is the body's formula with the
  row index ranging over all the rows of the array: a dense layer `Σ_k x[p,k]·w[k,n] + b[0,n]`, bare (regions 1, 4,
  7, 11, 12, 14), under the leaky rectifier (regions 0, 10), or under it and added to a residual array (regions 3, 6,
  9, 16); the leaky rectifier of a sum of two arrays and a bias row (regions 2, 5, 8, 15); the score column
  (region 13).
-/
import proofs.«173394_j29068338659455_2_alg».proof.KernelIdeal
import proofs.«173394_j29068338659455_2_alg».proof.Proof.Spec
import Idealize.ShloMosaic.Lib.ValueIdx

noncomputable section

namespace Cert.KernelIdeal.Arr

open Idealize.ShloMosaic Idealize.ShloMosaic.ValueIdx Cert.KernelIdeal

/-- A dense layer over whole arrays: at `(p, n)`, `Σ_k x[p,k]·w[k,n] + b[0,n]`. The result's float format is free: on
    the extended reals a stored format changes nothing. -/
def dense {M K N : ℕ} {φ : FTy} (x : FVec Ideal ⟨2, ![M, K]⟩ .bf16) (w : FVec Ideal ⟨2, ![K, N]⟩ .bf16)
    (b : FVec Ideal ⟨2, ![1, N]⟩ .f32) : FVec Ideal ⟨2, ![M, N]⟩ φ :=
  fun j => (fun (p : Fin M) (n : Fin N) => (∑ k : Fin K, x (ix2 p k) * w (ix2 k n)) + b (ix2 (0 : Fin 1) n)) (j 0) (j 1)

theorem dense_apply {M K N : ℕ} {φ : FTy} (x : FVec Ideal ⟨2, ![M, K]⟩ .bf16) (w : FVec Ideal ⟨2, ![K, N]⟩ .bf16)
    (b : FVec Ideal ⟨2, ![1, N]⟩ .f32) (p : Fin M) (n : Fin N) :
    dense (φ := φ) x w b (ix2 p n) = (∑ k : Fin K, x (ix2 p k) * w (ix2 k n)) + b (ix2 (0 : Fin 1) n) := rfl

/-- A dense layer under the leaky rectifier. -/
def leakyDense {M K N : ℕ} (x : FVec Ideal ⟨2, ![M, K]⟩ .bf16) (w : FVec Ideal ⟨2, ![K, N]⟩ .bf16)
    (b : FVec Ideal ⟨2, ![1, N]⟩ .f32) : FVec Ideal ⟨2, ![M, N]⟩ .f32 :=
  fun j => Cert.Spec.leaky (dense (φ := .f32) x w b j)

theorem leakyDense_apply {M K N : ℕ} (x : FVec Ideal ⟨2, ![M, K]⟩ .bf16) (w : FVec Ideal ⟨2, ![K, N]⟩ .bf16)
    (b : FVec Ideal ⟨2, ![1, N]⟩ .f32) (p : Fin M) (n : Fin N) :
    leakyDense x w b (ix2 p n)
      = Cert.Spec.leaky ((∑ k : Fin K, x (ix2 p k) * w (ix2 k n)) + b (ix2 (0 : Fin 1) n)) := rfl

/-- A residual array plus a dense layer under the leaky rectifier. -/
def residLeakyDense {M K N : ℕ} (x : FVec Ideal ⟨2, ![M, K]⟩ .bf16) (w : FVec Ideal ⟨2, ![K, N]⟩ .bf16)
    (b : FVec Ideal ⟨2, ![1, N]⟩ .f32) (r : FVec Ideal ⟨2, ![M, N]⟩ .f32) : FVec Ideal ⟨2, ![M, N]⟩ .f32 :=
  fun j => r j + leakyDense x w b j

theorem residLeakyDense_apply {M K N : ℕ} (x : FVec Ideal ⟨2, ![M, K]⟩ .bf16) (w : FVec Ideal ⟨2, ![K, N]⟩ .bf16)
    (b : FVec Ideal ⟨2, ![1, N]⟩ .f32) (r : FVec Ideal ⟨2, ![M, N]⟩ .f32) (p : Fin M) (n : Fin N) :
    residLeakyDense x w b r (ix2 p n)
      = r (ix2 p n) + Cert.Spec.leaky ((∑ k : Fin K, x (ix2 p k) * w (ix2 k n)) + b (ix2 (0 : Fin 1) n)) := rfl

/-- The leaky rectifier of the sum of two arrays and a bias row: at `(p, n)`, of `a[p,n] + c[p,n] + b[0,n]`. -/
def leakyPair {M N : ℕ} (a c : FVec Ideal ⟨2, ![M, N]⟩ .bf16) (b : FVec Ideal ⟨2, ![1, N]⟩ .f32) :
    FVec Ideal ⟨2, ![M, N]⟩ .f32 :=
  fun j => (fun (p : Fin M) (n : Fin N) => Cert.Spec.leaky (a (ix2 p n) + c (ix2 p n) + b (ix2 (0 : Fin 1) n))) (j 0) (j 1)

theorem leakyPair_apply {M N : ℕ} (a c : FVec Ideal ⟨2, ![M, N]⟩ .bf16) (b : FVec Ideal ⟨2, ![1, N]⟩ .f32)
    (p : Fin M) (n : Fin N) :
    leakyPair a c b (ix2 p n) = Cert.Spec.leaky (a (ix2 p n) + c (ix2 p n) + b (ix2 (0 : Fin 1) n)) := rfl

/-- The score column: at `(p, u)`, `Σ_k tanh(a[p,k] + c[p,k] + b1[0,k]) · w2[0,k] + b2[0,0]`. -/
def score {M N : ℕ} (a c : FVec Ideal ⟨2, ![M, N]⟩ .bf16) (b1 w2 : FVec Ideal ⟨2, ![1, N]⟩ .f32)
    (b2 : FVec Ideal ⟨2, ![1, 1]⟩ .f32) : FVec Ideal ⟨2, ![M, 1]⟩ .f32 :=
  fun j => (fun (p : Fin M) =>
    (∑ k : Fin N, Ideal.tanh (a (ix2 p k) + c (ix2 p k) + b1 (ix2 (0 : Fin 1) k)) * w2 (ix2 (0 : Fin 1) k))
      + b2 (ix2 (0 : Fin 1) (0 : Fin 1))) (j 0)

theorem score_apply {M N : ℕ} (a c : FVec Ideal ⟨2, ![M, N]⟩ .bf16) (b1 w2 : FVec Ideal ⟨2, ![1, N]⟩ .f32)
    (b2 : FVec Ideal ⟨2, ![1, 1]⟩ .f32) (p : Fin M) (u : Fin 1) :
    score a c b1 w2 b2 (ix2 p u)
      = (∑ k : Fin N, Ideal.tanh (a (ix2 p k) + c (ix2 p k) + b1 (ix2 (0 : Fin 1) k)) * w2 (ix2 (0 : Fin 1) k))
          + b2 (ix2 (0 : Fin 1) (0 : Fin 1)) := rfl

/-! ## The seventeen regions -/

/-- Region 0's whole output array. -/
def G0 (x : Vec Ideal S5000x64 .bf16) (w : Vec Ideal S64x128 .bf16) (b : Vec Ideal S1x128 .f32) : Vec Ideal S5000x128 .f32 :=
  leakyDense x w b
theorem G0_apply (x : Vec Ideal S5000x64 .bf16) (w : Vec Ideal S64x128 .bf16) (b : Vec Ideal S1x128 .f32)
    (p : Fin 5000) (n : Fin 128) :
    G0 x w b (ix2 p n) = Cert.Spec.leaky ((∑ k : Fin 64, x (ix2 p k) * w (ix2 k n)) + b (ix2 0 n)) := rfl

/-- Region 1's whole output array. -/
def G1 (x : Vec Ideal S5000x128 .bf16) (w : Vec Ideal S128x256 .bf16) (b : Vec Ideal S1x256 .f32) : Vec Ideal S5000x256 .bf16 :=
  dense (φ := .bf16) x w b
theorem G1_apply (x : Vec Ideal S5000x128 .bf16) (w : Vec Ideal S128x256 .bf16) (b : Vec Ideal S1x256 .f32)
    (p : Fin 5000) (n : Fin 256) :
    G1 x w b (ix2 p n) = (∑ k : Fin 128, x (ix2 p k) * w (ix2 k n)) + b (ix2 0 n) := rfl

/-- Region 2's whole output array. -/
def G2 (a c : Vec Ideal S80000x128 .bf16) (b : Vec Ideal S1x128 .f32) : Vec Ideal S80000x128 .f32 := leakyPair a c b
theorem G2_apply (a c : Vec Ideal S80000x128 .bf16) (b : Vec Ideal S1x128 .f32) (p : Fin 80000) (n : Fin 128) :
    G2 a c b (ix2 p n) = Cert.Spec.leaky (a (ix2 p n) + c (ix2 p n) + b (ix2 0 n)) := rfl

/-- Region 3's whole output array. -/
def G3 (x : Vec Ideal S5000x384 .bf16) (w : Vec Ideal S384x128 .bf16) (b : Vec Ideal S1x128 .f32) (r : Vec Ideal S5000x128 .f32) :
    Vec Ideal S5000x128 .f32 :=
  residLeakyDense x w b r
theorem G3_apply (x : Vec Ideal S5000x384 .bf16) (w : Vec Ideal S384x128 .bf16) (b : Vec Ideal S1x128 .f32) (r : Vec Ideal S5000x128 .f32)
    (p : Fin 5000) (n : Fin 128) :
    G3 x w b r (ix2 p n)
      = r (ix2 p n) + Cert.Spec.leaky ((∑ k : Fin 384, x (ix2 p k) * w (ix2 k n)) + b (ix2 0 n)) := rfl

/-- Region 4's whole output array. -/
def G4 (x : Vec Ideal S5000x128 .bf16) (w : Vec Ideal S128x256 .bf16) (b : Vec Ideal S1x256 .f32) : Vec Ideal S5000x256 .bf16 :=
  dense (φ := .bf16) x w b
theorem G4_apply (x : Vec Ideal S5000x128 .bf16) (w : Vec Ideal S128x256 .bf16) (b : Vec Ideal S1x256 .f32)
    (p : Fin 5000) (n : Fin 256) :
    G4 x w b (ix2 p n) = (∑ k : Fin 128, x (ix2 p k) * w (ix2 k n)) + b (ix2 0 n) := rfl

/-- Region 5's whole output array. -/
def G5 (a c : Vec Ideal S80000x128 .bf16) (b : Vec Ideal S1x128 .f32) : Vec Ideal S80000x128 .f32 := leakyPair a c b
theorem G5_apply (a c : Vec Ideal S80000x128 .bf16) (b : Vec Ideal S1x128 .f32) (p : Fin 80000) (n : Fin 128) :
    G5 a c b (ix2 p n) = Cert.Spec.leaky (a (ix2 p n) + c (ix2 p n) + b (ix2 0 n)) := rfl

/-- Region 6's whole output array. -/
def G6 (x : Vec Ideal S5000x384 .bf16) (w : Vec Ideal S384x128 .bf16) (b : Vec Ideal S1x128 .f32) (r : Vec Ideal S5000x128 .f32) :
    Vec Ideal S5000x128 .f32 :=
  residLeakyDense x w b r
theorem G6_apply (x : Vec Ideal S5000x384 .bf16) (w : Vec Ideal S384x128 .bf16) (b : Vec Ideal S1x128 .f32) (r : Vec Ideal S5000x128 .f32)
    (p : Fin 5000) (n : Fin 128) :
    G6 x w b r (ix2 p n)
      = r (ix2 p n) + Cert.Spec.leaky ((∑ k : Fin 384, x (ix2 p k) * w (ix2 k n)) + b (ix2 0 n)) := rfl

/-- Region 7's whole output array. -/
def G7 (x : Vec Ideal S5000x128 .bf16) (w : Vec Ideal S128x256 .bf16) (b : Vec Ideal S1x256 .f32) : Vec Ideal S5000x256 .bf16 :=
  dense (φ := .bf16) x w b
theorem G7_apply (x : Vec Ideal S5000x128 .bf16) (w : Vec Ideal S128x256 .bf16) (b : Vec Ideal S1x256 .f32)
    (p : Fin 5000) (n : Fin 256) :
    G7 x w b (ix2 p n) = (∑ k : Fin 128, x (ix2 p k) * w (ix2 k n)) + b (ix2 0 n) := rfl

/-- Region 8's whole output array. -/
def G8 (a c : Vec Ideal S80000x128 .bf16) (b : Vec Ideal S1x128 .f32) : Vec Ideal S80000x128 .f32 := leakyPair a c b
theorem G8_apply (a c : Vec Ideal S80000x128 .bf16) (b : Vec Ideal S1x128 .f32) (p : Fin 80000) (n : Fin 128) :
    G8 a c b (ix2 p n) = Cert.Spec.leaky (a (ix2 p n) + c (ix2 p n) + b (ix2 0 n)) := rfl

/-- Region 9's whole output array. -/
def G9 (x : Vec Ideal S5000x384 .bf16) (w : Vec Ideal S384x128 .bf16) (b : Vec Ideal S1x128 .f32) (r : Vec Ideal S5000x128 .f32) :
    Vec Ideal S5000x128 .f32 :=
  residLeakyDense x w b r
theorem G9_apply (x : Vec Ideal S5000x384 .bf16) (w : Vec Ideal S384x128 .bf16) (b : Vec Ideal S1x128 .f32) (r : Vec Ideal S5000x128 .f32)
    (p : Fin 5000) (n : Fin 128) :
    G9 x w b r (ix2 p n)
      = r (ix2 p n) + Cert.Spec.leaky ((∑ k : Fin 384, x (ix2 p k) * w (ix2 k n)) + b (ix2 0 n)) := rfl

/-- Region 10's whole output array. -/
def G10 (x : Vec Ideal S100000x48 .bf16) (w : Vec Ideal S48x128 .bf16) (b : Vec Ideal S1x128 .f32) : Vec Ideal S100000x128 .f32 :=
  leakyDense x w b
theorem G10_apply (x : Vec Ideal S100000x48 .bf16) (w : Vec Ideal S48x128 .bf16) (b : Vec Ideal S1x128 .f32)
    (p : Fin 100000) (n : Fin 128) :
    G10 x w b (ix2 p n) = Cert.Spec.leaky ((∑ k : Fin 48, x (ix2 p k) * w (ix2 k n)) + b (ix2 0 n)) := rfl

/-- Region 11's whole output array. -/
def G11 (x : Vec Ideal S5000x128 .bf16) (w : Vec Ideal S128x128 .bf16) (b : Vec Ideal S1x128 .f32) : Vec Ideal S5000x128 .bf16 :=
  dense (φ := .bf16) x w b
theorem G11_apply (x : Vec Ideal S5000x128 .bf16) (w : Vec Ideal S128x128 .bf16) (b : Vec Ideal S1x128 .f32)
    (p : Fin 5000) (n : Fin 128) :
    G11 x w b (ix2 p n) = (∑ k : Fin 128, x (ix2 p k) * w (ix2 k n)) + b (ix2 0 n) := rfl

/-- Region 12's whole output array. -/
def G12 (x : Vec Ideal S100000x128 .bf16) (w : Vec Ideal S128x128 .bf16) (b : Vec Ideal S1x128 .f32) : Vec Ideal S100000x128 .bf16 :=
  dense (φ := .bf16) x w b
theorem G12_apply (x : Vec Ideal S100000x128 .bf16) (w : Vec Ideal S128x128 .bf16) (b : Vec Ideal S1x128 .f32)
    (p : Fin 100000) (n : Fin 128) :
    G12 x w b (ix2 p n) = (∑ k : Fin 128, x (ix2 p k) * w (ix2 k n)) + b (ix2 0 n) := rfl

/-- Region 13's whole output column. -/
def G13 (a c : Vec Ideal S300000x128 .bf16) (b1 w2 : Vec Ideal S1x128 .f32) (b2 : Vec Ideal S1x1 .f32) :
    Vec Ideal S300000x1 .f32 :=
  score a c b1 w2 b2
theorem G13_apply (a c : Vec Ideal S300000x128 .bf16) (b1 w2 : Vec Ideal S1x128 .f32) (b2 : Vec Ideal S1x1 .f32)
    (p : Fin 300000) (u : Fin 1) :
    G13 a c b1 w2 b2 (ix2 p u)
      = (∑ k : Fin 128, Ideal.tanh (a (ix2 p k) + c (ix2 p k) + b1 (ix2 0 k)) * w2 (ix2 0 k)) + b2 (ix2 0 0) := rfl

/-- Region 14's whole output array. -/
def G14 (x : Vec Ideal S100000x131 .bf16) (w : Vec Ideal S131x256 .bf16) (b : Vec Ideal S1x256 .f32) : Vec Ideal S100000x256 .bf16 :=
  dense (φ := .bf16) x w b
theorem G14_apply (x : Vec Ideal S100000x131 .bf16) (w : Vec Ideal S131x256 .bf16) (b : Vec Ideal S1x256 .f32)
    (p : Fin 100000) (n : Fin 256) :
    G14 x w b (ix2 p n) = (∑ k : Fin 131, x (ix2 p k) * w (ix2 k n)) + b (ix2 0 n) := rfl

/-- Region 15's whole output array. -/
def G15 (a c : Vec Ideal S600000x128 .bf16) (b : Vec Ideal S1x128 .f32) : Vec Ideal S600000x128 .f32 := leakyPair a c b
theorem G15_apply (a c : Vec Ideal S600000x128 .bf16) (b : Vec Ideal S1x128 .f32) (p : Fin 600000) (n : Fin 128) :
    G15 a c b (ix2 p n) = Cert.Spec.leaky (a (ix2 p n) + c (ix2 p n) + b (ix2 0 n)) := rfl

/-- Region 16's whole output array. -/
def G16 (x : Vec Ideal S100000x256 .bf16) (w : Vec Ideal S256x128 .bf16) (b : Vec Ideal S1x128 .f32) (r : Vec Ideal S100000x128 .f32) :
    Vec Ideal S100000x128 .f32 :=
  residLeakyDense x w b r
theorem G16_apply (x : Vec Ideal S100000x256 .bf16) (w : Vec Ideal S256x128 .bf16) (b : Vec Ideal S1x128 .f32) (r : Vec Ideal S100000x128 .f32)
    (p : Fin 100000) (n : Fin 128) :
    G16 x w b r (ix2 p n)
      = r (ix2 p n) + Cert.Spec.leaky ((∑ k : Fin 256, x (ix2 p k) * w (ix2 k n)) + b (ix2 0 n)) := rfl

end Cert.KernelIdeal.Arr

end
-- ==== Proof.LibMatmulNN.lean ====
/-
  A matrix product read at an entry, over the extended reals.

  For an M×K array `a` and a K×N array `w`, the product contracting `a`'s second axis with `w`'s first, accumulated into
  the zero array, has at entry (p, n) the value  Σ_{k < K} a[p, k] · w[k, n]:  a finite sum of products of extended
  reals, with nothing left of any blocking or order of accumulation.
-/
import Idealize.ShloMosaic.PureOps.Ideal.Laws
import Idealize.ShloMosaic.Lib.ValueIdx

noncomputable section

namespace Cert.LibMatmulNN

open Idealize.ShloMosaic Idealize.ShloMosaic.ValueIdx

/-- At the ideal values, a `tpu.matmul` of an M×K by a K×N array whose dimension numbers are the plain ones
    (contract the left operand's axis 1 with the right operand's axis 0, no batch axis), into the zero accumulator,
    read at entry `(p, n)`, is the sum over `k` of `a[p, k] * w[k, n]`.  The dimension record is any one equal to
    `DotDims.plain M K N` (a printed program's own record is, by `rfl`). -/
theorem matmul_zero_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    FloatOps.matmul D prec a w (constant ⟨2, ![M, N]⟩ .f32 0x00000000#32) (ix2 p n)
      = ∑ k : Fin K, a (ix2 p k) * w (ix2 k n) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

end Cert.LibMatmulNN

end
-- ==== Proof.KI.PayLib.lean ====
/-
  The arithmetic of the seventeen block bodies, read at one entry, over any extents.

  Every body is assembled from two pieces. A DENSE piece: an `M×K` block times a `K×N` weight accumulated into zero,
  plus a bias row repeated down the rows; at `(p, n)` it is `Σ_k x[p,k]·w[k,n] + b[0,n]`. A PAIR piece: the sum of
  two stored `M×N` blocks plus a bias row; at `(p, n)` it is `a[p,n] + c[p,n] + b[0,n]`. Casts of a block to its own
  shape and changes of float format are the identity on the extended reals. Around the pieces sit the leaky rectifier
  (kinds i, iii), a narrowing store (kind ii), a residual sum (kind iv), and for the score column (kind v) the
  hyperbolic tangent, a weight row, a sum along each row and a one-entry bias.
-/
import Idealize.ShloMosaic.PureOps.Ideal.Laws
import Idealize.ShloMosaic.Lib.ValueIdx
import Idealize.ShloMosaic.Lib.Pipeline.Value
import Idealize.ShloMosaic.Lib.ValueLayout
import proofs.«173394_j29068338659455_2_alg».proof.Proof.LibMatmulNN
import proofs.«173394_j29068338659455_2_alg».proof.Proof.Spec

noncomputable section

namespace Cert.KernelIdeal.PayLib

open Idealize.ShloMosaic Idealize.ShloMosaic.ValueIdx

/-- A bias row: a `[1, N]` array (cast to its own shape) repeated down `M` rows reads, at `(p, n)`, the row at `n`. -/
theorem biasRow_apply {M N : ℕ} {φ : FTy} (b : FVec Ideal ⟨2, ![1, N]⟩ φ)
    (hc : (⟨2, ![1, N]⟩ : Shape).ShapeCasts ⟨2, ![1, N]⟩) (hb : (⟨2, ![1, N]⟩ : Shape).Broadcasts ⟨2, ![M, N]⟩)
    (p : Fin M) (n : Fin N) :
    broadcastTo ⟨2, ![M, N]⟩ (shapeCast ⟨2, ![1, N]⟩ b hc) hb (ix2 p n) = b (ix2 (0 : Fin 1) n) :=
  (broadcastTo_1b_ab_apply _ hb p n).trans (congrFun (shapeCast_self b hc) _)

/-- A dense layer before its activation: the product of an `M×K` block and a `K×N` weight (each cast to its own
    shape) accumulated into zero, plus a bias row. At `(p, n)` it is `Σ_k x[p,k]·w[k,n] + b[0,n]`. -/
theorem linear_apply {M K N : ℕ} {φ₁ φ₂ : FTy} (D : DotDims ⟨2, ![M, K]⟩ ⟨2, ![K, N]⟩ ⟨2, ![M, N]⟩)
    (hD : D = DotDims.plain M K N)
    (x : FVec Ideal ⟨2, ![M, K]⟩ φ₁) (w : FVec Ideal ⟨2, ![K, N]⟩ φ₂) (b : FVec Ideal ⟨2, ![1, N]⟩ .f32)
    (hx : (⟨2, ![M, K]⟩ : Shape).ShapeCasts ⟨2, ![M, K]⟩) (hw : (⟨2, ![K, N]⟩ : Shape).ShapeCasts ⟨2, ![K, N]⟩)
    (hc : (⟨2, ![1, N]⟩ : Shape).ShapeCasts ⟨2, ![1, N]⟩) (hb : (⟨2, ![1, N]⟩ : Shape).Broadcasts ⟨2, ![M, N]⟩)
    (p : Fin M) (n : Fin N) :
    addf (matmul D none (shapeCast ⟨2, ![M, K]⟩ x hx) (shapeCast ⟨2, ![K, N]⟩ w hw)
            (constant ⟨2, ![M, N]⟩ .f32 0x00000000#32))
         (broadcastTo ⟨2, ![M, N]⟩ (shapeCast ⟨2, ![1, N]⟩ b hc) hb) (ix2 p n)
      = (∑ k : Fin K, x (ix2 p k) * w (ix2 k n)) + b (ix2 (0 : Fin 1) n) := by
  rw [shapeCast_self x hx, shapeCast_self w hw]
  exact congrArg₂ (· + ·) (Cert.LibMatmulNN.matmul_zero_apply D hD none x w p n) (biasRow_apply b hc hb p n)

/-- The sum of two `M×N` blocks stored in the narrow format (each cast to its own shape and widened, which changes
    nothing on the extended reals) plus a bias row. At `(p, n)` it is `a[p,n] + c[p,n] + b[0,n]`. -/
theorem pairRow_apply {M N : ℕ} (a c : FVec Ideal ⟨2, ![M, N]⟩ .bf16) (b : FVec Ideal ⟨2, ![1, N]⟩ .f32)
    (ha : (⟨2, ![M, N]⟩ : Shape).ShapeCasts ⟨2, ![M, N]⟩) (hc' : (⟨2, ![M, N]⟩ : Shape).ShapeCasts ⟨2, ![M, N]⟩)
    (hlt : FTy.bits .bf16 < FTy.bits .f32)
    (hc : (⟨2, ![1, N]⟩ : Shape).ShapeCasts ⟨2, ![1, N]⟩) (hb : (⟨2, ![1, N]⟩ : Shape).Broadcasts ⟨2, ![M, N]⟩)
    (p : Fin M) (n : Fin N) :
    addf (addf (extf .f32 (shapeCast ⟨2, ![M, N]⟩ a ha) hlt) (extf .f32 (shapeCast ⟨2, ![M, N]⟩ c hc') hlt))
         (broadcastTo ⟨2, ![M, N]⟩ (shapeCast ⟨2, ![1, N]⟩ b hc) hb) (ix2 p n)
      = a (ix2 p n) + c (ix2 p n) + b (ix2 (0 : Fin 1) n) := by
  rw [shapeCast_self a ha, shapeCast_self c hc']
  exact congrArg (a (ix2 p n) + c (ix2 p n) + ·) (biasRow_apply b hc hb p n)

/-- A lane sum of an `[R, C]` block along its rows' entries (axis 1), read at row `r`: the sum over the columns. -/
theorem laneRowSum_apply {R C : ℕ} {φ : FTy} (src : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ)
    (r : Fin R) :
    multiReduction .add [1] ⟨1, ![R]⟩ src acc h hφ hacc (ix1 r) = ∑ c : Fin C, src (ix2 r c) := by
  refine (Ideal.multiReduction_add_single src acc h hφ hacc (ix1 r)).trans ?_
  show ∑ c : Fin C, src (h.lift (ix1 r) c) = ∑ c : Fin C, src (ix2 r c)
  refine Finset.sum_congr rfl fun c _ => congrArg src (funext fun ax => Fin.ext ?_)
  match ax with
  | ⟨0, _⟩ => rfl
  | ⟨1, _⟩ => rfl

/-- An `[R]` vector cast to the column `[R, 1]` reads, at `(p, u)`, the vector at `p`. -/
theorem column_apply {R : ℕ} {α : Type} (x : (⟨1, ![R]⟩ : Shape).Idx → α)
    (h : (⟨1, ![R]⟩ : Shape).ShapeCasts ⟨2, ![R, 1]⟩) (p : Fin R) (u : Fin 1) :
    shapeCast ⟨2, ![R, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The five kinds of body -/

/-- Kind (i): a dense layer with the leaky rectifier. -/
theorem leakyLinear_apply {M K N : ℕ} {φ₁ φ₂ : FTy} (D : DotDims ⟨2, ![M, K]⟩ ⟨2, ![K, N]⟩ ⟨2, ![M, N]⟩)
    (hD : D = DotDims.plain M K N)
    (x : FVec Ideal ⟨2, ![M, K]⟩ φ₁) (w : FVec Ideal ⟨2, ![K, N]⟩ φ₂) (b : FVec Ideal ⟨2, ![1, N]⟩ .f32)
    (hx : (⟨2, ![M, K]⟩ : Shape).ShapeCasts ⟨2, ![M, K]⟩) (hw : (⟨2, ![K, N]⟩ : Shape).ShapeCasts ⟨2, ![K, N]⟩)
    (hc : (⟨2, ![1, N]⟩ : Shape).ShapeCasts ⟨2, ![1, N]⟩) (hb : (⟨2, ![1, N]⟩ : Shape).Broadcasts ⟨2, ![M, N]⟩)
    (p : Fin M) (n : Fin N) :
    select
        (cmpf .oge
          (addf (matmul D none (shapeCast ⟨2, ![M, K]⟩ x hx) (shapeCast ⟨2, ![K, N]⟩ w hw)
                  (constant ⟨2, ![M, N]⟩ .f32 0x00000000#32))
                (broadcastTo ⟨2, ![M, N]⟩ (shapeCast ⟨2, ![1, N]⟩ b hc) hb))
          (broadcast ⟨2, ![M, N]⟩ (Scalar.ofBits (F := Ideal) .f32 0x00000000#32)))
        (addf (matmul D none (shapeCast ⟨2, ![M, K]⟩ x hx) (shapeCast ⟨2, ![K, N]⟩ w hw)
                (constant ⟨2, ![M, N]⟩ .f32 0x00000000#32))
              (broadcastTo ⟨2, ![M, N]⟩ (shapeCast ⟨2, ![1, N]⟩ b hc) hb))
        (mulf (broadcast ⟨2, ![M, N]⟩ (Scalar.ofBits (F := Ideal) .f32 0x3C23D70A#32))
          (addf (matmul D none (shapeCast ⟨2, ![M, K]⟩ x hx) (shapeCast ⟨2, ![K, N]⟩ w hw)
                  (constant ⟨2, ![M, N]⟩ .f32 0x00000000#32))
                (broadcastTo ⟨2, ![M, N]⟩ (shapeCast ⟨2, ![1, N]⟩ b hc) hb)))
        (ix2 p n)
      = Cert.Spec.leaky ((∑ k : Fin K, x (ix2 p k) * w (ix2 k n)) + b (ix2 (0 : Fin 1) n)) :=
  (Cert.Spec.kernelLeaky_apply _ (ix2 p n)).trans (congrArg Cert.Spec.leaky (linear_apply D hD x w b hx hw hc hb p n))

/-- Kind (ii): a dense layer stored in the narrow format (the narrowing changes nothing on the extended reals). -/
theorem truncLinear_apply {M K N : ℕ} {φ₁ φ₂ : FTy} (D : DotDims ⟨2, ![M, K]⟩ ⟨2, ![K, N]⟩ ⟨2, ![M, N]⟩)
    (hD : D = DotDims.plain M K N)
    (x : FVec Ideal ⟨2, ![M, K]⟩ φ₁) (w : FVec Ideal ⟨2, ![K, N]⟩ φ₂) (b : FVec Ideal ⟨2, ![1, N]⟩ .f32)
    (hx : (⟨2, ![M, K]⟩ : Shape).ShapeCasts ⟨2, ![M, K]⟩) (hw : (⟨2, ![K, N]⟩ : Shape).ShapeCasts ⟨2, ![K, N]⟩)
    (hc : (⟨2, ![1, N]⟩ : Shape).ShapeCasts ⟨2, ![1, N]⟩) (hb : (⟨2, ![1, N]⟩ : Shape).Broadcasts ⟨2, ![M, N]⟩)
    (hlt : FTy.bits .bf16 < FTy.bits .f32) (p : Fin M) (n : Fin N) :
    truncf .bf16
        (addf (matmul D none (shapeCast ⟨2, ![M, K]⟩ x hx) (shapeCast ⟨2, ![K, N]⟩ w hw)
                (constant ⟨2, ![M, N]⟩ .f32 0x00000000#32))
              (broadcastTo ⟨2, ![M, N]⟩ (shapeCast ⟨2, ![1, N]⟩ b hc) hb))
        hlt (ix2 p n)
      = (∑ k : Fin K, x (ix2 p k) * w (ix2 k n)) + b (ix2 (0 : Fin 1) n) :=
  linear_apply D hD x w b hx hw hc hb p n

/-- Kind (iii): the sum of two stored blocks and a bias row, under the leaky rectifier. -/
theorem leakyPairRow_apply {M N : ℕ} (a c : FVec Ideal ⟨2, ![M, N]⟩ .bf16) (b : FVec Ideal ⟨2, ![1, N]⟩ .f32)
    (ha : (⟨2, ![M, N]⟩ : Shape).ShapeCasts ⟨2, ![M, N]⟩) (hc' : (⟨2, ![M, N]⟩ : Shape).ShapeCasts ⟨2, ![M, N]⟩)
    (hlt : FTy.bits .bf16 < FTy.bits .f32)
    (hc : (⟨2, ![1, N]⟩ : Shape).ShapeCasts ⟨2, ![1, N]⟩) (hb : (⟨2, ![1, N]⟩ : Shape).Broadcasts ⟨2, ![M, N]⟩)
    (p : Fin M) (n : Fin N) :
    select
        (cmpf .oge
          (addf (addf (extf .f32 (shapeCast ⟨2, ![M, N]⟩ a ha) hlt) (extf .f32 (shapeCast ⟨2, ![M, N]⟩ c hc') hlt))
                (broadcastTo ⟨2, ![M, N]⟩ (shapeCast ⟨2, ![1, N]⟩ b hc) hb))
          (broadcast ⟨2, ![M, N]⟩ (Scalar.ofBits (F := Ideal) .f32 0x00000000#32)))
        (addf (addf (extf .f32 (shapeCast ⟨2, ![M, N]⟩ a ha) hlt) (extf .f32 (shapeCast ⟨2, ![M, N]⟩ c hc') hlt))
              (broadcastTo ⟨2, ![M, N]⟩ (shapeCast ⟨2, ![1, N]⟩ b hc) hb))
        (mulf (broadcast ⟨2, ![M, N]⟩ (Scalar.ofBits (F := Ideal) .f32 0x3C23D70A#32))
          (addf (addf (extf .f32 (shapeCast ⟨2, ![M, N]⟩ a ha) hlt) (extf .f32 (shapeCast ⟨2, ![M, N]⟩ c hc') hlt))
                (broadcastTo ⟨2, ![M, N]⟩ (shapeCast ⟨2, ![1, N]⟩ b hc) hb)))
        (ix2 p n)
      = Cert.Spec.leaky (a (ix2 p n) + c (ix2 p n) + b (ix2 (0 : Fin 1) n)) :=
  (Cert.Spec.kernelLeaky_apply _ (ix2 p n)).trans (congrArg Cert.Spec.leaky (pairRow_apply a c b ha hc' hlt hc hb p n))

/-- Kind (iv): a residual block plus a dense layer under the leaky rectifier. -/
theorem residLeakyLinear_apply {M K N : ℕ} {φ₁ φ₂ : FTy} (D : DotDims ⟨2, ![M, K]⟩ ⟨2, ![K, N]⟩ ⟨2, ![M, N]⟩)
    (hD : D = DotDims.plain M K N)
    (x : FVec Ideal ⟨2, ![M, K]⟩ φ₁) (w : FVec Ideal ⟨2, ![K, N]⟩ φ₂) (b : FVec Ideal ⟨2, ![1, N]⟩ .f32)
    (r : FVec Ideal ⟨2, ![M, N]⟩ .f32)
    (hx : (⟨2, ![M, K]⟩ : Shape).ShapeCasts ⟨2, ![M, K]⟩) (hw : (⟨2, ![K, N]⟩ : Shape).ShapeCasts ⟨2, ![K, N]⟩)
    (hc : (⟨2, ![1, N]⟩ : Shape).ShapeCasts ⟨2, ![1, N]⟩) (hb : (⟨2, ![1, N]⟩ : Shape).Broadcasts ⟨2, ![M, N]⟩)
    (hr : (⟨2, ![M, N]⟩ : Shape).ShapeCasts ⟨2, ![M, N]⟩) (p : Fin M) (n : Fin N) :
    addf (shapeCast ⟨2, ![M, N]⟩ r hr)
      (select
        (cmpf .oge
          (addf (matmul D none (shapeCast ⟨2, ![M, K]⟩ x hx) (shapeCast ⟨2, ![K, N]⟩ w hw)
                  (constant ⟨2, ![M, N]⟩ .f32 0x00000000#32))
                (broadcastTo ⟨2, ![M, N]⟩ (shapeCast ⟨2, ![1, N]⟩ b hc) hb))
          (broadcast ⟨2, ![M, N]⟩ (Scalar.ofBits (F := Ideal) .f32 0x00000000#32)))
        (addf (matmul D none (shapeCast ⟨2, ![M, K]⟩ x hx) (shapeCast ⟨2, ![K, N]⟩ w hw)
                (constant ⟨2, ![M, N]⟩ .f32 0x00000000#32))
              (broadcastTo ⟨2, ![M, N]⟩ (shapeCast ⟨2, ![1, N]⟩ b hc) hb))
        (mulf (broadcast ⟨2, ![M, N]⟩ (Scalar.ofBits (F := Ideal) .f32 0x3C23D70A#32))
          (addf (matmul D none (shapeCast ⟨2, ![M, K]⟩ x hx) (shapeCast ⟨2, ![K, N]⟩ w hw)
                  (constant ⟨2, ![M, N]⟩ .f32 0x00000000#32))
                (broadcastTo ⟨2, ![M, N]⟩ (shapeCast ⟨2, ![1, N]⟩ b hc) hb))))
      (ix2 p n)
      = r (ix2 p n) + Cert.Spec.leaky ((∑ k : Fin K, x (ix2 p k) * w (ix2 k n)) + b (ix2 (0 : Fin 1) n)) := by
  rw [shapeCast_self r hr]
  exact congrArg (r (ix2 p n) + ·) (leakyLinear_apply D hD x w b hx hw hc hb p n)

/-- Kind (v): a score column. The hyperbolic tangent of the sum of two stored blocks and a bias row, times a weight
    row, summed along each row, laid as a column, plus a one-entry bias. At `(p, u)` it is
    `Σ_k tanh(a[p,k] + c[p,k] + b1[0,k]) · w2[0,k] + b2[0,0]`. -/
theorem score_apply {M N : ℕ} (a c : FVec Ideal ⟨2, ![M, N]⟩ .bf16) (b1 w2 : FVec Ideal ⟨2, ![1, N]⟩ .f32)
    (b2 : FVec Ideal ⟨2, ![1, 1]⟩ .f32)
    (ha : (⟨2, ![M, N]⟩ : Shape).ShapeCasts ⟨2, ![M, N]⟩) (hc' : (⟨2, ![M, N]⟩ : Shape).ShapeCasts ⟨2, ![M, N]⟩)
    (hlt : FTy.bits .bf16 < FTy.bits .f32)
    (hc : (⟨2, ![1, N]⟩ : Shape).ShapeCasts ⟨2, ![1, N]⟩) (hb : (⟨2, ![1, N]⟩ : Shape).Broadcasts ⟨2, ![M, N]⟩)
    (hred : (⟨2, ![M, N]⟩ : Shape).Reduces [1] ⟨1, ![M]⟩) (hφ : FKind.Formats .f32)
    (hacc : (0x00000000#32 : BitVec 32) = FKind.add.neutral .f32 hφ)
    (hcol : (⟨1, ![M]⟩ : Shape).ShapeCasts ⟨2, ![M, 1]⟩)
    (hc1 : (⟨2, ![1, 1]⟩ : Shape).ShapeCasts ⟨2, ![1, 1]⟩) (hb1 : (⟨2, ![1, 1]⟩ : Shape).Broadcasts ⟨2, ![M, 1]⟩)
    (p : Fin M) (u : Fin 1) :
    addf
        (shapeCast ⟨2, ![M, 1]⟩
          (multiReduction .add [1] ⟨1, ![M]⟩
            (mulf
              (tanh
                (addf (addf (extf .f32 (shapeCast ⟨2, ![M, N]⟩ a ha) hlt) (extf .f32 (shapeCast ⟨2, ![M, N]⟩ c hc') hlt))
                      (broadcastTo ⟨2, ![M, N]⟩ (shapeCast ⟨2, ![1, N]⟩ b1 hc) hb)))
              (broadcastTo ⟨2, ![M, N]⟩ (shapeCast ⟨2, ![1, N]⟩ w2 hc) hb))
            0x00000000#32 hred hφ hacc)
          hcol)
        (broadcastTo ⟨2, ![M, 1]⟩ (shapeCast ⟨2, ![1, 1]⟩ b2 hc1) hb1)
        (ix2 p u)
      = (∑ k : Fin N, Ideal.tanh (a (ix2 p k) + c (ix2 p k) + b1 (ix2 (0 : Fin 1) k)) * w2 (ix2 (0 : Fin 1) k))
          + b2 (ix2 (0 : Fin 1) (0 : Fin 1)) := by
  refine congrArg₂ (· + ·) ?_ ?_
  · refine (column_apply _ hcol p u).trans ?_
    refine (laneRowSum_apply _ _ hred hφ hacc p).trans ?_
    refine Finset.sum_congr rfl fun k _ => ?_
    exact congrArg₂ (· * ·) (congrArg Ideal.tanh (pairRow_apply a c b1 ha hc' hlt hc hb p k)) (biasRow_apply w2 hc hb p k)
  · refine (biasRow_apply b2 hc1 hb1 p u).trans ?_
    rw [Subsingleton.elim u (0 : Fin 1)]

end Cert.KernelIdeal.PayLib

end
-- ==== Proof.KI.Pay.lean ====
/-
  Each region's stored block, read at one entry, as a formula in the entries of the blocks it loads.

  Regions 0 and 10 store the leaky rectifier of a dense layer; regions 1, 4, 7, 11, 12 and 14 store a dense layer;
  regions 2, 5, 8 and 15 store the leaky rectifier of the sum of two stored blocks and a bias row; regions 3, 6, 9 and
  16 store a residual block plus the leaky rectifier of a dense layer; region 13 stores the score column
  `Σ_k tanh(a[p,k] + c[p,k] + b1[0,k]) · w2[0,k] + b2[0,0]`. Each statement is the matching general formula at the
  region's extents.
-/
import proofs.«173394_j29068338659455_2_alg».proof.Proof.Gen.KernelIdeal.Skeleton
import proofs.«173394_j29068338659455_2_alg».proof.Proof.KI.PayLib

noncomputable section

namespace Cert.KernelIdeal.Pay

open Idealize.ShloMosaic Idealize.ShloMosaic.ValueIdx Cert.KernelIdeal Cert.KernelIdeal.Gen Cert.KernelIdeal.PayLib

/-- Region 0's stored block at `(p, n)`: the leaky rectifier of `Σ_k x[p,k]·w[k,n] + b[0,n]`. -/
theorem k0_pay1_apply (x : Vec Ideal S5000x64 .bf16) (w : Vec Ideal S64x128 .bf16) (b : Vec Ideal S1x128 .f32)
    (p : Fin 5000) (n : Fin 128) :
    k0_pay1 (F := Ideal) x w b (ix2 p n)
      = Cert.Spec.leaky ((∑ k : Fin 64, x (ix2 p k) * w (ix2 k n)) + b (ix2 0 n)) := by
  unfold k0_pay1
  exact leakyLinear_apply dot_S5000x64_S64x128_S5000x128_1_0_0_1_n_n rfl x w b _ _ _ _ p n

/-- Region 1's stored block at `(p, n)`: `Σ_k x[p,k]·w[k,n] + b[0,n]`. -/
theorem k1_pay1_apply (x : Vec Ideal S5000x128 .bf16) (w : Vec Ideal S128x256 .bf16) (b : Vec Ideal S1x256 .f32)
    (p : Fin 5000) (n : Fin 256) :
    k1_pay1 (F := Ideal) x w b (ix2 p n) = (∑ k : Fin 128, x (ix2 p k) * w (ix2 k n)) + b (ix2 0 n) := by
  unfold k1_pay1
  exact truncLinear_apply dot_S5000x128_S128x256_S5000x256_1_0_0_1_n_n rfl x w b _ _ _ _ _ p n

/-- Region 2's stored block at `(p, n)`: the leaky rectifier of `a[p,n] + c[p,n] + b[0,n]`. -/
theorem k2_pay1_apply (a c : Vec Ideal S8000x128 .bf16) (b : Vec Ideal S1x128 .f32) (p : Fin 8000) (n : Fin 128) :
    k2_pay1 (F := Ideal) a c b (ix2 p n) = Cert.Spec.leaky (a (ix2 p n) + c (ix2 p n) + b (ix2 0 n)) := by
  unfold k2_pay1
  exact leakyPairRow_apply a c b _ _ _ _ _ p n

/-- Region 3's stored block at `(p, n)`: `r[p,n]` plus the leaky rectifier of `Σ_k x[p,k]·w[k,n] + b[0,n]`. -/
theorem k3_pay1_apply (x : Vec Ideal S5000x384 .bf16) (w : Vec Ideal S384x128 .bf16) (b : Vec Ideal S1x128 .f32)
    (r : Vec Ideal S5000x128 .f32) (p : Fin 5000) (n : Fin 128) :
    k3_pay1 (F := Ideal) x w b r (ix2 p n)
      = r (ix2 p n) + Cert.Spec.leaky ((∑ k : Fin 384, x (ix2 p k) * w (ix2 k n)) + b (ix2 0 n)) := by
  unfold k3_pay1
  exact residLeakyLinear_apply dot_S5000x384_S384x128_S5000x128_1_0_0_1_n_n rfl x w b r _ _ _ _ _ p n

/-- Region 4's stored block at `(p, n)`: `Σ_k x[p,k]·w[k,n] + b[0,n]`. -/
theorem k4_pay1_apply (x : Vec Ideal S5000x128 .bf16) (w : Vec Ideal S128x256 .bf16) (b : Vec Ideal S1x256 .f32)
    (p : Fin 5000) (n : Fin 256) :
    k4_pay1 (F := Ideal) x w b (ix2 p n) = (∑ k : Fin 128, x (ix2 p k) * w (ix2 k n)) + b (ix2 0 n) := by
  unfold k4_pay1
  exact truncLinear_apply dot_S5000x128_S128x256_S5000x256_1_0_0_1_n_n rfl x w b _ _ _ _ _ p n

/-- Region 5's stored block at `(p, n)`: the leaky rectifier of `a[p,n] + c[p,n] + b[0,n]`. -/
theorem k5_pay1_apply (a c : Vec Ideal S8000x128 .bf16) (b : Vec Ideal S1x128 .f32) (p : Fin 8000) (n : Fin 128) :
    k5_pay1 (F := Ideal) a c b (ix2 p n) = Cert.Spec.leaky (a (ix2 p n) + c (ix2 p n) + b (ix2 0 n)) := by
  unfold k5_pay1
  exact leakyPairRow_apply a c b _ _ _ _ _ p n

/-- Region 6's stored block at `(p, n)`: `r[p,n]` plus the leaky rectifier of `Σ_k x[p,k]·w[k,n] + b[0,n]`. -/
theorem k6_pay1_apply (x : Vec Ideal S5000x384 .bf16) (w : Vec Ideal S384x128 .bf16) (b : Vec Ideal S1x128 .f32)
    (r : Vec Ideal S5000x128 .f32) (p : Fin 5000) (n : Fin 128) :
    k6_pay1 (F := Ideal) x w b r (ix2 p n)
      = r (ix2 p n) + Cert.Spec.leaky ((∑ k : Fin 384, x (ix2 p k) * w (ix2 k n)) + b (ix2 0 n)) := by
  unfold k6_pay1
  exact residLeakyLinear_apply dot_S5000x384_S384x128_S5000x128_1_0_0_1_n_n rfl x w b r _ _ _ _ _ p n

/-- Region 7's stored block at `(p, n)`: `Σ_k x[p,k]·w[k,n] + b[0,n]`. -/
theorem k7_pay1_apply (x : Vec Ideal S5000x128 .bf16) (w : Vec Ideal S128x256 .bf16) (b : Vec Ideal S1x256 .f32)
    (p : Fin 5000) (n : Fin 256) :
    k7_pay1 (F := Ideal) x w b (ix2 p n) = (∑ k : Fin 128, x (ix2 p k) * w (ix2 k n)) + b (ix2 0 n) := by
  unfold k7_pay1
  exact truncLinear_apply dot_S5000x128_S128x256_S5000x256_1_0_0_1_n_n rfl x w b _ _ _ _ _ p n

/-- Region 8's stored block at `(p, n)`: the leaky rectifier of `a[p,n] + c[p,n] + b[0,n]`. -/
theorem k8_pay1_apply (a c : Vec Ideal S8000x128 .bf16) (b : Vec Ideal S1x128 .f32) (p : Fin 8000) (n : Fin 128) :
    k8_pay1 (F := Ideal) a c b (ix2 p n) = Cert.Spec.leaky (a (ix2 p n) + c (ix2 p n) + b (ix2 0 n)) := by
  unfold k8_pay1
  exact leakyPairRow_apply a c b _ _ _ _ _ p n

/-- Region 9's stored block at `(p, n)`: `r[p,n]` plus the leaky rectifier of `Σ_k x[p,k]·w[k,n] + b[0,n]`. -/
theorem k9_pay1_apply (x : Vec Ideal S5000x384 .bf16) (w : Vec Ideal S384x128 .bf16) (b : Vec Ideal S1x128 .f32)
    (r : Vec Ideal S5000x128 .f32) (p : Fin 5000) (n : Fin 128) :
    k9_pay1 (F := Ideal) x w b r (ix2 p n)
      = r (ix2 p n) + Cert.Spec.leaky ((∑ k : Fin 384, x (ix2 p k) * w (ix2 k n)) + b (ix2 0 n)) := by
  unfold k9_pay1
  exact residLeakyLinear_apply dot_S5000x384_S384x128_S5000x128_1_0_0_1_n_n rfl x w b r _ _ _ _ _ p n

/-- Region 10's stored block at `(p, n)`: the leaky rectifier of `Σ_k x[p,k]·w[k,n] + b[0,n]`. -/
theorem k10_pay1_apply (x : Vec Ideal S10000x48 .bf16) (w : Vec Ideal S48x128 .bf16) (b : Vec Ideal S1x128 .f32)
    (p : Fin 10000) (n : Fin 128) :
    k10_pay1 (F := Ideal) x w b (ix2 p n)
      = Cert.Spec.leaky ((∑ k : Fin 48, x (ix2 p k) * w (ix2 k n)) + b (ix2 0 n)) := by
  unfold k10_pay1
  exact leakyLinear_apply dot_S10000x48_S48x128_S10000x128_1_0_0_1_n_n rfl x w b _ _ _ _ p n

/-- Region 11's stored block at `(p, n)`: `Σ_k x[p,k]·w[k,n] + b[0,n]`. -/
theorem k11_pay1_apply (x : Vec Ideal S5000x128 .bf16) (w : Vec Ideal S128x128 .bf16) (b : Vec Ideal S1x128 .f32)
    (p : Fin 5000) (n : Fin 128) :
    k11_pay1 (F := Ideal) x w b (ix2 p n) = (∑ k : Fin 128, x (ix2 p k) * w (ix2 k n)) + b (ix2 0 n) := by
  unfold k11_pay1
  exact truncLinear_apply dot_S5000x128_S128x128_S5000x128_1_0_0_1_n_n rfl x w b _ _ _ _ _ p n

/-- Region 12's stored block at `(p, n)`: `Σ_k x[p,k]·w[k,n] + b[0,n]`. -/
theorem k12_pay1_apply (x : Vec Ideal S10000x128 .bf16) (w : Vec Ideal S128x128 .bf16) (b : Vec Ideal S1x128 .f32)
    (p : Fin 10000) (n : Fin 128) :
    k12_pay1 (F := Ideal) x w b (ix2 p n) = (∑ k : Fin 128, x (ix2 p k) * w (ix2 k n)) + b (ix2 0 n) := by
  unfold k12_pay1
  exact truncLinear_apply dot_S10000x128_S128x128_S10000x128_1_0_0_1_n_n rfl x w b _ _ _ _ _ p n

/-- Region 13's stored column at `(p, u)`: `Σ_k tanh(a[p,k] + c[p,k] + b1[0,k]) · w2[0,k] + b2[0,0]`. -/
theorem k13_pay1_apply (a c : Vec Ideal S12000x128 .bf16) (b1 w2 : Vec Ideal S1x128 .f32) (b2 : Vec Ideal S1x1 .f32)
    (p : Fin 12000) (u : Fin 1) :
    k13_pay1 (F := Ideal) a c b1 w2 b2 (ix2 p u)
      = (∑ k : Fin 128, Ideal.tanh (a (ix2 p k) + c (ix2 p k) + b1 (ix2 0 k)) * w2 (ix2 0 k)) + b2 (ix2 0 0) := by
  unfold k13_pay1
  exact score_apply a c b1 w2 b2 _ _ _ _ _ _ _ _ _ _ _ p u

/-- Region 14's stored block at `(p, n)`: `Σ_k x[p,k]·w[k,n] + b[0,n]`. -/
theorem k14_pay1_apply (x : Vec Ideal S10000x131 .bf16) (w : Vec Ideal S131x256 .bf16) (b : Vec Ideal S1x256 .f32)
    (p : Fin 10000) (n : Fin 256) :
    k14_pay1 (F := Ideal) x w b (ix2 p n) = (∑ k : Fin 131, x (ix2 p k) * w (ix2 k n)) + b (ix2 0 n) := by
  unfold k14_pay1
  exact truncLinear_apply dot_S10000x131_S131x256_S10000x256_1_0_0_1_n_n rfl x w b _ _ _ _ _ p n

/-- Region 15's stored block at `(p, n)`: the leaky rectifier of `a[p,n] + c[p,n] + b[0,n]`. -/
theorem k15_pay1_apply (a c : Vec Ideal S12000x128 .bf16) (b : Vec Ideal S1x128 .f32) (p : Fin 12000) (n : Fin 128) :
    k15_pay1 (F := Ideal) a c b (ix2 p n) = Cert.Spec.leaky (a (ix2 p n) + c (ix2 p n) + b (ix2 0 n)) := by
  unfold k15_pay1
  exact leakyPairRow_apply a c b _ _ _ _ _ p n

/-- Region 16's stored block at `(p, n)`: `r[p,n]` plus the leaky rectifier of `Σ_k x[p,k]·w[k,n] + b[0,n]`. -/
theorem k16_pay1_apply (x : Vec Ideal S5000x256 .bf16) (w : Vec Ideal S256x128 .bf16) (b : Vec Ideal S1x128 .f32)
    (r : Vec Ideal S5000x128 .f32) (p : Fin 5000) (n : Fin 128) :
    k16_pay1 (F := Ideal) x w b r (ix2 p n)
      = r (ix2 p n) + Cert.Spec.leaky ((∑ k : Fin 256, x (ix2 p k) * w (ix2 k n)) + b (ix2 0 n)) := by
  unfold k16_pay1
  exact residLeakyLinear_apply dot_S5000x256_S256x128_S5000x128_1_0_0_1_n_n rfl x w b r _ _ _ _ _ p n

end Cert.KernelIdeal.Pay

end
-- ==== Proof.KI.Arr0.lean ====
import proofs.«173394_j29068338659455_2_alg».proof.Proof.KI.R0
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 0: what its output array holds after the region, as one function of the arrays the region was entered with.

The grid has 1 point; point `t` writes rows `5000·t … 5000·t + 4999` of the 5000-row output. Each stored entry is
the leaky rectifier of a dense layer's row, so row `r` of the output depends on row `r` of the row-blocked operands and on the
whole of the other operands. The blocks tile the rows (row `r` is written by point `r / 5000`), hence the whole array is
`G0` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz0 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Window 0's block at point `t`, read at an entry, is the array at the entry `block index × block size + the entry's own
    coordinate` on each axis. -/
theorem rd0_0 (c : Dev nD) (t : Fin cfg0.N) (y0 : Fin 5000) (y1 : Fin 64) (Y0 : Fin 5000) (Y1 : Fin 64)
    (h0 : win0_0.index t (0 : Fin 2) * 5000 + 1 * y0.val = Y0.val)
    (h1 : win0_0.index t (1 : Fin 2) * 64 + 1 * y1.val = Y1.val) :
    iblk0 V c 0 t (ix2 y0 y1) = V c (Pipeline.arrRef spec0 0) (ix2 Y0 Y1) := by
  show V c (Pipeline.arrRef spec0 0) (((cfg0.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd0_1 (c : Dev nD) (t : Fin cfg0.N) (y0 : Fin 64) (y1 : Fin 128) (Y0 : Fin 64) (Y1 : Fin 128)
    (h0 : win0_1.index t (0 : Fin 2) * 64 + 1 * y0.val = Y0.val)
    (h1 : win0_1.index t (1 : Fin 2) * 128 + 1 * y1.val = Y1.val) :
    iblk0 V c 1 t (ix2 y0 y1) = V c (Pipeline.arrRef spec0 1) (ix2 Y0 Y1) := by
  show V c (Pipeline.arrRef spec0 1) (((cfg0.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd0_2 (c : Dev nD) (t : Fin cfg0.N) (y0 : Fin 1) (y1 : Fin 128) (Y0 : Fin 1) (Y1 : Fin 128)
    (h0 : win0_2.index t (0 : Fin 2) * 1 + 1 * y0.val = Y0.val)
    (h1 : win0_2.index t (1 : Fin 2) * 128 + 1 * y1.val = Y1.val) :
    iblk0 V c 2 t (ix2 y0 y1) = V c (Pipeline.arrRef spec0 2) (ix2 Y0 Y1) := by
  show V c (Pipeline.arrRef spec0 2) (((cfg0.win 2).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb0_3 (t : Fin cfg0.N) (y0 : Fin 5000) (y1 : Fin 128) (Y0 : Fin 5000) (Y1 : Fin 128)
    (h0 : win0_3.index t (0 : Fin 2) * 5000 + 1 * y0.val = Y0.val)
    (h1 : win0_3.index t (1 : Fin 2) * 128 + 1 * y1.val = Y1.val) :
    ((cfg0.win 3).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G0` of the arrays, when the loaded blocks hold
    the rows of the arrays that entry depends on. -/
theorem point0
    (X' : Vec Ideal S5000x64 .bf16) (W' : Vec Ideal S64x128 .bf16) (B' : Vec Ideal S1x128 .f32)
    (x0 : Vec Ideal S5000x64 .bf16) (x1 : Vec Ideal S64x128 .bf16) (x2 : Vec Ideal S1x128 .f32)
    (p : Fin 5000) (n : Fin 128) (P : Fin 5000) (Q : Fin 128)
    (h0 : ∀ k : Fin 64, x0 (ix2 p k) = X' (ix2 P k))
    (h1 : ∀ k : Fin 64, x1 (ix2 k n) = W' (ix2 k Q))
    (h2 : x2 (ix2 0 n) = B' (ix2 0 Q)) :
    k0_pay1 (F := Ideal) x0 x1 x2 (ix2 p n) = G0 X' W' B' (ix2 P Q) := by
  rw [Cert.KernelIdeal.Pay.k0_pay1_apply, G0_apply]
  simp only [h0, h1, h2]

set_option maxHeartbeats 2000000 in
/-- What grid point `t` writes back is block `t` of `G0` of the arrays the region was entered with. -/
theorem flushed0_eq (c : Dev nD) (t : Fin cfg0.N) :
    (dat0 (F := Ideal) V c).flushed 3 t = ((cfg0.win 3).blk t).view.read (Elt Ideal)
      (G0 (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0
  rw [View.canon_unit_zero hz0]
  simp only [View.ld_unit_zero (S := S5000x64) hz0, View.ld_unit_zero (S := S64x128) hz0, View.ld_unit_zero (S := S1x128) hz0]
  obtain ⟨e0, e1, e2, e3, e4, e5, e6, e7⟩ := idx_facts0 t
  have htN : t.val < 1 := lt_of_lt_of_eq t.isLt (show cfg0.N = 1 from N_0)
  funext j
  obtain ⟨p, n, rfl⟩ : ∃ (p : Fin 5000) (n : Fin 128), j = ix2 p n := ⟨j 0, j 1, eq_ix2 (n0 := 5000) (n1 := 128) j⟩
  obtain ⟨P, hP⟩ : ∃ P : Fin 5000, P.val = t.val * 5000 + p.val := ⟨⟨t.val * 5000 + p.val, by have := p.isLt; omega⟩, rfl⟩
  show k0_pay1 (F := Ideal) (iblk0 V c 0 t) (iblk0 V c 1 t) (iblk0 V c 2 t) (ix2 p n)
      = G0 (V c (Pipeline.arrRef spec0 0)) (V c (Pipeline.arrRef spec0 1)) (V c (Pipeline.arrRef spec0 2)) (((cfg0.win 3).blk t).view.emb (ix2 p n))
  refine (point0 (V c (Pipeline.arrRef spec0 0)) (V c (Pipeline.arrRef spec0 1)) (V c (Pipeline.arrRef spec0 2))
    (iblk0 V c 0 t) (iblk0 V c 1 t) (iblk0 V c 2 t) p n P n
    (fun k => rd0_0 V c t p k P k (by omega) (by omega))
    (fun k => rd0_1 V c t k n k n (by omega) (by omega))
    (rd0_2 V c t 0 n 0 n (by omega) (by omega))).trans
    (congrArg (G0 (V c (Pipeline.arrRef spec0 0)) (V c (Pipeline.arrRef spec0 1)) (V c (Pipeline.arrRef spec0 2))) (emb0_3 t p n P n (by omega) (by omega)).symm)

/-- An index of the array is in point `t`'s block iff each coordinate is in the block's range on its axis. -/
theorem mem_blk0 (t : Fin cfg0.N) (i : S5000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v4).slice (win0_3.rect t)).set ↔ _
  rw [View.set_slice_whole, Rect.mem_set_unit]
  exact Iff.rfl

/-- Row `r` of the array is in the block of point `r / 5000`. -/
theorem cover0 (i : S5000x128.Idx) : ∃ t : Fin cfg0.N, (cfg0.win 3).flush t = true ∧ i ∈ ((cfg0.win 3).blk t).view.set := by
  have hi0 : (i 0).val < 5000 := (i 0).isLt
  have hi1 : (i 1).val < 128 := (i 1).isLt
  obtain ⟨t, ht⟩ : ∃ t : Fin cfg0.N, t.val = (i 0).val / 5000 :=
    ⟨⟨(i 0).val / 5000, by show _ < grid0.N; rw [N_0]; omega⟩, rfl⟩
  obtain ⟨e0, e1, e2, e3, e4, e5, e6, e7⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region is `G0` of the arrays the region was entered with. -/
theorem arr0 (c : Dev nD) :
    (dat0 (F := Ideal) V c).arrAt 3 cfg0.N = G0 (V c (Pipeline.arrRef spec0 0)) (V c (Pipeline.arrRef spec0 1)) (V c (Pipeline.arrRef spec0 2)) :=
  (dat0 (F := Ideal) V c).arrAt_eq_of_cover 3 _ (fun t _ => flushed0_eq V c t) cover0

end Cert.KernelIdeal.Arr

end
-- ==== Proof.KI.Arr1.lean ====
import proofs.«173394_j29068338659455_2_alg».proof.Proof.KI.R1
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 1: what its output array holds after the region, as one function of the arrays the region was entered with.

The grid has 1 point; point `t` writes rows `5000·t … 5000·t + 4999` of the 5000-row output. Each stored entry is
a dense layer's row, so row `r` of the output depends on row `r` of the row-blocked operands and on the
whole of the other operands. The blocks tile the rows (row `r` is written by point `r / 5000`), hence the whole array is
`G1` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz1 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Window 0's block at point `t`, read at an entry, is the array at the entry `block index × block size + the entry's own
    coordinate` on each axis. -/
theorem rd1_0 (c : Dev nD) (t : Fin cfg1.N) (y0 : Fin 5000) (y1 : Fin 128) (Y0 : Fin 5000) (Y1 : Fin 128)
    (h0 : win1_0.index t (0 : Fin 2) * 5000 + 1 * y0.val = Y0.val)
    (h1 : win1_0.index t (1 : Fin 2) * 128 + 1 * y1.val = Y1.val) :
    iblk1 V c 0 t (ix2 y0 y1) = V c (Pipeline.arrRef spec1 0) (ix2 Y0 Y1) := by
  show V c (Pipeline.arrRef spec1 0) (((cfg1.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd1_1 (c : Dev nD) (t : Fin cfg1.N) (y0 : Fin 128) (y1 : Fin 256) (Y0 : Fin 128) (Y1 : Fin 256)
    (h0 : win1_1.index t (0 : Fin 2) * 128 + 1 * y0.val = Y0.val)
    (h1 : win1_1.index t (1 : Fin 2) * 256 + 1 * y1.val = Y1.val) :
    iblk1 V c 1 t (ix2 y0 y1) = V c (Pipeline.arrRef spec1 1) (ix2 Y0 Y1) := by
  show V c (Pipeline.arrRef spec1 1) (((cfg1.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd1_2 (c : Dev nD) (t : Fin cfg1.N) (y0 : Fin 1) (y1 : Fin 256) (Y0 : Fin 1) (Y1 : Fin 256)
    (h0 : win1_2.index t (0 : Fin 2) * 1 + 1 * y0.val = Y0.val)
    (h1 : win1_2.index t (1 : Fin 2) * 256 + 1 * y1.val = Y1.val) :
    iblk1 V c 2 t (ix2 y0 y1) = V c (Pipeline.arrRef spec1 2) (ix2 Y0 Y1) := by
  show V c (Pipeline.arrRef spec1 2) (((cfg1.win 2).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb1_3 (t : Fin cfg1.N) (y0 : Fin 5000) (y1 : Fin 256) (Y0 : Fin 5000) (Y1 : Fin 256)
    (h0 : win1_3.index t (0 : Fin 2) * 5000 + 1 * y0.val = Y0.val)
    (h1 : win1_3.index t (1 : Fin 2) * 256 + 1 * y1.val = Y1.val) :
    ((cfg1.win 3).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G1` of the arrays, when the loaded blocks hold
    the rows of the arrays that entry depends on. -/
theorem point1
    (X' : Vec Ideal S5000x128 .bf16) (W' : Vec Ideal S128x256 .bf16) (B' : Vec Ideal S1x256 .f32)
    (x0 : Vec Ideal S5000x128 .bf16) (x1 : Vec Ideal S128x256 .bf16) (x2 : Vec Ideal S1x256 .f32)
    (p : Fin 5000) (n : Fin 256) (P : Fin 5000) (Q : Fin 256)
    (h0 : ∀ k : Fin 128, x0 (ix2 p k) = X' (ix2 P k))
    (h1 : ∀ k : Fin 128, x1 (ix2 k n) = W' (ix2 k Q))
    (h2 : x2 (ix2 0 n) = B' (ix2 0 Q)) :
    k1_pay1 (F := Ideal) x0 x1 x2 (ix2 p n) = G1 X' W' B' (ix2 P Q) := by
  rw [Cert.KernelIdeal.Pay.k1_pay1_apply, G1_apply]
  simp only [h0, h1, h2]

set_option maxHeartbeats 2000000 in
/-- What grid point `t` writes back is block `t` of `G1` of the arrays the region was entered with. -/
theorem flushed1_eq (c : Dev nD) (t : Fin cfg1.N) :
    (dat1 (F := Ideal) V c).flushed 3 t = ((cfg1.win 3).blk t).view.read (Elt Ideal)
      (G1 (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1
  rw [View.canon_unit_zero hz1]
  simp only [View.ld_unit_zero (S := S5000x128) hz1, View.ld_unit_zero (S := S128x256) hz1, View.ld_unit_zero (S := S1x256) hz1]
  obtain ⟨e0, e1, e2, e3, e4, e5, e6, e7⟩ := idx_facts1 t
  have htN : t.val < 1 := lt_of_lt_of_eq t.isLt (show cfg1.N = 1 from N_1)
  funext j
  obtain ⟨p, n, rfl⟩ : ∃ (p : Fin 5000) (n : Fin 256), j = ix2 p n := ⟨j 0, j 1, eq_ix2 (n0 := 5000) (n1 := 256) j⟩
  obtain ⟨P, hP⟩ : ∃ P : Fin 5000, P.val = t.val * 5000 + p.val := ⟨⟨t.val * 5000 + p.val, by have := p.isLt; omega⟩, rfl⟩
  show k1_pay1 (F := Ideal) (iblk1 V c 0 t) (iblk1 V c 1 t) (iblk1 V c 2 t) (ix2 p n)
      = G1 (V c (Pipeline.arrRef spec1 0)) (V c (Pipeline.arrRef spec1 1)) (V c (Pipeline.arrRef spec1 2)) (((cfg1.win 3).blk t).view.emb (ix2 p n))
  refine (point1 (V c (Pipeline.arrRef spec1 0)) (V c (Pipeline.arrRef spec1 1)) (V c (Pipeline.arrRef spec1 2))
    (iblk1 V c 0 t) (iblk1 V c 1 t) (iblk1 V c 2 t) p n P n
    (fun k => rd1_0 V c t p k P k (by omega) (by omega))
    (fun k => rd1_1 V c t k n k n (by omega) (by omega))
    (rd1_2 V c t 0 n 0 n (by omega) (by omega))).trans
    (congrArg (G1 (V c (Pipeline.arrRef spec1 0)) (V c (Pipeline.arrRef spec1 1)) (V c (Pipeline.arrRef spec1 2))) (emb1_3 t p n P n (by omega) (by omega)).symm)

/-- An index of the array is in point `t`'s block iff each coordinate is in the block's range on its axis. -/
theorem mem_blk1 (t : Fin cfg1.N) (i : S5000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v22).slice (win1_3.rect t)).set ↔ _
  rw [View.set_slice_whole, Rect.mem_set_unit]
  exact Iff.rfl

/-- Row `r` of the array is in the block of point `r / 5000`. -/
theorem cover1 (i : S5000x256.Idx) : ∃ t : Fin cfg1.N, (cfg1.win 3).flush t = true ∧ i ∈ ((cfg1.win 3).blk t).view.set := by
  have hi0 : (i 0).val < 5000 := (i 0).isLt
  have hi1 : (i 1).val < 256 := (i 1).isLt
  obtain ⟨t, ht⟩ : ∃ t : Fin cfg1.N, t.val = (i 0).val / 5000 :=
    ⟨⟨(i 0).val / 5000, by show _ < grid1.N; rw [N_1]; omega⟩, rfl⟩
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 256 ≤ (i 1).val ∧ (i 1).val < win1_3.index t (1 : Fin 2) * 256 + 256; omega

/-- The output array after the region is `G1` of the arrays the region was entered with. -/
theorem arr1 (c : Dev nD) :
    (dat1 (F := Ideal) V c).arrAt 3 cfg1.N = G1 (V c (Pipeline.arrRef spec1 0)) (V c (Pipeline.arrRef spec1 1)) (V c (Pipeline.arrRef spec1 2)) :=
  (dat1 (F := Ideal) V c).arrAt_eq_of_cover 3 _ (fun t _ => flushed1_eq V c t) cover1

end Cert.KernelIdeal.Arr

end
-- ==== Proof.KI.Arr2.lean ====
import proofs.«173394_j29068338659455_2_alg».proof.Proof.KI.R2
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 2: what its output array holds after the region, as one function of the arrays the region was entered with.

The grid has 10 points; point `t` writes rows `8000·t … 8000·t + 7999` of the 80000-row output. Each stored entry is
the leaky rectifier of the sum of two rows and a bias row, so row `r` of the output depends on row `r` of the row-blocked operands and on the
whole of the other operands. The blocks tile the rows (row `r` is written by point `r / 8000`), hence the whole array is
`G2` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- Window 0's block at point `t`, read at an entry, is the array at the entry `block index × block size + the entry's own
    coordinate` on each axis. -/
theorem rd2_0 (c : Dev nD) (t : Fin cfg2.N) (y0 : Fin 8000) (y1 : Fin 128) (Y0 : Fin 80000) (Y1 : Fin 128)
    (h0 : win2_0.index t (0 : Fin 2) * 8000 + 1 * y0.val = Y0.val)
    (h1 : win2_0.index t (1 : Fin 2) * 128 + 1 * y1.val = Y1.val) :
    iblk2 V c 0 t (ix2 y0 y1) = V c (Pipeline.arrRef spec2 0) (ix2 Y0 Y1) := by
  show V c (Pipeline.arrRef spec2 0) (((cfg2.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd2_1 (c : Dev nD) (t : Fin cfg2.N) (y0 : Fin 8000) (y1 : Fin 128) (Y0 : Fin 80000) (Y1 : Fin 128)
    (h0 : win2_1.index t (0 : Fin 2) * 8000 + 1 * y0.val = Y0.val)
    (h1 : win2_1.index t (1 : Fin 2) * 128 + 1 * y1.val = Y1.val) :
    iblk2 V c 1 t (ix2 y0 y1) = V c (Pipeline.arrRef spec2 1) (ix2 Y0 Y1) := by
  show V c (Pipeline.arrRef spec2 1) (((cfg2.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd2_2 (c : Dev nD) (t : Fin cfg2.N) (y0 : Fin 1) (y1 : Fin 128) (Y0 : Fin 1) (Y1 : Fin 128)
    (h0 : win2_2.index t (0 : Fin 2) * 1 + 1 * y0.val = Y0.val)
    (h1 : win2_2.index t (1 : Fin 2) * 128 + 1 * y1.val = Y1.val) :
    iblk2 V c 2 t (ix2 y0 y1) = V c (Pipeline.arrRef spec2 2) (ix2 Y0 Y1) := by
  show V c (Pipeline.arrRef spec2 2) (((cfg2.win 2).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb2_3 (t : Fin cfg2.N) (y0 : Fin 8000) (y1 : Fin 128) (Y0 : Fin 80000) (Y1 : Fin 128)
    (h0 : win2_3.index t (0 : Fin 2) * 8000 + 1 * y0.val = Y0.val)
    (h1 : win2_3.index t (1 : Fin 2) * 128 + 1 * y1.val = Y1.val) :
    ((cfg2.win 3).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G2` of the arrays, when the loaded blocks hold
    the rows of the arrays that entry depends on. -/
theorem point2
    (A' : Vec Ideal S80000x128 .bf16) (C' : Vec Ideal S80000x128 .bf16) (B' : Vec Ideal S1x128 .f32)
    (x0 : Vec Ideal S8000x128 .bf16) (x1 : Vec Ideal S8000x128 .bf16) (x2 : Vec Ideal S1x128 .f32)
    (p : Fin 8000) (n : Fin 128) (P : Fin 80000) (Q : Fin 128)
    (h0 : x0 (ix2 p n) = A' (ix2 P Q))
    (h1 : x1 (ix2 p n) = C' (ix2 P Q))
    (h2 : x2 (ix2 0 n) = B' (ix2 0 Q)) :
    k2_pay1 (F := Ideal) x0 x1 x2 (ix2 p n) = G2 A' C' B' (ix2 P Q) := by
  rw [Cert.KernelIdeal.Pay.k2_pay1_apply, G2_apply]
  simp only [h0, h1, h2]

set_option maxHeartbeats 2000000 in
/-- What grid point `t` writes back is block `t` of `G2` of the arrays the region was entered with. -/
theorem flushed2_eq (c : Dev nD) (t : Fin cfg2.N) :
    (dat2 (F := Ideal) V c).flushed 3 t = ((cfg2.win 3).blk t).view.read (Elt Ideal)
      (G2 (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2
  rw [View.canon_unit_zero hz2]
  simp only [View.ld_unit_zero (S := S8000x128) hz2, View.ld_unit_zero (S := S1x128) hz2]
  obtain ⟨e0, e1, e2, e3, e4, e5, e6, e7⟩ := idx_facts2 t
  have htN : t.val < 10 := lt_of_lt_of_eq t.isLt (show cfg2.N = 10 from N_2)
  funext j
  obtain ⟨p, n, rfl⟩ : ∃ (p : Fin 8000) (n : Fin 128), j = ix2 p n := ⟨j 0, j 1, eq_ix2 (n0 := 8000) (n1 := 128) j⟩
  obtain ⟨P, hP⟩ : ∃ P : Fin 80000, P.val = t.val * 8000 + p.val := ⟨⟨t.val * 8000 + p.val, by have := p.isLt; omega⟩, rfl⟩
  show k2_pay1 (F := Ideal) (iblk2 V c 0 t) (iblk2 V c 1 t) (iblk2 V c 2 t) (ix2 p n)
      = G2 (V c (Pipeline.arrRef spec2 0)) (V c (Pipeline.arrRef spec2 1)) (V c (Pipeline.arrRef spec2 2)) (((cfg2.win 3).blk t).view.emb (ix2 p n))
  refine (point2 (V c (Pipeline.arrRef spec2 0)) (V c (Pipeline.arrRef spec2 1)) (V c (Pipeline.arrRef spec2 2))
    (iblk2 V c 0 t) (iblk2 V c 1 t) (iblk2 V c 2 t) p n P n
    (rd2_0 V c t p n P n (by omega) (by omega))
    (rd2_1 V c t p n P n (by omega) (by omega))
    (rd2_2 V c t 0 n 0 n (by omega) (by omega))).trans
    (congrArg (G2 (V c (Pipeline.arrRef spec2 0)) (V c (Pipeline.arrRef spec2 1)) (V c (Pipeline.arrRef spec2 2))) (emb2_3 t p n P n (by omega) (by omega)).symm)

/-- An index of the array is in point `t`'s block iff each coordinate is in the block's range on its axis. -/
theorem mem_blk2 (t : Fin cfg2.N) (i : S80000x128.Idx) :
    i ∈ ((cfg2.win 3).blk t).view.set ↔ ∀ a : Fin 2, win2_3.index t a * S8000x128.size a ≤ (i a).val ∧ (i a).val < win2_3.index t a * S8000x128.size a + S8000x128.size a := by
  show i ∈ ((View.whole main_v42).slice (win2_3.rect t)).set ↔ _
  rw [View.set_slice_whole, Rect.mem_set_unit]
  exact Iff.rfl

/-- Row `r` of the array is in the block of point `r / 8000`. -/
theorem cover2 (i : S80000x128.Idx) : ∃ t : Fin cfg2.N, (cfg2.win 3).flush t = true ∧ i ∈ ((cfg2.win 3).blk t).view.set := by
  have hi0 : (i 0).val < 80000 := (i 0).isLt
  have hi1 : (i 1).val < 128 := (i 1).isLt
  obtain ⟨t, ht⟩ : ∃ t : Fin cfg2.N, t.val = (i 0).val / 8000 :=
    ⟨⟨(i 0).val / 8000, by show _ < grid2.N; rw [N_2]; omega⟩, rfl⟩
  obtain ⟨e0, e1, e2, e3, e4, e5, e6, e7⟩ := idx_facts2 t
  refine ⟨t, flush2_3 t, ?_⟩
  rw [mem_blk2]
  intro a
  match a with
  | ⟨0, _⟩ => show win2_3.index t (0 : Fin 2) * 8000 ≤ (i 0).val ∧ (i 0).val < win2_3.index t (0 : Fin 2) * 8000 + 8000; omega
  | ⟨1, _⟩ => show win2_3.index t (1 : Fin 2) * 128 ≤ (i 1).val ∧ (i 1).val < win2_3.index t (1 : Fin 2) * 128 + 128; omega

/-- The output array after the region is `G2` of the arrays the region was entered with. -/
theorem arr2 (c : Dev nD) :
    (dat2 (F := Ideal) V c).arrAt 3 cfg2.N = G2 (V c (Pipeline.arrRef spec2 0)) (V c (Pipeline.arrRef spec2 1)) (V c (Pipeline.arrRef spec2 2)) :=
  (dat2 (F := Ideal) V c).arrAt_eq_of_cover 3 _ (fun t _ => flushed2_eq V c t) cover2

end Cert.KernelIdeal.Arr

end
-- ==== Proof.KI.Arr3.lean ====
import proofs.«173394_j29068338659455_2_alg».proof.Proof.KI.R3
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 3: what its output array holds after the region, as one function of the arrays the region was entered with.

The grid has 1 point; point `t` writes rows `5000·t … 5000·t + 4999` of the 5000-row output. Each stored entry is
a residual row plus the leaky rectifier of a dense layer's row, so row `r` of the output depends on row `r` of the row-blocked operands and on the
whole of the other operands. The blocks tile the rows (row `r` is written by point `r / 5000`), hence the whole array is
`G3` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz3 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0
    ∧ win3_4.index t (0 : Fin 2) = t.val
    ∧ win3_4.index t (1 : Fin 2) = 0 :=
  (by decide +kernel : ∀ t : Fin grid3.N, _)

/-- Window 0's block at point `t`, read at an entry, is the array at the entry `block index × block size + the entry's own
    coordinate` on each axis. -/
theorem rd3_0 (c : Dev nD) (t : Fin cfg3.N) (y0 : Fin 5000) (y1 : Fin 384) (Y0 : Fin 5000) (Y1 : Fin 384)
    (h0 : win3_0.index t (0 : Fin 2) * 5000 + 1 * y0.val = Y0.val)
    (h1 : win3_0.index t (1 : Fin 2) * 384 + 1 * y1.val = Y1.val) :
    iblk3 V c 0 t (ix2 y0 y1) = V c (Pipeline.arrRef spec3 0) (ix2 Y0 Y1) := by
  show V c (Pipeline.arrRef spec3 0) (((cfg3.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd3_1 (c : Dev nD) (t : Fin cfg3.N) (y0 : Fin 384) (y1 : Fin 128) (Y0 : Fin 384) (Y1 : Fin 128)
    (h0 : win3_1.index t (0 : Fin 2) * 384 + 1 * y0.val = Y0.val)
    (h1 : win3_1.index t (1 : Fin 2) * 128 + 1 * y1.val = Y1.val) :
    iblk3 V c 1 t (ix2 y0 y1) = V c (Pipeline.arrRef spec3 1) (ix2 Y0 Y1) := by
  show V c (Pipeline.arrRef spec3 1) (((cfg3.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd3_2 (c : Dev nD) (t : Fin cfg3.N) (y0 : Fin 1) (y1 : Fin 128) (Y0 : Fin 1) (Y1 : Fin 128)
    (h0 : win3_2.index t (0 : Fin 2) * 1 + 1 * y0.val = Y0.val)
    (h1 : win3_2.index t (1 : Fin 2) * 128 + 1 * y1.val = Y1.val) :
    iblk3 V c 2 t (ix2 y0 y1) = V c (Pipeline.arrRef spec3 2) (ix2 Y0 Y1) := by
  show V c (Pipeline.arrRef spec3 2) (((cfg3.win 2).blk t).view.emb (ix2 y0 y1)) = _
  refine congrArg _ (funext fun a => Fin.ext ?_)
  match a with
  | ⟨0, _⟩ => exact h0
  | ⟨1, _⟩ => exact h1

/-- Window 3's block at point `t`, read at an entry, is the array at the entry `block index × block size + the entry's own
    coordinate` on each axis. -/
theorem rd3_3 (c : Dev nD) (t : Fin cfg3.N) (y0 : Fin 5000) (y1 : Fin 128) (Y0 : Fin 5000) (Y1 : Fin 128)
    (h0 : win3_3.index t (0 : Fin 2) * 5000 + 1 * y0.val = Y0.val)
    (h1 : win3_3.index t (1 : Fin 2) * 128 + 1 * y1.val = Y1.val) :
    iblk3 V c 3 t (ix2 y0 y1) = V c (Pipeline.arrRef spec3 3) (ix2 Y0 Y1) := by
  show V c (Pipeline.arrRef spec3 3) (((cfg3.win 3).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb3_4 (t : Fin cfg3.N) (y0 : Fin 5000) (y1 : Fin 128) (Y0 : Fin 5000) (Y1 : Fin 128)
    (h0 : win3_4.index t (0 : Fin 2) * 5000 + 1 * y0.val = Y0.val)
    (h1 : win3_4.index t (1 : Fin 2) * 128 + 1 * y1.val = Y1.val) :
    ((cfg3.win 4).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G3` of the arrays, when the loaded blocks hold
    the rows of the arrays that entry depends on. -/
theorem point3
    (X' : Vec Ideal S5000x384 .bf16) (W' : Vec Ideal S384x128 .bf16) (B' : Vec Ideal S1x128 .f32) (R' : Vec Ideal S5000x128 .f32)
    (x0 : Vec Ideal S5000x384 .bf16) (x1 : Vec Ideal S384x128 .bf16) (x2 : Vec Ideal S1x128 .f32) (x3 : Vec Ideal S5000x128 .f32)
    (p : Fin 5000) (n : Fin 128) (P : Fin 5000) (Q : Fin 128)
    (h0 : ∀ k : Fin 384, x0 (ix2 p k) = X' (ix2 P k))
    (h1 : ∀ k : Fin 384, x1 (ix2 k n) = W' (ix2 k Q))
    (h2 : x2 (ix2 0 n) = B' (ix2 0 Q))
    (h3 : x3 (ix2 p n) = R' (ix2 P Q)) :
    k3_pay1 (F := Ideal) x0 x1 x2 x3 (ix2 p n) = G3 X' W' B' R' (ix2 P Q) := by
  rw [Cert.KernelIdeal.Pay.k3_pay1_apply, G3_apply]
  simp only [h0, h1, h2, h3]

set_option maxHeartbeats 2000000 in
/-- What grid point `t` writes back is block `t` of `G3` of the arrays the region was entered with. -/
theorem flushed3_eq (c : Dev nD) (t : Fin cfg3.N) :
    (dat3 (F := Ideal) V c).flushed 4 t = ((cfg3.win 4).blk t).view.read (Elt Ideal)
      (G3 (V c (Pipeline.arrRef spec3 0)) (V c (Pipeline.arrRef spec3 1)) (V c (Pipeline.arrRef spec3 2)) (V c (Pipeline.arrRef spec3 3))) := by
  show (cfg3.win 4).cut (grid3.coords t) ((dat3 (F := Ideal) V c).after 4 t) = _
  rw [after3_4]
  unfold out3
  rw [View.canon_unit_zero hz3]
  simp only [View.ld_unit_zero (S := S5000x384) hz3, View.ld_unit_zero (S := S384x128) hz3, View.ld_unit_zero (S := S1x128) hz3, View.ld_unit_zero (S := S5000x128) hz3]
  obtain ⟨e0, e1, e2, e3, e4, e5, e6, e7, e8, e9⟩ := idx_facts3 t
  have htN : t.val < 1 := lt_of_lt_of_eq t.isLt (show cfg3.N = 1 from N_3)
  funext j
  obtain ⟨p, n, rfl⟩ : ∃ (p : Fin 5000) (n : Fin 128), j = ix2 p n := ⟨j 0, j 1, eq_ix2 (n0 := 5000) (n1 := 128) j⟩
  obtain ⟨P, hP⟩ : ∃ P : Fin 5000, P.val = t.val * 5000 + p.val := ⟨⟨t.val * 5000 + p.val, by have := p.isLt; omega⟩, rfl⟩
  show k3_pay1 (F := Ideal) (iblk3 V c 0 t) (iblk3 V c 1 t) (iblk3 V c 2 t) (iblk3 V c 3 t) (ix2 p n)
      = G3 (V c (Pipeline.arrRef spec3 0)) (V c (Pipeline.arrRef spec3 1)) (V c (Pipeline.arrRef spec3 2)) (V c (Pipeline.arrRef spec3 3)) (((cfg3.win 4).blk t).view.emb (ix2 p n))
  refine (point3 (V c (Pipeline.arrRef spec3 0)) (V c (Pipeline.arrRef spec3 1)) (V c (Pipeline.arrRef spec3 2)) (V c (Pipeline.arrRef spec3 3))
    (iblk3 V c 0 t) (iblk3 V c 1 t) (iblk3 V c 2 t) (iblk3 V c 3 t) p n P n
    (fun k => rd3_0 V c t p k P k (by omega) (by omega))
    (fun k => rd3_1 V c t k n k n (by omega) (by omega))
    (rd3_2 V c t 0 n 0 n (by omega) (by omega))
    (rd3_3 V c t p n P n (by omega) (by omega))).trans
    (congrArg (G3 (V c (Pipeline.arrRef spec3 0)) (V c (Pipeline.arrRef spec3 1)) (V c (Pipeline.arrRef spec3 2)) (V c (Pipeline.arrRef spec3 3))) (emb3_4 t p n P n (by omega) (by omega)).symm)

/-- An index of the array is in point `t`'s block iff each coordinate is in the block's range on its axis. -/
theorem mem_blk3 (t : Fin cfg3.N) (i : S5000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v84).slice (win3_4.rect t)).set ↔ _
  rw [View.set_slice_whole, Rect.mem_set_unit]
  exact Iff.rfl

/-- Row `r` of the array is in the block of point `r / 5000`. -/
theorem cover3 (i : S5000x128.Idx) : ∃ t : Fin cfg3.N, (cfg3.win 4).flush t = true ∧ i ∈ ((cfg3.win 4).blk t).view.set := by
  have hi0 : (i 0).val < 5000 := (i 0).isLt
  have hi1 : (i 1).val < 128 := (i 1).isLt
  obtain ⟨t, ht⟩ : ∃ t : Fin cfg3.N, t.val = (i 0).val / 5000 :=
    ⟨⟨(i 0).val / 5000, by show _ < grid3.N; rw [N_3]; omega⟩, rfl⟩
  obtain ⟨e0, e1, e2, e3, e4, e5, e6, e7, e8, e9⟩ := idx_facts3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The output array after the region is `G3` of the arrays the region was entered with. -/
theorem arr3 (c : Dev nD) :
    (dat3 (F := Ideal) V c).arrAt 4 cfg3.N = G3 (V c (Pipeline.arrRef spec3 0)) (V c (Pipeline.arrRef spec3 1)) (V c (Pipeline.arrRef spec3 2)) (V c (Pipeline.arrRef spec3 3)) :=
  (dat3 (F := Ideal) V c).arrAt_eq_of_cover 4 _ (fun t _ => flushed3_eq V c t) cover3

end Cert.KernelIdeal.Arr

end
-- ==== Proof.KI.Arr4.lean ====
import proofs.«173394_j29068338659455_2_alg».proof.Proof.KI.R4
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 4: what its output array holds after the region, as one function of the arrays the region was entered with.

The grid has 1 point; point `t` writes rows `5000·t … 5000·t + 4999` of the 5000-row output. Each stored entry is
a dense layer's row, so row `r` of the output depends on row `r` of the row-blocked operands and on the
whole of the other operands. The blocks tile the rows (row `r` is written by point `r / 5000`), hence the whole array is
`G4` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz4 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- Window 0's block at point `t`, read at an entry, is the array at the entry `block index × block size + the entry's own
    coordinate` on each axis. -/
theorem rd4_0 (c : Dev nD) (t : Fin cfg4.N) (y0 : Fin 5000) (y1 : Fin 128) (Y0 : Fin 5000) (Y1 : Fin 128)
    (h0 : win4_0.index t (0 : Fin 2) * 5000 + 1 * y0.val = Y0.val)
    (h1 : win4_0.index t (1 : Fin 2) * 128 + 1 * y1.val = Y1.val) :
    iblk4 V c 0 t (ix2 y0 y1) = V c (Pipeline.arrRef spec4 0) (ix2 Y0 Y1) := by
  show V c (Pipeline.arrRef spec4 0) (((cfg4.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd4_1 (c : Dev nD) (t : Fin cfg4.N) (y0 : Fin 128) (y1 : Fin 256) (Y0 : Fin 128) (Y1 : Fin 256)
    (h0 : win4_1.index t (0 : Fin 2) * 128 + 1 * y0.val = Y0.val)
    (h1 : win4_1.index t (1 : Fin 2) * 256 + 1 * y1.val = Y1.val) :
    iblk4 V c 1 t (ix2 y0 y1) = V c (Pipeline.arrRef spec4 1) (ix2 Y0 Y1) := by
  show V c (Pipeline.arrRef spec4 1) (((cfg4.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd4_2 (c : Dev nD) (t : Fin cfg4.N) (y0 : Fin 1) (y1 : Fin 256) (Y0 : Fin 1) (Y1 : Fin 256)
    (h0 : win4_2.index t (0 : Fin 2) * 1 + 1 * y0.val = Y0.val)
    (h1 : win4_2.index t (1 : Fin 2) * 256 + 1 * y1.val = Y1.val) :
    iblk4 V c 2 t (ix2 y0 y1) = V c (Pipeline.arrRef spec4 2) (ix2 Y0 Y1) := by
  show V c (Pipeline.arrRef spec4 2) (((cfg4.win 2).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb4_3 (t : Fin cfg4.N) (y0 : Fin 5000) (y1 : Fin 256) (Y0 : Fin 5000) (Y1 : Fin 256)
    (h0 : win4_3.index t (0 : Fin 2) * 5000 + 1 * y0.val = Y0.val)
    (h1 : win4_3.index t (1 : Fin 2) * 256 + 1 * y1.val = Y1.val) :
    ((cfg4.win 3).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G4` of the arrays, when the loaded blocks hold
    the rows of the arrays that entry depends on. -/
theorem point4
    (X' : Vec Ideal S5000x128 .bf16) (W' : Vec Ideal S128x256 .bf16) (B' : Vec Ideal S1x256 .f32)
    (x0 : Vec Ideal S5000x128 .bf16) (x1 : Vec Ideal S128x256 .bf16) (x2 : Vec Ideal S1x256 .f32)
    (p : Fin 5000) (n : Fin 256) (P : Fin 5000) (Q : Fin 256)
    (h0 : ∀ k : Fin 128, x0 (ix2 p k) = X' (ix2 P k))
    (h1 : ∀ k : Fin 128, x1 (ix2 k n) = W' (ix2 k Q))
    (h2 : x2 (ix2 0 n) = B' (ix2 0 Q)) :
    k4_pay1 (F := Ideal) x0 x1 x2 (ix2 p n) = G4 X' W' B' (ix2 P Q) := by
  rw [Cert.KernelIdeal.Pay.k4_pay1_apply, G4_apply]
  simp only [h0, h1, h2]

set_option maxHeartbeats 2000000 in
/-- What grid point `t` writes back is block `t` of `G4` of the arrays the region was entered with. -/
theorem flushed4_eq (c : Dev nD) (t : Fin cfg4.N) :
    (dat4 (F := Ideal) V c).flushed 3 t = ((cfg4.win 3).blk t).view.read (Elt Ideal)
      (G4 (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold out4
  rw [View.canon_unit_zero hz4]
  simp only [View.ld_unit_zero (S := S5000x128) hz4, View.ld_unit_zero (S := S128x256) hz4, View.ld_unit_zero (S := S1x256) hz4]
  obtain ⟨e0, e1, e2, e3, e4, e5, e6, e7⟩ := idx_facts4 t
  have htN : t.val < 1 := lt_of_lt_of_eq t.isLt (show cfg4.N = 1 from N_4)
  funext j
  obtain ⟨p, n, rfl⟩ : ∃ (p : Fin 5000) (n : Fin 256), j = ix2 p n := ⟨j 0, j 1, eq_ix2 (n0 := 5000) (n1 := 256) j⟩
  obtain ⟨P, hP⟩ : ∃ P : Fin 5000, P.val = t.val * 5000 + p.val := ⟨⟨t.val * 5000 + p.val, by have := p.isLt; omega⟩, rfl⟩
  show k4_pay1 (F := Ideal) (iblk4 V c 0 t) (iblk4 V c 1 t) (iblk4 V c 2 t) (ix2 p n)
      = G4 (V c (Pipeline.arrRef spec4 0)) (V c (Pipeline.arrRef spec4 1)) (V c (Pipeline.arrRef spec4 2)) (((cfg4.win 3).blk t).view.emb (ix2 p n))
  refine (point4 (V c (Pipeline.arrRef spec4 0)) (V c (Pipeline.arrRef spec4 1)) (V c (Pipeline.arrRef spec4 2))
    (iblk4 V c 0 t) (iblk4 V c 1 t) (iblk4 V c 2 t) p n P n
    (fun k => rd4_0 V c t p k P k (by omega) (by omega))
    (fun k => rd4_1 V c t k n k n (by omega) (by omega))
    (rd4_2 V c t 0 n 0 n (by omega) (by omega))).trans
    (congrArg (G4 (V c (Pipeline.arrRef spec4 0)) (V c (Pipeline.arrRef spec4 1)) (V c (Pipeline.arrRef spec4 2))) (emb4_3 t p n P n (by omega) (by omega)).symm)

/-- An index of the array is in point `t`'s block iff each coordinate is in the block's range on its axis. -/
theorem mem_blk4 (t : Fin cfg4.N) (i : S5000x256.Idx) :
    i ∈ ((cfg4.win 3).blk t).view.set ↔ ∀ a : Fin 2, win4_3.index t a * S5000x256.size a ≤ (i a).val ∧ (i a).val < win4_3.index t a * S5000x256.size a + S5000x256.size a := by
  show i ∈ ((View.whole main_v96).slice (win4_3.rect t)).set ↔ _
  rw [View.set_slice_whole, Rect.mem_set_unit]
  exact Iff.rfl

/-- Row `r` of the array is in the block of point `r / 5000`. -/
theorem cover4 (i : S5000x256.Idx) : ∃ t : Fin cfg4.N, (cfg4.win 3).flush t = true ∧ i ∈ ((cfg4.win 3).blk t).view.set := by
  have hi0 : (i 0).val < 5000 := (i 0).isLt
  have hi1 : (i 1).val < 256 := (i 1).isLt
  obtain ⟨t, ht⟩ : ∃ t : Fin cfg4.N, t.val = (i 0).val / 5000 :=
    ⟨⟨(i 0).val / 5000, by show _ < grid4.N; rw [N_4]; omega⟩, rfl⟩
  obtain ⟨e0, e1, e2, e3, e4, e5, e6, e7⟩ := idx_facts4 t
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 256 ≤ (i 1).val ∧ (i 1).val < win4_3.index t (1 : Fin 2) * 256 + 256; omega

/-- The output array after the region is `G4` of the arrays the region was entered with. -/
theorem arr4 (c : Dev nD) :
    (dat4 (F := Ideal) V c).arrAt 3 cfg4.N = G4 (V c (Pipeline.arrRef spec4 0)) (V c (Pipeline.arrRef spec4 1)) (V c (Pipeline.arrRef spec4 2)) :=
  (dat4 (F := Ideal) V c).arrAt_eq_of_cover 3 _ (fun t _ => flushed4_eq V c t) cover4

end Cert.KernelIdeal.Arr

end
-- ==== Proof.KI.Arr5.lean ====
import proofs.«173394_j29068338659455_2_alg».proof.Proof.KI.R5
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 5: what its output array holds after the region, as one function of the arrays the region was entered with.

The grid has 10 points; point `t` writes rows `8000·t … 8000·t + 7999` of the 80000-row output. Each stored entry is
the leaky rectifier of the sum of two rows and a bias row, so row `r` of the output depends on row `r` of the row-blocked operands and on the
whole of the other operands. The blocks tile the rows (row `r` is written by point `r / 8000`), hence the whole array is
`G5` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz5 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

/-- Window 0's block at point `t`, read at an entry, is the array at the entry `block index × block size + the entry's own
    coordinate` on each axis. -/
theorem rd5_0 (c : Dev nD) (t : Fin cfg5.N) (y0 : Fin 8000) (y1 : Fin 128) (Y0 : Fin 80000) (Y1 : Fin 128)
    (h0 : win5_0.index t (0 : Fin 2) * 8000 + 1 * y0.val = Y0.val)
    (h1 : win5_0.index t (1 : Fin 2) * 128 + 1 * y1.val = Y1.val) :
    iblk5 V c 0 t (ix2 y0 y1) = V c (Pipeline.arrRef spec5 0) (ix2 Y0 Y1) := by
  show V c (Pipeline.arrRef spec5 0) (((cfg5.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd5_1 (c : Dev nD) (t : Fin cfg5.N) (y0 : Fin 8000) (y1 : Fin 128) (Y0 : Fin 80000) (Y1 : Fin 128)
    (h0 : win5_1.index t (0 : Fin 2) * 8000 + 1 * y0.val = Y0.val)
    (h1 : win5_1.index t (1 : Fin 2) * 128 + 1 * y1.val = Y1.val) :
    iblk5 V c 1 t (ix2 y0 y1) = V c (Pipeline.arrRef spec5 1) (ix2 Y0 Y1) := by
  show V c (Pipeline.arrRef spec5 1) (((cfg5.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd5_2 (c : Dev nD) (t : Fin cfg5.N) (y0 : Fin 1) (y1 : Fin 128) (Y0 : Fin 1) (Y1 : Fin 128)
    (h0 : win5_2.index t (0 : Fin 2) * 1 + 1 * y0.val = Y0.val)
    (h1 : win5_2.index t (1 : Fin 2) * 128 + 1 * y1.val = Y1.val) :
    iblk5 V c 2 t (ix2 y0 y1) = V c (Pipeline.arrRef spec5 2) (ix2 Y0 Y1) := by
  show V c (Pipeline.arrRef spec5 2) (((cfg5.win 2).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb5_3 (t : Fin cfg5.N) (y0 : Fin 8000) (y1 : Fin 128) (Y0 : Fin 80000) (Y1 : Fin 128)
    (h0 : win5_3.index t (0 : Fin 2) * 8000 + 1 * y0.val = Y0.val)
    (h1 : win5_3.index t (1 : Fin 2) * 128 + 1 * y1.val = Y1.val) :
    ((cfg5.win 3).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G5` of the arrays, when the loaded blocks hold
    the rows of the arrays that entry depends on. -/
theorem point5
    (A' : Vec Ideal S80000x128 .bf16) (C' : Vec Ideal S80000x128 .bf16) (B' : Vec Ideal S1x128 .f32)
    (x0 : Vec Ideal S8000x128 .bf16) (x1 : Vec Ideal S8000x128 .bf16) (x2 : Vec Ideal S1x128 .f32)
    (p : Fin 8000) (n : Fin 128) (P : Fin 80000) (Q : Fin 128)
    (h0 : x0 (ix2 p n) = A' (ix2 P Q))
    (h1 : x1 (ix2 p n) = C' (ix2 P Q))
    (h2 : x2 (ix2 0 n) = B' (ix2 0 Q)) :
    k5_pay1 (F := Ideal) x0 x1 x2 (ix2 p n) = G5 A' C' B' (ix2 P Q) := by
  rw [Cert.KernelIdeal.Pay.k5_pay1_apply, G5_apply]
  simp only [h0, h1, h2]

set_option maxHeartbeats 2000000 in
/-- What grid point `t` writes back is block `t` of `G5` of the arrays the region was entered with. -/
theorem flushed5_eq (c : Dev nD) (t : Fin cfg5.N) :
    (dat5 (F := Ideal) V c).flushed 3 t = ((cfg5.win 3).blk t).view.read (Elt Ideal)
      (G5 (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  unfold out5
  rw [View.canon_unit_zero hz5]
  simp only [View.ld_unit_zero (S := S8000x128) hz5, View.ld_unit_zero (S := S1x128) hz5]
  obtain ⟨e0, e1, e2, e3, e4, e5, e6, e7⟩ := idx_facts5 t
  have htN : t.val < 10 := lt_of_lt_of_eq t.isLt (show cfg5.N = 10 from N_5)
  funext j
  obtain ⟨p, n, rfl⟩ : ∃ (p : Fin 8000) (n : Fin 128), j = ix2 p n := ⟨j 0, j 1, eq_ix2 (n0 := 8000) (n1 := 128) j⟩
  obtain ⟨P, hP⟩ : ∃ P : Fin 80000, P.val = t.val * 8000 + p.val := ⟨⟨t.val * 8000 + p.val, by have := p.isLt; omega⟩, rfl⟩
  show k5_pay1 (F := Ideal) (iblk5 V c 0 t) (iblk5 V c 1 t) (iblk5 V c 2 t) (ix2 p n)
      = G5 (V c (Pipeline.arrRef spec5 0)) (V c (Pipeline.arrRef spec5 1)) (V c (Pipeline.arrRef spec5 2)) (((cfg5.win 3).blk t).view.emb (ix2 p n))
  refine (point5 (V c (Pipeline.arrRef spec5 0)) (V c (Pipeline.arrRef spec5 1)) (V c (Pipeline.arrRef spec5 2))
    (iblk5 V c 0 t) (iblk5 V c 1 t) (iblk5 V c 2 t) p n P n
    (rd5_0 V c t p n P n (by omega) (by omega))
    (rd5_1 V c t p n P n (by omega) (by omega))
    (rd5_2 V c t 0 n 0 n (by omega) (by omega))).trans
    (congrArg (G5 (V c (Pipeline.arrRef spec5 0)) (V c (Pipeline.arrRef spec5 1)) (V c (Pipeline.arrRef spec5 2))) (emb5_3 t p n P n (by omega) (by omega)).symm)

/-- An index of the array is in point `t`'s block iff each coordinate is in the block's range on its axis. -/
theorem mem_blk5 (t : Fin cfg5.N) (i : S80000x128.Idx) :
    i ∈ ((cfg5.win 3).blk t).view.set ↔ ∀ a : Fin 2, win5_3.index t a * S8000x128.size a ≤ (i a).val ∧ (i a).val < win5_3.index t a * S8000x128.size a + S8000x128.size a := by
  show i ∈ ((View.whole main_v116).slice (win5_3.rect t)).set ↔ _
  rw [View.set_slice_whole, Rect.mem_set_unit]
  exact Iff.rfl

/-- Row `r` of the array is in the block of point `r / 8000`. -/
theorem cover5 (i : S80000x128.Idx) : ∃ t : Fin cfg5.N, (cfg5.win 3).flush t = true ∧ i ∈ ((cfg5.win 3).blk t).view.set := by
  have hi0 : (i 0).val < 80000 := (i 0).isLt
  have hi1 : (i 1).val < 128 := (i 1).isLt
  obtain ⟨t, ht⟩ : ∃ t : Fin cfg5.N, t.val = (i 0).val / 8000 :=
    ⟨⟨(i 0).val / 8000, by show _ < grid5.N; rw [N_5]; omega⟩, rfl⟩
  obtain ⟨e0, e1, e2, e3, e4, e5, e6, e7⟩ := idx_facts5 t
  refine ⟨t, flush5_3 t, ?_⟩
  rw [mem_blk5]
  intro a
  match a with
  | ⟨0, _⟩ => show win5_3.index t (0 : Fin 2) * 8000 ≤ (i 0).val ∧ (i 0).val < win5_3.index t (0 : Fin 2) * 8000 + 8000; omega
  | ⟨1, _⟩ => show win5_3.index t (1 : Fin 2) * 128 ≤ (i 1).val ∧ (i 1).val < win5_3.index t (1 : Fin 2) * 128 + 128; omega

/-- The output array after the region is `G5` of the arrays the region was entered with. -/
theorem arr5 (c : Dev nD) :
    (dat5 (F := Ideal) V c).arrAt 3 cfg5.N = G5 (V c (Pipeline.arrRef spec5 0)) (V c (Pipeline.arrRef spec5 1)) (V c (Pipeline.arrRef spec5 2)) :=
  (dat5 (F := Ideal) V c).arrAt_eq_of_cover 3 _ (fun t _ => flushed5_eq V c t) cover5

end Cert.KernelIdeal.Arr

end
-- ==== Proof.KI.Arr6.lean ====
import proofs.«173394_j29068338659455_2_alg».proof.Proof.KI.R6
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 6: what its output array holds after the region, as one function of the arrays the region was entered with.

The grid has 1 point; point `t` writes rows `5000·t … 5000·t + 4999` of the 5000-row output. Each stored entry is
a residual row plus the leaky rectifier of a dense layer's row, so row `r` of the output depends on row `r` of the row-blocked operands and on the
whole of the other operands. The blocks tile the rows (row `r` is written by point `r / 5000`), hence the whole array is
`G6` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz6 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0
    ∧ win6_4.index t (0 : Fin 2) = t.val
    ∧ win6_4.index t (1 : Fin 2) = 0 :=
  (by decide +kernel : ∀ t : Fin grid6.N, _)

/-- Window 0's block at point `t`, read at an entry, is the array at the entry `block index × block size + the entry's own
    coordinate` on each axis. -/
theorem rd6_0 (c : Dev nD) (t : Fin cfg6.N) (y0 : Fin 5000) (y1 : Fin 384) (Y0 : Fin 5000) (Y1 : Fin 384)
    (h0 : win6_0.index t (0 : Fin 2) * 5000 + 1 * y0.val = Y0.val)
    (h1 : win6_0.index t (1 : Fin 2) * 384 + 1 * y1.val = Y1.val) :
    iblk6 V c 0 t (ix2 y0 y1) = V c (Pipeline.arrRef spec6 0) (ix2 Y0 Y1) := by
  show V c (Pipeline.arrRef spec6 0) (((cfg6.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd6_1 (c : Dev nD) (t : Fin cfg6.N) (y0 : Fin 384) (y1 : Fin 128) (Y0 : Fin 384) (Y1 : Fin 128)
    (h0 : win6_1.index t (0 : Fin 2) * 384 + 1 * y0.val = Y0.val)
    (h1 : win6_1.index t (1 : Fin 2) * 128 + 1 * y1.val = Y1.val) :
    iblk6 V c 1 t (ix2 y0 y1) = V c (Pipeline.arrRef spec6 1) (ix2 Y0 Y1) := by
  show V c (Pipeline.arrRef spec6 1) (((cfg6.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd6_2 (c : Dev nD) (t : Fin cfg6.N) (y0 : Fin 1) (y1 : Fin 128) (Y0 : Fin 1) (Y1 : Fin 128)
    (h0 : win6_2.index t (0 : Fin 2) * 1 + 1 * y0.val = Y0.val)
    (h1 : win6_2.index t (1 : Fin 2) * 128 + 1 * y1.val = Y1.val) :
    iblk6 V c 2 t (ix2 y0 y1) = V c (Pipeline.arrRef spec6 2) (ix2 Y0 Y1) := by
  show V c (Pipeline.arrRef spec6 2) (((cfg6.win 2).blk t).view.emb (ix2 y0 y1)) = _
  refine congrArg _ (funext fun a => Fin.ext ?_)
  match a with
  | ⟨0, _⟩ => exact h0
  | ⟨1, _⟩ => exact h1

/-- Window 3's block at point `t`, read at an entry, is the array at the entry `block index × block size + the entry's own
    coordinate` on each axis. -/
theorem rd6_3 (c : Dev nD) (t : Fin cfg6.N) (y0 : Fin 5000) (y1 : Fin 128) (Y0 : Fin 5000) (Y1 : Fin 128)
    (h0 : win6_3.index t (0 : Fin 2) * 5000 + 1 * y0.val = Y0.val)
    (h1 : win6_3.index t (1 : Fin 2) * 128 + 1 * y1.val = Y1.val) :
    iblk6 V c 3 t (ix2 y0 y1) = V c (Pipeline.arrRef spec6 3) (ix2 Y0 Y1) := by
  show V c (Pipeline.arrRef spec6 3) (((cfg6.win 3).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb6_4 (t : Fin cfg6.N) (y0 : Fin 5000) (y1 : Fin 128) (Y0 : Fin 5000) (Y1 : Fin 128)
    (h0 : win6_4.index t (0 : Fin 2) * 5000 + 1 * y0.val = Y0.val)
    (h1 : win6_4.index t (1 : Fin 2) * 128 + 1 * y1.val = Y1.val) :
    ((cfg6.win 4).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G6` of the arrays, when the loaded blocks hold
    the rows of the arrays that entry depends on. -/
theorem point6
    (X' : Vec Ideal S5000x384 .bf16) (W' : Vec Ideal S384x128 .bf16) (B' : Vec Ideal S1x128 .f32) (R' : Vec Ideal S5000x128 .f32)
    (x0 : Vec Ideal S5000x384 .bf16) (x1 : Vec Ideal S384x128 .bf16) (x2 : Vec Ideal S1x128 .f32) (x3 : Vec Ideal S5000x128 .f32)
    (p : Fin 5000) (n : Fin 128) (P : Fin 5000) (Q : Fin 128)
    (h0 : ∀ k : Fin 384, x0 (ix2 p k) = X' (ix2 P k))
    (h1 : ∀ k : Fin 384, x1 (ix2 k n) = W' (ix2 k Q))
    (h2 : x2 (ix2 0 n) = B' (ix2 0 Q))
    (h3 : x3 (ix2 p n) = R' (ix2 P Q)) :
    k6_pay1 (F := Ideal) x0 x1 x2 x3 (ix2 p n) = G6 X' W' B' R' (ix2 P Q) := by
  rw [Cert.KernelIdeal.Pay.k6_pay1_apply, G6_apply]
  simp only [h0, h1, h2, h3]

set_option maxHeartbeats 2000000 in
/-- What grid point `t` writes back is block `t` of `G6` of the arrays the region was entered with. -/
theorem flushed6_eq (c : Dev nD) (t : Fin cfg6.N) :
    (dat6 (F := Ideal) V c).flushed 4 t = ((cfg6.win 4).blk t).view.read (Elt Ideal)
      (G6 (V c (Pipeline.arrRef spec6 0)) (V c (Pipeline.arrRef spec6 1)) (V c (Pipeline.arrRef spec6 2)) (V c (Pipeline.arrRef spec6 3))) := by
  show (cfg6.win 4).cut (grid6.coords t) ((dat6 (F := Ideal) V c).after 4 t) = _
  rw [after6_4]
  unfold out6
  rw [View.canon_unit_zero hz6]
  simp only [View.ld_unit_zero (S := S5000x384) hz6, View.ld_unit_zero (S := S384x128) hz6, View.ld_unit_zero (S := S1x128) hz6, View.ld_unit_zero (S := S5000x128) hz6]
  obtain ⟨e0, e1, e2, e3, e4, e5, e6, e7, e8, e9⟩ := idx_facts6 t
  have htN : t.val < 1 := lt_of_lt_of_eq t.isLt (show cfg6.N = 1 from N_6)
  funext j
  obtain ⟨p, n, rfl⟩ : ∃ (p : Fin 5000) (n : Fin 128), j = ix2 p n := ⟨j 0, j 1, eq_ix2 (n0 := 5000) (n1 := 128) j⟩
  obtain ⟨P, hP⟩ : ∃ P : Fin 5000, P.val = t.val * 5000 + p.val := ⟨⟨t.val * 5000 + p.val, by have := p.isLt; omega⟩, rfl⟩
  show k6_pay1 (F := Ideal) (iblk6 V c 0 t) (iblk6 V c 1 t) (iblk6 V c 2 t) (iblk6 V c 3 t) (ix2 p n)
      = G6 (V c (Pipeline.arrRef spec6 0)) (V c (Pipeline.arrRef spec6 1)) (V c (Pipeline.arrRef spec6 2)) (V c (Pipeline.arrRef spec6 3)) (((cfg6.win 4).blk t).view.emb (ix2 p n))
  refine (point6 (V c (Pipeline.arrRef spec6 0)) (V c (Pipeline.arrRef spec6 1)) (V c (Pipeline.arrRef spec6 2)) (V c (Pipeline.arrRef spec6 3))
    (iblk6 V c 0 t) (iblk6 V c 1 t) (iblk6 V c 2 t) (iblk6 V c 3 t) p n P n
    (fun k => rd6_0 V c t p k P k (by omega) (by omega))
    (fun k => rd6_1 V c t k n k n (by omega) (by omega))
    (rd6_2 V c t 0 n 0 n (by omega) (by omega))
    (rd6_3 V c t p n P n (by omega) (by omega))).trans
    (congrArg (G6 (V c (Pipeline.arrRef spec6 0)) (V c (Pipeline.arrRef spec6 1)) (V c (Pipeline.arrRef spec6 2)) (V c (Pipeline.arrRef spec6 3))) (emb6_4 t p n P n (by omega) (by omega)).symm)

/-- An index of the array is in point `t`'s block iff each coordinate is in the block's range on its axis. -/
theorem mem_blk6 (t : Fin cfg6.N) (i : S5000x128.Idx) :
    i ∈ ((cfg6.win 4).blk t).view.set ↔ ∀ a : Fin 2, win6_4.index t a * S5000x128.size a ≤ (i a).val ∧ (i a).val < win6_4.index t a * S5000x128.size a + S5000x128.size a := by
  show i ∈ ((View.whole main_v158).slice (win6_4.rect t)).set ↔ _
  rw [View.set_slice_whole, Rect.mem_set_unit]
  exact Iff.rfl

/-- Row `r` of the array is in the block of point `r / 5000`. -/
theorem cover6 (i : S5000x128.Idx) : ∃ t : Fin cfg6.N, (cfg6.win 4).flush t = true ∧ i ∈ ((cfg6.win 4).blk t).view.set := by
  have hi0 : (i 0).val < 5000 := (i 0).isLt
  have hi1 : (i 1).val < 128 := (i 1).isLt
  obtain ⟨t, ht⟩ : ∃ t : Fin cfg6.N, t.val = (i 0).val / 5000 :=
    ⟨⟨(i 0).val / 5000, by show _ < grid6.N; rw [N_6]; omega⟩, rfl⟩
  obtain ⟨e0, e1, e2, e3, e4, e5, e6, e7, e8, e9⟩ := idx_facts6 t
  refine ⟨t, flush6_4 t, ?_⟩
  rw [mem_blk6]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 128 ≤ (i 1).val ∧ (i 1).val < win6_4.index t (1 : Fin 2) * 128 + 128; omega

/-- The output array after the region is `G6` of the arrays the region was entered with. -/
theorem arr6 (c : Dev nD) :
    (dat6 (F := Ideal) V c).arrAt 4 cfg6.N = G6 (V c (Pipeline.arrRef spec6 0)) (V c (Pipeline.arrRef spec6 1)) (V c (Pipeline.arrRef spec6 2)) (V c (Pipeline.arrRef spec6 3)) :=
  (dat6 (F := Ideal) V c).arrAt_eq_of_cover 4 _ (fun t _ => flushed6_eq V c t) cover6

end Cert.KernelIdeal.Arr

end
-- ==== Proof.KI.Arr7.lean ====
import proofs.«173394_j29068338659455_2_alg».proof.Proof.KI.R7
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 7: what its output array holds after the region, as one function of the arrays the region was entered with.

The grid has 1 point; point `t` writes rows `5000·t … 5000·t + 4999` of the 5000-row output. Each stored entry is
a dense layer's row, so row `r` of the output depends on row `r` of the row-blocked operands and on the
whole of the other operands. The blocks tile the rows (row `r` is written by point `r / 5000`), hence the whole array is
`G7` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz7 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts7 : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- Window 0's block at point `t`, read at an entry, is the array at the entry `block index × block size + the entry's own
    coordinate` on each axis. -/
theorem rd7_0 (c : Dev nD) (t : Fin cfg7.N) (y0 : Fin 5000) (y1 : Fin 128) (Y0 : Fin 5000) (Y1 : Fin 128)
    (h0 : win7_0.index t (0 : Fin 2) * 5000 + 1 * y0.val = Y0.val)
    (h1 : win7_0.index t (1 : Fin 2) * 128 + 1 * y1.val = Y1.val) :
    iblk7 V c 0 t (ix2 y0 y1) = V c (Pipeline.arrRef spec7 0) (ix2 Y0 Y1) := by
  show V c (Pipeline.arrRef spec7 0) (((cfg7.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd7_1 (c : Dev nD) (t : Fin cfg7.N) (y0 : Fin 128) (y1 : Fin 256) (Y0 : Fin 128) (Y1 : Fin 256)
    (h0 : win7_1.index t (0 : Fin 2) * 128 + 1 * y0.val = Y0.val)
    (h1 : win7_1.index t (1 : Fin 2) * 256 + 1 * y1.val = Y1.val) :
    iblk7 V c 1 t (ix2 y0 y1) = V c (Pipeline.arrRef spec7 1) (ix2 Y0 Y1) := by
  show V c (Pipeline.arrRef spec7 1) (((cfg7.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd7_2 (c : Dev nD) (t : Fin cfg7.N) (y0 : Fin 1) (y1 : Fin 256) (Y0 : Fin 1) (Y1 : Fin 256)
    (h0 : win7_2.index t (0 : Fin 2) * 1 + 1 * y0.val = Y0.val)
    (h1 : win7_2.index t (1 : Fin 2) * 256 + 1 * y1.val = Y1.val) :
    iblk7 V c 2 t (ix2 y0 y1) = V c (Pipeline.arrRef spec7 2) (ix2 Y0 Y1) := by
  show V c (Pipeline.arrRef spec7 2) (((cfg7.win 2).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb7_3 (t : Fin cfg7.N) (y0 : Fin 5000) (y1 : Fin 256) (Y0 : Fin 5000) (Y1 : Fin 256)
    (h0 : win7_3.index t (0 : Fin 2) * 5000 + 1 * y0.val = Y0.val)
    (h1 : win7_3.index t (1 : Fin 2) * 256 + 1 * y1.val = Y1.val) :
    ((cfg7.win 3).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G7` of the arrays, when the loaded blocks hold
    the rows of the arrays that entry depends on. -/
theorem point7
    (X' : Vec Ideal S5000x128 .bf16) (W' : Vec Ideal S128x256 .bf16) (B' : Vec Ideal S1x256 .f32)
    (x0 : Vec Ideal S5000x128 .bf16) (x1 : Vec Ideal S128x256 .bf16) (x2 : Vec Ideal S1x256 .f32)
    (p : Fin 5000) (n : Fin 256) (P : Fin 5000) (Q : Fin 256)
    (h0 : ∀ k : Fin 128, x0 (ix2 p k) = X' (ix2 P k))
    (h1 : ∀ k : Fin 128, x1 (ix2 k n) = W' (ix2 k Q))
    (h2 : x2 (ix2 0 n) = B' (ix2 0 Q)) :
    k7_pay1 (F := Ideal) x0 x1 x2 (ix2 p n) = G7 X' W' B' (ix2 P Q) := by
  rw [Cert.KernelIdeal.Pay.k7_pay1_apply, G7_apply]
  simp only [h0, h1, h2]

set_option maxHeartbeats 2000000 in
/-- What grid point `t` writes back is block `t` of `G7` of the arrays the region was entered with. -/
theorem flushed7_eq (c : Dev nD) (t : Fin cfg7.N) :
    (dat7 (F := Ideal) V c).flushed 3 t = ((cfg7.win 3).blk t).view.read (Elt Ideal)
      (G7 (V c (Pipeline.arrRef spec7 0)) (V c (Pipeline.arrRef spec7 1)) (V c (Pipeline.arrRef spec7 2))) := by
  show (cfg7.win 3).cut (grid7.coords t) ((dat7 (F := Ideal) V c).after 3 t) = _
  rw [after7_3]
  unfold out7
  rw [View.canon_unit_zero hz7]
  simp only [View.ld_unit_zero (S := S5000x128) hz7, View.ld_unit_zero (S := S128x256) hz7, View.ld_unit_zero (S := S1x256) hz7]
  obtain ⟨e0, e1, e2, e3, e4, e5, e6, e7⟩ := idx_facts7 t
  have htN : t.val < 1 := lt_of_lt_of_eq t.isLt (show cfg7.N = 1 from N_7)
  funext j
  obtain ⟨p, n, rfl⟩ : ∃ (p : Fin 5000) (n : Fin 256), j = ix2 p n := ⟨j 0, j 1, eq_ix2 (n0 := 5000) (n1 := 256) j⟩
  obtain ⟨P, hP⟩ : ∃ P : Fin 5000, P.val = t.val * 5000 + p.val := ⟨⟨t.val * 5000 + p.val, by have := p.isLt; omega⟩, rfl⟩
  show k7_pay1 (F := Ideal) (iblk7 V c 0 t) (iblk7 V c 1 t) (iblk7 V c 2 t) (ix2 p n)
      = G7 (V c (Pipeline.arrRef spec7 0)) (V c (Pipeline.arrRef spec7 1)) (V c (Pipeline.arrRef spec7 2)) (((cfg7.win 3).blk t).view.emb (ix2 p n))
  refine (point7 (V c (Pipeline.arrRef spec7 0)) (V c (Pipeline.arrRef spec7 1)) (V c (Pipeline.arrRef spec7 2))
    (iblk7 V c 0 t) (iblk7 V c 1 t) (iblk7 V c 2 t) p n P n
    (fun k => rd7_0 V c t p k P k (by omega) (by omega))
    (fun k => rd7_1 V c t k n k n (by omega) (by omega))
    (rd7_2 V c t 0 n 0 n (by omega) (by omega))).trans
    (congrArg (G7 (V c (Pipeline.arrRef spec7 0)) (V c (Pipeline.arrRef spec7 1)) (V c (Pipeline.arrRef spec7 2))) (emb7_3 t p n P n (by omega) (by omega)).symm)

/-- An index of the array is in point `t`'s block iff each coordinate is in the block's range on its axis. -/
theorem mem_blk7 (t : Fin cfg7.N) (i : S5000x256.Idx) :
    i ∈ ((cfg7.win 3).blk t).view.set ↔ ∀ a : Fin 2, win7_3.index t a * S5000x256.size a ≤ (i a).val ∧ (i a).val < win7_3.index t a * S5000x256.size a + S5000x256.size a := by
  show i ∈ ((View.whole main_v170).slice (win7_3.rect t)).set ↔ _
  rw [View.set_slice_whole, Rect.mem_set_unit]
  exact Iff.rfl

/-- Row `r` of the array is in the block of point `r / 5000`. -/
theorem cover7 (i : S5000x256.Idx) : ∃ t : Fin cfg7.N, (cfg7.win 3).flush t = true ∧ i ∈ ((cfg7.win 3).blk t).view.set := by
  have hi0 : (i 0).val < 5000 := (i 0).isLt
  have hi1 : (i 1).val < 256 := (i 1).isLt
  obtain ⟨t, ht⟩ : ∃ t : Fin cfg7.N, t.val = (i 0).val / 5000 :=
    ⟨⟨(i 0).val / 5000, by show _ < grid7.N; rw [N_7]; omega⟩, rfl⟩
  obtain ⟨e0, e1, e2, e3, e4, e5, e6, e7⟩ := idx_facts7 t
  refine ⟨t, flush7_3 t, ?_⟩
  rw [mem_blk7]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 256 ≤ (i 1).val ∧ (i 1).val < win7_3.index t (1 : Fin 2) * 256 + 256; omega

/-- The output array after the region is `G7` of the arrays the region was entered with. -/
theorem arr7 (c : Dev nD) :
    (dat7 (F := Ideal) V c).arrAt 3 cfg7.N = G7 (V c (Pipeline.arrRef spec7 0)) (V c (Pipeline.arrRef spec7 1)) (V c (Pipeline.arrRef spec7 2)) :=
  (dat7 (F := Ideal) V c).arrAt_eq_of_cover 3 _ (fun t _ => flushed7_eq V c t) cover7

end Cert.KernelIdeal.Arr

end
-- ==== Proof.KI.Arr8.lean ====
import proofs.«173394_j29068338659455_2_alg».proof.Proof.KI.R8
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 8: what its output array holds after the region, as one function of the arrays the region was entered with.

The grid has 10 points; point `t` writes rows `8000·t … 8000·t + 7999` of the 80000-row output. Each stored entry is
the leaky rectifier of the sum of two rows and a bias row, so row `r` of the output depends on row `r` of the row-blocked operands and on the
whole of the other operands. The blocks tile the rows (row `r` is written by point `r / 8000`), hence the whole array is
`G8` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz8 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 2) = t.val
    ∧ win8_3.index t (1 : Fin 2) = 0 :=
  (by decide +kernel : ∀ t : Fin grid8.N, _)

/-- Window 0's block at point `t`, read at an entry, is the array at the entry `block index × block size + the entry's own
    coordinate` on each axis. -/
theorem rd8_0 (c : Dev nD) (t : Fin cfg8.N) (y0 : Fin 8000) (y1 : Fin 128) (Y0 : Fin 80000) (Y1 : Fin 128)
    (h0 : win8_0.index t (0 : Fin 2) * 8000 + 1 * y0.val = Y0.val)
    (h1 : win8_0.index t (1 : Fin 2) * 128 + 1 * y1.val = Y1.val) :
    iblk8 V c 0 t (ix2 y0 y1) = V c (Pipeline.arrRef spec8 0) (ix2 Y0 Y1) := by
  show V c (Pipeline.arrRef spec8 0) (((cfg8.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd8_1 (c : Dev nD) (t : Fin cfg8.N) (y0 : Fin 8000) (y1 : Fin 128) (Y0 : Fin 80000) (Y1 : Fin 128)
    (h0 : win8_1.index t (0 : Fin 2) * 8000 + 1 * y0.val = Y0.val)
    (h1 : win8_1.index t (1 : Fin 2) * 128 + 1 * y1.val = Y1.val) :
    iblk8 V c 1 t (ix2 y0 y1) = V c (Pipeline.arrRef spec8 1) (ix2 Y0 Y1) := by
  show V c (Pipeline.arrRef spec8 1) (((cfg8.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd8_2 (c : Dev nD) (t : Fin cfg8.N) (y0 : Fin 1) (y1 : Fin 128) (Y0 : Fin 1) (Y1 : Fin 128)
    (h0 : win8_2.index t (0 : Fin 2) * 1 + 1 * y0.val = Y0.val)
    (h1 : win8_2.index t (1 : Fin 2) * 128 + 1 * y1.val = Y1.val) :
    iblk8 V c 2 t (ix2 y0 y1) = V c (Pipeline.arrRef spec8 2) (ix2 Y0 Y1) := by
  show V c (Pipeline.arrRef spec8 2) (((cfg8.win 2).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb8_3 (t : Fin cfg8.N) (y0 : Fin 8000) (y1 : Fin 128) (Y0 : Fin 80000) (Y1 : Fin 128)
    (h0 : win8_3.index t (0 : Fin 2) * 8000 + 1 * y0.val = Y0.val)
    (h1 : win8_3.index t (1 : Fin 2) * 128 + 1 * y1.val = Y1.val) :
    ((cfg8.win 3).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G8` of the arrays, when the loaded blocks hold
    the rows of the arrays that entry depends on. -/
theorem point8
    (A' : Vec Ideal S80000x128 .bf16) (C' : Vec Ideal S80000x128 .bf16) (B' : Vec Ideal S1x128 .f32)
    (x0 : Vec Ideal S8000x128 .bf16) (x1 : Vec Ideal S8000x128 .bf16) (x2 : Vec Ideal S1x128 .f32)
    (p : Fin 8000) (n : Fin 128) (P : Fin 80000) (Q : Fin 128)
    (h0 : x0 (ix2 p n) = A' (ix2 P Q))
    (h1 : x1 (ix2 p n) = C' (ix2 P Q))
    (h2 : x2 (ix2 0 n) = B' (ix2 0 Q)) :
    k8_pay1 (F := Ideal) x0 x1 x2 (ix2 p n) = G8 A' C' B' (ix2 P Q) := by
  rw [Cert.KernelIdeal.Pay.k8_pay1_apply, G8_apply]
  simp only [h0, h1, h2]

set_option maxHeartbeats 2000000 in
/-- What grid point `t` writes back is block `t` of `G8` of the arrays the region was entered with. -/
theorem flushed8_eq (c : Dev nD) (t : Fin cfg8.N) :
    (dat8 (F := Ideal) V c).flushed 3 t = ((cfg8.win 3).blk t).view.read (Elt Ideal)
      (G8 (V c (Pipeline.arrRef spec8 0)) (V c (Pipeline.arrRef spec8 1)) (V c (Pipeline.arrRef spec8 2))) := by
  show (cfg8.win 3).cut (grid8.coords t) ((dat8 (F := Ideal) V c).after 3 t) = _
  rw [after8_3]
  unfold out8
  rw [View.canon_unit_zero hz8]
  simp only [View.ld_unit_zero (S := S8000x128) hz8, View.ld_unit_zero (S := S1x128) hz8]
  obtain ⟨e0, e1, e2, e3, e4, e5, e6, e7⟩ := idx_facts8 t
  have htN : t.val < 10 := lt_of_lt_of_eq t.isLt (show cfg8.N = 10 from N_8)
  funext j
  obtain ⟨p, n, rfl⟩ : ∃ (p : Fin 8000) (n : Fin 128), j = ix2 p n := ⟨j 0, j 1, eq_ix2 (n0 := 8000) (n1 := 128) j⟩
  obtain ⟨P, hP⟩ : ∃ P : Fin 80000, P.val = t.val * 8000 + p.val := ⟨⟨t.val * 8000 + p.val, by have := p.isLt; omega⟩, rfl⟩
  show k8_pay1 (F := Ideal) (iblk8 V c 0 t) (iblk8 V c 1 t) (iblk8 V c 2 t) (ix2 p n)
      = G8 (V c (Pipeline.arrRef spec8 0)) (V c (Pipeline.arrRef spec8 1)) (V c (Pipeline.arrRef spec8 2)) (((cfg8.win 3).blk t).view.emb (ix2 p n))
  refine (point8 (V c (Pipeline.arrRef spec8 0)) (V c (Pipeline.arrRef spec8 1)) (V c (Pipeline.arrRef spec8 2))
    (iblk8 V c 0 t) (iblk8 V c 1 t) (iblk8 V c 2 t) p n P n
    (rd8_0 V c t p n P n (by omega) (by omega))
    (rd8_1 V c t p n P n (by omega) (by omega))
    (rd8_2 V c t 0 n 0 n (by omega) (by omega))).trans
    (congrArg (G8 (V c (Pipeline.arrRef spec8 0)) (V c (Pipeline.arrRef spec8 1)) (V c (Pipeline.arrRef spec8 2))) (emb8_3 t p n P n (by omega) (by omega)).symm)

/-- An index of the array is in point `t`'s block iff each coordinate is in the block's range on its axis. -/
theorem mem_blk8 (t : Fin cfg8.N) (i : S80000x128.Idx) :
    i ∈ ((cfg8.win 3).blk t).view.set ↔ ∀ a : Fin 2, win8_3.index t a * S8000x128.size a ≤ (i a).val ∧ (i a).val < win8_3.index t a * S8000x128.size a + S8000x128.size a := by
  show i ∈ ((View.whole main_v190).slice (win8_3.rect t)).set ↔ _
  rw [View.set_slice_whole, Rect.mem_set_unit]
  exact Iff.rfl

/-- Row `r` of the array is in the block of point `r / 8000`. -/
theorem cover8 (i : S80000x128.Idx) : ∃ t : Fin cfg8.N, (cfg8.win 3).flush t = true ∧ i ∈ ((cfg8.win 3).blk t).view.set := by
  have hi0 : (i 0).val < 80000 := (i 0).isLt
  have hi1 : (i 1).val < 128 := (i 1).isLt
  obtain ⟨t, ht⟩ : ∃ t : Fin cfg8.N, t.val = (i 0).val / 8000 :=
    ⟨⟨(i 0).val / 8000, by show _ < grid8.N; rw [N_8]; omega⟩, rfl⟩
  obtain ⟨e0, e1, e2, e3, e4, e5, e6, e7⟩ := idx_facts8 t
  refine ⟨t, flush8_3 t, ?_⟩
  rw [mem_blk8]
  intro a
  match a with
  | ⟨0, _⟩ => show win8_3.index t (0 : Fin 2) * 8000 ≤ (i 0).val ∧ (i 0).val < win8_3.index t (0 : Fin 2) * 8000 + 8000; omega
  | ⟨1, _⟩ => show win8_3.index t (1 : Fin 2) * 128 ≤ (i 1).val ∧ (i 1).val < win8_3.index t (1 : Fin 2) * 128 + 128; omega

/-- The output array after the region is `G8` of the arrays the region was entered with. -/
theorem arr8 (c : Dev nD) :
    (dat8 (F := Ideal) V c).arrAt 3 cfg8.N = G8 (V c (Pipeline.arrRef spec8 0)) (V c (Pipeline.arrRef spec8 1)) (V c (Pipeline.arrRef spec8 2)) :=
  (dat8 (F := Ideal) V c).arrAt_eq_of_cover 3 _ (fun t _ => flushed8_eq V c t) cover8

end Cert.KernelIdeal.Arr

end
-- ==== Proof.KI.Arr9.lean ====
import proofs.«173394_j29068338659455_2_alg».proof.Proof.KI.R9
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 9: what its output array holds after the region, as one function of the arrays the region was entered with.

The grid has 1 point; point `t` writes rows `5000·t … 5000·t + 4999` of the 5000-row output. Each stored entry is
a residual row plus the leaky rectifier of a dense layer's row, so row `r` of the output depends on row `r` of the row-blocked operands and on the
whole of the other operands. The blocks tile the rows (row `r` is written by point `r / 5000`), hence the whole array is
`G9` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz9 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts9 : ∀ t : Fin cfg9.N, win9_0.index t (0 : Fin 2) = t.val
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = t.val
    ∧ win9_3.index t (1 : Fin 2) = 0
    ∧ win9_4.index t (0 : Fin 2) = t.val
    ∧ win9_4.index t (1 : Fin 2) = 0 :=
  (by decide +kernel : ∀ t : Fin grid9.N, _)

/-- Window 0's block at point `t`, read at an entry, is the array at the entry `block index × block size + the entry's own
    coordinate` on each axis. -/
theorem rd9_0 (c : Dev nD) (t : Fin cfg9.N) (y0 : Fin 5000) (y1 : Fin 384) (Y0 : Fin 5000) (Y1 : Fin 384)
    (h0 : win9_0.index t (0 : Fin 2) * 5000 + 1 * y0.val = Y0.val)
    (h1 : win9_0.index t (1 : Fin 2) * 384 + 1 * y1.val = Y1.val) :
    iblk9 V c 0 t (ix2 y0 y1) = V c (Pipeline.arrRef spec9 0) (ix2 Y0 Y1) := by
  show V c (Pipeline.arrRef spec9 0) (((cfg9.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd9_1 (c : Dev nD) (t : Fin cfg9.N) (y0 : Fin 384) (y1 : Fin 128) (Y0 : Fin 384) (Y1 : Fin 128)
    (h0 : win9_1.index t (0 : Fin 2) * 384 + 1 * y0.val = Y0.val)
    (h1 : win9_1.index t (1 : Fin 2) * 128 + 1 * y1.val = Y1.val) :
    iblk9 V c 1 t (ix2 y0 y1) = V c (Pipeline.arrRef spec9 1) (ix2 Y0 Y1) := by
  show V c (Pipeline.arrRef spec9 1) (((cfg9.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd9_2 (c : Dev nD) (t : Fin cfg9.N) (y0 : Fin 1) (y1 : Fin 128) (Y0 : Fin 1) (Y1 : Fin 128)
    (h0 : win9_2.index t (0 : Fin 2) * 1 + 1 * y0.val = Y0.val)
    (h1 : win9_2.index t (1 : Fin 2) * 128 + 1 * y1.val = Y1.val) :
    iblk9 V c 2 t (ix2 y0 y1) = V c (Pipeline.arrRef spec9 2) (ix2 Y0 Y1) := by
  show V c (Pipeline.arrRef spec9 2) (((cfg9.win 2).blk t).view.emb (ix2 y0 y1)) = _
  refine congrArg _ (funext fun a => Fin.ext ?_)
  match a with
  | ⟨0, _⟩ => exact h0
  | ⟨1, _⟩ => exact h1

/-- Window 3's block at point `t`, read at an entry, is the array at the entry `block index × block size + the entry's own
    coordinate` on each axis. -/
theorem rd9_3 (c : Dev nD) (t : Fin cfg9.N) (y0 : Fin 5000) (y1 : Fin 128) (Y0 : Fin 5000) (Y1 : Fin 128)
    (h0 : win9_3.index t (0 : Fin 2) * 5000 + 1 * y0.val = Y0.val)
    (h1 : win9_3.index t (1 : Fin 2) * 128 + 1 * y1.val = Y1.val) :
    iblk9 V c 3 t (ix2 y0 y1) = V c (Pipeline.arrRef spec9 3) (ix2 Y0 Y1) := by
  show V c (Pipeline.arrRef spec9 3) (((cfg9.win 3).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb9_4 (t : Fin cfg9.N) (y0 : Fin 5000) (y1 : Fin 128) (Y0 : Fin 5000) (Y1 : Fin 128)
    (h0 : win9_4.index t (0 : Fin 2) * 5000 + 1 * y0.val = Y0.val)
    (h1 : win9_4.index t (1 : Fin 2) * 128 + 1 * y1.val = Y1.val) :
    ((cfg9.win 4).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G9` of the arrays, when the loaded blocks hold
    the rows of the arrays that entry depends on. -/
theorem point9
    (X' : Vec Ideal S5000x384 .bf16) (W' : Vec Ideal S384x128 .bf16) (B' : Vec Ideal S1x128 .f32) (R' : Vec Ideal S5000x128 .f32)
    (x0 : Vec Ideal S5000x384 .bf16) (x1 : Vec Ideal S384x128 .bf16) (x2 : Vec Ideal S1x128 .f32) (x3 : Vec Ideal S5000x128 .f32)
    (p : Fin 5000) (n : Fin 128) (P : Fin 5000) (Q : Fin 128)
    (h0 : ∀ k : Fin 384, x0 (ix2 p k) = X' (ix2 P k))
    (h1 : ∀ k : Fin 384, x1 (ix2 k n) = W' (ix2 k Q))
    (h2 : x2 (ix2 0 n) = B' (ix2 0 Q))
    (h3 : x3 (ix2 p n) = R' (ix2 P Q)) :
    k9_pay1 (F := Ideal) x0 x1 x2 x3 (ix2 p n) = G9 X' W' B' R' (ix2 P Q) := by
  rw [Cert.KernelIdeal.Pay.k9_pay1_apply, G9_apply]
  simp only [h0, h1, h2, h3]

set_option maxHeartbeats 2000000 in
/-- What grid point `t` writes back is block `t` of `G9` of the arrays the region was entered with. -/
theorem flushed9_eq (c : Dev nD) (t : Fin cfg9.N) :
    (dat9 (F := Ideal) V c).flushed 4 t = ((cfg9.win 4).blk t).view.read (Elt Ideal)
      (G9 (V c (Pipeline.arrRef spec9 0)) (V c (Pipeline.arrRef spec9 1)) (V c (Pipeline.arrRef spec9 2)) (V c (Pipeline.arrRef spec9 3))) := by
  show (cfg9.win 4).cut (grid9.coords t) ((dat9 (F := Ideal) V c).after 4 t) = _
  rw [after9_4]
  unfold out9
  rw [View.canon_unit_zero hz9]
  simp only [View.ld_unit_zero (S := S5000x384) hz9, View.ld_unit_zero (S := S384x128) hz9, View.ld_unit_zero (S := S1x128) hz9, View.ld_unit_zero (S := S5000x128) hz9]
  obtain ⟨e0, e1, e2, e3, e4, e5, e6, e7, e8, e9⟩ := idx_facts9 t
  have htN : t.val < 1 := lt_of_lt_of_eq t.isLt (show cfg9.N = 1 from N_9)
  funext j
  obtain ⟨p, n, rfl⟩ : ∃ (p : Fin 5000) (n : Fin 128), j = ix2 p n := ⟨j 0, j 1, eq_ix2 (n0 := 5000) (n1 := 128) j⟩
  obtain ⟨P, hP⟩ : ∃ P : Fin 5000, P.val = t.val * 5000 + p.val := ⟨⟨t.val * 5000 + p.val, by have := p.isLt; omega⟩, rfl⟩
  show k9_pay1 (F := Ideal) (iblk9 V c 0 t) (iblk9 V c 1 t) (iblk9 V c 2 t) (iblk9 V c 3 t) (ix2 p n)
      = G9 (V c (Pipeline.arrRef spec9 0)) (V c (Pipeline.arrRef spec9 1)) (V c (Pipeline.arrRef spec9 2)) (V c (Pipeline.arrRef spec9 3)) (((cfg9.win 4).blk t).view.emb (ix2 p n))
  refine (point9 (V c (Pipeline.arrRef spec9 0)) (V c (Pipeline.arrRef spec9 1)) (V c (Pipeline.arrRef spec9 2)) (V c (Pipeline.arrRef spec9 3))
    (iblk9 V c 0 t) (iblk9 V c 1 t) (iblk9 V c 2 t) (iblk9 V c 3 t) p n P n
    (fun k => rd9_0 V c t p k P k (by omega) (by omega))
    (fun k => rd9_1 V c t k n k n (by omega) (by omega))
    (rd9_2 V c t 0 n 0 n (by omega) (by omega))
    (rd9_3 V c t p n P n (by omega) (by omega))).trans
    (congrArg (G9 (V c (Pipeline.arrRef spec9 0)) (V c (Pipeline.arrRef spec9 1)) (V c (Pipeline.arrRef spec9 2)) (V c (Pipeline.arrRef spec9 3))) (emb9_4 t p n P n (by omega) (by omega)).symm)

/-- An index of the array is in point `t`'s block iff each coordinate is in the block's range on its axis. -/
theorem mem_blk9 (t : Fin cfg9.N) (i : S5000x128.Idx) :
    i ∈ ((cfg9.win 4).blk t).view.set ↔ ∀ a : Fin 2, win9_4.index t a * S5000x128.size a ≤ (i a).val ∧ (i a).val < win9_4.index t a * S5000x128.size a + S5000x128.size a := by
  show i ∈ ((View.whole main_v232).slice (win9_4.rect t)).set ↔ _
  rw [View.set_slice_whole, Rect.mem_set_unit]
  exact Iff.rfl

/-- Row `r` of the array is in the block of point `r / 5000`. -/
theorem cover9 (i : S5000x128.Idx) : ∃ t : Fin cfg9.N, (cfg9.win 4).flush t = true ∧ i ∈ ((cfg9.win 4).blk t).view.set := by
  have hi0 : (i 0).val < 5000 := (i 0).isLt
  have hi1 : (i 1).val < 128 := (i 1).isLt
  obtain ⟨t, ht⟩ : ∃ t : Fin cfg9.N, t.val = (i 0).val / 5000 :=
    ⟨⟨(i 0).val / 5000, by show _ < grid9.N; rw [N_9]; omega⟩, rfl⟩
  obtain ⟨e0, e1, e2, e3, e4, e5, e6, e7, e8, e9⟩ := idx_facts9 t
  refine ⟨t, flush9_4 t, ?_⟩
  rw [mem_blk9]
  intro a
  match a with
  | ⟨0, _⟩ => show win9_4.index t (0 : Fin 2) * 5000 ≤ (i 0).val ∧ (i 0).val < win9_4.index t (0 : Fin 2) * 5000 + 5000; omega
  | ⟨1, _⟩ => show win9_4.index t (1 : Fin 2) * 128 ≤ (i 1).val ∧ (i 1).val < win9_4.index t (1 : Fin 2) * 128 + 128; omega

/-- The output array after the region is `G9` of the arrays the region was entered with. -/
theorem arr9 (c : Dev nD) :
    (dat9 (F := Ideal) V c).arrAt 4 cfg9.N = G9 (V c (Pipeline.arrRef spec9 0)) (V c (Pipeline.arrRef spec9 1)) (V c (Pipeline.arrRef spec9 2)) (V c (Pipeline.arrRef spec9 3)) :=
  (dat9 (F := Ideal) V c).arrAt_eq_of_cover 4 _ (fun t _ => flushed9_eq V c t) cover9

end Cert.KernelIdeal.Arr

end
-- ==== Proof.KI.Arr10.lean ====
import proofs.«173394_j29068338659455_2_alg».proof.Proof.KI.R10
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 10: what its output array holds after the region, as one function of the arrays the region was entered with.

The grid has 10 points; point `t` writes rows `10000·t … 10000·t + 9999` of the 100000-row output. Each stored entry is
the leaky rectifier of a dense layer's row, so row `r` of the output depends on row `r` of the row-blocked operands and on the
whole of the other operands. The blocks tile the rows (row `r` is written by point `r / 10000`), hence the whole array is
`G10` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz10 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts10 : ∀ t : Fin cfg10.N, win10_0.index t (0 : Fin 2) = t.val
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (0 : Fin 2) = t.val
    ∧ win10_3.index t (1 : Fin 2) = 0 :=
  (by decide +kernel : ∀ t : Fin grid10.N, _)

/-- Window 0's block at point `t`, read at an entry, is the array at the entry `block index × block size + the entry's own
    coordinate` on each axis. -/
theorem rd10_0 (c : Dev nD) (t : Fin cfg10.N) (y0 : Fin 10000) (y1 : Fin 48) (Y0 : Fin 100000) (Y1 : Fin 48)
    (h0 : win10_0.index t (0 : Fin 2) * 10000 + 1 * y0.val = Y0.val)
    (h1 : win10_0.index t (1 : Fin 2) * 48 + 1 * y1.val = Y1.val) :
    iblk10 V c 0 t (ix2 y0 y1) = V c (Pipeline.arrRef spec10 0) (ix2 Y0 Y1) := by
  show V c (Pipeline.arrRef spec10 0) (((cfg10.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd10_1 (c : Dev nD) (t : Fin cfg10.N) (y0 : Fin 48) (y1 : Fin 128) (Y0 : Fin 48) (Y1 : Fin 128)
    (h0 : win10_1.index t (0 : Fin 2) * 48 + 1 * y0.val = Y0.val)
    (h1 : win10_1.index t (1 : Fin 2) * 128 + 1 * y1.val = Y1.val) :
    iblk10 V c 1 t (ix2 y0 y1) = V c (Pipeline.arrRef spec10 1) (ix2 Y0 Y1) := by
  show V c (Pipeline.arrRef spec10 1) (((cfg10.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd10_2 (c : Dev nD) (t : Fin cfg10.N) (y0 : Fin 1) (y1 : Fin 128) (Y0 : Fin 1) (Y1 : Fin 128)
    (h0 : win10_2.index t (0 : Fin 2) * 1 + 1 * y0.val = Y0.val)
    (h1 : win10_2.index t (1 : Fin 2) * 128 + 1 * y1.val = Y1.val) :
    iblk10 V c 2 t (ix2 y0 y1) = V c (Pipeline.arrRef spec10 2) (ix2 Y0 Y1) := by
  show V c (Pipeline.arrRef spec10 2) (((cfg10.win 2).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb10_3 (t : Fin cfg10.N) (y0 : Fin 10000) (y1 : Fin 128) (Y0 : Fin 100000) (Y1 : Fin 128)
    (h0 : win10_3.index t (0 : Fin 2) * 10000 + 1 * y0.val = Y0.val)
    (h1 : win10_3.index t (1 : Fin 2) * 128 + 1 * y1.val = Y1.val) :
    ((cfg10.win 3).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G10` of the arrays, when the loaded blocks hold
    the rows of the arrays that entry depends on. -/
theorem point10
    (X' : Vec Ideal S100000x48 .bf16) (W' : Vec Ideal S48x128 .bf16) (B' : Vec Ideal S1x128 .f32)
    (x0 : Vec Ideal S10000x48 .bf16) (x1 : Vec Ideal S48x128 .bf16) (x2 : Vec Ideal S1x128 .f32)
    (p : Fin 10000) (n : Fin 128) (P : Fin 100000) (Q : Fin 128)
    (h0 : ∀ k : Fin 48, x0 (ix2 p k) = X' (ix2 P k))
    (h1 : ∀ k : Fin 48, x1 (ix2 k n) = W' (ix2 k Q))
    (h2 : x2 (ix2 0 n) = B' (ix2 0 Q)) :
    k10_pay1 (F := Ideal) x0 x1 x2 (ix2 p n) = G10 X' W' B' (ix2 P Q) := by
  rw [Cert.KernelIdeal.Pay.k10_pay1_apply, G10_apply]
  simp only [h0, h1, h2]

set_option maxHeartbeats 2000000 in
/-- What grid point `t` writes back is block `t` of `G10` of the arrays the region was entered with. -/
theorem flushed10_eq (c : Dev nD) (t : Fin cfg10.N) :
    (dat10 (F := Ideal) V c).flushed 3 t = ((cfg10.win 3).blk t).view.read (Elt Ideal)
      (G10 (V c (Pipeline.arrRef spec10 0)) (V c (Pipeline.arrRef spec10 1)) (V c (Pipeline.arrRef spec10 2))) := by
  show (cfg10.win 3).cut (grid10.coords t) ((dat10 (F := Ideal) V c).after 3 t) = _
  rw [after10_3]
  unfold out10
  rw [View.canon_unit_zero hz10]
  simp only [View.ld_unit_zero (S := S10000x48) hz10, View.ld_unit_zero (S := S48x128) hz10, View.ld_unit_zero (S := S1x128) hz10]
  obtain ⟨e0, e1, e2, e3, e4, e5, e6, e7⟩ := idx_facts10 t
  have htN : t.val < 10 := lt_of_lt_of_eq t.isLt (show cfg10.N = 10 from N_10)
  funext j
  obtain ⟨p, n, rfl⟩ : ∃ (p : Fin 10000) (n : Fin 128), j = ix2 p n := ⟨j 0, j 1, eq_ix2 (n0 := 10000) (n1 := 128) j⟩
  obtain ⟨P, hP⟩ : ∃ P : Fin 100000, P.val = t.val * 10000 + p.val := ⟨⟨t.val * 10000 + p.val, by have := p.isLt; omega⟩, rfl⟩
  show k10_pay1 (F := Ideal) (iblk10 V c 0 t) (iblk10 V c 1 t) (iblk10 V c 2 t) (ix2 p n)
      = G10 (V c (Pipeline.arrRef spec10 0)) (V c (Pipeline.arrRef spec10 1)) (V c (Pipeline.arrRef spec10 2)) (((cfg10.win 3).blk t).view.emb (ix2 p n))
  refine (point10 (V c (Pipeline.arrRef spec10 0)) (V c (Pipeline.arrRef spec10 1)) (V c (Pipeline.arrRef spec10 2))
    (iblk10 V c 0 t) (iblk10 V c 1 t) (iblk10 V c 2 t) p n P n
    (fun k => rd10_0 V c t p k P k (by omega) (by omega))
    (fun k => rd10_1 V c t k n k n (by omega) (by omega))
    (rd10_2 V c t 0 n 0 n (by omega) (by omega))).trans
    (congrArg (G10 (V c (Pipeline.arrRef spec10 0)) (V c (Pipeline.arrRef spec10 1)) (V c (Pipeline.arrRef spec10 2))) (emb10_3 t p n P n (by omega) (by omega)).symm)

/-- An index of the array is in point `t`'s block iff each coordinate is in the block's range on its axis. -/
theorem mem_blk10 (t : Fin cfg10.N) (i : S100000x128.Idx) :
    i ∈ ((cfg10.win 3).blk t).view.set ↔ ∀ a : Fin 2, win10_3.index t a * S10000x128.size a ≤ (i a).val ∧ (i a).val < win10_3.index t a * S10000x128.size a + S10000x128.size a := by
  show i ∈ ((View.whole main_v237).slice (win10_3.rect t)).set ↔ _
  rw [View.set_slice_whole, Rect.mem_set_unit]
  exact Iff.rfl

/-- Row `r` of the array is in the block of point `r / 10000`. -/
theorem cover10 (i : S100000x128.Idx) : ∃ t : Fin cfg10.N, (cfg10.win 3).flush t = true ∧ i ∈ ((cfg10.win 3).blk t).view.set := by
  have hi0 : (i 0).val < 100000 := (i 0).isLt
  have hi1 : (i 1).val < 128 := (i 1).isLt
  obtain ⟨t, ht⟩ : ∃ t : Fin cfg10.N, t.val = (i 0).val / 10000 :=
    ⟨⟨(i 0).val / 10000, by show _ < grid10.N; rw [N_10]; omega⟩, rfl⟩
  obtain ⟨e0, e1, e2, e3, e4, e5, e6, e7⟩ := idx_facts10 t
  refine ⟨t, flush10_3 t, ?_⟩
  rw [mem_blk10]
  intro a
  match a with
  | ⟨0, _⟩ => show win10_3.index t (0 : Fin 2) * 10000 ≤ (i 0).val ∧ (i 0).val < win10_3.index t (0 : Fin 2) * 10000 + 10000; omega
  | ⟨1, _⟩ => show win10_3.index t (1 : Fin 2) * 128 ≤ (i 1).val ∧ (i 1).val < win10_3.index t (1 : Fin 2) * 128 + 128; omega

/-- The output array after the region is `G10` of the arrays the region was entered with. -/
theorem arr10 (c : Dev nD) :
    (dat10 (F := Ideal) V c).arrAt 3 cfg10.N = G10 (V c (Pipeline.arrRef spec10 0)) (V c (Pipeline.arrRef spec10 1)) (V c (Pipeline.arrRef spec10 2)) :=
  (dat10 (F := Ideal) V c).arrAt_eq_of_cover 3 _ (fun t _ => flushed10_eq V c t) cover10

end Cert.KernelIdeal.Arr

end
-- ==== Proof.KI.Arr11.lean ====
import proofs.«173394_j29068338659455_2_alg».proof.Proof.KI.R11
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 11: what its output array holds after the region, as one function of the arrays the region was entered with.

The grid has 1 point; point `t` writes rows `5000·t … 5000·t + 4999` of the 5000-row output. Each stored entry is
a dense layer's row, so row `r` of the output depends on row `r` of the row-blocked operands and on the
whole of the other operands. The blocks tile the rows (row `r` is written by point `r / 5000`), hence the whole array is
`G11` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz11 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts11 : ∀ t : Fin cfg11.N, win11_0.index t (0 : Fin 2) = t.val
    ∧ win11_0.index t (1 : Fin 2) = 0
    ∧ win11_1.index t (0 : Fin 2) = 0
    ∧ win11_1.index t (1 : Fin 2) = 0
    ∧ win11_2.index t (0 : Fin 2) = 0
    ∧ win11_2.index t (1 : Fin 2) = 0
    ∧ win11_3.index t (0 : Fin 2) = t.val
    ∧ win11_3.index t (1 : Fin 2) = 0 :=
  (by decide +kernel : ∀ t : Fin grid11.N, _)

/-- Window 0's block at point `t`, read at an entry, is the array at the entry `block index × block size + the entry's own
    coordinate` on each axis. -/
theorem rd11_0 (c : Dev nD) (t : Fin cfg11.N) (y0 : Fin 5000) (y1 : Fin 128) (Y0 : Fin 5000) (Y1 : Fin 128)
    (h0 : win11_0.index t (0 : Fin 2) * 5000 + 1 * y0.val = Y0.val)
    (h1 : win11_0.index t (1 : Fin 2) * 128 + 1 * y1.val = Y1.val) :
    iblk11 V c 0 t (ix2 y0 y1) = V c (Pipeline.arrRef spec11 0) (ix2 Y0 Y1) := by
  show V c (Pipeline.arrRef spec11 0) (((cfg11.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd11_1 (c : Dev nD) (t : Fin cfg11.N) (y0 : Fin 128) (y1 : Fin 128) (Y0 : Fin 128) (Y1 : Fin 128)
    (h0 : win11_1.index t (0 : Fin 2) * 128 + 1 * y0.val = Y0.val)
    (h1 : win11_1.index t (1 : Fin 2) * 128 + 1 * y1.val = Y1.val) :
    iblk11 V c 1 t (ix2 y0 y1) = V c (Pipeline.arrRef spec11 1) (ix2 Y0 Y1) := by
  show V c (Pipeline.arrRef spec11 1) (((cfg11.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd11_2 (c : Dev nD) (t : Fin cfg11.N) (y0 : Fin 1) (y1 : Fin 128) (Y0 : Fin 1) (Y1 : Fin 128)
    (h0 : win11_2.index t (0 : Fin 2) * 1 + 1 * y0.val = Y0.val)
    (h1 : win11_2.index t (1 : Fin 2) * 128 + 1 * y1.val = Y1.val) :
    iblk11 V c 2 t (ix2 y0 y1) = V c (Pipeline.arrRef spec11 2) (ix2 Y0 Y1) := by
  show V c (Pipeline.arrRef spec11 2) (((cfg11.win 2).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb11_3 (t : Fin cfg11.N) (y0 : Fin 5000) (y1 : Fin 128) (Y0 : Fin 5000) (Y1 : Fin 128)
    (h0 : win11_3.index t (0 : Fin 2) * 5000 + 1 * y0.val = Y0.val)
    (h1 : win11_3.index t (1 : Fin 2) * 128 + 1 * y1.val = Y1.val) :
    ((cfg11.win 3).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G11` of the arrays, when the loaded blocks hold
    the rows of the arrays that entry depends on. -/
theorem point11
    (X' : Vec Ideal S5000x128 .bf16) (W' : Vec Ideal S128x128 .bf16) (B' : Vec Ideal S1x128 .f32)
    (x0 : Vec Ideal S5000x128 .bf16) (x1 : Vec Ideal S128x128 .bf16) (x2 : Vec Ideal S1x128 .f32)
    (p : Fin 5000) (n : Fin 128) (P : Fin 5000) (Q : Fin 128)
    (h0 : ∀ k : Fin 128, x0 (ix2 p k) = X' (ix2 P k))
    (h1 : ∀ k : Fin 128, x1 (ix2 k n) = W' (ix2 k Q))
    (h2 : x2 (ix2 0 n) = B' (ix2 0 Q)) :
    k11_pay1 (F := Ideal) x0 x1 x2 (ix2 p n) = G11 X' W' B' (ix2 P Q) := by
  rw [Cert.KernelIdeal.Pay.k11_pay1_apply, G11_apply]
  simp only [h0, h1, h2]

set_option maxHeartbeats 2000000 in
/-- What grid point `t` writes back is block `t` of `G11` of the arrays the region was entered with. -/
theorem flushed11_eq (c : Dev nD) (t : Fin cfg11.N) :
    (dat11 (F := Ideal) V c).flushed 3 t = ((cfg11.win 3).blk t).view.read (Elt Ideal)
      (G11 (V c (Pipeline.arrRef spec11 0)) (V c (Pipeline.arrRef spec11 1)) (V c (Pipeline.arrRef spec11 2))) := by
  show (cfg11.win 3).cut (grid11.coords t) ((dat11 (F := Ideal) V c).after 3 t) = _
  rw [after11_3]
  unfold out11
  rw [View.canon_unit_zero hz11]
  simp only [View.ld_unit_zero (S := S5000x128) hz11, View.ld_unit_zero (S := S128x128) hz11, View.ld_unit_zero (S := S1x128) hz11]
  obtain ⟨e0, e1, e2, e3, e4, e5, e6, e7⟩ := idx_facts11 t
  have htN : t.val < 1 := lt_of_lt_of_eq t.isLt (show cfg11.N = 1 from N_11)
  funext j
  obtain ⟨p, n, rfl⟩ : ∃ (p : Fin 5000) (n : Fin 128), j = ix2 p n := ⟨j 0, j 1, eq_ix2 (n0 := 5000) (n1 := 128) j⟩
  obtain ⟨P, hP⟩ : ∃ P : Fin 5000, P.val = t.val * 5000 + p.val := ⟨⟨t.val * 5000 + p.val, by have := p.isLt; omega⟩, rfl⟩
  show k11_pay1 (F := Ideal) (iblk11 V c 0 t) (iblk11 V c 1 t) (iblk11 V c 2 t) (ix2 p n)
      = G11 (V c (Pipeline.arrRef spec11 0)) (V c (Pipeline.arrRef spec11 1)) (V c (Pipeline.arrRef spec11 2)) (((cfg11.win 3).blk t).view.emb (ix2 p n))
  refine (point11 (V c (Pipeline.arrRef spec11 0)) (V c (Pipeline.arrRef spec11 1)) (V c (Pipeline.arrRef spec11 2))
    (iblk11 V c 0 t) (iblk11 V c 1 t) (iblk11 V c 2 t) p n P n
    (fun k => rd11_0 V c t p k P k (by omega) (by omega))
    (fun k => rd11_1 V c t k n k n (by omega) (by omega))
    (rd11_2 V c t 0 n 0 n (by omega) (by omega))).trans
    (congrArg (G11 (V c (Pipeline.arrRef spec11 0)) (V c (Pipeline.arrRef spec11 1)) (V c (Pipeline.arrRef spec11 2))) (emb11_3 t p n P n (by omega) (by omega)).symm)

/-- An index of the array is in point `t`'s block iff each coordinate is in the block's range on its axis. -/
theorem mem_blk11 (t : Fin cfg11.N) (i : S5000x128.Idx) :
    i ∈ ((cfg11.win 3).blk t).view.set ↔ ∀ a : Fin 2, win11_3.index t a * S5000x128.size a ≤ (i a).val ∧ (i a).val < win11_3.index t a * S5000x128.size a + S5000x128.size a := by
  show i ∈ ((View.whole main_v244).slice (win11_3.rect t)).set ↔ _
  rw [View.set_slice_whole, Rect.mem_set_unit]
  exact Iff.rfl

/-- Row `r` of the array is in the block of point `r / 5000`. -/
theorem cover11 (i : S5000x128.Idx) : ∃ t : Fin cfg11.N, (cfg11.win 3).flush t = true ∧ i ∈ ((cfg11.win 3).blk t).view.set := by
  have hi0 : (i 0).val < 5000 := (i 0).isLt
  have hi1 : (i 1).val < 128 := (i 1).isLt
  obtain ⟨t, ht⟩ : ∃ t : Fin cfg11.N, t.val = (i 0).val / 5000 :=
    ⟨⟨(i 0).val / 5000, by show _ < grid11.N; rw [N_11]; omega⟩, rfl⟩
  obtain ⟨e0, e1, e2, e3, e4, e5, e6, e7⟩ := idx_facts11 t
  refine ⟨t, flush11_3 t, ?_⟩
  rw [mem_blk11]
  intro a
  match a with
  | ⟨0, _⟩ => show win11_3.index t (0 : Fin 2) * 5000 ≤ (i 0).val ∧ (i 0).val < win11_3.index t (0 : Fin 2) * 5000 + 5000; omega
  | ⟨1, _⟩ => show win11_3.index t (1 : Fin 2) * 128 ≤ (i 1).val ∧ (i 1).val < win11_3.index t (1 : Fin 2) * 128 + 128; omega

/-- The output array after the region is `G11` of the arrays the region was entered with. -/
theorem arr11 (c : Dev nD) :
    (dat11 (F := Ideal) V c).arrAt 3 cfg11.N = G11 (V c (Pipeline.arrRef spec11 0)) (V c (Pipeline.arrRef spec11 1)) (V c (Pipeline.arrRef spec11 2)) :=
  (dat11 (F := Ideal) V c).arrAt_eq_of_cover 3 _ (fun t _ => flushed11_eq V c t) cover11

end Cert.KernelIdeal.Arr

end
-- ==== Proof.KI.Arr12.lean ====
import proofs.«173394_j29068338659455_2_alg».proof.Proof.KI.R12
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 12: what its output array holds after the region, as one function of the arrays the region was entered with.

The grid has 10 points; point `t` writes rows `10000·t … 10000·t + 9999` of the 100000-row output. Each stored entry is
a dense layer's row, so row `r` of the output depends on row `r` of the row-blocked operands and on the
whole of the other operands. The blocks tile the rows (row `r` is written by point `r / 10000`), hence the whole array is
`G12` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz12 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts12 : ∀ t : Fin cfg12.N, win12_0.index t (0 : Fin 2) = t.val
    ∧ win12_0.index t (1 : Fin 2) = 0
    ∧ win12_1.index t (0 : Fin 2) = 0
    ∧ win12_1.index t (1 : Fin 2) = 0
    ∧ win12_2.index t (0 : Fin 2) = 0
    ∧ win12_2.index t (1 : Fin 2) = 0
    ∧ win12_3.index t (0 : Fin 2) = t.val
    ∧ win12_3.index t (1 : Fin 2) = 0 :=
  (by decide +kernel : ∀ t : Fin grid12.N, _)

/-- Window 0's block at point `t`, read at an entry, is the array at the entry `block index × block size + the entry's own
    coordinate` on each axis. -/
theorem rd12_0 (c : Dev nD) (t : Fin cfg12.N) (y0 : Fin 10000) (y1 : Fin 128) (Y0 : Fin 100000) (Y1 : Fin 128)
    (h0 : win12_0.index t (0 : Fin 2) * 10000 + 1 * y0.val = Y0.val)
    (h1 : win12_0.index t (1 : Fin 2) * 128 + 1 * y1.val = Y1.val) :
    iblk12 V c 0 t (ix2 y0 y1) = V c (Pipeline.arrRef spec12 0) (ix2 Y0 Y1) := by
  show V c (Pipeline.arrRef spec12 0) (((cfg12.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd12_1 (c : Dev nD) (t : Fin cfg12.N) (y0 : Fin 128) (y1 : Fin 128) (Y0 : Fin 128) (Y1 : Fin 128)
    (h0 : win12_1.index t (0 : Fin 2) * 128 + 1 * y0.val = Y0.val)
    (h1 : win12_1.index t (1 : Fin 2) * 128 + 1 * y1.val = Y1.val) :
    iblk12 V c 1 t (ix2 y0 y1) = V c (Pipeline.arrRef spec12 1) (ix2 Y0 Y1) := by
  show V c (Pipeline.arrRef spec12 1) (((cfg12.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd12_2 (c : Dev nD) (t : Fin cfg12.N) (y0 : Fin 1) (y1 : Fin 128) (Y0 : Fin 1) (Y1 : Fin 128)
    (h0 : win12_2.index t (0 : Fin 2) * 1 + 1 * y0.val = Y0.val)
    (h1 : win12_2.index t (1 : Fin 2) * 128 + 1 * y1.val = Y1.val) :
    iblk12 V c 2 t (ix2 y0 y1) = V c (Pipeline.arrRef spec12 2) (ix2 Y0 Y1) := by
  show V c (Pipeline.arrRef spec12 2) (((cfg12.win 2).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb12_3 (t : Fin cfg12.N) (y0 : Fin 10000) (y1 : Fin 128) (Y0 : Fin 100000) (Y1 : Fin 128)
    (h0 : win12_3.index t (0 : Fin 2) * 10000 + 1 * y0.val = Y0.val)
    (h1 : win12_3.index t (1 : Fin 2) * 128 + 1 * y1.val = Y1.val) :
    ((cfg12.win 3).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G12` of the arrays, when the loaded blocks hold
    the rows of the arrays that entry depends on. -/
theorem point12
    (X' : Vec Ideal S100000x128 .bf16) (W' : Vec Ideal S128x128 .bf16) (B' : Vec Ideal S1x128 .f32)
    (x0 : Vec Ideal S10000x128 .bf16) (x1 : Vec Ideal S128x128 .bf16) (x2 : Vec Ideal S1x128 .f32)
    (p : Fin 10000) (n : Fin 128) (P : Fin 100000) (Q : Fin 128)
    (h0 : ∀ k : Fin 128, x0 (ix2 p k) = X' (ix2 P k))
    (h1 : ∀ k : Fin 128, x1 (ix2 k n) = W' (ix2 k Q))
    (h2 : x2 (ix2 0 n) = B' (ix2 0 Q)) :
    k12_pay1 (F := Ideal) x0 x1 x2 (ix2 p n) = G12 X' W' B' (ix2 P Q) := by
  rw [Cert.KernelIdeal.Pay.k12_pay1_apply, G12_apply]
  simp only [h0, h1, h2]

set_option maxHeartbeats 2000000 in
/-- What grid point `t` writes back is block `t` of `G12` of the arrays the region was entered with. -/
theorem flushed12_eq (c : Dev nD) (t : Fin cfg12.N) :
    (dat12 (F := Ideal) V c).flushed 3 t = ((cfg12.win 3).blk t).view.read (Elt Ideal)
      (G12 (V c (Pipeline.arrRef spec12 0)) (V c (Pipeline.arrRef spec12 1)) (V c (Pipeline.arrRef spec12 2))) := by
  show (cfg12.win 3).cut (grid12.coords t) ((dat12 (F := Ideal) V c).after 3 t) = _
  rw [after12_3]
  unfold out12
  rw [View.canon_unit_zero hz12]
  simp only [View.ld_unit_zero (S := S10000x128) hz12, View.ld_unit_zero (S := S128x128) hz12, View.ld_unit_zero (S := S1x128) hz12]
  obtain ⟨e0, e1, e2, e3, e4, e5, e6, e7⟩ := idx_facts12 t
  have htN : t.val < 10 := lt_of_lt_of_eq t.isLt (show cfg12.N = 10 from N_12)
  funext j
  obtain ⟨p, n, rfl⟩ : ∃ (p : Fin 10000) (n : Fin 128), j = ix2 p n := ⟨j 0, j 1, eq_ix2 (n0 := 10000) (n1 := 128) j⟩
  obtain ⟨P, hP⟩ : ∃ P : Fin 100000, P.val = t.val * 10000 + p.val := ⟨⟨t.val * 10000 + p.val, by have := p.isLt; omega⟩, rfl⟩
  show k12_pay1 (F := Ideal) (iblk12 V c 0 t) (iblk12 V c 1 t) (iblk12 V c 2 t) (ix2 p n)
      = G12 (V c (Pipeline.arrRef spec12 0)) (V c (Pipeline.arrRef spec12 1)) (V c (Pipeline.arrRef spec12 2)) (((cfg12.win 3).blk t).view.emb (ix2 p n))
  refine (point12 (V c (Pipeline.arrRef spec12 0)) (V c (Pipeline.arrRef spec12 1)) (V c (Pipeline.arrRef spec12 2))
    (iblk12 V c 0 t) (iblk12 V c 1 t) (iblk12 V c 2 t) p n P n
    (fun k => rd12_0 V c t p k P k (by omega) (by omega))
    (fun k => rd12_1 V c t k n k n (by omega) (by omega))
    (rd12_2 V c t 0 n 0 n (by omega) (by omega))).trans
    (congrArg (G12 (V c (Pipeline.arrRef spec12 0)) (V c (Pipeline.arrRef spec12 1)) (V c (Pipeline.arrRef spec12 2))) (emb12_3 t p n P n (by omega) (by omega)).symm)

/-- An index of the array is in point `t`'s block iff each coordinate is in the block's range on its axis. -/
theorem mem_blk12 (t : Fin cfg12.N) (i : S100000x128.Idx) :
    i ∈ ((cfg12.win 3).blk t).view.set ↔ ∀ a : Fin 2, win12_3.index t a * S10000x128.size a ≤ (i a).val ∧ (i a).val < win12_3.index t a * S10000x128.size a + S10000x128.size a := by
  show i ∈ ((View.whole main_v249).slice (win12_3.rect t)).set ↔ _
  rw [View.set_slice_whole, Rect.mem_set_unit]
  exact Iff.rfl

/-- Row `r` of the array is in the block of point `r / 10000`. -/
theorem cover12 (i : S100000x128.Idx) : ∃ t : Fin cfg12.N, (cfg12.win 3).flush t = true ∧ i ∈ ((cfg12.win 3).blk t).view.set := by
  have hi0 : (i 0).val < 100000 := (i 0).isLt
  have hi1 : (i 1).val < 128 := (i 1).isLt
  obtain ⟨t, ht⟩ : ∃ t : Fin cfg12.N, t.val = (i 0).val / 10000 :=
    ⟨⟨(i 0).val / 10000, by show _ < grid12.N; rw [N_12]; omega⟩, rfl⟩
  obtain ⟨e0, e1, e2, e3, e4, e5, e6, e7⟩ := idx_facts12 t
  refine ⟨t, flush12_3 t, ?_⟩
  rw [mem_blk12]
  intro a
  match a with
  | ⟨0, _⟩ => show win12_3.index t (0 : Fin 2) * 10000 ≤ (i 0).val ∧ (i 0).val < win12_3.index t (0 : Fin 2) * 10000 + 10000; omega
  | ⟨1, _⟩ => show win12_3.index t (1 : Fin 2) * 128 ≤ (i 1).val ∧ (i 1).val < win12_3.index t (1 : Fin 2) * 128 + 128; omega

/-- The output array after the region is `G12` of the arrays the region was entered with. -/
theorem arr12 (c : Dev nD) :
    (dat12 (F := Ideal) V c).arrAt 3 cfg12.N = G12 (V c (Pipeline.arrRef spec12 0)) (V c (Pipeline.arrRef spec12 1)) (V c (Pipeline.arrRef spec12 2)) :=
  (dat12 (F := Ideal) V c).arrAt_eq_of_cover 3 _ (fun t _ => flushed12_eq V c t) cover12

end Cert.KernelIdeal.Arr

end
-- ==== Proof.KI.Arr13.lean ====
import proofs.«173394_j29068338659455_2_alg».proof.Proof.KI.R13
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 13: what its output array holds after the region, as one function of the arrays the region was entered with.

The grid has 25 points; point `t` writes rows `12000·t … 12000·t + 11999` of the 300000-row output. Each stored entry is
the score of a row (the weighted sum over the lanes of the hyperbolic tangent of two rows and a bias row, plus a bias), so row `r` of the output depends on row `r` of the row-blocked operands and on the
whole of the other operands. The blocks tile the rows (row `r` is written by point `r / 12000`), hence the whole array is
`G13` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz13 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts13 : ∀ t : Fin cfg13.N, win13_0.index t (0 : Fin 2) = t.val
    ∧ win13_0.index t (1 : Fin 2) = 0
    ∧ win13_1.index t (0 : Fin 2) = t.val
    ∧ win13_1.index t (1 : Fin 2) = 0
    ∧ win13_2.index t (0 : Fin 2) = 0
    ∧ win13_2.index t (1 : Fin 2) = 0
    ∧ win13_3.index t (0 : Fin 2) = 0
    ∧ win13_3.index t (1 : Fin 2) = 0
    ∧ win13_4.index t (0 : Fin 2) = 0
    ∧ win13_4.index t (1 : Fin 2) = 0
    ∧ win13_5.index t (0 : Fin 2) = t.val
    ∧ win13_5.index t (1 : Fin 2) = 0 :=
  (by decide +kernel : ∀ t : Fin grid13.N, _)

/-- Window 0's block at point `t`, read at an entry, is the array at the entry `block index × block size + the entry's own
    coordinate` on each axis. -/
theorem rd13_0 (c : Dev nD) (t : Fin cfg13.N) (y0 : Fin 12000) (y1 : Fin 128) (Y0 : Fin 300000) (Y1 : Fin 128)
    (h0 : win13_0.index t (0 : Fin 2) * 12000 + 1 * y0.val = Y0.val)
    (h1 : win13_0.index t (1 : Fin 2) * 128 + 1 * y1.val = Y1.val) :
    iblk13 V c 0 t (ix2 y0 y1) = V c (Pipeline.arrRef spec13 0) (ix2 Y0 Y1) := by
  show V c (Pipeline.arrRef spec13 0) (((cfg13.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd13_1 (c : Dev nD) (t : Fin cfg13.N) (y0 : Fin 12000) (y1 : Fin 128) (Y0 : Fin 300000) (Y1 : Fin 128)
    (h0 : win13_1.index t (0 : Fin 2) * 12000 + 1 * y0.val = Y0.val)
    (h1 : win13_1.index t (1 : Fin 2) * 128 + 1 * y1.val = Y1.val) :
    iblk13 V c 1 t (ix2 y0 y1) = V c (Pipeline.arrRef spec13 1) (ix2 Y0 Y1) := by
  show V c (Pipeline.arrRef spec13 1) (((cfg13.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd13_2 (c : Dev nD) (t : Fin cfg13.N) (y0 : Fin 1) (y1 : Fin 128) (Y0 : Fin 1) (Y1 : Fin 128)
    (h0 : win13_2.index t (0 : Fin 2) * 1 + 1 * y0.val = Y0.val)
    (h1 : win13_2.index t (1 : Fin 2) * 128 + 1 * y1.val = Y1.val) :
    iblk13 V c 2 t (ix2 y0 y1) = V c (Pipeline.arrRef spec13 2) (ix2 Y0 Y1) := by
  show V c (Pipeline.arrRef spec13 2) (((cfg13.win 2).blk t).view.emb (ix2 y0 y1)) = _
  refine congrArg _ (funext fun a => Fin.ext ?_)
  match a with
  | ⟨0, _⟩ => exact h0
  | ⟨1, _⟩ => exact h1

/-- Window 3's block at point `t`, read at an entry, is the array at the entry `block index × block size + the entry's own
    coordinate` on each axis. -/
theorem rd13_3 (c : Dev nD) (t : Fin cfg13.N) (y0 : Fin 1) (y1 : Fin 128) (Y0 : Fin 1) (Y1 : Fin 128)
    (h0 : win13_3.index t (0 : Fin 2) * 1 + 1 * y0.val = Y0.val)
    (h1 : win13_3.index t (1 : Fin 2) * 128 + 1 * y1.val = Y1.val) :
    iblk13 V c 3 t (ix2 y0 y1) = V c (Pipeline.arrRef spec13 3) (ix2 Y0 Y1) := by
  show V c (Pipeline.arrRef spec13 3) (((cfg13.win 3).blk t).view.emb (ix2 y0 y1)) = _
  refine congrArg _ (funext fun a => Fin.ext ?_)
  match a with
  | ⟨0, _⟩ => exact h0
  | ⟨1, _⟩ => exact h1

/-- Window 4's block at point `t`, read at an entry, is the array at the entry `block index × block size + the entry's own
    coordinate` on each axis. -/
theorem rd13_4 (c : Dev nD) (t : Fin cfg13.N) (y0 : Fin 1) (y1 : Fin 1) (Y0 : Fin 1) (Y1 : Fin 1)
    (h0 : win13_4.index t (0 : Fin 2) * 1 + 1 * y0.val = Y0.val)
    (h1 : win13_4.index t (1 : Fin 2) * 1 + 1 * y1.val = Y1.val) :
    iblk13 V c 4 t (ix2 y0 y1) = V c (Pipeline.arrRef spec13 4) (ix2 Y0 Y1) := by
  show V c (Pipeline.arrRef spec13 4) (((cfg13.win 4).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb13_5 (t : Fin cfg13.N) (y0 : Fin 12000) (y1 : Fin 1) (Y0 : Fin 300000) (Y1 : Fin 1)
    (h0 : win13_5.index t (0 : Fin 2) * 12000 + 1 * y0.val = Y0.val)
    (h1 : win13_5.index t (1 : Fin 2) * 1 + 1 * y1.val = Y1.val) :
    ((cfg13.win 5).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G13` of the arrays, when the loaded blocks hold
    the rows of the arrays that entry depends on. -/
theorem point13
    (A' : Vec Ideal S300000x128 .bf16) (C' : Vec Ideal S300000x128 .bf16) (B1' : Vec Ideal S1x128 .f32) (W2' : Vec Ideal S1x128 .f32) (B2' : Vec Ideal S1x1 .f32)
    (x0 : Vec Ideal S12000x128 .bf16) (x1 : Vec Ideal S12000x128 .bf16) (x2 : Vec Ideal S1x128 .f32) (x3 : Vec Ideal S1x128 .f32) (x4 : Vec Ideal S1x1 .f32)
    (p : Fin 12000) (n : Fin 1) (P : Fin 300000) (Q : Fin 1)
    (h0 : ∀ k : Fin 128, x0 (ix2 p k) = A' (ix2 P k))
    (h1 : ∀ k : Fin 128, x1 (ix2 p k) = C' (ix2 P k))
    (h2 : ∀ k : Fin 128, x2 (ix2 0 k) = B1' (ix2 0 k))
    (h3 : ∀ k : Fin 128, x3 (ix2 0 k) = W2' (ix2 0 k))
    (h4 : x4 (ix2 0 0) = B2' (ix2 0 0)) :
    k13_pay1 (F := Ideal) x0 x1 x2 x3 x4 (ix2 p n) = G13 A' C' B1' W2' B2' (ix2 P Q) := by
  rw [Cert.KernelIdeal.Pay.k13_pay1_apply, G13_apply]
  simp only [h0, h1, h2, h3, h4]

set_option maxHeartbeats 2000000 in
/-- What grid point `t` writes back is block `t` of `G13` of the arrays the region was entered with. -/
theorem flushed13_eq (c : Dev nD) (t : Fin cfg13.N) :
    (dat13 (F := Ideal) V c).flushed 5 t = ((cfg13.win 5).blk t).view.read (Elt Ideal)
      (G13 (V c (Pipeline.arrRef spec13 0)) (V c (Pipeline.arrRef spec13 1)) (V c (Pipeline.arrRef spec13 2)) (V c (Pipeline.arrRef spec13 3)) (V c (Pipeline.arrRef spec13 4))) := by
  show (cfg13.win 5).cut (grid13.coords t) ((dat13 (F := Ideal) V c).after 5 t) = _
  rw [after13_5]
  unfold out13
  rw [View.canon_unit_zero hz13]
  simp only [View.ld_unit_zero (S := S12000x128) hz13, View.ld_unit_zero (S := S1x128) hz13, View.ld_unit_zero (S := S1x1) hz13]
  obtain ⟨e0, e1, e2, e3, e4, e5, e6, e7, e8, e9, e10, e11⟩ := idx_facts13 t
  have htN : t.val < 25 := lt_of_lt_of_eq t.isLt (show cfg13.N = 25 from N_13)
  funext j
  obtain ⟨p, n, rfl⟩ : ∃ (p : Fin 12000) (n : Fin 1), j = ix2 p n := ⟨j 0, j 1, eq_ix2 (n0 := 12000) (n1 := 1) j⟩
  obtain ⟨P, hP⟩ : ∃ P : Fin 300000, P.val = t.val * 12000 + p.val := ⟨⟨t.val * 12000 + p.val, by have := p.isLt; omega⟩, rfl⟩
  show k13_pay1 (F := Ideal) (iblk13 V c 0 t) (iblk13 V c 1 t) (iblk13 V c 2 t) (iblk13 V c 3 t) (iblk13 V c 4 t) (ix2 p n)
      = G13 (V c (Pipeline.arrRef spec13 0)) (V c (Pipeline.arrRef spec13 1)) (V c (Pipeline.arrRef spec13 2)) (V c (Pipeline.arrRef spec13 3)) (V c (Pipeline.arrRef spec13 4)) (((cfg13.win 5).blk t).view.emb (ix2 p n))
  refine (point13 (V c (Pipeline.arrRef spec13 0)) (V c (Pipeline.arrRef spec13 1)) (V c (Pipeline.arrRef spec13 2)) (V c (Pipeline.arrRef spec13 3)) (V c (Pipeline.arrRef spec13 4))
    (iblk13 V c 0 t) (iblk13 V c 1 t) (iblk13 V c 2 t) (iblk13 V c 3 t) (iblk13 V c 4 t) p n P n
    (fun k => rd13_0 V c t p k P k (by omega) (by omega))
    (fun k => rd13_1 V c t p k P k (by omega) (by omega))
    (fun k => rd13_2 V c t 0 k 0 k (by omega) (by omega))
    (fun k => rd13_3 V c t 0 k 0 k (by omega) (by omega))
    (rd13_4 V c t 0 0 0 0 (by omega) (by omega))).trans
    (congrArg (G13 (V c (Pipeline.arrRef spec13 0)) (V c (Pipeline.arrRef spec13 1)) (V c (Pipeline.arrRef spec13 2)) (V c (Pipeline.arrRef spec13 3)) (V c (Pipeline.arrRef spec13 4))) (emb13_5 t p n P n (by omega) (by omega)).symm)

/-- An index of the array is in point `t`'s block iff each coordinate is in the block's range on its axis. -/
theorem mem_blk13 (t : Fin cfg13.N) (i : S300000x1.Idx) :
    i ∈ ((cfg13.win 5).blk t).view.set ↔ ∀ a : Fin 2, win13_5.index t a * S12000x1.size a ≤ (i a).val ∧ (i a).val < win13_5.index t a * S12000x1.size a + S12000x1.size a := by
  show i ∈ ((View.whole main_v267).slice (win13_5.rect t)).set ↔ _
  rw [View.set_slice_whole, Rect.mem_set_unit]
  exact Iff.rfl

/-- Row `r` of the array is in the block of point `r / 12000`. -/
theorem cover13 (i : S300000x1.Idx) : ∃ t : Fin cfg13.N, (cfg13.win 5).flush t = true ∧ i ∈ ((cfg13.win 5).blk t).view.set := by
  have hi0 : (i 0).val < 300000 := (i 0).isLt
  have hi1 : (i 1).val < 1 := (i 1).isLt
  obtain ⟨t, ht⟩ : ∃ t : Fin cfg13.N, t.val = (i 0).val / 12000 :=
    ⟨⟨(i 0).val / 12000, by show _ < grid13.N; rw [N_13]; omega⟩, rfl⟩
  obtain ⟨e0, e1, e2, e3, e4, e5, e6, e7, e8, e9, e10, e11⟩ := idx_facts13 t
  refine ⟨t, flush13_5 t, ?_⟩
  rw [mem_blk13]
  intro a
  match a with
  | ⟨0, _⟩ => show win13_5.index t (0 : Fin 2) * 12000 ≤ (i 0).val ∧ (i 0).val < win13_5.index t (0 : Fin 2) * 12000 + 12000; omega
  | ⟨1, _⟩ => show win13_5.index t (1 : Fin 2) * 1 ≤ (i 1).val ∧ (i 1).val < win13_5.index t (1 : Fin 2) * 1 + 1; omega

/-- The output array after the region is `G13` of the arrays the region was entered with. -/
theorem arr13 (c : Dev nD) :
    (dat13 (F := Ideal) V c).arrAt 5 cfg13.N = G13 (V c (Pipeline.arrRef spec13 0)) (V c (Pipeline.arrRef spec13 1)) (V c (Pipeline.arrRef spec13 2)) (V c (Pipeline.arrRef spec13 3)) (V c (Pipeline.arrRef spec13 4)) :=
  (dat13 (F := Ideal) V c).arrAt_eq_of_cover 5 _ (fun t _ => flushed13_eq V c t) cover13

end Cert.KernelIdeal.Arr

end
-- ==== Proof.KI.Arr14.lean ====
import proofs.«173394_j29068338659455_2_alg».proof.Proof.KI.R14
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 14: what its output array holds after the region, as one function of the arrays the region was entered with.

The grid has 10 points; point `t` writes rows `10000·t … 10000·t + 9999` of the 100000-row output. Each stored entry is
a dense layer's row, so row `r` of the output depends on row `r` of the row-blocked operands and on the
whole of the other operands. The blocks tile the rows (row `r` is written by point `r / 10000`), hence the whole array is
`G14` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz14 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts14 : ∀ t : Fin cfg14.N, win14_0.index t (0 : Fin 2) = t.val
    ∧ win14_0.index t (1 : Fin 2) = 0
    ∧ win14_1.index t (0 : Fin 2) = 0
    ∧ win14_1.index t (1 : Fin 2) = 0
    ∧ win14_2.index t (0 : Fin 2) = 0
    ∧ win14_2.index t (1 : Fin 2) = 0
    ∧ win14_3.index t (0 : Fin 2) = t.val
    ∧ win14_3.index t (1 : Fin 2) = 0 :=
  (by decide +kernel : ∀ t : Fin grid14.N, _)

/-- Window 0's block at point `t`, read at an entry, is the array at the entry `block index × block size + the entry's own
    coordinate` on each axis. -/
theorem rd14_0 (c : Dev nD) (t : Fin cfg14.N) (y0 : Fin 10000) (y1 : Fin 131) (Y0 : Fin 100000) (Y1 : Fin 131)
    (h0 : win14_0.index t (0 : Fin 2) * 10000 + 1 * y0.val = Y0.val)
    (h1 : win14_0.index t (1 : Fin 2) * 131 + 1 * y1.val = Y1.val) :
    iblk14 V c 0 t (ix2 y0 y1) = V c (Pipeline.arrRef spec14 0) (ix2 Y0 Y1) := by
  show V c (Pipeline.arrRef spec14 0) (((cfg14.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd14_1 (c : Dev nD) (t : Fin cfg14.N) (y0 : Fin 131) (y1 : Fin 256) (Y0 : Fin 131) (Y1 : Fin 256)
    (h0 : win14_1.index t (0 : Fin 2) * 131 + 1 * y0.val = Y0.val)
    (h1 : win14_1.index t (1 : Fin 2) * 256 + 1 * y1.val = Y1.val) :
    iblk14 V c 1 t (ix2 y0 y1) = V c (Pipeline.arrRef spec14 1) (ix2 Y0 Y1) := by
  show V c (Pipeline.arrRef spec14 1) (((cfg14.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd14_2 (c : Dev nD) (t : Fin cfg14.N) (y0 : Fin 1) (y1 : Fin 256) (Y0 : Fin 1) (Y1 : Fin 256)
    (h0 : win14_2.index t (0 : Fin 2) * 1 + 1 * y0.val = Y0.val)
    (h1 : win14_2.index t (1 : Fin 2) * 256 + 1 * y1.val = Y1.val) :
    iblk14 V c 2 t (ix2 y0 y1) = V c (Pipeline.arrRef spec14 2) (ix2 Y0 Y1) := by
  show V c (Pipeline.arrRef spec14 2) (((cfg14.win 2).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb14_3 (t : Fin cfg14.N) (y0 : Fin 10000) (y1 : Fin 256) (Y0 : Fin 100000) (Y1 : Fin 256)
    (h0 : win14_3.index t (0 : Fin 2) * 10000 + 1 * y0.val = Y0.val)
    (h1 : win14_3.index t (1 : Fin 2) * 256 + 1 * y1.val = Y1.val) :
    ((cfg14.win 3).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G14` of the arrays, when the loaded blocks hold
    the rows of the arrays that entry depends on. -/
theorem point14
    (X' : Vec Ideal S100000x131 .bf16) (W' : Vec Ideal S131x256 .bf16) (B' : Vec Ideal S1x256 .f32)
    (x0 : Vec Ideal S10000x131 .bf16) (x1 : Vec Ideal S131x256 .bf16) (x2 : Vec Ideal S1x256 .f32)
    (p : Fin 10000) (n : Fin 256) (P : Fin 100000) (Q : Fin 256)
    (h0 : ∀ k : Fin 131, x0 (ix2 p k) = X' (ix2 P k))
    (h1 : ∀ k : Fin 131, x1 (ix2 k n) = W' (ix2 k Q))
    (h2 : x2 (ix2 0 n) = B' (ix2 0 Q)) :
    k14_pay1 (F := Ideal) x0 x1 x2 (ix2 p n) = G14 X' W' B' (ix2 P Q) := by
  rw [Cert.KernelIdeal.Pay.k14_pay1_apply, G14_apply]
  simp only [h0, h1, h2]

set_option maxHeartbeats 2000000 in
/-- What grid point `t` writes back is block `t` of `G14` of the arrays the region was entered with. -/
theorem flushed14_eq (c : Dev nD) (t : Fin cfg14.N) :
    (dat14 (F := Ideal) V c).flushed 3 t = ((cfg14.win 3).blk t).view.read (Elt Ideal)
      (G14 (V c (Pipeline.arrRef spec14 0)) (V c (Pipeline.arrRef spec14 1)) (V c (Pipeline.arrRef spec14 2))) := by
  show (cfg14.win 3).cut (grid14.coords t) ((dat14 (F := Ideal) V c).after 3 t) = _
  rw [after14_3]
  unfold out14
  rw [View.canon_unit_zero hz14]
  simp only [View.ld_unit_zero (S := S10000x131) hz14, View.ld_unit_zero (S := S131x256) hz14, View.ld_unit_zero (S := S1x256) hz14]
  obtain ⟨e0, e1, e2, e3, e4, e5, e6, e7⟩ := idx_facts14 t
  have htN : t.val < 10 := lt_of_lt_of_eq t.isLt (show cfg14.N = 10 from N_14)
  funext j
  obtain ⟨p, n, rfl⟩ : ∃ (p : Fin 10000) (n : Fin 256), j = ix2 p n := ⟨j 0, j 1, eq_ix2 (n0 := 10000) (n1 := 256) j⟩
  obtain ⟨P, hP⟩ : ∃ P : Fin 100000, P.val = t.val * 10000 + p.val := ⟨⟨t.val * 10000 + p.val, by have := p.isLt; omega⟩, rfl⟩
  show k14_pay1 (F := Ideal) (iblk14 V c 0 t) (iblk14 V c 1 t) (iblk14 V c 2 t) (ix2 p n)
      = G14 (V c (Pipeline.arrRef spec14 0)) (V c (Pipeline.arrRef spec14 1)) (V c (Pipeline.arrRef spec14 2)) (((cfg14.win 3).blk t).view.emb (ix2 p n))
  refine (point14 (V c (Pipeline.arrRef spec14 0)) (V c (Pipeline.arrRef spec14 1)) (V c (Pipeline.arrRef spec14 2))
    (iblk14 V c 0 t) (iblk14 V c 1 t) (iblk14 V c 2 t) p n P n
    (fun k => rd14_0 V c t p k P k (by omega) (by omega))
    (fun k => rd14_1 V c t k n k n (by omega) (by omega))
    (rd14_2 V c t 0 n 0 n (by omega) (by omega))).trans
    (congrArg (G14 (V c (Pipeline.arrRef spec14 0)) (V c (Pipeline.arrRef spec14 1)) (V c (Pipeline.arrRef spec14 2))) (emb14_3 t p n P n (by omega) (by omega)).symm)

/-- An index of the array is in point `t`'s block iff each coordinate is in the block's range on its axis. -/
theorem mem_blk14 (t : Fin cfg14.N) (i : S100000x256.Idx) :
    i ∈ ((cfg14.win 3).blk t).view.set ↔ ∀ a : Fin 2, win14_3.index t a * S10000x256.size a ≤ (i a).val ∧ (i a).val < win14_3.index t a * S10000x256.size a + S10000x256.size a := by
  show i ∈ ((View.whole main_v316).slice (win14_3.rect t)).set ↔ _
  rw [View.set_slice_whole, Rect.mem_set_unit]
  exact Iff.rfl

/-- Row `r` of the array is in the block of point `r / 10000`. -/
theorem cover14 (i : S100000x256.Idx) : ∃ t : Fin cfg14.N, (cfg14.win 3).flush t = true ∧ i ∈ ((cfg14.win 3).blk t).view.set := by
  have hi0 : (i 0).val < 100000 := (i 0).isLt
  have hi1 : (i 1).val < 256 := (i 1).isLt
  obtain ⟨t, ht⟩ : ∃ t : Fin cfg14.N, t.val = (i 0).val / 10000 :=
    ⟨⟨(i 0).val / 10000, by show _ < grid14.N; rw [N_14]; omega⟩, rfl⟩
  obtain ⟨e0, e1, e2, e3, e4, e5, e6, e7⟩ := idx_facts14 t
  refine ⟨t, flush14_3 t, ?_⟩
  rw [mem_blk14]
  intro a
  match a with
  | ⟨0, _⟩ => show win14_3.index t (0 : Fin 2) * 10000 ≤ (i 0).val ∧ (i 0).val < win14_3.index t (0 : Fin 2) * 10000 + 10000; omega
  | ⟨1, _⟩ => show win14_3.index t (1 : Fin 2) * 256 ≤ (i 1).val ∧ (i 1).val < win14_3.index t (1 : Fin 2) * 256 + 256; omega

/-- The output array after the region is `G14` of the arrays the region was entered with. -/
theorem arr14 (c : Dev nD) :
    (dat14 (F := Ideal) V c).arrAt 3 cfg14.N = G14 (V c (Pipeline.arrRef spec14 0)) (V c (Pipeline.arrRef spec14 1)) (V c (Pipeline.arrRef spec14 2)) :=
  (dat14 (F := Ideal) V c).arrAt_eq_of_cover 3 _ (fun t _ => flushed14_eq V c t) cover14

end Cert.KernelIdeal.Arr

end
-- ==== Proof.KI.Arr15.lean ====
import proofs.«173394_j29068338659455_2_alg».proof.Proof.KI.R15
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 15: what its output array holds after the region, as one function of the arrays the region was entered with.

The grid has 50 points; point `t` writes rows `12000·t … 12000·t + 11999` of the 600000-row output. Each stored entry is
the leaky rectifier of the sum of two rows and a bias row, so row `r` of the output depends on row `r` of the row-blocked operands and on the
whole of the other operands. The blocks tile the rows (row `r` is written by point `r / 12000`), hence the whole array is
`G15` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz15 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts15 : ∀ t : Fin cfg15.N, win15_0.index t (0 : Fin 2) = t.val
    ∧ win15_0.index t (1 : Fin 2) = 0
    ∧ win15_1.index t (0 : Fin 2) = t.val
    ∧ win15_1.index t (1 : Fin 2) = 0
    ∧ win15_2.index t (0 : Fin 2) = 0
    ∧ win15_2.index t (1 : Fin 2) = 0
    ∧ win15_3.index t (0 : Fin 2) = t.val
    ∧ win15_3.index t (1 : Fin 2) = 0 :=
  (by decide +kernel : ∀ t : Fin grid15.N, _)

/-- Window 0's block at point `t`, read at an entry, is the array at the entry `block index × block size + the entry's own
    coordinate` on each axis. -/
theorem rd15_0 (c : Dev nD) (t : Fin cfg15.N) (y0 : Fin 12000) (y1 : Fin 128) (Y0 : Fin 600000) (Y1 : Fin 128)
    (h0 : win15_0.index t (0 : Fin 2) * 12000 + 1 * y0.val = Y0.val)
    (h1 : win15_0.index t (1 : Fin 2) * 128 + 1 * y1.val = Y1.val) :
    iblk15 V c 0 t (ix2 y0 y1) = V c (Pipeline.arrRef spec15 0) (ix2 Y0 Y1) := by
  show V c (Pipeline.arrRef spec15 0) (((cfg15.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd15_1 (c : Dev nD) (t : Fin cfg15.N) (y0 : Fin 12000) (y1 : Fin 128) (Y0 : Fin 600000) (Y1 : Fin 128)
    (h0 : win15_1.index t (0 : Fin 2) * 12000 + 1 * y0.val = Y0.val)
    (h1 : win15_1.index t (1 : Fin 2) * 128 + 1 * y1.val = Y1.val) :
    iblk15 V c 1 t (ix2 y0 y1) = V c (Pipeline.arrRef spec15 1) (ix2 Y0 Y1) := by
  show V c (Pipeline.arrRef spec15 1) (((cfg15.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd15_2 (c : Dev nD) (t : Fin cfg15.N) (y0 : Fin 1) (y1 : Fin 128) (Y0 : Fin 1) (Y1 : Fin 128)
    (h0 : win15_2.index t (0 : Fin 2) * 1 + 1 * y0.val = Y0.val)
    (h1 : win15_2.index t (1 : Fin 2) * 128 + 1 * y1.val = Y1.val) :
    iblk15 V c 2 t (ix2 y0 y1) = V c (Pipeline.arrRef spec15 2) (ix2 Y0 Y1) := by
  show V c (Pipeline.arrRef spec15 2) (((cfg15.win 2).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb15_3 (t : Fin cfg15.N) (y0 : Fin 12000) (y1 : Fin 128) (Y0 : Fin 600000) (Y1 : Fin 128)
    (h0 : win15_3.index t (0 : Fin 2) * 12000 + 1 * y0.val = Y0.val)
    (h1 : win15_3.index t (1 : Fin 2) * 128 + 1 * y1.val = Y1.val) :
    ((cfg15.win 3).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G15` of the arrays, when the loaded blocks hold
    the rows of the arrays that entry depends on. -/
theorem point15
    (A' : Vec Ideal S600000x128 .bf16) (C' : Vec Ideal S600000x128 .bf16) (B' : Vec Ideal S1x128 .f32)
    (x0 : Vec Ideal S12000x128 .bf16) (x1 : Vec Ideal S12000x128 .bf16) (x2 : Vec Ideal S1x128 .f32)
    (p : Fin 12000) (n : Fin 128) (P : Fin 600000) (Q : Fin 128)
    (h0 : x0 (ix2 p n) = A' (ix2 P Q))
    (h1 : x1 (ix2 p n) = C' (ix2 P Q))
    (h2 : x2 (ix2 0 n) = B' (ix2 0 Q)) :
    k15_pay1 (F := Ideal) x0 x1 x2 (ix2 p n) = G15 A' C' B' (ix2 P Q) := by
  rw [Cert.KernelIdeal.Pay.k15_pay1_apply, G15_apply]
  simp only [h0, h1, h2]

set_option maxHeartbeats 2000000 in
/-- What grid point `t` writes back is block `t` of `G15` of the arrays the region was entered with. -/
theorem flushed15_eq (c : Dev nD) (t : Fin cfg15.N) :
    (dat15 (F := Ideal) V c).flushed 3 t = ((cfg15.win 3).blk t).view.read (Elt Ideal)
      (G15 (V c (Pipeline.arrRef spec15 0)) (V c (Pipeline.arrRef spec15 1)) (V c (Pipeline.arrRef spec15 2))) := by
  show (cfg15.win 3).cut (grid15.coords t) ((dat15 (F := Ideal) V c).after 3 t) = _
  rw [after15_3]
  unfold out15
  rw [View.canon_unit_zero hz15]
  simp only [View.ld_unit_zero (S := S12000x128) hz15, View.ld_unit_zero (S := S1x128) hz15]
  obtain ⟨e0, e1, e2, e3, e4, e5, e6, e7⟩ := idx_facts15 t
  have htN : t.val < 50 := lt_of_lt_of_eq t.isLt (show cfg15.N = 50 from N_15)
  funext j
  obtain ⟨p, n, rfl⟩ : ∃ (p : Fin 12000) (n : Fin 128), j = ix2 p n := ⟨j 0, j 1, eq_ix2 (n0 := 12000) (n1 := 128) j⟩
  obtain ⟨P, hP⟩ : ∃ P : Fin 600000, P.val = t.val * 12000 + p.val := ⟨⟨t.val * 12000 + p.val, by have := p.isLt; omega⟩, rfl⟩
  show k15_pay1 (F := Ideal) (iblk15 V c 0 t) (iblk15 V c 1 t) (iblk15 V c 2 t) (ix2 p n)
      = G15 (V c (Pipeline.arrRef spec15 0)) (V c (Pipeline.arrRef spec15 1)) (V c (Pipeline.arrRef spec15 2)) (((cfg15.win 3).blk t).view.emb (ix2 p n))
  refine (point15 (V c (Pipeline.arrRef spec15 0)) (V c (Pipeline.arrRef spec15 1)) (V c (Pipeline.arrRef spec15 2))
    (iblk15 V c 0 t) (iblk15 V c 1 t) (iblk15 V c 2 t) p n P n
    (rd15_0 V c t p n P n (by omega) (by omega))
    (rd15_1 V c t p n P n (by omega) (by omega))
    (rd15_2 V c t 0 n 0 n (by omega) (by omega))).trans
    (congrArg (G15 (V c (Pipeline.arrRef spec15 0)) (V c (Pipeline.arrRef spec15 1)) (V c (Pipeline.arrRef spec15 2))) (emb15_3 t p n P n (by omega) (by omega)).symm)

/-- An index of the array is in point `t`'s block iff each coordinate is in the block's range on its axis. -/
theorem mem_blk15 (t : Fin cfg15.N) (i : S600000x128.Idx) :
    i ∈ ((cfg15.win 3).blk t).view.set ↔ ∀ a : Fin 2, win15_3.index t a * S12000x128.size a ≤ (i a).val ∧ (i a).val < win15_3.index t a * S12000x128.size a + S12000x128.size a := by
  show i ∈ ((View.whole main_v334).slice (win15_3.rect t)).set ↔ _
  rw [View.set_slice_whole, Rect.mem_set_unit]
  exact Iff.rfl

/-- Row `r` of the array is in the block of point `r / 12000`. -/
theorem cover15 (i : S600000x128.Idx) : ∃ t : Fin cfg15.N, (cfg15.win 3).flush t = true ∧ i ∈ ((cfg15.win 3).blk t).view.set := by
  have hi0 : (i 0).val < 600000 := (i 0).isLt
  have hi1 : (i 1).val < 128 := (i 1).isLt
  obtain ⟨t, ht⟩ : ∃ t : Fin cfg15.N, t.val = (i 0).val / 12000 :=
    ⟨⟨(i 0).val / 12000, by show _ < grid15.N; rw [N_15]; omega⟩, rfl⟩
  obtain ⟨e0, e1, e2, e3, e4, e5, e6, e7⟩ := idx_facts15 t
  refine ⟨t, flush15_3 t, ?_⟩
  rw [mem_blk15]
  intro a
  match a with
  | ⟨0, _⟩ => show win15_3.index t (0 : Fin 2) * 12000 ≤ (i 0).val ∧ (i 0).val < win15_3.index t (0 : Fin 2) * 12000 + 12000; omega
  | ⟨1, _⟩ => show win15_3.index t (1 : Fin 2) * 128 ≤ (i 1).val ∧ (i 1).val < win15_3.index t (1 : Fin 2) * 128 + 128; omega

/-- The output array after the region is `G15` of the arrays the region was entered with. -/
theorem arr15 (c : Dev nD) :
    (dat15 (F := Ideal) V c).arrAt 3 cfg15.N = G15 (V c (Pipeline.arrRef spec15 0)) (V c (Pipeline.arrRef spec15 1)) (V c (Pipeline.arrRef spec15 2)) :=
  (dat15 (F := Ideal) V c).arrAt_eq_of_cover 3 _ (fun t _ => flushed15_eq V c t) cover15

end Cert.KernelIdeal.Arr

end
-- ==== Proof.KI.Arr16.lean ====
import proofs.«173394_j29068338659455_2_alg».proof.Proof.KI.R16
import proofs.«173394_j29068338659455_2_alg».proof.Proof.KI.G
import proofs.«173394_j29068338659455_2_alg».proof.Proof.KI.Pay
import Idealize.ShloMosaic.Lib.Pipeline.Value
import Idealize.ShloMosaic.Lib.ValueIdx

/-! Region 16: what its output array holds after the region, as one function of the arrays the region was entered with.

The grid has 20 points; point `t` writes rows `5000·t … 5000·t + 4999` of the 100000-row output. Each stored entry is
a residual row plus the leaky rectifier of a dense layer's row, so row `r` of the output depends on row `r` of the row-blocked operands and on the
whole of the other operands. The blocks tile the rows (row `r` is written by point `r / 5000`), hence the whole array is
`G16` of the operand arrays. -/

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz16 : (![0, 0] : Fin 2 → Nat) = fun _ => 0 := funext fun a => by fin_cases a <;> rfl

variable (V : (c : Dev nD) → (b : Ref sig .tc) → Buf (Elt Ideal) ((c : Thread nD τ).loc b))

/-- The block index of every window at every grid point, decided over the grid: a row block sits at block `t` along the
    rows, every other operand is one block. -/
theorem idx_facts16 : ∀ t : Fin cfg16.N, win16_0.index t (0 : Fin 2) = t.val
    ∧ win16_0.index t (1 : Fin 2) = 0
    ∧ win16_1.index t (0 : Fin 2) = 0
    ∧ win16_1.index t (1 : Fin 2) = 0
    ∧ win16_2.index t (0 : Fin 2) = 0
    ∧ win16_2.index t (1 : Fin 2) = 0
    ∧ win16_3.index t (0 : Fin 2) = t.val
    ∧ win16_3.index t (1 : Fin 2) = 0
    ∧ win16_4.index t (0 : Fin 2) = t.val
    ∧ win16_4.index t (1 : Fin 2) = 0 :=
  (by decide +kernel : ∀ t : Fin grid16.N, _)

/-- Window 0's block at point `t`, read at an entry, is the array at the entry `block index × block size + the entry's own
    coordinate` on each axis. -/
theorem rd16_0 (c : Dev nD) (t : Fin cfg16.N) (y0 : Fin 5000) (y1 : Fin 256) (Y0 : Fin 100000) (Y1 : Fin 256)
    (h0 : win16_0.index t (0 : Fin 2) * 5000 + 1 * y0.val = Y0.val)
    (h1 : win16_0.index t (1 : Fin 2) * 256 + 1 * y1.val = Y1.val) :
    iblk16 V c 0 t (ix2 y0 y1) = V c (Pipeline.arrRef spec16 0) (ix2 Y0 Y1) := by
  show V c (Pipeline.arrRef spec16 0) (((cfg16.win 0).blk t).view.emb (ix2 y0 y1)) = _
  refine congrArg _ (funext fun a => Fin.ext ?_)
  match a with
  | ⟨0, _⟩ => exact h0
  | ⟨1, _⟩ => exact h1

/-- Window 1's block at point `t`, read at an entry, is the array at the entry `block index × block size + the entry's own
    coordinate` on each axis. -/
theorem rd16_1 (c : Dev nD) (t : Fin cfg16.N) (y0 : Fin 256) (y1 : Fin 128) (Y0 : Fin 256) (Y1 : Fin 128)
    (h0 : win16_1.index t (0 : Fin 2) * 256 + 1 * y0.val = Y0.val)
    (h1 : win16_1.index t (1 : Fin 2) * 128 + 1 * y1.val = Y1.val) :
    iblk16 V c 1 t (ix2 y0 y1) = V c (Pipeline.arrRef spec16 1) (ix2 Y0 Y1) := by
  show V c (Pipeline.arrRef spec16 1) (((cfg16.win 1).blk t).view.emb (ix2 y0 y1)) = _
  refine congrArg _ (funext fun a => Fin.ext ?_)
  match a with
  | ⟨0, _⟩ => exact h0
  | ⟨1, _⟩ => exact h1

/-- Window 2's block at point `t`, read at an entry, is the array at the entry `block index × block size + the entry's own
    coordinate` on each axis. -/
theorem rd16_2 (c : Dev nD) (t : Fin cfg16.N) (y0 : Fin 1) (y1 : Fin 128) (Y0 : Fin 1) (Y1 : Fin 128)
    (h0 : win16_2.index t (0 : Fin 2) * 1 + 1 * y0.val = Y0.val)
    (h1 : win16_2.index t (1 : Fin 2) * 128 + 1 * y1.val = Y1.val) :
    iblk16 V c 2 t (ix2 y0 y1) = V c (Pipeline.arrRef spec16 2) (ix2 Y0 Y1) := by
  show V c (Pipeline.arrRef spec16 2) (((cfg16.win 2).blk t).view.emb (ix2 y0 y1)) = _
  refine congrArg _ (funext fun a => Fin.ext ?_)
  match a with
  | ⟨0, _⟩ => exact h0
  | ⟨1, _⟩ => exact h1

/-- Window 3's block at point `t`, read at an entry, is the array at the entry `block index × block size + the entry's own
    coordinate` on each axis. -/
theorem rd16_3 (c : Dev nD) (t : Fin cfg16.N) (y0 : Fin 5000) (y1 : Fin 128) (Y0 : Fin 100000) (Y1 : Fin 128)
    (h0 : win16_3.index t (0 : Fin 2) * 5000 + 1 * y0.val = Y0.val)
    (h1 : win16_3.index t (1 : Fin 2) * 128 + 1 * y1.val = Y1.val) :
    iblk16 V c 3 t (ix2 y0 y1) = V c (Pipeline.arrRef spec16 3) (ix2 Y0 Y1) := by
  show V c (Pipeline.arrRef spec16 3) (((cfg16.win 3).blk t).view.emb (ix2 y0 y1)) = _
  refine congrArg _ (funext fun a => Fin.ext ?_)
  match a with
  | ⟨0, _⟩ => exact h0
  | ⟨1, _⟩ => exact h1

/-- An entry of the output's block at point `t` sits in the array at `block index × block size + the entry's own coordinate`
    on each axis. -/
theorem emb16_4 (t : Fin cfg16.N) (y0 : Fin 5000) (y1 : Fin 128) (Y0 : Fin 100000) (Y1 : Fin 128)
    (h0 : win16_4.index t (0 : Fin 2) * 5000 + 1 * y0.val = Y0.val)
    (h1 : win16_4.index t (1 : Fin 2) * 128 + 1 * y1.val = Y1.val) :
    ((cfg16.win 4).blk t).view.emb (ix2 y0 y1) = ix2 Y0 Y1 := by
  refine funext fun a => Fin.ext ?_
  match a with
  | ⟨0, _⟩ => exact h0
  | ⟨1, _⟩ => exact h1

/-- One entry `(p, n)` of the block the body stores is entry `(P, Q)` of `G16` of the arrays, when the loaded blocks hold
    the rows of the arrays that entry depends on. -/
theorem point16
    (X' : Vec Ideal S100000x256 .bf16) (W' : Vec Ideal S256x128 .bf16) (B' : Vec Ideal S1x128 .f32) (R' : Vec Ideal S100000x128 .f32)
    (x0 : Vec Ideal S5000x256 .bf16) (x1 : Vec Ideal S256x128 .bf16) (x2 : Vec Ideal S1x128 .f32) (x3 : Vec Ideal S5000x128 .f32)
    (p : Fin 5000) (n : Fin 128) (P : Fin 100000) (Q : Fin 128)
    (h0 : ∀ k : Fin 256, x0 (ix2 p k) = X' (ix2 P k))
    (h1 : ∀ k : Fin 256, x1 (ix2 k n) = W' (ix2 k Q))
    (h2 : x2 (ix2 0 n) = B' (ix2 0 Q))
    (h3 : x3 (ix2 p n) = R' (ix2 P Q)) :
    k16_pay1 (F := Ideal) x0 x1 x2 x3 (ix2 p n) = G16 X' W' B' R' (ix2 P Q) := by
  rw [Cert.KernelIdeal.Pay.k16_pay1_apply, G16_apply]
  simp only [h0, h1, h2, h3]

set_option maxHeartbeats 2000000 in
/-- What grid point `t` writes back is block `t` of `G16` of the arrays the region was entered with. -/
theorem flushed16_eq (c : Dev nD) (t : Fin cfg16.N) :
    (dat16 (F := Ideal) V c).flushed 4 t = ((cfg16.win 4).blk t).view.read (Elt Ideal)
      (G16 (V c (Pipeline.arrRef spec16 0)) (V c (Pipeline.arrRef spec16 1)) (V c (Pipeline.arrRef spec16 2)) (V c (Pipeline.arrRef spec16 3))) := by
  show (cfg16.win 4).cut (grid16.coords t) ((dat16 (F := Ideal) V c).after 4 t) = _
  rw [after16_4]
  unfold out16
  rw [View.canon_unit_zero hz16]
  simp only [View.ld_unit_zero (S := S5000x256) hz16, View.ld_unit_zero (S := S256x128) hz16, View.ld_unit_zero (S := S1x128) hz16, View.ld_unit_zero (S := S5000x128) hz16]
  obtain ⟨e0, e1, e2, e3, e4, e5, e6, e7, e8, e9⟩ := idx_facts16 t
  have htN : t.val < 20 := lt_of_lt_of_eq t.isLt (show cfg16.N = 20 from N_16)
  funext j
  obtain ⟨p, n, rfl⟩ : ∃ (p : Fin 5000) (n : Fin 128), j = ix2 p n := ⟨j 0, j 1, eq_ix2 (n0 := 5000) (n1 := 128) j⟩
  obtain ⟨P, hP⟩ : ∃ P : Fin 100000, P.val = t.val * 5000 + p.val := ⟨⟨t.val * 5000 + p.val, by have := p.isLt; omega⟩, rfl⟩
  show k16_pay1 (F := Ideal) (iblk16 V c 0 t) (iblk16 V c 1 t) (iblk16 V c 2 t) (iblk16 V c 3 t) (ix2 p n)
      = G16 (V c (Pipeline.arrRef spec16 0)) (V c (Pipeline.arrRef spec16 1)) (V c (Pipeline.arrRef spec16 2)) (V c (Pipeline.arrRef spec16 3)) (((cfg16.win 4).blk t).view.emb (ix2 p n))
  refine (point16 (V c (Pipeline.arrRef spec16 0)) (V c (Pipeline.arrRef spec16 1)) (V c (Pipeline.arrRef spec16 2)) (V c (Pipeline.arrRef spec16 3))
    (iblk16 V c 0 t) (iblk16 V c 1 t) (iblk16 V c 2 t) (iblk16 V c 3 t) p n P n
    (fun k => rd16_0 V c t p k P k (by omega) (by omega))
    (fun k => rd16_1 V c t k n k n (by omega) (by omega))
    (rd16_2 V c t 0 n 0 n (by omega) (by omega))
    (rd16_3 V c t p n P n (by omega) (by omega))).trans
    (congrArg (G16 (V c (Pipeline.arrRef spec16 0)) (V c (Pipeline.arrRef spec16 1)) (V c (Pipeline.arrRef spec16 2)) (V c (Pipeline.arrRef spec16 3))) (emb16_4 t p n P n (by omega) (by omega)).symm)

/-- An index of the array is in point `t`'s block iff each coordinate is in the block's range on its axis. -/
theorem mem_blk16 (t : Fin cfg16.N) (i : S100000x128.Idx) :
    i ∈ ((cfg16.win 4).blk t).view.set ↔ ∀ a : Fin 2, win16_4.index t a * S5000x128.size a ≤ (i a).val ∧ (i a).val < win16_4.index t a * S5000x128.size a + S5000x128.size a := by
  show i ∈ ((View.whole main_v351).slice (win16_4.rect t)).set ↔ _
  rw [View.set_slice_whole, Rect.mem_set_unit]
  exact Iff.rfl

/-- Row `r` of the array is in the block of point `r / 5000`. -/
theorem cover16 (i : S100000x128.Idx) : ∃ t : Fin cfg16.N, (cfg16.win 4).flush t = true ∧ i ∈ ((cfg16.win 4).blk t).view.set := by
  have hi0 : (i 0).val < 100000 := (i 0).isLt
  have hi1 : (i 1).val < 128 := (i 1).isLt
  obtain ⟨t, ht⟩ : ∃ t : Fin cfg16.N, t.val = (i 0).val / 5000 :=
    ⟨⟨(i 0).val / 5000, by show _ < grid16.N; rw [N_16]; omega⟩, rfl⟩
  obtain ⟨e0, e1, e2, e3, e4, e5, e6, e7, e8, e9⟩ := idx_facts16 t
  refine ⟨t, flush16_4 t, ?_⟩
  rw [mem_blk16]
  intro a
  match a with
  | ⟨0, _⟩ => show win16_4.index t (0 : Fin 2) * 5000 ≤ (i 0).val ∧ (i 0).val < win16_4.index t (0 : Fin 2) * 5000 + 5000; omega
  | ⟨1, _⟩ => show win16_4.index t (1 : Fin 2) * 128 ≤ (i 1).val ∧ (i 1).val < win16_4.index t (1 : Fin 2) * 128 + 128; omega

/-- The output array after the region is `G16` of the arrays the region was entered with. -/
theorem arr16 (c : Dev nD) :
    (dat16 (F := Ideal) V c).arrAt 4 cfg16.N = G16 (V c (Pipeline.arrRef spec16 0)) (V c (Pipeline.arrRef spec16 1)) (V c (Pipeline.arrRef spec16 2)) (V c (Pipeline.arrRef spec16 3)) :=
  (dat16 (F := Ideal) V c).arrAt_eq_of_cover 4 _ (fun t _ => flushed16_eq V c t) cover16

end Cert.KernelIdeal.Arr

end
-- ==== Proof.KI.HostDefs.lean ====
import proofs.«173394_j29068338659455_2_alg».proof.Proof.Gen.KernelIdeal
import Idealize.ShloMosaic.PureOps.Ideal

/-! The array-level functions the program's host stretches apply between its pallas regions, each named once over explicit
array arguments: the edge-index rows, the negative-index wrap in front of every row gather, the row gathers, the segment
means (a scatter-add of rows divided by the scatter-add of ones, at least one), the per-step weight slices and operand
packings, the softmax over the cross edges and the attention-weighted pooling into the voxels, and the voxel layer's operand
packings. They are compositions of the printed operations in the printed order, so a stretch's result is one of these
functions applied to the buffers the stretch reads. -/

noncomputable section

namespace Cert.KernelIdeal.Host

open Cert.KernelIdeal Cert.KernelIdeal.Gen
open Idealize.ShloMosaic

/-! ## Zero rows and the index wrap -/

/-- The f32 zero at every entry of a `[1, 128]` row: the bias of a matmul that has none. -/
def zeroRow128 : FVec Ideal S1x128 .f32 :=
  shapeCast S1x128 (broadcastInDim S128 ![] bcast_S_S128 (constant (F := Ideal) S_ .f32 0x00000000#32)) shapeCasts_S128_S1x128

/-- The f32 zero at every entry of a `[1, 256]` row. -/
def zeroRow256 : FVec Ideal S1x256 .f32 :=
  shapeCast S1x256 (broadcastInDim S256 ![] bcast_S_S256 (constant (F := Ideal) S_ .f32 0x00000000#32)) shapeCasts_S256_S1x256

/-- An index array over the 80000 program edges as a column, an entry below zero first moved up by `n`
    (so that `-k` names row `n - k`). -/
def wrap80k (n : BitVec 32) (idx : IVec S80000 32) : IVec S80000x1 32 :=
  broadcastInDim S80000x1 ![0] bcast_S80000_S80000x1_0
    (select (cmpi .slt idx (broadcastInDim S80000 ![] bcast_S_S80000 (constantI S_ 32 0#32)))
      (addi idx (broadcastInDim S80000 ![] bcast_S_S80000 (constantI S_ 32 n))) idx)

/-- The same wrap for an index array over the 5000 program nodes. -/
def wrap5000 (n : BitVec 32) (idx : IVec S5000 32) : IVec S5000x1 32 :=
  broadcastInDim S5000x1 ![0] bcast_S5000_S5000x1_0
    (select (cmpi .slt idx (broadcastInDim S5000 ![] bcast_S_S5000 (constantI S_ 32 0#32)))
      (addi idx (broadcastInDim S5000 ![] bcast_S_S5000 (constantI S_ 32 n))) idx)

/-- The same wrap for an index array over the 300000 cross edges. -/
def wrap300k (n : BitVec 32) (idx : IVec S300000 32) : IVec S300000x1 32 :=
  broadcastInDim S300000x1 ![0] bcast_S300000_S300000x1_0
    (select (cmpi .slt idx (broadcastInDim S300000 ![] bcast_S_S300000 (constantI S_ 32 0#32)))
      (addi idx (broadcastInDim S300000 ![] bcast_S_S300000 (constantI S_ 32 n))) idx)

/-- The same wrap for an index array over the 600000 voxel edges. -/
def wrap600k (n : BitVec 32) (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 n))) idx)

/-! ## The edge-index rows -/

/-- Row `r` (given as the slice's offset) of the `[2, 80000]` program edge index, as a rank-one array. -/
def progEdgeRow (o : Fin S2x80000.rank → Nat) (h : S2x80000.Slices o S1x80000) (ei : IVec S2x80000 32) : IVec S80000 32 :=
  shapeCast S80000 (extractStridedSlice S1x80000 o ei h) shapeCasts_S1x80000_S80000

/-- Row `r` of the `[2, 600000]` voxel edge index, as a rank-one array. -/
def voxEdgeRow (o : Fin S2x600000.rank → Nat) (h : S2x600000.Slices o S1x600000) (ei : IVec S2x600000 32) : IVec S600000 32 :=
  shapeCast S600000 (extractStridedSlice S1x600000 o ei h) shapeCasts_S1x600000_S600000

/-! ## Row gathers -/

/-- The rows of a `[5000, 128]` bf16 array at the (wrapped) entries of a program-edge index array. -/
def gatherEdge (x : FVec Ideal S5000x128 .bf16) (idx : IVec S80000 32) : FVec Ideal S80000x128 .bf16 :=
  Host.gather gather_S5000x128_S80000x1_S80000x128_1_0_n_n_0_1_1128 x (wrap80k 5000#32 idx)

/-- The rows of a `[5000, 128]` bf16 array at the (wrapped) program ends of the cross edges. -/
def gatherCrossProg (x : FVec Ideal S5000x128 .bf16) (idx : IVec S300000 32) : FVec Ideal S300000x128 .bf16 :=
  Host.gather gather_S5000x128_S300000x1_S300000x128_1_0_n_n_0_1_1128 x (wrap300k 5000#32 idx)

/-- The rows of a `[100000, 128]` bf16 array at the (wrapped) voxel ends of the cross edges. -/
def gatherCrossVox (x : FVec Ideal S100000x128 .bf16) (idx : IVec S300000 32) : FVec Ideal S300000x128 .bf16 :=
  Host.gather gather_S100000x128_S300000x1_S300000x128_1_0_n_n_0_1_1128 x (wrap300k 100000#32 idx)

/-- The rows of a `[100000, 128]` bf16 array at the (wrapped) entries of a voxel-edge index array. -/
def gatherVox (x : FVec Ideal S100000x128 .bf16) (idx : IVec S600000 32) : FVec Ideal S600000x128 .bf16 :=
  Host.gather gather_S100000x128_S600000x1_S600000x128_1_0_n_n_0_1_1128 x (wrap600k 100000#32 idx)

/-! ## Segment means -/

/-- The mean of the 80000 edge rows `msg` over the edges with the same entry of `seg`, per program node: the
    scatter-add of the rows into zeros, divided by the scatter-add of ones into zeros, at least one. -/
def segMeanEdge (seg : IVec S80000 32) (msg : FVec Ideal S80000x128 .f32) : FVec Ideal S5000x128 .f32 :=
  Host.divf (F := Ideal)
    (Host.scatterAdd (F := Ideal) scatter_S5000x128_S80000x1_S80000x128_1_0_0_1
      (broadcastInDim S5000x128 ![] bcast_S_S5000x128 (constant (F := Ideal) S_ .f32 0x00000000#32))
      (broadcastInDim S80000x1 ![0] bcast_S80000_S80000x1_0 seg) msg)
    (broadcastInDim S5000x128 ![0, 1] bcast_S5000x1_S5000x128_0_1
      (maximumf (F := Ideal)
        (Host.scatterAdd (F := Ideal) scatter_S5000x1_S80000x1_S80000x1_1_0_0_1
          (broadcastInDim S5000x1 ![] bcast_S_S5000x1 (constant (F := Ideal) S_ .f32 0x00000000#32))
          (broadcastInDim S80000x1 ![0] bcast_S80000_S80000x1_0 seg)
          (broadcastInDim S80000x1 ![] bcast_S_S80000x1 (constant (F := Ideal) S_ .f32 0x3F800000#32)))
        (broadcastInDim S5000x1 ![] bcast_S_S5000x1 (constant (F := Ideal) S_ .f32 0x3F800000#32))))

/-- The mean of the 5000 node rows `h` over the nodes of the same cluster, per cluster (ten of them). -/
def segMeanCluster (seg : IVec S5000 32) (h : FVec Ideal S5000x128 .f32) : FVec Ideal S10x128 .f32 :=
  Host.divf (F := Ideal)
    (Host.scatterAdd (F := Ideal) scatter_S10x128_S5000x1_S5000x128_1_0_0_1
      (broadcastInDim S10x128 ![] bcast_S_S10x128 (constant (F := Ideal) S_ .f32 0x00000000#32))
      (broadcastInDim S5000x1 ![0] bcast_S5000_S5000x1_0 seg) h)
    (broadcastInDim S10x128 ![0, 1] bcast_S10x1_S10x128_0_1
      (maximumf (F := Ideal)
        (Host.scatterAdd (F := Ideal) scatter_S10x1_S5000x1_S5000x1_1_0_0_1
          (broadcastInDim S10x1 ![] bcast_S_S10x1 (constant (F := Ideal) S_ .f32 0x00000000#32))
          (broadcastInDim S5000x1 ![0] bcast_S5000_S5000x1_0 seg)
          (broadcastInDim S5000x1 ![] bcast_S_S5000x1 (constant (F := Ideal) S_ .f32 0x3F800000#32)))
        (broadcastInDim S10x1 ![] bcast_S_S10x1 (constant (F := Ideal) S_ .f32 0x3F800000#32))))

/-- The mean of the 600000 voxel-edge rows `msg` over the edges with the same entry of `seg`, per voxel. -/
def segMeanVox (seg : IVec S600000 32) (msg : FVec Ideal S600000x128 .f32) : FVec Ideal S100000x128 .f32 :=
  Host.divf (F := Ideal)
    (Host.scatterAdd (F := Ideal) scatter_S100000x128_S600000x1_S600000x128_1_0_0_1
      (broadcastInDim S100000x128 ![] bcast_S_S100000x128 (constant (F := Ideal) S_ .f32 0x00000000#32))
      (broadcastInDim S600000x1 ![0] bcast_S600000_S600000x1_0 seg) msg)
    (broadcastInDim S100000x128 ![0, 1] bcast_S100000x1_S100000x128_0_1
      (maximumf (F := Ideal)
        (Host.scatterAdd (F := Ideal) scatter_S100000x1_S600000x1_S600000x1_1_0_0_1
          (broadcastInDim S100000x1 ![] bcast_S_S100000x1 (constant (F := Ideal) S_ .f32 0x00000000#32))
          (broadcastInDim S600000x1 ![0] bcast_S600000_S600000x1_0 seg)
          (broadcastInDim S600000x1 ![] bcast_S_S600000x1 (constant (F := Ideal) S_ .f32 0x3F800000#32)))
        (broadcastInDim S100000x1 ![] bcast_S_S100000x1 (constant (F := Ideal) S_ .f32 0x3F800000#32))))

/-! ## The encoders' operands -/

/-- The program-node features beside their noise, rounded to bf16: the node encoder's left operand. -/
def encIn (x n : FVec Ideal S5000x32 .f32) : FVec Ideal S5000x64 .bf16 :=
  truncf (F := Ideal) .bf16
    (concatenate S5000x64 1 [⟨S5000x32, x⟩, ⟨S5000x32, n⟩] concatenates_S5000x32_S5000x32_S5000x64_d1) bitsLt_bf16_f32

/-- The voxel features beside their noise, rounded to bf16: the voxel encoder's left operand. -/
def vencIn (x : FVec Ideal S100000x16 .f32) (n : FVec Ideal S100000x32 .f32) : FVec Ideal S100000x48 .bf16 :=
  truncf (F := Ideal) .bf16
    (concatenate S100000x48 1 [⟨S100000x16, x⟩, ⟨S100000x32, n⟩] concatenates_S100000x16_S100000x32_S100000x48_d1) bitsLt_bf16_f32

/-- The per-node ratio column: the `[5000, 1]` input summed over its one column and spread back to a column. -/
def ratioCol (r : FVec Ideal S5000x1 .f32) : FVec Ideal S5000x1 .f32 :=
  broadcastInDim S5000x1 ![0] bcast_S5000_S5000x1_0
    (Host.reduceAdd (F := Ideal) r (constant (F := Ideal) S_ .f32 0x00000000#32) reducesTo_S5000x1_S5000_d1 h_S_)

/-! ## One step of the program graph layer: the weights of step `s` and the operands built from them -/

/-- Step `s`'s `[256, 128]` message weight out of the stacked `[3, 256, 128]` (the slice's offset is `![s, 0, 0]`). -/
def msgWeight (o : Fin S3x256x128.rank → Nat) (h : S3x256x128.Slices o S1x256x128) (w : FVec Ideal S3x256x128 .f32) :
    FVec Ideal S256x128 .f32 :=
  shapeCast S256x128 (extractStridedSlice S1x256x128 o w h) shapeCasts_S1x256x128_S256x128

/-- Step `s`'s `[384, 128]` update weight out of the stacked `[3, 384, 128]`. -/
def updWeight (o : Fin S3x384x128.rank → Nat) (h : S3x384x128.Slices o S1x384x128) (w : FVec Ideal S3x384x128 .f32) :
    FVec Ideal S384x128 .f32 :=
  shapeCast S384x128 (extractStridedSlice S1x384x128 o w h) shapeCasts_S1x384x128_S384x128

/-- Step `s`'s bias out of a stacked `[3, 128]`, as a `[1, 128]` row. -/
def biasRow (o : Fin S3x128.rank → Nat) (h : S3x128.Slices o S1x128) (b : FVec Ideal S3x128 .f32) : FVec Ideal S1x128 .f32 :=
  shapeCast S1x128 (shapeCast S128 (extractStridedSlice S1x128 o b h) shapeCasts_S1x128_S128) shapeCasts_S128_S1x128

/-- The message weight's two `[128, 128]` halves (rows 0–127 act on the receiving node, rows 128–255 on the sending one)
    set side by side, rounded to bf16: the right operand of the ONE node-level matmul that replaces the edge-level one. -/
def msgWeightPair (w : FVec Ideal S256x128 .f32) : FVec Ideal S128x256 .bf16 :=
  truncf (F := Ideal) .bf16
    (concatenate S128x256 1
      [⟨S128x128, extractStridedSlice S128x128 ![0, 0] w slices_S256x128_S128x128_0_0⟩,
       ⟨S128x128, extractStridedSlice S128x128 ![128, 0] w slices_S256x128_S128x128_128_0⟩]
      concatenates_S128x128_S128x128_S128x256_d1) bitsLt_bf16_f32

/-- The left half (columns 0–127) of a node-level `[5000, 256]` product. -/
def nodeHalf0 (p : FVec Ideal S5000x256 .bf16) : FVec Ideal S5000x128 .bf16 :=
  extractStridedSlice S5000x128 ![0, 0] p slices_S5000x256_S5000x128_0_0

/-- The right half (columns 128–255) of a node-level `[5000, 256]` product. -/
def nodeHalf1 (p : FVec Ideal S5000x256 .bf16) : FVec Ideal S5000x128 .bf16 :=
  extractStridedSlice S5000x128 ![0, 128] p slices_S5000x256_S5000x128_0_128

/-- The cluster context of every node: the mean of the node rows over the node's cluster, gathered back to the nodes
    (cluster indices wrapped at 10), times the node's ratio. -/
def clusterCtx (cl : IVec S5000 32) (h : FVec Ideal S5000x128 .f32) (ratio : FVec Ideal S5000x1 .f32) :
    FVec Ideal S5000x128 .f32 :=
  mulf (F := Ideal)
    (Host.gather gather_S10x128_S5000x1_S5000x128_1_0_n_n_0_1_1128 (segMeanCluster cl h) (wrap5000 10#32 cl))
    (broadcastInDim S5000x128 ![0, 1] bcast_S5000x1_S5000x128_0_1 ratio)

/-- The update matmul's left operand: the node rows, the aggregated messages and the cluster context side by side,
    rounded to bf16. -/
def updIn (h agg ctx : FVec Ideal S5000x128 .f32) : FVec Ideal S5000x384 .bf16 :=
  truncf (F := Ideal) .bf16
    (concatenate S5000x384 1 [⟨S5000x128, h⟩, ⟨S5000x128, agg⟩, ⟨S5000x128, ctx⟩]
      concatenates_S5000x128_S5000x128_S5000x128_S5000x384_d1) bitsLt_bf16_f32

/-! ## The cross attention -/

/-- The softmax of the 300000 cross-edge logits over all the edges: each logit less the largest (the running maximum
    started at minus infinity), exponentiated, divided by the sum of the exponentials. -/
def softmaxCross (l : FVec Ideal S300000x1 .f32) : FVec Ideal S300000x1 .f32 :=
  Host.divf (F := Ideal)
    (Host.exp (F := Ideal)
      (subf (F := Ideal) l
        (broadcastInDim S300000x1 ![0, 1] bcast_S1x1_S300000x1_0_1
          (broadcastInDim S1x1 ![1] bcast_S1_S1x1_1
            (maximumf (F := Ideal)
              (broadcastInDim S1 ![] bcast_S_S1 (constant (F := Ideal) S_ .f32 0xFF800000#32))
              (Host.reduce (FloatOps.maximumf (F := Ideal) (φ := .f32)) l (constant (F := Ideal) S_ .f32 0xFF800000#32)
                reducesTo_S300000x1_S1_d0 h_S_))))))
    (broadcastInDim S300000x1 ![0, 1] bcast_S1x1_S300000x1_0_1
      (broadcastInDim S1x1 ![1] bcast_S1_S1x1_1
        (Host.reduceAdd (F := Ideal)
          (Host.exp (F := Ideal)
            (subf (F := Ideal) l
              (broadcastInDim S300000x1 ![0, 1] bcast_S1x1_S300000x1_0_1
                (broadcastInDim S1x1 ![1] bcast_S1_S1x1_1
                  (maximumf (F := Ideal)
                    (broadcastInDim S1 ![] bcast_S_S1 (constant (F := Ideal) S_ .f32 0xFF800000#32))
                    (Host.reduce (FloatOps.maximumf (F := Ideal) (φ := .f32)) l (constant (F := Ideal) S_ .f32 0xFF800000#32)
                      reducesTo_S300000x1_S1_d0 h_S_))))))
          (constant (F := Ideal) S_ .f32 0x00000000#32) reducesTo_S300000x1_S1_d0 h_S_)))

/-- The voxel rows after the cross attention: to each voxel row `v` the sum, over the cross edges ending at the voxel, of
    the edge's attention weight times the (bf16-rounded, widened back) program row at the edge's other end. -/
def attnPool (attn : FVec Ideal S300000x1 .f32) (xp : FVec Ideal S5000x128 .f32) (cp cv : IVec S300000 32)
    (v : FVec Ideal S100000x128 .f32) : FVec Ideal S100000x128 .f32 :=
  addf (F := Ideal) v
    (Host.scatterAdd (F := Ideal) scatter_S100000x128_S300000x1_S300000x128_1_0_0_1
      (broadcastInDim S100000x128 ![] bcast_S_S100000x128 (constant (F := Ideal) S_ .f32 0x00000000#32))
      (wrap300k 100000#32 cv)
      (mulf (F := Ideal)
        (broadcastInDim S300000x128 ![0, 1] bcast_S300000x1_S300000x128_0_1 attn)
        (extf (F := Ideal) .f32 (gatherCrossProg (truncf (F := Ideal) .bf16 xp bitsLt_bf16_f32) cp) bitsLt_bf16_f32)))

/-! ## The voxel graph layer's operands -/

/-- The voxel message matmul's left operand: the voxel rows beside the voxel's three position coordinates (the first
    three feature columns), rounded to bf16. -/
def voxMsgIn (v : FVec Ideal S100000x128 .f32) (x : FVec Ideal S100000x16 .f32) : FVec Ideal S100000x131 .bf16 :=
  truncf (F := Ideal) .bf16
    (concatenate S100000x131 1
      [⟨S100000x128, v⟩, ⟨S100000x3, extractStridedSlice S100000x3 ![0, 0] x slices_S100000x16_S100000x3_0_0⟩]
      concatenates_S100000x128_S100000x3_S100000x131_d1) bitsLt_bf16_f32

/-- The voxel message weight `[259, 128]` (rows 0–127 for the receiving voxel, 128–255 for the sending one, 256–258 for
    the position difference) rearranged for the node-level matmul: the receiving half over the position rows, beside the
    sending half over the NEGATED position rows; rounded to bf16. -/
def voxMsgWeightPair (w : FVec Ideal S259x128 .f32) : FVec Ideal S131x256 .bf16 :=
  truncf (F := Ideal) .bf16
    (concatenate S131x256 1
      [⟨S131x128, concatenate S131x128 0
          [⟨S128x128, extractStridedSlice S128x128 ![0, 0] w slices_S259x128_S128x128_0_0⟩,
           ⟨S3x128, extractStridedSlice S3x128 ![256, 0] w slices_S259x128_S3x128_256_0⟩]
          concatenates_S128x128_S3x128_S131x128_d0⟩,
       ⟨S131x128, concatenate S131x128 0
          [⟨S128x128, extractStridedSlice S128x128 ![128, 0] w slices_S259x128_S128x128_128_0⟩,
           ⟨S3x128, Host.negf (F := Ideal) (extractStridedSlice S3x128 ![256, 0] w slices_S259x128_S3x128_256_0)⟩]
          concatenates_S128x128_S3x128_S131x128_d0⟩]
      concatenates_S131x128_S131x128_S131x256_d1) bitsLt_bf16_f32

/-- The left half (columns 0–127) of a voxel-level `[100000, 256]` product. -/
def voxHalf0 (p : FVec Ideal S100000x256 .bf16) : FVec Ideal S100000x128 .bf16 :=
  extractStridedSlice S100000x128 ![0, 0] p slices_S100000x256_S100000x128_0_0

/-- The right half (columns 128–255) of a voxel-level `[100000, 256]` product. -/
def voxHalf1 (p : FVec Ideal S100000x256 .bf16) : FVec Ideal S100000x128 .bf16 :=
  extractStridedSlice S100000x128 ![0, 128] p slices_S100000x256_S100000x128_0_128

/-- The voxel update matmul's left operand: the voxel rows beside the aggregated messages, rounded to bf16. -/
def voxUpdIn (v agg : FVec Ideal S100000x128 .f32) : FVec Ideal S100000x256 .bf16 :=
  truncf (F := Ideal) .bf16
    (concatenate S100000x256 1 [⟨S100000x128, v⟩, ⟨S100000x128, agg⟩]
      concatenates_S100000x128_S100000x128_S100000x256_d1) bitsLt_bf16_f32

end Cert.KernelIdeal.Host
-- ==== Proof.KI.Host0.lean ====
import proofs.«173394_j29068338659455_2_alg».proof.Proof.KI.HostDefs
import proofs.«173394_j29068338659455_2_alg».proof.Proof.Gen.KernelIdeal.Launch
import Idealize.ShloMosaic.Lib.StableHlo.Run

/-! Host stretch 0 (before the node encoder's region): the buffers it leaves for the region, as functions of the
program's arguments. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The encoder's left operand is the node features beside their noise, rounded to bf16. -/
theorem h0_v1 (W : Valuation τ sig (Elt Ideal)) :
    StableHlo.after (hostOps0 (F := Ideal)) W (Proc.devRef .tc main_v1)
      = encIn (W (Proc.devRef .tc main_arg0)) (W (Proc.devRef .tc main_arg1)) := by
  after_results
  first | done | rfl

/-- The encoder's weight, rounded to bf16. -/
theorem h0_v2 (W : Valuation τ sig (Elt Ideal)) :
    StableHlo.after (hostOps0 (F := Ideal)) W (Proc.devRef .tc main_v2)
      = truncf (F := Ideal) .bf16 (W (Proc.devRef .tc main_arg10) : FVec Ideal S64x128 .f32) bitsLt_bf16_f32 := by
  after_results
  first | done | rfl

/-- The encoder's bias as a `[1, 128]` row. -/
theorem h0_v3 (W : Valuation τ sig (Elt Ideal)) :
    StableHlo.after (hostOps0 (F := Ideal)) W (Proc.devRef .tc main_v3)
      = shapeCast S1x128 (W (Proc.devRef .tc main_arg11) : FVec Ideal S128 .f32) shapeCasts_S128_S1x128 := by
  after_results
  first | done | rfl

end Cert.KernelIdeal.Host
-- ==== Proof.KI.Host1.lean ====
import proofs.«173394_j29068338659455_2_alg».proof.Proof.KI.HostDefs
import proofs.«173394_j29068338659455_2_alg».proof.Proof.Gen.KernelIdeal.Launch
import Idealize.ShloMosaic.Lib.StableHlo.Run

/-! Host stretch 1 (after the node encoder, before step 0's node-level message matmul): the edge-index rows and the
ratio column that later stretches read again, and the region's three operands. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The sending ends of the program edges: row 0 of the edge index. -/
theorem h1_v6 (W : Valuation τ sig (Elt Ideal)) :
    StableHlo.after (hostOps1 (F := Ideal)) W (Proc.devRef .tc main_v6)
      = progEdgeRow ![0, 0] slices_S2x80000_S1x80000_0_0 (W (Proc.devRef .tc main_arg5)) := by
  after_results
  first | done | rfl

/-- The receiving ends of the program edges: row 1 of the edge index. -/
theorem h1_v8 (W : Valuation τ sig (Elt Ideal)) :
    StableHlo.after (hostOps1 (F := Ideal)) W (Proc.devRef .tc main_v8)
      = progEdgeRow ![1, 0] slices_S2x80000_S1x80000_1_0 (W (Proc.devRef .tc main_arg5)) := by
  after_results
  first | done | rfl

/-- The per-node ratio column. -/
theorem h1_v10 (W : Valuation τ sig (Elt Ideal)) :
    StableHlo.after (hostOps1 (F := Ideal)) W (Proc.devRef .tc main_v10)
      = ratioCol (W (Proc.devRef .tc main_arg2)) := by
  after_results
  first | done | rfl

/-- The node rows entering step 0, rounded to bf16: the node-level message matmul's left operand. -/
theorem h1_v19 (W : Valuation τ sig (Elt Ideal)) :
    StableHlo.after (hostOps1 (F := Ideal)) W (Proc.devRef .tc main_v19)
      = truncf (F := Ideal) .bf16 (W (Proc.devRef .tc main_v4) : FVec Ideal S5000x128 .f32) bitsLt_bf16_f32 := by
  after_results
  first | done | rfl

/-- Step 0's message weight, its two halves side by side, rounded to bf16. -/
theorem h1_v20 (W : Valuation τ sig (Elt Ideal)) :
    StableHlo.after (hostOps1 (F := Ideal)) W (Proc.devRef .tc main_v20)
      = msgWeightPair (msgWeight ![0, 0, 0] slices_S3x256x128_S1x256x128_0_0_0 (W (Proc.devRef .tc main_arg12))) := by
  after_results
  first | done | rfl

/-- The node-level matmul has no bias: a zero row. -/
theorem h1_v21 (W : Valuation τ sig (Elt Ideal)) :
    StableHlo.after (hostOps1 (F := Ideal)) W (Proc.devRef .tc main_v21)
      = zeroRow256 := by
  after_results
  first | done | rfl

end Cert.KernelIdeal.Host
-- ==== Proof.KI.Host2.lean ====
import proofs.«173394_j29068338659455_2_alg».proof.Proof.KI.HostDefs
import proofs.«173394_j29068338659455_2_alg».proof.Proof.Gen.KernelIdeal.Launch
import Idealize.ShloMosaic.Lib.StableHlo.Run

/-! Host stretch 2 (step 0, between the node-level message matmul and the edge kernel): the edge kernel's operands. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The receiving-node half of the node-level product, gathered to the edges by their receiving ends. -/
theorem h2_v31 (W : Valuation τ sig (Elt Ideal)) :
    StableHlo.after (hostOps2 (F := Ideal)) W (Proc.devRef .tc main_v31)
      = gatherEdge (nodeHalf0 (W (Proc.devRef .tc main_v22))) (W (Proc.devRef .tc main_v8)) := by
  after_results_simp
  first | done | rfl

/-- The sending-node half of the node-level product, gathered to the edges by their sending ends. -/
theorem h2_v38 (W : Valuation τ sig (Elt Ideal)) :
    StableHlo.after (hostOps2 (F := Ideal)) W (Proc.devRef .tc main_v38)
      = gatherEdge (nodeHalf1 (W (Proc.devRef .tc main_v22))) (W (Proc.devRef .tc main_v6)) := by
  after_results_simp
  first | done | rfl

/-- Step 0's message bias as a row. -/
theorem h2_v41 (W : Valuation τ sig (Elt Ideal)) :
    StableHlo.after (hostOps2 (F := Ideal)) W (Proc.devRef .tc main_v41)
      = biasRow ![0, 0] slices_S3x128_S1x128_0_0 (W (Proc.devRef .tc main_arg13)) := by
  after_results_simp
  first | done | rfl

end Cert.KernelIdeal.Host
-- ==== Proof.KI.Host3.lean ====
import proofs.«173394_j29068338659455_2_alg».proof.Proof.KI.HostDefs
import proofs.«173394_j29068338659455_2_alg».proof.Proof.Gen.KernelIdeal.Launch
import Idealize.ShloMosaic.Lib.StableHlo.Run

/-! Host stretch 3 (step 0, between the edge kernel and the update matmul): the update matmul's operands. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The update matmul's left operand: the node rows, the mean of the edge messages per receiving node, and the cluster
    context, side by side, rounded to bf16. -/
theorem h3_v81 (W : Valuation τ sig (Elt Ideal)) :
    StableHlo.after (hostOps3 (F := Ideal)) W (Proc.devRef .tc main_v81)
      = updIn (W (Proc.devRef .tc main_v4)) (segMeanEdge (W (Proc.devRef .tc main_v8)) (W (Proc.devRef .tc main_v42))) (clusterCtx (W (Proc.devRef .tc main_arg6)) (W (Proc.devRef .tc main_v4)) (W (Proc.devRef .tc main_v10))) := by
  after_results_simp
  first | done | rfl

/-- Step 0's update weight, rounded to bf16. -/
theorem h3_v82 (W : Valuation τ sig (Elt Ideal)) :
    StableHlo.after (hostOps3 (F := Ideal)) W (Proc.devRef .tc main_v82)
      = truncf (F := Ideal) .bf16 (updWeight ![0, 0, 0] slices_S3x384x128_S1x384x128_0_0_0 (W (Proc.devRef .tc main_arg14))) bitsLt_bf16_f32 := by
  after_results_simp
  first | done | rfl

/-- Step 0's update bias as a row. -/
theorem h3_v83 (W : Valuation τ sig (Elt Ideal)) :
    StableHlo.after (hostOps3 (F := Ideal)) W (Proc.devRef .tc main_v83)
      = biasRow ![0, 0] slices_S3x128_S1x128_0_0 (W (Proc.devRef .tc main_arg15)) := by
  after_results_simp
  first | done | rfl

end Cert.KernelIdeal.Host
-- ==== Proof.KI.Host4.lean ====
import proofs.«173394_j29068338659455_2_alg».proof.Proof.KI.HostDefs
import proofs.«173394_j29068338659455_2_alg».proof.Proof.Gen.KernelIdeal.Launch
import Idealize.ShloMosaic.Lib.StableHlo.Run

/-! Host stretch 4 (after step 0's update, before step 1's node-level message matmul): the region's three operands. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The node rows entering step 1, rounded to bf16: the node-level message matmul's left operand. -/
theorem h4_v93 (W : Valuation τ sig (Elt Ideal)) :
    StableHlo.after (hostOps4 (F := Ideal)) W (Proc.devRef .tc main_v93)
      = truncf (F := Ideal) .bf16 (W (Proc.devRef .tc main_v84) : FVec Ideal S5000x128 .f32) bitsLt_bf16_f32 := by
  after_results
  first | done | rfl

/-- Step 1's message weight, its two halves side by side, rounded to bf16. -/
theorem h4_v94 (W : Valuation τ sig (Elt Ideal)) :
    StableHlo.after (hostOps4 (F := Ideal)) W (Proc.devRef .tc main_v94)
      = msgWeightPair (msgWeight ![1, 0, 0] slices_S3x256x128_S1x256x128_1_0_0 (W (Proc.devRef .tc main_arg12))) := by
  after_results
  first | done | rfl

/-- The node-level matmul has no bias: a zero row. -/
theorem h4_v95 (W : Valuation τ sig (Elt Ideal)) :
    StableHlo.after (hostOps4 (F := Ideal)) W (Proc.devRef .tc main_v95)
      = zeroRow256 := by
  after_results
  first | done | rfl

end Cert.KernelIdeal.Host
-- ==== Proof.KI.Host5.lean ====
import proofs.«173394_j29068338659455_2_alg».proof.Proof.KI.HostDefs
import proofs.«173394_j29068338659455_2_alg».proof.Proof.Gen.KernelIdeal.Launch
import Idealize.ShloMosaic.Lib.StableHlo.Run

/-! Host stretch 5 (step 1, between the node-level message matmul and the edge kernel): the edge kernel's operands. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The receiving-node half of the node-level product, gathered to the edges by their receiving ends. -/
theorem h5_v105 (W : Valuation τ sig (Elt Ideal)) :
    StableHlo.after (hostOps5 (F := Ideal)) W (Proc.devRef .tc main_v105)
      = gatherEdge (nodeHalf0 (W (Proc.devRef .tc main_v96))) (W (Proc.devRef .tc main_v8)) := by
  after_results_simp
  first | done | rfl

/-- The sending-node half of the node-level product, gathered to the edges by their sending ends. -/
theorem h5_v112 (W : Valuation τ sig (Elt Ideal)) :
    StableHlo.after (hostOps5 (F := Ideal)) W (Proc.devRef .tc main_v112)
      = gatherEdge (nodeHalf1 (W (Proc.devRef .tc main_v96))) (W (Proc.devRef .tc main_v6)) := by
  after_results_simp
  first | done | rfl

/-- Step 1's message bias as a row. -/
theorem h5_v115 (W : Valuation τ sig (Elt Ideal)) :
    StableHlo.after (hostOps5 (F := Ideal)) W (Proc.devRef .tc main_v115)
      = biasRow ![1, 0] slices_S3x128_S1x128_1_0 (W (Proc.devRef .tc main_arg13)) := by
  after_results_simp
  first | done | rfl

end Cert.KernelIdeal.Host
-- ==== Proof.KI.Host6.lean ====
import proofs.«173394_j29068338659455_2_alg».proof.Proof.KI.HostDefs
import proofs.«173394_j29068338659455_2_alg».proof.Proof.Gen.KernelIdeal.Launch
import Idealize.ShloMosaic.Lib.StableHlo.Run

/-! Host stretch 6 (step 1, between the edge kernel and the update matmul): the update matmul's operands. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The update matmul's left operand: the node rows, the mean of the edge messages per receiving node, and the cluster
    context, side by side, rounded to bf16. -/
theorem h6_v155 (W : Valuation τ sig (Elt Ideal)) :
    StableHlo.after (hostOps6 (F := Ideal)) W (Proc.devRef .tc main_v155)
      = updIn (W (Proc.devRef .tc main_v84)) (segMeanEdge (W (Proc.devRef .tc main_v8)) (W (Proc.devRef .tc main_v116))) (clusterCtx (W (Proc.devRef .tc main_arg6)) (W (Proc.devRef .tc main_v84)) (W (Proc.devRef .tc main_v10))) := by
  after_results_simp
  first | done | rfl

/-- Step 1's update weight, rounded to bf16. -/
theorem h6_v156 (W : Valuation τ sig (Elt Ideal)) :
    StableHlo.after (hostOps6 (F := Ideal)) W (Proc.devRef .tc main_v156)
      = truncf (F := Ideal) .bf16 (updWeight ![1, 0, 0] slices_S3x384x128_S1x384x128_1_0_0 (W (Proc.devRef .tc main_arg14))) bitsLt_bf16_f32 := by
  after_results_simp
  first | done | rfl

/-- Step 1's update bias as a row. -/
theorem h6_v157 (W : Valuation τ sig (Elt Ideal)) :
    StableHlo.after (hostOps6 (F := Ideal)) W (Proc.devRef .tc main_v157)
      = biasRow ![1, 0] slices_S3x128_S1x128_1_0 (W (Proc.devRef .tc main_arg15)) := by
  after_results_simp
  first | done | rfl

end Cert.KernelIdeal.Host
-- ==== Proof.KI.Host7.lean ====
import proofs.«173394_j29068338659455_2_alg».proof.Proof.KI.HostDefs
import proofs.«173394_j29068338659455_2_alg».proof.Proof.Gen.KernelIdeal.Launch
import Idealize.ShloMosaic.Lib.StableHlo.Run

/-! Host stretch 7 (after step 1's update, before step 2's node-level message matmul): the region's three operands. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The node rows entering step 2, rounded to bf16: the node-level message matmul's left operand. -/
theorem h7_v167 (W : Valuation τ sig (Elt Ideal)) :
    StableHlo.after (hostOps7 (F := Ideal)) W (Proc.devRef .tc main_v167)
      = truncf (F := Ideal) .bf16 (W (Proc.devRef .tc main_v158) : FVec Ideal S5000x128 .f32) bitsLt_bf16_f32 := by
  after_results
  first | done | rfl

/-- Step 2's message weight, its two halves side by side, rounded to bf16. -/
theorem h7_v168 (W : Valuation τ sig (Elt Ideal)) :
    StableHlo.after (hostOps7 (F := Ideal)) W (Proc.devRef .tc main_v168)
      = msgWeightPair (msgWeight ![2, 0, 0] slices_S3x256x128_S1x256x128_2_0_0 (W (Proc.devRef .tc main_arg12))) := by
  after_results
  first | done | rfl

/-- The node-level matmul has no bias: a zero row. -/
theorem h7_v169 (W : Valuation τ sig (Elt Ideal)) :
    StableHlo.after (hostOps7 (F := Ideal)) W (Proc.devRef .tc main_v169)
      = zeroRow256 := by
  after_results
  first | done | rfl

end Cert.KernelIdeal.Host
-- ==== Proof.KI.Host8.lean ====
import proofs.«173394_j29068338659455_2_alg».proof.Proof.KI.HostDefs
import proofs.«173394_j29068338659455_2_alg».proof.Proof.Gen.KernelIdeal.Launch
import Idealize.ShloMosaic.Lib.StableHlo.Run

/-! Host stretch 8 (step 2, between the node-level message matmul and the edge kernel): the edge kernel's operands. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The receiving-node half of the node-level product, gathered to the edges by their receiving ends. -/
theorem h8_v179 (W : Valuation τ sig (Elt Ideal)) :
    StableHlo.after (hostOps8 (F := Ideal)) W (Proc.devRef .tc main_v179)
      = gatherEdge (nodeHalf0 (W (Proc.devRef .tc main_v170))) (W (Proc.devRef .tc main_v8)) := by
  after_results_simp
  first | done | rfl

/-- The sending-node half of the node-level product, gathered to the edges by their sending ends. -/
theorem h8_v186 (W : Valuation τ sig (Elt Ideal)) :
    StableHlo.after (hostOps8 (F := Ideal)) W (Proc.devRef .tc main_v186)
      = gatherEdge (nodeHalf1 (W (Proc.devRef .tc main_v170))) (W (Proc.devRef .tc main_v6)) := by
  after_results_simp
  first | done | rfl

/-- Step 2's message bias as a row. -/
theorem h8_v189 (W : Valuation τ sig (Elt Ideal)) :
    StableHlo.after (hostOps8 (F := Ideal)) W (Proc.devRef .tc main_v189)
      = biasRow ![2, 0] slices_S3x128_S1x128_2_0 (W (Proc.devRef .tc main_arg13)) := by
  after_results_simp
  first | done | rfl

end Cert.KernelIdeal.Host
-- ==== Proof.KI.Host9.lean ====
import proofs.«173394_j29068338659455_2_alg».proof.Proof.KI.HostDefs
import proofs.«173394_j29068338659455_2_alg».proof.Proof.Gen.KernelIdeal.Launch
import Idealize.ShloMosaic.Lib.StableHlo.Run

/-! Host stretch 9 (step 2, between the edge kernel and the update matmul): the update matmul's operands. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The update matmul's left operand: the node rows, the mean of the edge messages per receiving node, and the cluster
    context, side by side, rounded to bf16. -/
theorem h9_v229 (W : Valuation τ sig (Elt Ideal)) :
    StableHlo.after (hostOps9 (F := Ideal)) W (Proc.devRef .tc main_v229)
      = updIn (W (Proc.devRef .tc main_v158)) (segMeanEdge (W (Proc.devRef .tc main_v8)) (W (Proc.devRef .tc main_v190))) (clusterCtx (W (Proc.devRef .tc main_arg6)) (W (Proc.devRef .tc main_v158)) (W (Proc.devRef .tc main_v10))) := by
  after_results_simp
  first | done | rfl

/-- Step 2's update weight, rounded to bf16. -/
theorem h9_v230 (W : Valuation τ sig (Elt Ideal)) :
    StableHlo.after (hostOps9 (F := Ideal)) W (Proc.devRef .tc main_v230)
      = truncf (F := Ideal) .bf16 (updWeight ![2, 0, 0] slices_S3x384x128_S1x384x128_2_0_0 (W (Proc.devRef .tc main_arg14))) bitsLt_bf16_f32 := by
  after_results_simp
  first | done | rfl

/-- Step 2's update bias as a row. -/
theorem h9_v231 (W : Valuation τ sig (Elt Ideal)) :
    StableHlo.after (hostOps9 (F := Ideal)) W (Proc.devRef .tc main_v231)
      = biasRow ![2, 0] slices_S3x128_S1x128_2_0 (W (Proc.devRef .tc main_arg15)) := by
  after_results_simp
  first | done | rfl

end Cert.KernelIdeal.Host
-- ==== Proof.KI.Host10.lean ====
import proofs.«173394_j29068338659455_2_alg».proof.Proof.KI.HostDefs
import proofs.«173394_j29068338659455_2_alg».proof.Proof.Gen.KernelIdeal.Launch
import Idealize.ShloMosaic.Lib.StableHlo.Run

/-! Host stretch 10 (before the voxel encoder's region): its three operands, functions of the program's arguments. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The voxel encoder's left operand: the voxel features beside their noise, rounded to bf16. -/
theorem h10_v234 (W : Valuation τ sig (Elt Ideal)) :
    StableHlo.after (hostOps10 (F := Ideal)) W (Proc.devRef .tc main_v234)
      = vencIn (W (Proc.devRef .tc main_arg3)) (W (Proc.devRef .tc main_arg4)) := by
  after_results
  first | done | rfl

/-- The voxel encoder's weight, rounded to bf16. -/
theorem h10_v235 (W : Valuation τ sig (Elt Ideal)) :
    StableHlo.after (hostOps10 (F := Ideal)) W (Proc.devRef .tc main_v235)
      = truncf (F := Ideal) .bf16 (W (Proc.devRef .tc main_arg16) : FVec Ideal S48x128 .f32) bitsLt_bf16_f32 := by
  after_results
  first | done | rfl

/-- The voxel encoder's bias as a row. -/
theorem h10_v236 (W : Valuation τ sig (Elt Ideal)) :
    StableHlo.after (hostOps10 (F := Ideal)) W (Proc.devRef .tc main_v236)
      = shapeCast S1x128 (W (Proc.devRef .tc main_arg17) : FVec Ideal S128 .f32) shapeCasts_S128_S1x128 := by
  after_results
  first | done | rfl

end Cert.KernelIdeal.Host
-- ==== Proof.KI.Host11.lean ====
import proofs.«173394_j29068338659455_2_alg».proof.Proof.KI.HostDefs
import proofs.«173394_j29068338659455_2_alg».proof.Proof.Gen.KernelIdeal.Launch
import Idealize.ShloMosaic.Lib.StableHlo.Run

/-! Host stretch 11 (before the attention's program-side projection): the first attention weight's two halves — the lower
one kept for the next stretch — and the region's operands. -/

set_option maxRecDepth 8192

noncomputable section

namespace Cert.KernelIdeal.Host

open Cert.KernelIdeal Cert.KernelIdeal.Gen
open Idealize.ShloMosaic Idealize.ShloMosaic.TcCoe Idealize.ShloMosaic.StableHlo

/-- Rows 128–255 of the first attention weight: the half that acts on the voxel rows. -/
theorem h11_v239 (W : Valuation τ sig (Elt Ideal)) :
    StableHlo.after (hostOps11 (F := Ideal)) W (Proc.devRef .tc main_v239)
      = extractStridedSlice S128x128 ![128, 0] (W (Proc.devRef .tc main_arg22) : FVec Ideal S256x128 .f32) slices_S256x128_S128x128_128_0 := by
  after_results
  first | done | rfl

/-- The program rows after the three steps, rounded to bf16. -/
theorem h11_v241 (W : Valuation τ sig (Elt Ideal)) :
    StableHlo.after (hostOps11 (F := Ideal)) W (Proc.devRef .tc main_v241)
      = truncf (F := Ideal) .bf16 (W (Proc.devRef .tc main_v232) : FVec Ideal S5000x128 .f32) bitsLt_bf16_f32 := by
  after_results
  first | done | rfl

/-- Rows 0–127 of the first attention weight (the half that acts on the program rows), rounded to bf16. -/
theorem h11_v242 (W : Valuation τ sig (Elt Ideal)) :
    StableHlo.after (hostOps11 (F := Ideal)) W (Proc.devRef .tc main_v242)
      = truncf (F := Ideal) .bf16 (extractStridedSlice S128x128 ![0, 0] (W (Proc.devRef .tc main_arg22) : FVec Ideal S256x128 .f32) slices_S256x128_S128x128_0_0) bitsLt_bf16_f32 := by
  after_results
  first | done | rfl

/-- The projection has no bias: a zero row. -/
theorem h11_v243 (W : Valuation τ sig (Elt Ideal)) :
    StableHlo.after (hostOps11 (F := Ideal)) W (Proc.devRef .tc main_v243)
      = zeroRow128 := by
  after_results
  first | done | rfl

end Cert.KernelIdeal.Host
-- ==== Proof.KI.Host12.lean ====
import proofs.«173394_j29068338659455_2_alg».proof.Proof.KI.HostDefs
import proofs.«173394_j29068338659455_2_alg».proof.Proof.Gen.KernelIdeal.Launch
import Idealize.ShloMosaic.Lib.StableHlo.Run

/-! Host stretch 12 (before the attention's voxel-side projection): the region's operands. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The encoded voxel rows, rounded to bf16. -/
theorem h12_v246 (W : Valuation τ sig (Elt Ideal)) :
    StableHlo.after (hostOps12 (F := Ideal)) W (Proc.devRef .tc main_v246)
      = truncf (F := Ideal) .bf16 (W (Proc.devRef .tc main_v237) : FVec Ideal S100000x128 .f32) bitsLt_bf16_f32 := by
  after_results
  first | done | rfl

/-- The voxel half of the first attention weight, rounded to bf16. -/
theorem h12_v247 (W : Valuation τ sig (Elt Ideal)) :
    StableHlo.after (hostOps12 (F := Ideal)) W (Proc.devRef .tc main_v247)
      = truncf (F := Ideal) .bf16 (W (Proc.devRef .tc main_v239) : FVec Ideal S128x128 .f32) bitsLt_bf16_f32 := by
  after_results
  first | done | rfl

/-- The projection has no bias: a zero row. -/
theorem h12_v248 (W : Valuation τ sig (Elt Ideal)) :
    StableHlo.after (hostOps12 (F := Ideal)) W (Proc.devRef .tc main_v248)
      = zeroRow128 := by
  after_results
  first | done | rfl

end Cert.KernelIdeal.Host
-- ==== Proof.KI.Host13.lean ====
import proofs.«173394_j29068338659455_2_alg».proof.Proof.KI.HostDefs
import proofs.«173394_j29068338659455_2_alg».proof.Proof.Gen.KernelIdeal.Launch
import Idealize.ShloMosaic.Lib.StableHlo.Run

/-! Host stretch 13 (before the attention-logit kernel): the two projections gathered to the cross edges, and the attention's
biases and second weight as rows. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The program-side projection at the program end of every cross edge. -/
theorem h13_v256 (W : Valuation τ sig (Elt Ideal)) :
    StableHlo.after (hostOps13 (F := Ideal)) W (Proc.devRef .tc main_v256)
      = gatherCrossProg (W (Proc.devRef .tc main_v244)) (W (Proc.devRef .tc main_arg8)) := by
  after_results_simp
  first | done | rfl

/-- The voxel-side projection at the voxel end of every cross edge. -/
theorem h13_v263 (W : Valuation τ sig (Elt Ideal)) :
    StableHlo.after (hostOps13 (F := Ideal)) W (Proc.devRef .tc main_v263)
      = gatherCrossVox (W (Proc.devRef .tc main_v249)) (W (Proc.devRef .tc main_arg9)) := by
  after_results_simp
  first | done | rfl

/-- The attention's first bias as a row. -/
theorem h13_v264 (W : Valuation τ sig (Elt Ideal)) :
    StableHlo.after (hostOps13 (F := Ideal)) W (Proc.devRef .tc main_v264)
      = shapeCast S1x128 (W (Proc.devRef .tc main_arg23) : FVec Ideal S128 .f32) shapeCasts_S128_S1x128 := by
  after_results_simp
  first | done | rfl

/-- The attention's second weight `[128, 1]` laid out as a row. -/
theorem h13_v265 (W : Valuation τ sig (Elt Ideal)) :
    StableHlo.after (hostOps13 (F := Ideal)) W (Proc.devRef .tc main_v265)
      = shapeCast S1x128 (W (Proc.devRef .tc main_arg24) : FVec Ideal S128x1 .f32) shapeCasts_S128x1_S1x128 := by
  after_results_simp
  first | done | rfl

/-- The attention's second bias as a `[1, 1]` array. -/
theorem h13_v266 (W : Valuation τ sig (Elt Ideal)) :
    StableHlo.after (hostOps13 (F := Ideal)) W (Proc.devRef .tc main_v266)
      = shapeCast S1x1 (W (Proc.devRef .tc main_arg25) : FVec Ideal S1 .f32) shapeCasts_S1_S1x1 := by
  after_results_simp
  first | done | rfl

end Cert.KernelIdeal.Host
-- ==== Proof.KI.Host14.lean ====
import proofs.«173394_j29068338659455_2_alg».proof.Proof.KI.HostDefs
import proofs.«173394_j29068338659455_2_alg».proof.Proof.Gen.KernelIdeal.Launch
import Idealize.ShloMosaic.Lib.StableHlo.Run

/-! Host stretch 14 (after the attention-logit kernel, before the voxel layer's node-level message matmul): the attention
weights (the program's second result), the voxel rows after the attention pooling, the voxel edge-index rows, and the
region's operands. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The attention weights: the softmax of the logits over all the cross edges. -/
theorem h14_v278 (W : Valuation τ sig (Elt Ideal)) :
    StableHlo.after (hostOps14 (F := Ideal)) W (Proc.devRef .tc main_v278)
      = softmaxCross (W (Proc.devRef .tc main_v267)) := by
  after_results_simp
  first | done | rfl

/-- The voxel rows after the attention pooling. -/
theorem h14_v298 (W : Valuation τ sig (Elt Ideal)) :
    StableHlo.after (hostOps14 (F := Ideal)) W (Proc.devRef .tc main_v298)
      = attnPool (softmaxCross (W (Proc.devRef .tc main_v267))) (W (Proc.devRef .tc main_v232)) (W (Proc.devRef .tc main_arg8)) (W (Proc.devRef .tc main_arg9)) (W (Proc.devRef .tc main_v237)) := by
  after_results_simp
  first | done | rfl

/-- The sending ends of the voxel edges: row 0 of the voxel edge index. -/
theorem h14_v301 (W : Valuation τ sig (Elt Ideal)) :
    StableHlo.after (hostOps14 (F := Ideal)) W (Proc.devRef .tc main_v301)
      = voxEdgeRow ![0, 0] slices_S2x600000_S1x600000_0_0 (W (Proc.devRef .tc main_arg7)) := by
  after_results_simp
  first | done | rfl

/-- The receiving ends of the voxel edges: row 1 of the voxel edge index. -/
theorem h14_v303 (W : Valuation τ sig (Elt Ideal)) :
    StableHlo.after (hostOps14 (F := Ideal)) W (Proc.devRef .tc main_v303)
      = voxEdgeRow ![1, 0] slices_S2x600000_S1x600000_1_0 (W (Proc.devRef .tc main_arg7)) := by
  after_results_simp
  first | done | rfl

set_option maxHeartbeats 1600000 in
/-- The voxel message matmul's left operand. -/
theorem h14_v313 (W : Valuation τ sig (Elt Ideal)) :
    StableHlo.after (hostOps14 (F := Ideal)) W (Proc.devRef .tc main_v313)
      = voxMsgIn (attnPool (softmaxCross (W (Proc.devRef .tc main_v267))) (W (Proc.devRef .tc main_v232)) (W (Proc.devRef .tc main_arg8)) (W (Proc.devRef .tc main_arg9)) (W (Proc.devRef .tc main_v237))) (W (Proc.devRef .tc main_arg3)) := by
  after_results_simp
  unfold voxMsgIn
  refine congrArg (fun t : FVec Ideal S100000x131 .f32 => truncf (F := Ideal) .bf16 t bitsLt_bf16_f32) ?_
  refine congrArg₂ (fun (a : FVec Ideal S100000x128 .f32) (b : FVec Ideal S100000x3 .f32) =>
    concatenate S100000x131 1 [⟨S100000x128, a⟩, ⟨S100000x3, b⟩] concatenates_S100000x128_S100000x3_S100000x131_d1) ?_ ?_
  · after_results_simp
    first | done | rfl
  · after_results_simp
    first | done | rfl

/-- The voxel message weight rearranged for the node-level matmul. -/
theorem h14_v314 (W : Valuation τ sig (Elt Ideal)) :
    StableHlo.after (hostOps14 (F := Ideal)) W (Proc.devRef .tc main_v314)
      = voxMsgWeightPair (W (Proc.devRef .tc main_arg18)) := by
  after_results_simp
  first | done | rfl

/-- The node-level matmul has no bias: a zero row. -/
theorem h14_v315 (W : Valuation τ sig (Elt Ideal)) :
    StableHlo.after (hostOps14 (F := Ideal)) W (Proc.devRef .tc main_v315)
      = zeroRow256 := by
  after_results_simp
  first | done | rfl

end Cert.KernelIdeal.Host
-- ==== Proof.KI.Host15.lean ====
import proofs.«173394_j29068338659455_2_alg».proof.Proof.KI.HostDefs
import proofs.«173394_j29068338659455_2_alg».proof.Proof.Gen.KernelIdeal.Launch
import Idealize.ShloMosaic.Lib.StableHlo.Run

/-! Host stretch 15 (between the voxel layer's node-level message matmul and its edge kernel): the edge kernel's operands. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The receiving-voxel half of the node-level product, gathered to the voxel edges by their receiving ends. -/
theorem h15_v325 (W : Valuation τ sig (Elt Ideal)) :
    StableHlo.after (hostOps15 (F := Ideal)) W (Proc.devRef .tc main_v325)
      = gatherVox (voxHalf0 (W (Proc.devRef .tc main_v316))) (W (Proc.devRef .tc main_v303)) := by
  after_results_simp
  first | done | rfl

/-- The sending-voxel half of the node-level product, gathered to the voxel edges by their sending ends. -/
theorem h15_v332 (W : Valuation τ sig (Elt Ideal)) :
    StableHlo.after (hostOps15 (F := Ideal)) W (Proc.devRef .tc main_v332)
      = gatherVox (voxHalf1 (W (Proc.devRef .tc main_v316))) (W (Proc.devRef .tc main_v301)) := by
  after_results_simp
  first | done | rfl

/-- The voxel message bias as a row. -/
theorem h15_v333 (W : Valuation τ sig (Elt Ideal)) :
    StableHlo.after (hostOps15 (F := Ideal)) W (Proc.devRef .tc main_v333)
      = shapeCast S1x128 (W (Proc.devRef .tc main_arg19) : FVec Ideal S128 .f32) shapeCasts_S128_S1x128 := by
  after_results_simp
  first | done | rfl

end Cert.KernelIdeal.Host
-- ==== Proof.KI.Host16.lean ====
import proofs.«173394_j29068338659455_2_alg».proof.Proof.KI.HostDefs
import proofs.«173394_j29068338659455_2_alg».proof.Proof.Gen.KernelIdeal.Launch
import Idealize.ShloMosaic.Lib.StableHlo.Run

/-! Host stretch 16 (between the voxel edge kernel and the voxel update matmul): the update matmul's operands. -/

set_option maxRecDepth 8192

noncomputable section

namespace Cert.KernelIdeal.Host

open Cert.KernelIdeal Cert.KernelIdeal.Gen
open Idealize.ShloMosaic Idealize.ShloMosaic.TcCoe Idealize.ShloMosaic.StableHlo

/-- The voxel update matmul's left operand: the voxel rows beside the mean of the edge messages per receiving voxel. -/
theorem h16_v348 (W : Valuation τ sig (Elt Ideal)) :
    StableHlo.after (hostOps16 (F := Ideal)) W (Proc.devRef .tc main_v348)
      = voxUpdIn (W (Proc.devRef .tc main_v298)) (segMeanVox (W (Proc.devRef .tc main_v303)) (W (Proc.devRef .tc main_v334))) := by
  after_results_simp
  unfold voxUpdIn
  refine congrArg (fun t : FVec Ideal S100000x256 .f32 => truncf (F := Ideal) .bf16 t bitsLt_bf16_f32) ?_
  refine congrArg₂ (fun (a b : FVec Ideal S100000x128 .f32) =>
    concatenate S100000x256 1 [⟨S100000x128, a⟩, ⟨S100000x128, b⟩] concatenates_S100000x128_S100000x128_S100000x256_d1) ?_ ?_
  · after_results_simp
    first | done | rfl
  · after_results_simp
    first | done | rfl

/-- The voxel update weight, rounded to bf16. -/
theorem h16_v349 (W : Valuation τ sig (Elt Ideal)) :
    StableHlo.after (hostOps16 (F := Ideal)) W (Proc.devRef .tc main_v349)
      = truncf (F := Ideal) .bf16 (W (Proc.devRef .tc main_arg20) : FVec Ideal S256x128 .f32) bitsLt_bf16_f32 := by
  after_results_simp
  first | done | rfl

/-- The voxel update bias as a row. -/
theorem h16_v350 (W : Valuation τ sig (Elt Ideal)) :
    StableHlo.after (hostOps16 (F := Ideal)) W (Proc.devRef .tc main_v350)
      = shapeCast S1x128 (W (Proc.devRef .tc main_arg21) : FVec Ideal S128 .f32) shapeCasts_S128_S1x128 := by
  after_results_simp
  first | done | rfl

end Cert.KernelIdeal.Host
-- ==== Proof.KI.KVal.lean ====
import proofs.«173394_j29068338659455_2_alg».proof.Proof.KI.Arr0
import proofs.«173394_j29068338659455_2_alg».proof.Proof.KI.Arr1
import proofs.«173394_j29068338659455_2_alg».proof.Proof.KI.Arr2
import proofs.«173394_j29068338659455_2_alg».proof.Proof.KI.Arr3
import proofs.«173394_j29068338659455_2_alg».proof.Proof.KI.Arr4
import proofs.«173394_j29068338659455_2_alg».proof.Proof.KI.Arr5
import proofs.«173394_j29068338659455_2_alg».proof.Proof.KI.Arr6
import proofs.«173394_j29068338659455_2_alg».proof.Proof.KI.Arr7
import proofs.«173394_j29068338659455_2_alg».proof.Proof.KI.Arr8
import proofs.«173394_j29068338659455_2_alg».proof.Proof.KI.Arr9
import proofs.«173394_j29068338659455_2_alg».proof.Proof.KI.Arr10
import proofs.«173394_j29068338659455_2_alg».proof.Proof.KI.Arr11
import proofs.«173394_j29068338659455_2_alg».proof.Proof.KI.Arr12
import proofs.«173394_j29068338659455_2_alg».proof.Proof.KI.Arr13
import proofs.«173394_j29068338659455_2_alg».proof.Proof.KI.Arr14
import proofs.«173394_j29068338659455_2_alg».proof.Proof.KI.Arr15
import proofs.«173394_j29068338659455_2_alg».proof.Proof.KI.Arr16
import proofs.«173394_j29068338659455_2_alg».proof.Proof.KI.Host0
import proofs.«173394_j29068338659455_2_alg».proof.Proof.KI.Host1
import proofs.«173394_j29068338659455_2_alg».proof.Proof.KI.Host2
import proofs.«173394_j29068338659455_2_alg».proof.Proof.KI.Host3
import proofs.«173394_j29068338659455_2_alg».proof.Proof.KI.Host4
import proofs.«173394_j29068338659455_2_alg».proof.Proof.KI.Host5
import proofs.«173394_j29068338659455_2_alg».proof.Proof.KI.Host6
import proofs.«173394_j29068338659455_2_alg».proof.Proof.KI.Host7
import proofs.«173394_j29068338659455_2_alg».proof.Proof.KI.Host8
import proofs.«173394_j29068338659455_2_alg».proof.Proof.KI.Host9
import proofs.«173394_j29068338659455_2_alg».proof.Proof.KI.Host10
import proofs.«173394_j29068338659455_2_alg».proof.Proof.KI.Host11
import proofs.«173394_j29068338659455_2_alg».proof.Proof.KI.Host12
import proofs.«173394_j29068338659455_2_alg».proof.Proof.KI.Host13
import proofs.«173394_j29068338659455_2_alg».proof.Proof.KI.Host14
import proofs.«173394_j29068338659455_2_alg».proof.Proof.KI.Host15
import proofs.«173394_j29068338659455_2_alg».proof.Proof.KI.Host16
import proofs.«173394_j29068338659455_2_alg».proof.Proof.KI.Frame

/-! The idealized kernel program's two results as functions of its arguments.

The contents of the buffers at each boundary of the run are a fold through 34 segments. Read at one buffer, the fold unwinds:
a buffer no segment since its producer has written keeps the producer's value; a host stretch's result is the stretch's
operations applied to what it read; a region's output array is the region's whole-array function of its operand arrays. So
each buffer that anything later reads is named here (`k<N>` for `main_v<N>`) as that composition over the arguments, in
program order, and the last two are the program's results. -/

set_option maxRecDepth 16384

noncomputable section

namespace Cert.KernelIdeal.KVal

open Cert.KernelIdeal Cert.KernelIdeal.Gen Cert.KernelIdeal.Fr Cert.KernelIdeal.Host
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

-- the arguments, as the launch memory holds them
abbrev ka0 := m ((c.tc : Thread nD τ).loc main_arg0)
abbrev ka1 := m ((c.tc : Thread nD τ).loc main_arg1)
abbrev ka2 := m ((c.tc : Thread nD τ).loc main_arg2)
abbrev ka3 := m ((c.tc : Thread nD τ).loc main_arg3)
abbrev ka4 := m ((c.tc : Thread nD τ).loc main_arg4)
abbrev ka5 := m ((c.tc : Thread nD τ).loc main_arg5)
abbrev ka6 := m ((c.tc : Thread nD τ).loc main_arg6)
abbrev ka7 := m ((c.tc : Thread nD τ).loc main_arg7)
abbrev ka8 := m ((c.tc : Thread nD τ).loc main_arg8)
abbrev ka9 := m ((c.tc : Thread nD τ).loc main_arg9)
abbrev ka10 := m ((c.tc : Thread nD τ).loc main_arg10)
abbrev ka11 := m ((c.tc : Thread nD τ).loc main_arg11)
abbrev ka12 := m ((c.tc : Thread nD τ).loc main_arg12)
abbrev ka13 := m ((c.tc : Thread nD τ).loc main_arg13)
abbrev ka14 := m ((c.tc : Thread nD τ).loc main_arg14)
abbrev ka15 := m ((c.tc : Thread nD τ).loc main_arg15)
abbrev ka16 := m ((c.tc : Thread nD τ).loc main_arg16)
abbrev ka17 := m ((c.tc : Thread nD τ).loc main_arg17)
abbrev ka18 := m ((c.tc : Thread nD τ).loc main_arg18)
abbrev ka19 := m ((c.tc : Thread nD τ).loc main_arg19)
abbrev ka20 := m ((c.tc : Thread nD τ).loc main_arg20)
abbrev ka21 := m ((c.tc : Thread nD τ).loc main_arg21)
abbrev ka22 := m ((c.tc : Thread nD τ).loc main_arg22)
abbrev ka23 := m ((c.tc : Thread nD τ).loc main_arg23)
abbrev ka24 := m ((c.tc : Thread nD τ).loc main_arg24)
abbrev ka25 := m ((c.tc : Thread nD τ).loc main_arg25)

/-- `main_v4`: what region 0 leaves in its output array. -/
def k4 := Cert.KernelIdeal.Arr.G0 (encIn (ka0 m c) (ka1 m c)) (truncf (F := Ideal) .bf16 (ka10 m c : FVec Ideal S64x128 .f32) bitsLt_bf16_f32) (shapeCast S1x128 (ka11 m c : FVec Ideal S128 .f32) shapeCasts_S128_S1x128)
theorem rd0_ka0 : W0 m ρ c (Proc.devRef .tc main_arg0) = ka0 m c :=
  rfl
theorem rd0_ka1 : W0 m ρ c (Proc.devRef .tc main_arg1) = ka1 m c :=
  rfl
theorem rd0_ka10 : W0 m ρ c (Proc.devRef .tc main_arg10) = ka10 m c :=
  rfl
theorem rd0_ka11 : W0 m ρ c (Proc.devRef .tc main_arg11) = ka11 m c :=
  rfl
theorem at2_k4 : W2 m ρ c (Proc.devRef .tc main_v4) = k4 m c := by
  refine (W2_arr m ρ c (⟨3, by decide⟩ : Fin cfg0.W)).trans ?_
  refine (Cert.KernelIdeal.Arr.arr0 (V1 m ρ) c).trans ?_
  show Cert.KernelIdeal.Arr.G0 (StableHlo.after (hostOps0 (F := Ideal)) (W0 m ρ c) (Proc.devRef .tc main_v1)) (StableHlo.after (hostOps0 (F := Ideal)) (W0 m ρ c) (Proc.devRef .tc main_v2)) (StableHlo.after (hostOps0 (F := Ideal)) (W0 m ρ c) (Proc.devRef .tc main_v3)) = _
  rw [h0_v1 (W0 m ρ c), h0_v2 (W0 m ρ c), h0_v3 (W0 m ρ c)]
  rw [rd0_ka0 m ρ c, rd0_ka1 m ρ c, rd0_ka10 m ρ c, rd0_ka11 m ρ c]
  rfl

/-- `main_v6`, written by host stretch 1. -/
def k6 := progEdgeRow ![0, 0] slices_S2x80000_S1x80000_0_0 (ka5 m c)
theorem rd2_ka5 : W2 m ρ c (Proc.devRef .tc main_arg5) = ka5 m c :=
  (W2_of_ne m ρ c main_arg5 (by decide)).trans <| (after0_of (W0 m ρ c) main_arg5 (by decide)).trans <| rfl
theorem at3_k6 : W3 m ρ c (Proc.devRef .tc main_v6) = k6 m c := by
  refine (h1_v6 (W2 m ρ c)).trans ?_
  rw [rd2_ka5 m ρ c]
  rfl

/-- `main_v8`, written by host stretch 1. -/
def k8 := progEdgeRow ![1, 0] slices_S2x80000_S1x80000_1_0 (ka5 m c)
theorem at3_k8 : W3 m ρ c (Proc.devRef .tc main_v8) = k8 m c := by
  refine (h1_v8 (W2 m ρ c)).trans ?_
  rw [rd2_ka5 m ρ c]
  rfl

/-- `main_v10`, written by host stretch 1. -/
def k10 := ratioCol (ka2 m c)
theorem rd2_ka2 : W2 m ρ c (Proc.devRef .tc main_arg2) = ka2 m c :=
  (W2_of_ne m ρ c main_arg2 (by decide)).trans <| (after0_of (W0 m ρ c) main_arg2 (by decide)).trans <| rfl
theorem at3_k10 : W3 m ρ c (Proc.devRef .tc main_v10) = k10 m c := by
  refine (h1_v10 (W2 m ρ c)).trans ?_
  rw [rd2_ka2 m ρ c]
  rfl

/-- `main_v22`: what region 1 leaves in its output array. -/
def k22 := Cert.KernelIdeal.Arr.G1 (truncf (F := Ideal) .bf16 (k4 m c : FVec Ideal S5000x128 .f32) bitsLt_bf16_f32) (msgWeightPair (msgWeight ![0, 0, 0] slices_S3x256x128_S1x256x128_0_0_0 (ka12 m c))) (zeroRow256)
theorem rd2_k4 : W2 m ρ c (Proc.devRef .tc main_v4) = k4 m c :=
  at2_k4 m ρ c
theorem rd2_ka12 : W2 m ρ c (Proc.devRef .tc main_arg12) = ka12 m c :=
  (W2_of_ne m ρ c main_arg12 (by decide)).trans <| (after0_of (W0 m ρ c) main_arg12 (by decide)).trans <| rfl
theorem at4_k22 : W4 m ρ c (Proc.devRef .tc main_v22) = k22 m c := by
  refine (W4_arr m ρ c (⟨3, by decide⟩ : Fin cfg1.W)).trans ?_
  refine (Cert.KernelIdeal.Arr.arr1 (V3 m ρ) c).trans ?_
  show Cert.KernelIdeal.Arr.G1 (StableHlo.after (hostOps1 (F := Ideal)) (W2 m ρ c) (Proc.devRef .tc main_v19)) (StableHlo.after (hostOps1 (F := Ideal)) (W2 m ρ c) (Proc.devRef .tc main_v20)) (StableHlo.after (hostOps1 (F := Ideal)) (W2 m ρ c) (Proc.devRef .tc main_v21)) = _
  rw [h1_v19 (W2 m ρ c), h1_v20 (W2 m ρ c), h1_v21 (W2 m ρ c)]
  rw [rd2_k4 m ρ c, rd2_ka12 m ρ c]
  rfl

/-- `main_v42`: what region 2 leaves in its output array. -/
def k42 := Cert.KernelIdeal.Arr.G2 (gatherEdge (nodeHalf0 (k22 m c)) (k8 m c)) (gatherEdge (nodeHalf1 (k22 m c)) (k6 m c)) (biasRow ![0, 0] slices_S3x128_S1x128_0_0 (ka13 m c))
theorem rd4_k22 : W4 m ρ c (Proc.devRef .tc main_v22) = k22 m c :=
  at4_k22 m ρ c
theorem rd4_k8 : W4 m ρ c (Proc.devRef .tc main_v8) = k8 m c :=
  (W4_of_ne m ρ c main_v8 (by decide)).trans <| at3_k8 m ρ c
theorem rd4_k6 : W4 m ρ c (Proc.devRef .tc main_v6) = k6 m c :=
  (W4_of_ne m ρ c main_v6 (by decide)).trans <| at3_k6 m ρ c
theorem rd4_ka13 : W4 m ρ c (Proc.devRef .tc main_arg13) = ka13 m c :=
  (W4_of_ne m ρ c main_arg13 (by decide)).trans <| (after1_of (W2 m ρ c) main_arg13 (by decide)).trans <| (W2_of_ne m ρ c main_arg13 (by decide)).trans <| (after0_of (W0 m ρ c) main_arg13 (by decide)).trans <| rfl
theorem at6_k42 : W6 m ρ c (Proc.devRef .tc main_v42) = k42 m c := by
  refine (W6_arr m ρ c (⟨3, by decide⟩ : Fin cfg2.W)).trans ?_
  refine (Cert.KernelIdeal.Arr.arr2 (V5 m ρ) c).trans ?_
  show Cert.KernelIdeal.Arr.G2 (StableHlo.after (hostOps2 (F := Ideal)) (W4 m ρ c) (Proc.devRef .tc main_v31)) (StableHlo.after (hostOps2 (F := Ideal)) (W4 m ρ c) (Proc.devRef .tc main_v38)) (StableHlo.after (hostOps2 (F := Ideal)) (W4 m ρ c) (Proc.devRef .tc main_v41)) = _
  rw [h2_v31 (W4 m ρ c), h2_v38 (W4 m ρ c), h2_v41 (W4 m ρ c)]
  rw [rd4_k22 m ρ c, rd4_k8 m ρ c, rd4_k6 m ρ c, rd4_ka13 m ρ c]
  rfl

/-- `main_v84`: what region 3 leaves in its output array. -/
def k84 := Cert.KernelIdeal.Arr.G3 (updIn (k4 m c) (segMeanEdge (k8 m c) (k42 m c)) (clusterCtx (ka6 m c) (k4 m c) (k10 m c))) (truncf (F := Ideal) .bf16 (updWeight ![0, 0, 0] slices_S3x384x128_S1x384x128_0_0_0 (ka14 m c)) bitsLt_bf16_f32) (biasRow ![0, 0] slices_S3x128_S1x128_0_0 (ka15 m c)) (k4 m c)
theorem rd6_k4 : W6 m ρ c (Proc.devRef .tc main_v4) = k4 m c :=
  (W6_of_ne m ρ c main_v4 (by decide)).trans <| (after2_of (W4 m ρ c) main_v4 (by decide)).trans <| (W4_of_ne m ρ c main_v4 (by decide)).trans <| (after1_of (W2 m ρ c) main_v4 (by decide)).trans <| at2_k4 m ρ c
theorem rd6_k8 : W6 m ρ c (Proc.devRef .tc main_v8) = k8 m c :=
  (W6_of_ne m ρ c main_v8 (by decide)).trans <| (after2_of (W4 m ρ c) main_v8 (by decide)).trans <| (W4_of_ne m ρ c main_v8 (by decide)).trans <| at3_k8 m ρ c
theorem rd6_k42 : W6 m ρ c (Proc.devRef .tc main_v42) = k42 m c :=
  at6_k42 m ρ c
theorem rd6_ka6 : W6 m ρ c (Proc.devRef .tc main_arg6) = ka6 m c :=
  (W6_of_ne m ρ c main_arg6 (by decide)).trans <| (after2_of (W4 m ρ c) main_arg6 (by decide)).trans <| (W4_of_ne m ρ c main_arg6 (by decide)).trans <| (after1_of (W2 m ρ c) main_arg6 (by decide)).trans <| (W2_of_ne m ρ c main_arg6 (by decide)).trans <| (after0_of (W0 m ρ c) main_arg6 (by decide)).trans <| rfl
theorem rd6_k10 : W6 m ρ c (Proc.devRef .tc main_v10) = k10 m c :=
  (W6_of_ne m ρ c main_v10 (by decide)).trans <| (after2_of (W4 m ρ c) main_v10 (by decide)).trans <| (W4_of_ne m ρ c main_v10 (by decide)).trans <| at3_k10 m ρ c
theorem rd6_ka14 : W6 m ρ c (Proc.devRef .tc main_arg14) = ka14 m c :=
  (W6_of_ne m ρ c main_arg14 (by decide)).trans <| (after2_of (W4 m ρ c) main_arg14 (by decide)).trans <| (W4_of_ne m ρ c main_arg14 (by decide)).trans <| (after1_of (W2 m ρ c) main_arg14 (by decide)).trans <| (W2_of_ne m ρ c main_arg14 (by decide)).trans <| (after0_of (W0 m ρ c) main_arg14 (by decide)).trans <| rfl
theorem rd6_ka15 : W6 m ρ c (Proc.devRef .tc main_arg15) = ka15 m c :=
  (W6_of_ne m ρ c main_arg15 (by decide)).trans <| (after2_of (W4 m ρ c) main_arg15 (by decide)).trans <| (W4_of_ne m ρ c main_arg15 (by decide)).trans <| (after1_of (W2 m ρ c) main_arg15 (by decide)).trans <| (W2_of_ne m ρ c main_arg15 (by decide)).trans <| (after0_of (W0 m ρ c) main_arg15 (by decide)).trans <| rfl
theorem rd7_k4 : W7 m ρ c (Proc.devRef .tc main_v4) = k4 m c :=
  (after3_of (W6 m ρ c) main_v4 (by decide)).trans <| (W6_of_ne m ρ c main_v4 (by decide)).trans <| (after2_of (W4 m ρ c) main_v4 (by decide)).trans <| (W4_of_ne m ρ c main_v4 (by decide)).trans <| (after1_of (W2 m ρ c) main_v4 (by decide)).trans <| at2_k4 m ρ c
theorem at8_k84 : W8 m ρ c (Proc.devRef .tc main_v84) = k84 m c := by
  refine (W8_arr m ρ c (⟨4, by decide⟩ : Fin cfg3.W)).trans ?_
  refine (Cert.KernelIdeal.Arr.arr3 (V7 m ρ) c).trans ?_
  show Cert.KernelIdeal.Arr.G3 (StableHlo.after (hostOps3 (F := Ideal)) (W6 m ρ c) (Proc.devRef .tc main_v81)) (StableHlo.after (hostOps3 (F := Ideal)) (W6 m ρ c) (Proc.devRef .tc main_v82)) (StableHlo.after (hostOps3 (F := Ideal)) (W6 m ρ c) (Proc.devRef .tc main_v83)) (W7 m ρ c (Proc.devRef .tc main_v4)) = _
  rw [h3_v81 (W6 m ρ c), h3_v82 (W6 m ρ c), h3_v83 (W6 m ρ c)]
  rw [rd6_k4 m ρ c, rd6_k8 m ρ c, rd6_k42 m ρ c, rd6_ka6 m ρ c, rd6_k10 m ρ c, rd6_ka14 m ρ c, rd6_ka15 m ρ c, rd7_k4 m ρ c]
  rfl

/-- `main_v96`: what region 4 leaves in its output array. -/
def k96 := Cert.KernelIdeal.Arr.G4 (truncf (F := Ideal) .bf16 (k84 m c : FVec Ideal S5000x128 .f32) bitsLt_bf16_f32) (msgWeightPair (msgWeight ![1, 0, 0] slices_S3x256x128_S1x256x128_1_0_0 (ka12 m c))) (zeroRow256)
theorem rd8_k84 : W8 m ρ c (Proc.devRef .tc main_v84) = k84 m c :=
  at8_k84 m ρ c
theorem rd8_ka12 : W8 m ρ c (Proc.devRef .tc main_arg12) = ka12 m c :=
  (W8_of_ne m ρ c main_arg12 (by decide)).trans <| (after3_of (W6 m ρ c) main_arg12 (by decide)).trans <| (W6_of_ne m ρ c main_arg12 (by decide)).trans <| (after2_of (W4 m ρ c) main_arg12 (by decide)).trans <| (W4_of_ne m ρ c main_arg12 (by decide)).trans <| (after1_of (W2 m ρ c) main_arg12 (by decide)).trans <| (W2_of_ne m ρ c main_arg12 (by decide)).trans <| (after0_of (W0 m ρ c) main_arg12 (by decide)).trans <| rfl
theorem at10_k96 : W10 m ρ c (Proc.devRef .tc main_v96) = k96 m c := by
  refine (W10_arr m ρ c (⟨3, by decide⟩ : Fin cfg4.W)).trans ?_
  refine (Cert.KernelIdeal.Arr.arr4 (V9 m ρ) c).trans ?_
  show Cert.KernelIdeal.Arr.G4 (StableHlo.after (hostOps4 (F := Ideal)) (W8 m ρ c) (Proc.devRef .tc main_v93)) (StableHlo.after (hostOps4 (F := Ideal)) (W8 m ρ c) (Proc.devRef .tc main_v94)) (StableHlo.after (hostOps4 (F := Ideal)) (W8 m ρ c) (Proc.devRef .tc main_v95)) = _
  rw [h4_v93 (W8 m ρ c), h4_v94 (W8 m ρ c), h4_v95 (W8 m ρ c)]
  rw [rd8_k84 m ρ c, rd8_ka12 m ρ c]
  rfl

/-- `main_v116`: what region 5 leaves in its output array. -/
def k116 := Cert.KernelIdeal.Arr.G5 (gatherEdge (nodeHalf0 (k96 m c)) (k8 m c)) (gatherEdge (nodeHalf1 (k96 m c)) (k6 m c)) (biasRow ![1, 0] slices_S3x128_S1x128_1_0 (ka13 m c))
theorem rd10_k96 : W10 m ρ c (Proc.devRef .tc main_v96) = k96 m c :=
  at10_k96 m ρ c
theorem rd10_k8 : W10 m ρ c (Proc.devRef .tc main_v8) = k8 m c :=
  (W10_of_ne m ρ c main_v8 (by decide)).trans <| (after4_of (W8 m ρ c) main_v8 (by decide)).trans <| (W8_of_ne m ρ c main_v8 (by decide)).trans <| (after3_of (W6 m ρ c) main_v8 (by decide)).trans <| (W6_of_ne m ρ c main_v8 (by decide)).trans <| (after2_of (W4 m ρ c) main_v8 (by decide)).trans <| (W4_of_ne m ρ c main_v8 (by decide)).trans <| at3_k8 m ρ c
theorem rd10_k6 : W10 m ρ c (Proc.devRef .tc main_v6) = k6 m c :=
  (W10_of_ne m ρ c main_v6 (by decide)).trans <| (after4_of (W8 m ρ c) main_v6 (by decide)).trans <| (W8_of_ne m ρ c main_v6 (by decide)).trans <| (after3_of (W6 m ρ c) main_v6 (by decide)).trans <| (W6_of_ne m ρ c main_v6 (by decide)).trans <| (after2_of (W4 m ρ c) main_v6 (by decide)).trans <| (W4_of_ne m ρ c main_v6 (by decide)).trans <| at3_k6 m ρ c
theorem rd10_ka13 : W10 m ρ c (Proc.devRef .tc main_arg13) = ka13 m c :=
  (W10_of_ne m ρ c main_arg13 (by decide)).trans <| (after4_of (W8 m ρ c) main_arg13 (by decide)).trans <| (W8_of_ne m ρ c main_arg13 (by decide)).trans <| (after3_of (W6 m ρ c) main_arg13 (by decide)).trans <| (W6_of_ne m ρ c main_arg13 (by decide)).trans <| (after2_of (W4 m ρ c) main_arg13 (by decide)).trans <| (W4_of_ne m ρ c main_arg13 (by decide)).trans <| (after1_of (W2 m ρ c) main_arg13 (by decide)).trans <| (W2_of_ne m ρ c main_arg13 (by decide)).trans <| (after0_of (W0 m ρ c) main_arg13 (by decide)).trans <| rfl
theorem at12_k116 : W12 m ρ c (Proc.devRef .tc main_v116) = k116 m c := by
  refine (W12_arr m ρ c (⟨3, by decide⟩ : Fin cfg5.W)).trans ?_
  refine (Cert.KernelIdeal.Arr.arr5 (V11 m ρ) c).trans ?_
  show Cert.KernelIdeal.Arr.G5 (StableHlo.after (hostOps5 (F := Ideal)) (W10 m ρ c) (Proc.devRef .tc main_v105)) (StableHlo.after (hostOps5 (F := Ideal)) (W10 m ρ c) (Proc.devRef .tc main_v112)) (StableHlo.after (hostOps5 (F := Ideal)) (W10 m ρ c) (Proc.devRef .tc main_v115)) = _
  rw [h5_v105 (W10 m ρ c), h5_v112 (W10 m ρ c), h5_v115 (W10 m ρ c)]
  rw [rd10_k96 m ρ c, rd10_k8 m ρ c, rd10_k6 m ρ c, rd10_ka13 m ρ c]
  rfl

/-- `main_v158`: what region 6 leaves in its output array. -/
def k158 := Cert.KernelIdeal.Arr.G6 (updIn (k84 m c) (segMeanEdge (k8 m c) (k116 m c)) (clusterCtx (ka6 m c) (k84 m c) (k10 m c))) (truncf (F := Ideal) .bf16 (updWeight ![1, 0, 0] slices_S3x384x128_S1x384x128_1_0_0 (ka14 m c)) bitsLt_bf16_f32) (biasRow ![1, 0] slices_S3x128_S1x128_1_0 (ka15 m c)) (k84 m c)
theorem rd12_k84 : W12 m ρ c (Proc.devRef .tc main_v84) = k84 m c :=
  (W12_of_ne m ρ c main_v84 (by decide)).trans <| (after5_of (W10 m ρ c) main_v84 (by decide)).trans <| (W10_of_ne m ρ c main_v84 (by decide)).trans <| (after4_of (W8 m ρ c) main_v84 (by decide)).trans <| at8_k84 m ρ c
theorem rd12_k8 : W12 m ρ c (Proc.devRef .tc main_v8) = k8 m c :=
  (W12_of_ne m ρ c main_v8 (by decide)).trans <| (after5_of (W10 m ρ c) main_v8 (by decide)).trans <| (W10_of_ne m ρ c main_v8 (by decide)).trans <| (after4_of (W8 m ρ c) main_v8 (by decide)).trans <| (W8_of_ne m ρ c main_v8 (by decide)).trans <| (after3_of (W6 m ρ c) main_v8 (by decide)).trans <| (W6_of_ne m ρ c main_v8 (by decide)).trans <| (after2_of (W4 m ρ c) main_v8 (by decide)).trans <| (W4_of_ne m ρ c main_v8 (by decide)).trans <| at3_k8 m ρ c
theorem rd12_k116 : W12 m ρ c (Proc.devRef .tc main_v116) = k116 m c :=
  at12_k116 m ρ c
theorem rd12_ka6 : W12 m ρ c (Proc.devRef .tc main_arg6) = ka6 m c :=
  (W12_of_ne m ρ c main_arg6 (by decide)).trans <| (after5_of (W10 m ρ c) main_arg6 (by decide)).trans <| (W10_of_ne m ρ c main_arg6 (by decide)).trans <| (after4_of (W8 m ρ c) main_arg6 (by decide)).trans <| (W8_of_ne m ρ c main_arg6 (by decide)).trans <| (after3_of (W6 m ρ c) main_arg6 (by decide)).trans <| (W6_of_ne m ρ c main_arg6 (by decide)).trans <| (after2_of (W4 m ρ c) main_arg6 (by decide)).trans <| (W4_of_ne m ρ c main_arg6 (by decide)).trans <| (after1_of (W2 m ρ c) main_arg6 (by decide)).trans <| (W2_of_ne m ρ c main_arg6 (by decide)).trans <| (after0_of (W0 m ρ c) main_arg6 (by decide)).trans <| rfl
theorem rd12_k10 : W12 m ρ c (Proc.devRef .tc main_v10) = k10 m c :=
  (W12_of_ne m ρ c main_v10 (by decide)).trans <| (after5_of (W10 m ρ c) main_v10 (by decide)).trans <| (W10_of_ne m ρ c main_v10 (by decide)).trans <| (after4_of (W8 m ρ c) main_v10 (by decide)).trans <| (W8_of_ne m ρ c main_v10 (by decide)).trans <| (after3_of (W6 m ρ c) main_v10 (by decide)).trans <| (W6_of_ne m ρ c main_v10 (by decide)).trans <| (after2_of (W4 m ρ c) main_v10 (by decide)).trans <| (W4_of_ne m ρ c main_v10 (by decide)).trans <| at3_k10 m ρ c
theorem rd12_ka14 : W12 m ρ c (Proc.devRef .tc main_arg14) = ka14 m c :=
  (W12_of_ne m ρ c main_arg14 (by decide)).trans <| (after5_of (W10 m ρ c) main_arg14 (by decide)).trans <| (W10_of_ne m ρ c main_arg14 (by decide)).trans <| (after4_of (W8 m ρ c) main_arg14 (by decide)).trans <| (W8_of_ne m ρ c main_arg14 (by decide)).trans <| (after3_of (W6 m ρ c) main_arg14 (by decide)).trans <| (W6_of_ne m ρ c main_arg14 (by decide)).trans <| (after2_of (W4 m ρ c) main_arg14 (by decide)).trans <| (W4_of_ne m ρ c main_arg14 (by decide)).trans <| (after1_of (W2 m ρ c) main_arg14 (by decide)).trans <| (W2_of_ne m ρ c main_arg14 (by decide)).trans <| (after0_of (W0 m ρ c) main_arg14 (by decide)).trans <| rfl
theorem rd12_ka15 : W12 m ρ c (Proc.devRef .tc main_arg15) = ka15 m c :=
  (W12_of_ne m ρ c main_arg15 (by decide)).trans <| (after5_of (W10 m ρ c) main_arg15 (by decide)).trans <| (W10_of_ne m ρ c main_arg15 (by decide)).trans <| (after4_of (W8 m ρ c) main_arg15 (by decide)).trans <| (W8_of_ne m ρ c main_arg15 (by decide)).trans <| (after3_of (W6 m ρ c) main_arg15 (by decide)).trans <| (W6_of_ne m ρ c main_arg15 (by decide)).trans <| (after2_of (W4 m ρ c) main_arg15 (by decide)).trans <| (W4_of_ne m ρ c main_arg15 (by decide)).trans <| (after1_of (W2 m ρ c) main_arg15 (by decide)).trans <| (W2_of_ne m ρ c main_arg15 (by decide)).trans <| (after0_of (W0 m ρ c) main_arg15 (by decide)).trans <| rfl
theorem rd13_k84 : W13 m ρ c (Proc.devRef .tc main_v84) = k84 m c :=
  (after6_of (W12 m ρ c) main_v84 (by decide)).trans <| (W12_of_ne m ρ c main_v84 (by decide)).trans <| (after5_of (W10 m ρ c) main_v84 (by decide)).trans <| (W10_of_ne m ρ c main_v84 (by decide)).trans <| (after4_of (W8 m ρ c) main_v84 (by decide)).trans <| at8_k84 m ρ c
theorem at14_k158 : W14 m ρ c (Proc.devRef .tc main_v158) = k158 m c := by
  refine (W14_arr m ρ c (⟨4, by decide⟩ : Fin cfg6.W)).trans ?_
  refine (Cert.KernelIdeal.Arr.arr6 (V13 m ρ) c).trans ?_
  show Cert.KernelIdeal.Arr.G6 (StableHlo.after (hostOps6 (F := Ideal)) (W12 m ρ c) (Proc.devRef .tc main_v155)) (StableHlo.after (hostOps6 (F := Ideal)) (W12 m ρ c) (Proc.devRef .tc main_v156)) (StableHlo.after (hostOps6 (F := Ideal)) (W12 m ρ c) (Proc.devRef .tc main_v157)) (W13 m ρ c (Proc.devRef .tc main_v84)) = _
  rw [h6_v155 (W12 m ρ c), h6_v156 (W12 m ρ c), h6_v157 (W12 m ρ c)]
  rw [rd12_k84 m ρ c, rd12_k8 m ρ c, rd12_k116 m ρ c, rd12_ka6 m ρ c, rd12_k10 m ρ c, rd12_ka14 m ρ c, rd12_ka15 m ρ c, rd13_k84 m ρ c]
  rfl

/-- `main_v170`: what region 7 leaves in its output array. -/
def k170 := Cert.KernelIdeal.Arr.G7 (truncf (F := Ideal) .bf16 (k158 m c : FVec Ideal S5000x128 .f32) bitsLt_bf16_f32) (msgWeightPair (msgWeight ![2, 0, 0] slices_S3x256x128_S1x256x128_2_0_0 (ka12 m c))) (zeroRow256)
theorem rd14_k158 : W14 m ρ c (Proc.devRef .tc main_v158) = k158 m c :=
  at14_k158 m ρ c
theorem rd14_ka12 : W14 m ρ c (Proc.devRef .tc main_arg12) = ka12 m c :=
  (W14_of_ne m ρ c main_arg12 (by decide)).trans <| (after6_of (W12 m ρ c) main_arg12 (by decide)).trans <| (W12_of_ne m ρ c main_arg12 (by decide)).trans <| (after5_of (W10 m ρ c) main_arg12 (by decide)).trans <| (W10_of_ne m ρ c main_arg12 (by decide)).trans <| (after4_of (W8 m ρ c) main_arg12 (by decide)).trans <| (W8_of_ne m ρ c main_arg12 (by decide)).trans <| (after3_of (W6 m ρ c) main_arg12 (by decide)).trans <| (W6_of_ne m ρ c main_arg12 (by decide)).trans <| (after2_of (W4 m ρ c) main_arg12 (by decide)).trans <| (W4_of_ne m ρ c main_arg12 (by decide)).trans <| (after1_of (W2 m ρ c) main_arg12 (by decide)).trans <| (W2_of_ne m ρ c main_arg12 (by decide)).trans <| (after0_of (W0 m ρ c) main_arg12 (by decide)).trans <| rfl
theorem at16_k170 : W16 m ρ c (Proc.devRef .tc main_v170) = k170 m c := by
  refine (W16_arr m ρ c (⟨3, by decide⟩ : Fin cfg7.W)).trans ?_
  refine (Cert.KernelIdeal.Arr.arr7 (V15 m ρ) c).trans ?_
  show Cert.KernelIdeal.Arr.G7 (StableHlo.after (hostOps7 (F := Ideal)) (W14 m ρ c) (Proc.devRef .tc main_v167)) (StableHlo.after (hostOps7 (F := Ideal)) (W14 m ρ c) (Proc.devRef .tc main_v168)) (StableHlo.after (hostOps7 (F := Ideal)) (W14 m ρ c) (Proc.devRef .tc main_v169)) = _
  rw [h7_v167 (W14 m ρ c), h7_v168 (W14 m ρ c), h7_v169 (W14 m ρ c)]
  rw [rd14_k158 m ρ c, rd14_ka12 m ρ c]
  rfl

/-- `main_v190`: what region 8 leaves in its output array. -/
def k190 := Cert.KernelIdeal.Arr.G8 (gatherEdge (nodeHalf0 (k170 m c)) (k8 m c)) (gatherEdge (nodeHalf1 (k170 m c)) (k6 m c)) (biasRow ![2, 0] slices_S3x128_S1x128_2_0 (ka13 m c))
theorem rd16_k170 : W16 m ρ c (Proc.devRef .tc main_v170) = k170 m c :=
  at16_k170 m ρ c
theorem rd16_k8 : W16 m ρ c (Proc.devRef .tc main_v8) = k8 m c :=
  (W16_of_ne m ρ c main_v8 (by decide)).trans <| (after7_of (W14 m ρ c) main_v8 (by decide)).trans <| (W14_of_ne m ρ c main_v8 (by decide)).trans <| (after6_of (W12 m ρ c) main_v8 (by decide)).trans <| (W12_of_ne m ρ c main_v8 (by decide)).trans <| (after5_of (W10 m ρ c) main_v8 (by decide)).trans <| (W10_of_ne m ρ c main_v8 (by decide)).trans <| (after4_of (W8 m ρ c) main_v8 (by decide)).trans <| (W8_of_ne m ρ c main_v8 (by decide)).trans <| (after3_of (W6 m ρ c) main_v8 (by decide)).trans <| (W6_of_ne m ρ c main_v8 (by decide)).trans <| (after2_of (W4 m ρ c) main_v8 (by decide)).trans <| (W4_of_ne m ρ c main_v8 (by decide)).trans <| at3_k8 m ρ c
theorem rd16_k6 : W16 m ρ c (Proc.devRef .tc main_v6) = k6 m c :=
  (W16_of_ne m ρ c main_v6 (by decide)).trans <| (after7_of (W14 m ρ c) main_v6 (by decide)).trans <| (W14_of_ne m ρ c main_v6 (by decide)).trans <| (after6_of (W12 m ρ c) main_v6 (by decide)).trans <| (W12_of_ne m ρ c main_v6 (by decide)).trans <| (after5_of (W10 m ρ c) main_v6 (by decide)).trans <| (W10_of_ne m ρ c main_v6 (by decide)).trans <| (after4_of (W8 m ρ c) main_v6 (by decide)).trans <| (W8_of_ne m ρ c main_v6 (by decide)).trans <| (after3_of (W6 m ρ c) main_v6 (by decide)).trans <| (W6_of_ne m ρ c main_v6 (by decide)).trans <| (after2_of (W4 m ρ c) main_v6 (by decide)).trans <| (W4_of_ne m ρ c main_v6 (by decide)).trans <| at3_k6 m ρ c
theorem rd16_ka13 : W16 m ρ c (Proc.devRef .tc main_arg13) = ka13 m c :=
  (W16_of_ne m ρ c main_arg13 (by decide)).trans <| (after7_of (W14 m ρ c) main_arg13 (by decide)).trans <| (W14_of_ne m ρ c main_arg13 (by decide)).trans <| (after6_of (W12 m ρ c) main_arg13 (by decide)).trans <| (W12_of_ne m ρ c main_arg13 (by decide)).trans <| (after5_of (W10 m ρ c) main_arg13 (by decide)).trans <| (W10_of_ne m ρ c main_arg13 (by decide)).trans <| (after4_of (W8 m ρ c) main_arg13 (by decide)).trans <| (W8_of_ne m ρ c main_arg13 (by decide)).trans <| (after3_of (W6 m ρ c) main_arg13 (by decide)).trans <| (W6_of_ne m ρ c main_arg13 (by decide)).trans <| (after2_of (W4 m ρ c) main_arg13 (by decide)).trans <| (W4_of_ne m ρ c main_arg13 (by decide)).trans <| (after1_of (W2 m ρ c) main_arg13 (by decide)).trans <| (W2_of_ne m ρ c main_arg13 (by decide)).trans <| (after0_of (W0 m ρ c) main_arg13 (by decide)).trans <| rfl
theorem at18_k190 : W18 m ρ c (Proc.devRef .tc main_v190) = k190 m c := by
  refine (W18_arr m ρ c (⟨3, by decide⟩ : Fin cfg8.W)).trans ?_
  refine (Cert.KernelIdeal.Arr.arr8 (V17 m ρ) c).trans ?_
  show Cert.KernelIdeal.Arr.G8 (StableHlo.after (hostOps8 (F := Ideal)) (W16 m ρ c) (Proc.devRef .tc main_v179)) (StableHlo.after (hostOps8 (F := Ideal)) (W16 m ρ c) (Proc.devRef .tc main_v186)) (StableHlo.after (hostOps8 (F := Ideal)) (W16 m ρ c) (Proc.devRef .tc main_v189)) = _
  rw [h8_v179 (W16 m ρ c), h8_v186 (W16 m ρ c), h8_v189 (W16 m ρ c)]
  rw [rd16_k170 m ρ c, rd16_k8 m ρ c, rd16_k6 m ρ c, rd16_ka13 m ρ c]
  rfl

/-- `main_v232`: what region 9 leaves in its output array. -/
def k232 := Cert.KernelIdeal.Arr.G9 (updIn (k158 m c) (segMeanEdge (k8 m c) (k190 m c)) (clusterCtx (ka6 m c) (k158 m c) (k10 m c))) (truncf (F := Ideal) .bf16 (updWeight ![2, 0, 0] slices_S3x384x128_S1x384x128_2_0_0 (ka14 m c)) bitsLt_bf16_f32) (biasRow ![2, 0] slices_S3x128_S1x128_2_0 (ka15 m c)) (k158 m c)
theorem rd18_k158 : W18 m ρ c (Proc.devRef .tc main_v158) = k158 m c :=
  (W18_of_ne m ρ c main_v158 (by decide)).trans <| (after8_of (W16 m ρ c) main_v158 (by decide)).trans <| (W16_of_ne m ρ c main_v158 (by decide)).trans <| (after7_of (W14 m ρ c) main_v158 (by decide)).trans <| at14_k158 m ρ c
theorem rd18_k8 : W18 m ρ c (Proc.devRef .tc main_v8) = k8 m c :=
  (W18_of_ne m ρ c main_v8 (by decide)).trans <| (after8_of (W16 m ρ c) main_v8 (by decide)).trans <| (W16_of_ne m ρ c main_v8 (by decide)).trans <| (after7_of (W14 m ρ c) main_v8 (by decide)).trans <| (W14_of_ne m ρ c main_v8 (by decide)).trans <| (after6_of (W12 m ρ c) main_v8 (by decide)).trans <| (W12_of_ne m ρ c main_v8 (by decide)).trans <| (after5_of (W10 m ρ c) main_v8 (by decide)).trans <| (W10_of_ne m ρ c main_v8 (by decide)).trans <| (after4_of (W8 m ρ c) main_v8 (by decide)).trans <| (W8_of_ne m ρ c main_v8 (by decide)).trans <| (after3_of (W6 m ρ c) main_v8 (by decide)).trans <| (W6_of_ne m ρ c main_v8 (by decide)).trans <| (after2_of (W4 m ρ c) main_v8 (by decide)).trans <| (W4_of_ne m ρ c main_v8 (by decide)).trans <| at3_k8 m ρ c
theorem rd18_k190 : W18 m ρ c (Proc.devRef .tc main_v190) = k190 m c :=
  at18_k190 m ρ c
theorem rd18_ka6 : W18 m ρ c (Proc.devRef .tc main_arg6) = ka6 m c :=
  (W18_of_ne m ρ c main_arg6 (by decide)).trans <| (after8_of (W16 m ρ c) main_arg6 (by decide)).trans <| (W16_of_ne m ρ c main_arg6 (by decide)).trans <| (after7_of (W14 m ρ c) main_arg6 (by decide)).trans <| (W14_of_ne m ρ c main_arg6 (by decide)).trans <| (after6_of (W12 m ρ c) main_arg6 (by decide)).trans <| (W12_of_ne m ρ c main_arg6 (by decide)).trans <| (after5_of (W10 m ρ c) main_arg6 (by decide)).trans <| (W10_of_ne m ρ c main_arg6 (by decide)).trans <| (after4_of (W8 m ρ c) main_arg6 (by decide)).trans <| (W8_of_ne m ρ c main_arg6 (by decide)).trans <| (after3_of (W6 m ρ c) main_arg6 (by decide)).trans <| (W6_of_ne m ρ c main_arg6 (by decide)).trans <| (after2_of (W4 m ρ c) main_arg6 (by decide)).trans <| (W4_of_ne m ρ c main_arg6 (by decide)).trans <| (after1_of (W2 m ρ c) main_arg6 (by decide)).trans <| (W2_of_ne m ρ c main_arg6 (by decide)).trans <| (after0_of (W0 m ρ c) main_arg6 (by decide)).trans <| rfl
theorem rd18_k10 : W18 m ρ c (Proc.devRef .tc main_v10) = k10 m c :=
  (W18_of_ne m ρ c main_v10 (by decide)).trans <| (after8_of (W16 m ρ c) main_v10 (by decide)).trans <| (W16_of_ne m ρ c main_v10 (by decide)).trans <| (after7_of (W14 m ρ c) main_v10 (by decide)).trans <| (W14_of_ne m ρ c main_v10 (by decide)).trans <| (after6_of (W12 m ρ c) main_v10 (by decide)).trans <| (W12_of_ne m ρ c main_v10 (by decide)).trans <| (after5_of (W10 m ρ c) main_v10 (by decide)).trans <| (W10_of_ne m ρ c main_v10 (by decide)).trans <| (after4_of (W8 m ρ c) main_v10 (by decide)).trans <| (W8_of_ne m ρ c main_v10 (by decide)).trans <| (after3_of (W6 m ρ c) main_v10 (by decide)).trans <| (W6_of_ne m ρ c main_v10 (by decide)).trans <| (after2_of (W4 m ρ c) main_v10 (by decide)).trans <| (W4_of_ne m ρ c main_v10 (by decide)).trans <| at3_k10 m ρ c
theorem rd18_ka14 : W18 m ρ c (Proc.devRef .tc main_arg14) = ka14 m c :=
  (W18_of_ne m ρ c main_arg14 (by decide)).trans <| (after8_of (W16 m ρ c) main_arg14 (by decide)).trans <| (W16_of_ne m ρ c main_arg14 (by decide)).trans <| (after7_of (W14 m ρ c) main_arg14 (by decide)).trans <| (W14_of_ne m ρ c main_arg14 (by decide)).trans <| (after6_of (W12 m ρ c) main_arg14 (by decide)).trans <| (W12_of_ne m ρ c main_arg14 (by decide)).trans <| (after5_of (W10 m ρ c) main_arg14 (by decide)).trans <| (W10_of_ne m ρ c main_arg14 (by decide)).trans <| (after4_of (W8 m ρ c) main_arg14 (by decide)).trans <| (W8_of_ne m ρ c main_arg14 (by decide)).trans <| (after3_of (W6 m ρ c) main_arg14 (by decide)).trans <| (W6_of_ne m ρ c main_arg14 (by decide)).trans <| (after2_of (W4 m ρ c) main_arg14 (by decide)).trans <| (W4_of_ne m ρ c main_arg14 (by decide)).trans <| (after1_of (W2 m ρ c) main_arg14 (by decide)).trans <| (W2_of_ne m ρ c main_arg14 (by decide)).trans <| (after0_of (W0 m ρ c) main_arg14 (by decide)).trans <| rfl
theorem rd18_ka15 : W18 m ρ c (Proc.devRef .tc main_arg15) = ka15 m c :=
  (W18_of_ne m ρ c main_arg15 (by decide)).trans <| (after8_of (W16 m ρ c) main_arg15 (by decide)).trans <| (W16_of_ne m ρ c main_arg15 (by decide)).trans <| (after7_of (W14 m ρ c) main_arg15 (by decide)).trans <| (W14_of_ne m ρ c main_arg15 (by decide)).trans <| (after6_of (W12 m ρ c) main_arg15 (by decide)).trans <| (W12_of_ne m ρ c main_arg15 (by decide)).trans <| (after5_of (W10 m ρ c) main_arg15 (by decide)).trans <| (W10_of_ne m ρ c main_arg15 (by decide)).trans <| (after4_of (W8 m ρ c) main_arg15 (by decide)).trans <| (W8_of_ne m ρ c main_arg15 (by decide)).trans <| (after3_of (W6 m ρ c) main_arg15 (by decide)).trans <| (W6_of_ne m ρ c main_arg15 (by decide)).trans <| (after2_of (W4 m ρ c) main_arg15 (by decide)).trans <| (W4_of_ne m ρ c main_arg15 (by decide)).trans <| (after1_of (W2 m ρ c) main_arg15 (by decide)).trans <| (W2_of_ne m ρ c main_arg15 (by decide)).trans <| (after0_of (W0 m ρ c) main_arg15 (by decide)).trans <| rfl
theorem rd19_k158 : W19 m ρ c (Proc.devRef .tc main_v158) = k158 m c :=
  (after9_of (W18 m ρ c) main_v158 (by decide)).trans <| (W18_of_ne m ρ c main_v158 (by decide)).trans <| (after8_of (W16 m ρ c) main_v158 (by decide)).trans <| (W16_of_ne m ρ c main_v158 (by decide)).trans <| (after7_of (W14 m ρ c) main_v158 (by decide)).trans <| at14_k158 m ρ c
theorem at20_k232 : W20 m ρ c (Proc.devRef .tc main_v232) = k232 m c := by
  refine (W20_arr m ρ c (⟨4, by decide⟩ : Fin cfg9.W)).trans ?_
  refine (Cert.KernelIdeal.Arr.arr9 (V19 m ρ) c).trans ?_
  show Cert.KernelIdeal.Arr.G9 (StableHlo.after (hostOps9 (F := Ideal)) (W18 m ρ c) (Proc.devRef .tc main_v229)) (StableHlo.after (hostOps9 (F := Ideal)) (W18 m ρ c) (Proc.devRef .tc main_v230)) (StableHlo.after (hostOps9 (F := Ideal)) (W18 m ρ c) (Proc.devRef .tc main_v231)) (W19 m ρ c (Proc.devRef .tc main_v158)) = _
  rw [h9_v229 (W18 m ρ c), h9_v230 (W18 m ρ c), h9_v231 (W18 m ρ c)]
  rw [rd18_k158 m ρ c, rd18_k8 m ρ c, rd18_k190 m ρ c, rd18_ka6 m ρ c, rd18_k10 m ρ c, rd18_ka14 m ρ c, rd18_ka15 m ρ c, rd19_k158 m ρ c]
  rfl

/-- `main_v237`: what region 10 leaves in its output array. -/
def k237 := Cert.KernelIdeal.Arr.G10 (vencIn (ka3 m c) (ka4 m c)) (truncf (F := Ideal) .bf16 (ka16 m c : FVec Ideal S48x128 .f32) bitsLt_bf16_f32) (shapeCast S1x128 (ka17 m c : FVec Ideal S128 .f32) shapeCasts_S128_S1x128)
theorem rd20_ka3 : W20 m ρ c (Proc.devRef .tc main_arg3) = ka3 m c :=
  (W20_of_ne m ρ c main_arg3 (by decide)).trans <| (after9_of (W18 m ρ c) main_arg3 (by decide)).trans <| (W18_of_ne m ρ c main_arg3 (by decide)).trans <| (after8_of (W16 m ρ c) main_arg3 (by decide)).trans <| (W16_of_ne m ρ c main_arg3 (by decide)).trans <| (after7_of (W14 m ρ c) main_arg3 (by decide)).trans <| (W14_of_ne m ρ c main_arg3 (by decide)).trans <| (after6_of (W12 m ρ c) main_arg3 (by decide)).trans <| (W12_of_ne m ρ c main_arg3 (by decide)).trans <| (after5_of (W10 m ρ c) main_arg3 (by decide)).trans <| (W10_of_ne m ρ c main_arg3 (by decide)).trans <| (after4_of (W8 m ρ c) main_arg3 (by decide)).trans <| (W8_of_ne m ρ c main_arg3 (by decide)).trans <| (after3_of (W6 m ρ c) main_arg3 (by decide)).trans <| (W6_of_ne m ρ c main_arg3 (by decide)).trans <| (after2_of (W4 m ρ c) main_arg3 (by decide)).trans <| (W4_of_ne m ρ c main_arg3 (by decide)).trans <| (after1_of (W2 m ρ c) main_arg3 (by decide)).trans <| (W2_of_ne m ρ c main_arg3 (by decide)).trans <| (after0_of (W0 m ρ c) main_arg3 (by decide)).trans <| rfl
theorem rd20_ka4 : W20 m ρ c (Proc.devRef .tc main_arg4) = ka4 m c :=
  (W20_of_ne m ρ c main_arg4 (by decide)).trans <| (after9_of (W18 m ρ c) main_arg4 (by decide)).trans <| (W18_of_ne m ρ c main_arg4 (by decide)).trans <| (after8_of (W16 m ρ c) main_arg4 (by decide)).trans <| (W16_of_ne m ρ c main_arg4 (by decide)).trans <| (after7_of (W14 m ρ c) main_arg4 (by decide)).trans <| (W14_of_ne m ρ c main_arg4 (by decide)).trans <| (after6_of (W12 m ρ c) main_arg4 (by decide)).trans <| (W12_of_ne m ρ c main_arg4 (by decide)).trans <| (after5_of (W10 m ρ c) main_arg4 (by decide)).trans <| (W10_of_ne m ρ c main_arg4 (by decide)).trans <| (after4_of (W8 m ρ c) main_arg4 (by decide)).trans <| (W8_of_ne m ρ c main_arg4 (by decide)).trans <| (after3_of (W6 m ρ c) main_arg4 (by decide)).trans <| (W6_of_ne m ρ c main_arg4 (by decide)).trans <| (after2_of (W4 m ρ c) main_arg4 (by decide)).trans <| (W4_of_ne m ρ c main_arg4 (by decide)).trans <| (after1_of (W2 m ρ c) main_arg4 (by decide)).trans <| (W2_of_ne m ρ c main_arg4 (by decide)).trans <| (after0_of (W0 m ρ c) main_arg4 (by decide)).trans <| rfl
theorem rd20_ka16 : W20 m ρ c (Proc.devRef .tc main_arg16) = ka16 m c :=
  (W20_of_ne m ρ c main_arg16 (by decide)).trans <| (after9_of (W18 m ρ c) main_arg16 (by decide)).trans <| (W18_of_ne m ρ c main_arg16 (by decide)).trans <| (after8_of (W16 m ρ c) main_arg16 (by decide)).trans <| (W16_of_ne m ρ c main_arg16 (by decide)).trans <| (after7_of (W14 m ρ c) main_arg16 (by decide)).trans <| (W14_of_ne m ρ c main_arg16 (by decide)).trans <| (after6_of (W12 m ρ c) main_arg16 (by decide)).trans <| (W12_of_ne m ρ c main_arg16 (by decide)).trans <| (after5_of (W10 m ρ c) main_arg16 (by decide)).trans <| (W10_of_ne m ρ c main_arg16 (by decide)).trans <| (after4_of (W8 m ρ c) main_arg16 (by decide)).trans <| (W8_of_ne m ρ c main_arg16 (by decide)).trans <| (after3_of (W6 m ρ c) main_arg16 (by decide)).trans <| (W6_of_ne m ρ c main_arg16 (by decide)).trans <| (after2_of (W4 m ρ c) main_arg16 (by decide)).trans <| (W4_of_ne m ρ c main_arg16 (by decide)).trans <| (after1_of (W2 m ρ c) main_arg16 (by decide)).trans <| (W2_of_ne m ρ c main_arg16 (by decide)).trans <| (after0_of (W0 m ρ c) main_arg16 (by decide)).trans <| rfl
theorem rd20_ka17 : W20 m ρ c (Proc.devRef .tc main_arg17) = ka17 m c :=
  (W20_of_ne m ρ c main_arg17 (by decide)).trans <| (after9_of (W18 m ρ c) main_arg17 (by decide)).trans <| (W18_of_ne m ρ c main_arg17 (by decide)).trans <| (after8_of (W16 m ρ c) main_arg17 (by decide)).trans <| (W16_of_ne m ρ c main_arg17 (by decide)).trans <| (after7_of (W14 m ρ c) main_arg17 (by decide)).trans <| (W14_of_ne m ρ c main_arg17 (by decide)).trans <| (after6_of (W12 m ρ c) main_arg17 (by decide)).trans <| (W12_of_ne m ρ c main_arg17 (by decide)).trans <| (after5_of (W10 m ρ c) main_arg17 (by decide)).trans <| (W10_of_ne m ρ c main_arg17 (by decide)).trans <| (after4_of (W8 m ρ c) main_arg17 (by decide)).trans <| (W8_of_ne m ρ c main_arg17 (by decide)).trans <| (after3_of (W6 m ρ c) main_arg17 (by decide)).trans <| (W6_of_ne m ρ c main_arg17 (by decide)).trans <| (after2_of (W4 m ρ c) main_arg17 (by decide)).trans <| (W4_of_ne m ρ c main_arg17 (by decide)).trans <| (after1_of (W2 m ρ c) main_arg17 (by decide)).trans <| (W2_of_ne m ρ c main_arg17 (by decide)).trans <| (after0_of (W0 m ρ c) main_arg17 (by decide)).trans <| rfl
theorem at22_k237 : W22 m ρ c (Proc.devRef .tc main_v237) = k237 m c := by
  refine (W22_arr m ρ c (⟨3, by decide⟩ : Fin cfg10.W)).trans ?_
  refine (Cert.KernelIdeal.Arr.arr10 (V21 m ρ) c).trans ?_
  show Cert.KernelIdeal.Arr.G10 (StableHlo.after (hostOps10 (F := Ideal)) (W20 m ρ c) (Proc.devRef .tc main_v234)) (StableHlo.after (hostOps10 (F := Ideal)) (W20 m ρ c) (Proc.devRef .tc main_v235)) (StableHlo.after (hostOps10 (F := Ideal)) (W20 m ρ c) (Proc.devRef .tc main_v236)) = _
  rw [h10_v234 (W20 m ρ c), h10_v235 (W20 m ρ c), h10_v236 (W20 m ρ c)]
  rw [rd20_ka3 m ρ c, rd20_ka4 m ρ c, rd20_ka16 m ρ c, rd20_ka17 m ρ c]
  rfl

/-- `main_v239`, written by host stretch 11. -/
def k239 := extractStridedSlice S128x128 ![128, 0] (ka22 m c : FVec Ideal S256x128 .f32) slices_S256x128_S128x128_128_0
theorem rd22_ka22 : W22 m ρ c (Proc.devRef .tc main_arg22) = ka22 m c :=
  (W22_of_ne m ρ c main_arg22 (by decide)).trans <| (after10_of (W20 m ρ c) main_arg22 (by decide)).trans <| (W20_of_ne m ρ c main_arg22 (by decide)).trans <| (after9_of (W18 m ρ c) main_arg22 (by decide)).trans <| (W18_of_ne m ρ c main_arg22 (by decide)).trans <| (after8_of (W16 m ρ c) main_arg22 (by decide)).trans <| (W16_of_ne m ρ c main_arg22 (by decide)).trans <| (after7_of (W14 m ρ c) main_arg22 (by decide)).trans <| (W14_of_ne m ρ c main_arg22 (by decide)).trans <| (after6_of (W12 m ρ c) main_arg22 (by decide)).trans <| (W12_of_ne m ρ c main_arg22 (by decide)).trans <| (after5_of (W10 m ρ c) main_arg22 (by decide)).trans <| (W10_of_ne m ρ c main_arg22 (by decide)).trans <| (after4_of (W8 m ρ c) main_arg22 (by decide)).trans <| (W8_of_ne m ρ c main_arg22 (by decide)).trans <| (after3_of (W6 m ρ c) main_arg22 (by decide)).trans <| (W6_of_ne m ρ c main_arg22 (by decide)).trans <| (after2_of (W4 m ρ c) main_arg22 (by decide)).trans <| (W4_of_ne m ρ c main_arg22 (by decide)).trans <| (after1_of (W2 m ρ c) main_arg22 (by decide)).trans <| (W2_of_ne m ρ c main_arg22 (by decide)).trans <| (after0_of (W0 m ρ c) main_arg22 (by decide)).trans <| rfl
theorem at23_k239 : W23 m ρ c (Proc.devRef .tc main_v239) = k239 m c := by
  refine (h11_v239 (W22 m ρ c)).trans ?_
  rw [rd22_ka22 m ρ c]
  rfl

/-- `main_v244`: what region 11 leaves in its output array. -/
def k244 := Cert.KernelIdeal.Arr.G11 (truncf (F := Ideal) .bf16 (k232 m c : FVec Ideal S5000x128 .f32) bitsLt_bf16_f32) (truncf (F := Ideal) .bf16 (extractStridedSlice S128x128 ![0, 0] (ka22 m c : FVec Ideal S256x128 .f32) slices_S256x128_S128x128_0_0) bitsLt_bf16_f32) (zeroRow128)
theorem rd22_k232 : W22 m ρ c (Proc.devRef .tc main_v232) = k232 m c :=
  (W22_of_ne m ρ c main_v232 (by decide)).trans <| (after10_of (W20 m ρ c) main_v232 (by decide)).trans <| at20_k232 m ρ c
theorem at24_k244 : W24 m ρ c (Proc.devRef .tc main_v244) = k244 m c := by
  refine (W24_arr m ρ c (⟨3, by decide⟩ : Fin cfg11.W)).trans ?_
  refine (Cert.KernelIdeal.Arr.arr11 (V23 m ρ) c).trans ?_
  show Cert.KernelIdeal.Arr.G11 (StableHlo.after (hostOps11 (F := Ideal)) (W22 m ρ c) (Proc.devRef .tc main_v241)) (StableHlo.after (hostOps11 (F := Ideal)) (W22 m ρ c) (Proc.devRef .tc main_v242)) (StableHlo.after (hostOps11 (F := Ideal)) (W22 m ρ c) (Proc.devRef .tc main_v243)) = _
  rw [h11_v241 (W22 m ρ c), h11_v242 (W22 m ρ c), h11_v243 (W22 m ρ c)]
  rw [rd22_k232 m ρ c, rd22_ka22 m ρ c]
  rfl

/-- `main_v249`: what region 12 leaves in its output array. -/
def k249 := Cert.KernelIdeal.Arr.G12 (truncf (F := Ideal) .bf16 (k237 m c : FVec Ideal S100000x128 .f32) bitsLt_bf16_f32) (truncf (F := Ideal) .bf16 (k239 m c : FVec Ideal S128x128 .f32) bitsLt_bf16_f32) (zeroRow128)
theorem rd24_k237 : W24 m ρ c (Proc.devRef .tc main_v237) = k237 m c :=
  (W24_of_ne m ρ c main_v237 (by decide)).trans <| (after11_of (W22 m ρ c) main_v237 (by decide)).trans <| at22_k237 m ρ c
theorem rd24_k239 : W24 m ρ c (Proc.devRef .tc main_v239) = k239 m c :=
  (W24_of_ne m ρ c main_v239 (by decide)).trans <| at23_k239 m ρ c
theorem at26_k249 : W26 m ρ c (Proc.devRef .tc main_v249) = k249 m c := by
  refine (W26_arr m ρ c (⟨3, by decide⟩ : Fin cfg12.W)).trans ?_
  refine (Cert.KernelIdeal.Arr.arr12 (V25 m ρ) c).trans ?_
  show Cert.KernelIdeal.Arr.G12 (StableHlo.after (hostOps12 (F := Ideal)) (W24 m ρ c) (Proc.devRef .tc main_v246)) (StableHlo.after (hostOps12 (F := Ideal)) (W24 m ρ c) (Proc.devRef .tc main_v247)) (StableHlo.after (hostOps12 (F := Ideal)) (W24 m ρ c) (Proc.devRef .tc main_v248)) = _
  rw [h12_v246 (W24 m ρ c), h12_v247 (W24 m ρ c), h12_v248 (W24 m ρ c)]
  rw [rd24_k237 m ρ c, rd24_k239 m ρ c]
  rfl

/-- `main_v267`: what region 13 leaves in its output array. -/
def k267 := Cert.KernelIdeal.Arr.G13 (gatherCrossProg (k244 m c) (ka8 m c)) (gatherCrossVox (k249 m c) (ka9 m c)) (shapeCast S1x128 (ka23 m c : FVec Ideal S128 .f32) shapeCasts_S128_S1x128) (shapeCast S1x128 (ka24 m c : FVec Ideal S128x1 .f32) shapeCasts_S128x1_S1x128) (shapeCast S1x1 (ka25 m c : FVec Ideal S1 .f32) shapeCasts_S1_S1x1)
theorem rd26_k244 : W26 m ρ c (Proc.devRef .tc main_v244) = k244 m c :=
  (W26_of_ne m ρ c main_v244 (by decide)).trans <| (after12_of (W24 m ρ c) main_v244 (by decide)).trans <| at24_k244 m ρ c
theorem rd26_ka8 : W26 m ρ c (Proc.devRef .tc main_arg8) = ka8 m c :=
  (W26_of_ne m ρ c main_arg8 (by decide)).trans <| (after12_of (W24 m ρ c) main_arg8 (by decide)).trans <| (W24_of_ne m ρ c main_arg8 (by decide)).trans <| (after11_of (W22 m ρ c) main_arg8 (by decide)).trans <| (W22_of_ne m ρ c main_arg8 (by decide)).trans <| (after10_of (W20 m ρ c) main_arg8 (by decide)).trans <| (W20_of_ne m ρ c main_arg8 (by decide)).trans <| (after9_of (W18 m ρ c) main_arg8 (by decide)).trans <| (W18_of_ne m ρ c main_arg8 (by decide)).trans <| (after8_of (W16 m ρ c) main_arg8 (by decide)).trans <| (W16_of_ne m ρ c main_arg8 (by decide)).trans <| (after7_of (W14 m ρ c) main_arg8 (by decide)).trans <| (W14_of_ne m ρ c main_arg8 (by decide)).trans <| (after6_of (W12 m ρ c) main_arg8 (by decide)).trans <| (W12_of_ne m ρ c main_arg8 (by decide)).trans <| (after5_of (W10 m ρ c) main_arg8 (by decide)).trans <| (W10_of_ne m ρ c main_arg8 (by decide)).trans <| (after4_of (W8 m ρ c) main_arg8 (by decide)).trans <| (W8_of_ne m ρ c main_arg8 (by decide)).trans <| (after3_of (W6 m ρ c) main_arg8 (by decide)).trans <| (W6_of_ne m ρ c main_arg8 (by decide)).trans <| (after2_of (W4 m ρ c) main_arg8 (by decide)).trans <| (W4_of_ne m ρ c main_arg8 (by decide)).trans <| (after1_of (W2 m ρ c) main_arg8 (by decide)).trans <| (W2_of_ne m ρ c main_arg8 (by decide)).trans <| (after0_of (W0 m ρ c) main_arg8 (by decide)).trans <| rfl
theorem rd26_k249 : W26 m ρ c (Proc.devRef .tc main_v249) = k249 m c :=
  at26_k249 m ρ c
theorem rd26_ka9 : W26 m ρ c (Proc.devRef .tc main_arg9) = ka9 m c :=
  (W26_of_ne m ρ c main_arg9 (by decide)).trans <| (after12_of (W24 m ρ c) main_arg9 (by decide)).trans <| (W24_of_ne m ρ c main_arg9 (by decide)).trans <| (after11_of (W22 m ρ c) main_arg9 (by decide)).trans <| (W22_of_ne m ρ c main_arg9 (by decide)).trans <| (after10_of (W20 m ρ c) main_arg9 (by decide)).trans <| (W20_of_ne m ρ c main_arg9 (by decide)).trans <| (after9_of (W18 m ρ c) main_arg9 (by decide)).trans <| (W18_of_ne m ρ c main_arg9 (by decide)).trans <| (after8_of (W16 m ρ c) main_arg9 (by decide)).trans <| (W16_of_ne m ρ c main_arg9 (by decide)).trans <| (after7_of (W14 m ρ c) main_arg9 (by decide)).trans <| (W14_of_ne m ρ c main_arg9 (by decide)).trans <| (after6_of (W12 m ρ c) main_arg9 (by decide)).trans <| (W12_of_ne m ρ c main_arg9 (by decide)).trans <| (after5_of (W10 m ρ c) main_arg9 (by decide)).trans <| (W10_of_ne m ρ c main_arg9 (by decide)).trans <| (after4_of (W8 m ρ c) main_arg9 (by decide)).trans <| (W8_of_ne m ρ c main_arg9 (by decide)).trans <| (after3_of (W6 m ρ c) main_arg9 (by decide)).trans <| (W6_of_ne m ρ c main_arg9 (by decide)).trans <| (after2_of (W4 m ρ c) main_arg9 (by decide)).trans <| (W4_of_ne m ρ c main_arg9 (by decide)).trans <| (after1_of (W2 m ρ c) main_arg9 (by decide)).trans <| (W2_of_ne m ρ c main_arg9 (by decide)).trans <| (after0_of (W0 m ρ c) main_arg9 (by decide)).trans <| rfl
theorem rd26_ka23 : W26 m ρ c (Proc.devRef .tc main_arg23) = ka23 m c :=
  (W26_of_ne m ρ c main_arg23 (by decide)).trans <| (after12_of (W24 m ρ c) main_arg23 (by decide)).trans <| (W24_of_ne m ρ c main_arg23 (by decide)).trans <| (after11_of (W22 m ρ c) main_arg23 (by decide)).trans <| (W22_of_ne m ρ c main_arg23 (by decide)).trans <| (after10_of (W20 m ρ c) main_arg23 (by decide)).trans <| (W20_of_ne m ρ c main_arg23 (by decide)).trans <| (after9_of (W18 m ρ c) main_arg23 (by decide)).trans <| (W18_of_ne m ρ c main_arg23 (by decide)).trans <| (after8_of (W16 m ρ c) main_arg23 (by decide)).trans <| (W16_of_ne m ρ c main_arg23 (by decide)).trans <| (after7_of (W14 m ρ c) main_arg23 (by decide)).trans <| (W14_of_ne m ρ c main_arg23 (by decide)).trans <| (after6_of (W12 m ρ c) main_arg23 (by decide)).trans <| (W12_of_ne m ρ c main_arg23 (by decide)).trans <| (after5_of (W10 m ρ c) main_arg23 (by decide)).trans <| (W10_of_ne m ρ c main_arg23 (by decide)).trans <| (after4_of (W8 m ρ c) main_arg23 (by decide)).trans <| (W8_of_ne m ρ c main_arg23 (by decide)).trans <| (after3_of (W6 m ρ c) main_arg23 (by decide)).trans <| (W6_of_ne m ρ c main_arg23 (by decide)).trans <| (after2_of (W4 m ρ c) main_arg23 (by decide)).trans <| (W4_of_ne m ρ c main_arg23 (by decide)).trans <| (after1_of (W2 m ρ c) main_arg23 (by decide)).trans <| (W2_of_ne m ρ c main_arg23 (by decide)).trans <| (after0_of (W0 m ρ c) main_arg23 (by decide)).trans <| rfl
theorem rd26_ka24 : W26 m ρ c (Proc.devRef .tc main_arg24) = ka24 m c :=
  (W26_of_ne m ρ c main_arg24 (by decide)).trans <| (after12_of (W24 m ρ c) main_arg24 (by decide)).trans <| (W24_of_ne m ρ c main_arg24 (by decide)).trans <| (after11_of (W22 m ρ c) main_arg24 (by decide)).trans <| (W22_of_ne m ρ c main_arg24 (by decide)).trans <| (after10_of (W20 m ρ c) main_arg24 (by decide)).trans <| (W20_of_ne m ρ c main_arg24 (by decide)).trans <| (after9_of (W18 m ρ c) main_arg24 (by decide)).trans <| (W18_of_ne m ρ c main_arg24 (by decide)).trans <| (after8_of (W16 m ρ c) main_arg24 (by decide)).trans <| (W16_of_ne m ρ c main_arg24 (by decide)).trans <| (after7_of (W14 m ρ c) main_arg24 (by decide)).trans <| (W14_of_ne m ρ c main_arg24 (by decide)).trans <| (after6_of (W12 m ρ c) main_arg24 (by decide)).trans <| (W12_of_ne m ρ c main_arg24 (by decide)).trans <| (after5_of (W10 m ρ c) main_arg24 (by decide)).trans <| (W10_of_ne m ρ c main_arg24 (by decide)).trans <| (after4_of (W8 m ρ c) main_arg24 (by decide)).trans <| (W8_of_ne m ρ c main_arg24 (by decide)).trans <| (after3_of (W6 m ρ c) main_arg24 (by decide)).trans <| (W6_of_ne m ρ c main_arg24 (by decide)).trans <| (after2_of (W4 m ρ c) main_arg24 (by decide)).trans <| (W4_of_ne m ρ c main_arg24 (by decide)).trans <| (after1_of (W2 m ρ c) main_arg24 (by decide)).trans <| (W2_of_ne m ρ c main_arg24 (by decide)).trans <| (after0_of (W0 m ρ c) main_arg24 (by decide)).trans <| rfl
theorem rd26_ka25 : W26 m ρ c (Proc.devRef .tc main_arg25) = ka25 m c :=
  (W26_of_ne m ρ c main_arg25 (by decide)).trans <| (after12_of (W24 m ρ c) main_arg25 (by decide)).trans <| (W24_of_ne m ρ c main_arg25 (by decide)).trans <| (after11_of (W22 m ρ c) main_arg25 (by decide)).trans <| (W22_of_ne m ρ c main_arg25 (by decide)).trans <| (after10_of (W20 m ρ c) main_arg25 (by decide)).trans <| (W20_of_ne m ρ c main_arg25 (by decide)).trans <| (after9_of (W18 m ρ c) main_arg25 (by decide)).trans <| (W18_of_ne m ρ c main_arg25 (by decide)).trans <| (after8_of (W16 m ρ c) main_arg25 (by decide)).trans <| (W16_of_ne m ρ c main_arg25 (by decide)).trans <| (after7_of (W14 m ρ c) main_arg25 (by decide)).trans <| (W14_of_ne m ρ c main_arg25 (by decide)).trans <| (after6_of (W12 m ρ c) main_arg25 (by decide)).trans <| (W12_of_ne m ρ c main_arg25 (by decide)).trans <| (after5_of (W10 m ρ c) main_arg25 (by decide)).trans <| (W10_of_ne m ρ c main_arg25 (by decide)).trans <| (after4_of (W8 m ρ c) main_arg25 (by decide)).trans <| (W8_of_ne m ρ c main_arg25 (by decide)).trans <| (after3_of (W6 m ρ c) main_arg25 (by decide)).trans <| (W6_of_ne m ρ c main_arg25 (by decide)).trans <| (after2_of (W4 m ρ c) main_arg25 (by decide)).trans <| (W4_of_ne m ρ c main_arg25 (by decide)).trans <| (after1_of (W2 m ρ c) main_arg25 (by decide)).trans <| (W2_of_ne m ρ c main_arg25 (by decide)).trans <| (after0_of (W0 m ρ c) main_arg25 (by decide)).trans <| rfl
theorem at28_k267 : W28 m ρ c (Proc.devRef .tc main_v267) = k267 m c := by
  refine (W28_arr m ρ c (⟨5, by decide⟩ : Fin cfg13.W)).trans ?_
  refine (Cert.KernelIdeal.Arr.arr13 (V27 m ρ) c).trans ?_
  show Cert.KernelIdeal.Arr.G13 (StableHlo.after (hostOps13 (F := Ideal)) (W26 m ρ c) (Proc.devRef .tc main_v256)) (StableHlo.after (hostOps13 (F := Ideal)) (W26 m ρ c) (Proc.devRef .tc main_v263)) (StableHlo.after (hostOps13 (F := Ideal)) (W26 m ρ c) (Proc.devRef .tc main_v264)) (StableHlo.after (hostOps13 (F := Ideal)) (W26 m ρ c) (Proc.devRef .tc main_v265)) (StableHlo.after (hostOps13 (F := Ideal)) (W26 m ρ c) (Proc.devRef .tc main_v266)) = _
  rw [h13_v256 (W26 m ρ c), h13_v263 (W26 m ρ c), h13_v264 (W26 m ρ c), h13_v265 (W26 m ρ c), h13_v266 (W26 m ρ c)]
  rw [rd26_k244 m ρ c, rd26_ka8 m ρ c, rd26_k249 m ρ c, rd26_ka9 m ρ c, rd26_ka23 m ρ c, rd26_ka24 m ρ c, rd26_ka25 m ρ c]
  rfl

/-- `main_v278`, written by host stretch 14. -/
def k278 := softmaxCross (k267 m c)
theorem rd28_k267 : W28 m ρ c (Proc.devRef .tc main_v267) = k267 m c :=
  at28_k267 m ρ c
theorem at29_k278 : W29 m ρ c (Proc.devRef .tc main_v278) = k278 m c := by
  refine (h14_v278 (W28 m ρ c)).trans ?_
  rw [rd28_k267 m ρ c]
  rfl

/-- `main_v298`, written by host stretch 14. -/
def k298 := attnPool (softmaxCross (k267 m c)) (k232 m c) (ka8 m c) (ka9 m c) (k237 m c)
theorem rd28_k232 : W28 m ρ c (Proc.devRef .tc main_v232) = k232 m c :=
  (W28_of_ne m ρ c main_v232 (by decide)).trans <| (after13_of (W26 m ρ c) main_v232 (by decide)).trans <| (W26_of_ne m ρ c main_v232 (by decide)).trans <| (after12_of (W24 m ρ c) main_v232 (by decide)).trans <| (W24_of_ne m ρ c main_v232 (by decide)).trans <| (after11_of (W22 m ρ c) main_v232 (by decide)).trans <| (W22_of_ne m ρ c main_v232 (by decide)).trans <| (after10_of (W20 m ρ c) main_v232 (by decide)).trans <| at20_k232 m ρ c
theorem rd28_ka8 : W28 m ρ c (Proc.devRef .tc main_arg8) = ka8 m c :=
  (W28_of_ne m ρ c main_arg8 (by decide)).trans <| (after13_of (W26 m ρ c) main_arg8 (by decide)).trans <| (W26_of_ne m ρ c main_arg8 (by decide)).trans <| (after12_of (W24 m ρ c) main_arg8 (by decide)).trans <| (W24_of_ne m ρ c main_arg8 (by decide)).trans <| (after11_of (W22 m ρ c) main_arg8 (by decide)).trans <| (W22_of_ne m ρ c main_arg8 (by decide)).trans <| (after10_of (W20 m ρ c) main_arg8 (by decide)).trans <| (W20_of_ne m ρ c main_arg8 (by decide)).trans <| (after9_of (W18 m ρ c) main_arg8 (by decide)).trans <| (W18_of_ne m ρ c main_arg8 (by decide)).trans <| (after8_of (W16 m ρ c) main_arg8 (by decide)).trans <| (W16_of_ne m ρ c main_arg8 (by decide)).trans <| (after7_of (W14 m ρ c) main_arg8 (by decide)).trans <| (W14_of_ne m ρ c main_arg8 (by decide)).trans <| (after6_of (W12 m ρ c) main_arg8 (by decide)).trans <| (W12_of_ne m ρ c main_arg8 (by decide)).trans <| (after5_of (W10 m ρ c) main_arg8 (by decide)).trans <| (W10_of_ne m ρ c main_arg8 (by decide)).trans <| (after4_of (W8 m ρ c) main_arg8 (by decide)).trans <| (W8_of_ne m ρ c main_arg8 (by decide)).trans <| (after3_of (W6 m ρ c) main_arg8 (by decide)).trans <| (W6_of_ne m ρ c main_arg8 (by decide)).trans <| (after2_of (W4 m ρ c) main_arg8 (by decide)).trans <| (W4_of_ne m ρ c main_arg8 (by decide)).trans <| (after1_of (W2 m ρ c) main_arg8 (by decide)).trans <| (W2_of_ne m ρ c main_arg8 (by decide)).trans <| (after0_of (W0 m ρ c) main_arg8 (by decide)).trans <| rfl
theorem rd28_ka9 : W28 m ρ c (Proc.devRef .tc main_arg9) = ka9 m c :=
  (W28_of_ne m ρ c main_arg9 (by decide)).trans <| (after13_of (W26 m ρ c) main_arg9 (by decide)).trans <| (W26_of_ne m ρ c main_arg9 (by decide)).trans <| (after12_of (W24 m ρ c) main_arg9 (by decide)).trans <| (W24_of_ne m ρ c main_arg9 (by decide)).trans <| (after11_of (W22 m ρ c) main_arg9 (by decide)).trans <| (W22_of_ne m ρ c main_arg9 (by decide)).trans <| (after10_of (W20 m ρ c) main_arg9 (by decide)).trans <| (W20_of_ne m ρ c main_arg9 (by decide)).trans <| (after9_of (W18 m ρ c) main_arg9 (by decide)).trans <| (W18_of_ne m ρ c main_arg9 (by decide)).trans <| (after8_of (W16 m ρ c) main_arg9 (by decide)).trans <| (W16_of_ne m ρ c main_arg9 (by decide)).trans <| (after7_of (W14 m ρ c) main_arg9 (by decide)).trans <| (W14_of_ne m ρ c main_arg9 (by decide)).trans <| (after6_of (W12 m ρ c) main_arg9 (by decide)).trans <| (W12_of_ne m ρ c main_arg9 (by decide)).trans <| (after5_of (W10 m ρ c) main_arg9 (by decide)).trans <| (W10_of_ne m ρ c main_arg9 (by decide)).trans <| (after4_of (W8 m ρ c) main_arg9 (by decide)).trans <| (W8_of_ne m ρ c main_arg9 (by decide)).trans <| (after3_of (W6 m ρ c) main_arg9 (by decide)).trans <| (W6_of_ne m ρ c main_arg9 (by decide)).trans <| (after2_of (W4 m ρ c) main_arg9 (by decide)).trans <| (W4_of_ne m ρ c main_arg9 (by decide)).trans <| (after1_of (W2 m ρ c) main_arg9 (by decide)).trans <| (W2_of_ne m ρ c main_arg9 (by decide)).trans <| (after0_of (W0 m ρ c) main_arg9 (by decide)).trans <| rfl
theorem rd28_k237 : W28 m ρ c (Proc.devRef .tc main_v237) = k237 m c :=
  (W28_of_ne m ρ c main_v237 (by decide)).trans <| (after13_of (W26 m ρ c) main_v237 (by decide)).trans <| (W26_of_ne m ρ c main_v237 (by decide)).trans <| (after12_of (W24 m ρ c) main_v237 (by decide)).trans <| (W24_of_ne m ρ c main_v237 (by decide)).trans <| (after11_of (W22 m ρ c) main_v237 (by decide)).trans <| at22_k237 m ρ c
theorem at29_k298 : W29 m ρ c (Proc.devRef .tc main_v298) = k298 m c := by
  refine (h14_v298 (W28 m ρ c)).trans ?_
  rw [rd28_k267 m ρ c, rd28_k232 m ρ c, rd28_ka8 m ρ c, rd28_ka9 m ρ c, rd28_k237 m ρ c]
  rfl

/-- `main_v301`, written by host stretch 14. -/
def k301 := voxEdgeRow ![0, 0] slices_S2x600000_S1x600000_0_0 (ka7 m c)
theorem rd28_ka7 : W28 m ρ c (Proc.devRef .tc main_arg7) = ka7 m c :=
  (W28_of_ne m ρ c main_arg7 (by decide)).trans <| (after13_of (W26 m ρ c) main_arg7 (by decide)).trans <| (W26_of_ne m ρ c main_arg7 (by decide)).trans <| (after12_of (W24 m ρ c) main_arg7 (by decide)).trans <| (W24_of_ne m ρ c main_arg7 (by decide)).trans <| (after11_of (W22 m ρ c) main_arg7 (by decide)).trans <| (W22_of_ne m ρ c main_arg7 (by decide)).trans <| (after10_of (W20 m ρ c) main_arg7 (by decide)).trans <| (W20_of_ne m ρ c main_arg7 (by decide)).trans <| (after9_of (W18 m ρ c) main_arg7 (by decide)).trans <| (W18_of_ne m ρ c main_arg7 (by decide)).trans <| (after8_of (W16 m ρ c) main_arg7 (by decide)).trans <| (W16_of_ne m ρ c main_arg7 (by decide)).trans <| (after7_of (W14 m ρ c) main_arg7 (by decide)).trans <| (W14_of_ne m ρ c main_arg7 (by decide)).trans <| (after6_of (W12 m ρ c) main_arg7 (by decide)).trans <| (W12_of_ne m ρ c main_arg7 (by decide)).trans <| (after5_of (W10 m ρ c) main_arg7 (by decide)).trans <| (W10_of_ne m ρ c main_arg7 (by decide)).trans <| (after4_of (W8 m ρ c) main_arg7 (by decide)).trans <| (W8_of_ne m ρ c main_arg7 (by decide)).trans <| (after3_of (W6 m ρ c) main_arg7 (by decide)).trans <| (W6_of_ne m ρ c main_arg7 (by decide)).trans <| (after2_of (W4 m ρ c) main_arg7 (by decide)).trans <| (W4_of_ne m ρ c main_arg7 (by decide)).trans <| (after1_of (W2 m ρ c) main_arg7 (by decide)).trans <| (W2_of_ne m ρ c main_arg7 (by decide)).trans <| (after0_of (W0 m ρ c) main_arg7 (by decide)).trans <| rfl
theorem at29_k301 : W29 m ρ c (Proc.devRef .tc main_v301) = k301 m c := by
  refine (h14_v301 (W28 m ρ c)).trans ?_
  rw [rd28_ka7 m ρ c]
  rfl

/-- `main_v303`, written by host stretch 14. -/
def k303 := voxEdgeRow ![1, 0] slices_S2x600000_S1x600000_1_0 (ka7 m c)
theorem at29_k303 : W29 m ρ c (Proc.devRef .tc main_v303) = k303 m c := by
  refine (h14_v303 (W28 m ρ c)).trans ?_
  rw [rd28_ka7 m ρ c]
  rfl

/-- `main_v316`: what region 14 leaves in its output array. -/
def k316 := Cert.KernelIdeal.Arr.G14 (voxMsgIn (attnPool (softmaxCross (k267 m c)) (k232 m c) (ka8 m c) (ka9 m c) (k237 m c)) (ka3 m c)) (voxMsgWeightPair (ka18 m c)) (zeroRow256)
theorem rd28_ka3 : W28 m ρ c (Proc.devRef .tc main_arg3) = ka3 m c :=
  (W28_of_ne m ρ c main_arg3 (by decide)).trans <| (after13_of (W26 m ρ c) main_arg3 (by decide)).trans <| (W26_of_ne m ρ c main_arg3 (by decide)).trans <| (after12_of (W24 m ρ c) main_arg3 (by decide)).trans <| (W24_of_ne m ρ c main_arg3 (by decide)).trans <| (after11_of (W22 m ρ c) main_arg3 (by decide)).trans <| (W22_of_ne m ρ c main_arg3 (by decide)).trans <| (after10_of (W20 m ρ c) main_arg3 (by decide)).trans <| (W20_of_ne m ρ c main_arg3 (by decide)).trans <| (after9_of (W18 m ρ c) main_arg3 (by decide)).trans <| (W18_of_ne m ρ c main_arg3 (by decide)).trans <| (after8_of (W16 m ρ c) main_arg3 (by decide)).trans <| (W16_of_ne m ρ c main_arg3 (by decide)).trans <| (after7_of (W14 m ρ c) main_arg3 (by decide)).trans <| (W14_of_ne m ρ c main_arg3 (by decide)).trans <| (after6_of (W12 m ρ c) main_arg3 (by decide)).trans <| (W12_of_ne m ρ c main_arg3 (by decide)).trans <| (after5_of (W10 m ρ c) main_arg3 (by decide)).trans <| (W10_of_ne m ρ c main_arg3 (by decide)).trans <| (after4_of (W8 m ρ c) main_arg3 (by decide)).trans <| (W8_of_ne m ρ c main_arg3 (by decide)).trans <| (after3_of (W6 m ρ c) main_arg3 (by decide)).trans <| (W6_of_ne m ρ c main_arg3 (by decide)).trans <| (after2_of (W4 m ρ c) main_arg3 (by decide)).trans <| (W4_of_ne m ρ c main_arg3 (by decide)).trans <| (after1_of (W2 m ρ c) main_arg3 (by decide)).trans <| (W2_of_ne m ρ c main_arg3 (by decide)).trans <| (after0_of (W0 m ρ c) main_arg3 (by decide)).trans <| rfl
theorem rd28_ka18 : W28 m ρ c (Proc.devRef .tc main_arg18) = ka18 m c :=
  (W28_of_ne m ρ c main_arg18 (by decide)).trans <| (after13_of (W26 m ρ c) main_arg18 (by decide)).trans <| (W26_of_ne m ρ c main_arg18 (by decide)).trans <| (after12_of (W24 m ρ c) main_arg18 (by decide)).trans <| (W24_of_ne m ρ c main_arg18 (by decide)).trans <| (after11_of (W22 m ρ c) main_arg18 (by decide)).trans <| (W22_of_ne m ρ c main_arg18 (by decide)).trans <| (after10_of (W20 m ρ c) main_arg18 (by decide)).trans <| (W20_of_ne m ρ c main_arg18 (by decide)).trans <| (after9_of (W18 m ρ c) main_arg18 (by decide)).trans <| (W18_of_ne m ρ c main_arg18 (by decide)).trans <| (after8_of (W16 m ρ c) main_arg18 (by decide)).trans <| (W16_of_ne m ρ c main_arg18 (by decide)).trans <| (after7_of (W14 m ρ c) main_arg18 (by decide)).trans <| (W14_of_ne m ρ c main_arg18 (by decide)).trans <| (after6_of (W12 m ρ c) main_arg18 (by decide)).trans <| (W12_of_ne m ρ c main_arg18 (by decide)).trans <| (after5_of (W10 m ρ c) main_arg18 (by decide)).trans <| (W10_of_ne m ρ c main_arg18 (by decide)).trans <| (after4_of (W8 m ρ c) main_arg18 (by decide)).trans <| (W8_of_ne m ρ c main_arg18 (by decide)).trans <| (after3_of (W6 m ρ c) main_arg18 (by decide)).trans <| (W6_of_ne m ρ c main_arg18 (by decide)).trans <| (after2_of (W4 m ρ c) main_arg18 (by decide)).trans <| (W4_of_ne m ρ c main_arg18 (by decide)).trans <| (after1_of (W2 m ρ c) main_arg18 (by decide)).trans <| (W2_of_ne m ρ c main_arg18 (by decide)).trans <| (after0_of (W0 m ρ c) main_arg18 (by decide)).trans <| rfl
theorem at30_k316 : W30 m ρ c (Proc.devRef .tc main_v316) = k316 m c := by
  refine (W30_arr m ρ c (⟨3, by decide⟩ : Fin cfg14.W)).trans ?_
  refine (Cert.KernelIdeal.Arr.arr14 (V29 m ρ) c).trans ?_
  show Cert.KernelIdeal.Arr.G14 (StableHlo.after (hostOps14 (F := Ideal)) (W28 m ρ c) (Proc.devRef .tc main_v313)) (StableHlo.after (hostOps14 (F := Ideal)) (W28 m ρ c) (Proc.devRef .tc main_v314)) (StableHlo.after (hostOps14 (F := Ideal)) (W28 m ρ c) (Proc.devRef .tc main_v315)) = _
  rw [h14_v313 (W28 m ρ c), h14_v314 (W28 m ρ c), h14_v315 (W28 m ρ c)]
  rw [rd28_k267 m ρ c, rd28_k232 m ρ c, rd28_ka8 m ρ c, rd28_ka9 m ρ c, rd28_k237 m ρ c, rd28_ka3 m ρ c, rd28_ka18 m ρ c]
  rfl

/-- `main_v334`: what region 15 leaves in its output array. -/
def k334 := Cert.KernelIdeal.Arr.G15 (gatherVox (voxHalf0 (k316 m c)) (k303 m c)) (gatherVox (voxHalf1 (k316 m c)) (k301 m c)) (shapeCast S1x128 (ka19 m c : FVec Ideal S128 .f32) shapeCasts_S128_S1x128)
theorem rd30_k316 : W30 m ρ c (Proc.devRef .tc main_v316) = k316 m c :=
  at30_k316 m ρ c
theorem rd30_k303 : W30 m ρ c (Proc.devRef .tc main_v303) = k303 m c :=
  (W30_of_ne m ρ c main_v303 (by decide)).trans <| at29_k303 m ρ c
theorem rd30_k301 : W30 m ρ c (Proc.devRef .tc main_v301) = k301 m c :=
  (W30_of_ne m ρ c main_v301 (by decide)).trans <| at29_k301 m ρ c
theorem rd30_ka19 : W30 m ρ c (Proc.devRef .tc main_arg19) = ka19 m c :=
  (W30_of_ne m ρ c main_arg19 (by decide)).trans <| (after14_of (W28 m ρ c) main_arg19 (by decide)).trans <| (W28_of_ne m ρ c main_arg19 (by decide)).trans <| (after13_of (W26 m ρ c) main_arg19 (by decide)).trans <| (W26_of_ne m ρ c main_arg19 (by decide)).trans <| (after12_of (W24 m ρ c) main_arg19 (by decide)).trans <| (W24_of_ne m ρ c main_arg19 (by decide)).trans <| (after11_of (W22 m ρ c) main_arg19 (by decide)).trans <| (W22_of_ne m ρ c main_arg19 (by decide)).trans <| (after10_of (W20 m ρ c) main_arg19 (by decide)).trans <| (W20_of_ne m ρ c main_arg19 (by decide)).trans <| (after9_of (W18 m ρ c) main_arg19 (by decide)).trans <| (W18_of_ne m ρ c main_arg19 (by decide)).trans <| (after8_of (W16 m ρ c) main_arg19 (by decide)).trans <| (W16_of_ne m ρ c main_arg19 (by decide)).trans <| (after7_of (W14 m ρ c) main_arg19 (by decide)).trans <| (W14_of_ne m ρ c main_arg19 (by decide)).trans <| (after6_of (W12 m ρ c) main_arg19 (by decide)).trans <| (W12_of_ne m ρ c main_arg19 (by decide)).trans <| (after5_of (W10 m ρ c) main_arg19 (by decide)).trans <| (W10_of_ne m ρ c main_arg19 (by decide)).trans <| (after4_of (W8 m ρ c) main_arg19 (by decide)).trans <| (W8_of_ne m ρ c main_arg19 (by decide)).trans <| (after3_of (W6 m ρ c) main_arg19 (by decide)).trans <| (W6_of_ne m ρ c main_arg19 (by decide)).trans <| (after2_of (W4 m ρ c) main_arg19 (by decide)).trans <| (W4_of_ne m ρ c main_arg19 (by decide)).trans <| (after1_of (W2 m ρ c) main_arg19 (by decide)).trans <| (W2_of_ne m ρ c main_arg19 (by decide)).trans <| (after0_of (W0 m ρ c) main_arg19 (by decide)).trans <| rfl
theorem at32_k334 : W32 m ρ c (Proc.devRef .tc main_v334) = k334 m c := by
  refine (W32_arr m ρ c (⟨3, by decide⟩ : Fin cfg15.W)).trans ?_
  refine (Cert.KernelIdeal.Arr.arr15 (V31 m ρ) c).trans ?_
  show Cert.KernelIdeal.Arr.G15 (StableHlo.after (hostOps15 (F := Ideal)) (W30 m ρ c) (Proc.devRef .tc main_v325)) (StableHlo.after (hostOps15 (F := Ideal)) (W30 m ρ c) (Proc.devRef .tc main_v332)) (StableHlo.after (hostOps15 (F := Ideal)) (W30 m ρ c) (Proc.devRef .tc main_v333)) = _
  rw [h15_v325 (W30 m ρ c), h15_v332 (W30 m ρ c), h15_v333 (W30 m ρ c)]
  rw [rd30_k316 m ρ c, rd30_k303 m ρ c, rd30_k301 m ρ c, rd30_ka19 m ρ c]
  rfl

/-- `main_v351`: what region 16 leaves in its output array. -/
def k351 := Cert.KernelIdeal.Arr.G16 (voxUpdIn (k298 m c) (segMeanVox (k303 m c) (k334 m c))) (truncf (F := Ideal) .bf16 (ka20 m c : FVec Ideal S256x128 .f32) bitsLt_bf16_f32) (shapeCast S1x128 (ka21 m c : FVec Ideal S128 .f32) shapeCasts_S128_S1x128) (k298 m c)
theorem rd32_k298 : W32 m ρ c (Proc.devRef .tc main_v298) = k298 m c :=
  (W32_of_ne m ρ c main_v298 (by decide)).trans <| (after15_of (W30 m ρ c) main_v298 (by decide)).trans <| (W30_of_ne m ρ c main_v298 (by decide)).trans <| at29_k298 m ρ c
theorem rd32_k303 : W32 m ρ c (Proc.devRef .tc main_v303) = k303 m c :=
  (W32_of_ne m ρ c main_v303 (by decide)).trans <| (after15_of (W30 m ρ c) main_v303 (by decide)).trans <| (W30_of_ne m ρ c main_v303 (by decide)).trans <| at29_k303 m ρ c
theorem rd32_k334 : W32 m ρ c (Proc.devRef .tc main_v334) = k334 m c :=
  at32_k334 m ρ c
theorem rd32_ka20 : W32 m ρ c (Proc.devRef .tc main_arg20) = ka20 m c :=
  (W32_of_ne m ρ c main_arg20 (by decide)).trans <| (after15_of (W30 m ρ c) main_arg20 (by decide)).trans <| (W30_of_ne m ρ c main_arg20 (by decide)).trans <| (after14_of (W28 m ρ c) main_arg20 (by decide)).trans <| (W28_of_ne m ρ c main_arg20 (by decide)).trans <| (after13_of (W26 m ρ c) main_arg20 (by decide)).trans <| (W26_of_ne m ρ c main_arg20 (by decide)).trans <| (after12_of (W24 m ρ c) main_arg20 (by decide)).trans <| (W24_of_ne m ρ c main_arg20 (by decide)).trans <| (after11_of (W22 m ρ c) main_arg20 (by decide)).trans <| (W22_of_ne m ρ c main_arg20 (by decide)).trans <| (after10_of (W20 m ρ c) main_arg20 (by decide)).trans <| (W20_of_ne m ρ c main_arg20 (by decide)).trans <| (after9_of (W18 m ρ c) main_arg20 (by decide)).trans <| (W18_of_ne m ρ c main_arg20 (by decide)).trans <| (after8_of (W16 m ρ c) main_arg20 (by decide)).trans <| (W16_of_ne m ρ c main_arg20 (by decide)).trans <| (after7_of (W14 m ρ c) main_arg20 (by decide)).trans <| (W14_of_ne m ρ c main_arg20 (by decide)).trans <| (after6_of (W12 m ρ c) main_arg20 (by decide)).trans <| (W12_of_ne m ρ c main_arg20 (by decide)).trans <| (after5_of (W10 m ρ c) main_arg20 (by decide)).trans <| (W10_of_ne m ρ c main_arg20 (by decide)).trans <| (after4_of (W8 m ρ c) main_arg20 (by decide)).trans <| (W8_of_ne m ρ c main_arg20 (by decide)).trans <| (after3_of (W6 m ρ c) main_arg20 (by decide)).trans <| (W6_of_ne m ρ c main_arg20 (by decide)).trans <| (after2_of (W4 m ρ c) main_arg20 (by decide)).trans <| (W4_of_ne m ρ c main_arg20 (by decide)).trans <| (after1_of (W2 m ρ c) main_arg20 (by decide)).trans <| (W2_of_ne m ρ c main_arg20 (by decide)).trans <| (after0_of (W0 m ρ c) main_arg20 (by decide)).trans <| rfl
theorem rd32_ka21 : W32 m ρ c (Proc.devRef .tc main_arg21) = ka21 m c :=
  (W32_of_ne m ρ c main_arg21 (by decide)).trans <| (after15_of (W30 m ρ c) main_arg21 (by decide)).trans <| (W30_of_ne m ρ c main_arg21 (by decide)).trans <| (after14_of (W28 m ρ c) main_arg21 (by decide)).trans <| (W28_of_ne m ρ c main_arg21 (by decide)).trans <| (after13_of (W26 m ρ c) main_arg21 (by decide)).trans <| (W26_of_ne m ρ c main_arg21 (by decide)).trans <| (after12_of (W24 m ρ c) main_arg21 (by decide)).trans <| (W24_of_ne m ρ c main_arg21 (by decide)).trans <| (after11_of (W22 m ρ c) main_arg21 (by decide)).trans <| (W22_of_ne m ρ c main_arg21 (by decide)).trans <| (after10_of (W20 m ρ c) main_arg21 (by decide)).trans <| (W20_of_ne m ρ c main_arg21 (by decide)).trans <| (after9_of (W18 m ρ c) main_arg21 (by decide)).trans <| (W18_of_ne m ρ c main_arg21 (by decide)).trans <| (after8_of (W16 m ρ c) main_arg21 (by decide)).trans <| (W16_of_ne m ρ c main_arg21 (by decide)).trans <| (after7_of (W14 m ρ c) main_arg21 (by decide)).trans <| (W14_of_ne m ρ c main_arg21 (by decide)).trans <| (after6_of (W12 m ρ c) main_arg21 (by decide)).trans <| (W12_of_ne m ρ c main_arg21 (by decide)).trans <| (after5_of (W10 m ρ c) main_arg21 (by decide)).trans <| (W10_of_ne m ρ c main_arg21 (by decide)).trans <| (after4_of (W8 m ρ c) main_arg21 (by decide)).trans <| (W8_of_ne m ρ c main_arg21 (by decide)).trans <| (after3_of (W6 m ρ c) main_arg21 (by decide)).trans <| (W6_of_ne m ρ c main_arg21 (by decide)).trans <| (after2_of (W4 m ρ c) main_arg21 (by decide)).trans <| (W4_of_ne m ρ c main_arg21 (by decide)).trans <| (after1_of (W2 m ρ c) main_arg21 (by decide)).trans <| (W2_of_ne m ρ c main_arg21 (by decide)).trans <| (after0_of (W0 m ρ c) main_arg21 (by decide)).trans <| rfl
theorem rd33_k298 : W33 m ρ c (Proc.devRef .tc main_v298) = k298 m c :=
  (after16_of (W32 m ρ c) main_v298 (by decide)).trans <| (W32_of_ne m ρ c main_v298 (by decide)).trans <| (after15_of (W30 m ρ c) main_v298 (by decide)).trans <| (W30_of_ne m ρ c main_v298 (by decide)).trans <| at29_k298 m ρ c
theorem at34_k351 : W34 m ρ c (Proc.devRef .tc main_v351) = k351 m c := by
  refine (W34_arr m ρ c (⟨4, by decide⟩ : Fin cfg16.W)).trans ?_
  refine (Cert.KernelIdeal.Arr.arr16 (V33 m ρ) c).trans ?_
  show Cert.KernelIdeal.Arr.G16 (StableHlo.after (hostOps16 (F := Ideal)) (W32 m ρ c) (Proc.devRef .tc main_v348)) (StableHlo.after (hostOps16 (F := Ideal)) (W32 m ρ c) (Proc.devRef .tc main_v349)) (StableHlo.after (hostOps16 (F := Ideal)) (W32 m ρ c) (Proc.devRef .tc main_v350)) (W33 m ρ c (Proc.devRef .tc main_v298)) = _
  rw [h16_v348 (W32 m ρ c), h16_v349 (W32 m ρ c), h16_v350 (W32 m ρ c)]
  rw [rd32_k298 m ρ c, rd32_k303 m ρ c, rd32_k334 m ρ c, rd32_ka20 m ρ c, rd32_ka21 m ρ c, rd33_k298 m ρ c]
  rfl
theorem rd34_k351 : W34 m ρ c (Proc.devRef .tc main_v351) = k351 m c :=
  at34_k351 m ρ c
theorem rd34_k278 : W34 m ρ c (Proc.devRef .tc main_v278) = k278 m c :=
  (W34_of_ne m ρ c main_v278 (by decide)).trans <| (after16_of (W32 m ρ c) main_v278 (by decide)).trans <| (W32_of_ne m ρ c main_v278 (by decide)).trans <| (after15_of (W30 m ρ c) main_v278 (by decide)).trans <| (W30_of_ne m ρ c main_v278 (by decide)).trans <| at29_k278 m ρ c

/-- The run of the idealized kernel program with its two results named as functions of the arguments. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v351) = k351 m c
      ∧ r.2.mem ((c.tc : Thread nD τ).loc main_v278) = k278 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c).1.trans (rd34_k351 m ρ c), (h c).2.1.trans (rd34_k278 m ρ c), (h c).2.2⟩) (run_results m ρ)

end Cert.KernelIdeal.KVal

end
-- ==== Proof.LibDotNN.lean ====
/-
  A host matrix product read at an entry, over the extended reals.

  For an M×K array `a` and a K×N array `w`, the host's general dot product contracting `a`'s second axis with
  `w`'s first and batching nothing has at entry (p, n) the value  Σ_{k < K} a[p, k] · w[k, n]:  a finite sum of
  products of extended reals, whatever precision or schedule the operation names.
-/
import Idealize.ShloMosaic.PureOps.Ideal.Laws
import Idealize.ShloMosaic.Lib.ValueIdx

noncomputable section

namespace Cert.LibDotNN

open Idealize.ShloMosaic Idealize.ShloMosaic.ValueIdx

/-- At the ideal values, a host `dot_general` of an M×K by a K×N array whose dimension numbers are the plain ones
    (contract the left operand's axis 1 with the right operand's axis 0, no batch axis), read at entry `(p, n)`,
    is the sum over `k` of `a[p, k] * w[k, n]`.  The dimension record is any one equal to `DotDims.plain M K N`
    (a printed program's own record is, by `rfl`). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    Host.dotGeneral D prec a w (ix2 p n) = ∑ k : Fin K, a (ix2 p k) * w (ix2 k n) := by
  subst hD
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

end Cert.LibDotNN

end
-- ==== Proof.LibRowBroadcast.lean ====
/- Row and scalar broadcasts read at an index: a vector `[b]` as a one-row array `[1, b]`, a one-row array repeated down
   `a` rows, and a scalar splat to any shape. Each is the operand at the index with the new or size-one axes dropped. -/
import Idealize.ShloMosaic.Lib.Pipeline.Value
import Idealize.ShloMosaic.Lib.ValueIdx

noncomputable section

namespace Cert.LibRowBroadcast

open Idealize.ShloMosaic Idealize.ShloMosaic.ValueIdx

variable {α : Type}

/-- A vector laid as the one row of a `[1, b]` array, read at `(u, q)`: the vector at `q`. -/
theorem broadcastInDim_b_1b_apply {b : ℕ} (dims : Fin 1 → Fin 2) (hdims : dims 0 = 1)
    (h : (⟨1, ![b]⟩ : Shape).BroadcastsInDim ⟨2, ![1, b]⟩ dims) (x : (⟨1, ![b]⟩ : Shape).Idx → α) (u : Fin 1) (q : Fin b) :
    broadcastInDim ⟨2, ![1, b]⟩ dims h x (ix2 u q) = x (ix1 q) := by
  refine broadcastInDim_apply dims h x (ix2 u q) (ix1 q) fun ax => ?_
  match ax with
  | ⟨0, _⟩ =>
    show q.val = if b = 1 then 0 else ((ix2 u q : (⟨2, ![1, b]⟩ : Shape).Idx) (dims 0)).val
    rw [hdims]
    split
    · have := q.isLt; omega
    · rfl

/-- A one-row array repeated down `a` rows, read at `(p, q)`: the row at `q`. -/
theorem broadcastInDim_1b_ab_apply {a b : ℕ} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ =>
    show 0 = if (1 : ℕ) = 1 then 0 else ((ix2 p q : (⟨2, ![a, b]⟩ : Shape).Idx) (dims 0)).val
    rw [if_pos rfl]
  | ⟨1, _⟩ =>
    show q.val = if b = 1 then 0 else ((ix2 p q : (⟨2, ![a, b]⟩ : Shape).Idx) (dims 1)).val
    rw [hd1]
    split
    · have := q.isLt; omega
    · rfl

/-- A scalar splat to any shape, read anywhere: the scalar. -/
theorem broadcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibRowBroadcast

end
-- ==== Proof.BridgeDense.lean ====
/-
  A dense layer two ways.

  Block-wise, a dense layer's operands are stored in the narrow float format and its bias is a vector recast as a
  one-row array; array-wise it is a general dot product of the unrounded operands plus the bias vector lifted to a row
  and repeated down the rows. On the extended reals a change of format is the identity, both products are the same
  finite sum `Σ_k X[p,k]·W[k,n]`, and both biases read `b[n]`: the two layers are equal entry by entry, with no sum
  re-arranged. The same holds under the leaky rectifier and with a residual array added.
-/
import Idealize.ShloMosaic.Lib.ValueLayout
import proofs.«173394_j29068338659455_2_alg».proof.Proof.Spec
import proofs.«173394_j29068338659455_2_alg».proof.Proof.LibDotNN
import proofs.«173394_j29068338659455_2_alg».proof.Proof.LibRowBroadcast
import proofs.«173394_j29068338659455_2_alg».proof.Proof.KI.G

noncomputable section

namespace Cert.Bridge

open Idealize.ShloMosaic Idealize.ShloMosaic.ValueIdx

/-- A bias vector lifted to a row and repeated down `M` rows reads, at `(p, n)`, the vector at `n`. -/
theorem hostBias_apply {M N : ℕ} {α : Type} (b : (⟨1, ![N]⟩ : Shape).Idx → α)
    (d1 : Fin 1 → Fin 2) (hd1 : d1 0 = 1) (h1 : (⟨1, ![N]⟩ : Shape).BroadcastsInDim ⟨2, ![1, N]⟩ d1)
    (d2 : Fin 2 → Fin 2) (hd20 : d2 0 = 0) (hd21 : d2 1 = 1)
    (h2 : (⟨2, ![1, N]⟩ : Shape).BroadcastsInDim ⟨2, ![M, N]⟩ d2) (p : Fin M) (n : Fin N) :
    broadcastInDim ⟨2, ![M, N]⟩ d2 h2 (broadcastInDim ⟨2, ![1, N]⟩ d1 h1 b) (ix2 p n) = b (ix1 n) :=
  (Cert.LibRowBroadcast.broadcastInDim_1b_ab_apply d2 hd20 hd21 h2 _ p n).trans
    (Cert.LibRowBroadcast.broadcastInDim_b_1b_apply d1 hd1 h1 b 0 n)

/-- The array-wise dense layer at an entry: `Σ_k X[p,k]·W[k,n] + b[n]`. -/
theorem hostDense_apply {M K N : ℕ} (D : DotDims ⟨2, ![M, K]⟩ ⟨2, ![K, N]⟩ ⟨2, ![M, N]⟩) (hD : D = DotDims.plain M K N)
    (X : FVec Ideal ⟨2, ![M, K]⟩ .f32) (W : FVec Ideal ⟨2, ![K, N]⟩ .f32) (b : FVec Ideal ⟨1, ![N]⟩ .f32)
    (d1 : Fin 1 → Fin 2) (hd1 : d1 0 = 1) (h1 : (⟨1, ![N]⟩ : Shape).BroadcastsInDim ⟨2, ![1, N]⟩ d1)
    (d2 : Fin 2 → Fin 2) (hd20 : d2 0 = 0) (hd21 : d2 1 = 1)
    (h2 : (⟨2, ![1, N]⟩ : Shape).BroadcastsInDim ⟨2, ![M, N]⟩ d2) (p : Fin M) (n : Fin N) :
    addf (Host.dotGeneral D none X W) (broadcastInDim ⟨2, ![M, N]⟩ d2 h2 (broadcastInDim ⟨2, ![1, N]⟩ d1 h1 b)) (ix2 p n)
      = (∑ k : Fin K, X (ix2 p k) * W (ix2 k n)) + b (ix1 n) :=
  congrArg₂ (· + ·) (Cert.LibDotNN.dotGeneral_apply D hD none X W p n) (hostBias_apply b d1 hd1 h1 d2 hd20 hd21 h2 p n)

/-- The block-wise dense layer on the narrowed operands and the recast bias, at an entry: the same value. -/
theorem dense_trunc_apply {M K N : ℕ} {φ : FTy} (X : FVec Ideal ⟨2, ![M, K]⟩ .f32) (W : FVec Ideal ⟨2, ![K, N]⟩ .f32)
    (b : FVec Ideal ⟨1, ![N]⟩ .f32) (hlt : FTy.bits .bf16 < FTy.bits .f32)
    (hcast : (⟨1, ![N]⟩ : Shape).ShapeCasts ⟨2, ![1, N]⟩) (p : Fin M) (n : Fin N) :
    Cert.KernelIdeal.Arr.dense (φ := φ) (truncf .bf16 X hlt) (truncf .bf16 W hlt) (shapeCast ⟨2, ![1, N]⟩ b hcast) (ix2 p n)
      = (∑ k : Fin K, X (ix2 p k) * W (ix2 k n)) + b (ix1 n) :=
  congrArg ((∑ k : Fin K, X (ix2 p k) * W (ix2 k n)) + ·) (shapeCast_a_1a_apply b hcast 0 n)

/-- A bare dense layer: the block-wise array is the array-wise one (whatever format the block-wise one is stored in). -/
theorem dense_eq_host {M K N : ℕ} {φ : FTy} (D : DotDims ⟨2, ![M, K]⟩ ⟨2, ![K, N]⟩ ⟨2, ![M, N]⟩)
    (hD : D = DotDims.plain M K N)
    (X : FVec Ideal ⟨2, ![M, K]⟩ .f32) (W : FVec Ideal ⟨2, ![K, N]⟩ .f32) (b : FVec Ideal ⟨1, ![N]⟩ .f32)
    (hlt : FTy.bits .bf16 < FTy.bits .f32) (hcast : (⟨1, ![N]⟩ : Shape).ShapeCasts ⟨2, ![1, N]⟩)
    (d1 : Fin 1 → Fin 2) (hd1 : d1 0 = 1) (h1 : (⟨1, ![N]⟩ : Shape).BroadcastsInDim ⟨2, ![1, N]⟩ d1)
    (d2 : Fin 2 → Fin 2) (hd20 : d2 0 = 0) (hd21 : d2 1 = 1)
    (h2 : (⟨2, ![1, N]⟩ : Shape).BroadcastsInDim ⟨2, ![M, N]⟩ d2) :
    (Cert.KernelIdeal.Arr.dense (φ := φ) (truncf .bf16 X hlt) (truncf .bf16 W hlt) (shapeCast ⟨2, ![1, N]⟩ b hcast)
        : (⟨2, ![M, N]⟩ : Shape).Idx → EReal)
      = addf (Host.dotGeneral D none X W) (broadcastInDim ⟨2, ![M, N]⟩ d2 h2 (broadcastInDim ⟨2, ![1, N]⟩ d1 h1 b)) :=
  funext fun j => by
    obtain ⟨p, n, rfl⟩ : ∃ (p : Fin M) (n : Fin N), j = ix2 p n := ⟨j 0, j 1, eq_ix2 j⟩
    exact (dense_trunc_apply X W b hlt hcast p n).trans (hostDense_apply D hD X W b d1 hd1 h1 d2 hd20 hd21 h2 p n).symm

/-- A dense layer under the leaky rectifier: the block-wise array is the array-wise one. -/
theorem leakyDense_eq_host {M K N : ℕ} (D : DotDims ⟨2, ![M, K]⟩ ⟨2, ![K, N]⟩ ⟨2, ![M, N]⟩)
    (hD : D = DotDims.plain M K N)
    (X : FVec Ideal ⟨2, ![M, K]⟩ .f32) (W : FVec Ideal ⟨2, ![K, N]⟩ .f32) (b : FVec Ideal ⟨1, ![N]⟩ .f32)
    (hlt : FTy.bits .bf16 < FTy.bits .f32) (hcast : (⟨1, ![N]⟩ : Shape).ShapeCasts ⟨2, ![1, N]⟩)
    (d1 : Fin 1 → Fin 2) (hd1 : d1 0 = 1) (h1 : (⟨1, ![N]⟩ : Shape).BroadcastsInDim ⟨2, ![1, N]⟩ d1)
    (d2 : Fin 2 → Fin 2) (hd20 : d2 0 = 0) (hd21 : d2 1 = 1)
    (h2 : (⟨2, ![1, N]⟩ : Shape).BroadcastsInDim ⟨2, ![M, N]⟩ d2)
    (d0 : Fin 0 → Fin 2) (h0 : (⟨0, ![]⟩ : Shape).BroadcastsInDim ⟨2, ![M, N]⟩ d0) :
    Cert.KernelIdeal.Arr.leakyDense (truncf .bf16 X hlt) (truncf .bf16 W hlt) (shapeCast ⟨2, ![1, N]⟩ b hcast)
      = select
          (cmpf .oge
            (addf (Host.dotGeneral D none X W) (broadcastInDim ⟨2, ![M, N]⟩ d2 h2 (broadcastInDim ⟨2, ![1, N]⟩ d1 h1 b)))
            (broadcastInDim ⟨2, ![M, N]⟩ d0 h0 (constant (F := Ideal) ⟨0, ![]⟩ .f32 0x00000000#32)))
          (addf (Host.dotGeneral D none X W) (broadcastInDim ⟨2, ![M, N]⟩ d2 h2 (broadcastInDim ⟨2, ![1, N]⟩ d1 h1 b)))
          (mulf (broadcastInDim ⟨2, ![M, N]⟩ d0 h0 (constant (F := Ideal) ⟨0, ![]⟩ .f32 0x3C23D70A#32))
            (addf (Host.dotGeneral D none X W) (broadcastInDim ⟨2, ![M, N]⟩ d2 h2 (broadcastInDim ⟨2, ![1, N]⟩ d1 h1 b)))) :=
  funext fun j => by
    obtain ⟨p, n, rfl⟩ : ∃ (p : Fin M) (n : Fin N), j = ix2 p n := ⟨j 0, j 1, eq_ix2 j⟩
    refine Eq.trans ?_ (Cert.Spec.hostLeaky_apply d0 h0 _ (ix2 p n)).symm
    exact congrArg Cert.Spec.leaky
      ((dense_trunc_apply (φ := .f32) X W b hlt hcast p n).trans (hostDense_apply D hD X W b d1 hd1 h1 d2 hd20 hd21 h2 p n).symm)

/-- A residual array plus a dense layer under the leaky rectifier: the block-wise array is the array-wise one. -/
theorem residLeakyDense_eq_host {M K N : ℕ} (D : DotDims ⟨2, ![M, K]⟩ ⟨2, ![K, N]⟩ ⟨2, ![M, N]⟩)
    (hD : D = DotDims.plain M K N)
    (X : FVec Ideal ⟨2, ![M, K]⟩ .f32) (W : FVec Ideal ⟨2, ![K, N]⟩ .f32) (b : FVec Ideal ⟨1, ![N]⟩ .f32)
    (r : FVec Ideal ⟨2, ![M, N]⟩ .f32)
    (hlt : FTy.bits .bf16 < FTy.bits .f32) (hcast : (⟨1, ![N]⟩ : Shape).ShapeCasts ⟨2, ![1, N]⟩)
    (d1 : Fin 1 → Fin 2) (hd1 : d1 0 = 1) (h1 : (⟨1, ![N]⟩ : Shape).BroadcastsInDim ⟨2, ![1, N]⟩ d1)
    (d2 : Fin 2 → Fin 2) (hd20 : d2 0 = 0) (hd21 : d2 1 = 1)
    (h2 : (⟨2, ![1, N]⟩ : Shape).BroadcastsInDim ⟨2, ![M, N]⟩ d2)
    (d0 : Fin 0 → Fin 2) (h0 : (⟨0, ![]⟩ : Shape).BroadcastsInDim ⟨2, ![M, N]⟩ d0) :
    Cert.KernelIdeal.Arr.residLeakyDense (truncf .bf16 X hlt) (truncf .bf16 W hlt) (shapeCast ⟨2, ![1, N]⟩ b hcast) r
      = addf r
          (select
            (cmpf .oge
              (addf (Host.dotGeneral D none X W) (broadcastInDim ⟨2, ![M, N]⟩ d2 h2 (broadcastInDim ⟨2, ![1, N]⟩ d1 h1 b)))
              (broadcastInDim ⟨2, ![M, N]⟩ d0 h0 (constant (F := Ideal) ⟨0, ![]⟩ .f32 0x00000000#32)))
            (addf (Host.dotGeneral D none X W) (broadcastInDim ⟨2, ![M, N]⟩ d2 h2 (broadcastInDim ⟨2, ![1, N]⟩ d1 h1 b)))
            (mulf (broadcastInDim ⟨2, ![M, N]⟩ d0 h0 (constant (F := Ideal) ⟨0, ![]⟩ .f32 0x3C23D70A#32))
              (addf (Host.dotGeneral D none X W) (broadcastInDim ⟨2, ![M, N]⟩ d2 h2 (broadcastInDim ⟨2, ![1, N]⟩ d1 h1 b))))) :=
  funext fun j =>
    congrArg (r j + ·) (congrFun (leakyDense_eq_host D hD X W b hlt hcast d1 hd1 h1 d2 hd20 hd21 h2 d0 h0) j)

end Cert.Bridge

end
-- ==== Proof.BridgeEnc.lean ====
/-
  The two node encoders and the update layers, block-wise against array-wise, at the programs' extents.

  Each statement is the general dense-layer equality at one layer's extents, with the block-wise side written over the
  first program's shape names and facts and the array-wise side over the second's. The left operand `X` is any array
  (both programs build it by the same concatenation).
-/
import proofs.«173394_j29068338659455_2_alg».proof.Proof.BridgeDense
import proofs.«173394_j29068338659455_2_alg».proof.Proof.Gen.KernelIdeal
import proofs.«173394_j29068338659455_2_alg».proof.Proof.Gen.ReferenceIdeal

noncomputable section

namespace Cert.Bridge

open Idealize.ShloMosaic Idealize.ShloMosaic.ValueIdx

/-- The node encoder: region 0's array on the narrowed operands is the leaky rectifier of the general dot product plus
    the bias row. -/
theorem enc_eq (X : FVec Ideal Cert.KernelIdeal.S5000x64 .f32) (W : FVec Ideal Cert.KernelIdeal.S64x128 .f32)
    (b : FVec Ideal Cert.KernelIdeal.S128 .f32) :
    Cert.KernelIdeal.Arr.G0
        (truncf (F := Ideal) .bf16 X Cert.KernelIdeal.Facts₀.bitsLt_bf16_f32)
        (truncf (F := Ideal) .bf16 W Cert.KernelIdeal.Facts₀.bitsLt_bf16_f32)
        (shapeCast Cert.KernelIdeal.S1x128 b Cert.KernelIdeal.Facts₀.shapeCasts_S128_S1x128)
      = select
          (cmpf .oge
            (addf (Host.dotGeneral Cert.ReferenceIdeal.dot_S5000x64_S64x128_S5000x128_1_0_0_1_n_n none X W)
              (broadcastInDim Cert.ReferenceIdeal.S5000x128 ![0, 1] Cert.ReferenceIdeal.Facts₀.bcast_S1x128_S5000x128_0_1
                (broadcastInDim Cert.ReferenceIdeal.S1x128 ![1] Cert.ReferenceIdeal.Facts₀.bcast_S128_S1x128_1 b)))
            (broadcastInDim Cert.ReferenceIdeal.S5000x128 ![] Cert.ReferenceIdeal.Facts₀.bcast_S_S5000x128
              (constant (F := Ideal) Cert.ReferenceIdeal.S_ .f32 0x00000000#32)))
          (addf (Host.dotGeneral Cert.ReferenceIdeal.dot_S5000x64_S64x128_S5000x128_1_0_0_1_n_n none X W)
            (broadcastInDim Cert.ReferenceIdeal.S5000x128 ![0, 1] Cert.ReferenceIdeal.Facts₀.bcast_S1x128_S5000x128_0_1
              (broadcastInDim Cert.ReferenceIdeal.S1x128 ![1] Cert.ReferenceIdeal.Facts₀.bcast_S128_S1x128_1 b)))
          (mulf
            (broadcastInDim Cert.ReferenceIdeal.S5000x128 ![] Cert.ReferenceIdeal.Facts₀.bcast_S_S5000x128
              (constant (F := Ideal) Cert.ReferenceIdeal.S_ .f32 0x3C23D70A#32))
            (addf (Host.dotGeneral Cert.ReferenceIdeal.dot_S5000x64_S64x128_S5000x128_1_0_0_1_n_n none X W)
              (broadcastInDim Cert.ReferenceIdeal.S5000x128 ![0, 1] Cert.ReferenceIdeal.Facts₀.bcast_S1x128_S5000x128_0_1
                (broadcastInDim Cert.ReferenceIdeal.S1x128 ![1] Cert.ReferenceIdeal.Facts₀.bcast_S128_S1x128_1 b)))) :=
  leakyDense_eq_host Cert.ReferenceIdeal.dot_S5000x64_S64x128_S5000x128_1_0_0_1_n_n rfl X W b _ _
    ![1] rfl _ ![0, 1] rfl rfl _ ![] _

end Cert.Bridge

end
-- ==== Proof.LibRowGatherScatter.lean ====
/-
  Rows selected by a column of integer start indices: a gather of whole rows, a gather of single entries, and the
  accumulating scatter of rows, each read at an index.

  Given an array with N rows and a column `idx` of R integer words, entry `e` of the column names row
  `min (toNat (toInt idx[e])) (N - 1)` for a gather (the word read signed and clamped into the array), while a scatter
  does not clamp: update row `e` lands on row `toInt idx[e]` when that is in `[0, N)`, and is dropped otherwise.
-/
import Idealize.ShloMosaic.PureOps.Ideal.Laws
import Idealize.ShloMosaic.Lib.ValueIdx

noncomputable section

namespace Cert.LibRowGatherScatter

open Idealize.ShloMosaic Idealize.ShloMosaic.ValueIdx

variable {α : Type}

/-- The row of an N-row array that a start-index word selects in a gather: the word as a signed integer, negative values
    at 0, large ones at the last row. -/
def clampRow (N : Nat) (hN : 0 < N) {w : Nat} (b : BitVec w) : Fin N := ⟨min b.toInt.toNat (N - 1), by omega⟩

/-- The dimension numbers of a gather of whole rows: operand `[N, C]`, start indices `[R, 1]` (one row number each),
    result `[R, C]`; the row axis is collapsed, the column axis is the offset axis with the full slice. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A gather of whole rows read at `(e, f)`: the operand at the clamped row named by `idx[e, 0]`, column `f`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowsDims N R C wf) x idx (ix2 e f) = x (ix2 (clampRow N hN (idx (ix2 e 0))) f) := by
  unfold Host.gather
  congr 1
  funext a
  refine Fin.ext ?_
  show (rowsDims N R C wf).start (ix2 e f) idx a + (rowsDims N R C wf).batchCoord (ix2 e f) a
      + (rowsDims N R C wf).offCoord (ix2 e f) a = _
  rw [GatherDims.batchCoord_eq_zero _ _ _ List.not_mem_nil]
  have h0 : (rowsDims N R C wf).start (ix2 e f) idx (0 : Fin 2) + 0 + (rowsDims N R C wf).offCoord (ix2 e f) (0 : Fin 2)
      = ((ix2 (clampRow N hN (idx (ix2 e 0))) f : (⟨2, ![N, C]⟩ : Shape).Idx) (0 : Fin 2)).val := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e f) ⟨List.idxOf (0 : Fin 2) (rowsDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : (rowsDims N R C wf).start (ix2 e f) idx (1 : Fin 2) + 0 + (rowsDims N R C wf).offCoord (ix2 e f) (1 : Fin 2)
      = ((ix2 (clampRow N hN (idx (ix2 e 0))) f : (⟨2, ![N, C]⟩ : Shape).Idx) (1 : Fin 2)).val := by
    have hn : (1 : Fin 2) ∉ (rowsDims N R C wf).startIndexMap :=
      fun h => absurd (congrArg Fin.val (List.mem_singleton.mp h)) Nat.one_ne_zero
    unfold GatherDims.start
    rw [dif_neg hn]
    unfold GatherDims.offCoord
    rw [dif_pos (show (1 : Fin 2) ∈ (rowsDims N R C wf).sKept from (GatherDims.mem_sKept _ _).mpr
      ⟨fun h => absurd (congrArg Fin.val (List.mem_singleton.mp h)) Nat.one_ne_zero, List.not_mem_nil⟩)]
    simp only [Nat.zero_add]
    rfl
  match a with
  | ⟨0, _⟩ => exact h0
  | ⟨1, _⟩ => exact h1

/-- The dimension numbers of a gather of single entries: operand `[N]`, start indices `[R, 1]`, result `[R]`. -/
abbrev eltsDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- A gather of single entries read at `e`: the operand at the clamped row named by `idx[e, 0]`. -/
theorem gather_elts_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (eltsDims N R wf) x idx (ix1 e) = x (ix1 (clampRow N hN (idx (ix2 e 0)))) := by
  unfold Host.gather
  congr 1
  funext a
  obtain rfl : a = 0 := Subsingleton.elim _ _
  refine Fin.ext ?_
  show (eltsDims N R wf).start (ix1 e) idx 0 + (eltsDims N R wf).batchCoord (ix1 e) 0 + (eltsDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltsDims N R wf).startIndexMap from List.mem_singleton.mpr rfl)]
  have hsi : (eltsDims N R wf).siIdx (ix1 e) ⟨List.idxOf (0 : Fin 1) (eltsDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of a scatter of whole rows: operand `[N, C]`, scatter indices `[R, 1]`, updates `[R, C]`. -/
abbrev rowsScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Where a scatter of whole rows puts update entry `(e, f)`: if it lands on the operand's index `i`, then the word
    `idx[e, 0]`, read signed, IS `i`'s row number (it is not clamped: it lies in `[0, N)`). -/
theorem scatter_rows_row {N R C w : Nat}
    (wf : ScatterDims.WF ⟨2, ![N, C]⟩ ⟨2, ![R, 1]⟩ ⟨2, ![R, C]⟩ [1] [0] [0] 1)
    (idx : IVec ⟨2, ![R, 1]⟩ w) (e : Fin R) (f : Fin C) (i : (⟨2, ![N, C]⟩ : Shape).Idx)
    (h : (rowsScatter N R C wf).resultIdx? (ix2 e f) idx = some i) :
    (idx (ix2 e 0)).toInt = ((i 0).val : Int) := by
  unfold ScatterDims.resultIdx? at h
  split at h
  · rename_i hall
    have hi := Option.some.inj h
    have h0 : ((rowsScatter N R C wf).start (ix2 e f) idx (0 : Fin 2) + ((rowsScatter N R C wf).window (ix2 e f) (0 : Fin 2) : Int)).toNat
        = (i 0).val := congrArg (fun g => (g (0 : Fin 2)).val) hi
    have hs : (rowsScatter N R C wf).start (ix2 e f) idx (0 : Fin 2) = (idx (ix2 e 0)).toInt := by
      unfold ScatterDims.start
      rw [dif_pos (show (0 : Fin 2) ∈ (rowsScatter N R C wf).scatterDimsToOperandDims from List.mem_singleton.mpr rfl)]
      have hsi : (rowsScatter N R C wf).siIdx (ix2 e f) ⟨List.idxOf (0 : Fin 2) (rowsScatter N R C wf).scatterDimsToOperandDims,
          List.idxOf_lt_length_iff.2 (List.mem_singleton.mpr rfl)⟩ = ix2 e 0 := by
        funext b; refine Fin.ext ?_
        match b with
        | ⟨0, _⟩ => rfl
        | ⟨1, _⟩ => rfl
      rw [hsi]
    have hw : (rowsScatter N R C wf).window (ix2 e f) (0 : Fin 2) = 0 := by
      unfold ScatterDims.window
      rw [dif_neg]
      simp [ScatterDims.sKept, Shape.kept]
    have hge := (hall (0 : Fin 2)).1
    rw [hs, hw] at h0 hge
    simp only [Nat.cast_zero, add_zero] at h0 hge
    omega
  · exact absurd h (by simp)

end Cert.LibRowGatherScatter

end
-- ==== Proof.BridgeMsg.lean ====
/-
  An edge message two ways.

  Array-wise, the message of edge `e` applies a `(H+H)×C` weight to the receiving node's row beside the sending node's
  row: `Σ_{j<H+H} [x[d(e)] | x[s(e)]][j] · W[j,n]`. Block-wise, ONE product per node against the weight's two halves set
  side by side gives every node its two `C`-wide projections `x[r]·W[0:H]` and `x[r]·W[H:H+H]`, and the edge adds the
  receiving node's first projection to the sending node's second. The sum over `H+H` splits at `H` into exactly those
  two sums; a gather of rows reads the same row whichever array it is applied to; the block-wise product's zero bias
  adds nothing. Addition of extended reals is associative and commutative with unit `0`, which is all that is used.
-/
import Idealize.ShloMosaic.Lib.ValueLayout
import Idealize.ShloMosaic.Lib.Pipeline.Value
import proofs.«173394_j29068338659455_2_alg».proof.Proof.Spec
import proofs.«173394_j29068338659455_2_alg».proof.Proof.LibDotNN
import proofs.«173394_j29068338659455_2_alg».proof.Proof.LibRowGatherScatter
import proofs.«173394_j29068338659455_2_alg».proof.Proof.BridgeDense

noncomputable section

namespace Cert.Bridge

open Idealize.ShloMosaic Idealize.ShloMosaic.ValueIdx Cert.LibRowGatherScatter

/-- Two column blocks set side by side, read in the first block. -/
theorem concatCols_left {R K1 K2 : ℕ} {α : Type} (x₁ : (⟨2, ![R, K1]⟩ : Shape).Idx → α)
    (x₂ : (⟨2, ![R, K2]⟩ : Shape).Idx → α)
    (h : Shape.Concatenates [⟨2, ![R, K1]⟩, ⟨2, ![R, K2]⟩] ⟨2, ![R, K1 + K2]⟩ (1 : Fin 2)) (r : Fin R) (k : Fin K1) :
    concatenate ⟨2, ![R, K1 + K2]⟩ (1 : Fin 2) [⟨⟨2, ![R, K1]⟩, x₁⟩, ⟨⟨2, ![R, K2]⟩, x₂⟩] h (ix2 r (Fin.castAdd K2 k))
      = x₁ (ix2 r k) :=
  concatenate_pair_apply_left (t := ⟨2, ![R, K1 + K2]⟩) (1 : Fin 2) x₁ x₂ h (ix2 r (Fin.castAdd K2 k)) rfl (ix2 r k) fun b => by
    match b with
    | ⟨0, _⟩ => rfl
    | ⟨1, _⟩ => rfl

/-- Two column blocks set side by side, read in the second block. -/
theorem concatCols_right {R K1 K2 : ℕ} {α : Type} (x₁ : (⟨2, ![R, K1]⟩ : Shape).Idx → α)
    (x₂ : (⟨2, ![R, K2]⟩ : Shape).Idx → α)
    (h : Shape.Concatenates [⟨2, ![R, K1]⟩, ⟨2, ![R, K2]⟩] ⟨2, ![R, K1 + K2]⟩ (1 : Fin 2)) (r : Fin R) (k : Fin K2) :
    concatenate ⟨2, ![R, K1 + K2]⟩ (1 : Fin 2) [⟨⟨2, ![R, K1]⟩, x₁⟩, ⟨⟨2, ![R, K2]⟩, x₂⟩] h (ix2 r (Fin.natAdd K1 k))
      = x₂ (ix2 r k) :=
  concatenate_pair_apply_right (t := ⟨2, ![R, K1 + K2]⟩) (1 : Fin 2) x₁ x₂ h (ix2 r (Fin.natAdd K1 k)) rfl rfl (ix2 r k)
    (fun b hb => by
      match b with
      | ⟨0, _⟩ => rfl
      | ⟨1, _⟩ => exact absurd rfl hb)
    (by show k.val + K1 = K1 + k.val; exact Nat.add_comm _ _)

/-- The sum over `H1 + H2` of products, split at `H1`, when the two factors are given piecewise. -/
theorem sum_split_mul {H1 H2 : ℕ} (cat W : Fin (H1 + H2) → EReal) (a₁ w₁ : Fin H1 → EReal) (a₂ w₂ : Fin H2 → EReal)
    (hc1 : ∀ k, cat (Fin.castAdd H2 k) = a₁ k) (hc2 : ∀ k, cat (Fin.natAdd H1 k) = a₂ k)
    (hw1 : ∀ k, W (Fin.castAdd H2 k) = w₁ k) (hw2 : ∀ k, W (Fin.natAdd H1 k) = w₂ k) :
    ∑ j, cat j * W j = (∑ k, a₁ k * w₁ k) + ∑ k, a₂ k * w₂ k := by
  rw [Fin.sum_univ_add]
  exact congrArg₂ (· + ·) (Finset.sum_congr rfl fun k _ => by rw [hc1, hw1])
    (Finset.sum_congr rfl fun k _ => by rw [hc2, hw2])

/-- The edge message, block-wise against array-wise. -/
theorem message_eq {Nn E H C : ℕ} (hN : 0 < Nn)
    (x : FVec Ideal ⟨2, ![Nn, H]⟩ .f32) (Wm : FVec Ideal ⟨2, ![H + H, C]⟩ .f32) (b : FVec Ideal ⟨1, ![C]⟩ .f32)
    (zrow : FVec Ideal ⟨2, ![1, C + C]⟩ .f32) (hz : ∀ c, zrow (ix2 (0 : Fin 1) c) = 0)
    (iD iS : IVec ⟨2, ![E, 1]⟩ 32) (hlt : FTy.bits .bf16 < FTy.bits .f32)
    (hw0 : (⟨2, ![H + H, C]⟩ : Shape).Slices ![0, 0] ⟨2, ![H, C]⟩)
    (hw1 : (⟨2, ![H + H, C]⟩ : Shape).Slices ![H, 0] ⟨2, ![H, C]⟩)
    (hwc : Shape.Concatenates [⟨2, ![H, C]⟩, ⟨2, ![H, C]⟩] ⟨2, ![H, C + C]⟩ (1 : Fin 2))
    (hp0 : (⟨2, ![Nn, C + C]⟩ : Shape).Slices ![0, 0] ⟨2, ![Nn, C]⟩)
    (hp1 : (⟨2, ![Nn, C + C]⟩ : Shape).Slices ![0, C] ⟨2, ![Nn, C]⟩)
    (gK : GatherDims ⟨2, ![Nn, C]⟩ ⟨2, ![E, 1]⟩ ⟨2, ![E, C]⟩)
    (wfK : GatherDims.WF ⟨2, ![Nn, C]⟩ ⟨2, ![E, 1]⟩ ⟨2, ![E, C]⟩ [1] [0] [] [0] [] 1 ![1, C]) (hgK : gK = rowsDims Nn E C wfK)
    (hcast : (⟨1, ![C]⟩ : Shape).ShapeCasts ⟨2, ![1, C]⟩)
    (gR : GatherDims ⟨2, ![Nn, H]⟩ ⟨2, ![E, 1]⟩ ⟨2, ![E, H]⟩)
    (wfR : GatherDims.WF ⟨2, ![Nn, H]⟩ ⟨2, ![E, 1]⟩ ⟨2, ![E, H]⟩ [1] [0] [] [0] [] 1 ![1, H]) (hgR : gR = rowsDims Nn E H wfR)
    (hcat : Shape.Concatenates [⟨2, ![E, H]⟩, ⟨2, ![E, H]⟩] ⟨2, ![E, H + H]⟩ (1 : Fin 2))
    (D : DotDims ⟨2, ![E, H + H]⟩ ⟨2, ![H + H, C]⟩ ⟨2, ![E, C]⟩) (hD : D = DotDims.plain E (H + H) C)
    (d1 : Fin 1 → Fin 2) (hd1 : d1 0 = 1) (h1 : (⟨1, ![C]⟩ : Shape).BroadcastsInDim ⟨2, ![1, C]⟩ d1)
    (d2 : Fin 2 → Fin 2) (hd20 : d2 0 = 0) (hd21 : d2 1 = 1)
    (h2 : (⟨2, ![1, C]⟩ : Shape).BroadcastsInDim ⟨2, ![E, C]⟩ d2)
    (d0 : Fin 0 → Fin 2) (h0 : (⟨0, ![]⟩ : Shape).BroadcastsInDim ⟨2, ![E, C]⟩ d0) :
    Cert.KernelIdeal.Arr.leakyPair
        (Host.gather gK
          (extractStridedSlice ⟨2, ![Nn, C]⟩ ![0, 0]
            (Cert.KernelIdeal.Arr.dense (φ := .bf16) (truncf .bf16 x hlt)
              (truncf .bf16
                (concatenate ⟨2, ![H, C + C]⟩ (1 : Fin 2)
                  [⟨⟨2, ![H, C]⟩, extractStridedSlice ⟨2, ![H, C]⟩ ![0, 0] Wm hw0⟩,
                   ⟨⟨2, ![H, C]⟩, extractStridedSlice ⟨2, ![H, C]⟩ ![H, 0] Wm hw1⟩] hwc) hlt)
              zrow) hp0) iD)
        (Host.gather gK
          (extractStridedSlice ⟨2, ![Nn, C]⟩ ![0, C]
            (Cert.KernelIdeal.Arr.dense (φ := .bf16) (truncf .bf16 x hlt)
              (truncf .bf16
                (concatenate ⟨2, ![H, C + C]⟩ (1 : Fin 2)
                  [⟨⟨2, ![H, C]⟩, extractStridedSlice ⟨2, ![H, C]⟩ ![0, 0] Wm hw0⟩,
                   ⟨⟨2, ![H, C]⟩, extractStridedSlice ⟨2, ![H, C]⟩ ![H, 0] Wm hw1⟩] hwc) hlt)
              zrow) hp1) iS)
        (shapeCast ⟨2, ![1, C]⟩ b hcast)
      = select
          (cmpf .oge
            (addf
              (Host.dotGeneral D none
                (concatenate ⟨2, ![E, H + H]⟩ (1 : Fin 2)
                  [⟨⟨2, ![E, H]⟩, Host.gather gR x iD⟩, ⟨⟨2, ![E, H]⟩, Host.gather gR x iS⟩] hcat) Wm)
              (broadcastInDim ⟨2, ![E, C]⟩ d2 h2 (broadcastInDim ⟨2, ![1, C]⟩ d1 h1 b)))
            (broadcastInDim ⟨2, ![E, C]⟩ d0 h0 (constant (F := Ideal) ⟨0, ![]⟩ .f32 0x00000000#32)))
          (addf
            (Host.dotGeneral D none
              (concatenate ⟨2, ![E, H + H]⟩ (1 : Fin 2)
                [⟨⟨2, ![E, H]⟩, Host.gather gR x iD⟩, ⟨⟨2, ![E, H]⟩, Host.gather gR x iS⟩] hcat) Wm)
            (broadcastInDim ⟨2, ![E, C]⟩ d2 h2 (broadcastInDim ⟨2, ![1, C]⟩ d1 h1 b)))
          (mulf (broadcastInDim ⟨2, ![E, C]⟩ d0 h0 (constant (F := Ideal) ⟨0, ![]⟩ .f32 0x3C23D70A#32))
            (addf
              (Host.dotGeneral D none
                (concatenate ⟨2, ![E, H + H]⟩ (1 : Fin 2)
                  [⟨⟨2, ![E, H]⟩, Host.gather gR x iD⟩, ⟨⟨2, ![E, H]⟩, Host.gather gR x iS⟩] hcat) Wm)
              (broadcastInDim ⟨2, ![E, C]⟩ d2 h2 (broadcastInDim ⟨2, ![1, C]⟩ d1 h1 b)))) := by
  subst hgK hgR
  funext j
  obtain ⟨e, n, rfl⟩ : ∃ (e : Fin E) (n : Fin C), j = ix2 e n := ⟨j 0, j 1, eq_ix2 j⟩
  refine Eq.trans ?_ (Cert.Spec.hostLeaky_apply d0 h0 _ (ix2 e n)).symm
  refine (Cert.KernelIdeal.Arr.leakyPair_apply _ _ _ e n).trans (congrArg Cert.Spec.leaky ?_)
  rw [hostDense_apply D hD _ Wm b d1 hd1 h1 d2 hd20 hd21 h2 e n,
    gather_rows_apply hN wfK _ iD e n, gather_rows_apply hN wfK _ iS e n,
    shapeCast_a_1a_apply b hcast 0 n,
    slice2_axis1_apply 0 _ hp0 _ n (Fin.castAdd C n) (by show n.val = 0 + n.val; omega),
    slice2_axis1_apply C _ hp1 _ n (Fin.natAdd C n) rfl,
    Cert.KernelIdeal.Arr.dense_apply, Cert.KernelIdeal.Arr.dense_apply, hz, hz, add_zero, add_zero]
  refine congrArg (· + b (ix1 n)) ?_
  refine (sum_split_mul _ _ _ _ _ _ (fun k => ?_) (fun k => ?_) (fun k => ?_) (fun k => ?_)).symm
  · exact (concatCols_left _ _ hcat e k).trans (gather_rows_apply hN wfR x iD e k)
  · exact (concatCols_right _ _ hcat e k).trans (gather_rows_apply hN wfR x iS e k)
  · exact ((concatCols_left _ _ hwc k n).trans (slice2_axis0_apply 0 Wm hw0 k n (Fin.castAdd H k) (by show k.val = 0 + k.val; omega))).symm
  · exact ((concatCols_right _ _ hwc k n).trans (slice2_axis0_apply H Wm hw1 k n (Fin.natAdd H k) rfl)).symm

end Cert.Bridge

end
-- ==== Proof.BridgeInst.lean ====
/-
  The dense layers and the program-graph messages, block-wise against array-wise, at the two programs' extents and in
  their own names: the block-wise side over the first program's shapes, facts and operand packings, the array-wise side
  over the second's printed terms. Each is the matching general statement at one layer's extents.
-/
import proofs.«173394_j29068338659455_2_alg».proof.Proof.BridgeDense
import proofs.«173394_j29068338659455_2_alg».proof.Proof.BridgeMsg
import proofs.«173394_j29068338659455_2_alg».proof.Proof.KI.HostDefs
import proofs.«173394_j29068338659455_2_alg».proof.Proof.Gen.KernelIdeal
import proofs.«173394_j29068338659455_2_alg».proof.Proof.Gen.ReferenceIdeal

noncomputable section

namespace Cert.Bridge

open Idealize.ShloMosaic Idealize.ShloMosaic.ValueIdx

/-- The voxel encoder: region 10's array on the narrowed operands is the leaky rectifier of the general dot product plus the bias row. -/
theorem venc_eq (X : FVec Ideal Cert.KernelIdeal.S100000x48 .f32) (W : FVec Ideal Cert.KernelIdeal.S48x128 .f32)
    (b : FVec Ideal Cert.KernelIdeal.S128 .f32) :
    Cert.KernelIdeal.Arr.G10
        (truncf (F := Ideal) .bf16 X Cert.KernelIdeal.Facts₀.bitsLt_bf16_f32)
        (truncf (F := Ideal) .bf16 W Cert.KernelIdeal.Facts₀.bitsLt_bf16_f32)
        (shapeCast Cert.KernelIdeal.S1x128 b Cert.KernelIdeal.Facts₀.shapeCasts_S128_S1x128)
      = select
          (cmpf .oge
            (addf (Host.dotGeneral Cert.ReferenceIdeal.dot_S100000x48_S48x128_S100000x128_1_0_0_1_n_n none X W)
              (broadcastInDim Cert.ReferenceIdeal.S100000x128 ![0, 1] Cert.ReferenceIdeal.Facts₀.bcast_S1x128_S100000x128_0_1
                (broadcastInDim Cert.ReferenceIdeal.S1x128 ![1] Cert.ReferenceIdeal.Facts₀.bcast_S128_S1x128_1 b)))
            (broadcastInDim Cert.ReferenceIdeal.S100000x128 ![] Cert.ReferenceIdeal.Facts₀.bcast_S_S100000x128 (constant (F := Ideal) Cert.ReferenceIdeal.S_ .f32 0x00000000#32)))
          (addf (Host.dotGeneral Cert.ReferenceIdeal.dot_S100000x48_S48x128_S100000x128_1_0_0_1_n_n none X W)
              (broadcastInDim Cert.ReferenceIdeal.S100000x128 ![0, 1] Cert.ReferenceIdeal.Facts₀.bcast_S1x128_S100000x128_0_1
                (broadcastInDim Cert.ReferenceIdeal.S1x128 ![1] Cert.ReferenceIdeal.Facts₀.bcast_S128_S1x128_1 b)))
          (mulf (broadcastInDim Cert.ReferenceIdeal.S100000x128 ![] Cert.ReferenceIdeal.Facts₀.bcast_S_S100000x128 (constant (F := Ideal) Cert.ReferenceIdeal.S_ .f32 0x3C23D70A#32))
            (addf (Host.dotGeneral Cert.ReferenceIdeal.dot_S100000x48_S48x128_S100000x128_1_0_0_1_n_n none X W)
              (broadcastInDim Cert.ReferenceIdeal.S100000x128 ![0, 1] Cert.ReferenceIdeal.Facts₀.bcast_S1x128_S100000x128_0_1
                (broadcastInDim Cert.ReferenceIdeal.S1x128 ![1] Cert.ReferenceIdeal.Facts₀.bcast_S128_S1x128_1 b)))) :=
  leakyDense_eq_host Cert.ReferenceIdeal.dot_S100000x48_S48x128_S100000x128_1_0_0_1_n_n rfl X W b _ _
    ![1] rfl _ ![0, 1] rfl rfl _ ![] _

/-- Program-graph step 0's update: region 3's array is the residual plus the leaky rectifier of the general dot product plus the bias row. -/
theorem upd3_eq (X : FVec Ideal Cert.KernelIdeal.S5000x384 .f32) (W : FVec Ideal Cert.KernelIdeal.S384x128 .f32)
    (b : FVec Ideal Cert.KernelIdeal.S128 .f32) (r : FVec Ideal Cert.KernelIdeal.S5000x128 .f32) :
    Cert.KernelIdeal.Arr.G3
        (truncf (F := Ideal) .bf16 X Cert.KernelIdeal.Facts₀.bitsLt_bf16_f32)
        (truncf (F := Ideal) .bf16 W Cert.KernelIdeal.Facts₀.bitsLt_bf16_f32)
        (shapeCast Cert.KernelIdeal.S1x128 b Cert.KernelIdeal.Facts₀.shapeCasts_S128_S1x128) r
      = addf r
        (select
          (cmpf .oge
            (addf (Host.dotGeneral Cert.ReferenceIdeal.dot_S5000x384_S384x128_S5000x128_1_0_0_1_n_n none X W)
              (broadcastInDim Cert.ReferenceIdeal.S5000x128 ![0, 1] Cert.ReferenceIdeal.Facts₀.bcast_S1x128_S5000x128_0_1
                (broadcastInDim Cert.ReferenceIdeal.S1x128 ![1] Cert.ReferenceIdeal.Facts₀.bcast_S128_S1x128_1 b)))
            (broadcastInDim Cert.ReferenceIdeal.S5000x128 ![] Cert.ReferenceIdeal.Facts₀.bcast_S_S5000x128 (constant (F := Ideal) Cert.ReferenceIdeal.S_ .f32 0x00000000#32)))
          (addf (Host.dotGeneral Cert.ReferenceIdeal.dot_S5000x384_S384x128_S5000x128_1_0_0_1_n_n none X W)
              (broadcastInDim Cert.ReferenceIdeal.S5000x128 ![0, 1] Cert.ReferenceIdeal.Facts₀.bcast_S1x128_S5000x128_0_1
                (broadcastInDim Cert.ReferenceIdeal.S1x128 ![1] Cert.ReferenceIdeal.Facts₀.bcast_S128_S1x128_1 b)))
          (mulf (broadcastInDim Cert.ReferenceIdeal.S5000x128 ![] Cert.ReferenceIdeal.Facts₀.bcast_S_S5000x128 (constant (F := Ideal) Cert.ReferenceIdeal.S_ .f32 0x3C23D70A#32))
            (addf (Host.dotGeneral Cert.ReferenceIdeal.dot_S5000x384_S384x128_S5000x128_1_0_0_1_n_n none X W)
              (broadcastInDim Cert.ReferenceIdeal.S5000x128 ![0, 1] Cert.ReferenceIdeal.Facts₀.bcast_S1x128_S5000x128_0_1
                (broadcastInDim Cert.ReferenceIdeal.S1x128 ![1] Cert.ReferenceIdeal.Facts₀.bcast_S128_S1x128_1 b))))) :=
  residLeakyDense_eq_host Cert.ReferenceIdeal.dot_S5000x384_S384x128_S5000x128_1_0_0_1_n_n rfl X W b r _ _
    ![1] rfl _ ![0, 1] rfl rfl _ ![] _

/-- Program-graph step 1's update: region 6's array is the residual plus the leaky rectifier of the general dot product plus the bias row. -/
theorem upd6_eq (X : FVec Ideal Cert.KernelIdeal.S5000x384 .f32) (W : FVec Ideal Cert.KernelIdeal.S384x128 .f32)
    (b : FVec Ideal Cert.KernelIdeal.S128 .f32) (r : FVec Ideal Cert.KernelIdeal.S5000x128 .f32) :
    Cert.KernelIdeal.Arr.G6
        (truncf (F := Ideal) .bf16 X Cert.KernelIdeal.Facts₀.bitsLt_bf16_f32)
        (truncf (F := Ideal) .bf16 W Cert.KernelIdeal.Facts₀.bitsLt_bf16_f32)
        (shapeCast Cert.KernelIdeal.S1x128 b Cert.KernelIdeal.Facts₀.shapeCasts_S128_S1x128) r
      = addf r
        (select
          (cmpf .oge
            (addf (Host.dotGeneral Cert.ReferenceIdeal.dot_S5000x384_S384x128_S5000x128_1_0_0_1_n_n none X W)
              (broadcastInDim Cert.ReferenceIdeal.S5000x128 ![0, 1] Cert.ReferenceIdeal.Facts₀.bcast_S1x128_S5000x128_0_1
                (broadcastInDim Cert.ReferenceIdeal.S1x128 ![1] Cert.ReferenceIdeal.Facts₀.bcast_S128_S1x128_1 b)))
            (broadcastInDim Cert.ReferenceIdeal.S5000x128 ![] Cert.ReferenceIdeal.Facts₀.bcast_S_S5000x128 (constant (F := Ideal) Cert.ReferenceIdeal.S_ .f32 0x00000000#32)))
          (addf (Host.dotGeneral Cert.ReferenceIdeal.dot_S5000x384_S384x128_S5000x128_1_0_0_1_n_n none X W)
              (broadcastInDim Cert.ReferenceIdeal.S5000x128 ![0, 1] Cert.ReferenceIdeal.Facts₀.bcast_S1x128_S5000x128_0_1
                (broadcastInDim Cert.ReferenceIdeal.S1x128 ![1] Cert.ReferenceIdeal.Facts₀.bcast_S128_S1x128_1 b)))
          (mulf (broadcastInDim Cert.ReferenceIdeal.S5000x128 ![] Cert.ReferenceIdeal.Facts₀.bcast_S_S5000x128 (constant (F := Ideal) Cert.ReferenceIdeal.S_ .f32 0x3C23D70A#32))
            (addf (Host.dotGeneral Cert.ReferenceIdeal.dot_S5000x384_S384x128_S5000x128_1_0_0_1_n_n none X W)
              (broadcastInDim Cert.ReferenceIdeal.S5000x128 ![0, 1] Cert.ReferenceIdeal.Facts₀.bcast_S1x128_S5000x128_0_1
                (broadcastInDim Cert.ReferenceIdeal.S1x128 ![1] Cert.ReferenceIdeal.Facts₀.bcast_S128_S1x128_1 b))))) :=
  residLeakyDense_eq_host Cert.ReferenceIdeal.dot_S5000x384_S384x128_S5000x128_1_0_0_1_n_n rfl X W b r _ _
    ![1] rfl _ ![0, 1] rfl rfl _ ![] _

/-- Program-graph step 2's update: region 9's array is the residual plus the leaky rectifier of the general dot product plus the bias row. -/
theorem upd9_eq (X : FVec Ideal Cert.KernelIdeal.S5000x384 .f32) (W : FVec Ideal Cert.KernelIdeal.S384x128 .f32)
    (b : FVec Ideal Cert.KernelIdeal.S128 .f32) (r : FVec Ideal Cert.KernelIdeal.S5000x128 .f32) :
    Cert.KernelIdeal.Arr.G9
        (truncf (F := Ideal) .bf16 X Cert.KernelIdeal.Facts₀.bitsLt_bf16_f32)
        (truncf (F := Ideal) .bf16 W Cert.KernelIdeal.Facts₀.bitsLt_bf16_f32)
        (shapeCast Cert.KernelIdeal.S1x128 b Cert.KernelIdeal.Facts₀.shapeCasts_S128_S1x128) r
      = addf r
        (select
          (cmpf .oge
            (addf (Host.dotGeneral Cert.ReferenceIdeal.dot_S5000x384_S384x128_S5000x128_1_0_0_1_n_n none X W)
              (broadcastInDim Cert.ReferenceIdeal.S5000x128 ![0, 1] Cert.ReferenceIdeal.Facts₀.bcast_S1x128_S5000x128_0_1
                (broadcastInDim Cert.ReferenceIdeal.S1x128 ![1] Cert.ReferenceIdeal.Facts₀.bcast_S128_S1x128_1 b)))
            (broadcastInDim Cert.ReferenceIdeal.S5000x128 ![] Cert.ReferenceIdeal.Facts₀.bcast_S_S5000x128 (constant (F := Ideal) Cert.ReferenceIdeal.S_ .f32 0x00000000#32)))
          (addf (Host.dotGeneral Cert.ReferenceIdeal.dot_S5000x384_S384x128_S5000x128_1_0_0_1_n_n none X W)
              (broadcastInDim Cert.ReferenceIdeal.S5000x128 ![0, 1] Cert.ReferenceIdeal.Facts₀.bcast_S1x128_S5000x128_0_1
                (broadcastInDim Cert.ReferenceIdeal.S1x128 ![1] Cert.ReferenceIdeal.Facts₀.bcast_S128_S1x128_1 b)))
          (mulf (broadcastInDim Cert.ReferenceIdeal.S5000x128 ![] Cert.ReferenceIdeal.Facts₀.bcast_S_S5000x128 (constant (F := Ideal) Cert.ReferenceIdeal.S_ .f32 0x3C23D70A#32))
            (addf (Host.dotGeneral Cert.ReferenceIdeal.dot_S5000x384_S384x128_S5000x128_1_0_0_1_n_n none X W)
              (broadcastInDim Cert.ReferenceIdeal.S5000x128 ![0, 1] Cert.ReferenceIdeal.Facts₀.bcast_S1x128_S5000x128_0_1
                (broadcastInDim Cert.ReferenceIdeal.S1x128 ![1] Cert.ReferenceIdeal.Facts₀.bcast_S128_S1x128_1 b))))) :=
  residLeakyDense_eq_host Cert.ReferenceIdeal.dot_S5000x384_S384x128_S5000x128_1_0_0_1_n_n rfl X W b r _ _
    ![1] rfl _ ![0, 1] rfl rfl _ ![] _

/-- The voxel update: region 16's array is the residual plus the leaky rectifier of the general dot product plus the bias row. -/
theorem voxUpd_eq (X : FVec Ideal Cert.KernelIdeal.S100000x256 .f32) (W : FVec Ideal Cert.KernelIdeal.S256x128 .f32)
    (b : FVec Ideal Cert.KernelIdeal.S128 .f32) (r : FVec Ideal Cert.KernelIdeal.S100000x128 .f32) :
    Cert.KernelIdeal.Arr.G16
        (truncf (F := Ideal) .bf16 X Cert.KernelIdeal.Facts₀.bitsLt_bf16_f32)
        (truncf (F := Ideal) .bf16 W Cert.KernelIdeal.Facts₀.bitsLt_bf16_f32)
        (shapeCast Cert.KernelIdeal.S1x128 b Cert.KernelIdeal.Facts₀.shapeCasts_S128_S1x128) r
      = addf r
        (select
          (cmpf .oge
            (addf (Host.dotGeneral Cert.ReferenceIdeal.dot_S100000x256_S256x128_S100000x128_1_0_0_1_n_n none X W)
              (broadcastInDim Cert.ReferenceIdeal.S100000x128 ![0, 1] Cert.ReferenceIdeal.Facts₀.bcast_S1x128_S100000x128_0_1
                (broadcastInDim Cert.ReferenceIdeal.S1x128 ![1] Cert.ReferenceIdeal.Facts₀.bcast_S128_S1x128_1 b)))
            (broadcastInDim Cert.ReferenceIdeal.S100000x128 ![] Cert.ReferenceIdeal.Facts₀.bcast_S_S100000x128 (constant (F := Ideal) Cert.ReferenceIdeal.S_ .f32 0x00000000#32)))
          (addf (Host.dotGeneral Cert.ReferenceIdeal.dot_S100000x256_S256x128_S100000x128_1_0_0_1_n_n none X W)
              (broadcastInDim Cert.ReferenceIdeal.S100000x128 ![0, 1] Cert.ReferenceIdeal.Facts₀.bcast_S1x128_S100000x128_0_1
                (broadcastInDim Cert.ReferenceIdeal.S1x128 ![1] Cert.ReferenceIdeal.Facts₀.bcast_S128_S1x128_1 b)))
          (mulf (broadcastInDim Cert.ReferenceIdeal.S100000x128 ![] Cert.ReferenceIdeal.Facts₀.bcast_S_S100000x128 (constant (F := Ideal) Cert.ReferenceIdeal.S_ .f32 0x3C23D70A#32))
            (addf (Host.dotGeneral Cert.ReferenceIdeal.dot_S100000x256_S256x128_S100000x128_1_0_0_1_n_n none X W)
              (broadcastInDim Cert.ReferenceIdeal.S100000x128 ![0, 1] Cert.ReferenceIdeal.Facts₀.bcast_S1x128_S100000x128_0_1
                (broadcastInDim Cert.ReferenceIdeal.S1x128 ![1] Cert.ReferenceIdeal.Facts₀.bcast_S128_S1x128_1 b))))) :=
  residLeakyDense_eq_host Cert.ReferenceIdeal.dot_S100000x256_S256x128_S100000x128_1_0_0_1_n_n rfl X W b r _ _
    ![1] rfl _ ![0, 1] rfl rfl _ ![] _

/-- A program-graph step's edge messages: region 2's array on the
    gathered halves of region 1's node-level product is the leaky rectifier of the general dot product of the gathered
    node rows, side by side, with the whole message weight, plus the bias row. -/
theorem msg2_eq (x : FVec Ideal Cert.KernelIdeal.S5000x128 .f32) (Wm : FVec Ideal Cert.KernelIdeal.S256x128 .f32) (b : FVec Ideal Cert.KernelIdeal.S128 .f32)
    (iD iS : IVec Cert.KernelIdeal.S80000x1 32) :
    Cert.KernelIdeal.Arr.G2
        (Host.gather Cert.KernelIdeal.gather_S5000x128_S80000x1_S80000x128_1_0_n_n_0_1_1128
          (Cert.KernelIdeal.Host.nodeHalf0
            (Cert.KernelIdeal.Arr.G1 (truncf (F := Ideal) .bf16 x Cert.KernelIdeal.Facts₀.bitsLt_bf16_f32) (Cert.KernelIdeal.Host.msgWeightPair Wm)
              Cert.KernelIdeal.Host.zeroRow256)) iD)
        (Host.gather Cert.KernelIdeal.gather_S5000x128_S80000x1_S80000x128_1_0_n_n_0_1_1128
          (Cert.KernelIdeal.Host.nodeHalf1
            (Cert.KernelIdeal.Arr.G1 (truncf (F := Ideal) .bf16 x Cert.KernelIdeal.Facts₀.bitsLt_bf16_f32) (Cert.KernelIdeal.Host.msgWeightPair Wm)
              Cert.KernelIdeal.Host.zeroRow256)) iS)
        (shapeCast Cert.KernelIdeal.S1x128 b Cert.KernelIdeal.Facts₀.shapeCasts_S128_S1x128)
      = select
          (cmpf .oge
            (addf (Host.dotGeneral Cert.ReferenceIdeal.dot_S80000x256_S256x128_S80000x128_1_0_0_1_n_n none (concatenate Cert.ReferenceIdeal.S80000x256 1
                [⟨Cert.ReferenceIdeal.S80000x128, Host.gather Cert.ReferenceIdeal.gather_S5000x128_S80000x1_S80000x128_1_0_n_n_0_1_1128 x iD⟩,
                 ⟨Cert.ReferenceIdeal.S80000x128, Host.gather Cert.ReferenceIdeal.gather_S5000x128_S80000x1_S80000x128_1_0_n_n_0_1_1128 x iS⟩]
                Cert.ReferenceIdeal.Facts₀.concatenates_S80000x128_S80000x128_S80000x256_d1) Wm)
              (broadcastInDim Cert.ReferenceIdeal.S80000x128 ![0, 1] Cert.ReferenceIdeal.Facts₀.bcast_S1x128_S80000x128_0_1
                (broadcastInDim Cert.ReferenceIdeal.S1x128 ![1] Cert.ReferenceIdeal.Facts₀.bcast_S128_S1x128_1 b)))
            (broadcastInDim Cert.ReferenceIdeal.S80000x128 ![] Cert.ReferenceIdeal.Facts₀.bcast_S_S80000x128 (constant (F := Ideal) Cert.ReferenceIdeal.S_ .f32 0x00000000#32)))
          (addf (Host.dotGeneral Cert.ReferenceIdeal.dot_S80000x256_S256x128_S80000x128_1_0_0_1_n_n none (concatenate Cert.ReferenceIdeal.S80000x256 1
                [⟨Cert.ReferenceIdeal.S80000x128, Host.gather Cert.ReferenceIdeal.gather_S5000x128_S80000x1_S80000x128_1_0_n_n_0_1_1128 x iD⟩,
                 ⟨Cert.ReferenceIdeal.S80000x128, Host.gather Cert.ReferenceIdeal.gather_S5000x128_S80000x1_S80000x128_1_0_n_n_0_1_1128 x iS⟩]
                Cert.ReferenceIdeal.Facts₀.concatenates_S80000x128_S80000x128_S80000x256_d1) Wm)
              (broadcastInDim Cert.ReferenceIdeal.S80000x128 ![0, 1] Cert.ReferenceIdeal.Facts₀.bcast_S1x128_S80000x128_0_1
                (broadcastInDim Cert.ReferenceIdeal.S1x128 ![1] Cert.ReferenceIdeal.Facts₀.bcast_S128_S1x128_1 b)))
          (mulf (broadcastInDim Cert.ReferenceIdeal.S80000x128 ![] Cert.ReferenceIdeal.Facts₀.bcast_S_S80000x128 (constant (F := Ideal) Cert.ReferenceIdeal.S_ .f32 0x3C23D70A#32))
            (addf (Host.dotGeneral Cert.ReferenceIdeal.dot_S80000x256_S256x128_S80000x128_1_0_0_1_n_n none (concatenate Cert.ReferenceIdeal.S80000x256 1
                [⟨Cert.ReferenceIdeal.S80000x128, Host.gather Cert.ReferenceIdeal.gather_S5000x128_S80000x1_S80000x128_1_0_n_n_0_1_1128 x iD⟩,
                 ⟨Cert.ReferenceIdeal.S80000x128, Host.gather Cert.ReferenceIdeal.gather_S5000x128_S80000x1_S80000x128_1_0_n_n_0_1_1128 x iS⟩]
                Cert.ReferenceIdeal.Facts₀.concatenates_S80000x128_S80000x128_S80000x256_d1) Wm)
              (broadcastInDim Cert.ReferenceIdeal.S80000x128 ![0, 1] Cert.ReferenceIdeal.Facts₀.bcast_S1x128_S80000x128_0_1
                (broadcastInDim Cert.ReferenceIdeal.S1x128 ![1] Cert.ReferenceIdeal.Facts₀.bcast_S128_S1x128_1 b)))) :=
  message_eq (Nn := 5000) (E := 80000) (H := 128) (C := 128) (by decide) x Wm b Cert.KernelIdeal.Host.zeroRow256
    (fun _ => Ideal.ofBits_zero_f32) iD iS _ _ _ _ _ _
    Cert.KernelIdeal.gather_S5000x128_S80000x1_S80000x128_1_0_n_n_0_1_1128 _ rfl _
    Cert.ReferenceIdeal.gather_S5000x128_S80000x1_S80000x128_1_0_n_n_0_1_1128 _ rfl _
    Cert.ReferenceIdeal.dot_S80000x256_S256x128_S80000x128_1_0_0_1_n_n rfl ![1] rfl _ ![0, 1] rfl rfl _ ![] _

/-- A program-graph step's edge messages: region 5's array on the
    gathered halves of region 4's node-level product is the leaky rectifier of the general dot product of the gathered
    node rows, side by side, with the whole message weight, plus the bias row. -/
theorem msg5_eq (x : FVec Ideal Cert.KernelIdeal.S5000x128 .f32) (Wm : FVec Ideal Cert.KernelIdeal.S256x128 .f32) (b : FVec Ideal Cert.KernelIdeal.S128 .f32)
    (iD iS : IVec Cert.KernelIdeal.S80000x1 32) :
    Cert.KernelIdeal.Arr.G5
        (Host.gather Cert.KernelIdeal.gather_S5000x128_S80000x1_S80000x128_1_0_n_n_0_1_1128
          (Cert.KernelIdeal.Host.nodeHalf0
            (Cert.KernelIdeal.Arr.G4 (truncf (F := Ideal) .bf16 x Cert.KernelIdeal.Facts₀.bitsLt_bf16_f32) (Cert.KernelIdeal.Host.msgWeightPair Wm)
              Cert.KernelIdeal.Host.zeroRow256)) iD)
        (Host.gather Cert.KernelIdeal.gather_S5000x128_S80000x1_S80000x128_1_0_n_n_0_1_1128
          (Cert.KernelIdeal.Host.nodeHalf1
            (Cert.KernelIdeal.Arr.G4 (truncf (F := Ideal) .bf16 x Cert.KernelIdeal.Facts₀.bitsLt_bf16_f32) (Cert.KernelIdeal.Host.msgWeightPair Wm)
              Cert.KernelIdeal.Host.zeroRow256)) iS)
        (shapeCast Cert.KernelIdeal.S1x128 b Cert.KernelIdeal.Facts₀.shapeCasts_S128_S1x128)
      = select
          (cmpf .oge
            (addf (Host.dotGeneral Cert.ReferenceIdeal.dot_S80000x256_S256x128_S80000x128_1_0_0_1_n_n none (concatenate Cert.ReferenceIdeal.S80000x256 1
                [⟨Cert.ReferenceIdeal.S80000x128, Host.gather Cert.ReferenceIdeal.gather_S5000x128_S80000x1_S80000x128_1_0_n_n_0_1_1128 x iD⟩,
                 ⟨Cert.ReferenceIdeal.S80000x128, Host.gather Cert.ReferenceIdeal.gather_S5000x128_S80000x1_S80000x128_1_0_n_n_0_1_1128 x iS⟩]
                Cert.ReferenceIdeal.Facts₀.concatenates_S80000x128_S80000x128_S80000x256_d1) Wm)
              (broadcastInDim Cert.ReferenceIdeal.S80000x128 ![0, 1] Cert.ReferenceIdeal.Facts₀.bcast_S1x128_S80000x128_0_1
                (broadcastInDim Cert.ReferenceIdeal.S1x128 ![1] Cert.ReferenceIdeal.Facts₀.bcast_S128_S1x128_1 b)))
            (broadcastInDim Cert.ReferenceIdeal.S80000x128 ![] Cert.ReferenceIdeal.Facts₀.bcast_S_S80000x128 (constant (F := Ideal) Cert.ReferenceIdeal.S_ .f32 0x00000000#32)))
          (addf (Host.dotGeneral Cert.ReferenceIdeal.dot_S80000x256_S256x128_S80000x128_1_0_0_1_n_n none (concatenate Cert.ReferenceIdeal.S80000x256 1
                [⟨Cert.ReferenceIdeal.S80000x128, Host.gather Cert.ReferenceIdeal.gather_S5000x128_S80000x1_S80000x128_1_0_n_n_0_1_1128 x iD⟩,
                 ⟨Cert.ReferenceIdeal.S80000x128, Host.gather Cert.ReferenceIdeal.gather_S5000x128_S80000x1_S80000x128_1_0_n_n_0_1_1128 x iS⟩]
                Cert.ReferenceIdeal.Facts₀.concatenates_S80000x128_S80000x128_S80000x256_d1) Wm)
              (broadcastInDim Cert.ReferenceIdeal.S80000x128 ![0, 1] Cert.ReferenceIdeal.Facts₀.bcast_S1x128_S80000x128_0_1
                (broadcastInDim Cert.ReferenceIdeal.S1x128 ![1] Cert.ReferenceIdeal.Facts₀.bcast_S128_S1x128_1 b)))
          (mulf (broadcastInDim Cert.ReferenceIdeal.S80000x128 ![] Cert.ReferenceIdeal.Facts₀.bcast_S_S80000x128 (constant (F := Ideal) Cert.ReferenceIdeal.S_ .f32 0x3C23D70A#32))
            (addf (Host.dotGeneral Cert.ReferenceIdeal.dot_S80000x256_S256x128_S80000x128_1_0_0_1_n_n none (concatenate Cert.ReferenceIdeal.S80000x256 1
                [⟨Cert.ReferenceIdeal.S80000x128, Host.gather Cert.ReferenceIdeal.gather_S5000x128_S80000x1_S80000x128_1_0_n_n_0_1_1128 x iD⟩,
                 ⟨Cert.ReferenceIdeal.S80000x128, Host.gather Cert.ReferenceIdeal.gather_S5000x128_S80000x1_S80000x128_1_0_n_n_0_1_1128 x iS⟩]
                Cert.ReferenceIdeal.Facts₀.concatenates_S80000x128_S80000x128_S80000x256_d1) Wm)
              (broadcastInDim Cert.ReferenceIdeal.S80000x128 ![0, 1] Cert.ReferenceIdeal.Facts₀.bcast_S1x128_S80000x128_0_1
                (broadcastInDim Cert.ReferenceIdeal.S1x128 ![1] Cert.ReferenceIdeal.Facts₀.bcast_S128_S1x128_1 b)))) :=
  message_eq (Nn := 5000) (E := 80000) (H := 128) (C := 128) (by decide) x Wm b Cert.KernelIdeal.Host.zeroRow256
    (fun _ => Ideal.ofBits_zero_f32) iD iS _ _ _ _ _ _
    Cert.KernelIdeal.gather_S5000x128_S80000x1_S80000x128_1_0_n_n_0_1_1128 _ rfl _
    Cert.ReferenceIdeal.gather_S5000x128_S80000x1_S80000x128_1_0_n_n_0_1_1128 _ rfl _
    Cert.ReferenceIdeal.dot_S80000x256_S256x128_S80000x128_1_0_0_1_n_n rfl ![1] rfl _ ![0, 1] rfl rfl _ ![] _

/-- A program-graph step's edge messages: region 8's array on the
    gathered halves of region 7's node-level product is the leaky rectifier of the general dot product of the gathered
    node rows, side by side, with the whole message weight, plus the bias row. -/
theorem msg8_eq (x : FVec Ideal Cert.KernelIdeal.S5000x128 .f32) (Wm : FVec Ideal Cert.KernelIdeal.S256x128 .f32) (b : FVec Ideal Cert.KernelIdeal.S128 .f32)
    (iD iS : IVec Cert.KernelIdeal.S80000x1 32) :
    Cert.KernelIdeal.Arr.G8
        (Host.gather Cert.KernelIdeal.gather_S5000x128_S80000x1_S80000x128_1_0_n_n_0_1_1128
          (Cert.KernelIdeal.Host.nodeHalf0
            (Cert.KernelIdeal.Arr.G7 (truncf (F := Ideal) .bf16 x Cert.KernelIdeal.Facts₀.bitsLt_bf16_f32) (Cert.KernelIdeal.Host.msgWeightPair Wm)
              Cert.KernelIdeal.Host.zeroRow256)) iD)
        (Host.gather Cert.KernelIdeal.gather_S5000x128_S80000x1_S80000x128_1_0_n_n_0_1_1128
          (Cert.KernelIdeal.Host.nodeHalf1
            (Cert.KernelIdeal.Arr.G7 (truncf (F := Ideal) .bf16 x Cert.KernelIdeal.Facts₀.bitsLt_bf16_f32) (Cert.KernelIdeal.Host.msgWeightPair Wm)
              Cert.KernelIdeal.Host.zeroRow256)) iS)
        (shapeCast Cert.KernelIdeal.S1x128 b Cert.KernelIdeal.Facts₀.shapeCasts_S128_S1x128)
      = select
          (cmpf .oge
            (addf (Host.dotGeneral Cert.ReferenceIdeal.dot_S80000x256_S256x128_S80000x128_1_0_0_1_n_n none (concatenate Cert.ReferenceIdeal.S80000x256 1
                [⟨Cert.ReferenceIdeal.S80000x128, Host.gather Cert.ReferenceIdeal.gather_S5000x128_S80000x1_S80000x128_1_0_n_n_0_1_1128 x iD⟩,
                 ⟨Cert.ReferenceIdeal.S80000x128, Host.gather Cert.ReferenceIdeal.gather_S5000x128_S80000x1_S80000x128_1_0_n_n_0_1_1128 x iS⟩]
                Cert.ReferenceIdeal.Facts₀.concatenates_S80000x128_S80000x128_S80000x256_d1) Wm)
              (broadcastInDim Cert.ReferenceIdeal.S80000x128 ![0, 1] Cert.ReferenceIdeal.Facts₀.bcast_S1x128_S80000x128_0_1
                (broadcastInDim Cert.ReferenceIdeal.S1x128 ![1] Cert.ReferenceIdeal.Facts₀.bcast_S128_S1x128_1 b)))
            (broadcastInDim Cert.ReferenceIdeal.S80000x128 ![] Cert.ReferenceIdeal.Facts₀.bcast_S_S80000x128 (constant (F := Ideal) Cert.ReferenceIdeal.S_ .f32 0x00000000#32)))
          (addf (Host.dotGeneral Cert.ReferenceIdeal.dot_S80000x256_S256x128_S80000x128_1_0_0_1_n_n none (concatenate Cert.ReferenceIdeal.S80000x256 1
                [⟨Cert.ReferenceIdeal.S80000x128, Host.gather Cert.ReferenceIdeal.gather_S5000x128_S80000x1_S80000x128_1_0_n_n_0_1_1128 x iD⟩,
                 ⟨Cert.ReferenceIdeal.S80000x128, Host.gather Cert.ReferenceIdeal.gather_S5000x128_S80000x1_S80000x128_1_0_n_n_0_1_1128 x iS⟩]
                Cert.ReferenceIdeal.Facts₀.concatenates_S80000x128_S80000x128_S80000x256_d1) Wm)
              (broadcastInDim Cert.ReferenceIdeal.S80000x128 ![0, 1] Cert.ReferenceIdeal.Facts₀.bcast_S1x128_S80000x128_0_1
                (broadcastInDim Cert.ReferenceIdeal.S1x128 ![1] Cert.ReferenceIdeal.Facts₀.bcast_S128_S1x128_1 b)))
          (mulf (broadcastInDim Cert.ReferenceIdeal.S80000x128 ![] Cert.ReferenceIdeal.Facts₀.bcast_S_S80000x128 (constant (F := Ideal) Cert.ReferenceIdeal.S_ .f32 0x3C23D70A#32))
            (addf (Host.dotGeneral Cert.ReferenceIdeal.dot_S80000x256_S256x128_S80000x128_1_0_0_1_n_n none (concatenate Cert.ReferenceIdeal.S80000x256 1
                [⟨Cert.ReferenceIdeal.S80000x128, Host.gather Cert.ReferenceIdeal.gather_S5000x128_S80000x1_S80000x128_1_0_n_n_0_1_1128 x iD⟩,
                 ⟨Cert.ReferenceIdeal.S80000x128, Host.gather Cert.ReferenceIdeal.gather_S5000x128_S80000x1_S80000x128_1_0_n_n_0_1_1128 x iS⟩]
                Cert.ReferenceIdeal.Facts₀.concatenates_S80000x128_S80000x128_S80000x256_d1) Wm)
              (broadcastInDim Cert.ReferenceIdeal.S80000x128 ![0, 1] Cert.ReferenceIdeal.Facts₀.bcast_S1x128_S80000x128_0_1
                (broadcastInDim Cert.ReferenceIdeal.S1x128 ![1] Cert.ReferenceIdeal.Facts₀.bcast_S128_S1x128_1 b)))) :=
  message_eq (Nn := 5000) (E := 80000) (H := 128) (C := 128) (by decide) x Wm b Cert.KernelIdeal.Host.zeroRow256
    (fun _ => Ideal.ofBits_zero_f32) iD iS _ _ _ _ _ _
    Cert.KernelIdeal.gather_S5000x128_S80000x1_S80000x128_1_0_n_n_0_1_1128 _ rfl _
    Cert.ReferenceIdeal.gather_S5000x128_S80000x1_S80000x128_1_0_n_n_0_1_1128 _ rfl _
    Cert.ReferenceIdeal.dot_S80000x256_S256x128_S80000x128_1_0_0_1_n_n rfl ![1] rfl _ ![0, 1] rfl rfl _ ![] _

end Cert.Bridge

end
-- ==== Proof.BridgeVox.lean ====
/-
  The voxel edge message two ways.

  Array-wise, edge `e` applies a `(H+H+Pd)×C` weight to the receiving voxel's row, the sending voxel's row and the
  difference of their positions, side by side. Block-wise, one product per voxel of `[v | pos]` against a rearranged
  weight gives every voxel two `C`-wide projections — the receiving part plus its positions' part, and the sending part
  plus its positions' part with the position rows NEGATED — and the edge adds the receiving voxel's first projection to
  the sending voxel's second. The sum over `H+H+Pd` splits in three; `(p - q)·w = p·w + q·(-w)` joins the position
  parts, and holds because positions and weights are real numbers.
-/
import Idealize.ShloMosaic.Lib.ValueLayout
import Idealize.ShloMosaic.Lib.Pipeline.Value
import proofs.«173394_j29068338659455_2_alg».proof.Proof.Spec
import proofs.«173394_j29068338659455_2_alg».proof.Proof.LibDotNN
import proofs.«173394_j29068338659455_2_alg».proof.Proof.LibRowGatherScatter
import proofs.«173394_j29068338659455_2_alg».proof.Proof.BridgeDense
import proofs.«173394_j29068338659455_2_alg».proof.Proof.BridgeMsg

noncomputable section

namespace Cert.Bridge

open Idealize.ShloMosaic Idealize.ShloMosaic.ValueIdx Cert.LibRowGatherScatter

/-- Two row blocks stacked, read in the first block. -/
theorem concatRows_top {R1 R2 C : ℕ} {α : Type} (x₁ : (⟨2, ![R1, C]⟩ : Shape).Idx → α)
    (x₂ : (⟨2, ![R2, C]⟩ : Shape).Idx → α)
    (h : Shape.Concatenates [⟨2, ![R1, C]⟩, ⟨2, ![R2, C]⟩] ⟨2, ![R1 + R2, C]⟩ (0 : Fin 2)) (k : Fin R1) (n : Fin C) :
    concatenate ⟨2, ![R1 + R2, C]⟩ (0 : Fin 2) [⟨⟨2, ![R1, C]⟩, x₁⟩, ⟨⟨2, ![R2, C]⟩, x₂⟩] h (ix2 (Fin.castAdd R2 k) n)
      = x₁ (ix2 k n) :=
  concatenate_pair_apply_left (t := ⟨2, ![R1 + R2, C]⟩) (0 : Fin 2) x₁ x₂ h (ix2 (Fin.castAdd R2 k) n) rfl (ix2 k n)
    fun b => by
      match b with
      | ⟨0, _⟩ => rfl
      | ⟨1, _⟩ => rfl

/-- Two row blocks stacked, read in the second block. -/
theorem concatRows_bot {R1 R2 C : ℕ} {α : Type} (x₁ : (⟨2, ![R1, C]⟩ : Shape).Idx → α)
    (x₂ : (⟨2, ![R2, C]⟩ : Shape).Idx → α)
    (h : Shape.Concatenates [⟨2, ![R1, C]⟩, ⟨2, ![R2, C]⟩] ⟨2, ![R1 + R2, C]⟩ (0 : Fin 2)) (k : Fin R2) (n : Fin C) :
    concatenate ⟨2, ![R1 + R2, C]⟩ (0 : Fin 2) [⟨⟨2, ![R1, C]⟩, x₁⟩, ⟨⟨2, ![R2, C]⟩, x₂⟩] h (ix2 (Fin.natAdd R1 k) n)
      = x₂ (ix2 k n) :=
  concatenate_pair_apply_right (t := ⟨2, ![R1 + R2, C]⟩) (0 : Fin 2) x₁ x₂ h (ix2 (Fin.natAdd R1 k) n) rfl rfl (ix2 k n)
    (fun b hb => by
      match b with
      | ⟨0, _⟩ => exact absurd rfl hb
      | ⟨1, _⟩ => rfl)
    (by show k.val + R1 = R1 + k.val; exact Nat.add_comm _ _)

/-- Three column blocks side by side, read in the first. -/
theorem concat3Cols_0 {R K1 K2 K3 : ℕ} {α : Type} (x₁ : (⟨2, ![R, K1]⟩ : Shape).Idx → α)
    (x₂ : (⟨2, ![R, K2]⟩ : Shape).Idx → α) (x₃ : (⟨2, ![R, K3]⟩ : Shape).Idx → α)
    (h : Shape.Concatenates [⟨2, ![R, K1]⟩, ⟨2, ![R, K2]⟩, ⟨2, ![R, K3]⟩] ⟨2, ![R, K1 + K2 + K3]⟩ (1 : Fin 2))
    (r : Fin R) (k : Fin K1) :
    concatenate ⟨2, ![R, K1 + K2 + K3]⟩ (1 : Fin 2)
        [⟨⟨2, ![R, K1]⟩, x₁⟩, ⟨⟨2, ![R, K2]⟩, x₂⟩, ⟨⟨2, ![R, K3]⟩, x₃⟩] h
        (ix2 r (Fin.castAdd K3 (Fin.castAdd K2 k)))
      = x₁ (ix2 r k) :=
  concatenate_apply_piece (t := ⟨2, ![R, K1 + K2 + K3]⟩) (1 : Fin 2) [⟨⟨2, ![R, K1]⟩, x₁⟩, ⟨⟨2, ![R, K2]⟩, x₂⟩, ⟨⟨2, ![R, K3]⟩, x₃⟩] h (ix2 r (Fin.castAdd K3 (Fin.castAdd K2 k))) 0 (by simp) ⟨2, ![R, K1]⟩ x₁ rfl rfl 0 rfl
    (ix2 r k)
    (fun b hb => by
      match b with
      | ⟨0, _⟩ => rfl
      | ⟨1, _⟩ => exact absurd rfl hb)
    (by show 0 + k.val = k.val; omega)

/-- Three column blocks side by side, read in the second. -/
theorem concat3Cols_1 {R K1 K2 K3 : ℕ} {α : Type} (x₁ : (⟨2, ![R, K1]⟩ : Shape).Idx → α)
    (x₂ : (⟨2, ![R, K2]⟩ : Shape).Idx → α) (x₃ : (⟨2, ![R, K3]⟩ : Shape).Idx → α)
    (h : Shape.Concatenates [⟨2, ![R, K1]⟩, ⟨2, ![R, K2]⟩, ⟨2, ![R, K3]⟩] ⟨2, ![R, K1 + K2 + K3]⟩ (1 : Fin 2))
    (r : Fin R) (k : Fin K2) :
    concatenate ⟨2, ![R, K1 + K2 + K3]⟩ (1 : Fin 2)
        [⟨⟨2, ![R, K1]⟩, x₁⟩, ⟨⟨2, ![R, K2]⟩, x₂⟩, ⟨⟨2, ![R, K3]⟩, x₃⟩] h
        (ix2 r (Fin.castAdd K3 (Fin.natAdd K1 k)))
      = x₂ (ix2 r k) :=
  concatenate_apply_piece (t := ⟨2, ![R, K1 + K2 + K3]⟩) (1 : Fin 2) [⟨⟨2, ![R, K1]⟩, x₁⟩, ⟨⟨2, ![R, K2]⟩, x₂⟩, ⟨⟨2, ![R, K3]⟩, x₃⟩] h (ix2 r (Fin.castAdd K3 (Fin.natAdd K1 k))) 1 (by simp) ⟨2, ![R, K2]⟩ x₂ rfl rfl K1
    (by show (if h : (2 : ℕ) = 2 then K1 else 0) + 0 = K1; rw [dif_pos rfl, Nat.add_zero])
    (ix2 r k)
    (fun b hb => by
      match b with
      | ⟨0, _⟩ => rfl
      | ⟨1, _⟩ => exact absurd rfl hb)
    rfl

/-- Three column blocks side by side, read in the third. -/
theorem concat3Cols_2 {R K1 K2 K3 : ℕ} {α : Type} (x₁ : (⟨2, ![R, K1]⟩ : Shape).Idx → α)
    (x₂ : (⟨2, ![R, K2]⟩ : Shape).Idx → α) (x₃ : (⟨2, ![R, K3]⟩ : Shape).Idx → α)
    (h : Shape.Concatenates [⟨2, ![R, K1]⟩, ⟨2, ![R, K2]⟩, ⟨2, ![R, K3]⟩] ⟨2, ![R, K1 + K2 + K3]⟩ (1 : Fin 2))
    (r : Fin R) (k : Fin K3) :
    concatenate ⟨2, ![R, K1 + K2 + K3]⟩ (1 : Fin 2)
        [⟨⟨2, ![R, K1]⟩, x₁⟩, ⟨⟨2, ![R, K2]⟩, x₂⟩, ⟨⟨2, ![R, K3]⟩, x₃⟩] h
        (ix2 r (Fin.natAdd (K1 + K2) k))
      = x₃ (ix2 r k) :=
  concatenate_apply_piece (t := ⟨2, ![R, K1 + K2 + K3]⟩) (1 : Fin 2) [⟨⟨2, ![R, K1]⟩, x₁⟩, ⟨⟨2, ![R, K2]⟩, x₂⟩, ⟨⟨2, ![R, K3]⟩, x₃⟩] h (ix2 r (Fin.natAdd (K1 + K2) k)) 2 (by simp) ⟨2, ![R, K3]⟩ x₃ rfl rfl (K1 + K2)
    (by show (if h : (2 : ℕ) = 2 then K1 else 0) + ((if h : (2 : ℕ) = 2 then K2 else 0) + 0) = K1 + K2
        rw [dif_pos rfl, dif_pos rfl, Nat.add_zero])
    (ix2 r k)
    (fun b hb => by
      match b with
      | ⟨0, _⟩ => rfl
      | ⟨1, _⟩ => exact absurd rfl hb)
    rfl

/-- For real numbers, `(a - b)·w = a·w + b·(-w)`. On the extended reals this fails at infinities, so the three operands
    are asked to be real. -/
theorem sub_mul_of_real {a b w : EReal} (ha : ∃ r : ℝ, a = r) (hb : ∃ r : ℝ, b = r) (hw : ∃ r : ℝ, w = r) :
    (a - b) * w = a * w + b * (-w) := by
  obtain ⟨ra, rfl⟩ := ha
  obtain ⟨rb, rfl⟩ := hb
  obtain ⟨rw, rfl⟩ := hw
  rw [← EReal.coe_sub, ← EReal.coe_neg, ← EReal.coe_mul, ← EReal.coe_mul, ← EReal.coe_mul, ← EReal.coe_add]
  exact congrArg _ (by ring)

/-- The sum over `H1 + H2 + H3` of products, split in three, when the two factors are given piecewise. -/
theorem sum_split3_mul {H1 H2 H3 : ℕ} (cat W : Fin (H1 + H2 + H3) → EReal) (a₁ w₁ : Fin H1 → EReal)
    (a₂ w₂ : Fin H2 → EReal) (a₃ w₃ : Fin H3 → EReal)
    (hc1 : ∀ k, cat (Fin.castAdd H3 (Fin.castAdd H2 k)) = a₁ k) (hc2 : ∀ k, cat (Fin.castAdd H3 (Fin.natAdd H1 k)) = a₂ k)
    (hc3 : ∀ k, cat (Fin.natAdd (H1 + H2) k) = a₃ k)
    (hw1 : ∀ k, W (Fin.castAdd H3 (Fin.castAdd H2 k)) = w₁ k) (hw2 : ∀ k, W (Fin.castAdd H3 (Fin.natAdd H1 k)) = w₂ k)
    (hw3 : ∀ k, W (Fin.natAdd (H1 + H2) k) = w₃ k) :
    ∑ j, cat j * W j = (∑ k, a₁ k * w₁ k) + (∑ k, a₂ k * w₂ k) + ∑ k, a₃ k * w₃ k := by
  rw [Fin.sum_univ_add, Fin.sum_univ_add]
  refine congrArg₂ (· + ·) (congrArg₂ (· + ·) ?_ ?_) ?_
  · exact Finset.sum_congr rfl fun k _ => by rw [hc1, hw1]
  · exact Finset.sum_congr rfl fun k _ => by rw [hc2, hw2]
  · exact Finset.sum_congr rfl fun k _ => by rw [hc3, hw3]

/-- The voxel edge message, block-wise against array-wise, over operands given by how they read. Block-wise: one
    node-level product of `[v | pos]` (`catK`) with a weight `Wp` whose left half stacks `W`'s rows for the receiving
    voxel over its position rows and whose right half stacks the rows for the sending voxel over the NEGATED position
    rows; the edge adds the receiving voxel's left projection to the sending voxel's right one. Array-wise: the general
    dot product of `[v[d] | v[s] | pos[d] - pos[s]]` (`cat3`) with `W`. The sum over `H+H+Pd` splits in three; the
    position part uses `(p - q)·w = p·w + q·(-w)`, which holds for real `p, q, w`. -/
theorem voxMessage_core {Nv E H Pd C : ℕ} (hN : 0 < Nv)
    (v : FVec Ideal ⟨2, ![Nv, H]⟩ .f32) (pos : FVec Ideal ⟨2, ![Nv, Pd]⟩ .f32)
    (W : FVec Ideal ⟨2, ![H + H + Pd, C]⟩ .f32) (b : FVec Ideal ⟨1, ![C]⟩ .f32)
    (zrow : FVec Ideal ⟨2, ![1, C + C]⟩ .f32) (hz : ∀ c, zrow (ix2 (0 : Fin 1) c) = 0)
    (hpos : ∀ i, ∃ r : ℝ, pos i = r)
    (hWreal : ∀ (k : Fin Pd) (n : Fin C), ∃ r : ℝ, W (ix2 (Fin.natAdd (H + H) k) n) = r)
    (iD iS : IVec ⟨2, ![E, 1]⟩ 32) (hlt : FTy.bits .bf16 < FTy.bits .f32)
    (catK : FVec Ideal ⟨2, ![Nv, H + Pd]⟩ .f32)
    (hcK0 : ∀ r k, catK (ix2 r (Fin.castAdd Pd k)) = v (ix2 r k))
    (hcK1 : ∀ r k, catK (ix2 r (Fin.natAdd H k)) = pos (ix2 r k))
    (Wp : FVec Ideal ⟨2, ![H + Pd, C + C]⟩ .f32)
    (hWp00 : ∀ k n, Wp (ix2 (Fin.castAdd Pd k) (Fin.castAdd C n)) = W (ix2 (Fin.castAdd Pd (Fin.castAdd H k)) n))
    (hWp10 : ∀ k n, Wp (ix2 (Fin.natAdd H k) (Fin.castAdd C n)) = W (ix2 (Fin.natAdd (H + H) k) n))
    (hWp01 : ∀ k n, Wp (ix2 (Fin.castAdd Pd k) (Fin.natAdd C n)) = W (ix2 (Fin.castAdd Pd (Fin.natAdd H k)) n))
    (hWp11 : ∀ k n, Wp (ix2 (Fin.natAdd H k) (Fin.natAdd C n)) = -W (ix2 (Fin.natAdd (H + H) k) n))
    (hp0 : (⟨2, ![Nv, C + C]⟩ : Shape).Slices ![0, 0] ⟨2, ![Nv, C]⟩)
    (hp1 : (⟨2, ![Nv, C + C]⟩ : Shape).Slices ![0, C] ⟨2, ![Nv, C]⟩)
    (gK : GatherDims ⟨2, ![Nv, C]⟩ ⟨2, ![E, 1]⟩ ⟨2, ![E, C]⟩)
    (wfK : GatherDims.WF ⟨2, ![Nv, C]⟩ ⟨2, ![E, 1]⟩ ⟨2, ![E, C]⟩ [1] [0] [] [0] [] 1 ![1, C]) (hgK : gK = rowsDims Nv E C wfK)
    (hcast : (⟨1, ![C]⟩ : Shape).ShapeCasts ⟨2, ![1, C]⟩)
    (cat3 : FVec Ideal ⟨2, ![E, H + H + Pd]⟩ .f32)
    (hc0 : ∀ e k, cat3 (ix2 e (Fin.castAdd Pd (Fin.castAdd H k))) = v (ix2 (clampRow Nv hN (iD (ix2 e 0))) k))
    (hc1 : ∀ e k, cat3 (ix2 e (Fin.castAdd Pd (Fin.natAdd H k))) = v (ix2 (clampRow Nv hN (iS (ix2 e 0))) k))
    (hc2 : ∀ e k, cat3 (ix2 e (Fin.natAdd (H + H) k))
      = pos (ix2 (clampRow Nv hN (iD (ix2 e 0))) k) - pos (ix2 (clampRow Nv hN (iS (ix2 e 0))) k))
    (D : DotDims ⟨2, ![E, H + H + Pd]⟩ ⟨2, ![H + H + Pd, C]⟩ ⟨2, ![E, C]⟩) (hD : D = DotDims.plain E (H + H + Pd) C)
    (d1 : Fin 1 → Fin 2) (hd1 : d1 0 = 1) (h1 : (⟨1, ![C]⟩ : Shape).BroadcastsInDim ⟨2, ![1, C]⟩ d1)
    (d2 : Fin 2 → Fin 2) (hd20 : d2 0 = 0) (hd21 : d2 1 = 1)
    (h2 : (⟨2, ![1, C]⟩ : Shape).BroadcastsInDim ⟨2, ![E, C]⟩ d2)
    (d0 : Fin 0 → Fin 2) (h0 : (⟨0, ![]⟩ : Shape).BroadcastsInDim ⟨2, ![E, C]⟩ d0) :
    Cert.KernelIdeal.Arr.leakyPair
        (Host.gather gK
          (extractStridedSlice ⟨2, ![Nv, C]⟩ ![0, 0]
            (Cert.KernelIdeal.Arr.dense (φ := .bf16) (truncf .bf16 catK hlt) (truncf .bf16 Wp hlt) zrow) hp0) iD)
        (Host.gather gK
          (extractStridedSlice ⟨2, ![Nv, C]⟩ ![0, C]
            (Cert.KernelIdeal.Arr.dense (φ := .bf16) (truncf .bf16 catK hlt) (truncf .bf16 Wp hlt) zrow) hp1) iS)
        (shapeCast ⟨2, ![1, C]⟩ b hcast)
      = select
          (cmpf .oge
            (addf (Host.dotGeneral D none cat3 W) (broadcastInDim ⟨2, ![E, C]⟩ d2 h2 (broadcastInDim ⟨2, ![1, C]⟩ d1 h1 b)))
            (broadcastInDim ⟨2, ![E, C]⟩ d0 h0 (constant (F := Ideal) ⟨0, ![]⟩ .f32 0x00000000#32)))
          (addf (Host.dotGeneral D none cat3 W) (broadcastInDim ⟨2, ![E, C]⟩ d2 h2 (broadcastInDim ⟨2, ![1, C]⟩ d1 h1 b)))
          (mulf (broadcastInDim ⟨2, ![E, C]⟩ d0 h0 (constant (F := Ideal) ⟨0, ![]⟩ .f32 0x3C23D70A#32))
            (addf (Host.dotGeneral D none cat3 W) (broadcastInDim ⟨2, ![E, C]⟩ d2 h2 (broadcastInDim ⟨2, ![1, C]⟩ d1 h1 b)))) := by
  subst hgK
  funext j
  obtain ⟨e, n, rfl⟩ : ∃ (e : Fin E) (n : Fin C), j = ix2 e n := ⟨j 0, j 1, eq_ix2 j⟩
  refine Eq.trans ?_ (Cert.Spec.hostLeaky_apply d0 h0 _ (ix2 e n)).symm
  refine (Cert.KernelIdeal.Arr.leakyPair_apply _ _ _ e n).trans (congrArg Cert.Spec.leaky ?_)
  rw [hostDense_apply D hD cat3 W b d1 hd1 h1 d2 hd20 hd21 h2 e n,
    gather_rows_apply hN wfK _ iD e n, gather_rows_apply hN wfK _ iS e n,
    shapeCast_a_1a_apply b hcast 0 n,
    slice2_axis1_apply 0 _ hp0 _ n (Fin.castAdd C n) (by show n.val = 0 + n.val; omega),
    slice2_axis1_apply C _ hp1 _ n (Fin.natAdd C n) rfl,
    Cert.KernelIdeal.Arr.dense_apply, Cert.KernelIdeal.Arr.dense_apply, hz, hz, add_zero, add_zero]
  refine congrArg (· + b (ix1 n)) ?_
  have hKD := sum_split_mul (H1 := H) (H2 := Pd)
    (fun j => catK (ix2 (clampRow Nv hN (iD (ix2 e 0))) j)) (fun j => Wp (ix2 j (Fin.castAdd C n)))
    (fun k => v (ix2 (clampRow Nv hN (iD (ix2 e 0))) k)) (fun k => W (ix2 (Fin.castAdd Pd (Fin.castAdd H k)) n))
    (fun k => pos (ix2 (clampRow Nv hN (iD (ix2 e 0))) k)) (fun k => W (ix2 (Fin.natAdd (H + H) k) n))
    (fun k => hcK0 _ k) (fun k => hcK1 _ k) (fun k => hWp00 k n) (fun k => hWp10 k n)
  have hKS := sum_split_mul (H1 := H) (H2 := Pd)
    (fun j => catK (ix2 (clampRow Nv hN (iS (ix2 e 0))) j)) (fun j => Wp (ix2 j (Fin.natAdd C n)))
    (fun k => v (ix2 (clampRow Nv hN (iS (ix2 e 0))) k)) (fun k => W (ix2 (Fin.castAdd Pd (Fin.natAdd H k)) n))
    (fun k => pos (ix2 (clampRow Nv hN (iS (ix2 e 0))) k)) (fun k => -W (ix2 (Fin.natAdd (H + H) k) n))
    (fun k => hcK0 _ k) (fun k => hcK1 _ k) (fun k => hWp01 k n) (fun k => hWp11 k n)
  have hR := sum_split3_mul (H1 := H) (H2 := H) (H3 := Pd)
    (fun j => cat3 (ix2 e j)) (fun j => W (ix2 j n))
    (fun k => v (ix2 (clampRow Nv hN (iD (ix2 e 0))) k)) (fun k => W (ix2 (Fin.castAdd Pd (Fin.castAdd H k)) n))
    (fun k => v (ix2 (clampRow Nv hN (iS (ix2 e 0))) k)) (fun k => W (ix2 (Fin.castAdd Pd (Fin.natAdd H k)) n))
    (fun k => pos (ix2 (clampRow Nv hN (iD (ix2 e 0))) k) - pos (ix2 (clampRow Nv hN (iS (ix2 e 0))) k))
    (fun k => W (ix2 (Fin.natAdd (H + H) k) n))
    (fun k => hc0 e k) (fun k => hc1 e k) (fun k => hc2 e k) (fun _ => rfl) (fun _ => rfl) (fun _ => rfl)
  refine (congrArg₂ (· + ·) hKD hKS).trans (Eq.trans ?_ hR.symm)
  rw [add_add_add_comm]
  refine congrArg₂ (· + ·) rfl ?_
  rw [← Finset.sum_add_distrib]
  exact Finset.sum_congr rfl fun k _ => (sub_mul_of_real (hpos _) (hpos _) (hWreal k n)).symm

/-- The voxel edge message with the operands spelt out: the node-level left operand is the voxel rows beside the
    positions, the node-level weight stacks and pairs the slices of `W` (the sending side's position rows negated), and
    the array-wise operand sets the two gathered voxel rows beside the difference of the gathered positions. -/
theorem voxMessage_eq {Nv E H Pd C : ℕ} (hN : 0 < Nv)
    (v : FVec Ideal ⟨2, ![Nv, H]⟩ .f32) (pos : FVec Ideal ⟨2, ![Nv, Pd]⟩ .f32)
    (W : FVec Ideal ⟨2, ![H + H + Pd, C]⟩ .f32) (b : FVec Ideal ⟨1, ![C]⟩ .f32)
    (zrow : FVec Ideal ⟨2, ![1, C + C]⟩ .f32) (hz : ∀ c, zrow (ix2 (0 : Fin 1) c) = 0)
    (iD iS : IVec ⟨2, ![E, 1]⟩ 32) (hlt : FTy.bits .bf16 < FTy.bits .f32)
    (hcatK : Shape.Concatenates [⟨2, ![Nv, H]⟩, ⟨2, ![Nv, Pd]⟩] ⟨2, ![Nv, H + Pd]⟩ (1 : Fin 2))
    (hw0 : (⟨2, ![H + H + Pd, C]⟩ : Shape).Slices ![0, 0] ⟨2, ![H, C]⟩)
    (hw1 : (⟨2, ![H + H + Pd, C]⟩ : Shape).Slices ![H, 0] ⟨2, ![H, C]⟩)
    (hw2 : (⟨2, ![H + H + Pd, C]⟩ : Shape).Slices ![H + H, 0] ⟨2, ![Pd, C]⟩)
    (hpos : ∀ i, ∃ r : ℝ, pos i = r)
    (hWrel : ∀ i, ∃ r : ℝ, extractStridedSlice ⟨2, ![Pd, C]⟩ ![H + H, 0] W hw2 i = r)
    (hrows : Shape.Concatenates [⟨2, ![H, C]⟩, ⟨2, ![Pd, C]⟩] ⟨2, ![H + Pd, C]⟩ (0 : Fin 2))
    (hwc : Shape.Concatenates [⟨2, ![H + Pd, C]⟩, ⟨2, ![H + Pd, C]⟩] ⟨2, ![H + Pd, C + C]⟩ (1 : Fin 2))
    (hp0 : (⟨2, ![Nv, C + C]⟩ : Shape).Slices ![0, 0] ⟨2, ![Nv, C]⟩)
    (hp1 : (⟨2, ![Nv, C + C]⟩ : Shape).Slices ![0, C] ⟨2, ![Nv, C]⟩)
    (gK : GatherDims ⟨2, ![Nv, C]⟩ ⟨2, ![E, 1]⟩ ⟨2, ![E, C]⟩)
    (wfK : GatherDims.WF ⟨2, ![Nv, C]⟩ ⟨2, ![E, 1]⟩ ⟨2, ![E, C]⟩ [1] [0] [] [0] [] 1 ![1, C]) (hgK : gK = rowsDims Nv E C wfK)
    (hcast : (⟨1, ![C]⟩ : Shape).ShapeCasts ⟨2, ![1, C]⟩)
    (gR : GatherDims ⟨2, ![Nv, H]⟩ ⟨2, ![E, 1]⟩ ⟨2, ![E, H]⟩)
    (wfR : GatherDims.WF ⟨2, ![Nv, H]⟩ ⟨2, ![E, 1]⟩ ⟨2, ![E, H]⟩ [1] [0] [] [0] [] 1 ![1, H]) (hgR : gR = rowsDims Nv E H wfR)
    (gP : GatherDims ⟨2, ![Nv, Pd]⟩ ⟨2, ![E, 1]⟩ ⟨2, ![E, Pd]⟩)
    (wfP : GatherDims.WF ⟨2, ![Nv, Pd]⟩ ⟨2, ![E, 1]⟩ ⟨2, ![E, Pd]⟩ [1] [0] [] [0] [] 1 ![1, Pd]) (hgP : gP = rowsDims Nv E Pd wfP)
    (hcat3 : Shape.Concatenates [⟨2, ![E, H]⟩, ⟨2, ![E, H]⟩, ⟨2, ![E, Pd]⟩] ⟨2, ![E, H + H + Pd]⟩ (1 : Fin 2))
    (D : DotDims ⟨2, ![E, H + H + Pd]⟩ ⟨2, ![H + H + Pd, C]⟩ ⟨2, ![E, C]⟩) (hD : D = DotDims.plain E (H + H + Pd) C)
    (d1 : Fin 1 → Fin 2) (hd1 : d1 0 = 1) (h1 : (⟨1, ![C]⟩ : Shape).BroadcastsInDim ⟨2, ![1, C]⟩ d1)
    (d2 : Fin 2 → Fin 2) (hd20 : d2 0 = 0) (hd21 : d2 1 = 1)
    (h2 : (⟨2, ![1, C]⟩ : Shape).BroadcastsInDim ⟨2, ![E, C]⟩ d2)
    (d0 : Fin 0 → Fin 2) (h0 : (⟨0, ![]⟩ : Shape).BroadcastsInDim ⟨2, ![E, C]⟩ d0) :
    Cert.KernelIdeal.Arr.leakyPair
        (Host.gather gK
          (extractStridedSlice ⟨2, ![Nv, C]⟩ ![0, 0]
            (Cert.KernelIdeal.Arr.dense (φ := .bf16)
              (truncf .bf16 (concatenate ⟨2, ![Nv, H + Pd]⟩ (1 : Fin 2) [⟨⟨2, ![Nv, H]⟩, v⟩, ⟨⟨2, ![Nv, Pd]⟩, pos⟩] hcatK) hlt)
              (truncf .bf16
                (concatenate ⟨2, ![H + Pd, C + C]⟩ (1 : Fin 2)
                  [⟨⟨2, ![H + Pd, C]⟩, concatenate ⟨2, ![H + Pd, C]⟩ (0 : Fin 2)
                      [⟨⟨2, ![H, C]⟩, extractStridedSlice ⟨2, ![H, C]⟩ ![0, 0] W hw0⟩,
                       ⟨⟨2, ![Pd, C]⟩, extractStridedSlice ⟨2, ![Pd, C]⟩ ![H + H, 0] W hw2⟩] hrows⟩,
                   ⟨⟨2, ![H + Pd, C]⟩, concatenate ⟨2, ![H + Pd, C]⟩ (0 : Fin 2)
                      [⟨⟨2, ![H, C]⟩, extractStridedSlice ⟨2, ![H, C]⟩ ![H, 0] W hw1⟩,
                       ⟨⟨2, ![Pd, C]⟩, Host.negf (F := Ideal) (extractStridedSlice ⟨2, ![Pd, C]⟩ ![H + H, 0] W hw2)⟩] hrows⟩]
                  hwc) hlt)
              zrow) hp0) iD)
        (Host.gather gK
          (extractStridedSlice ⟨2, ![Nv, C]⟩ ![0, C]
            (Cert.KernelIdeal.Arr.dense (φ := .bf16)
              (truncf .bf16 (concatenate ⟨2, ![Nv, H + Pd]⟩ (1 : Fin 2) [⟨⟨2, ![Nv, H]⟩, v⟩, ⟨⟨2, ![Nv, Pd]⟩, pos⟩] hcatK) hlt)
              (truncf .bf16
                (concatenate ⟨2, ![H + Pd, C + C]⟩ (1 : Fin 2)
                  [⟨⟨2, ![H + Pd, C]⟩, concatenate ⟨2, ![H + Pd, C]⟩ (0 : Fin 2)
                      [⟨⟨2, ![H, C]⟩, extractStridedSlice ⟨2, ![H, C]⟩ ![0, 0] W hw0⟩,
                       ⟨⟨2, ![Pd, C]⟩, extractStridedSlice ⟨2, ![Pd, C]⟩ ![H + H, 0] W hw2⟩] hrows⟩,
                   ⟨⟨2, ![H + Pd, C]⟩, concatenate ⟨2, ![H + Pd, C]⟩ (0 : Fin 2)
                      [⟨⟨2, ![H, C]⟩, extractStridedSlice ⟨2, ![H, C]⟩ ![H, 0] W hw1⟩,
                       ⟨⟨2, ![Pd, C]⟩, Host.negf (F := Ideal) (extractStridedSlice ⟨2, ![Pd, C]⟩ ![H + H, 0] W hw2)⟩] hrows⟩]
                  hwc) hlt)
              zrow) hp1) iS)
        (shapeCast ⟨2, ![1, C]⟩ b hcast)
      = select
          (cmpf .oge
            (addf
              (Host.dotGeneral D none
                (concatenate ⟨2, ![E, H + H + Pd]⟩ (1 : Fin 2)
                  [⟨⟨2, ![E, H]⟩, Host.gather gR v iD⟩, ⟨⟨2, ![E, H]⟩, Host.gather gR v iS⟩,
                   ⟨⟨2, ![E, Pd]⟩, subf (F := Ideal) (Host.gather gP pos iD) (Host.gather gP pos iS)⟩] hcat3) W)
              (broadcastInDim ⟨2, ![E, C]⟩ d2 h2 (broadcastInDim ⟨2, ![1, C]⟩ d1 h1 b)))
            (broadcastInDim ⟨2, ![E, C]⟩ d0 h0 (constant (F := Ideal) ⟨0, ![]⟩ .f32 0x00000000#32)))
          (addf
            (Host.dotGeneral D none
              (concatenate ⟨2, ![E, H + H + Pd]⟩ (1 : Fin 2)
                [⟨⟨2, ![E, H]⟩, Host.gather gR v iD⟩, ⟨⟨2, ![E, H]⟩, Host.gather gR v iS⟩,
                 ⟨⟨2, ![E, Pd]⟩, subf (F := Ideal) (Host.gather gP pos iD) (Host.gather gP pos iS)⟩] hcat3) W)
            (broadcastInDim ⟨2, ![E, C]⟩ d2 h2 (broadcastInDim ⟨2, ![1, C]⟩ d1 h1 b)))
          (mulf (broadcastInDim ⟨2, ![E, C]⟩ d0 h0 (constant (F := Ideal) ⟨0, ![]⟩ .f32 0x3C23D70A#32))
            (addf
              (Host.dotGeneral D none
                (concatenate ⟨2, ![E, H + H + Pd]⟩ (1 : Fin 2)
                  [⟨⟨2, ![E, H]⟩, Host.gather gR v iD⟩, ⟨⟨2, ![E, H]⟩, Host.gather gR v iS⟩,
                   ⟨⟨2, ![E, Pd]⟩, subf (F := Ideal) (Host.gather gP pos iD) (Host.gather gP pos iS)⟩] hcat3) W)
              (broadcastInDim ⟨2, ![E, C]⟩ d2 h2 (broadcastInDim ⟨2, ![1, C]⟩ d1 h1 b)))) := by
  subst hgR hgP
  refine voxMessage_core hN v pos W b zrow hz hpos
    (fun k n => by
      obtain ⟨r, hr⟩ := hWrel (ix2 k n)
      exact ⟨r, (slice2_axis0_apply (H + H) W hw2 k n (Fin.natAdd (H + H) k) rfl).symm.trans hr⟩)
    iD iS hlt _
    (fun r k => concatCols_left _ _ hcatK r k) (fun r k => concatCols_right _ _ hcatK r k) _
    (fun k n => (concatCols_left _ _ hwc (Fin.castAdd Pd k) n).trans ((concatRows_top _ _ hrows k n).trans
      (slice2_axis0_apply 0 W hw0 k n (Fin.castAdd Pd (Fin.castAdd H k)) (by show k.val = 0 + k.val; omega))))
    (fun k n => (concatCols_left _ _ hwc (Fin.natAdd H k) n).trans ((concatRows_bot _ _ hrows k n).trans
      (slice2_axis0_apply (H + H) W hw2 k n (Fin.natAdd (H + H) k) rfl)))
    (fun k n => (concatCols_right _ _ hwc (Fin.castAdd Pd k) n).trans ((concatRows_top _ _ hrows k n).trans
      (slice2_axis0_apply H W hw1 k n (Fin.castAdd Pd (Fin.natAdd H k)) rfl)))
    (fun k n => (concatCols_right _ _ hwc (Fin.natAdd H k) n).trans ((concatRows_bot _ _ hrows k n).trans
      (congrArg Neg.neg (slice2_axis0_apply (H + H) W hw2 k n (Fin.natAdd (H + H) k) rfl))))
    hp0 hp1 gK wfK hgK hcast _
    (fun e k => (concat3Cols_0 _ _ _ hcat3 e k).trans (gather_rows_apply hN wfR v iD e k))
    (fun e k => (concat3Cols_1 _ _ _ hcat3 e k).trans (gather_rows_apply hN wfR v iS e k))
    (fun e k => (concat3Cols_2 _ _ _ hcat3 e k).trans
      (congrArg₂ (· - ·) (gather_rows_apply hN wfP pos iD e k) (gather_rows_apply hN wfP pos iS e k)))
    D hD d1 hd1 h1 d2 hd20 hd21 h2 d0 h0

end Cert.Bridge

end
-- ==== Proof.BridgeAttn.lean ====
/-
  The attention logits two ways, and the attention-weighted rows.

  Array-wise, a cross edge's hidden vector is the hyperbolic tangent of a general dot product of the program row beside
  the voxel row with the first weight, plus a bias, and its logit is a general dot product with the `[C, 1]` second
  weight plus a bias. Block-wise, each node is projected once with its half of the first weight, the projections are
  gathered to the edges and added, and the second layer is a sum along the row against the second weight laid as a
  row. The first layer's sum over `H+H` splits at `H`; the hyperbolic tangent is one function; the second layer is the
  same finite sum.
-/
import Idealize.ShloMosaic.Lib.ValueLayout
import Idealize.ShloMosaic.Lib.Pipeline.Value
import proofs.«173394_j29068338659455_2_alg».proof.Proof.Spec
import proofs.«173394_j29068338659455_2_alg».proof.Proof.LibDotNN
import proofs.«173394_j29068338659455_2_alg».proof.Proof.LibRowGatherScatter
import proofs.«173394_j29068338659455_2_alg».proof.Proof.BridgeDense
import proofs.«173394_j29068338659455_2_alg».proof.Proof.BridgeMsg

noncomputable section

namespace Cert.Bridge

open Idealize.ShloMosaic Idealize.ShloMosaic.ValueIdx Cert.LibRowGatherScatter

/-- A `[C, 1]` column recast as a `[1, C]` row reads, at `(u, k)`, the column at `k`. -/
theorem shapeCast_a1_1a_apply {C : ℕ} {α : Type} (x : (⟨2, ![C, 1]⟩ : Shape).Idx → α)
    (h : (⟨2, ![C, 1]⟩ : Shape).ShapeCasts ⟨2, ![1, C]⟩) (u : Fin 1) (k : Fin C) :
    shapeCast ⟨2, ![1, C]⟩ x h (ix2 u k) = x (ix2 k (0 : Fin 1)) :=
  shapeCast_apply x h _ _ (by
    have hu : u.val = 0 := by omega
    rw [Shape.rowMajor_val_two, Shape.rowMajor_val_two]
    show k.val * 1 + 0 = u.val * C + k.val
    rw [hu, Nat.zero_mul, Nat.zero_add, Nat.mul_one, Nat.add_zero])

/-- The attention logits, block-wise against array-wise. Block-wise: two node-level products (the program rows with
    the first weight's upper half `Wtop`, the voxel rows with its lower half `Wbot`), gathered to the cross edges,
    summed with the first bias, through the hyperbolic tangent, times the second weight laid as a row, summed along the
    row, plus the second bias. Array-wise: the general dot product of `[x[p] | v[q]]` (`cat`) with the whole first weight
    plus the bias, through the hyperbolic tangent, then the general dot product with the `[C, 1]` second weight plus its
    bias. The first layer's sum over `H+H` splits at `H`; the second layer's is the same sum either way. -/
theorem logits_core {Np Nv E H C : ℕ} (hNp : 0 < Np) (hNv : 0 < Nv)
    (x : FVec Ideal ⟨2, ![Np, H]⟩ .f32) (v : FVec Ideal ⟨2, ![Nv, H]⟩ .f32)
    (Wa : FVec Ideal ⟨2, ![H + H, C]⟩ .f32) (b1 : FVec Ideal ⟨1, ![C]⟩ .f32)
    (W2 : FVec Ideal ⟨2, ![C, 1]⟩ .f32) (b2 : FVec Ideal ⟨1, ![1]⟩ .f32)
    (zrow : FVec Ideal ⟨2, ![1, C]⟩ .f32) (hz : ∀ c, zrow (ix2 (0 : Fin 1) c) = 0)
    (iP iV : IVec ⟨2, ![E, 1]⟩ 32) (hlt : FTy.bits .bf16 < FTy.bits .f32)
    (Wtop Wbot : FVec Ideal ⟨2, ![H, C]⟩ .f32)
    (hWtop : ∀ j k, Wtop (ix2 j k) = Wa (ix2 (Fin.castAdd H j) k))
    (hWbot : ∀ j k, Wbot (ix2 j k) = Wa (ix2 (Fin.natAdd H j) k))
    (gKp : GatherDims ⟨2, ![Np, C]⟩ ⟨2, ![E, 1]⟩ ⟨2, ![E, C]⟩)
    (wfKp : GatherDims.WF ⟨2, ![Np, C]⟩ ⟨2, ![E, 1]⟩ ⟨2, ![E, C]⟩ [1] [0] [] [0] [] 1 ![1, C]) (hgKp : gKp = rowsDims Np E C wfKp)
    (gKv : GatherDims ⟨2, ![Nv, C]⟩ ⟨2, ![E, 1]⟩ ⟨2, ![E, C]⟩)
    (wfKv : GatherDims.WF ⟨2, ![Nv, C]⟩ ⟨2, ![E, 1]⟩ ⟨2, ![E, C]⟩ [1] [0] [] [0] [] 1 ![1, C]) (hgKv : gKv = rowsDims Nv E C wfKv)
    (hc1 : (⟨1, ![C]⟩ : Shape).ShapeCasts ⟨2, ![1, C]⟩)
    (w2row : FVec Ideal ⟨2, ![1, C]⟩ .f32) (hw2 : ∀ k, w2row (ix2 (0 : Fin 1) k) = W2 (ix2 k (0 : Fin 1)))
    (hcb : (⟨1, ![1]⟩ : Shape).ShapeCasts ⟨2, ![1, 1]⟩)
    (cat : FVec Ideal ⟨2, ![E, H + H]⟩ .f32)
    (hc0 : ∀ e j, cat (ix2 e (Fin.castAdd H j)) = x (ix2 (clampRow Np hNp (iP (ix2 e 0))) j))
    (hc1' : ∀ e j, cat (ix2 e (Fin.natAdd H j)) = v (ix2 (clampRow Nv hNv (iV (ix2 e 0))) j))
    (D1 : DotDims ⟨2, ![E, H + H]⟩ ⟨2, ![H + H, C]⟩ ⟨2, ![E, C]⟩) (hD1 : D1 = DotDims.plain E (H + H) C)
    (d1 : Fin 1 → Fin 2) (hd1 : d1 0 = 1) (h1 : (⟨1, ![C]⟩ : Shape).BroadcastsInDim ⟨2, ![1, C]⟩ d1)
    (d2 : Fin 2 → Fin 2) (hd20 : d2 0 = 0) (hd21 : d2 1 = 1)
    (h2 : (⟨2, ![1, C]⟩ : Shape).BroadcastsInDim ⟨2, ![E, C]⟩ d2)
    (D2 : DotDims ⟨2, ![E, C]⟩ ⟨2, ![C, 1]⟩ ⟨2, ![E, 1]⟩) (hD2 : D2 = DotDims.plain E C 1)
    (e1 : Fin 1 → Fin 2) (he1 : e1 0 = 1) (g1 : (⟨1, ![1]⟩ : Shape).BroadcastsInDim ⟨2, ![1, 1]⟩ e1)
    (e2 : Fin 2 → Fin 2) (he20 : e2 0 = 0) (he21 : e2 1 = 1)
    (g2 : (⟨2, ![1, 1]⟩ : Shape).BroadcastsInDim ⟨2, ![E, 1]⟩ e2) :
    Cert.KernelIdeal.Arr.score
        (Host.gather gKp
          (Cert.KernelIdeal.Arr.dense (φ := .bf16) (truncf .bf16 x hlt) (truncf .bf16 Wtop hlt) zrow) iP)
        (Host.gather gKv
          (Cert.KernelIdeal.Arr.dense (φ := .bf16) (truncf .bf16 v hlt) (truncf .bf16 Wbot hlt) zrow) iV)
        (shapeCast ⟨2, ![1, C]⟩ b1 hc1) w2row (shapeCast ⟨2, ![1, 1]⟩ b2 hcb)
      = addf
          (Host.dotGeneral D2 none
            (Host.tanh (F := Ideal)
              (addf (Host.dotGeneral D1 none cat Wa)
                (broadcastInDim ⟨2, ![E, C]⟩ d2 h2 (broadcastInDim ⟨2, ![1, C]⟩ d1 h1 b1))))
            W2)
          (broadcastInDim ⟨2, ![E, 1]⟩ e2 g2 (broadcastInDim ⟨2, ![1, 1]⟩ e1 g1 b2)) := by
  subst hgKp hgKv
  funext j
  obtain ⟨e, u, rfl⟩ : ∃ (e : Fin E) (u : Fin 1), j = ix2 e u := ⟨j 0, j 1, eq_ix2 j⟩
  obtain rfl : u = 0 := Subsingleton.elim _ _
  rw [Cert.KernelIdeal.Arr.score_apply, hostDense_apply D2 hD2 _ W2 b2 e1 he1 g1 e2 he20 he21 g2 e 0]
  refine congrArg₂ (· + ·) (Finset.sum_congr rfl fun k _ => congrArg₂ (· * ·) ?_ (hw2 k)) (shapeCast_a_1a_apply b2 hcb 0 0)
  refine (congrArg Ideal.tanh ?_).trans (Cert.Spec.hostTanh_apply _ (ix2 e k)).symm
  rw [hostDense_apply D1 hD1 cat Wa b1 d1 hd1 h1 d2 hd20 hd21 h2 e k,
    gather_rows_apply hNp wfKp _ iP e k, gather_rows_apply hNv wfKv _ iV e k,
    shapeCast_a_1a_apply b1 hc1 0 k,
    Cert.KernelIdeal.Arr.dense_apply, Cert.KernelIdeal.Arr.dense_apply, hz, add_zero, add_zero]
  refine congrArg (· + b1 (ix1 k)) ?_
  exact (sum_split_mul (fun j => cat (ix2 e j)) (fun j => Wa (ix2 j k))
    (fun j => x (ix2 (clampRow Np hNp (iP (ix2 e 0))) j)) (fun j => Wtop (ix2 j k))
    (fun j => v (ix2 (clampRow Nv hNv (iV (ix2 e 0))) j)) (fun j => Wbot (ix2 j k))
    (hc0 e) (hc1' e) (fun j => (hWtop j k).symm) (fun j => (hWbot j k).symm)).symm

/-- The attention-weighted program rows: gathering the narrowed program rows and widening them back is gathering the
    program rows (a change of float format is the identity on the extended reals, and the gather only re-indexes). -/
theorem gather_trunc_ext {N E C : ℕ} (x : FVec Ideal ⟨2, ![N, C]⟩ .f32) (idx : IVec ⟨2, ![E, 1]⟩ 32)
    (g g' : GatherDims ⟨2, ![N, C]⟩ ⟨2, ![E, 1]⟩ ⟨2, ![E, C]⟩) (hg : g = g') (hlt : FTy.bits .bf16 < FTy.bits .f32) :
    extf (F := Ideal) .f32 (Host.gather g (truncf (F := Ideal) .bf16 x hlt) idx) hlt = Host.gather g' x idx := by
  subst hg; rfl

/-- The attention logits with the operands spelt out: the two node-level weights are the first weight's two halves, the
    second weight is recast from a column to a row, and the array-wise first operand sets the gathered program rows
    beside the gathered voxel rows. -/
theorem logits_gen {Np Nv E H C : ℕ} (hNp : 0 < Np) (hNv : 0 < Nv)
    (x : FVec Ideal ⟨2, ![Np, H]⟩ .f32) (v : FVec Ideal ⟨2, ![Nv, H]⟩ .f32)
    (Wa : FVec Ideal ⟨2, ![H + H, C]⟩ .f32) (b1 : FVec Ideal ⟨1, ![C]⟩ .f32)
    (W2 : FVec Ideal ⟨2, ![C, 1]⟩ .f32) (b2 : FVec Ideal ⟨1, ![1]⟩ .f32)
    (zrow : FVec Ideal ⟨2, ![1, C]⟩ .f32) (hz : ∀ c, zrow (ix2 (0 : Fin 1) c) = 0)
    (iP iV : IVec ⟨2, ![E, 1]⟩ 32) (hlt : FTy.bits .bf16 < FTy.bits .f32)
    (hw0 : (⟨2, ![H + H, C]⟩ : Shape).Slices ![0, 0] ⟨2, ![H, C]⟩)
    (hw1 : (⟨2, ![H + H, C]⟩ : Shape).Slices ![H, 0] ⟨2, ![H, C]⟩)
    (gKp : GatherDims ⟨2, ![Np, C]⟩ ⟨2, ![E, 1]⟩ ⟨2, ![E, C]⟩)
    (wfKp : GatherDims.WF ⟨2, ![Np, C]⟩ ⟨2, ![E, 1]⟩ ⟨2, ![E, C]⟩ [1] [0] [] [0] [] 1 ![1, C]) (hgKp : gKp = rowsDims Np E C wfKp)
    (gKv : GatherDims ⟨2, ![Nv, C]⟩ ⟨2, ![E, 1]⟩ ⟨2, ![E, C]⟩)
    (wfKv : GatherDims.WF ⟨2, ![Nv, C]⟩ ⟨2, ![E, 1]⟩ ⟨2, ![E, C]⟩ [1] [0] [] [0] [] 1 ![1, C]) (hgKv : gKv = rowsDims Nv E C wfKv)
    (hc1 : (⟨1, ![C]⟩ : Shape).ShapeCasts ⟨2, ![1, C]⟩)
    (hcw : (⟨2, ![C, 1]⟩ : Shape).ShapeCasts ⟨2, ![1, C]⟩)
    (hcb : (⟨1, ![1]⟩ : Shape).ShapeCasts ⟨2, ![1, 1]⟩)
    (gRp : GatherDims ⟨2, ![Np, H]⟩ ⟨2, ![E, 1]⟩ ⟨2, ![E, H]⟩)
    (wfRp : GatherDims.WF ⟨2, ![Np, H]⟩ ⟨2, ![E, 1]⟩ ⟨2, ![E, H]⟩ [1] [0] [] [0] [] 1 ![1, H]) (hgRp : gRp = rowsDims Np E H wfRp)
    (gRv : GatherDims ⟨2, ![Nv, H]⟩ ⟨2, ![E, 1]⟩ ⟨2, ![E, H]⟩)
    (wfRv : GatherDims.WF ⟨2, ![Nv, H]⟩ ⟨2, ![E, 1]⟩ ⟨2, ![E, H]⟩ [1] [0] [] [0] [] 1 ![1, H]) (hgRv : gRv = rowsDims Nv E H wfRv)
    (hcat : Shape.Concatenates [⟨2, ![E, H]⟩, ⟨2, ![E, H]⟩] ⟨2, ![E, H + H]⟩ (1 : Fin 2))
    (D1 : DotDims ⟨2, ![E, H + H]⟩ ⟨2, ![H + H, C]⟩ ⟨2, ![E, C]⟩) (hD1 : D1 = DotDims.plain E (H + H) C)
    (d1 : Fin 1 → Fin 2) (hd1 : d1 0 = 1) (h1 : (⟨1, ![C]⟩ : Shape).BroadcastsInDim ⟨2, ![1, C]⟩ d1)
    (d2 : Fin 2 → Fin 2) (hd20 : d2 0 = 0) (hd21 : d2 1 = 1)
    (h2 : (⟨2, ![1, C]⟩ : Shape).BroadcastsInDim ⟨2, ![E, C]⟩ d2)
    (D2 : DotDims ⟨2, ![E, C]⟩ ⟨2, ![C, 1]⟩ ⟨2, ![E, 1]⟩) (hD2 : D2 = DotDims.plain E C 1)
    (e1 : Fin 1 → Fin 2) (he1 : e1 0 = 1) (g1 : (⟨1, ![1]⟩ : Shape).BroadcastsInDim ⟨2, ![1, 1]⟩ e1)
    (e2 : Fin 2 → Fin 2) (he20 : e2 0 = 0) (he21 : e2 1 = 1)
    (g2 : (⟨2, ![1, 1]⟩ : Shape).BroadcastsInDim ⟨2, ![E, 1]⟩ e2) :
    Cert.KernelIdeal.Arr.score
        (Host.gather gKp
          (Cert.KernelIdeal.Arr.dense (φ := .bf16) (truncf .bf16 x hlt)
            (truncf .bf16 (extractStridedSlice ⟨2, ![H, C]⟩ ![0, 0] Wa hw0) hlt) zrow) iP)
        (Host.gather gKv
          (Cert.KernelIdeal.Arr.dense (φ := .bf16) (truncf .bf16 v hlt)
            (truncf .bf16 (extractStridedSlice ⟨2, ![H, C]⟩ ![H, 0] Wa hw1) hlt) zrow) iV)
        (shapeCast ⟨2, ![1, C]⟩ b1 hc1) (shapeCast ⟨2, ![1, C]⟩ W2 hcw) (shapeCast ⟨2, ![1, 1]⟩ b2 hcb)
      = addf
          (Host.dotGeneral D2 none
            (Host.tanh (F := Ideal)
              (addf
                (Host.dotGeneral D1 none
                  (concatenate ⟨2, ![E, H + H]⟩ (1 : Fin 2)
                    [⟨⟨2, ![E, H]⟩, Host.gather gRp x iP⟩, ⟨⟨2, ![E, H]⟩, Host.gather gRv v iV⟩] hcat) Wa)
                (broadcastInDim ⟨2, ![E, C]⟩ d2 h2 (broadcastInDim ⟨2, ![1, C]⟩ d1 h1 b1))))
            W2)
          (broadcastInDim ⟨2, ![E, 1]⟩ e2 g2 (broadcastInDim ⟨2, ![1, 1]⟩ e1 g1 b2)) := by
  subst hgRp hgRv
  exact logits_core hNp hNv x v Wa b1 W2 b2 zrow hz iP iV hlt _ _
    (fun j k => slice2_axis0_apply 0 Wa hw0 j k (Fin.castAdd H j) (by show j.val = 0 + j.val; omega))
    (fun j k => slice2_axis0_apply H Wa hw1 j k (Fin.natAdd H j) rfl)
    gKp wfKp hgKp gKv wfKv hgKv hc1 _ (fun k => shapeCast_a1_1a_apply W2 hcw 0 k) hcb _
    (fun e j => (concatCols_left _ _ hcat e j).trans (gather_rows_apply hNp wfRp x iP e j))
    (fun e j => (concatCols_right _ _ hcat e j).trans (gather_rows_apply hNv wfRv v iV e j))
    D1 hD1 d1 hd1 h1 d2 hd20 hd21 h2 D2 hD2 e1 he1 g1 e2 he20 he21 g2

end Cert.Bridge

end
-- ==== Proof.BridgeInst2.lean ====
/-
  The attention logits and the attention-weighted rows, block-wise against array-wise, at the two programs' extents and in
  their own names: each is the matching general statement at the layer's extents.
-/
import proofs.«173394_j29068338659455_2_alg».proof.Proof.BridgeVox
import proofs.«173394_j29068338659455_2_alg».proof.Proof.BridgeAttn
import proofs.«173394_j29068338659455_2_alg».proof.Proof.KI.HostDefs
import proofs.«173394_j29068338659455_2_alg».proof.Proof.Gen.KernelIdeal
import proofs.«173394_j29068338659455_2_alg».proof.Proof.Gen.ReferenceIdeal

noncomputable section

namespace Cert.Bridge

open Idealize.ShloMosaic Idealize.ShloMosaic.ValueIdx

/-- The attention logits: region 13's column on the gathered projections of regions 11 and 12 is the second general
    dot product of the hyperbolic tangent of the first, each plus its bias. -/
theorem logits_eq (x : FVec Ideal Cert.KernelIdeal.S5000x128 .f32) (v : FVec Ideal Cert.KernelIdeal.S100000x128 .f32)
    (W : FVec Ideal Cert.KernelIdeal.S256x128 .f32) (b1 : FVec Ideal Cert.KernelIdeal.S128 .f32) (w2 : FVec Ideal Cert.KernelIdeal.S128x1 .f32)
    (b2 : FVec Ideal Cert.KernelIdeal.S1 .f32) (iP iV : IVec Cert.KernelIdeal.S300000x1 32) :
    Cert.KernelIdeal.Arr.G13
        (Host.gather Cert.KernelIdeal.gather_S5000x128_S300000x1_S300000x128_1_0_n_n_0_1_1128
          (Cert.KernelIdeal.Arr.G11 (truncf (F := Ideal) .bf16 x Cert.KernelIdeal.Facts₀.bitsLt_bf16_f32)
            (truncf (F := Ideal) .bf16 (extractStridedSlice Cert.KernelIdeal.S128x128 ![0, 0] W Cert.KernelIdeal.Facts₀.slices_S256x128_S128x128_0_0)
              Cert.KernelIdeal.Facts₀.bitsLt_bf16_f32)
            Cert.KernelIdeal.Host.zeroRow128) iP)
        (Host.gather Cert.KernelIdeal.gather_S100000x128_S300000x1_S300000x128_1_0_n_n_0_1_1128
          (Cert.KernelIdeal.Arr.G12 (truncf (F := Ideal) .bf16 v Cert.KernelIdeal.Facts₀.bitsLt_bf16_f32)
            (truncf (F := Ideal) .bf16 (extractStridedSlice Cert.KernelIdeal.S128x128 ![128, 0] W Cert.KernelIdeal.Facts₀.slices_S256x128_S128x128_128_0)
              Cert.KernelIdeal.Facts₀.bitsLt_bf16_f32)
            Cert.KernelIdeal.Host.zeroRow128) iV)
        (shapeCast Cert.KernelIdeal.S1x128 b1 Cert.KernelIdeal.Facts₀.shapeCasts_S128_S1x128)
        (shapeCast Cert.KernelIdeal.S1x128 w2 Cert.KernelIdeal.Facts₀.shapeCasts_S128x1_S1x128)
        (shapeCast Cert.KernelIdeal.S1x1 b2 Cert.KernelIdeal.Facts₀.shapeCasts_S1_S1x1)
      = addf
          (Host.dotGeneral Cert.ReferenceIdeal.dot_S300000x128_S128x1_S300000x1_1_0_0_1_n_n none
            (Host.tanh (F := Ideal)
              (addf
                (Host.dotGeneral Cert.ReferenceIdeal.dot_S300000x256_S256x128_S300000x128_1_0_0_1_n_n none
                  (concatenate Cert.ReferenceIdeal.S300000x256 1
                    [⟨Cert.ReferenceIdeal.S300000x128, Host.gather Cert.ReferenceIdeal.gather_S5000x128_S300000x1_S300000x128_1_0_n_n_0_1_1128 x iP⟩, ⟨Cert.ReferenceIdeal.S300000x128, Host.gather Cert.ReferenceIdeal.gather_S100000x128_S300000x1_S300000x128_1_0_n_n_0_1_1128 v iV⟩]
                    Cert.ReferenceIdeal.Facts₀.concatenates_S300000x128_S300000x128_S300000x256_d1) W)
                (broadcastInDim Cert.ReferenceIdeal.S300000x128 ![0, 1] Cert.ReferenceIdeal.Facts₀.bcast_S1x128_S300000x128_0_1
                  (broadcastInDim Cert.ReferenceIdeal.S1x128 ![1] Cert.ReferenceIdeal.Facts₀.bcast_S128_S1x128_1 b1))))
            w2)
          (broadcastInDim Cert.ReferenceIdeal.S300000x1 ![0, 1] Cert.ReferenceIdeal.Facts₀.bcast_S1x1_S300000x1_0_1
            (broadcastInDim Cert.ReferenceIdeal.S1x1 ![1] Cert.ReferenceIdeal.Facts₀.bcast_S1_S1x1_1 b2)) :=
  logits_gen (Np := 5000) (Nv := 100000) (E := 300000) (H := 128) (C := 128) (by decide) (by decide) x v W b1 w2 b2
    Cert.KernelIdeal.Host.zeroRow128 (fun _ => Ideal.ofBits_zero_f32) iP iV _ _ _
    Cert.KernelIdeal.gather_S5000x128_S300000x1_S300000x128_1_0_n_n_0_1_1128 _ rfl Cert.KernelIdeal.gather_S100000x128_S300000x1_S300000x128_1_0_n_n_0_1_1128 _ rfl _ _ _
    Cert.ReferenceIdeal.gather_S5000x128_S300000x1_S300000x128_1_0_n_n_0_1_1128 _ rfl Cert.ReferenceIdeal.gather_S100000x128_S300000x1_S300000x128_1_0_n_n_0_1_1128 _ rfl _
    Cert.ReferenceIdeal.dot_S300000x256_S256x128_S300000x128_1_0_0_1_n_n rfl ![1] rfl _ ![0, 1] rfl rfl _
    Cert.ReferenceIdeal.dot_S300000x128_S128x1_S300000x1_1_0_0_1_n_n rfl ![1] rfl _ ![0, 1] rfl rfl _

/-- The attention-weighted program rows: the narrowed program rows gathered to the cross edges and widened back are the
    program rows gathered. -/
theorem pool_eq (x : FVec Ideal Cert.KernelIdeal.S5000x128 .f32) (iP : IVec Cert.KernelIdeal.S300000x1 32) :
    extf (F := Ideal) .f32
        (Host.gather Cert.KernelIdeal.gather_S5000x128_S300000x1_S300000x128_1_0_n_n_0_1_1128 (truncf (F := Ideal) .bf16 x Cert.KernelIdeal.Facts₀.bitsLt_bf16_f32) iP)
        Cert.KernelIdeal.Facts₀.bitsLt_bf16_f32
      = Host.gather Cert.ReferenceIdeal.gather_S5000x128_S300000x1_S300000x128_1_0_n_n_0_1_1128 x iP :=
  gather_trunc_ext x iP _ _ rfl _

end Cert.Bridge

end
-- ==== Proof.Ref.StageBase.lean ====
/- What the stage readings share: a buffer no operation writes has its launch contents at the end; and the leaky rectifier
   at slope 0.01 as the reference spells it, one definition per array shape: x where x ≥ 0 (ordered comparison with the
   zero array), else the slope array times x. -/
import proofs.«173394_j29068338659455_2_alg».proof.Proof.Ref.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A buffer no operation writes has its launch contents at the end. -/
theorem tail_start (V : Valuation τ sig (Elt F)) (r : Ref sig .tc) (h : r ∉ allW) :
    val_ch30 V (Proc.devRef .tc r) = V (Proc.devRef .tc r) :=
  (tail_ch00 V r fun hm => h (List.mem_append_right _ hm)).trans (val_ch00_keep V r fun hm => h (List.mem_append_left _ hm))

/-- `select (x ≥ 0) x (0.01 · x)` on an array of shape `S5000x128` (the constants are the f32 words `0` and `0x3C23D70A`, broadcast). -/
def leaky_S5000x128 (x : (⟨S5000x128, .f32⟩ : BufTy).Contents (Elt F)) : (⟨S5000x128, .f32⟩ : BufTy).Contents (Elt F) :=
  select (cmpf .oge x (broadcastInDim S5000x128 ![] bcast_S_S5000x128 (constant S_ .f32 0x00000000#32))) x
    (mulf (broadcastInDim S5000x128 ![] bcast_S_S5000x128 (constant S_ .f32 0x3C23D70A#32)) x)

/-- `select (x ≥ 0) x (0.01 · x)` on an array of shape `S80000x128` (the constants are the f32 words `0` and `0x3C23D70A`, broadcast). -/
def leaky_S80000x128 (x : (⟨S80000x128, .f32⟩ : BufTy).Contents (Elt F)) : (⟨S80000x128, .f32⟩ : BufTy).Contents (Elt F) :=
  select (cmpf .oge x (broadcastInDim S80000x128 ![] bcast_S_S80000x128 (constant S_ .f32 0x00000000#32))) x
    (mulf (broadcastInDim S80000x128 ![] bcast_S_S80000x128 (constant S_ .f32 0x3C23D70A#32)) x)

/-- `select (x ≥ 0) x (0.01 · x)` on an array of shape `S100000x128` (the constants are the f32 words `0` and `0x3C23D70A`, broadcast). -/
def leaky_S100000x128 (x : (⟨S100000x128, .f32⟩ : BufTy).Contents (Elt F)) : (⟨S100000x128, .f32⟩ : BufTy).Contents (Elt F) :=
  select (cmpf .oge x (broadcastInDim S100000x128 ![] bcast_S_S100000x128 (constant S_ .f32 0x00000000#32))) x
    (mulf (broadcastInDim S100000x128 ![] bcast_S_S100000x128 (constant S_ .f32 0x3C23D70A#32)) x)

/-- `select (x ≥ 0) x (0.01 · x)` on an array of shape `S600000x128` (the constants are the f32 words `0` and `0x3C23D70A`, broadcast). -/
def leaky_S600000x128 (x : (⟨S600000x128, .f32⟩ : BufTy).Contents (Elt F)) : (⟨S600000x128, .f32⟩ : BufTy).Contents (Elt F) :=
  select (cmpf .oge x (broadcastInDim S600000x128 ![] bcast_S_S600000x128 (constant S_ .f32 0x00000000#32))) x
    (mulf (broadcastInDim S600000x128 ![] bcast_S_S600000x128 (constant S_ .f32 0x3C23D70A#32)) x)

end Cert.ReferenceIdeal.RefRun

end
-- ==== Proof.Ref.StageA.lean ====
/- The reference's value at its cut points (x0, src, dst, ratio, m0, aggr0, c0, x1): each as a named pure function of the earlier cut points and the
   arguments it reads, and that the run's final contents at the cut point's buffer are that function of the final contents at those. -/
import proofs.«173394_j29068338659455_2_alg».proof.Proof.Ref.StageBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- X after the encoder (`main_v5`): the composed term of operations 0 … 11 it depends on, over `main_arg0`, `main_arg1`, `main_arg10`, `main_arg11`. -/
def stage_x0 (a0 : (⟨S5000x32, .f32⟩ : BufTy).Contents (Elt F)) (a1 : (⟨S5000x32, .f32⟩ : BufTy).Contents (Elt F)) (a10 : (⟨S64x128, .f32⟩ : BufTy).Contents (Elt F)) (a11 : (⟨S128, .f32⟩ : BufTy).Contents (Elt F)) : (⟨S5000x128, .f32⟩ : BufTy).Contents (Elt F) :=
  leaky_S5000x128 ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x64_S64x128_S5000x128_1_0_0_1_n_n none l r) : (⟨S5000x64, .f32⟩ : BufTy).Contents (Elt F) → (⟨S64x128, .f32⟩ : BufTy).Contents (Elt F) → (⟨S5000x128, .f32⟩ : BufTy).Contents (Elt F)) (((fun a b => concatenate S5000x64 1 [⟨S5000x32, a⟩, ⟨S5000x32, b⟩] concatenates_S5000x32_S5000x32_S5000x64_d1) : (⟨S5000x32, .f32⟩ : BufTy).Contents (Elt F) → (⟨S5000x32, .f32⟩ : BufTy).Contents (Elt F) → (⟨S5000x64, .f32⟩ : BufTy).Contents (Elt F)) (a0) (a1)) (a10)) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (a11))))

set_option maxRecDepth 8192 in
set_option maxHeartbeats 4000000 in
theorem stage_x0_eq_raw (V : Valuation τ sig (Elt F)) :
    after ops V (Proc.devRef .tc main_v5) = stage_x0 (after ops V (Proc.devRef .tc main_arg0)) (after ops V (Proc.devRef .tc main_arg1)) (after ops V (Proc.devRef .tc main_arg10)) (after ops V (Proc.devRef .tc main_arg11)) := by
  rw [after_ops, tail_ch00 V main_v5 (by decide),
    tail_start V main_arg0 (by decide),
    tail_start V main_arg1 (by decide),
    tail_start V main_arg10 (by decide),
    tail_start V main_arg11 (by decide)]
  unfold val_ch00
  simp only [ch00]
  after_results_simp
  rfl

/-- Row 0 of the program edge index (`main_v7`): the composed term of operations 12 … 13 it depends on, over `main_arg5`. -/
def stage_src (a5 : (⟨S2x80000, .i32⟩ : BufTy).Contents (Elt F)) : (⟨S80000, .i32⟩ : BufTy).Contents (Elt F) :=
  shapeCast S80000 (((extractStridedSlice S1x80000 ![0, 0] · slices_S2x80000_S1x80000_0_0) : (⟨S2x80000, .i32⟩ : BufTy).Contents (Elt F) → (⟨S1x80000, .i32⟩ : BufTy).Contents (Elt F)) (a5)) shapeCasts_S1x80000_S80000

set_option maxRecDepth 8192 in
set_option maxHeartbeats 4000000 in
theorem stage_src_eq_raw (V : Valuation τ sig (Elt F)) :
    after ops V (Proc.devRef .tc main_v7) = stage_src (after ops V (Proc.devRef .tc main_arg5)) := by
  rw [after_ops, tail_ch01 V main_v7 (by decide),
    tail_ch00 V main_arg5 (by decide)]
  unfold val_ch01
  generalize val_ch00 V = W
  simp only [ch01]
  after_results_simp
  rfl

/-- Row 1 of the program edge index (`main_v9`): the composed term of operations 14 … 15 it depends on, over `main_arg5`. -/
def stage_dst (a5 : (⟨S2x80000, .i32⟩ : BufTy).Contents (Elt F)) : (⟨S80000, .i32⟩ : BufTy).Contents (Elt F) :=
  shapeCast S80000 (((extractStridedSlice S1x80000 ![1, 0] · slices_S2x80000_S1x80000_1_0) : (⟨S2x80000, .i32⟩ : BufTy).Contents (Elt F) → (⟨S1x80000, .i32⟩ : BufTy).Contents (Elt F)) (a5)) shapeCasts_S1x80000_S80000

set_option maxRecDepth 8192 in
set_option maxHeartbeats 4000000 in
theorem stage_dst_eq_raw (V : Valuation τ sig (Elt F)) :
    after ops V (Proc.devRef .tc main_v9) = stage_dst (after ops V (Proc.devRef .tc main_arg5)) := by
  rw [after_ops, tail_ch01 V main_v9 (by decide),
    tail_ch00 V main_arg5 (by decide)]
  unfold val_ch01
  generalize val_ch00 V = W
  simp only [ch01]
  after_results_simp
  rfl

/-- The node ratio summed over its one column, as a column (`main_v11`): the composed term of operations 16 … 18 it depends on, over `main_arg2`. -/
def stage_ratio (a2 : (⟨S5000x1, .f32⟩ : BufTy).Contents (Elt F)) : (⟨S5000x1, .f32⟩ : BufTy).Contents (Elt F) :=
  (broadcastInDim S5000x1 ![0] bcast_S5000_S5000x1_0 : (⟨S5000, .f32⟩ : BufTy).Contents (Elt F) → (⟨S5000x1, .f32⟩ : BufTy).Contents (Elt F)) (((fun x v => Host.reduceAdd x v reducesTo_S5000x1_S5000_d1 h_S_) : (⟨S5000x1, .f32⟩ : BufTy).Contents (Elt F) → (⟨S_, .f32⟩ : BufTy).Contents (Elt F) → (⟨S5000, .f32⟩ : BufTy).Contents (Elt F)) (a2) (constant S_ .f32 0x00000000#32))

set_option maxRecDepth 8192 in
set_option maxHeartbeats 4000000 in
theorem stage_ratio_eq_raw (V : Valuation τ sig (Elt F)) :
    after ops V (Proc.devRef .tc main_v11) = stage_ratio (after ops V (Proc.devRef .tc main_arg2)) := by
  rw [after_ops, tail_ch02 V main_v11 (by decide),
    tail_ch01 V main_arg2 (by decide)]
  unfold val_ch02
  generalize val_ch01 V = W
  simp only [ch02]
  after_results_simp
  rfl

/-- Step 0's leaky message (`main_v35`): the composed term of operations 19 … 52 it depends on, over `main_v5`, `main_v7`, `main_v9`, `main_arg12`, `main_arg13`. -/
def stage_m0 (v5 : (⟨S5000x128, .f32⟩ : BufTy).Contents (Elt F)) (v7 : (⟨S80000, .i32⟩ : BufTy).Contents (Elt F)) (v9 : (⟨S80000, .i32⟩ : BufTy).Contents (Elt F)) (a12 : (⟨S3x256x128, .f32⟩ : BufTy).Contents (Elt F)) (a13 : (⟨S3x128, .f32⟩ : BufTy).Contents (Elt F)) : (⟨S80000x128, .f32⟩ : BufTy).Contents (Elt F) :=
  leaky_S80000x128 ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x256_S256x128_S80000x128_1_0_0_1_n_n none l r) : (⟨S80000x256, .f32⟩ : BufTy).Contents (Elt F) → (⟨S256x128, .f32⟩ : BufTy).Contents (Elt F) → (⟨S80000x128, .f32⟩ : BufTy).Contents (Elt F)) (((fun a b => concatenate S80000x256 1 [⟨S80000x128, a⟩, ⟨S80000x128, b⟩] concatenates_S80000x128_S80000x128_S80000x256_d1) : (⟨S80000x128, .f32⟩ : BufTy).Contents (Elt F) → (⟨S80000x128, .f32⟩ : BufTy).Contents (Elt F) → (⟨S80000x256, .f32⟩ : BufTy).Contents (Elt F)) (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (v5) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (v9) ((broadcastInDim S80000 ![] bcast_S_S80000 : (⟨S_, .i32⟩ : BufTy).Contents (Elt F) → (⟨S80000, .i32⟩ : BufTy).Contents (Elt F)) (constantI S_ 32 0#32))) ((addi : (⟨S80000, .i32⟩ : BufTy).Contents (Elt F) → (⟨S80000, .i32⟩ : BufTy).Contents (Elt F) → (⟨S80000, .i32⟩ : BufTy).Contents (Elt F)) (v9) ((broadcastInDim S80000 ![] bcast_S_S80000 : (⟨S_, .i32⟩ : BufTy).Contents (Elt F) → (⟨S80000, .i32⟩ : BufTy).Contents (Elt F)) (constantI S_ 32 5000#32))) (v9)))) (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (v5) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (v7) ((broadcastInDim S80000 ![] bcast_S_S80000 : (⟨S_, .i32⟩ : BufTy).Contents (Elt F) → (⟨S80000, .i32⟩ : BufTy).Contents (Elt F)) (constantI S_ 32 0#32))) ((addi : (⟨S80000, .i32⟩ : BufTy).Contents (Elt F) → (⟨S80000, .i32⟩ : BufTy).Contents (Elt F) → (⟨S80000, .i32⟩ : BufTy).Contents (Elt F)) (v7) ((broadcastInDim S80000 ![] bcast_S_S80000 : (⟨S_, .i32⟩ : BufTy).Contents (Elt F) → (⟨S80000, .i32⟩ : BufTy).Contents (Elt F)) (constantI S_ 32 5000#32))) (v7))))) (shapeCast S256x128 (((extractStridedSlice S1x256x128 ![0, 0, 0] · slices_S3x256x128_S1x256x128_0_0_0) : (⟨S3x256x128, .f32⟩ : BufTy).Contents (Elt F) → (⟨S1x256x128, .f32⟩ : BufTy).Contents (Elt F)) (a12)) shapeCasts_S1x256x128_S256x128)) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) (a13)) shapeCasts_S1x128_S128))))

set_option maxRecDepth 8192 in
set_option maxHeartbeats 4000000 in
theorem stage_m0_eq_raw (V : Valuation τ sig (Elt F)) :
    after ops V (Proc.devRef .tc main_v35) = stage_m0 (after ops V (Proc.devRef .tc main_v5)) (after ops V (Proc.devRef .tc main_v7)) (after ops V (Proc.devRef .tc main_v9)) (after ops V (Proc.devRef .tc main_arg12)) (after ops V (Proc.devRef .tc main_arg13)) := by
  rw [after_ops, tail_ch03 V main_v35 (by decide),
    tail_ch02 V main_v5 (by decide),
    tail_ch02 V main_v7 (by decide),
    tail_ch02 V main_v9 (by decide),
    tail_ch02 V main_arg12 (by decide),
    tail_ch02 V main_arg13 (by decide)]
  unfold val_ch03
  generalize val_ch02 V = W
  simp only [ch03]
  after_results_simp
  rfl

/-- Step 0's mean of the messages by destination (`main_v47`): the composed term of operations 53 … 68 it depends on, over `main_v9`, `main_v35`. -/
def stage_aggr0 (v9 : (⟨S80000, .i32⟩ : BufTy).Contents (Elt F)) (v35 : (⟨S80000x128, .f32⟩ : BufTy).Contents (Elt F)) : (⟨S5000x128, .f32⟩ : BufTy).Contents (Elt F) :=
  (Host.divf : (⟨S5000x128, .f32⟩ : BufTy).Contents (Elt F) → (⟨S5000x128, .f32⟩ : BufTy).Contents (Elt F) → (⟨S5000x128, .f32⟩ : BufTy).Contents (Elt F)) (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32)) ((broadcastInDim S80000x1 ![0] bcast_S80000_S80000x1_0 : (⟨S80000, .i32⟩ : BufTy).Contents (Elt F) → (⟨S80000x1, .i32⟩ : BufTy).Contents (Elt F)) (v9)) (v35)) ((broadcastInDim S5000x128 ![0, 1] bcast_S5000x1_S5000x128_0_1 : (⟨S5000x1, .f32⟩ : BufTy).Contents (Elt F) → (⟨S5000x128, .f32⟩ : BufTy).Contents (Elt F)) ((maximumf : (⟨S5000x1, .f32⟩ : BufTy).Contents (Elt F) → (⟨S5000x1, .f32⟩ : BufTy).Contents (Elt F) → (⟨S5000x1, .f32⟩ : BufTy).Contents (Elt F)) (((fun x i u => Host.scatterAdd scatter_S5000x1_S80000x1_S80000x1_1_0_0_1 x i u) : (⟨S5000x1, .f32⟩ : BufTy).Contents (Elt F) → (⟨S80000x1, .i32⟩ : BufTy).Contents (Elt F) → (⟨S80000x1, .f32⟩ : BufTy).Contents (Elt F) → (⟨S5000x1, .f32⟩ : BufTy).Contents (Elt F)) ((broadcastInDim S5000x1 ![] bcast_S_S5000x1 : (⟨S_, .f32⟩ : BufTy).Contents (Elt F) → (⟨S5000x1, .f32⟩ : BufTy).Contents (Elt F)) (constant S_ .f32 0x00000000#32)) ((broadcastInDim S80000x1 ![0] bcast_S80000_S80000x1_0 : (⟨S80000, .i32⟩ : BufTy).Contents (Elt F) → (⟨S80000x1, .i32⟩ : BufTy).Contents (Elt F)) (v9)) ((broadcastInDim S80000x1 ![] bcast_S_S80000x1 : (⟨S_, .f32⟩ : BufTy).Contents (Elt F) → (⟨S80000x1, .f32⟩ : BufTy).Contents (Elt F)) (constant S_ .f32 0x3F800000#32))) ((broadcastInDim S5000x1 ![] bcast_S_S5000x1 : (⟨S_, .f32⟩ : BufTy).Contents (Elt F) → (⟨S5000x1, .f32⟩ : BufTy).Contents (Elt F)) (constant S_ .f32 0x3F800000#32))))

set_option maxRecDepth 8192 in
set_option maxHeartbeats 4000000 in
theorem stage_aggr0_eq_raw (V : Valuation τ sig (Elt F)) :
    after ops V (Proc.devRef .tc main_v47) = stage_aggr0 (after ops V (Proc.devRef .tc main_v9)) (after ops V (Proc.devRef .tc main_v35)) := by
  rw [after_ops, tail_ch04 V main_v47 (by decide),
    tail_ch03 V main_v9 (by decide),
    tail_ch03 V main_v35 (by decide)]
  unfold val_ch04
  generalize val_ch03 V = W
  simp only [ch04]
  after_results_simp
  rfl

/-- Step 0's cluster mean gathered back and scaled by the ratio (`main_v68`): the composed term of operations 69 … 95 it depends on, over `main_v5`, `main_v11`, `main_arg6`. -/
def stage_c0 (v5 : (⟨S5000x128, .f32⟩ : BufTy).Contents (Elt F)) (v11 : (⟨S5000x1, .f32⟩ : BufTy).Contents (Elt F)) (a6 : (⟨S5000, .i32⟩ : BufTy).Contents (Elt F)) : (⟨S5000x128, .f32⟩ : BufTy).Contents (Elt F) :=
  (mulf : (⟨S5000x128, .f32⟩ : BufTy).Contents (Elt F) → (⟨S5000x128, .f32⟩ : BufTy).Contents (Elt F) → (⟨S5000x128, .f32⟩ : BufTy).Contents (Elt F)) (((fun x i => Host.gather gather_S10x128_S5000x1_S5000x128_1_0_n_n_0_1_1128 x i) : (⟨S10x128, .f32⟩ : BufTy).Contents (Elt F) → (⟨S5000x1, .i32⟩ : BufTy).Contents (Elt F) → (⟨S5000x128, .f32⟩ : BufTy).Contents (Elt F)) ((Host.divf : (⟨S10x128, .f32⟩ : BufTy).Contents (Elt F) → (⟨S10x128, .f32⟩ : BufTy).Contents (Elt F) → (⟨S10x128, .f32⟩ : BufTy).Contents (Elt F)) (((fun x i u => Host.scatterAdd scatter_S10x128_S5000x1_S5000x128_1_0_0_1 x i u) : (⟨S10x128, .f32⟩ : BufTy).Contents (Elt F) → (⟨S5000x1, .i32⟩ : BufTy).Contents (Elt F) → (⟨S5000x128, .f32⟩ : BufTy).Contents (Elt F) → (⟨S10x128, .f32⟩ : BufTy).Contents (Elt F)) ((broadcastInDim S10x128 ![] bcast_S_S10x128 : (⟨S_, .f32⟩ : BufTy).Contents (Elt F) → (⟨S10x128, .f32⟩ : BufTy).Contents (Elt F)) (constant S_ .f32 0x00000000#32)) ((broadcastInDim S5000x1 ![0] bcast_S5000_S5000x1_0 : (⟨S5000, .i32⟩ : BufTy).Contents (Elt F) → (⟨S5000x1, .i32⟩ : BufTy).Contents (Elt F)) (a6)) (v5)) ((broadcastInDim S10x128 ![0, 1] bcast_S10x1_S10x128_0_1 : (⟨S10x1, .f32⟩ : BufTy).Contents (Elt F) → (⟨S10x128, .f32⟩ : BufTy).Contents (Elt F)) ((maximumf : (⟨S10x1, .f32⟩ : BufTy).Contents (Elt F) → (⟨S10x1, .f32⟩ : BufTy).Contents (Elt F) → (⟨S10x1, .f32⟩ : BufTy).Contents (Elt F)) (((fun x i u => Host.scatterAdd scatter_S10x1_S5000x1_S5000x1_1_0_0_1 x i u) : (⟨S10x1, .f32⟩ : BufTy).Contents (Elt F) → (⟨S5000x1, .i32⟩ : BufTy).Contents (Elt F) → (⟨S5000x1, .f32⟩ : BufTy).Contents (Elt F) → (⟨S10x1, .f32⟩ : BufTy).Contents (Elt F)) ((broadcastInDim S10x1 ![] bcast_S_S10x1 : (⟨S_, .f32⟩ : BufTy).Contents (Elt F) → (⟨S10x1, .f32⟩ : BufTy).Contents (Elt F)) (constant S_ .f32 0x00000000#32)) ((broadcastInDim S5000x1 ![0] bcast_S5000_S5000x1_0 : (⟨S5000, .i32⟩ : BufTy).Contents (Elt F) → (⟨S5000x1, .i32⟩ : BufTy).Contents (Elt F)) (a6)) ((broadcastInDim S5000x1 ![] bcast_S_S5000x1 : (⟨S_, .f32⟩ : BufTy).Contents (Elt F) → (⟨S5000x1, .f32⟩ : BufTy).Contents (Elt F)) (constant S_ .f32 0x3F800000#32))) ((broadcastInDim S10x1 ![] bcast_S_S10x1 : (⟨S_, .f32⟩ : BufTy).Contents (Elt F) → (⟨S10x1, .f32⟩ : BufTy).Contents (Elt F)) (constant S_ .f32 0x3F800000#32))))) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (a6) ((broadcastInDim S5000 ![] bcast_S_S5000 : (⟨S_, .i32⟩ : BufTy).Contents (Elt F) → (⟨S5000, .i32⟩ : BufTy).Contents (Elt F)) (constantI S_ 32 0#32))) ((addi : (⟨S5000, .i32⟩ : BufTy).Contents (Elt F) → (⟨S5000, .i32⟩ : BufTy).Contents (Elt F) → (⟨S5000, .i32⟩ : BufTy).Contents (Elt F)) (a6) ((broadcastInDim S5000 ![] bcast_S_S5000 : (⟨S_, .i32⟩ : BufTy).Contents (Elt F) → (⟨S5000, .i32⟩ : BufTy).Contents (Elt F)) (constantI S_ 32 10#32))) (a6)))) ((broadcastInDim S5000x128 ![0, 1] bcast_S5000x1_S5000x128_0_1 : (⟨S5000x1, .f32⟩ : BufTy).Contents (Elt F) → (⟨S5000x128, .f32⟩ : BufTy).Contents (Elt F)) (v11))

set_option maxRecDepth 8192 in
set_option maxHeartbeats 4000000 in
theorem stage_c0_eq_raw (V : Valuation τ sig (Elt F)) :
    after ops V (Proc.devRef .tc main_v68) = stage_c0 (after ops V (Proc.devRef .tc main_v5)) (after ops V (Proc.devRef .tc main_v11)) (after ops V (Proc.devRef .tc main_arg6)) := by
  rw [after_ops, tail_ch06 V main_v68 (by decide),
    tail_ch04 V main_v5 (by decide),
    tail_ch04 V main_v11 (by decide),
    tail_ch04 V main_arg6 (by decide)]
  unfold val_ch06 val_ch05
  generalize val_ch04 V = W
  simp only [ch05, ch06]
  after_results_simp
  rfl

/-- X after step 0 (`main_v79`): the composed term of operations 96 … 112 it depends on, over `main_v5`, `main_v47`, `main_v68`, `main_arg14`, `main_arg15`. -/
def stage_x1 (v5 : (⟨S5000x128, .f32⟩ : BufTy).Contents (Elt F)) (v47 : (⟨S5000x128, .f32⟩ : BufTy).Contents (Elt F)) (v68 : (⟨S5000x128, .f32⟩ : BufTy).Contents (Elt F)) (a14 : (⟨S3x384x128, .f32⟩ : BufTy).Contents (Elt F)) (a15 : (⟨S3x128, .f32⟩ : BufTy).Contents (Elt F)) : (⟨S5000x128, .f32⟩ : BufTy).Contents (Elt F) :=
  (addf : (⟨S5000x128, .f32⟩ : BufTy).Contents (Elt F) → (⟨S5000x128, .f32⟩ : BufTy).Contents (Elt F) → (⟨S5000x128, .f32⟩ : BufTy).Contents (Elt F)) (v5) (leaky_S5000x128 ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x384_S384x128_S5000x128_1_0_0_1_n_n none l r) : (⟨S5000x384, .f32⟩ : BufTy).Contents (Elt F) → (⟨S384x128, .f32⟩ : BufTy).Contents (Elt F) → (⟨S5000x128, .f32⟩ : BufTy).Contents (Elt F)) (concatenate S5000x384 1 [⟨S5000x128, (v5)⟩, ⟨S5000x128, (v47)⟩, ⟨S5000x128, (v68)⟩] concatenates_S5000x128_S5000x128_S5000x128_S5000x384_d1) (shapeCast S384x128 (((extractStridedSlice S1x384x128 ![0, 0, 0] · slices_S3x384x128_S1x384x128_0_0_0) : (⟨S3x384x128, .f32⟩ : BufTy).Contents (Elt F) → (⟨S1x384x128, .f32⟩ : BufTy).Contents (Elt F)) (a14)) shapeCasts_S1x384x128_S384x128)) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) (a15)) shapeCasts_S1x128_S128)))))

set_option maxRecDepth 8192 in
set_option maxHeartbeats 4000000 in
theorem stage_x1_eq_raw (V : Valuation τ sig (Elt F)) :
    after ops V (Proc.devRef .tc main_v79) = stage_x1 (after ops V (Proc.devRef .tc main_v5)) (after ops V (Proc.devRef .tc main_v47)) (after ops V (Proc.devRef .tc main_v68)) (after ops V (Proc.devRef .tc main_arg14)) (after ops V (Proc.devRef .tc main_arg15)) := by
  rw [after_ops, tail_ch07 V main_v79 (by decide),
    tail_ch06 V main_v5 (by decide),
    tail_ch06 V main_v47 (by decide),
    tail_ch06 V main_v68 (by decide),
    tail_ch06 V main_arg14 (by decide),
    tail_ch06 V main_arg15 (by decide)]
  unfold val_ch07
  generalize val_ch06 V = W
  simp only [ch07]
  after_results_simp
  try dsimp only [Matrix.cons_val]
  try after_results_simp
  rfl

/-! ## The same with the arguments read at the launch contents (no operation writes an argument) -/

theorem stage_x0_eq (V : Valuation τ sig (Elt F)) :
    after ops V (Proc.devRef .tc main_v5) = stage_x0 (V (Proc.devRef .tc main_arg0)) (V (Proc.devRef .tc main_arg1)) (V (Proc.devRef .tc main_arg10)) (V (Proc.devRef .tc main_arg11)) := by
  rw [stage_x0_eq_raw V, arg_kept0 V, arg_kept1 V, arg_kept10 V, arg_kept11 V]

theorem stage_src_eq (V : Valuation τ sig (Elt F)) :
    after ops V (Proc.devRef .tc main_v7) = stage_src (V (Proc.devRef .tc main_arg5)) := by
  rw [stage_src_eq_raw V, arg_kept5 V]

theorem stage_dst_eq (V : Valuation τ sig (Elt F)) :
    after ops V (Proc.devRef .tc main_v9) = stage_dst (V (Proc.devRef .tc main_arg5)) := by
  rw [stage_dst_eq_raw V, arg_kept5 V]

theorem stage_ratio_eq (V : Valuation τ sig (Elt F)) :
    after ops V (Proc.devRef .tc main_v11) = stage_ratio (V (Proc.devRef .tc main_arg2)) := by
  rw [stage_ratio_eq_raw V, arg_kept2 V]

theorem stage_m0_eq (V : Valuation τ sig (Elt F)) :
    after ops V (Proc.devRef .tc main_v35) = stage_m0 (after ops V (Proc.devRef .tc main_v5)) (after ops V (Proc.devRef .tc main_v7)) (after ops V (Proc.devRef .tc main_v9)) (V (Proc.devRef .tc main_arg12)) (V (Proc.devRef .tc main_arg13)) := by
  rw [stage_m0_eq_raw V, arg_kept12 V, arg_kept13 V]

theorem stage_aggr0_eq (V : Valuation τ sig (Elt F)) :
    after ops V (Proc.devRef .tc main_v47) = stage_aggr0 (after ops V (Proc.devRef .tc main_v9)) (after ops V (Proc.devRef .tc main_v35)) := by
  rw [stage_aggr0_eq_raw V]

theorem stage_c0_eq (V : Valuation τ sig (Elt F)) :
    after ops V (Proc.devRef .tc main_v68) = stage_c0 (after ops V (Proc.devRef .tc main_v5)) (after ops V (Proc.devRef .tc main_v11)) (V (Proc.devRef .tc main_arg6)) := by
  rw [stage_c0_eq_raw V, arg_kept6 V]

theorem stage_x1_eq (V : Valuation τ sig (Elt F)) :
    after ops V (Proc.devRef .tc main_v79) = stage_x1 (after ops V (Proc.devRef .tc main_v5)) (after ops V (Proc.devRef .tc main_v47)) (after ops V (Proc.devRef .tc main_v68)) (V (Proc.devRef .tc main_arg14)) (V (Proc.devRef .tc main_arg15)) := by
  rw [stage_x1_eq_raw V, arg_kept14 V, arg_kept15 V]

end Cert.ReferenceIdeal.RefRun

end
-- ==== Proof.Ref.StageB.lean ====
/- The reference's value at its cut points (m1, aggr1, c1, x2): each as a named pure function of the earlier cut points and the
   arguments it reads, and that the run's final contents at the cut point's buffer are that function of the final contents at those. -/
import proofs.«173394_j29068338659455_2_alg».proof.Proof.Ref.StageBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Step 1's leaky message (`main_v103`): the composed term of operations 113 … 146 it depends on, over `main_v7`, `main_v9`, `main_v79`, `main_arg12`, `main_arg13`. -/
def stage_m1 (v7 : (⟨S80000, .i32⟩ : BufTy).Contents (Elt F)) (v9 : (⟨S80000, .i32⟩ : BufTy).Contents (Elt F)) (v79 : (⟨S5000x128, .f32⟩ : BufTy).Contents (Elt F)) (a12 : (⟨S3x256x128, .f32⟩ : BufTy).Contents (Elt F)) (a13 : (⟨S3x128, .f32⟩ : BufTy).Contents (Elt F)) : (⟨S80000x128, .f32⟩ : BufTy).Contents (Elt F) :=
  leaky_S80000x128 ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x256_S256x128_S80000x128_1_0_0_1_n_n none l r) : (⟨S80000x256, .f32⟩ : BufTy).Contents (Elt F) → (⟨S256x128, .f32⟩ : BufTy).Contents (Elt F) → (⟨S80000x128, .f32⟩ : BufTy).Contents (Elt F)) (((fun a b => concatenate S80000x256 1 [⟨S80000x128, a⟩, ⟨S80000x128, b⟩] concatenates_S80000x128_S80000x128_S80000x256_d1) : (⟨S80000x128, .f32⟩ : BufTy).Contents (Elt F) → (⟨S80000x128, .f32⟩ : BufTy).Contents (Elt F) → (⟨S80000x256, .f32⟩ : BufTy).Contents (Elt F)) (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (v79) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (v9) ((broadcastInDim S80000 ![] bcast_S_S80000 : (⟨S_, .i32⟩ : BufTy).Contents (Elt F) → (⟨S80000, .i32⟩ : BufTy).Contents (Elt F)) (constantI S_ 32 0#32))) ((addi : (⟨S80000, .i32⟩ : BufTy).Contents (Elt F) → (⟨S80000, .i32⟩ : BufTy).Contents (Elt F) → (⟨S80000, .i32⟩ : BufTy).Contents (Elt F)) (v9) ((broadcastInDim S80000 ![] bcast_S_S80000 : (⟨S_, .i32⟩ : BufTy).Contents (Elt F) → (⟨S80000, .i32⟩ : BufTy).Contents (Elt F)) (constantI S_ 32 5000#32))) (v9)))) (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (v79) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (v7) ((broadcastInDim S80000 ![] bcast_S_S80000 : (⟨S_, .i32⟩ : BufTy).Contents (Elt F) → (⟨S80000, .i32⟩ : BufTy).Contents (Elt F)) (constantI S_ 32 0#32))) ((addi : (⟨S80000, .i32⟩ : BufTy).Contents (Elt F) → (⟨S80000, .i32⟩ : BufTy).Contents (Elt F) → (⟨S80000, .i32⟩ : BufTy).Contents (Elt F)) (v7) ((broadcastInDim S80000 ![] bcast_S_S80000 : (⟨S_, .i32⟩ : BufTy).Contents (Elt F) → (⟨S80000, .i32⟩ : BufTy).Contents (Elt F)) (constantI S_ 32 5000#32))) (v7))))) (shapeCast S256x128 (((extractStridedSlice S1x256x128 ![1, 0, 0] · slices_S3x256x128_S1x256x128_1_0_0) : (⟨S3x256x128, .f32⟩ : BufTy).Contents (Elt F) → (⟨S1x256x128, .f32⟩ : BufTy).Contents (Elt F)) (a12)) shapeCasts_S1x256x128_S256x128)) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) (a13)) shapeCasts_S1x128_S128))))

set_option maxRecDepth 8192 in
set_option maxHeartbeats 4000000 in
theorem stage_m1_eq_raw (V : Valuation τ sig (Elt F)) :
    after ops V (Proc.devRef .tc main_v103) = stage_m1 (after ops V (Proc.devRef .tc main_v7)) (after ops V (Proc.devRef .tc main_v9)) (after ops V (Proc.devRef .tc main_v79)) (after ops V (Proc.devRef .tc main_arg12)) (after ops V (Proc.devRef .tc main_arg13)) := by
  rw [after_ops, tail_ch09 V main_v103 (by decide),
    tail_ch07 V main_v7 (by decide),
    tail_ch07 V main_v9 (by decide),
    tail_ch07 V main_v79 (by decide),
    tail_ch07 V main_arg12 (by decide),
    tail_ch07 V main_arg13 (by decide)]
  unfold val_ch09 val_ch08
  generalize val_ch07 V = W
  simp only [ch08, ch09]
  after_results_simp
  rfl

/-- Step 1's mean of the messages by destination (`main_v115`): the composed term of operations 147 … 162 it depends on, over `main_v9`, `main_v103`. -/
def stage_aggr1 (v9 : (⟨S80000, .i32⟩ : BufTy).Contents (Elt F)) (v103 : (⟨S80000x128, .f32⟩ : BufTy).Contents (Elt F)) : (⟨S5000x128, .f32⟩ : BufTy).Contents (Elt F) :=
  (Host.divf : (⟨S5000x128, .f32⟩ : BufTy).Contents (Elt F) → (⟨S5000x128, .f32⟩ : BufTy).Contents (Elt F) → (⟨S5000x128, .f32⟩ : BufTy).Contents (Elt F)) (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32)) ((broadcastInDim S80000x1 ![0] bcast_S80000_S80000x1_0 : (⟨S80000, .i32⟩ : BufTy).Contents (Elt F) → (⟨S80000x1, .i32⟩ : BufTy).Contents (Elt F)) (v9)) (v103)) ((broadcastInDim S5000x128 ![0, 1] bcast_S5000x1_S5000x128_0_1 : (⟨S5000x1, .f32⟩ : BufTy).Contents (Elt F) → (⟨S5000x128, .f32⟩ : BufTy).Contents (Elt F)) ((maximumf : (⟨S5000x1, .f32⟩ : BufTy).Contents (Elt F) → (⟨S5000x1, .f32⟩ : BufTy).Contents (Elt F) → (⟨S5000x1, .f32⟩ : BufTy).Contents (Elt F)) (((fun x i u => Host.scatterAdd scatter_S5000x1_S80000x1_S80000x1_1_0_0_1 x i u) : (⟨S5000x1, .f32⟩ : BufTy).Contents (Elt F) → (⟨S80000x1, .i32⟩ : BufTy).Contents (Elt F) → (⟨S80000x1, .f32⟩ : BufTy).Contents (Elt F) → (⟨S5000x1, .f32⟩ : BufTy).Contents (Elt F)) ((broadcastInDim S5000x1 ![] bcast_S_S5000x1 : (⟨S_, .f32⟩ : BufTy).Contents (Elt F) → (⟨S5000x1, .f32⟩ : BufTy).Contents (Elt F)) (constant S_ .f32 0x00000000#32)) ((broadcastInDim S80000x1 ![0] bcast_S80000_S80000x1_0 : (⟨S80000, .i32⟩ : BufTy).Contents (Elt F) → (⟨S80000x1, .i32⟩ : BufTy).Contents (Elt F)) (v9)) ((broadcastInDim S80000x1 ![] bcast_S_S80000x1 : (⟨S_, .f32⟩ : BufTy).Contents (Elt F) → (⟨S80000x1, .f32⟩ : BufTy).Contents (Elt F)) (constant S_ .f32 0x3F800000#32))) ((broadcastInDim S5000x1 ![] bcast_S_S5000x1 : (⟨S_, .f32⟩ : BufTy).Contents (Elt F) → (⟨S5000x1, .f32⟩ : BufTy).Contents (Elt F)) (constant S_ .f32 0x3F800000#32))))

set_option maxRecDepth 8192 in
set_option maxHeartbeats 4000000 in
theorem stage_aggr1_eq_raw (V : Valuation τ sig (Elt F)) :
    after ops V (Proc.devRef .tc main_v115) = stage_aggr1 (after ops V (Proc.devRef .tc main_v9)) (after ops V (Proc.devRef .tc main_v103)) := by
  rw [after_ops, tail_ch10 V main_v115 (by decide),
    tail_ch09 V main_v9 (by decide),
    tail_ch09 V main_v103 (by decide)]
  unfold val_ch10
  generalize val_ch09 V = W
  simp only [ch10]
  after_results_simp
  rfl

/-- Step 1's cluster mean gathered back and scaled by the ratio (`main_v136`): the composed term of operations 163 … 189 it depends on, over `main_v11`, `main_v79`, `main_arg6`. -/
def stage_c1 (v11 : (⟨S5000x1, .f32⟩ : BufTy).Contents (Elt F)) (v79 : (⟨S5000x128, .f32⟩ : BufTy).Contents (Elt F)) (a6 : (⟨S5000, .i32⟩ : BufTy).Contents (Elt F)) : (⟨S5000x128, .f32⟩ : BufTy).Contents (Elt F) :=
  (mulf : (⟨S5000x128, .f32⟩ : BufTy).Contents (Elt F) → (⟨S5000x128, .f32⟩ : BufTy).Contents (Elt F) → (⟨S5000x128, .f32⟩ : BufTy).Contents (Elt F)) (((fun x i => Host.gather gather_S10x128_S5000x1_S5000x128_1_0_n_n_0_1_1128 x i) : (⟨S10x128, .f32⟩ : BufTy).Contents (Elt F) → (⟨S5000x1, .i32⟩ : BufTy).Contents (Elt F) → (⟨S5000x128, .f32⟩ : BufTy).Contents (Elt F)) ((Host.divf : (⟨S10x128, .f32⟩ : BufTy).Contents (Elt F) → (⟨S10x128, .f32⟩ : BufTy).Contents (Elt F) → (⟨S10x128, .f32⟩ : BufTy).Contents (Elt F)) (((fun x i u => Host.scatterAdd scatter_S10x128_S5000x1_S5000x128_1_0_0_1 x i u) : (⟨S10x128, .f32⟩ : BufTy).Contents (Elt F) → (⟨S5000x1, .i32⟩ : BufTy).Contents (Elt F) → (⟨S5000x128, .f32⟩ : BufTy).Contents (Elt F) → (⟨S10x128, .f32⟩ : BufTy).Contents (Elt F)) ((broadcastInDim S10x128 ![] bcast_S_S10x128 : (⟨S_, .f32⟩ : BufTy).Contents (Elt F) → (⟨S10x128, .f32⟩ : BufTy).Contents (Elt F)) (constant S_ .f32 0x00000000#32)) ((broadcastInDim S5000x1 ![0] bcast_S5000_S5000x1_0 : (⟨S5000, .i32⟩ : BufTy).Contents (Elt F) → (⟨S5000x1, .i32⟩ : BufTy).Contents (Elt F)) (a6)) (v79)) ((broadcastInDim S10x128 ![0, 1] bcast_S10x1_S10x128_0_1 : (⟨S10x1, .f32⟩ : BufTy).Contents (Elt F) → (⟨S10x128, .f32⟩ : BufTy).Contents (Elt F)) ((maximumf : (⟨S10x1, .f32⟩ : BufTy).Contents (Elt F) → (⟨S10x1, .f32⟩ : BufTy).Contents (Elt F) → (⟨S10x1, .f32⟩ : BufTy).Contents (Elt F)) (((fun x i u => Host.scatterAdd scatter_S10x1_S5000x1_S5000x1_1_0_0_1 x i u) : (⟨S10x1, .f32⟩ : BufTy).Contents (Elt F) → (⟨S5000x1, .i32⟩ : BufTy).Contents (Elt F) → (⟨S5000x1, .f32⟩ : BufTy).Contents (Elt F) → (⟨S10x1, .f32⟩ : BufTy).Contents (Elt F)) ((broadcastInDim S10x1 ![] bcast_S_S10x1 : (⟨S_, .f32⟩ : BufTy).Contents (Elt F) → (⟨S10x1, .f32⟩ : BufTy).Contents (Elt F)) (constant S_ .f32 0x00000000#32)) ((broadcastInDim S5000x1 ![0] bcast_S5000_S5000x1_0 : (⟨S5000, .i32⟩ : BufTy).Contents (Elt F) → (⟨S5000x1, .i32⟩ : BufTy).Contents (Elt F)) (a6)) ((broadcastInDim S5000x1 ![] bcast_S_S5000x1 : (⟨S_, .f32⟩ : BufTy).Contents (Elt F) → (⟨S5000x1, .f32⟩ : BufTy).Contents (Elt F)) (constant S_ .f32 0x3F800000#32))) ((broadcastInDim S10x1 ![] bcast_S_S10x1 : (⟨S_, .f32⟩ : BufTy).Contents (Elt F) → (⟨S10x1, .f32⟩ : BufTy).Contents (Elt F)) (constant S_ .f32 0x3F800000#32))))) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (a6) ((broadcastInDim S5000 ![] bcast_S_S5000 : (⟨S_, .i32⟩ : BufTy).Contents (Elt F) → (⟨S5000, .i32⟩ : BufTy).Contents (Elt F)) (constantI S_ 32 0#32))) ((addi : (⟨S5000, .i32⟩ : BufTy).Contents (Elt F) → (⟨S5000, .i32⟩ : BufTy).Contents (Elt F) → (⟨S5000, .i32⟩ : BufTy).Contents (Elt F)) (a6) ((broadcastInDim S5000 ![] bcast_S_S5000 : (⟨S_, .i32⟩ : BufTy).Contents (Elt F) → (⟨S5000, .i32⟩ : BufTy).Contents (Elt F)) (constantI S_ 32 10#32))) (a6)))) ((broadcastInDim S5000x128 ![0, 1] bcast_S5000x1_S5000x128_0_1 : (⟨S5000x1, .f32⟩ : BufTy).Contents (Elt F) → (⟨S5000x128, .f32⟩ : BufTy).Contents (Elt F)) (v11))

set_option maxRecDepth 8192 in
set_option maxHeartbeats 4000000 in
theorem stage_c1_eq_raw (V : Valuation τ sig (Elt F)) :
    after ops V (Proc.devRef .tc main_v136) = stage_c1 (after ops V (Proc.devRef .tc main_v11)) (after ops V (Proc.devRef .tc main_v79)) (after ops V (Proc.devRef .tc main_arg6)) := by
  rw [after_ops, tail_ch11 V main_v136 (by decide),
    tail_ch10 V main_v11 (by decide),
    tail_ch10 V main_v79 (by decide),
    tail_ch10 V main_arg6 (by decide)]
  unfold val_ch11
  generalize val_ch10 V = W
  simp only [ch11]
  after_results_simp
  rfl

/-- X after step 1 (`main_v147`): the composed term of operations 190 … 206 it depends on, over `main_v79`, `main_v115`, `main_v136`, `main_arg14`, `main_arg15`. -/
def stage_x2 (v79 : (⟨S5000x128, .f32⟩ : BufTy).Contents (Elt F)) (v115 : (⟨S5000x128, .f32⟩ : BufTy).Contents (Elt F)) (v136 : (⟨S5000x128, .f32⟩ : BufTy).Contents (Elt F)) (a14 : (⟨S3x384x128, .f32⟩ : BufTy).Contents (Elt F)) (a15 : (⟨S3x128, .f32⟩ : BufTy).Contents (Elt F)) : (⟨S5000x128, .f32⟩ : BufTy).Contents (Elt F) :=
  (addf : (⟨S5000x128, .f32⟩ : BufTy).Contents (Elt F) → (⟨S5000x128, .f32⟩ : BufTy).Contents (Elt F) → (⟨S5000x128, .f32⟩ : BufTy).Contents (Elt F)) (v79) (leaky_S5000x128 ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x384_S384x128_S5000x128_1_0_0_1_n_n none l r) : (⟨S5000x384, .f32⟩ : BufTy).Contents (Elt F) → (⟨S384x128, .f32⟩ : BufTy).Contents (Elt F) → (⟨S5000x128, .f32⟩ : BufTy).Contents (Elt F)) (concatenate S5000x384 1 [⟨S5000x128, (v79)⟩, ⟨S5000x128, (v115)⟩, ⟨S5000x128, (v136)⟩] concatenates_S5000x128_S5000x128_S5000x128_S5000x384_d1) (shapeCast S384x128 (((extractStridedSlice S1x384x128 ![1, 0, 0] · slices_S3x384x128_S1x384x128_1_0_0) : (⟨S3x384x128, .f32⟩ : BufTy).Contents (Elt F) → (⟨S1x384x128, .f32⟩ : BufTy).Contents (Elt F)) (a14)) shapeCasts_S1x384x128_S384x128)) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) (a15)) shapeCasts_S1x128_S128)))))

set_option maxRecDepth 8192 in
set_option maxHeartbeats 4000000 in
theorem stage_x2_eq_raw (V : Valuation τ sig (Elt F)) :
    after ops V (Proc.devRef .tc main_v147) = stage_x2 (after ops V (Proc.devRef .tc main_v79)) (after ops V (Proc.devRef .tc main_v115)) (after ops V (Proc.devRef .tc main_v136)) (after ops V (Proc.devRef .tc main_arg14)) (after ops V (Proc.devRef .tc main_arg15)) := by
  rw [after_ops, tail_ch12 V main_v147 (by decide),
    tail_ch11 V main_v79 (by decide),
    tail_ch11 V main_v115 (by decide),
    tail_ch11 V main_v136 (by decide),
    tail_ch11 V main_arg14 (by decide),
    tail_ch11 V main_arg15 (by decide)]
  unfold val_ch12
  generalize val_ch11 V = W
  simp only [ch12]
  after_results_simp
  try dsimp only [Matrix.cons_val]
  try after_results_simp
  rfl

/-! ## The same with the arguments read at the launch contents (no operation writes an argument) -/

theorem stage_m1_eq (V : Valuation τ sig (Elt F)) :
    after ops V (Proc.devRef .tc main_v103) = stage_m1 (after ops V (Proc.devRef .tc main_v7)) (after ops V (Proc.devRef .tc main_v9)) (after ops V (Proc.devRef .tc main_v79)) (V (Proc.devRef .tc main_arg12)) (V (Proc.devRef .tc main_arg13)) := by
  rw [stage_m1_eq_raw V, arg_kept12 V, arg_kept13 V]

theorem stage_aggr1_eq (V : Valuation τ sig (Elt F)) :
    after ops V (Proc.devRef .tc main_v115) = stage_aggr1 (after ops V (Proc.devRef .tc main_v9)) (after ops V (Proc.devRef .tc main_v103)) := by
  rw [stage_aggr1_eq_raw V]

theorem stage_c1_eq (V : Valuation τ sig (Elt F)) :
    after ops V (Proc.devRef .tc main_v136) = stage_c1 (after ops V (Proc.devRef .tc main_v11)) (after ops V (Proc.devRef .tc main_v79)) (V (Proc.devRef .tc main_arg6)) := by
  rw [stage_c1_eq_raw V, arg_kept6 V]

theorem stage_x2_eq (V : Valuation τ sig (Elt F)) :
    after ops V (Proc.devRef .tc main_v147) = stage_x2 (after ops V (Proc.devRef .tc main_v79)) (after ops V (Proc.devRef .tc main_v115)) (after ops V (Proc.devRef .tc main_v136)) (V (Proc.devRef .tc main_arg14)) (V (Proc.devRef .tc main_arg15)) := by
  rw [stage_x2_eq_raw V, arg_kept14 V, arg_kept15 V]

end Cert.ReferenceIdeal.RefRun

end
-- ==== Proof.Ref.StageC.lean ====
/- The reference's value at its cut points (m2, aggr2, c2, x3): each as a named pure function of the earlier cut points and the
   arguments it reads, and that the run's final contents at the cut point's buffer are that function of the final contents at those. -/
import proofs.«173394_j29068338659455_2_alg».proof.Proof.Ref.StageBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Step 2's leaky message (`main_v171`): the composed term of operations 207 … 240 it depends on, over `main_v7`, `main_v9`, `main_v147`, `main_arg12`, `main_arg13`. -/
def stage_m2 (v7 : (⟨S80000, .i32⟩ : BufTy).Contents (Elt F)) (v9 : (⟨S80000, .i32⟩ : BufTy).Contents (Elt F)) (v147 : (⟨S5000x128, .f32⟩ : BufTy).Contents (Elt F)) (a12 : (⟨S3x256x128, .f32⟩ : BufTy).Contents (Elt F)) (a13 : (⟨S3x128, .f32⟩ : BufTy).Contents (Elt F)) : (⟨S80000x128, .f32⟩ : BufTy).Contents (Elt F) :=
  leaky_S80000x128 ((addf : (⟨S80000x128, .f32⟩ : BufTy).Contents (Elt F) → (⟨S80000x128, .f32⟩ : BufTy).Contents (Elt F) → (⟨S80000x128, .f32⟩ : BufTy).Contents (Elt F)) (((fun l r => Host.dotGeneral dot_S80000x256_S256x128_S80000x128_1_0_0_1_n_n none l r) : (⟨S80000x256, .f32⟩ : BufTy).Contents (Elt F) → (⟨S256x128, .f32⟩ : BufTy).Contents (Elt F) → (⟨S80000x128, .f32⟩ : BufTy).Contents (Elt F)) (((fun a b => concatenate S80000x256 1 [⟨S80000x128, a⟩, ⟨S80000x128, b⟩] concatenates_S80000x128_S80000x128_S80000x256_d1) : (⟨S80000x128, .f32⟩ : BufTy).Contents (Elt F) → (⟨S80000x128, .f32⟩ : BufTy).Contents (Elt F) → (⟨S80000x256, .f32⟩ : BufTy).Contents (Elt F)) (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (v147) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (v9) ((broadcastInDim S80000 ![] bcast_S_S80000 : (⟨S_, .i32⟩ : BufTy).Contents (Elt F) → (⟨S80000, .i32⟩ : BufTy).Contents (Elt F)) (constantI S_ 32 0#32))) ((addi : (⟨S80000, .i32⟩ : BufTy).Contents (Elt F) → (⟨S80000, .i32⟩ : BufTy).Contents (Elt F) → (⟨S80000, .i32⟩ : BufTy).Contents (Elt F)) (v9) ((broadcastInDim S80000 ![] bcast_S_S80000 : (⟨S_, .i32⟩ : BufTy).Contents (Elt F) → (⟨S80000, .i32⟩ : BufTy).Contents (Elt F)) (constantI S_ 32 5000#32))) (v9)))) (((fun x i => Host.gather gather_S5000x128_S80000x1_S80000x128_1_0_n_n_0_1_1128 x i) : (⟨S5000x128, .f32⟩ : BufTy).Contents (Elt F) → (⟨S80000x1, .i32⟩ : BufTy).Contents (Elt F) → (⟨S80000x128, .f32⟩ : BufTy).Contents (Elt F)) (v147) ((broadcastInDim S80000x1 ![0] bcast_S80000_S80000x1_0 : (⟨S80000, .i32⟩ : BufTy).Contents (Elt F) → (⟨S80000x1, .i32⟩ : BufTy).Contents (Elt F)) ((select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)) ((cmpi .slt : (⟨S80000, .i32⟩ : BufTy).Contents (Elt F) → (⟨S80000, .i32⟩ : BufTy).Contents (Elt F) → (⟨S80000, .i1⟩ : BufTy).Contents (Elt F)) (v7) ((broadcastInDim S80000 ![] bcast_S_S80000 : (⟨S_, .i32⟩ : BufTy).Contents (Elt F) → (⟨S80000, .i32⟩ : BufTy).Contents (Elt F)) (constantI S_ 32 0#32))) ((addi : (⟨S80000, .i32⟩ : BufTy).Contents (Elt F) → (⟨S80000, .i32⟩ : BufTy).Contents (Elt F) → (⟨S80000, .i32⟩ : BufTy).Contents (Elt F)) (v7) ((broadcastInDim S80000 ![] bcast_S_S80000 : (⟨S_, .i32⟩ : BufTy).Contents (Elt F) → (⟨S80000, .i32⟩ : BufTy).Contents (Elt F)) (constantI S_ 32 5000#32))) (v7))))) (shapeCast S256x128 (((extractStridedSlice S1x256x128 ![2, 0, 0] · slices_S3x256x128_S1x256x128_2_0_0) : (⟨S3x256x128, .f32⟩ : BufTy).Contents (Elt F) → (⟨S1x256x128, .f32⟩ : BufTy).Contents (Elt F)) (a12)) shapeCasts_S1x256x128_S256x128)) ((broadcastInDim S80000x128 ![0, 1] bcast_S1x128_S80000x128_0_1 : (⟨S1x128, .f32⟩ : BufTy).Contents (Elt F) → (⟨S80000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![2, 0] · slices_S3x128_S1x128_2_0) : (⟨S3x128, .f32⟩ : BufTy).Contents (Elt F) → (⟨S1x128, .f32⟩ : BufTy).Contents (Elt F)) (a13)) shapeCasts_S1x128_S128))))

set_option maxRecDepth 8192 in
set_option maxHeartbeats 4000000 in
theorem stage_m2_eq_raw (V : Valuation τ sig (Elt F)) :
    after ops V (Proc.devRef .tc main_v171) = stage_m2 (after ops V (Proc.devRef .tc main_v7)) (after ops V (Proc.devRef .tc main_v9)) (after ops V (Proc.devRef .tc main_v147)) (after ops V (Proc.devRef .tc main_arg12)) (after ops V (Proc.devRef .tc main_arg13)) := by
  rw [after_ops, tail_ch14 V main_v171 (by decide),
    tail_ch12 V main_v7 (by decide),
    tail_ch12 V main_v9 (by decide),
    tail_ch12 V main_v147 (by decide),
    tail_ch12 V main_arg12 (by decide),
    tail_ch12 V main_arg13 (by decide)]
  unfold val_ch14 val_ch13
  generalize val_ch12 V = W
  simp only [ch13, ch14]
  after_results_simp
  rfl

/-- Step 2's mean of the messages by destination (`main_v183`): the composed term of operations 241 … 256 it depends on, over `main_v9`, `main_v171`. -/
def stage_aggr2 (v9 : (⟨S80000, .i32⟩ : BufTy).Contents (Elt F)) (v171 : (⟨S80000x128, .f32⟩ : BufTy).Contents (Elt F)) : (⟨S5000x128, .f32⟩ : BufTy).Contents (Elt F) :=
  (Host.divf : (⟨S5000x128, .f32⟩ : BufTy).Contents (Elt F) → (⟨S5000x128, .f32⟩ : BufTy).Contents (Elt F) → (⟨S5000x128, .f32⟩ : BufTy).Contents (Elt F)) (((fun x i u => Host.scatterAdd scatter_S5000x128_S80000x1_S80000x128_1_0_0_1 x i u) : (⟨S5000x128, .f32⟩ : BufTy).Contents (Elt F) → (⟨S80000x1, .i32⟩ : BufTy).Contents (Elt F) → (⟨S80000x128, .f32⟩ : BufTy).Contents (Elt F) → (⟨S5000x128, .f32⟩ : BufTy).Contents (Elt F)) ((broadcastInDim S5000x128 ![] bcast_S_S5000x128 : (⟨S_, .f32⟩ : BufTy).Contents (Elt F) → (⟨S5000x128, .f32⟩ : BufTy).Contents (Elt F)) (constant S_ .f32 0x00000000#32)) ((broadcastInDim S80000x1 ![0] bcast_S80000_S80000x1_0 : (⟨S80000, .i32⟩ : BufTy).Contents (Elt F) → (⟨S80000x1, .i32⟩ : BufTy).Contents (Elt F)) (v9)) (v171)) ((broadcastInDim S5000x128 ![0, 1] bcast_S5000x1_S5000x128_0_1 : (⟨S5000x1, .f32⟩ : BufTy).Contents (Elt F) → (⟨S5000x128, .f32⟩ : BufTy).Contents (Elt F)) ((maximumf : (⟨S5000x1, .f32⟩ : BufTy).Contents (Elt F) → (⟨S5000x1, .f32⟩ : BufTy).Contents (Elt F) → (⟨S5000x1, .f32⟩ : BufTy).Contents (Elt F)) (((fun x i u => Host.scatterAdd scatter_S5000x1_S80000x1_S80000x1_1_0_0_1 x i u) : (⟨S5000x1, .f32⟩ : BufTy).Contents (Elt F) → (⟨S80000x1, .i32⟩ : BufTy).Contents (Elt F) → (⟨S80000x1, .f32⟩ : BufTy).Contents (Elt F) → (⟨S5000x1, .f32⟩ : BufTy).Contents (Elt F)) ((broadcastInDim S5000x1 ![] bcast_S_S5000x1 : (⟨S_, .f32⟩ : BufTy).Contents (Elt F) → (⟨S5000x1, .f32⟩ : BufTy).Contents (Elt F)) (constant S_ .f32 0x00000000#32)) ((broadcastInDim S80000x1 ![0] bcast_S80000_S80000x1_0 : (⟨S80000, .i32⟩ : BufTy).Contents (Elt F) → (⟨S80000x1, .i32⟩ : BufTy).Contents (Elt F)) (v9)) ((broadcastInDim S80000x1 ![] bcast_S_S80000x1 : (⟨S_, .f32⟩ : BufTy).Contents (Elt F) → (⟨S80000x1, .f32⟩ : BufTy).Contents (Elt F)) (constant S_ .f32 0x3F800000#32))) ((broadcastInDim S5000x1 ![] bcast_S_S5000x1 : (⟨S_, .f32⟩ : BufTy).Contents (Elt F) → (⟨S5000x1, .f32⟩ : BufTy).Contents (Elt F)) (constant S_ .f32 0x3F800000#32))))

set_option maxRecDepth 8192 in
set_option maxHeartbeats 4000000 in
theorem stage_aggr2_eq_raw (V : Valuation τ sig (Elt F)) :
    after ops V (Proc.devRef .tc main_v183) = stage_aggr2 (after ops V (Proc.devRef .tc main_v9)) (after ops V (Proc.devRef .tc main_v171)) := by
  rw [after_ops, tail_ch15 V main_v183 (by decide),
    tail_ch14 V main_v9 (by decide),
    tail_ch14 V main_v171 (by decide)]
  unfold val_ch15
  generalize val_ch14 V = W
  simp only [ch15]
  after_results_simp
  rfl

/-- Step 2's cluster mean gathered back and scaled by the ratio (`main_v204`): the composed term of operations 257 … 283 it depends on, over `main_v11`, `main_v147`, `main_arg6`. -/
def stage_c2 (v11 : (⟨S5000x1, .f32⟩ : BufTy).Contents (Elt F)) (v147 : (⟨S5000x128, .f32⟩ : BufTy).Contents (Elt F)) (a6 : (⟨S5000, .i32⟩ : BufTy).Contents (Elt F)) : (⟨S5000x128, .f32⟩ : BufTy).Contents (Elt F) :=
  (mulf : (⟨S5000x128, .f32⟩ : BufTy).Contents (Elt F) → (⟨S5000x128, .f32⟩ : BufTy).Contents (Elt F) → (⟨S5000x128, .f32⟩ : BufTy).Contents (Elt F)) (((fun x i => Host.gather gather_S10x128_S5000x1_S5000x128_1_0_n_n_0_1_1128 x i) : (⟨S10x128, .f32⟩ : BufTy).Contents (Elt F) → (⟨S5000x1, .i32⟩ : BufTy).Contents (Elt F) → (⟨S5000x128, .f32⟩ : BufTy).Contents (Elt F)) ((Host.divf : (⟨S10x128, .f32⟩ : BufTy).Contents (Elt F) → (⟨S10x128, .f32⟩ : BufTy).Contents (Elt F) → (⟨S10x128, .f32⟩ : BufTy).Contents (Elt F)) (((fun x i u => Host.scatterAdd scatter_S10x128_S5000x1_S5000x128_1_0_0_1 x i u) : (⟨S10x128, .f32⟩ : BufTy).Contents (Elt F) → (⟨S5000x1, .i32⟩ : BufTy).Contents (Elt F) → (⟨S5000x128, .f32⟩ : BufTy).Contents (Elt F) → (⟨S10x128, .f32⟩ : BufTy).Contents (Elt F)) ((broadcastInDim S10x128 ![] bcast_S_S10x128 : (⟨S_, .f32⟩ : BufTy).Contents (Elt F) → (⟨S10x128, .f32⟩ : BufTy).Contents (Elt F)) (constant S_ .f32 0x00000000#32)) ((broadcastInDim S5000x1 ![0] bcast_S5000_S5000x1_0 : (⟨S5000, .i32⟩ : BufTy).Contents (Elt F) → (⟨S5000x1, .i32⟩ : BufTy).Contents (Elt F)) (a6)) (v147)) ((broadcastInDim S10x128 ![0, 1] bcast_S10x1_S10x128_0_1 : (⟨S10x1, .f32⟩ : BufTy).Contents (Elt F) → (⟨S10x128, .f32⟩ : BufTy).Contents (Elt F)) ((maximumf : (⟨S10x1, .f32⟩ : BufTy).Contents (Elt F) → (⟨S10x1, .f32⟩ : BufTy).Contents (Elt F) → (⟨S10x1, .f32⟩ : BufTy).Contents (Elt F)) (((fun x i u => Host.scatterAdd scatter_S10x1_S5000x1_S5000x1_1_0_0_1 x i u) : (⟨S10x1, .f32⟩ : BufTy).Contents (Elt F) → (⟨S5000x1, .i32⟩ : BufTy).Contents (Elt F) → (⟨S5000x1, .f32⟩ : BufTy).Contents (Elt F) → (⟨S10x1, .f32⟩ : BufTy).Contents (Elt F)) ((broadcastInDim S10x1 ![] bcast_S_S10x1 : (⟨S_, .f32⟩ : BufTy).Contents (Elt F) → (⟨S10x1, .f32⟩ : BufTy).Contents (Elt F)) (constant S_ .f32 0x00000000#32)) ((broadcastInDim S5000x1 ![0] bcast_S5000_S5000x1_0 : (⟨S5000, .i32⟩ : BufTy).Contents (Elt F) → (⟨S5000x1, .i32⟩ : BufTy).Contents (Elt F)) (a6)) ((broadcastInDim S5000x1 ![] bcast_S_S5000x1 : (⟨S_, .f32⟩ : BufTy).Contents (Elt F) → (⟨S5000x1, .f32⟩ : BufTy).Contents (Elt F)) (constant S_ .f32 0x3F800000#32))) ((broadcastInDim S10x1 ![] bcast_S_S10x1 : (⟨S_, .f32⟩ : BufTy).Contents (Elt F) → (⟨S10x1, .f32⟩ : BufTy).Contents (Elt F)) (constant S_ .f32 0x3F800000#32))))) ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (a6) ((broadcastInDim S5000 ![] bcast_S_S5000 : (⟨S_, .i32⟩ : BufTy).Contents (Elt F) → (⟨S5000, .i32⟩ : BufTy).Contents (Elt F)) (constantI S_ 32 0#32))) ((addi : (⟨S5000, .i32⟩ : BufTy).Contents (Elt F) → (⟨S5000, .i32⟩ : BufTy).Contents (Elt F) → (⟨S5000, .i32⟩ : BufTy).Contents (Elt F)) (a6) ((broadcastInDim S5000 ![] bcast_S_S5000 : (⟨S_, .i32⟩ : BufTy).Contents (Elt F) → (⟨S5000, .i32⟩ : BufTy).Contents (Elt F)) (constantI S_ 32 10#32))) (a6)))) ((broadcastInDim S5000x128 ![0, 1] bcast_S5000x1_S5000x128_0_1 : (⟨S5000x1, .f32⟩ : BufTy).Contents (Elt F) → (⟨S5000x128, .f32⟩ : BufTy).Contents (Elt F)) (v11))

set_option maxRecDepth 8192 in
set_option maxHeartbeats 4000000 in
theorem stage_c2_eq_raw (V : Valuation τ sig (Elt F)) :
    after ops V (Proc.devRef .tc main_v204) = stage_c2 (after ops V (Proc.devRef .tc main_v11)) (after ops V (Proc.devRef .tc main_v147)) (after ops V (Proc.devRef .tc main_arg6)) := by
  rw [after_ops, tail_ch17 V main_v204 (by decide),
    tail_ch15 V main_v11 (by decide),
    tail_ch15 V main_v147 (by decide),
    tail_ch15 V main_arg6 (by decide)]
  unfold val_ch17 val_ch16
  generalize val_ch15 V = W
  simp only [ch16, ch17]
  after_results_simp
  rfl

/-- X after step 2 (`main_v215`): the composed term of operations 284 … 300 it depends on, over `main_v147`, `main_v183`, `main_v204`, `main_arg14`, `main_arg15`. -/
def stage_x3 (v147 : (⟨S5000x128, .f32⟩ : BufTy).Contents (Elt F)) (v183 : (⟨S5000x128, .f32⟩ : BufTy).Contents (Elt F)) (v204 : (⟨S5000x128, .f32⟩ : BufTy).Contents (Elt F)) (a14 : (⟨S3x384x128, .f32⟩ : BufTy).Contents (Elt F)) (a15 : (⟨S3x128, .f32⟩ : BufTy).Contents (Elt F)) : (⟨S5000x128, .f32⟩ : BufTy).Contents (Elt F) :=
  (addf : (⟨S5000x128, .f32⟩ : BufTy).Contents (Elt F) → (⟨S5000x128, .f32⟩ : BufTy).Contents (Elt F) → (⟨S5000x128, .f32⟩ : BufTy).Contents (Elt F)) (v147) (leaky_S5000x128 ((addf : (⟨S5000x128, .f32⟩ : BufTy).Contents (Elt F) → (⟨S5000x128, .f32⟩ : BufTy).Contents (Elt F) → (⟨S5000x128, .f32⟩ : BufTy).Contents (Elt F)) (((fun l r => Host.dotGeneral dot_S5000x384_S384x128_S5000x128_1_0_0_1_n_n none l r) : (⟨S5000x384, .f32⟩ : BufTy).Contents (Elt F) → (⟨S384x128, .f32⟩ : BufTy).Contents (Elt F) → (⟨S5000x128, .f32⟩ : BufTy).Contents (Elt F)) (concatenate S5000x384 1 [⟨S5000x128, (v147)⟩, ⟨S5000x128, (v183)⟩, ⟨S5000x128, (v204)⟩] concatenates_S5000x128_S5000x128_S5000x128_S5000x384_d1) (shapeCast S384x128 (((extractStridedSlice S1x384x128 ![2, 0, 0] · slices_S3x384x128_S1x384x128_2_0_0) : (⟨S3x384x128, .f32⟩ : BufTy).Contents (Elt F) → (⟨S1x384x128, .f32⟩ : BufTy).Contents (Elt F)) (a14)) shapeCasts_S1x384x128_S384x128)) ((broadcastInDim S5000x128 ![0, 1] bcast_S1x128_S5000x128_0_1 : (⟨S1x128, .f32⟩ : BufTy).Contents (Elt F) → (⟨S5000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![2, 0] · slices_S3x128_S1x128_2_0) : (⟨S3x128, .f32⟩ : BufTy).Contents (Elt F) → (⟨S1x128, .f32⟩ : BufTy).Contents (Elt F)) (a15)) shapeCasts_S1x128_S128)))))

set_option maxRecDepth 8192 in
set_option maxHeartbeats 4000000 in
theorem stage_x3_eq_raw (V : Valuation τ sig (Elt F)) :
    after ops V (Proc.devRef .tc main_v215) = stage_x3 (after ops V (Proc.devRef .tc main_v147)) (after ops V (Proc.devRef .tc main_v183)) (after ops V (Proc.devRef .tc main_v204)) (after ops V (Proc.devRef .tc main_arg14)) (after ops V (Proc.devRef .tc main_arg15)) := by
  rw [after_ops, tail_ch18 V main_v215 (by decide),
    tail_ch17 V main_v147 (by decide),
    tail_ch17 V main_v183 (by decide),
    tail_ch17 V main_v204 (by decide),
    tail_ch17 V main_arg14 (by decide),
    tail_ch17 V main_arg15 (by decide)]
  unfold val_ch18
  generalize val_ch17 V = W
  simp only [ch18]
  after_results_simp
  try dsimp only [Matrix.cons_val]
  try after_results_simp
  rfl

/-! ## The same with the arguments read at the launch contents (no operation writes an argument) -/

theorem stage_m2_eq (V : Valuation τ sig (Elt F)) :
    after ops V (Proc.devRef .tc main_v171) = stage_m2 (after ops V (Proc.devRef .tc main_v7)) (after ops V (Proc.devRef .tc main_v9)) (after ops V (Proc.devRef .tc main_v147)) (V (Proc.devRef .tc main_arg12)) (V (Proc.devRef .tc main_arg13)) := by
  rw [stage_m2_eq_raw V, arg_kept12 V, arg_kept13 V]

theorem stage_aggr2_eq (V : Valuation τ sig (Elt F)) :
    after ops V (Proc.devRef .tc main_v183) = stage_aggr2 (after ops V (Proc.devRef .tc main_v9)) (after ops V (Proc.devRef .tc main_v171)) := by
  rw [stage_aggr2_eq_raw V]

theorem stage_c2_eq (V : Valuation τ sig (Elt F)) :
    after ops V (Proc.devRef .tc main_v204) = stage_c2 (after ops V (Proc.devRef .tc main_v11)) (after ops V (Proc.devRef .tc main_v147)) (V (Proc.devRef .tc main_arg6)) := by
  rw [stage_c2_eq_raw V, arg_kept6 V]

theorem stage_x3_eq (V : Valuation τ sig (Elt F)) :
    after ops V (Proc.devRef .tc main_v215) = stage_x3 (after ops V (Proc.devRef .tc main_v147)) (after ops V (Proc.devRef .tc main_v183)) (after ops V (Proc.devRef .tc main_v204)) (V (Proc.devRef .tc main_arg14)) (V (Proc.devRef .tc main_arg15)) := by
  rw [stage_x3_eq_raw V, arg_kept14 V, arg_kept15 V]

end Cert.ReferenceIdeal.RefRun

end
-- ==== Proof.Ref.StageD.lean ====
/- The reference's value at its cut points (v0, pf, logits, attn, attended, v1): each as a named pure function of the earlier cut points and the
   arguments it reads, and that the run's final contents at the cut point's buffer are that function of the final contents at those. -/
import proofs.«173394_j29068338659455_2_alg».proof.Proof.Ref.StageBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- V after the voxel encoder (`main_v221`): the composed term of operations 301 … 312 it depends on, over `main_arg3`, `main_arg4`, `main_arg16`, `main_arg17`. -/
def stage_v0 (a3 : (⟨S100000x16, .f32⟩ : BufTy).Contents (Elt F)) (a4 : (⟨S100000x32, .f32⟩ : BufTy).Contents (Elt F)) (a16 : (⟨S48x128, .f32⟩ : BufTy).Contents (Elt F)) (a17 : (⟨S128, .f32⟩ : BufTy).Contents (Elt F)) : (⟨S100000x128, .f32⟩ : BufTy).Contents (Elt F) :=
  leaky_S100000x128 ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x48_S48x128_S100000x128_1_0_0_1_n_n none l r) : (⟨S100000x48, .f32⟩ : BufTy).Contents (Elt F) → (⟨S48x128, .f32⟩ : BufTy).Contents (Elt F) → (⟨S100000x128, .f32⟩ : BufTy).Contents (Elt F)) (((fun a b => concatenate S100000x48 1 [⟨S100000x16, a⟩, ⟨S100000x32, b⟩] concatenates_S100000x16_S100000x32_S100000x48_d1) : (⟨S100000x16, .f32⟩ : BufTy).Contents (Elt F) → (⟨S100000x32, .f32⟩ : BufTy).Contents (Elt F) → (⟨S100000x48, .f32⟩ : BufTy).Contents (Elt F)) (a3) (a4)) (a16)) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (a17))))

set_option maxRecDepth 8192 in
set_option maxHeartbeats 4000000 in
theorem stage_v0_eq_raw (V : Valuation τ sig (Elt F)) :
    after ops V (Proc.devRef .tc main_v221) = stage_v0 (after ops V (Proc.devRef .tc main_arg3)) (after ops V (Proc.devRef .tc main_arg4)) (after ops V (Proc.devRef .tc main_arg16)) (after ops V (Proc.devRef .tc main_arg17)) := by
  rw [after_ops, tail_ch19 V main_v221 (by decide),
    tail_ch18 V main_arg3 (by decide),
    tail_ch18 V main_arg4 (by decide),
    tail_ch18 V main_arg16 (by decide),
    tail_ch18 V main_arg17 (by decide)]
  unfold val_ch19
  generalize val_ch18 V = W
  simp only [ch19]
  after_results_simp
  rfl

/-- X gathered at the cross edges' program ends (`main_v228`): the composed term of operations 313 … 321 it depends on, over `main_v215`, `main_arg8`. -/
def stage_pf (v215 : (⟨S5000x128, .f32⟩ : BufTy).Contents (Elt F)) (a8 : (⟨S300000, .i32⟩ : BufTy).Contents (Elt F)) : (⟨S300000x128, .f32⟩ : BufTy).Contents (Elt F) :=
  ((fun x i => Host.gather gather_S5000x128_S300000x1_S300000x128_1_0_n_n_0_1_1128 x i) : (⟨S5000x128, .f32⟩ : BufTy).Contents (Elt F) → (⟨S300000x1, .i32⟩ : BufTy).Contents (Elt F) → (⟨S300000x128, .f32⟩ : BufTy).Contents (Elt F)) (v215) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (a8) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (a8) ((broadcastInDim S300000 ![] bcast_S_S300000 : (⟨S_, .i32⟩ : BufTy).Contents (Elt F) → (⟨S300000, .i32⟩ : BufTy).Contents (Elt F)) (constantI S_ 32 5000#32))) (a8)))

set_option maxRecDepth 8192 in
set_option maxHeartbeats 4000000 in
theorem stage_pf_eq_raw (V : Valuation τ sig (Elt F)) :
    after ops V (Proc.devRef .tc main_v228) = stage_pf (after ops V (Proc.devRef .tc main_v215)) (after ops V (Proc.devRef .tc main_arg8)) := by
  rw [after_ops, tail_ch20 V main_v228 (by decide),
    tail_ch19 V main_v215 (by decide),
    tail_ch19 V main_arg8 (by decide)]
  unfold val_ch20
  generalize val_ch19 V = W
  simp only [ch20]
  after_results_simp
  rfl

/-- The attention logits (`main_v245`): the composed term of operations 322 … 340 it depends on, over `main_v221`, `main_v228`, `main_arg9`, `main_arg22`, `main_arg23`, `main_arg24`, `main_arg25`. -/
def stage_logits (v221 : (⟨S100000x128, .f32⟩ : BufTy).Contents (Elt F)) (v228 : (⟨S300000x128, .f32⟩ : BufTy).Contents (Elt F)) (a9 : (⟨S300000, .i32⟩ : BufTy).Contents (Elt F)) (a22 : (⟨S256x128, .f32⟩ : BufTy).Contents (Elt F)) (a23 : (⟨S128, .f32⟩ : BufTy).Contents (Elt F)) (a24 : (⟨S128x1, .f32⟩ : BufTy).Contents (Elt F)) (a25 : (⟨S1, .f32⟩ : BufTy).Contents (Elt F)) : (⟨S300000x1, .f32⟩ : BufTy).Contents (Elt F) :=
  (addf : (⟨S300000x1, .f32⟩ : BufTy).Contents (Elt F) → (⟨S300000x1, .f32⟩ : BufTy).Contents (Elt F) → (⟨S300000x1, .f32⟩ : BufTy).Contents (Elt F)) (((fun l r => Host.dotGeneral dot_S300000x128_S128x1_S300000x1_1_0_0_1_n_n none l r) : (⟨S300000x128, .f32⟩ : BufTy).Contents (Elt F) → (⟨S128x1, .f32⟩ : BufTy).Contents (Elt F) → (⟨S300000x1, .f32⟩ : BufTy).Contents (Elt F)) ((Host.tanh : (⟨S300000x128, .f32⟩ : BufTy).Contents (Elt F) → (⟨S300000x128, .f32⟩ : BufTy).Contents (Elt F)) ((addf : (⟨S300000x128, .f32⟩ : BufTy).Contents (Elt F) → (⟨S300000x128, .f32⟩ : BufTy).Contents (Elt F) → (⟨S300000x128, .f32⟩ : BufTy).Contents (Elt F)) (((fun l r => Host.dotGeneral dot_S300000x256_S256x128_S300000x128_1_0_0_1_n_n none l r) : (⟨S300000x256, .f32⟩ : BufTy).Contents (Elt F) → (⟨S256x128, .f32⟩ : BufTy).Contents (Elt F) → (⟨S300000x128, .f32⟩ : BufTy).Contents (Elt F)) (((fun a b => concatenate S300000x256 1 [⟨S300000x128, a⟩, ⟨S300000x128, b⟩] concatenates_S300000x128_S300000x128_S300000x256_d1) : (⟨S300000x128, .f32⟩ : BufTy).Contents (Elt F) → (⟨S300000x128, .f32⟩ : BufTy).Contents (Elt F) → (⟨S300000x256, .f32⟩ : BufTy).Contents (Elt F)) (v228) (((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)) (v221) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (a9) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (a9) ((broadcastInDim S300000 ![] bcast_S_S300000 : (⟨S_, .i32⟩ : BufTy).Contents (Elt F) → (⟨S300000, .i32⟩ : BufTy).Contents (Elt F)) (constantI S_ 32 100000#32))) (a9))))) (a22)) ((broadcastInDim S300000x128 ![0, 1] bcast_S1x128_S300000x128_0_1 : (⟨S1x128, .f32⟩ : BufTy).Contents (Elt F) → (⟨S300000x128, .f32⟩ : BufTy).Contents (Elt F)) ((broadcastInDim S1x128 ![1] bcast_S128_S1x128_1 : (⟨S128, .f32⟩ : BufTy).Contents (Elt F) → (⟨S1x128, .f32⟩ : BufTy).Contents (Elt F)) (a23))))) (a24)) ((broadcastInDim S300000x1 ![0, 1] bcast_S1x1_S300000x1_0_1 : (⟨S1x1, .f32⟩ : BufTy).Contents (Elt F) → (⟨S300000x1, .f32⟩ : BufTy).Contents (Elt F)) ((broadcastInDim S1x1 ![1] bcast_S1_S1x1_1 : (⟨S1, .f32⟩ : BufTy).Contents (Elt F) → (⟨S1x1, .f32⟩ : BufTy).Contents (Elt F)) (a25)))

set_option maxRecDepth 8192 in
set_option maxHeartbeats 4000000 in
theorem stage_logits_eq_raw (V : Valuation τ sig (Elt F)) :
    after ops V (Proc.devRef .tc main_v245) = stage_logits (after ops V (Proc.devRef .tc main_v221)) (after ops V (Proc.devRef .tc main_v228)) (after ops V (Proc.devRef .tc main_arg9)) (after ops V (Proc.devRef .tc main_arg22)) (after ops V (Proc.devRef .tc main_arg23)) (after ops V (Proc.devRef .tc main_arg24)) (after ops V (Proc.devRef .tc main_arg25)) := by
  rw [after_ops, tail_ch21 V main_v245 (by decide),
    tail_ch20 V main_v221 (by decide),
    tail_ch20 V main_v228 (by decide),
    tail_ch20 V main_arg9 (by decide),
    tail_ch20 V main_arg22 (by decide),
    tail_ch20 V main_arg23 (by decide),
    tail_ch20 V main_arg24 (by decide),
    tail_ch20 V main_arg25 (by decide)]
  unfold val_ch21
  generalize val_ch20 V = W
  simp only [ch21]
  after_results_simp
  rfl

/-- An intermediate of `stage_attn` read more than once: the contents of `main_v252`. -/
def stage_attn_v252 (v245 : (⟨S300000x1, .f32⟩ : BufTy).Contents (Elt F)) : (⟨S300000x1, .f32⟩ : BufTy).Contents (Elt F) :=
  (Host.exp : (⟨S300000x1, .f32⟩ : BufTy).Contents (Elt F) → (⟨S300000x1, .f32⟩ : BufTy).Contents (Elt F)) ((subf : (⟨S300000x1, .f32⟩ : BufTy).Contents (Elt F) → (⟨S300000x1, .f32⟩ : BufTy).Contents (Elt F) → (⟨S300000x1, .f32⟩ : BufTy).Contents (Elt F)) (v245) ((broadcastInDim S300000x1 ![0, 1] bcast_S1x1_S300000x1_0_1 : (⟨S1x1, .f32⟩ : BufTy).Contents (Elt F) → (⟨S300000x1, .f32⟩ : BufTy).Contents (Elt F)) ((broadcastInDim S1x1 ![1] bcast_S1_S1x1_1 : (⟨S1, .f32⟩ : BufTy).Contents (Elt F) → (⟨S1x1, .f32⟩ : BufTy).Contents (Elt F)) ((maximumf : (⟨S1, .f32⟩ : BufTy).Contents (Elt F) → (⟨S1, .f32⟩ : BufTy).Contents (Elt F) → (⟨S1, .f32⟩ : BufTy).Contents (Elt F)) ((broadcastInDim S1 ![] bcast_S_S1 : (⟨S_, .f32⟩ : BufTy).Contents (Elt F) → (⟨S1, .f32⟩ : BufTy).Contents (Elt F)) (constant S_ .f32 0xFF800000#32)) (((fun x v => Host.reduce FloatOps.maximumf x v reducesTo_S300000x1_S1_d0 h_S_) : (⟨S300000x1, .f32⟩ : BufTy).Contents (Elt F) → (⟨S_, .f32⟩ : BufTy).Contents (Elt F) → (⟨S1, .f32⟩ : BufTy).Contents (Elt F)) (v245) (constant S_ .f32 0xFF800000#32))))))

/-- The attention weights: the softmax of the logits over all cross edges (`main_v256`): the composed term of operations 341 … 354 it depends on, over `main_v245`. -/
def stage_attn (v245 : (⟨S300000x1, .f32⟩ : BufTy).Contents (Elt F)) : (⟨S300000x1, .f32⟩ : BufTy).Contents (Elt F) :=
  (Host.divf : (⟨S300000x1, .f32⟩ : BufTy).Contents (Elt F) → (⟨S300000x1, .f32⟩ : BufTy).Contents (Elt F) → (⟨S300000x1, .f32⟩ : BufTy).Contents (Elt F)) (stage_attn_v252 v245) ((broadcastInDim S300000x1 ![0, 1] bcast_S1x1_S300000x1_0_1 : (⟨S1x1, .f32⟩ : BufTy).Contents (Elt F) → (⟨S300000x1, .f32⟩ : BufTy).Contents (Elt F)) ((broadcastInDim S1x1 ![1] bcast_S1_S1x1_1 : (⟨S1, .f32⟩ : BufTy).Contents (Elt F) → (⟨S1x1, .f32⟩ : BufTy).Contents (Elt F)) (((fun x v => Host.reduceAdd x v reducesTo_S300000x1_S1_d0 h_S_) : (⟨S300000x1, .f32⟩ : BufTy).Contents (Elt F) → (⟨S_, .f32⟩ : BufTy).Contents (Elt F) → (⟨S1, .f32⟩ : BufTy).Contents (Elt F)) (stage_attn_v252 v245) (constant S_ .f32 0x00000000#32))))

set_option maxRecDepth 8192 in
set_option maxHeartbeats 4000000 in
theorem stage_attn_eq_raw (V : Valuation τ sig (Elt F)) :
    after ops V (Proc.devRef .tc main_v256) = stage_attn (after ops V (Proc.devRef .tc main_v245)) := by
  rw [after_ops, tail_ch23 V main_v256 (by decide),
    tail_ch21 V main_v245 (by decide)]
  unfold val_ch23 val_ch22
  generalize val_ch21 V = W
  simp only [ch22, ch23]
  after_results_simp
  rfl

/-- The weighted program features summed into the voxel ends (`main_v266`): the composed term of operations 355 … 367 it depends on, over `main_v228`, `main_v256`, `main_arg9`. -/
def stage_attended (v228 : (⟨S300000x128, .f32⟩ : BufTy).Contents (Elt F)) (v256 : (⟨S300000x1, .f32⟩ : BufTy).Contents (Elt F)) (a9 : (⟨S300000, .i32⟩ : BufTy).Contents (Elt F)) : (⟨S100000x128, .f32⟩ : BufTy).Contents (Elt F) :=
  ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) (a9) ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) (a9) ((broadcastInDim S300000 ![] bcast_S_S300000 : (⟨S_, .i32⟩ : BufTy).Contents (Elt F) → (⟨S300000, .i32⟩ : BufTy).Contents (Elt F)) (constantI S_ 32 100000#32))) (a9))) ((mulf : (⟨S300000x128, .f32⟩ : BufTy).Contents (Elt F) → (⟨S300000x128, .f32⟩ : BufTy).Contents (Elt F) → (⟨S300000x128, .f32⟩ : BufTy).Contents (Elt F)) ((broadcastInDim S300000x128 ![0, 1] bcast_S300000x1_S300000x128_0_1 : (⟨S300000x1, .f32⟩ : BufTy).Contents (Elt F) → (⟨S300000x128, .f32⟩ : BufTy).Contents (Elt F)) (v256)) (v228))

set_option maxRecDepth 8192 in
set_option maxHeartbeats 4000000 in
theorem stage_attended_eq_raw (V : Valuation τ sig (Elt F)) :
    after ops V (Proc.devRef .tc main_v266) = stage_attended (after ops V (Proc.devRef .tc main_v228)) (after ops V (Proc.devRef .tc main_v256)) (after ops V (Proc.devRef .tc main_arg9)) := by
  rw [after_ops, tail_ch24 V main_v266 (by decide),
    tail_ch23 V main_v228 (by decide),
    tail_ch23 V main_v256 (by decide),
    tail_ch23 V main_arg9 (by decide)]
  unfold val_ch24
  generalize val_ch23 V = W
  simp only [ch24]
  after_results_simp
  rfl

/-- V plus the attended features (`main_v267`): the composed term of operations 368 … 368 it depends on, over `main_v221`, `main_v266`. -/
def stage_v1 (v221 : (⟨S100000x128, .f32⟩ : BufTy).Contents (Elt F)) (v266 : (⟨S100000x128, .f32⟩ : BufTy).Contents (Elt F)) : (⟨S100000x128, .f32⟩ : BufTy).Contents (Elt F) :=
  (addf : (⟨S100000x128, .f32⟩ : BufTy).Contents (Elt F) → (⟨S100000x128, .f32⟩ : BufTy).Contents (Elt F) → (⟨S100000x128, .f32⟩ : BufTy).Contents (Elt F)) (v221) (v266)

set_option maxRecDepth 8192 in
set_option maxHeartbeats 4000000 in
theorem stage_v1_eq_raw (V : Valuation τ sig (Elt F)) :
    after ops V (Proc.devRef .tc main_v267) = stage_v1 (after ops V (Proc.devRef .tc main_v221)) (after ops V (Proc.devRef .tc main_v266)) := by
  rw [after_ops, tail_ch25 V main_v267 (by decide),
    tail_ch24 V main_v221 (by decide),
    tail_ch24 V main_v266 (by decide)]
  unfold val_ch25
  generalize val_ch24 V = W
  simp only [ch25]
  after_results_simp
  rfl

/-! ## The same with the arguments read at the launch contents (no operation writes an argument) -/

theorem stage_v0_eq (V : Valuation τ sig (Elt F)) :
    after ops V (Proc.devRef .tc main_v221) = stage_v0 (V (Proc.devRef .tc main_arg3)) (V (Proc.devRef .tc main_arg4)) (V (Proc.devRef .tc main_arg16)) (V (Proc.devRef .tc main_arg17)) := by
  rw [stage_v0_eq_raw V, arg_kept3 V, arg_kept4 V, arg_kept16 V, arg_kept17 V]

theorem stage_pf_eq (V : Valuation τ sig (Elt F)) :
    after ops V (Proc.devRef .tc main_v228) = stage_pf (after ops V (Proc.devRef .tc main_v215)) (V (Proc.devRef .tc main_arg8)) := by
  rw [stage_pf_eq_raw V, arg_kept8 V]

theorem stage_logits_eq (V : Valuation τ sig (Elt F)) :
    after ops V (Proc.devRef .tc main_v245) = stage_logits (after ops V (Proc.devRef .tc main_v221)) (after ops V (Proc.devRef .tc main_v228)) (V (Proc.devRef .tc main_arg9)) (V (Proc.devRef .tc main_arg22)) (V (Proc.devRef .tc main_arg23)) (V (Proc.devRef .tc main_arg24)) (V (Proc.devRef .tc main_arg25)) := by
  rw [stage_logits_eq_raw V, arg_kept9 V, arg_kept22 V, arg_kept23 V, arg_kept24 V, arg_kept25 V]

theorem stage_attn_eq (V : Valuation τ sig (Elt F)) :
    after ops V (Proc.devRef .tc main_v256) = stage_attn (after ops V (Proc.devRef .tc main_v245)) := by
  rw [stage_attn_eq_raw V]

theorem stage_attended_eq (V : Valuation τ sig (Elt F)) :
    after ops V (Proc.devRef .tc main_v266) = stage_attended (after ops V (Proc.devRef .tc main_v228)) (after ops V (Proc.devRef .tc main_v256)) (V (Proc.devRef .tc main_arg9)) := by
  rw [stage_attended_eq_raw V, arg_kept9 V]

theorem stage_v1_eq (V : Valuation τ sig (Elt F)) :
    after ops V (Proc.devRef .tc main_v267) = stage_v1 (after ops V (Proc.devRef .tc main_v221)) (after ops V (Proc.devRef .tc main_v266)) := by
  rw [stage_v1_eq_raw V]

end Cert.ReferenceIdeal.RefRun

end
-- ==== Proof.Ref.StageE.lean ====
/- The reference's value at its cut points (pos, vs, vd, vm, vaggr, vout): each as a named pure function of the earlier cut points and the
   arguments it reads, and that the run's final contents at the cut point's buffer are that function of the final contents at those. -/
import proofs.«173394_j29068338659455_2_alg».proof.Proof.Ref.StageBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The voxel positions: the first three feature columns (`main_v268`): the composed term of operations 369 … 369 it depends on, over `main_arg3`. -/
def stage_pos (a3 : (⟨S100000x16, .f32⟩ : BufTy).Contents (Elt F)) : (⟨S100000x3, .f32⟩ : BufTy).Contents (Elt F) :=
  ((extractStridedSlice S100000x3 ![0, 0] · slices_S100000x16_S100000x3_0_0) : (⟨S100000x16, .f32⟩ : BufTy).Contents (Elt F) → (⟨S100000x3, .f32⟩ : BufTy).Contents (Elt F)) (a3)

set_option maxRecDepth 8192 in
set_option maxHeartbeats 4000000 in
theorem stage_pos_eq_raw (V : Valuation τ sig (Elt F)) :
    after ops V (Proc.devRef .tc main_v268) = stage_pos (after ops V (Proc.devRef .tc main_arg3)) := by
  rw [after_ops, tail_ch26 V main_v268 (by decide),
    tail_ch25 V main_arg3 (by decide)]
  unfold val_ch26
  generalize val_ch25 V = W
  simp only [ch26]
  after_results_simp
  rfl

/-- Row 0 of the voxel edge index (`main_v270`): the composed term of operations 370 … 371 it depends on, over `main_arg7`. -/
def stage_vs (a7 : (⟨S2x600000, .i32⟩ : BufTy).Contents (Elt F)) : (⟨S600000, .i32⟩ : BufTy).Contents (Elt F) :=
  shapeCast S600000 (((extractStridedSlice S1x600000 ![0, 0] · slices_S2x600000_S1x600000_0_0) : (⟨S2x600000, .i32⟩ : BufTy).Contents (Elt F) → (⟨S1x600000, .i32⟩ : BufTy).Contents (Elt F)) (a7)) shapeCasts_S1x600000_S600000

set_option maxRecDepth 8192 in
set_option maxHeartbeats 4000000 in
theorem stage_vs_eq_raw (V : Valuation τ sig (Elt F)) :
    after ops V (Proc.devRef .tc main_v270) = stage_vs (after ops V (Proc.devRef .tc main_arg7)) := by
  rw [after_ops, tail_ch26 V main_v270 (by decide),
    tail_ch25 V main_arg7 (by decide)]
  unfold val_ch26
  generalize val_ch25 V = W
  simp only [ch26]
  after_results_simp
  rfl

/-- Row 1 of the voxel edge index (`main_v272`): the composed term of operations 372 … 373 it depends on, over `main_arg7`. -/
def stage_vd (a7 : (⟨S2x600000, .i32⟩ : BufTy).Contents (Elt F)) : (⟨S600000, .i32⟩ : BufTy).Contents (Elt F) :=
  shapeCast S600000 (((extractStridedSlice S1x600000 ![1, 0] · slices_S2x600000_S1x600000_1_0) : (⟨S2x600000, .i32⟩ : BufTy).Contents (Elt F) → (⟨S1x600000, .i32⟩ : BufTy).Contents (Elt F)) (a7)) shapeCasts_S1x600000_S600000

set_option maxRecDepth 8192 in
set_option maxHeartbeats 4000000 in
theorem stage_vd_eq_raw (V : Valuation τ sig (Elt F)) :
    after ops V (Proc.devRef .tc main_v272) = stage_vd (after ops V (Proc.devRef .tc main_arg7)) := by
  rw [after_ops, tail_ch26 V main_v272 (by decide),
    tail_ch25 V main_arg7 (by decide)]
  unfold val_ch26
  generalize val_ch25 V = W
  simp only [ch26]
  after_results_simp
  rfl

/-- The voxel leaky message (`main_v307`): the composed term of operations 374 … 422 it depends on, over `main_v267`, `main_v268`, `main_v270`, `main_v272`, `main_arg18`, `main_arg19`. -/
def stage_vm (v267 : (⟨S100000x128, .f32⟩ : BufTy).Contents (Elt F)) (v268 : (⟨S100000x3, .f32⟩ : BufTy).Contents (Elt F)) (v270 : (⟨S600000, .i32⟩ : BufTy).Contents (Elt F)) (v272 : (⟨S600000, .i32⟩ : BufTy).Contents (Elt F)) (a18 : (⟨S259x128, .f32⟩ : BufTy).Contents (Elt F)) (a19 : (⟨S128, .f32⟩ : BufTy).Contents (Elt F)) : (⟨S600000x128, .f32⟩ : BufTy).Contents (Elt F) :=
  leaky_S600000x128 ((addf : (⟨S600000x128, .f32⟩ : BufTy).Contents (Elt F) → (⟨S600000x128, .f32⟩ : BufTy).Contents (Elt F) → (⟨S600000x128, .f32⟩ : BufTy).Contents (Elt F)) (((fun l r => Host.dotGeneral dot_S600000x259_S259x128_S600000x128_1_0_0_1_n_n none l r) : (⟨S600000x259, .f32⟩ : BufTy).Contents (Elt F) → (⟨S259x128, .f32⟩ : BufTy).Contents (Elt F) → (⟨S600000x128, .f32⟩ : BufTy).Contents (Elt F)) (concatenate S600000x259 1 [⟨S600000x128, (((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) (v267) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (v272) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (v272) ((broadcastInDim S600000 ![] bcast_S_S600000 : (⟨S_, .i32⟩ : BufTy).Contents (Elt F) → (⟨S600000, .i32⟩ : BufTy).Contents (Elt F)) (constantI S_ 32 100000#32))) (v272))))⟩, ⟨S600000x128, (((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) (v267) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (v270) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (v270) ((broadcastInDim S600000 ![] bcast_S_S600000 : (⟨S_, .i32⟩ : BufTy).Contents (Elt F) → (⟨S600000, .i32⟩ : BufTy).Contents (Elt F)) (constantI S_ 32 100000#32))) (v270))))⟩, ⟨S600000x3, ((subf : (⟨S600000x3, .f32⟩ : BufTy).Contents (Elt F) → (⟨S600000x3, .f32⟩ : BufTy).Contents (Elt F) → (⟨S600000x3, .f32⟩ : BufTy).Contents (Elt F)) (((fun x i => Host.gather gather_S100000x3_S600000x1_S600000x3_1_0_n_n_0_1_13 x i) : (⟨S100000x3, .f32⟩ : BufTy).Contents (Elt F) → (⟨S600000x1, .i32⟩ : BufTy).Contents (Elt F) → (⟨S600000x3, .f32⟩ : BufTy).Contents (Elt F)) (v268) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (v272) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (v272) ((broadcastInDim S600000 ![] bcast_S_S600000 : (⟨S_, .i32⟩ : BufTy).Contents (Elt F) → (⟨S600000, .i32⟩ : BufTy).Contents (Elt F)) (constantI S_ 32 100000#32))) (v272)))) (((fun x i => Host.gather gather_S100000x3_S600000x1_S600000x3_1_0_n_n_0_1_13 x i) : (⟨S100000x3, .f32⟩ : BufTy).Contents (Elt F) → (⟨S600000x1, .i32⟩ : BufTy).Contents (Elt F) → (⟨S600000x3, .f32⟩ : BufTy).Contents (Elt F)) (v268) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (v270) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (v270) ((broadcastInDim S600000 ![] bcast_S_S600000 : (⟨S_, .i32⟩ : BufTy).Contents (Elt F) → (⟨S600000, .i32⟩ : BufTy).Contents (Elt F)) (constantI S_ 32 100000#32))) (v270)))))⟩] concatenates_S600000x128_S600000x128_S600000x3_S600000x259_d1) (a18)) ((broadcastInDim S600000x128 ![0, 1] bcast_S1x128_S600000x128_0_1 : (⟨S1x128, .f32⟩ : BufTy).Contents (Elt F) → (⟨S600000x128, .f32⟩ : BufTy).Contents (Elt F)) ((broadcastInDim S1x128 ![1] bcast_S128_S1x128_1 : (⟨S128, .f32⟩ : BufTy).Contents (Elt F) → (⟨S1x128, .f32⟩ : BufTy).Contents (Elt F)) (a19))))

set_option maxRecDepth 8192 in
set_option maxHeartbeats 4000000 in
theorem stage_vm_eq_raw (V : Valuation τ sig (Elt F)) :
    after ops V (Proc.devRef .tc main_v307) = stage_vm (after ops V (Proc.devRef .tc main_v267)) (after ops V (Proc.devRef .tc main_v268)) (after ops V (Proc.devRef .tc main_v270)) (after ops V (Proc.devRef .tc main_v272)) (after ops V (Proc.devRef .tc main_arg18)) (after ops V (Proc.devRef .tc main_arg19)) := by
  rw [after_ops, tail_ch28 V main_v307 (by decide),
    tail_ch26 V main_v267 (by decide),
    tail_ch26 V main_v268 (by decide),
    tail_ch26 V main_v270 (by decide),
    tail_ch26 V main_v272 (by decide),
    tail_ch26 V main_arg18 (by decide),
    tail_ch26 V main_arg19 (by decide)]
  unfold val_ch28 val_ch27
  generalize val_ch26 V = W
  simp only [ch27, ch28]
  after_results_simp
  try dsimp only [Matrix.cons_val]
  try after_results_simp
  rfl

/-- The mean of the voxel messages by destination (`main_v319`): the composed term of operations 423 … 438 it depends on, over `main_v272`, `main_v307`. -/
def stage_vaggr (v272 : (⟨S600000, .i32⟩ : BufTy).Contents (Elt F)) (v307 : (⟨S600000x128, .f32⟩ : BufTy).Contents (Elt F)) : (⟨S100000x128, .f32⟩ : BufTy).Contents (Elt F) :=
  (Host.divf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (v272)) (v307)) ((broadcastInDim S100000x128 ![0, 1] bcast_S100000x1_S100000x128_0_1 : (⟨S100000x1, .f32⟩ : BufTy).Contents (Elt F) → (⟨S100000x128, .f32⟩ : BufTy).Contents (Elt F)) ((maximumf : (⟨S100000x1, .f32⟩ : BufTy).Contents (Elt F) → (⟨S100000x1, .f32⟩ : BufTy).Contents (Elt F) → (⟨S100000x1, .f32⟩ : BufTy).Contents (Elt F)) (((fun x i u => Host.scatterAdd scatter_S100000x1_S600000x1_S600000x1_1_0_0_1 x i u) : (⟨S100000x1, .f32⟩ : BufTy).Contents (Elt F) → (⟨S600000x1, .i32⟩ : BufTy).Contents (Elt F) → (⟨S600000x1, .f32⟩ : BufTy).Contents (Elt F) → (⟨S100000x1, .f32⟩ : BufTy).Contents (Elt F)) ((broadcastInDim S100000x1 ![] bcast_S_S100000x1 : (⟨S_, .f32⟩ : BufTy).Contents (Elt F) → (⟨S100000x1, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (v272)) ((broadcastInDim S600000x1 ![] bcast_S_S600000x1 : (⟨S_, .f32⟩ : BufTy).Contents (Elt F) → (⟨S600000x1, .f32⟩ : BufTy).Contents (Elt F)) (constant S_ .f32 0x3F800000#32))) ((broadcastInDim S100000x1 ![] bcast_S_S100000x1 : (⟨S_, .f32⟩ : BufTy).Contents (Elt F) → (⟨S100000x1, .f32⟩ : BufTy).Contents (Elt F)) (constant S_ .f32 0x3F800000#32))))

set_option maxRecDepth 8192 in
set_option maxHeartbeats 4000000 in
theorem stage_vaggr_eq_raw (V : Valuation τ sig (Elt F)) :
    after ops V (Proc.devRef .tc main_v319) = stage_vaggr (after ops V (Proc.devRef .tc main_v272)) (after ops V (Proc.devRef .tc main_v307)) := by
  rw [after_ops, tail_ch29 V main_v319 (by decide),
    tail_ch28 V main_v272 (by decide),
    tail_ch28 V main_v307 (by decide)]
  unfold val_ch29
  generalize val_ch28 V = W
  simp only [ch29]
  after_results_simp
  rfl

/-- The final v (`main_v326`): the composed term of operations 439 … 451 it depends on, over `main_v267`, `main_v319`, `main_arg20`, `main_arg21`. -/
def stage_vout (v267 : (⟨S100000x128, .f32⟩ : BufTy).Contents (Elt F)) (v319 : (⟨S100000x128, .f32⟩ : BufTy).Contents (Elt F)) (a20 : (⟨S256x128, .f32⟩ : BufTy).Contents (Elt F)) (a21 : (⟨S128, .f32⟩ : BufTy).Contents (Elt F)) : (⟨S100000x128, .f32⟩ : BufTy).Contents (Elt F) :=
  (addf : (⟨S100000x128, .f32⟩ : BufTy).Contents (Elt F) → (⟨S100000x128, .f32⟩ : BufTy).Contents (Elt F) → (⟨S100000x128, .f32⟩ : BufTy).Contents (Elt F)) (v267) (leaky_S100000x128 ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) (((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) (v267) (v319)) (a20)) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (a21)))))

set_option maxRecDepth 8192 in
set_option maxHeartbeats 4000000 in
theorem stage_vout_eq_raw (V : Valuation τ sig (Elt F)) :
    after ops V (Proc.devRef .tc main_v326) = stage_vout (after ops V (Proc.devRef .tc main_v267)) (after ops V (Proc.devRef .tc main_v319)) (after ops V (Proc.devRef .tc main_arg20)) (after ops V (Proc.devRef .tc main_arg21)) := by
  rw [after_ops, tail_ch30 V main_v326 (by decide),
    tail_ch29 V main_v267 (by decide),
    tail_ch29 V main_v319 (by decide),
    tail_ch29 V main_arg20 (by decide),
    tail_ch29 V main_arg21 (by decide)]
  unfold val_ch30
  generalize val_ch29 V = W
  simp only [ch30]
  after_results_simp
  rfl

/-! ## The same with the arguments read at the launch contents (no operation writes an argument) -/

theorem stage_pos_eq (V : Valuation τ sig (Elt F)) :
    after ops V (Proc.devRef .tc main_v268) = stage_pos (V (Proc.devRef .tc main_arg3)) := by
  rw [stage_pos_eq_raw V, arg_kept3 V]

theorem stage_vs_eq (V : Valuation τ sig (Elt F)) :
    after ops V (Proc.devRef .tc main_v270) = stage_vs (V (Proc.devRef .tc main_arg7)) := by
  rw [stage_vs_eq_raw V, arg_kept7 V]

theorem stage_vd_eq (V : Valuation τ sig (Elt F)) :
    after ops V (Proc.devRef .tc main_v272) = stage_vd (V (Proc.devRef .tc main_arg7)) := by
  rw [stage_vd_eq_raw V, arg_kept7 V]

theorem stage_vm_eq (V : Valuation τ sig (Elt F)) :
    after ops V (Proc.devRef .tc main_v307) = stage_vm (after ops V (Proc.devRef .tc main_v267)) (after ops V (Proc.devRef .tc main_v268)) (after ops V (Proc.devRef .tc main_v270)) (after ops V (Proc.devRef .tc main_v272)) (V (Proc.devRef .tc main_arg18)) (V (Proc.devRef .tc main_arg19)) := by
  rw [stage_vm_eq_raw V, arg_kept18 V, arg_kept19 V]

theorem stage_vaggr_eq (V : Valuation τ sig (Elt F)) :
    after ops V (Proc.devRef .tc main_v319) = stage_vaggr (after ops V (Proc.devRef .tc main_v272)) (after ops V (Proc.devRef .tc main_v307)) := by
  rw [stage_vaggr_eq_raw V]

theorem stage_vout_eq (V : Valuation τ sig (Elt F)) :
    after ops V (Proc.devRef .tc main_v326) = stage_vout (after ops V (Proc.devRef .tc main_v267)) (after ops V (Proc.devRef .tc main_v319)) (V (Proc.devRef .tc main_arg20)) (V (Proc.devRef .tc main_arg21)) := by
  rw [stage_vout_eq_raw V, arg_kept20 V, arg_kept21 V]

end Cert.ReferenceIdeal.RefRun

end
-- ==== Proof.Ref.Stages.lean ====
/- The reference side, assembled: its run, its frame, and its value at every cut point. -/
import proofs.«173394_j29068338659455_2_alg».proof.Proof.Ref.StageA
import proofs.«173394_j29068338659455_2_alg».proof.Proof.Ref.StageB
import proofs.«173394_j29068338659455_2_alg».proof.Proof.Ref.StageC
import proofs.«173394_j29068338659455_2_alg».proof.Proof.Ref.StageD
import proofs.«173394_j29068338659455_2_alg».proof.Proof.Ref.StageE
import proofs.«173394_j29068338659455_2_alg».proof.Proof.Ref.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

end Cert.ReferenceIdeal.RefRun

end
-- ==== Proof.Cuts.lean ====
/- Cut by cut: the block-wise program's composition over abstract arrays equals the array-wise program's stage function
   of the same arrays. Where the two apply the same operations the two definitions unfold to the same term; where they
   differ (a dense layer by blocks against the general dot product, the node-level projection gathered against the gathered
   rows projected) the equality is the bridge lemma at that layer's extents. -/
import proofs.«173394_j29068338659455_2_alg».proof.Proof.KI.G
import proofs.«173394_j29068338659455_2_alg».proof.Proof.KI.HostDefs
import proofs.«173394_j29068338659455_2_alg».proof.Proof.BridgeEnc
import proofs.«173394_j29068338659455_2_alg».proof.Proof.BridgeInst
import proofs.«173394_j29068338659455_2_alg».proof.Proof.BridgeInst2
import proofs.«173394_j29068338659455_2_alg».proof.Proof.Ref.Stages

noncomputable section

namespace Cert.Final

open Idealize.ShloMosaic Idealize.ShloMosaic.StableHlo
open Cert.KernelIdeal.Host Cert.ReferenceIdeal.RefRun

/-! ## The node encoder, the edge rows, the ratio column -/

theorem cut_x0 (a0 a1 : FVec Ideal Cert.KernelIdeal.S5000x32 .f32) (a10 : FVec Ideal Cert.KernelIdeal.S64x128 .f32) (a11 : FVec Ideal Cert.KernelIdeal.S128 .f32) :
    Cert.KernelIdeal.Arr.G0 (encIn a0 a1) (truncf (F := Ideal) .bf16 a10 Cert.KernelIdeal.Facts₀.bitsLt_bf16_f32) (shapeCast Cert.KernelIdeal.S1x128 a11 Cert.KernelIdeal.Facts₀.shapeCasts_S128_S1x128)
      = stage_x0 (F := Ideal) a0 a1 a10 a11 := by
  unfold encIn stage_x0 leaky_S5000x128
  exact Cert.Bridge.enc_eq _ a10 a11

theorem cut_src (a5 : IVec Cert.KernelIdeal.S2x80000 32) :
    progEdgeRow ![0, 0] Cert.KernelIdeal.Facts₀.slices_S2x80000_S1x80000_0_0 a5 = stage_src (F := Ideal) a5 := rfl

theorem cut_dst (a5 : IVec Cert.KernelIdeal.S2x80000 32) :
    progEdgeRow ![1, 0] Cert.KernelIdeal.Facts₀.slices_S2x80000_S1x80000_1_0 a5 = stage_dst (F := Ideal) a5 := rfl

theorem cut_ratio (a2 : FVec Ideal Cert.KernelIdeal.S5000x1 .f32) : ratioCol a2 = stage_ratio (F := Ideal) a2 := rfl

/-! ## Program-graph step 0 -/

theorem cut_m0 (x : FVec Ideal Cert.KernelIdeal.S5000x128 .f32) (src dst : IVec Cert.KernelIdeal.S80000 32) (a12 : FVec Ideal Cert.KernelIdeal.S3x256x128 .f32) (a13 : FVec Ideal Cert.KernelIdeal.S3x128 .f32) :
    Cert.KernelIdeal.Arr.G2
        (gatherEdge (nodeHalf0 (Cert.KernelIdeal.Arr.G1 (truncf (F := Ideal) .bf16 x Cert.KernelIdeal.Facts₀.bitsLt_bf16_f32) (msgWeightPair (msgWeight ![0, 0, 0] Cert.KernelIdeal.Facts₀.slices_S3x256x128_S1x256x128_0_0_0 a12)) zeroRow256)) dst)
        (gatherEdge (nodeHalf1 (Cert.KernelIdeal.Arr.G1 (truncf (F := Ideal) .bf16 x Cert.KernelIdeal.Facts₀.bitsLt_bf16_f32) (msgWeightPair (msgWeight ![0, 0, 0] Cert.KernelIdeal.Facts₀.slices_S3x256x128_S1x256x128_0_0_0 a12)) zeroRow256)) src)
        (biasRow ![0, 0] Cert.KernelIdeal.Facts₀.slices_S3x128_S1x128_0_0 a13)
      = stage_m0 (F := Ideal) x src dst a12 a13 := by
  unfold gatherEdge biasRow stage_m0 leaky_S80000x128
  exact Cert.Bridge.msg2_eq x _ _ _ _

theorem cut_aggr0 (dst : IVec Cert.KernelIdeal.S80000 32) (m : FVec Ideal Cert.KernelIdeal.S80000x128 .f32) :
    segMeanEdge dst m = stage_aggr0 (F := Ideal) dst m := rfl

theorem cut_c0 (x : FVec Ideal Cert.KernelIdeal.S5000x128 .f32) (ratio : FVec Ideal Cert.KernelIdeal.S5000x1 .f32) (a6 : IVec Cert.KernelIdeal.S5000 32) :
    clusterCtx a6 x ratio = stage_c0 (F := Ideal) x ratio a6 := rfl

theorem cut_x1 (x aggr ctx : FVec Ideal Cert.KernelIdeal.S5000x128 .f32) (a14 : FVec Ideal Cert.KernelIdeal.S3x384x128 .f32) (a15 : FVec Ideal Cert.KernelIdeal.S3x128 .f32) :
    Cert.KernelIdeal.Arr.G3 (updIn x aggr ctx) (truncf (F := Ideal) .bf16 (updWeight ![0, 0, 0] Cert.KernelIdeal.Facts₀.slices_S3x384x128_S1x384x128_0_0_0 a14) Cert.KernelIdeal.Facts₀.bitsLt_bf16_f32)
        (biasRow ![0, 0] Cert.KernelIdeal.Facts₀.slices_S3x128_S1x128_0_0 a15) x
      = stage_x1 (F := Ideal) x aggr ctx a14 a15 := by
  unfold updIn biasRow stage_x1 leaky_S5000x128
  exact Cert.Bridge.upd3_eq _ _ _ x

/-! ## Program-graph step 1 -/

theorem cut_m1 (x : FVec Ideal Cert.KernelIdeal.S5000x128 .f32) (src dst : IVec Cert.KernelIdeal.S80000 32) (a12 : FVec Ideal Cert.KernelIdeal.S3x256x128 .f32) (a13 : FVec Ideal Cert.KernelIdeal.S3x128 .f32) :
    Cert.KernelIdeal.Arr.G5
        (gatherEdge (nodeHalf0 (Cert.KernelIdeal.Arr.G4 (truncf (F := Ideal) .bf16 x Cert.KernelIdeal.Facts₀.bitsLt_bf16_f32) (msgWeightPair (msgWeight ![1, 0, 0] Cert.KernelIdeal.Facts₀.slices_S3x256x128_S1x256x128_1_0_0 a12)) zeroRow256)) dst)
        (gatherEdge (nodeHalf1 (Cert.KernelIdeal.Arr.G4 (truncf (F := Ideal) .bf16 x Cert.KernelIdeal.Facts₀.bitsLt_bf16_f32) (msgWeightPair (msgWeight ![1, 0, 0] Cert.KernelIdeal.Facts₀.slices_S3x256x128_S1x256x128_1_0_0 a12)) zeroRow256)) src)
        (biasRow ![1, 0] Cert.KernelIdeal.Facts₀.slices_S3x128_S1x128_1_0 a13)
      = stage_m1 (F := Ideal) src dst x a12 a13 := by
  unfold gatherEdge biasRow stage_m1 leaky_S80000x128
  exact Cert.Bridge.msg5_eq x _ _ _ _

theorem cut_aggr1 (dst : IVec Cert.KernelIdeal.S80000 32) (m : FVec Ideal Cert.KernelIdeal.S80000x128 .f32) :
    segMeanEdge dst m = stage_aggr1 (F := Ideal) dst m := rfl

theorem cut_c1 (x : FVec Ideal Cert.KernelIdeal.S5000x128 .f32) (ratio : FVec Ideal Cert.KernelIdeal.S5000x1 .f32) (a6 : IVec Cert.KernelIdeal.S5000 32) :
    clusterCtx a6 x ratio = stage_c1 (F := Ideal) ratio x a6 := rfl

theorem cut_x2 (x aggr ctx : FVec Ideal Cert.KernelIdeal.S5000x128 .f32) (a14 : FVec Ideal Cert.KernelIdeal.S3x384x128 .f32) (a15 : FVec Ideal Cert.KernelIdeal.S3x128 .f32) :
    Cert.KernelIdeal.Arr.G6 (updIn x aggr ctx) (truncf (F := Ideal) .bf16 (updWeight ![1, 0, 0] Cert.KernelIdeal.Facts₀.slices_S3x384x128_S1x384x128_1_0_0 a14) Cert.KernelIdeal.Facts₀.bitsLt_bf16_f32)
        (biasRow ![1, 0] Cert.KernelIdeal.Facts₀.slices_S3x128_S1x128_1_0 a15) x
      = stage_x2 (F := Ideal) x aggr ctx a14 a15 := by
  unfold updIn biasRow stage_x2 leaky_S5000x128
  exact Cert.Bridge.upd6_eq _ _ _ x

/-! ## Program-graph step 2 -/

theorem cut_m2 (x : FVec Ideal Cert.KernelIdeal.S5000x128 .f32) (src dst : IVec Cert.KernelIdeal.S80000 32) (a12 : FVec Ideal Cert.KernelIdeal.S3x256x128 .f32) (a13 : FVec Ideal Cert.KernelIdeal.S3x128 .f32) :
    Cert.KernelIdeal.Arr.G8
        (gatherEdge (nodeHalf0 (Cert.KernelIdeal.Arr.G7 (truncf (F := Ideal) .bf16 x Cert.KernelIdeal.Facts₀.bitsLt_bf16_f32) (msgWeightPair (msgWeight ![2, 0, 0] Cert.KernelIdeal.Facts₀.slices_S3x256x128_S1x256x128_2_0_0 a12)) zeroRow256)) dst)
        (gatherEdge (nodeHalf1 (Cert.KernelIdeal.Arr.G7 (truncf (F := Ideal) .bf16 x Cert.KernelIdeal.Facts₀.bitsLt_bf16_f32) (msgWeightPair (msgWeight ![2, 0, 0] Cert.KernelIdeal.Facts₀.slices_S3x256x128_S1x256x128_2_0_0 a12)) zeroRow256)) src)
        (biasRow ![2, 0] Cert.KernelIdeal.Facts₀.slices_S3x128_S1x128_2_0 a13)
      = stage_m2 (F := Ideal) src dst x a12 a13 := by
  unfold gatherEdge biasRow stage_m2 leaky_S80000x128
  exact Cert.Bridge.msg8_eq x _ _ _ _

theorem cut_aggr2 (dst : IVec Cert.KernelIdeal.S80000 32) (m : FVec Ideal Cert.KernelIdeal.S80000x128 .f32) :
    segMeanEdge dst m = stage_aggr2 (F := Ideal) dst m := rfl

theorem cut_c2 (x : FVec Ideal Cert.KernelIdeal.S5000x128 .f32) (ratio : FVec Ideal Cert.KernelIdeal.S5000x1 .f32) (a6 : IVec Cert.KernelIdeal.S5000 32) :
    clusterCtx a6 x ratio = stage_c2 (F := Ideal) ratio x a6 := rfl

theorem cut_x3 (x aggr ctx : FVec Ideal Cert.KernelIdeal.S5000x128 .f32) (a14 : FVec Ideal Cert.KernelIdeal.S3x384x128 .f32) (a15 : FVec Ideal Cert.KernelIdeal.S3x128 .f32) :
    Cert.KernelIdeal.Arr.G9 (updIn x aggr ctx) (truncf (F := Ideal) .bf16 (updWeight ![2, 0, 0] Cert.KernelIdeal.Facts₀.slices_S3x384x128_S1x384x128_2_0_0 a14) Cert.KernelIdeal.Facts₀.bitsLt_bf16_f32)
        (biasRow ![2, 0] Cert.KernelIdeal.Facts₀.slices_S3x128_S1x128_2_0 a15) x
      = stage_x3 (F := Ideal) x aggr ctx a14 a15 := by
  unfold updIn biasRow stage_x3 leaky_S5000x128
  exact Cert.Bridge.upd9_eq _ _ _ x
/-! ## The voxel encoder, the softmax, the voxel edge rows, the voxel mean, the voxel update -/

theorem cut_v0 (a3 : FVec Ideal Cert.KernelIdeal.S100000x16 .f32) (a4 : FVec Ideal Cert.KernelIdeal.S100000x32 .f32) (a16 : FVec Ideal Cert.KernelIdeal.S48x128 .f32) (a17 : FVec Ideal Cert.KernelIdeal.S128 .f32) :
    Cert.KernelIdeal.Arr.G10 (vencIn a3 a4) (truncf (F := Ideal) .bf16 a16 Cert.KernelIdeal.Facts₀.bitsLt_bf16_f32) (shapeCast Cert.KernelIdeal.S1x128 a17 Cert.KernelIdeal.Facts₀.shapeCasts_S128_S1x128)
      = stage_v0 (F := Ideal) a3 a4 a16 a17 := by
  unfold vencIn stage_v0 leaky_S100000x128
  exact Cert.Bridge.venc_eq _ a16 a17

theorem cut_attn (l : FVec Ideal Cert.KernelIdeal.S300000x1 .f32) : softmaxCross l = stage_attn (F := Ideal) l := rfl

theorem cut_vs (a7 : IVec Cert.KernelIdeal.S2x600000 32) :
    voxEdgeRow ![0, 0] Cert.KernelIdeal.Facts₀.slices_S2x600000_S1x600000_0_0 a7 = stage_vs (F := Ideal) a7 := rfl

theorem cut_vd (a7 : IVec Cert.KernelIdeal.S2x600000 32) :
    voxEdgeRow ![1, 0] Cert.KernelIdeal.Facts₀.slices_S2x600000_S1x600000_1_0 a7 = stage_vd (F := Ideal) a7 := rfl

theorem cut_vaggr (vd : IVec Cert.KernelIdeal.S600000 32) (vm : FVec Ideal Cert.KernelIdeal.S600000x128 .f32) :
    segMeanVox vd vm = stage_vaggr (F := Ideal) vd vm := rfl

theorem cut_vout (v1 vaggr : FVec Ideal Cert.KernelIdeal.S100000x128 .f32) (a20 : FVec Ideal Cert.KernelIdeal.S256x128 .f32) (a21 : FVec Ideal Cert.KernelIdeal.S128 .f32) :
    Cert.KernelIdeal.Arr.G16 (voxUpdIn v1 vaggr) (truncf (F := Ideal) .bf16 a20 Cert.KernelIdeal.Facts₀.bitsLt_bf16_f32) (shapeCast Cert.KernelIdeal.S1x128 a21 Cert.KernelIdeal.Facts₀.shapeCasts_S128_S1x128) v1
      = stage_vout (F := Ideal) v1 vaggr a20 a21 := by
  unfold voxUpdIn stage_vout leaky_S100000x128
  exact Cert.Bridge.voxUpd_eq _ a20 a21 v1

/-! ## The attention logits and the pooling -/

theorem cut_logits (x : FVec Ideal Cert.KernelIdeal.S5000x128 .f32) (v : FVec Ideal Cert.KernelIdeal.S100000x128 .f32) (a8 a9 : IVec Cert.KernelIdeal.S300000 32)
    (a22 : FVec Ideal Cert.KernelIdeal.S256x128 .f32) (a23 : FVec Ideal Cert.KernelIdeal.S128 .f32) (a24 : FVec Ideal Cert.KernelIdeal.S128x1 .f32) (a25 : FVec Ideal Cert.KernelIdeal.S1 .f32) :
    Cert.KernelIdeal.Arr.G13
        (gatherCrossProg (Cert.KernelIdeal.Arr.G11 (truncf (F := Ideal) .bf16 x Cert.KernelIdeal.Facts₀.bitsLt_bf16_f32)
          (truncf (F := Ideal) .bf16 (extractStridedSlice Cert.KernelIdeal.S128x128 ![0, 0] a22 Cert.KernelIdeal.Facts₀.slices_S256x128_S128x128_0_0) Cert.KernelIdeal.Facts₀.bitsLt_bf16_f32) zeroRow128) a8)
        (gatherCrossVox (Cert.KernelIdeal.Arr.G12 (truncf (F := Ideal) .bf16 v Cert.KernelIdeal.Facts₀.bitsLt_bf16_f32)
          (truncf (F := Ideal) .bf16 (extractStridedSlice Cert.KernelIdeal.S128x128 ![128, 0] a22 Cert.KernelIdeal.Facts₀.slices_S256x128_S128x128_128_0) Cert.KernelIdeal.Facts₀.bitsLt_bf16_f32) zeroRow128) a9)
        (shapeCast Cert.KernelIdeal.S1x128 a23 Cert.KernelIdeal.Facts₀.shapeCasts_S128_S1x128) (shapeCast Cert.KernelIdeal.S1x128 a24 Cert.KernelIdeal.Facts₀.shapeCasts_S128x1_S1x128)
        (shapeCast Cert.KernelIdeal.S1x1 a25 Cert.KernelIdeal.Facts₀.shapeCasts_S1_S1x1)
      = stage_logits (F := Ideal) v (stage_pf (F := Ideal) x a8) a9 a22 a23 a24 a25 := by
  unfold gatherCrossProg gatherCrossVox stage_logits stage_pf
  exact Cert.Bridge.logits_eq x v a22 a23 a24 a25 _ _

theorem cut_v1 (attn : FVec Ideal Cert.KernelIdeal.S300000x1 .f32) (x : FVec Ideal Cert.KernelIdeal.S5000x128 .f32) (a8 a9 : IVec Cert.KernelIdeal.S300000 32)
    (v0 : FVec Ideal Cert.KernelIdeal.S100000x128 .f32) :
    attnPool attn x a8 a9 v0
      = stage_v1 (F := Ideal) v0 (stage_attended (F := Ideal) (stage_pf (F := Ideal) x a8) attn a9) := by
  unfold attnPool gatherCrossProg stage_v1 stage_attended stage_pf
  rw [Cert.Bridge.pool_eq]
  rfl

end Cert.Final

end
-- ==== Proof.BridgeInst3.lean ====
/-
  The voxel edge messages, block-wise against array-wise, at the two programs' extents and in their own names: the general
  statement at the layer's extents, with every side condition named.
-/
import proofs.«173394_j29068338659455_2_alg».proof.Proof.BridgeVox
import proofs.«173394_j29068338659455_2_alg».proof.Proof.BridgeAttn
import proofs.«173394_j29068338659455_2_alg».proof.Proof.KI.HostDefs
import proofs.«173394_j29068338659455_2_alg».proof.Proof.Gen.KernelIdeal
import proofs.«173394_j29068338659455_2_alg».proof.Proof.Gen.ReferenceIdeal

noncomputable section

namespace Cert.Bridge

open Idealize.ShloMosaic Idealize.ShloMosaic.ValueIdx
/-- The voxel edge messages: region 15's array on the gathered halves of region 14's node-level product is the leaky
    rectifier of the general dot product of the gathered voxel rows and position differences, side by side, with the
    whole message weight, plus the bias row. The voxel features and the weight are asked to be real numbers. -/
theorem voxMsg_eq (v : FVec Ideal Cert.KernelIdeal.S100000x128 .f32) (a3 : FVec Ideal Cert.KernelIdeal.S100000x16 .f32)
    (W : FVec Ideal Cert.KernelIdeal.S259x128 .f32) (b : FVec Ideal Cert.KernelIdeal.S128 .f32) (iD iS : IVec Cert.KernelIdeal.S600000x1 32)
    (hreal3 : ∀ i, ∃ r : ℝ, a3 i = r) (hrealW : ∀ i, ∃ r : ℝ, W i = r) :
    Cert.KernelIdeal.Arr.G15
        (Host.gather Cert.KernelIdeal.gather_S100000x128_S600000x1_S600000x128_1_0_n_n_0_1_1128
          (Cert.KernelIdeal.Host.voxHalf0 (Cert.KernelIdeal.Arr.G14 (Cert.KernelIdeal.Host.voxMsgIn v a3) (Cert.KernelIdeal.Host.voxMsgWeightPair W) Cert.KernelIdeal.Host.zeroRow256)) iD)
        (Host.gather Cert.KernelIdeal.gather_S100000x128_S600000x1_S600000x128_1_0_n_n_0_1_1128
          (Cert.KernelIdeal.Host.voxHalf1 (Cert.KernelIdeal.Arr.G14 (Cert.KernelIdeal.Host.voxMsgIn v a3) (Cert.KernelIdeal.Host.voxMsgWeightPair W) Cert.KernelIdeal.Host.zeroRow256)) iS)
        (shapeCast Cert.KernelIdeal.S1x128 b Cert.KernelIdeal.Facts₀.shapeCasts_S128_S1x128)
      = select
          (cmpf .oge
            (addf (Host.dotGeneral Cert.ReferenceIdeal.dot_S600000x259_S259x128_S600000x128_1_0_0_1_n_n none (concatenate Cert.ReferenceIdeal.S600000x259 1
                [⟨Cert.ReferenceIdeal.S600000x128, Host.gather Cert.ReferenceIdeal.gather_S100000x128_S600000x1_S600000x128_1_0_n_n_0_1_1128 v iD⟩,
                 ⟨Cert.ReferenceIdeal.S600000x128, Host.gather Cert.ReferenceIdeal.gather_S100000x128_S600000x1_S600000x128_1_0_n_n_0_1_1128 v iS⟩,
                 ⟨Cert.ReferenceIdeal.S600000x3, subf (F := Ideal)
                    (Host.gather Cert.ReferenceIdeal.gather_S100000x3_S600000x1_S600000x3_1_0_n_n_0_1_13 (extractStridedSlice Cert.ReferenceIdeal.S100000x3 ![0, 0] a3 Cert.ReferenceIdeal.Facts₀.slices_S100000x16_S100000x3_0_0) iD)
                    (Host.gather Cert.ReferenceIdeal.gather_S100000x3_S600000x1_S600000x3_1_0_n_n_0_1_13 (extractStridedSlice Cert.ReferenceIdeal.S100000x3 ![0, 0] a3 Cert.ReferenceIdeal.Facts₀.slices_S100000x16_S100000x3_0_0) iS)⟩]
                Cert.ReferenceIdeal.Facts₀.concatenates_S600000x128_S600000x128_S600000x3_S600000x259_d1) W)
              (broadcastInDim Cert.ReferenceIdeal.S600000x128 ![0, 1] Cert.ReferenceIdeal.Facts₀.bcast_S1x128_S600000x128_0_1
                (broadcastInDim Cert.ReferenceIdeal.S1x128 ![1] Cert.ReferenceIdeal.Facts₀.bcast_S128_S1x128_1 b)))
            (broadcastInDim Cert.ReferenceIdeal.S600000x128 ![] Cert.ReferenceIdeal.Facts₀.bcast_S_S600000x128 (constant (F := Ideal) Cert.ReferenceIdeal.S_ .f32 0x00000000#32)))
          (addf (Host.dotGeneral Cert.ReferenceIdeal.dot_S600000x259_S259x128_S600000x128_1_0_0_1_n_n none (concatenate Cert.ReferenceIdeal.S600000x259 1
                [⟨Cert.ReferenceIdeal.S600000x128, Host.gather Cert.ReferenceIdeal.gather_S100000x128_S600000x1_S600000x128_1_0_n_n_0_1_1128 v iD⟩,
                 ⟨Cert.ReferenceIdeal.S600000x128, Host.gather Cert.ReferenceIdeal.gather_S100000x128_S600000x1_S600000x128_1_0_n_n_0_1_1128 v iS⟩,
                 ⟨Cert.ReferenceIdeal.S600000x3, subf (F := Ideal)
                    (Host.gather Cert.ReferenceIdeal.gather_S100000x3_S600000x1_S600000x3_1_0_n_n_0_1_13 (extractStridedSlice Cert.ReferenceIdeal.S100000x3 ![0, 0] a3 Cert.ReferenceIdeal.Facts₀.slices_S100000x16_S100000x3_0_0) iD)
                    (Host.gather Cert.ReferenceIdeal.gather_S100000x3_S600000x1_S600000x3_1_0_n_n_0_1_13 (extractStridedSlice Cert.ReferenceIdeal.S100000x3 ![0, 0] a3 Cert.ReferenceIdeal.Facts₀.slices_S100000x16_S100000x3_0_0) iS)⟩]
                Cert.ReferenceIdeal.Facts₀.concatenates_S600000x128_S600000x128_S600000x3_S600000x259_d1) W)
              (broadcastInDim Cert.ReferenceIdeal.S600000x128 ![0, 1] Cert.ReferenceIdeal.Facts₀.bcast_S1x128_S600000x128_0_1
                (broadcastInDim Cert.ReferenceIdeal.S1x128 ![1] Cert.ReferenceIdeal.Facts₀.bcast_S128_S1x128_1 b)))
          (mulf (broadcastInDim Cert.ReferenceIdeal.S600000x128 ![] Cert.ReferenceIdeal.Facts₀.bcast_S_S600000x128 (constant (F := Ideal) Cert.ReferenceIdeal.S_ .f32 0x3C23D70A#32))
            (addf (Host.dotGeneral Cert.ReferenceIdeal.dot_S600000x259_S259x128_S600000x128_1_0_0_1_n_n none (concatenate Cert.ReferenceIdeal.S600000x259 1
                [⟨Cert.ReferenceIdeal.S600000x128, Host.gather Cert.ReferenceIdeal.gather_S100000x128_S600000x1_S600000x128_1_0_n_n_0_1_1128 v iD⟩,
                 ⟨Cert.ReferenceIdeal.S600000x128, Host.gather Cert.ReferenceIdeal.gather_S100000x128_S600000x1_S600000x128_1_0_n_n_0_1_1128 v iS⟩,
                 ⟨Cert.ReferenceIdeal.S600000x3, subf (F := Ideal)
                    (Host.gather Cert.ReferenceIdeal.gather_S100000x3_S600000x1_S600000x3_1_0_n_n_0_1_13 (extractStridedSlice Cert.ReferenceIdeal.S100000x3 ![0, 0] a3 Cert.ReferenceIdeal.Facts₀.slices_S100000x16_S100000x3_0_0) iD)
                    (Host.gather Cert.ReferenceIdeal.gather_S100000x3_S600000x1_S600000x3_1_0_n_n_0_1_13 (extractStridedSlice Cert.ReferenceIdeal.S100000x3 ![0, 0] a3 Cert.ReferenceIdeal.Facts₀.slices_S100000x16_S100000x3_0_0) iS)⟩]
                Cert.ReferenceIdeal.Facts₀.concatenates_S600000x128_S600000x128_S600000x3_S600000x259_d1) W)
              (broadcastInDim Cert.ReferenceIdeal.S600000x128 ![0, 1] Cert.ReferenceIdeal.Facts₀.bcast_S1x128_S600000x128_0_1
                (broadcastInDim Cert.ReferenceIdeal.S1x128 ![1] Cert.ReferenceIdeal.Facts₀.bcast_S128_S1x128_1 b)))) := by
  have h := voxMessage_eq (Nv := 100000) (E := 600000) (H := 128) (Pd := 3) (C := 128) (by decide) v
    (extractStridedSlice Cert.KernelIdeal.S100000x3 ![0, 0] a3 Cert.KernelIdeal.Facts₀.slices_S100000x16_S100000x3_0_0) W b
    Cert.KernelIdeal.Host.zeroRow256 (fun _ => Ideal.ofBits_zero_f32) iD iS Cert.KernelIdeal.Facts₀.bitsLt_bf16_f32
    Cert.KernelIdeal.Facts₀.concatenates_S100000x128_S100000x3_S100000x131_d1
    Cert.KernelIdeal.Facts₀.slices_S259x128_S128x128_0_0 Cert.KernelIdeal.Facts₀.slices_S259x128_S128x128_128_0 Cert.KernelIdeal.Facts₀.slices_S259x128_S3x128_256_0
    (fun _ => hreal3 _) (fun _ => hrealW _)
    Cert.KernelIdeal.Facts₀.concatenates_S128x128_S3x128_S131x128_d0 Cert.KernelIdeal.Facts₀.concatenates_S131x128_S131x128_S131x256_d1
    Cert.KernelIdeal.Facts₀.slices_S100000x256_S100000x128_0_0 Cert.KernelIdeal.Facts₀.slices_S100000x256_S100000x128_0_128
    Cert.KernelIdeal.gather_S100000x128_S600000x1_S600000x128_1_0_n_n_0_1_1128 Cert.KernelIdeal.Facts₀.gather_S100000x128_S600000x1_S600000x128_1_0_n_n_0_1_1128_wf rfl Cert.KernelIdeal.Facts₀.shapeCasts_S128_S1x128
    Cert.ReferenceIdeal.gather_S100000x128_S600000x1_S600000x128_1_0_n_n_0_1_1128 Cert.ReferenceIdeal.Facts₀.gather_S100000x128_S600000x1_S600000x128_1_0_n_n_0_1_1128_wf rfl
    Cert.ReferenceIdeal.gather_S100000x3_S600000x1_S600000x3_1_0_n_n_0_1_13 Cert.ReferenceIdeal.Facts₀.gather_S100000x3_S600000x1_S600000x3_1_0_n_n_0_1_13_wf rfl
    Cert.ReferenceIdeal.Facts₀.concatenates_S600000x128_S600000x128_S600000x3_S600000x259_d1
    Cert.ReferenceIdeal.dot_S600000x259_S259x128_S600000x128_1_0_0_1_n_n rfl ![1] rfl Cert.ReferenceIdeal.Facts₀.bcast_S128_S1x128_1 ![0, 1] rfl rfl
    Cert.ReferenceIdeal.Facts₀.bcast_S1x128_S600000x128_0_1 ![] Cert.ReferenceIdeal.Facts₀.bcast_S_S600000x128
  unfold Cert.KernelIdeal.Host.voxHalf0 Cert.KernelIdeal.Host.voxHalf1 Cert.KernelIdeal.Host.voxMsgIn Cert.KernelIdeal.Host.voxMsgWeightPair Cert.KernelIdeal.Arr.G15 Cert.KernelIdeal.Arr.G14
  exact h

end Cert.Bridge

end
-- ==== Proof.CutVm.lean ====
/- The voxel message cut: the block-wise program's message array (the node-level projection of the voxel rows beside their positions,
   gathered at the two ends and added under the leaky rectifier) is the array-wise program's stage function (the gathered rows and
   the position difference, side by side, projected). The position difference distributes over the projection because the
   positions and the weights are real. -/
import proofs.«173394_j29068338659455_2_alg».proof.Proof.Cuts
import proofs.«173394_j29068338659455_2_alg».proof.Proof.BridgeInst3

noncomputable section

namespace Cert.Final

open Idealize.ShloMosaic Idealize.ShloMosaic.StableHlo
open Cert.KernelIdeal.Host Cert.ReferenceIdeal.RefRun

theorem cut_vm (v1 : FVec Ideal Cert.KernelIdeal.S100000x128 .f32) (vs vd : IVec Cert.KernelIdeal.S600000 32) (a3 : FVec Ideal Cert.KernelIdeal.S100000x16 .f32)
    (a18 : FVec Ideal Cert.KernelIdeal.S259x128 .f32) (a19 : FVec Ideal Cert.KernelIdeal.S128 .f32)
    (hreal3 : ∀ i, ∃ r : ℝ, a3 i = (r : EReal)) (hreal18 : ∀ i, ∃ r : ℝ, a18 i = (r : EReal)) :
    Cert.KernelIdeal.Arr.G15
        (gatherVox (voxHalf0 (Cert.KernelIdeal.Arr.G14 (voxMsgIn v1 a3) (voxMsgWeightPair a18) zeroRow256)) vd)
        (gatherVox (voxHalf1 (Cert.KernelIdeal.Arr.G14 (voxMsgIn v1 a3) (voxMsgWeightPair a18) zeroRow256)) vs)
        (shapeCast Cert.KernelIdeal.S1x128 a19 Cert.KernelIdeal.Facts₀.shapeCasts_S128_S1x128)
      = stage_vm (F := Ideal) v1 (stage_pos (F := Ideal) a3) vs vd a18 a19 := by
  unfold gatherVox stage_vm stage_pos leaky_S600000x128
  exact Cert.Bridge.voxMsg_eq v1 a3 a18 a19 _ _ hreal3 hreal18

end Cert.Final

end
-- ==== Proof.Ref.RV.lean ====
/- The run's final contents at a buffer, as one opaque name, and the stage equations restated over it: so that two such
   contents at different buffers are compared by their buffers and never by unfolding the fold over the operations. -/
import proofs.«173394_j29068338659455_2_alg».proof.Proof.Ref.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The final contents at buffer `b` of the run from contents `V`. -/
def RV (V : Valuation τ sig (Elt F)) (b : Ref sig .tc) := after ops V (Proc.devRef .tc b)

theorem RV_eq (V : Valuation τ sig (Elt F)) (b : Ref sig .tc) : RV V b = after ops V (Proc.devRef .tc b) := rfl

theorem RV_x0 (V : Valuation τ sig (Elt F)) : RV V main_v5 = stage_x0 (V (Proc.devRef .tc main_arg0)) (V (Proc.devRef .tc main_arg1)) (V (Proc.devRef .tc main_arg10)) (V (Proc.devRef .tc main_arg11)) := stage_x0_eq V

theorem RV_src (V : Valuation τ sig (Elt F)) : RV V main_v7 = stage_src (V (Proc.devRef .tc main_arg5)) := stage_src_eq V

theorem RV_dst (V : Valuation τ sig (Elt F)) : RV V main_v9 = stage_dst (V (Proc.devRef .tc main_arg5)) := stage_dst_eq V

theorem RV_ratio (V : Valuation τ sig (Elt F)) : RV V main_v11 = stage_ratio (V (Proc.devRef .tc main_arg2)) := stage_ratio_eq V

theorem RV_m0 (V : Valuation τ sig (Elt F)) : RV V main_v35 = stage_m0 (RV V main_v5) (RV V main_v7) (RV V main_v9) (V (Proc.devRef .tc main_arg12)) (V (Proc.devRef .tc main_arg13)) := stage_m0_eq V

theorem RV_aggr0 (V : Valuation τ sig (Elt F)) : RV V main_v47 = stage_aggr0 (RV V main_v9) (RV V main_v35) := stage_aggr0_eq V

theorem RV_c0 (V : Valuation τ sig (Elt F)) : RV V main_v68 = stage_c0 (RV V main_v5) (RV V main_v11) (V (Proc.devRef .tc main_arg6)) := stage_c0_eq V

theorem RV_x1 (V : Valuation τ sig (Elt F)) : RV V main_v79 = stage_x1 (RV V main_v5) (RV V main_v47) (RV V main_v68) (V (Proc.devRef .tc main_arg14)) (V (Proc.devRef .tc main_arg15)) := stage_x1_eq V

theorem RV_m1 (V : Valuation τ sig (Elt F)) : RV V main_v103 = stage_m1 (RV V main_v7) (RV V main_v9) (RV V main_v79) (V (Proc.devRef .tc main_arg12)) (V (Proc.devRef .tc main_arg13)) := stage_m1_eq V

theorem RV_aggr1 (V : Valuation τ sig (Elt F)) : RV V main_v115 = stage_aggr1 (RV V main_v9) (RV V main_v103) := stage_aggr1_eq V

theorem RV_c1 (V : Valuation τ sig (Elt F)) : RV V main_v136 = stage_c1 (RV V main_v11) (RV V main_v79) (V (Proc.devRef .tc main_arg6)) := stage_c1_eq V

theorem RV_x2 (V : Valuation τ sig (Elt F)) : RV V main_v147 = stage_x2 (RV V main_v79) (RV V main_v115) (RV V main_v136) (V (Proc.devRef .tc main_arg14)) (V (Proc.devRef .tc main_arg15)) := stage_x2_eq V

theorem RV_m2 (V : Valuation τ sig (Elt F)) : RV V main_v171 = stage_m2 (RV V main_v7) (RV V main_v9) (RV V main_v147) (V (Proc.devRef .tc main_arg12)) (V (Proc.devRef .tc main_arg13)) := stage_m2_eq V

theorem RV_aggr2 (V : Valuation τ sig (Elt F)) : RV V main_v183 = stage_aggr2 (RV V main_v9) (RV V main_v171) := stage_aggr2_eq V

theorem RV_c2 (V : Valuation τ sig (Elt F)) : RV V main_v204 = stage_c2 (RV V main_v11) (RV V main_v147) (V (Proc.devRef .tc main_arg6)) := stage_c2_eq V

theorem RV_x3 (V : Valuation τ sig (Elt F)) : RV V main_v215 = stage_x3 (RV V main_v147) (RV V main_v183) (RV V main_v204) (V (Proc.devRef .tc main_arg14)) (V (Proc.devRef .tc main_arg15)) := stage_x3_eq V

theorem RV_v0 (V : Valuation τ sig (Elt F)) : RV V main_v221 = stage_v0 (V (Proc.devRef .tc main_arg3)) (V (Proc.devRef .tc main_arg4)) (V (Proc.devRef .tc main_arg16)) (V (Proc.devRef .tc main_arg17)) := stage_v0_eq V

theorem RV_pf (V : Valuation τ sig (Elt F)) : RV V main_v228 = stage_pf (RV V main_v215) (V (Proc.devRef .tc main_arg8)) := stage_pf_eq V

theorem RV_logits (V : Valuation τ sig (Elt F)) : RV V main_v245 = stage_logits (RV V main_v221) (RV V main_v228) (V (Proc.devRef .tc main_arg9)) (V (Proc.devRef .tc main_arg22)) (V (Proc.devRef .tc main_arg23)) (V (Proc.devRef .tc main_arg24)) (V (Proc.devRef .tc main_arg25)) := stage_logits_eq V

theorem RV_attn (V : Valuation τ sig (Elt F)) : RV V main_v256 = stage_attn (RV V main_v245) := stage_attn_eq V

theorem RV_attended (V : Valuation τ sig (Elt F)) : RV V main_v266 = stage_attended (RV V main_v228) (RV V main_v256) (V (Proc.devRef .tc main_arg9)) := stage_attended_eq V

theorem RV_v1 (V : Valuation τ sig (Elt F)) : RV V main_v267 = stage_v1 (RV V main_v221) (RV V main_v266) := stage_v1_eq V

theorem RV_pos (V : Valuation τ sig (Elt F)) : RV V main_v268 = stage_pos (V (Proc.devRef .tc main_arg3)) := stage_pos_eq V

theorem RV_vs (V : Valuation τ sig (Elt F)) : RV V main_v270 = stage_vs (V (Proc.devRef .tc main_arg7)) := stage_vs_eq V

theorem RV_vd (V : Valuation τ sig (Elt F)) : RV V main_v272 = stage_vd (V (Proc.devRef .tc main_arg7)) := stage_vd_eq V

theorem RV_vm (V : Valuation τ sig (Elt F)) : RV V main_v307 = stage_vm (RV V main_v267) (RV V main_v268) (RV V main_v270) (RV V main_v272) (V (Proc.devRef .tc main_arg18)) (V (Proc.devRef .tc main_arg19)) := stage_vm_eq V

theorem RV_vaggr (V : Valuation τ sig (Elt F)) : RV V main_v319 = stage_vaggr (RV V main_v272) (RV V main_v307) := stage_vaggr_eq V

theorem RV_vout (V : Valuation τ sig (Elt F)) : RV V main_v326 = stage_vout (RV V main_v267) (RV V main_v319) (V (Proc.devRef .tc main_arg20)) (V (Proc.devRef .tc main_arg21)) := stage_vout_eq V

attribute [irreducible] RV

end Cert.ReferenceIdeal.RefRun

end
-- ==== Proof.Final.lean ====
/- The final comparison: the block-wise program's two results, as functions of its arguments, are the array-wise program's run
   read at its two result buffers, from memories that agree on the arguments. A chain down the array-wise program's cut points:
   at each, its stage equation rewrites the run's contents there to the stage function of the earlier cut points (already shown equal
   to the block-wise side's values) and of the arguments (equal by agreement), and the cut's lemma closes the step. -/
import proofs.«173394_j29068338659455_2_alg».proof.Proof.KI.KVal
import proofs.«173394_j29068338659455_2_alg».proof.Proof.Cuts
import proofs.«173394_j29068338659455_2_alg».proof.Proof.CutVm
import proofs.«173394_j29068338659455_2_alg».proof.Proof.Ref.RV

noncomputable section

namespace Cert.Final

open Idealize.ShloMosaic Idealize.ShloMosaic.TcCoe Idealize.SL.Sem Idealize.ShloMosaic.StableHlo
open Cert.KernelIdeal.Host Cert.KernelIdeal.KVal Cert.ReferenceIdeal.RefRun

/-- The two programs' launch memories hold the same arrays at the 26 arguments (at core `c`); each equation read at the
    argument's array type. -/
def Agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) : Prop :=
  @Eq ((⟨Cert.ReferenceIdeal.S5000x32, .f32⟩ : BufTy).Contents (Elt Ideal)) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
    ∧ @Eq ((⟨Cert.ReferenceIdeal.S5000x32, .f32⟩ : BufTy).Contents (Elt Ideal)) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
    ∧ @Eq ((⟨Cert.ReferenceIdeal.S5000x1, .f32⟩ : BufTy).Contents (Elt Ideal)) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
    ∧ @Eq ((⟨Cert.ReferenceIdeal.S100000x16, .f32⟩ : BufTy).Contents (Elt Ideal)) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
    ∧ @Eq ((⟨Cert.ReferenceIdeal.S100000x32, .f32⟩ : BufTy).Contents (Elt Ideal)) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
    ∧ @Eq ((⟨Cert.ReferenceIdeal.S2x80000, .i32⟩ : BufTy).Contents (Elt Ideal)) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
    ∧ @Eq ((⟨Cert.ReferenceIdeal.S5000, .i32⟩ : BufTy).Contents (Elt Ideal)) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
    ∧ @Eq ((⟨Cert.ReferenceIdeal.S2x600000, .i32⟩ : BufTy).Contents (Elt Ideal)) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
    ∧ @Eq ((⟨Cert.ReferenceIdeal.S300000, .i32⟩ : BufTy).Contents (Elt Ideal)) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
    ∧ @Eq ((⟨Cert.ReferenceIdeal.S300000, .i32⟩ : BufTy).Contents (Elt Ideal)) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
    ∧ @Eq ((⟨Cert.ReferenceIdeal.S64x128, .f32⟩ : BufTy).Contents (Elt Ideal)) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
    ∧ @Eq ((⟨Cert.ReferenceIdeal.S128, .f32⟩ : BufTy).Contents (Elt Ideal)) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))
    ∧ @Eq ((⟨Cert.ReferenceIdeal.S3x256x128, .f32⟩ : BufTy).Contents (Elt Ideal)) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12))
    ∧ @Eq ((⟨Cert.ReferenceIdeal.S3x128, .f32⟩ : BufTy).Contents (Elt Ideal)) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13))
    ∧ @Eq ((⟨Cert.ReferenceIdeal.S3x384x128, .f32⟩ : BufTy).Contents (Elt Ideal)) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14))
    ∧ @Eq ((⟨Cert.ReferenceIdeal.S3x128, .f32⟩ : BufTy).Contents (Elt Ideal)) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15))
    ∧ @Eq ((⟨Cert.ReferenceIdeal.S48x128, .f32⟩ : BufTy).Contents (Elt Ideal)) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg16))
    ∧ @Eq ((⟨Cert.ReferenceIdeal.S128, .f32⟩ : BufTy).Contents (Elt Ideal)) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg17))
    ∧ @Eq ((⟨Cert.ReferenceIdeal.S259x128, .f32⟩ : BufTy).Contents (Elt Ideal)) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg18))
    ∧ @Eq ((⟨Cert.ReferenceIdeal.S128, .f32⟩ : BufTy).Contents (Elt Ideal)) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg19))
    ∧ @Eq ((⟨Cert.ReferenceIdeal.S256x128, .f32⟩ : BufTy).Contents (Elt Ideal)) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg20))
    ∧ @Eq ((⟨Cert.ReferenceIdeal.S128, .f32⟩ : BufTy).Contents (Elt Ideal)) (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg21))
    ∧ @Eq ((⟨Cert.ReferenceIdeal.S256x128, .f32⟩ : BufTy).Contents (Elt Ideal)) (m' ((c.tc : Thread Cert.ReferenceIdeal.nD Cert.ReferenceIdeal.τ).loc Cert.ReferenceIdeal.main_arg22)) (m ((c.tc : Thread Cert.KernelIdeal.nD Cert.KernelIdeal.τ).loc Cert.KernelIdeal.main_arg22))
    ∧ @Eq ((⟨Cert.ReferenceIdeal.S128, .f32⟩ : BufTy).Contents (Elt Ideal)) (m' ((c.tc : Thread Cert.ReferenceIdeal.nD Cert.ReferenceIdeal.τ).loc Cert.ReferenceIdeal.main_arg23)) (m ((c.tc : Thread Cert.KernelIdeal.nD Cert.KernelIdeal.τ).loc Cert.KernelIdeal.main_arg23))
    ∧ @Eq ((⟨Cert.ReferenceIdeal.S128x1, .f32⟩ : BufTy).Contents (Elt Ideal)) (m' ((c.tc : Thread Cert.ReferenceIdeal.nD Cert.ReferenceIdeal.τ).loc Cert.ReferenceIdeal.main_arg24)) (m ((c.tc : Thread Cert.KernelIdeal.nD Cert.KernelIdeal.τ).loc Cert.KernelIdeal.main_arg24))
    ∧ @Eq ((⟨Cert.ReferenceIdeal.S1, .f32⟩ : BufTy).Contents (Elt Ideal)) (m' ((c.tc : Thread Cert.ReferenceIdeal.nD Cert.ReferenceIdeal.τ).loc Cert.ReferenceIdeal.main_arg25)) (m ((c.tc : Thread Cert.KernelIdeal.nD Cert.KernelIdeal.τ).loc Cert.KernelIdeal.main_arg25))

/-! ## The arguments: the array-wise program's launch contents are the block-wise program's -/
theorem hA0 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S5000x32, .f32⟩ : BufTy).Contents (Elt Ideal)) (launchContents m' c (Proc.devRef .tc Cert.ReferenceIdeal.main_arg0)) (ka0 m c) := hagree.1
theorem hA1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S5000x32, .f32⟩ : BufTy).Contents (Elt Ideal)) (launchContents m' c (Proc.devRef .tc Cert.ReferenceIdeal.main_arg1)) (ka1 m c) := hagree.2.1
theorem hA2 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S5000x1, .f32⟩ : BufTy).Contents (Elt Ideal)) (launchContents m' c (Proc.devRef .tc Cert.ReferenceIdeal.main_arg2)) (ka2 m c) := hagree.2.2.1
theorem hA3 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S100000x16, .f32⟩ : BufTy).Contents (Elt Ideal)) (launchContents m' c (Proc.devRef .tc Cert.ReferenceIdeal.main_arg3)) (ka3 m c) := hagree.2.2.2.1
theorem hA4 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S100000x32, .f32⟩ : BufTy).Contents (Elt Ideal)) (launchContents m' c (Proc.devRef .tc Cert.ReferenceIdeal.main_arg4)) (ka4 m c) := hagree.2.2.2.2.1
theorem hA5 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S2x80000, .i32⟩ : BufTy).Contents (Elt Ideal)) (launchContents m' c (Proc.devRef .tc Cert.ReferenceIdeal.main_arg5)) (ka5 m c) := hagree.2.2.2.2.2.1
theorem hA6 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S5000, .i32⟩ : BufTy).Contents (Elt Ideal)) (launchContents m' c (Proc.devRef .tc Cert.ReferenceIdeal.main_arg6)) (ka6 m c) := hagree.2.2.2.2.2.2.1
theorem hA7 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S2x600000, .i32⟩ : BufTy).Contents (Elt Ideal)) (launchContents m' c (Proc.devRef .tc Cert.ReferenceIdeal.main_arg7)) (ka7 m c) := hagree.2.2.2.2.2.2.2.1
theorem hA8 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S300000, .i32⟩ : BufTy).Contents (Elt Ideal)) (launchContents m' c (Proc.devRef .tc Cert.ReferenceIdeal.main_arg8)) (ka8 m c) := hagree.2.2.2.2.2.2.2.2.1
theorem hA9 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S300000, .i32⟩ : BufTy).Contents (Elt Ideal)) (launchContents m' c (Proc.devRef .tc Cert.ReferenceIdeal.main_arg9)) (ka9 m c) := hagree.2.2.2.2.2.2.2.2.2.1
theorem hA10 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S64x128, .f32⟩ : BufTy).Contents (Elt Ideal)) (launchContents m' c (Proc.devRef .tc Cert.ReferenceIdeal.main_arg10)) (ka10 m c) := hagree.2.2.2.2.2.2.2.2.2.2.1
theorem hA11 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S128, .f32⟩ : BufTy).Contents (Elt Ideal)) (launchContents m' c (Proc.devRef .tc Cert.ReferenceIdeal.main_arg11)) (ka11 m c) := hagree.2.2.2.2.2.2.2.2.2.2.2.1
theorem hA12 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S3x256x128, .f32⟩ : BufTy).Contents (Elt Ideal)) (launchContents m' c (Proc.devRef .tc Cert.ReferenceIdeal.main_arg12)) (ka12 m c) := hagree.2.2.2.2.2.2.2.2.2.2.2.2.1
theorem hA13 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S3x128, .f32⟩ : BufTy).Contents (Elt Ideal)) (launchContents m' c (Proc.devRef .tc Cert.ReferenceIdeal.main_arg13)) (ka13 m c) := hagree.2.2.2.2.2.2.2.2.2.2.2.2.2.1
theorem hA14 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S3x384x128, .f32⟩ : BufTy).Contents (Elt Ideal)) (launchContents m' c (Proc.devRef .tc Cert.ReferenceIdeal.main_arg14)) (ka14 m c) := hagree.2.2.2.2.2.2.2.2.2.2.2.2.2.2.1
theorem hA15 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S3x128, .f32⟩ : BufTy).Contents (Elt Ideal)) (launchContents m' c (Proc.devRef .tc Cert.ReferenceIdeal.main_arg15)) (ka15 m c) := hagree.2.2.2.2.2.2.2.2.2.2.2.2.2.2.2.1
theorem hA16 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S48x128, .f32⟩ : BufTy).Contents (Elt Ideal)) (launchContents m' c (Proc.devRef .tc Cert.ReferenceIdeal.main_arg16)) (ka16 m c) := hagree.2.2.2.2.2.2.2.2.2.2.2.2.2.2.2.2.1
theorem hA17 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S128, .f32⟩ : BufTy).Contents (Elt Ideal)) (launchContents m' c (Proc.devRef .tc Cert.ReferenceIdeal.main_arg17)) (ka17 m c) := hagree.2.2.2.2.2.2.2.2.2.2.2.2.2.2.2.2.2.1
theorem hA18 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S259x128, .f32⟩ : BufTy).Contents (Elt Ideal)) (launchContents m' c (Proc.devRef .tc Cert.ReferenceIdeal.main_arg18)) (ka18 m c) := hagree.2.2.2.2.2.2.2.2.2.2.2.2.2.2.2.2.2.2.1
theorem hA19 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S128, .f32⟩ : BufTy).Contents (Elt Ideal)) (launchContents m' c (Proc.devRef .tc Cert.ReferenceIdeal.main_arg19)) (ka19 m c) := hagree.2.2.2.2.2.2.2.2.2.2.2.2.2.2.2.2.2.2.2.1
theorem hA20 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S256x128, .f32⟩ : BufTy).Contents (Elt Ideal)) (launchContents m' c (Proc.devRef .tc Cert.ReferenceIdeal.main_arg20)) (ka20 m c) := hagree.2.2.2.2.2.2.2.2.2.2.2.2.2.2.2.2.2.2.2.2.1
theorem hA21 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S128, .f32⟩ : BufTy).Contents (Elt Ideal)) (launchContents m' c (Proc.devRef .tc Cert.ReferenceIdeal.main_arg21)) (ka21 m c) := hagree.2.2.2.2.2.2.2.2.2.2.2.2.2.2.2.2.2.2.2.2.2.1
theorem hA22 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S256x128, .f32⟩ : BufTy).Contents (Elt Ideal)) (launchContents m' c (Proc.devRef .tc Cert.ReferenceIdeal.main_arg22)) (ka22 m c) := hagree.2.2.2.2.2.2.2.2.2.2.2.2.2.2.2.2.2.2.2.2.2.2.1
theorem hA23 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S128, .f32⟩ : BufTy).Contents (Elt Ideal)) (launchContents m' c (Proc.devRef .tc Cert.ReferenceIdeal.main_arg23)) (ka23 m c) := hagree.2.2.2.2.2.2.2.2.2.2.2.2.2.2.2.2.2.2.2.2.2.2.2.1
theorem hA24 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S128x1, .f32⟩ : BufTy).Contents (Elt Ideal)) (launchContents m' c (Proc.devRef .tc Cert.ReferenceIdeal.main_arg24)) (ka24 m c) := hagree.2.2.2.2.2.2.2.2.2.2.2.2.2.2.2.2.2.2.2.2.2.2.2.2.1
theorem hA25 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    @Eq ((⟨Cert.ReferenceIdeal.S1, .f32⟩ : BufTy).Contents (Elt Ideal)) (launchContents m' c (Proc.devRef .tc Cert.ReferenceIdeal.main_arg25)) (ka25 m c) := hagree.2.2.2.2.2.2.2.2.2.2.2.2.2.2.2.2.2.2.2.2.2.2.2.2.2

/-! ## The chain down the cut points -/

theorem E_x0 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k4 m c = RV (F := Ideal) (launchContents m' c) Cert.ReferenceIdeal.main_v5 := by
  rw [RV_x0 (F := Ideal) (launchContents m' c),
    hA0 m m' c hagree,
    hA1 m m' c hagree,
    hA10 m m' c hagree,
    hA11 m m' c hagree]
  exact cut_x0 (ka0 m c) (ka1 m c) (ka10 m c) (ka11 m c)

theorem E_src (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k6 m c = RV (F := Ideal) (launchContents m' c) Cert.ReferenceIdeal.main_v7 := by
  rw [RV_src (F := Ideal) (launchContents m' c),
    hA5 m m' c hagree]
  exact cut_src (ka5 m c)

theorem E_dst (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k8 m c = RV (F := Ideal) (launchContents m' c) Cert.ReferenceIdeal.main_v9 := by
  rw [RV_dst (F := Ideal) (launchContents m' c),
    hA5 m m' c hagree]
  exact cut_dst (ka5 m c)

theorem E_ratio (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k10 m c = RV (F := Ideal) (launchContents m' c) Cert.ReferenceIdeal.main_v11 := by
  rw [RV_ratio (F := Ideal) (launchContents m' c),
    hA2 m m' c hagree]
  exact cut_ratio (ka2 m c)

theorem E_m0 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k42 m c = RV (F := Ideal) (launchContents m' c) Cert.ReferenceIdeal.main_v35 := by
  rw [RV_m0 (F := Ideal) (launchContents m' c),
    ← E_x0 m m' c hagree,
    ← E_src m m' c hagree,
    ← E_dst m m' c hagree,
    hA12 m m' c hagree,
    hA13 m m' c hagree]
  exact cut_m0 (k4 m c) (k6 m c) (k8 m c) (ka12 m c) (ka13 m c)

theorem E_aggr0 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    segMeanEdge (k8 m c) (k42 m c) = RV (F := Ideal) (launchContents m' c) Cert.ReferenceIdeal.main_v47 := by
  rw [RV_aggr0 (F := Ideal) (launchContents m' c),
    ← E_dst m m' c hagree,
    ← E_m0 m m' c hagree]
  exact cut_aggr0 (k8 m c) (k42 m c)

theorem E_c0 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    clusterCtx (ka6 m c) (k4 m c) (k10 m c) = RV (F := Ideal) (launchContents m' c) Cert.ReferenceIdeal.main_v68 := by
  rw [RV_c0 (F := Ideal) (launchContents m' c),
    ← E_x0 m m' c hagree,
    ← E_ratio m m' c hagree,
    hA6 m m' c hagree]
  exact cut_c0 (k4 m c) (k10 m c) (ka6 m c)

theorem E_x1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k84 m c = RV (F := Ideal) (launchContents m' c) Cert.ReferenceIdeal.main_v79 := by
  rw [RV_x1 (F := Ideal) (launchContents m' c),
    ← E_x0 m m' c hagree,
    ← E_aggr0 m m' c hagree,
    ← E_c0 m m' c hagree,
    hA14 m m' c hagree,
    hA15 m m' c hagree]
  exact cut_x1 (k4 m c) (segMeanEdge (k8 m c) (k42 m c)) (clusterCtx (ka6 m c) (k4 m c) (k10 m c)) (ka14 m c) (ka15 m c)

theorem E_m1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k116 m c = RV (F := Ideal) (launchContents m' c) Cert.ReferenceIdeal.main_v103 := by
  rw [RV_m1 (F := Ideal) (launchContents m' c),
    ← E_x1 m m' c hagree,
    ← E_src m m' c hagree,
    ← E_dst m m' c hagree,
    hA12 m m' c hagree,
    hA13 m m' c hagree]
  exact cut_m1 (k84 m c) (k6 m c) (k8 m c) (ka12 m c) (ka13 m c)

theorem E_aggr1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    segMeanEdge (k8 m c) (k116 m c) = RV (F := Ideal) (launchContents m' c) Cert.ReferenceIdeal.main_v115 := by
  rw [RV_aggr1 (F := Ideal) (launchContents m' c),
    ← E_dst m m' c hagree,
    ← E_m1 m m' c hagree]
  exact cut_aggr1 (k8 m c) (k116 m c)

theorem E_c1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    clusterCtx (ka6 m c) (k84 m c) (k10 m c) = RV (F := Ideal) (launchContents m' c) Cert.ReferenceIdeal.main_v136 := by
  rw [RV_c1 (F := Ideal) (launchContents m' c),
    ← E_x1 m m' c hagree,
    ← E_ratio m m' c hagree,
    hA6 m m' c hagree]
  exact cut_c1 (k84 m c) (k10 m c) (ka6 m c)

theorem E_x2 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k158 m c = RV (F := Ideal) (launchContents m' c) Cert.ReferenceIdeal.main_v147 := by
  rw [RV_x2 (F := Ideal) (launchContents m' c),
    ← E_x1 m m' c hagree,
    ← E_aggr1 m m' c hagree,
    ← E_c1 m m' c hagree,
    hA14 m m' c hagree,
    hA15 m m' c hagree]
  exact cut_x2 (k84 m c) (segMeanEdge (k8 m c) (k116 m c)) (clusterCtx (ka6 m c) (k84 m c) (k10 m c)) (ka14 m c) (ka15 m c)

theorem E_m2 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k190 m c = RV (F := Ideal) (launchContents m' c) Cert.ReferenceIdeal.main_v171 := by
  rw [RV_m2 (F := Ideal) (launchContents m' c),
    ← E_x2 m m' c hagree,
    ← E_src m m' c hagree,
    ← E_dst m m' c hagree,
    hA12 m m' c hagree,
    hA13 m m' c hagree]
  exact cut_m2 (k158 m c) (k6 m c) (k8 m c) (ka12 m c) (ka13 m c)

theorem E_aggr2 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    segMeanEdge (k8 m c) (k190 m c) = RV (F := Ideal) (launchContents m' c) Cert.ReferenceIdeal.main_v183 := by
  rw [RV_aggr2 (F := Ideal) (launchContents m' c),
    ← E_dst m m' c hagree,
    ← E_m2 m m' c hagree]
  exact cut_aggr2 (k8 m c) (k190 m c)

theorem E_c2 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    clusterCtx (ka6 m c) (k158 m c) (k10 m c) = RV (F := Ideal) (launchContents m' c) Cert.ReferenceIdeal.main_v204 := by
  rw [RV_c2 (F := Ideal) (launchContents m' c),
    ← E_x2 m m' c hagree,
    ← E_ratio m m' c hagree,
    hA6 m m' c hagree]
  exact cut_c2 (k158 m c) (k10 m c) (ka6 m c)

theorem E_x3 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k232 m c = RV (F := Ideal) (launchContents m' c) Cert.ReferenceIdeal.main_v215 := by
  rw [RV_x3 (F := Ideal) (launchContents m' c),
    ← E_x2 m m' c hagree,
    ← E_aggr2 m m' c hagree,
    ← E_c2 m m' c hagree,
    hA14 m m' c hagree,
    hA15 m m' c hagree]
  exact cut_x3 (k158 m c) (segMeanEdge (k8 m c) (k190 m c)) (clusterCtx (ka6 m c) (k158 m c) (k10 m c)) (ka14 m c) (ka15 m c)

theorem E_v0 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k237 m c = RV (F := Ideal) (launchContents m' c) Cert.ReferenceIdeal.main_v221 := by
  rw [RV_v0 (F := Ideal) (launchContents m' c),
    hA3 m m' c hagree,
    hA4 m m' c hagree,
    hA16 m m' c hagree,
    hA17 m m' c hagree]
  exact cut_v0 (ka3 m c) (ka4 m c) (ka16 m c) (ka17 m c)

theorem E_logits (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k267 m c = RV (F := Ideal) (launchContents m' c) Cert.ReferenceIdeal.main_v245 := by
  rw [RV_logits (F := Ideal) (launchContents m' c),
    RV_pf (F := Ideal) (launchContents m' c),
    ← E_v0 m m' c hagree,
    ← E_x3 m m' c hagree,
    hA8 m m' c hagree,
    hA9 m m' c hagree,
    hA22 m m' c hagree,
    hA23 m m' c hagree,
    hA24 m m' c hagree,
    hA25 m m' c hagree]
  exact cut_logits (k232 m c) (k237 m c) (ka8 m c) (ka9 m c) (ka22 m c) (ka23 m c) (ka24 m c) (ka25 m c)

theorem E_attn (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k278 m c = RV (F := Ideal) (launchContents m' c) Cert.ReferenceIdeal.main_v256 := by
  rw [RV_attn (F := Ideal) (launchContents m' c),
    ← E_logits m m' c hagree]
  exact cut_attn (k267 m c)

theorem E_v1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k298 m c = RV (F := Ideal) (launchContents m' c) Cert.ReferenceIdeal.main_v267 := by
  rw [RV_v1 (F := Ideal) (launchContents m' c),
    RV_attended (F := Ideal) (launchContents m' c),
    RV_pf (F := Ideal) (launchContents m' c),
    ← E_v0 m m' c hagree,
    ← E_attn m m' c hagree,
    ← E_x3 m m' c hagree,
    hA8 m m' c hagree,
    hA9 m m' c hagree]
  exact cut_v1 (k278 m c) (k232 m c) (ka8 m c) (ka9 m c) (k237 m c)

theorem E_vs (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k301 m c = RV (F := Ideal) (launchContents m' c) Cert.ReferenceIdeal.main_v270 := by
  rw [RV_vs (F := Ideal) (launchContents m' c),
    hA7 m m' c hagree]
  exact cut_vs (ka7 m c)

theorem E_vd (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c) :
    k303 m c = RV (F := Ideal) (launchContents m' c) Cert.ReferenceIdeal.main_v272 := by
  rw [RV_vd (F := Ideal) (launchContents m' c),
    hA7 m m' c hagree]
  exact cut_vd (ka7 m c)

theorem E_vm (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c)
    (hreal3 : ∀ i, ∃ r : ℝ, (m ((c.tc : Thread Cert.KernelIdeal.nD Cert.KernelIdeal.τ).loc Cert.KernelIdeal.main_arg3) : FVec Ideal Cert.KernelIdeal.S100000x16 .f32) i = (r : EReal))
    (hreal18 : ∀ i, ∃ r : ℝ, (m ((c.tc : Thread Cert.KernelIdeal.nD Cert.KernelIdeal.τ).loc Cert.KernelIdeal.main_arg18) : FVec Ideal Cert.KernelIdeal.S259x128 .f32) i = (r : EReal)) :
    k334 m c = RV (F := Ideal) (launchContents m' c) Cert.ReferenceIdeal.main_v307 := by
  rw [RV_vm (F := Ideal) (launchContents m' c),
    RV_pos (F := Ideal) (launchContents m' c),
    ← E_v1 m m' c hagree,
    ← E_vs m m' c hagree,
    ← E_vd m m' c hagree,
    hA3 m m' c hagree,
    hA18 m m' c hagree,
    hA19 m m' c hagree]
  exact cut_vm (k298 m c) (k301 m c) (k303 m c) (ka3 m c) (ka18 m c) (ka19 m c) hreal3 hreal18

theorem E_vaggr (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c)
    (hreal3 : ∀ i, ∃ r : ℝ, (m ((c.tc : Thread Cert.KernelIdeal.nD Cert.KernelIdeal.τ).loc Cert.KernelIdeal.main_arg3) : FVec Ideal Cert.KernelIdeal.S100000x16 .f32) i = (r : EReal))
    (hreal18 : ∀ i, ∃ r : ℝ, (m ((c.tc : Thread Cert.KernelIdeal.nD Cert.KernelIdeal.τ).loc Cert.KernelIdeal.main_arg18) : FVec Ideal Cert.KernelIdeal.S259x128 .f32) i = (r : EReal)) :
    segMeanVox (k303 m c) (k334 m c) = RV (F := Ideal) (launchContents m' c) Cert.ReferenceIdeal.main_v319 := by
  rw [RV_vaggr (F := Ideal) (launchContents m' c),
    ← E_vd m m' c hagree,
    ← E_vm m m' c hagree hreal3 hreal18]
  exact cut_vaggr (k303 m c) (k334 m c)

theorem E_vout (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) (hagree : Agree m m' c)
    (hreal3 : ∀ i, ∃ r : ℝ, (m ((c.tc : Thread Cert.KernelIdeal.nD Cert.KernelIdeal.τ).loc Cert.KernelIdeal.main_arg3) : FVec Ideal Cert.KernelIdeal.S100000x16 .f32) i = (r : EReal))
    (hreal18 : ∀ i, ∃ r : ℝ, (m ((c.tc : Thread Cert.KernelIdeal.nD Cert.KernelIdeal.τ).loc Cert.KernelIdeal.main_arg18) : FVec Ideal Cert.KernelIdeal.S259x128 .f32) i = (r : EReal)) :
    k351 m c = RV (F := Ideal) (launchContents m' c) Cert.ReferenceIdeal.main_v326 := by
  rw [RV_vout (F := Ideal) (launchContents m' c),
    ← E_v1 m m' c hagree,
    ← E_vaggr m m' c hagree hreal3 hreal18,
    hA20 m m' c hagree,
    hA21 m m' c hagree]
  exact cut_vout (k298 m c) (segMeanVox (k303 m c) (k334 m c)) (ka20 m c) (ka21 m c)

/-- From memories agreeing on the arguments (the voxel features and the voxel message weights real), the block-wise program's two
    results are the array-wise run's final contents at its two result buffers. -/
theorem results (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD)
    (hreal3 : ∀ i, ∃ r : ℝ, (m ((c.tc : Thread Cert.KernelIdeal.nD Cert.KernelIdeal.τ).loc Cert.KernelIdeal.main_arg3) : FVec Ideal Cert.KernelIdeal.S100000x16 .f32) i = (r : EReal))
    (hreal18 : ∀ i, ∃ r : ℝ, (m ((c.tc : Thread Cert.KernelIdeal.nD Cert.KernelIdeal.τ).loc Cert.KernelIdeal.main_arg18) : FVec Ideal Cert.KernelIdeal.S259x128 .f32) i = (r : EReal))
    (hagree : Agree m m' c) :
    Cert.KernelIdeal.KVal.k351 m c = after ops (launchContents m' c) (Proc.devRef .tc Cert.ReferenceIdeal.main_v326)
    ∧ Cert.KernelIdeal.KVal.k278 m c = after ops (launchContents m' c) (Proc.devRef .tc Cert.ReferenceIdeal.main_v256) :=
  ⟨(E_vout m m' c hagree hreal3 hreal18).trans (RV_eq _ _), (E_attn m m' c hagree).trans (RV_eq _ _)⟩

end Cert.Final

end
-- ==== Proof.LibFiniteBlock.lean ====
/- An array that passes the finiteness test holds real numbers. The test takes the absolute value of every entry, compares it
   with `+inf` (strictly below), and reduces the comparisons by `and` to one bit. On the extended reals the absolute value is
   `max x (−x)`, which is `+∞` at both infinities, so an entry strictly below `+∞` in absolute value is a real number; and a
   reduction by `and` that ends at 1 had a 1 at every index. -/
import Idealize.ShloMosaic.Lib.ReduceAll
import Idealize.ShloMosaic.Lib.Pipeline.Value
import Idealize.ShloMosaic.Lib.ValueIdx
import Idealize.ShloMosaic.PureOps.Ideal.Laws

noncomputable section

namespace Cert.LibFiniteBlock

open Idealize.ShloMosaic Idealize.ShloMosaic.ValueIdx

/-- The word of `+inf` denotes the top of the extended reals. -/
theorem ofBits_inf : Ideal.ofBits .f32 0x7F800000#32 = ⊤ := by
  simp [Ideal.ofBits, Ideal.ieee]

/-- An extended real whose absolute value is strictly below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test bit is 1 only for a real entry. -/
theorem real_of_test (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf] at h
  refine real_of_abs_lt_top x ?_
  by_contra hn
  have : FloatOps.cmpf (F := Ideal) (φ := .f32) .olt (FloatOps.hostAbsf (F := Ideal) (φ := .f32) x) (⊤ : EReal) = 0#1 := by
    show BitVec.ofBool (decide (max x (-x) < ⊤)) = 0#1
    rw [decide_eq_false hn]; rfl
  rw [this] at h
  exact absurd h (by decide)

/-- An array that passes the finiteness test holds a real number at every index. -/
theorem block_real {s : Shape} {axes : List (Fin s.rank)} (x : FVec Ideal s .f32) (dims : Fin 0 → Fin s.rank)
    (hb : (⟨0, ![]⟩ : Shape).BroadcastsInDim s dims) (hr : s.ReducesTo axes ⟨0, ![]⟩) (hu : 0 < (⟨0, ![]⟩ : Shape).numel)
    (init : IVec ⟨0, ![]⟩ 1)
    (e : Host.reduce IntOp.andi
        (cmpf .olt (Host.absf x) (broadcastInDim s dims hb (constant (F := Ideal) ⟨0, ![]⟩ .f32 0x7F800000#32))) init hr hu ix0 = 1#1)
    (i : s.Idx) : ∃ r : ℝ, x i = (r : EReal) := by
  haveI : Subsingleton (⟨0, ![]⟩ : Shape).Idx := ⟨fun a b => funext fun d => d.elim0⟩
  have h1 := Host.reduce_andi_all _ init hr hu ix0 e i
  rw [cmpf_apply, broadcastInDim_apply dims hb _ i ix0 (fun ax => ax.elim0), constant_apply] at h1
  exact real_of_test (x i) h1

end Cert.LibFiniteBlock

end
-- ==== Proof.PreFin.lean ====
import proofs.«173394_j29068338659455_2_alg».proof.Pre_finite_inputs
import proofs.«173394_j29068338659455_2_alg».proof.Proof.Gen.Pre_finite_inputs
import proofs.«173394_j29068338659455_2_alg».proof.Proof.LibFiniteBlock
import Idealize.ShloMosaic.Lib.Affine

/-! The precondition is the conjunction, by `and` of single bits, of one finiteness test per float argument, nested to the left
in the order of the arguments. When it holds every test's bit is 1, so every entry of that argument is a real number (the lemma
on one test). Stated for the two arguments whose finiteness the value proof uses: the voxel features, whose first three columns
are the positions, and the voxel message weights, whose last three rows multiply the relative position. -/

set_option maxRecDepth 16384

noncomputable section

namespace Cert.PreFin

open Idealize.ShloMosaic Idealize.ShloMosaic.ValueIdx Cert.Pre_finite_inputs Cert.Pre_finite_inputs.Gen

/-- The conjunction of two single bits is 1 only if both are. -/
theorem andi_ix0 (a b : IVec S_ 1) (h : andi a b ix0 = 1#1) : a ix0 = 1#1 ∧ b ix0 = 1#1 :=
  IntOp.andi_eq_one.mp h

/-- Under the precondition every entry of the voxel features and of the voxel message weights is a real number. -/
theorem reals (a0 : FVec Ideal S5000x32 .f32) (a1 : FVec Ideal S5000x32 .f32) (a2 : FVec Ideal S5000x1 .f32) (a3 : FVec Ideal S100000x16 .f32) (a4 : FVec Ideal S100000x32 .f32) (a5 : IVec S2x80000 32) (a6 : IVec S5000 32) (a7 : IVec S2x600000 32) (a8 : IVec S300000 32) (a9 : IVec S300000 32) (a10 : FVec Ideal S64x128 .f32) (a11 : FVec Ideal S128 .f32) (a12 : FVec Ideal S3x256x128 .f32) (a13 : FVec Ideal S3x128 .f32) (a14 : FVec Ideal S3x384x128 .f32) (a15 : FVec Ideal S3x128 .f32) (a16 : FVec Ideal S48x128 .f32) (a17 : FVec Ideal S128 .f32) (a18 : FVec Ideal S259x128 .f32) (a19 : FVec Ideal S128 .f32) (a20 : FVec Ideal S256x128 .f32) (a21 : FVec Ideal S128 .f32) (a22 : FVec Ideal S256x128 .f32) (a23 : FVec Ideal S128 .f32) (a24 : FVec Ideal S128x1 .f32) (a25 : FVec Ideal S1 .f32)
    (h : fn (F := Ideal) a0 a1 a2 a3 a4 a5 a6 a7 a8 a9 a10 a11 a12 a13 a14 a15 a16 a17 a18 a19 a20 a21 a22 a23 a24 a25 = fun _ => 1#1) :
    (∀ i, ∃ r : ℝ, a3 i = (r : EReal)) ∧ (∀ i, ∃ r : ℝ, a18 i = (r : EReal)) := by
  have h0 := congrFun h ix0
  dsimp only [fn, fn_part1, fn_part2, fn_part3, fn_part4, fn_part5, fn_part6] at h0
  -- drop the tests after the one wanted, outermost first
  have e20 := andi_ix0 _ _ h0
  have e19 := andi_ix0 _ _ e20.1
  have e18 := andi_ix0 _ _ e19.1
  have e17 := andi_ix0 _ _ e18.1
  have e16 := andi_ix0 _ _ e17.1
  have e15 := andi_ix0 _ _ e16.1
  have e14 := andi_ix0 _ _ e15.1
  have e13 := andi_ix0 _ _ e14.1
  have e12 := andi_ix0 _ _ e13.1
  have e11 := andi_ix0 _ _ e12.1
  have e10 := andi_ix0 _ _ e11.1
  have e9 := andi_ix0 _ _ e10.1
  have e8 := andi_ix0 _ _ e9.1
  have e7 := andi_ix0 _ _ e8.1
  have e6 := andi_ix0 _ _ e7.1
  have e5 := andi_ix0 _ _ e6.1
  have e4 := andi_ix0 _ _ e5.1
  have e3 := andi_ix0 _ _ e4.1
  exact ⟨fun i => Cert.LibFiniteBlock.block_real a3 _ _ _ _ _ e3.2 i, fun i => Cert.LibFiniteBlock.block_real a18 _ _ _ _ _ e13.2 i⟩

end Cert.PreFin

end
-- ==== Proof.lean ====
/- The five claims of this certificate.

   The kernel program is seventeen pallas regions among stretches of host operations: a graph network whose every dense layer
   (a matrix product, a bias row, an activation, sometimes a residual) is a pallas region over row blocks, and whose gathers,
   segment sums, softmax and concatenations are host operations. The reference is the same network as plain host operations.

   Frames. Each region's body loads its input blocks whole and overwrites its output block whole with one pure function of them,
   so the pipeline's body obligation holds at every grid point with the output's staging buffer at that function of the input
   blocks; the program's run is then the run of its 34 segments, every unscoped buffer of every core ending at the last boundary's
   contents, and no segment writes an argument. The same text proves the word-level program's frame and the idealized one's.
   The reference is a line of host operations: it runs to the operations' composed term, and no operation writes an argument.

   Values. Over the extended reals a change of float format is the identity, so the kernel's bf16 tables are the f32 ones; the
   kernel applies each edge-level matrix product at node level and gathers the projected rows, which is the reference's product of
   the concatenated gathered rows with the stacked weight matrix re-associated (a finite sum split at the concatenation's seam),
   except in the voxel message, where the relative position (pos_i - pos_j) times the weight rows is distributed over the
   difference: that needs the positions and those weight rows finite, which the precondition gives. -/
import proofs.«173394_j29068338659455_2_alg».proof.Defs
import proofs.«173394_j29068338659455_2_alg».proof.Proof.Gen.Kernel
import proofs.«173394_j29068338659455_2_alg».proof.Proof.Gen.KernelIdeal
import proofs.«173394_j29068338659455_2_alg».proof.Proof.Gen.ReferenceIdeal
import proofs.«173394_j29068338659455_2_alg».proof.Proof.Gen.Pre_finite_inputs
import proofs.«173394_j29068338659455_2_alg».proof.Proof.KB.Frame
import proofs.«173394_j29068338659455_2_alg».proof.Proof.KI.Frame
import proofs.«173394_j29068338659455_2_alg».proof.Proof.Ref.Frame
import proofs.«173394_j29068338659455_2_alg».proof.Proof.Final
import proofs.«173394_j29068338659455_2_alg».proof.Proof.KI.KVal
import proofs.«173394_j29068338659455_2_alg».proof.Proof.PreFin
import proofs.«173394_j29068338659455_2_alg».proof.Proof.Ref.Stages
import proofs.«173394_j29068338659455_2_alg».proof.Proof.BridgeDense
import proofs.«173394_j29068338659455_2_alg».proof.Proof.BridgeEnc
import proofs.«173394_j29068338659455_2_alg».proof.Proof.BridgeMsg
import proofs.«173394_j29068338659455_2_alg».proof.Proof.BridgeInst
import proofs.«173394_j29068338659455_2_alg».proof.Proof.BridgeInst2
import proofs.«173394_j29068338659455_2_alg».proof.Proof.BridgeAttn
import proofs.«173394_j29068338659455_2_alg».proof.Proof.BridgeVox
import Idealize.ShloMosaic.Adequacy
import Idealize.ShloMosaic.Init

noncomputable section

namespace Cert.Proof

open Idealize.ShloMosaic Idealize.SL.Sem

theorem frame_p : Cert.frame_Kernel := fun m ρ _ => Cert.Kernel.Fr.frame m ρ
theorem frame_pi : Cert.frame_KernelIdeal := fun m ρ _ => Cert.KernelIdeal.Fr.frame m ρ

theorem frame_ri : Cert.frame_ReferenceIdeal := Cert.ReferenceIdeal.RefRun.frame_ri

/-- The two idealized programs, run from memories that agree on the arguments, end with equal results: the kernel program's two
    results are named functions of its arguments (the run of its 34 segments read back), the reference's are its operations' fold,
    and cut point by cut point the two are the same function of the arguments; the precondition supplies the two finiteness facts
    the voxel message's distributive step needs. -/
theorem algebraic : Cert.algebraic_KernelIdeal_ReferenceIdeal := by
  intro m ρ m' ρ' hpre hagree
  refine ⟨fun c => Cert.KernelIdeal.KVal.k351 m c, fun c => Cert.KernelIdeal.KVal.k278 m c, Cert.KernelIdeal.KVal.run m ρ, ?_⟩
  refine (θ_run (Cert.ReferenceIdeal.defs (F := Ideal)) _ _).mono (fun r h c => ?_) (Cert.ReferenceIdeal.RefRun.run_all (F := Ideal) m' ρ')
  have hr := Cert.PreFin.reals (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (hpre c)
  have hf := Cert.Final.results m m' c hr.1 hr.2 ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2⟩
  exact ⟨(h c _).trans hf.1.symm, (h c _).trans hf.2.symm,
    (h c _).trans (Cert.ReferenceIdeal.RefRun.arg_kept0 _),
    (h c _).trans (Cert.ReferenceIdeal.RefRun.arg_kept1 _),
    (h c _).trans (Cert.ReferenceIdeal.RefRun.arg_kept2 _),
    (h c _).trans (Cert.ReferenceIdeal.RefRun.arg_kept3 _),
    (h c _).trans (Cert.ReferenceIdeal.RefRun.arg_kept4 _),
    (h c _).trans (Cert.ReferenceIdeal.RefRun.arg_kept5 _),
    (h c _).trans (Cert.ReferenceIdeal.RefRun.arg_kept6 _),
    (h c _).trans (Cert.ReferenceIdeal.RefRun.arg_kept7 _),
    (h c _).trans (Cert.ReferenceIdeal.RefRun.arg_kept8 _),
    (h c _).trans (Cert.ReferenceIdeal.RefRun.arg_kept9 _),
    (h c _).trans (Cert.ReferenceIdeal.RefRun.arg_kept10 _),
    (h c _).trans (Cert.ReferenceIdeal.RefRun.arg_kept11 _),
    (h c _).trans (Cert.ReferenceIdeal.RefRun.arg_kept12 _),
    (h c _).trans (Cert.ReferenceIdeal.RefRun.arg_kept13 _),
    (h c _).trans (Cert.ReferenceIdeal.RefRun.arg_kept14 _),
    (h c _).trans (Cert.ReferenceIdeal.RefRun.arg_kept15 _),
    (h c _).trans (Cert.ReferenceIdeal.RefRun.arg_kept16 _),
    (h c _).trans (Cert.ReferenceIdeal.RefRun.arg_kept17 _),
    (h c _).trans (Cert.ReferenceIdeal.RefRun.arg_kept18 _),
    (h c _).trans (Cert.ReferenceIdeal.RefRun.arg_kept19 _),
    (h c _).trans (Cert.ReferenceIdeal.RefRun.arg_kept20 _),
    (h c _).trans (Cert.ReferenceIdeal.RefRun.arg_kept21 _),
    (h c _).trans (Cert.ReferenceIdeal.RefRun.arg_kept22 _),
    (h c _).trans (Cert.ReferenceIdeal.RefRun.arg_kept23 _),
    (h c _).trans (Cert.ReferenceIdeal.RefRun.arg_kept24 _),
    (h c _).trans (Cert.ReferenceIdeal.RefRun.arg_kept25 _)⟩

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
